-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1000000x64 : Shape := ⟨2, ![1000000, 64]⟩
abbrev S64x1000000 : Shape := ⟨2, ![64, 1000000]⟩
abbrev S507904x128 : Shape := ⟨2, ![507904, 128]⟩
abbrev S64x32768 : Shape := ⟨2, ![64, 32768]⟩
abbrev S16384x128 : Shape := ⟨2, ![16384, 128]⟩
abbrev S64x16384 : Shape := ⟨2, ![64, 16384]⟩
abbrev S128x16384 : Shape := ⟨2, ![128, 16384]⟩
abbrev S512 : Shape := ⟨1, ![512]⟩
abbrev S512x128 : Shape := ⟨2, ![512, 128]⟩
abbrev S64x512 : Shape := ⟨2, ![64, 512]⟩
abbrev S_ : Shape := ⟨0, ![]⟩
abbrev S16 : Shape := ⟨1, ![16]⟩
abbrev S16384x64 : Shape := ⟨2, ![16384, 64]⟩

abbrev nBuf : Table → Nat
  | .hbm => 6
  | .local .tc .vmem => 4
  | .local .scVector .vmem => 5
  | _ => 0

abbrev bufTy : (tb : Table) → Fin (nBuf tb) → BufTy
  | .hbm, ⟨0, _⟩ => ⟨S16384, .i32⟩
  | .hbm, ⟨1, _⟩ => ⟨S1000000x64, .f32⟩
  | .hbm, ⟨2, _⟩ => ⟨S64x1000000, .f32⟩
  | .hbm, ⟨3, _⟩ => ⟨S507904x128, .f32⟩
  | .hbm, ⟨4, _⟩ => ⟨S64x16384, .f32⟩
  | .hbm, ⟨5, _⟩ => ⟨S16384x64, .f32⟩
  | .local .tc .vmem, ⟨0, _⟩ => ⟨S64x32768, .f32⟩
  | .local .tc .vmem, ⟨1, _⟩ => ⟨S64x32768, .f32⟩
  | .local .tc .vmem, ⟨2, _⟩ => ⟨S16384x128, .f32⟩
  | .local .tc .vmem, ⟨3, _⟩ => ⟨S16384x128, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S512x128, .f32⟩
  | .local .scVector .vmem, ⟨4, _⟩ => ⟨S64x512, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_arg0_scv : Ref sig .scVector := ⟨.hbm, 0, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_254 : BitVec 32 := 0#32
  let c4_i32 : BitVec 32 := 4#32
  let v518 : BitVec 32 := Scalar.addi c0_i32_254 c4_i32
  let c1_i32_255 : BitVec 32 := 1#32
  ⟨c0_i32_254, v518, c1_i32_255⟩
def k1_off2 (k1_t1 : Fin k1_t1_loop.trips) : Fin 1 → Nat :=
  let c0_i32_254 : BitVec 32 := 0#32
  let c1_i32_255 : BitVec 32 := 1#32
  let arg11 : BitVec 32 := Scf.iv c0_i32_254 c1_i32_255 k1_t1
  let c128_i32_258 : BitVec 32 := 128#32
  let v523 : BitVec 32 := Scalar.muli arg11 c128_i32_258
  let c0_i32_259 : BitVec 32 := 0#32
  let v524 : BitVec 32 := Scalar.addi v523 c0_i32_259
  let v525 : Index := Scalar.indexCast v524
  ![v525.toNat]

def k1_chk1 (v522 : IVec S16 32) (v528 : IVec S16 32) : Prop :=
  (∀ a x, ((![v522, v528] : Fin 2 → IVec S16 32) a x).toNat < S512x128.size a)
instance k1_chk1.dec : ∀ (v522 : IVec S16 32) (v528 : IVec S16 32), Decidable (k1_chk1 v522 v528) := fun v522 v528 => decidable_of_iff' _ (Iff.of_eq (k1_chk1.eq_1 v522 v528))
theorem k1_idx1_inb : ∀ (v522 : IVec S16 32) (v528 : IVec S16 32) (k1_hw1 : k1_chk1 v522 v528), ∀ a x, ((![v522, v528] : Fin 2 → IVec S16 32) a x).toNat < S512x128.size a := fun v522 v528 k1_hw1 => k1_hw1

def k1_chk2 (v522 : IVec S16 32) (v527 : IVec S16 32) : Prop :=
  (∀ a x, ((![v527, v522] : Fin 2 → IVec S16 32) a x).toNat < S64x512.size a)
instance k1_chk2.dec : ∀ (v522 : IVec S16 32) (v527 : IVec S16 32), Decidable (k1_chk2 v522 v527) := fun v522 v527 => decidable_of_iff' _ (Iff.of_eq (k1_chk2.eq_1 v522 v527))
theorem k1_idx2_inb : ∀ (v522 : IVec S16 32) (v527 : IVec S16 32) (k1_hw2 : k1_chk2 v522 v527), ∀ a x, ((![v527, v522] : Fin 2 → IVec S16 32) a x).toNat < S64x512.size a := fun v522 v527 k1_hw2 => k1_hw2

def k1_chk3 (v522 : IVec S16 32) (v531 : IVec S16 32) : Prop :=
  (∀ a x, ((![v522, v531] : Fin 2 → IVec S16 32) a x).toNat < S512x128.size a)
instance k1_chk3.dec : ∀ (v522 : IVec S16 32) (v531 : IVec S16 32), Decidable (k1_chk3 v522 v531) := fun v522 v531 => decidable_of_iff' _ (Iff.of_eq (k1_chk3.eq_1 v522 v531))
theorem k1_idx3_inb : ∀ (v522 : IVec S16 32) (v531 : IVec S16 32) (k1_hw3 : k1_chk3 v522 v531), ∀ a x, ((![v522, v531] : Fin 2 → IVec S16 32) a x).toNat < S512x128.size a := fun v522 v531 k1_hw3 => k1_hw3

def k1_chk4 (v522 : IVec S16 32) (v530 : IVec S16 32) : Prop :=
  (∀ a x, ((![v530, v522] : Fin 2 → IVec S16 32) a x).toNat < S64x512.size a)
instance k1_chk4.dec : ∀ (v522 : IVec S16 32) (v530 : IVec S16 32), Decidable (k1_chk4 v522 v530) := fun v522 v530 => decidable_of_iff' _ (Iff.of_eq (k1_chk4.eq_1 v522 v530))
theorem k1_idx4_inb : ∀ (v522 : IVec S16 32) (v530 : IVec S16 32) (k1_hw4 : k1_chk4 v522 v530), ∀ a x, ((![v530, v522] : Fin 2 → IVec S16 32) a x).toNat < S64x512.size a := fun v522 v530 k1_hw4 => k1_hw4

def k1_chk5 (v522 : IVec S16 32) (v534 : IVec S16 32) : Prop :=
  (∀ a x, ((![v522, v534] : Fin 2 → IVec S16 32) a x).toNat < S512x128.size a)
instance k1_chk5.dec : ∀ (v522 : IVec S16 32) (v534 : IVec S16 32), Decidable (k1_chk5 v522 v534) := fun v522 v534 => decidable_of_iff' _ (Iff.of_eq (k1_chk5.eq_1 v522 v534))
theorem k1_idx5_inb : ∀ (v522 : IVec S16 32) (v534 : IVec S16 32) (k1_hw5 : k1_chk5 v522 v534), ∀ a x, ((![v522, v534] : Fin 2 → IVec S16 32) a x).toNat < S512x128.size a := fun v522 v534 k1_hw5 => k1_hw5

def k1_chk6 (v522 : IVec S16 32) (v533 : IVec S16 32) : Prop :=
  (∀ a x, ((![v533, v522] : Fin 2 → IVec S16 32) a x).toNat < S64x512.size a)
instance k1_chk6.dec : ∀ (v522 : IVec S16 32) (v533 : IVec S16 32), Decidable (k1_chk6 v522 v533) := fun v522 v533 => decidable_of_iff' _ (Iff.of_eq (k1_chk6.eq_1 v522 v533))
theorem k1_idx6_inb : ∀ (v522 : IVec S16 32) (v533 : IVec S16 32) (k1_hw6 : k1_chk6 v522 v533), ∀ a x, ((![v533, v522] : Fin 2 → IVec S16 32) a x).toNat < S64x512.size a := fun v522 v533 k1_hw6 => k1_hw6

def k1_chk7 (v522 : IVec S16 32) (v537 : IVec S16 32) : Prop :=
  (∀ a x, ((![v522, v537] : Fin 2 → IVec S16 32) a x).toNat < S512x128.size a)
instance k1_chk7.dec : ∀ (v522 : IVec S16 32) (v537 : IVec S16 32), Decidable (k1_chk7 v522 v537) := fun v522 v537 => decidable_of_iff' _ (Iff.of_eq (k1_chk7.eq_1 v522 v537))
theorem k1_idx7_inb : ∀ (v522 : IVec S16 32) (v537 : IVec S16 32) (k1_hw7 : k1_chk7 v522 v537), ∀ a x, ((![v522, v537] : Fin 2 → IVec S16 32) a x).toNat < S512x128.size a := fun v522 v537 k1_hw7 => k1_hw7

def k1_chk8 (v522 : IVec S16 32) (v536 : IVec S16 32) : Prop :=
  (∀ a x, ((![v536, v522] : Fin 2 → IVec S16 32) a x).toNat < S64x512.size a)
instance k1_chk8.dec : ∀ (v522 : IVec S16 32) (v536 : IVec S16 32), Decidable (k1_chk8 v522 v536) := fun v522 v536 => decidable_of_iff' _ (Iff.of_eq (k1_chk8.eq_1 v522 v536))
theorem k1_idx8_inb : ∀ (v522 : IVec S16 32) (v536 : IVec S16 32) (k1_hw8 : k1_chk8 v522 v536), ∀ a x, ((![v536, v522] : Fin 2 → IVec S16 32) a x).toNat < S64x512.size a := fun v522 v536 k1_hw8 => k1_hw8

def k1_chk9 (v522 : IVec S16 32) (v540 : IVec S16 32) : Prop :=
  (∀ a x, ((![v522, v540] : Fin 2 → IVec S16 32) a x).toNat < S512x128.size a)
instance k1_chk9.dec : ∀ (v522 : IVec S16 32) (v540 : IVec S16 32), Decidable (k1_chk9 v522 v540) := fun v522 v540 => decidable_of_iff' _ (Iff.of_eq (k1_chk9.eq_1 v522 v540))
theorem k1_idx9_inb : ∀ (v522 : IVec S16 32) (v540 : IVec S16 32) (k1_hw9 : k1_chk9 v522 v540), ∀ a x, ((![v522, v540] : Fin 2 → IVec S16 32) a x).toNat < S512x128.size a := fun v522 v540 k1_hw9 => k1_hw9

def k1_chk10 (v522 : IVec S16 32) (v539 : IVec S16 32) : Prop :=
  (∀ a x, ((![v539, v522] : Fin 2 → IVec S16 32) a x).toNat < S64x512.size a)
instance k1_chk10.dec : ∀ (v522 : IVec S16 32) (v539 : IVec S16 32), Decidable (k1_chk10 v522 v539) := fun v522 v539 => decidable_of_iff' _ (Iff.of_eq (k1_chk10.eq_1 v522 v539))
theorem k1_idx10_inb : ∀ (v522 : IVec S16 32) (v539 : IVec S16 32) (k1_hw10 : k1_chk10 v522 v539), ∀ a x, ((![v539, v522] : Fin 2 → IVec S16 32) a x).toNat < S64x512.size a := fun v522 v539 k1_hw10 => k1_hw10

def k1_chk11 (v522 : IVec S16 32) (v543 : IVec S16 32) : Prop :=
  (∀ a x, ((![v522, v543] : Fin 2 → IVec S16 32) a x).toNat < S512x128.size a)
instance k1_chk11.dec : ∀ (v522 : IVec S16 32) (v543 : IVec S16 32), Decidable (k1_chk11 v522 v543) := fun v522 v543 => decidable_of_iff' _ (Iff.of_eq (k1_chk11.eq_1 v522 v543))
theorem k1_idx11_inb : ∀ (v522 : IVec S16 32) (v543 : IVec S16 32) (k1_hw11 : k1_chk11 v522 v543), ∀ a x, ((![v522, v543] : Fin 2 → IVec S16 32) a x).toNat < S512x128.size a := fun v522 v543 k1_hw11 => k1_hw11

def k1_chk12 (v522 : IVec S16 32) (v542 : IVec S16 32) : Prop :=
  (∀ a x, ((![v542, v522] : Fin 2 → IVec S16 32) a x).toNat < S64x512.size a)
instance k1_chk12.dec : ∀ (v522 : IVec S16 32) (v542 : IVec S16 32), Decidable (k1_chk12 v522 v542) := fun v522 v542 => decidable_of_iff' _ (Iff.of_eq (k1_chk12.eq_1 v522 v542))
theorem k1_idx12_inb : ∀ (v522 : IVec S16 32) (v542 : IVec S16 32) (k1_hw12 : k1_chk12 v522 v542), ∀ a x, ((![v542, v522] : Fin 2 → IVec S16 32) a x).toNat < S64x512.size a := fun v522 v542 k1_hw12 => k1_hw12

def k1_chk13 (v522 : IVec S16 32) (v546 : IVec S16 32) : Prop :=
  (∀ a x, ((![v522, v546] : Fin 2 → IVec S16 32) a x).toNat < S512x128.size a)
instance k1_chk13.dec : ∀ (v522 : IVec S16 32) (v546 : IVec S16 32), Decidable (k1_chk13 v522 v546) := fun v522 v546 => decidable_of_iff' _ (Iff.of_eq (k1_chk13.eq_1 v522 v546))
theorem k1_idx13_inb : ∀ (v522 : IVec S16 32) (v546 : IVec S16 32) (k1_hw13 : k1_chk13 v522 v546), ∀ a x, ((![v522, v546] : Fin 2 → IVec S16 32) a x).toNat < S512x128.size a := fun v522 v546 k1_hw13 => k1_hw13

def k1_chk14 (v522 : IVec S16 32) (v545 : IVec S16 32) : Prop :=
  (∀ a x, ((![v545, v522] : Fin 2 → IVec S16 32) a x).toNat < S64x512.size a)
instance k1_chk14.dec : ∀ (v522 : IVec S16 32) (v545 : IVec S16 32), Decidable (k1_chk14 v522 v545) := fun v522 v545 => decidable_of_iff' _ (Iff.of_eq (k1_chk14.eq_1 v522 v545))
theorem k1_idx14_inb : ∀ (v522 : IVec S16 32) (v545 : IVec S16 32) (k1_hw14 : k1_chk14 v522 v545), ∀ a x, ((![v545, v522] : Fin 2 → IVec S16 32) a x).toNat < S64x512.size a := fun v522 v545 k1_hw14 => k1_hw14

def k1_chk15 (v522 : IVec S16 32) (v549 : IVec S16 32) : Prop :=
  (∀ a x, ((![v522, v549] : Fin 2 → IVec S16 32) a x).toNat < S512x128.size a)
instance k1_chk15.dec : ∀ (v522 : IVec S16 32) (v549 : IVec S16 32), Decidable (k1_chk15 v522 v549) := fun v522 v549 => decidable_of_iff' _ (Iff.of_eq (k1_chk15.eq_1 v522 v549))
theorem k1_idx15_inb : ∀ (v522 : IVec S16 32) (v549 : IVec S16 32) (k1_hw15 : k1_chk15 v522 v549), ∀ a x, ((![v522, v549] : Fin 2 → IVec S16 32) a x).toNat < S512x128.size a := fun v522 v549 k1_hw15 => k1_hw15

def k1_chk16 (v522 : IVec S16 32) (v548 : IVec S16 32) : Prop :=
  (∀ a x, ((![v548, v522] : Fin 2 → IVec S16 32) a x).toNat < S64x512.size a)
instance k1_chk16.dec : ∀ (v522 : IVec S16 32) (v548 : IVec S16 32), Decidable (k1_chk16 v522 v548) := fun v522 v548 => decidable_of_iff' _ (Iff.of_eq (k1_chk16.eq_1 v522 v548))
theorem k1_idx16_inb : ∀ (v522 : IVec S16 32) (v548 : IVec S16 32) (k1_hw16 : k1_chk16 v522 v548), ∀ a x, ((![v548, v522] : Fin 2 → IVec S16 32) a x).toNat < S64x512.size a := fun v522 v548 k1_hw16 => k1_hw16

def k1_chk17 (v522 : IVec S16 32) (v552 : IVec S16 32) : Prop :=
  (∀ a x, ((![v522, v552] : Fin 2 → IVec S16 32) a x).toNat < S512x128.size a)
instance k1_chk17.dec : ∀ (v522 : IVec S16 32) (v552 : IVec S16 32), Decidable (k1_chk17 v522 v552) := fun v522 v552 => decidable_of_iff' _ (Iff.of_eq (k1_chk17.eq_1 v522 v552))
theorem k1_idx17_inb : ∀ (v522 : IVec S16 32) (v552 : IVec S16 32) (k1_hw17 : k1_chk17 v522 v552), ∀ a x, ((![v522, v552] : Fin 2 → IVec S16 32) a x).toNat < S512x128.size a := fun v522 v552 k1_hw17 => k1_hw17

def k1_chk18 (v522 : IVec S16 32) (v551 : IVec S16 32) : Prop :=
  (∀ a x, ((![v551, v522] : Fin 2 → IVec S16 32) a x).toNat < S64x512.size a)
instance k1_chk18.dec : ∀ (v522 : IVec S16 32) (v551 : IVec S16 32), Decidable (k1_chk18 v522 v551) := fun v522 v551 => decidable_of_iff' _ (Iff.of_eq (k1_chk18.eq_1 v522 v551))
theorem k1_idx18_inb : ∀ (v522 : IVec S16 32) (v551 : IVec S16 32) (k1_hw18 : k1_chk18 v522 v551), ∀ a x, ((![v551, v522] : Fin 2 → IVec S16 32) a x).toNat < S64x512.size a := fun v522 v551 k1_hw18 => k1_hw18

def k1_chk19 (v522 : IVec S16 32) (v555 : IVec S16 32) : Prop :=
  (∀ a x, ((![v522, v555] : Fin 2 → IVec S16 32) a x).toNat < S512x128.size a)
instance k1_chk19.dec : ∀ (v522 : IVec S16 32) (v555 : IVec S16 32), Decidable (k1_chk19 v522 v555) := fun v522 v555 => decidable_of_iff' _ (Iff.of_eq (k1_chk19.eq_1 v522 v555))
theorem k1_idx19_inb : ∀ (v522 : IVec S16 32) (v555 : IVec S16 32) (k1_hw19 : k1_chk19 v522 v555), ∀ a x, ((![v522, v555] : Fin 2 → IVec S16 32) a x).toNat < S512x128.size a := fun v522 v555 k1_hw19 => k1_hw19

def k1_chk20 (v522 : IVec S16 32) (v554 : IVec S16 32) : Prop :=
  (∀ a x, ((![v554, v522] : Fin 2 → IVec S16 32) a x).toNat < S64x512.size a)
instance k1_chk20.dec : ∀ (v522 : IVec S16 32) (v554 : IVec S16 32), Decidable (k1_chk20 v522 v554) := fun v522 v554 => decidable_of_iff' _ (Iff.of_eq (k1_chk20.eq_1 v522 v554))
theorem k1_idx20_inb : ∀ (v522 : IVec S16 32) (v554 : IVec S16 32) (k1_hw20 : k1_chk20 v522 v554), ∀ a x, ((![v554, v522] : Fin 2 → IVec S16 32) a x).toNat < S64x512.size a := fun v522 v554 k1_hw20 => k1_hw20

def k1_chk21 (v522 : IVec S16 32) (v558 : IVec S16 32) : Prop :=
  (∀ a x, ((![v522, v558] : Fin 2 → IVec S16 32) a x).toNat < S512x128.size a)
instance k1_chk21.dec : ∀ (v522 : IVec S16 32) (v558 : IVec S16 32), Decidable (k1_chk21 v522 v558) := fun v522 v558 => decidable_of_iff' _ (Iff.of_eq (k1_chk21.eq_1 v522 v558))
theorem k1_idx21_inb : ∀ (v522 : IVec S16 32) (v558 : IVec S16 32) (k1_hw21 : k1_chk21 v522 v558), ∀ a x, ((![v522, v558] : Fin 2 → IVec S16 32) a x).toNat < S512x128.size a := fun v522 v558 k1_hw21 => k1_hw21

def k1_chk22 (v522 : IVec S16 32) (v557 : IVec S16 32) : Prop :=
  (∀ a x, ((![v557, v522] : Fin 2 → IVec S16 32) a x).toNat < S64x512.size a)
instance k1_chk22.dec : ∀ (v522 : IVec S16 32) (v557 : IVec S16 32), Decidable (k1_chk22 v522 v557) := fun v522 v557 => decidable_of_iff' _ (Iff.of_eq (k1_chk22.eq_1 v522 v557))
theorem k1_idx22_inb : ∀ (v522 : IVec S16 32) (v557 : IVec S16 32) (k1_hw22 : k1_chk22 v522 v557), ∀ a x, ((![v557, v522] : Fin 2 → IVec S16 32) a x).toNat < S64x512.size a := fun v522 v557 k1_hw22 => k1_hw22

def k1_chk23 (v522 : IVec S16 32) (v561 : IVec S16 32) : Prop :=
  (∀ a x, ((![v522, v561] : Fin 2 → IVec S16 32) a x).toNat < S512x128.size a)
instance k1_chk23.dec : ∀ (v522 : IVec S16 32) (v561 : IVec S16 32), Decidable (k1_chk23 v522 v561) := fun v522 v561 => decidable_of_iff' _ (Iff.of_eq (k1_chk23.eq_1 v522 v561))
theorem k1_idx23_inb : ∀ (v522 : IVec S16 32) (v561 : IVec S16 32) (k1_hw23 : k1_chk23 v522 v561), ∀ a x, ((![v522, v561] : Fin 2 → IVec S16 32) a x).toNat < S512x128.size a := fun v522 v561 k1_hw23 => k1_hw23

def k1_chk24 (v522 : IVec S16 32) (v560 : IVec S16 32) : Prop :=
  (∀ a x, ((![v560, v522] : Fin 2 → IVec S16 32) a x).toNat < S64x512.size a)
instance k1_chk24.dec : ∀ (v522 : IVec S16 32) (v560 : IVec S16 32), Decidable (k1_chk24 v522 v560) := fun v522 v560 => decidable_of_iff' _ (Iff.of_eq (k1_chk24.eq_1 v522 v560))
theorem k1_idx24_inb : ∀ (v522 : IVec S16 32) (v560 : IVec S16 32) (k1_hw24 : k1_chk24 v522 v560), ∀ a x, ((![v560, v522] : Fin 2 → IVec S16 32) a x).toNat < S64x512.size a := fun v522 v560 k1_hw24 => k1_hw24

def k1_chk25 (v522 : IVec S16 32) (v564 : IVec S16 32) : Prop :=
  (∀ a x, ((![v522, v564] : Fin 2 → IVec S16 32) a x).toNat < S512x128.size a)
instance k1_chk25.dec : ∀ (v522 : IVec S16 32) (v564 : IVec S16 32), Decidable (k1_chk25 v522 v564) := fun v522 v564 => decidable_of_iff' _ (Iff.of_eq (k1_chk25.eq_1 v522 v564))
theorem k1_idx25_inb : ∀ (v522 : IVec S16 32) (v564 : IVec S16 32) (k1_hw25 : k1_chk25 v522 v564), ∀ a x, ((![v522, v564] : Fin 2 → IVec S16 32) a x).toNat < S512x128.size a := fun v522 v564 k1_hw25 => k1_hw25

def k1_chk26 (v522 : IVec S16 32) (v563 : IVec S16 32) : Prop :=
  (∀ a x, ((![v563, v522] : Fin 2 → IVec S16 32) a x).toNat < S64x512.size a)
instance k1_chk26.dec : ∀ (v522 : IVec S16 32) (v563 : IVec S16 32), Decidable (k1_chk26 v522 v563) := fun v522 v563 => decidable_of_iff' _ (Iff.of_eq (k1_chk26.eq_1 v522 v563))
theorem k1_idx26_inb : ∀ (v522 : IVec S16 32) (v563 : IVec S16 32) (k1_hw26 : k1_chk26 v522 v563), ∀ a x, ((![v563, v522] : Fin 2 → IVec S16 32) a x).toNat < S64x512.size a := fun v522 v563 k1_hw26 => k1_hw26

def k1_chk27 (v522 : IVec S16 32) (v567 : IVec S16 32) : Prop :=
  (∀ a x, ((![v522, v567] : Fin 2 → IVec S16 32) a x).toNat < S512x128.size a)
instance k1_chk27.dec : ∀ (v522 : IVec S16 32) (v567 : IVec S16 32), Decidable (k1_chk27 v522 v567) := fun v522 v567 => decidable_of_iff' _ (Iff.of_eq (k1_chk27.eq_1 v522 v567))
theorem k1_idx27_inb : ∀ (v522 : IVec S16 32) (v567 : IVec S16 32) (k1_hw27 : k1_chk27 v522 v567), ∀ a x, ((![v522, v567] : Fin 2 → IVec S16 32) a x).toNat < S512x128.size a := fun v522 v567 k1_hw27 => k1_hw27

def k1_chk28 (v522 : IVec S16 32) (v566 : IVec S16 32) : Prop :=
  (∀ a x, ((![v566, v522] : Fin 2 → IVec S16 32) a x).toNat < S64x512.size a)
instance k1_chk28.dec : ∀ (v522 : IVec S16 32) (v566 : IVec S16 32), Decidable (k1_chk28 v522 v566) := fun v522 v566 => decidable_of_iff' _ (Iff.of_eq (k1_chk28.eq_1 v522 v566))
theorem k1_idx28_inb : ∀ (v522 : IVec S16 32) (v566 : IVec S16 32) (k1_hw28 : k1_chk28 v522 v566), ∀ a x, ((![v566, v522] : Fin 2 → IVec S16 32) a x).toNat < S64x512.size a := fun v522 v566 k1_hw28 => k1_hw28

def k1_chk29 (v522 : IVec S16 32) (v570 : IVec S16 32) : Prop :=
  (∀ a x, ((![v522, v570] : Fin 2 → IVec S16 32) a x).toNat < S512x128.size a)
instance k1_chk29.dec : ∀ (v522 : IVec S16 32) (v570 : IVec S16 32), Decidable (k1_chk29 v522 v570) := fun v522 v570 => decidable_of_iff' _ (Iff.of_eq (k1_chk29.eq_1 v522 v570))
theorem k1_idx29_inb : ∀ (v522 : IVec S16 32) (v570 : IVec S16 32) (k1_hw29 : k1_chk29 v522 v570), ∀ a x, ((![v522, v570] : Fin 2 → IVec S16 32) a x).toNat < S512x128.size a := fun v522 v570 k1_hw29 => k1_hw29

def k1_chk30 (v522 : IVec S16 32) (v569 : IVec S16 32) : Prop :=
  (∀ a x, ((![v569, v522] : Fin 2 → IVec S16 32) a x).toNat < S64x512.size a)
instance k1_chk30.dec : ∀ (v522 : IVec S16 32) (v569 : IVec S16 32), Decidable (k1_chk30 v522 v569) := fun v522 v569 => decidable_of_iff' _ (Iff.of_eq (k1_chk30.eq_1 v522 v569))
theorem k1_idx30_inb : ∀ (v522 : IVec S16 32) (v569 : IVec S16 32) (k1_hw30 : k1_chk30 v522 v569), ∀ a x, ((![v569, v522] : Fin 2 → IVec S16 32) a x).toNat < S64x512.size a := fun v522 v569 k1_hw30 => k1_hw30

def k1_chk31 (v522 : IVec S16 32) (v573 : IVec S16 32) : Prop :=
  (∀ a x, ((![v522, v573] : Fin 2 → IVec S16 32) a x).toNat < S512x128.size a)
instance k1_chk31.dec : ∀ (v522 : IVec S16 32) (v573 : IVec S16 32), Decidable (k1_chk31 v522 v573) := fun v522 v573 => decidable_of_iff' _ (Iff.of_eq (k1_chk31.eq_1 v522 v573))
theorem k1_idx31_inb : ∀ (v522 : IVec S16 32) (v573 : IVec S16 32) (k1_hw31 : k1_chk31 v522 v573), ∀ a x, ((![v522, v573] : Fin 2 → IVec S16 32) a x).toNat < S512x128.size a := fun v522 v573 k1_hw31 => k1_hw31

def k1_chk32 (v522 : IVec S16 32) (v572 : IVec S16 32) : Prop :=
  (∀ a x, ((![v572, v522] : Fin 2 → IVec S16 32) a x).toNat < S64x512.size a)
instance k1_chk32.dec : ∀ (v522 : IVec S16 32) (v572 : IVec S16 32), Decidable (k1_chk32 v522 v572) := fun v522 v572 => decidable_of_iff' _ (Iff.of_eq (k1_chk32.eq_1 v522 v572))
theorem k1_idx32_inb : ∀ (v522 : IVec S16 32) (v572 : IVec S16 32) (k1_hw32 : k1_chk32 v522 v572), ∀ a x, ((![v572, v522] : Fin 2 → IVec S16 32) a x).toNat < S64x512.size a := fun v522 v572 k1_hw32 => k1_hw32

def k1_chk33 (v522 : IVec S16 32) (v576 : IVec S16 32) : Prop :=
  (∀ a x, ((![v522, v576] : Fin 2 → IVec S16 32) a x).toNat < S512x128.size a)
instance k1_chk33.dec : ∀ (v522 : IVec S16 32) (v576 : IVec S16 32), Decidable (k1_chk33 v522 v576) := fun v522 v576 => decidable_of_iff' _ (Iff.of_eq (k1_chk33.eq_1 v522 v576))
theorem k1_idx33_inb : ∀ (v522 : IVec S16 32) (v576 : IVec S16 32) (k1_hw33 : k1_chk33 v522 v576), ∀ a x, ((![v522, v576] : Fin 2 → IVec S16 32) a x).toNat < S512x128.size a := fun v522 v576 k1_hw33 => k1_hw33

def k1_chk34 (v522 : IVec S16 32) (v575 : IVec S16 32) : Prop :=
  (∀ a x, ((![v575, v522] : Fin 2 → IVec S16 32) a x).toNat < S64x512.size a)
instance k1_chk34.dec : ∀ (v522 : IVec S16 32) (v575 : IVec S16 32), Decidable (k1_chk34 v522 v575) := fun v522 v575 => decidable_of_iff' _ (Iff.of_eq (k1_chk34.eq_1 v522 v575))
theorem k1_idx34_inb : ∀ (v522 : IVec S16 32) (v575 : IVec S16 32) (k1_hw34 : k1_chk34 v522 v575), ∀ a x, ((![v575, v522] : Fin 2 → IVec S16 32) a x).toNat < S64x512.size a := fun v522 v575 k1_hw34 => k1_hw34

def k1_chk35 (v522 : IVec S16 32) (v579 : IVec S16 32) : Prop :=
  (∀ a x, ((![v522, v579] : Fin 2 → IVec S16 32) a x).toNat < S512x128.size a)
instance k1_chk35.dec : ∀ (v522 : IVec S16 32) (v579 : IVec S16 32), Decidable (k1_chk35 v522 v579) := fun v522 v579 => decidable_of_iff' _ (Iff.of_eq (k1_chk35.eq_1 v522 v579))
theorem k1_idx35_inb : ∀ (v522 : IVec S16 32) (v579 : IVec S16 32) (k1_hw35 : k1_chk35 v522 v579), ∀ a x, ((![v522, v579] : Fin 2 → IVec S16 32) a x).toNat < S512x128.size a := fun v522 v579 k1_hw35 => k1_hw35

def k1_chk36 (v522 : IVec S16 32) (v578 : IVec S16 32) : Prop :=
  (∀ a x, ((![v578, v522] : Fin 2 → IVec S16 32) a x).toNat < S64x512.size a)
instance k1_chk36.dec : ∀ (v522 : IVec S16 32) (v578 : IVec S16 32), Decidable (k1_chk36 v522 v578) := fun v522 v578 => decidable_of_iff' _ (Iff.of_eq (k1_chk36.eq_1 v522 v578))
theorem k1_idx36_inb : ∀ (v522 : IVec S16 32) (v578 : IVec S16 32) (k1_hw36 : k1_chk36 v522 v578), ∀ a x, ((![v578, v522] : Fin 2 → IVec S16 32) a x).toNat < S64x512.size a := fun v522 v578 k1_hw36 => k1_hw36

def k1_chk37 (v522 : IVec S16 32) (v582 : IVec S16 32) : Prop :=
  (∀ a x, ((![v522, v582] : Fin 2 → IVec S16 32) a x).toNat < S512x128.size a)
instance k1_chk37.dec : ∀ (v522 : IVec S16 32) (v582 : IVec S16 32), Decidable (k1_chk37 v522 v582) := fun v522 v582 => decidable_of_iff' _ (Iff.of_eq (k1_chk37.eq_1 v522 v582))
theorem k1_idx37_inb : ∀ (v522 : IVec S16 32) (v582 : IVec S16 32) (k1_hw37 : k1_chk37 v522 v582), ∀ a x, ((![v522, v582] : Fin 2 → IVec S16 32) a x).toNat < S512x128.size a := fun v522 v582 k1_hw37 => k1_hw37

def k1_chk38 (v522 : IVec S16 32) (v581 : IVec S16 32) : Prop :=
  (∀ a x, ((![v581, v522] : Fin 2 → IVec S16 32) a x).toNat < S64x512.size a)
instance k1_chk38.dec : ∀ (v522 : IVec S16 32) (v581 : IVec S16 32), Decidable (k1_chk38 v522 v581) := fun v522 v581 => decidable_of_iff' _ (Iff.of_eq (k1_chk38.eq_1 v522 v581))
theorem k1_idx38_inb : ∀ (v522 : IVec S16 32) (v581 : IVec S16 32) (k1_hw38 : k1_chk38 v522 v581), ∀ a x, ((![v581, v522] : Fin 2 → IVec S16 32) a x).toNat < S64x512.size a := fun v522 v581 k1_hw38 => k1_hw38

def k1_chk39 (v522 : IVec S16 32) (v585 : IVec S16 32) : Prop :=
  (∀ a x, ((![v522, v585] : Fin 2 → IVec S16 32) a x).toNat < S512x128.size a)
instance k1_chk39.dec : ∀ (v522 : IVec S16 32) (v585 : IVec S16 32), Decidable (k1_chk39 v522 v585) := fun v522 v585 => decidable_of_iff' _ (Iff.of_eq (k1_chk39.eq_1 v522 v585))
theorem k1_idx39_inb : ∀ (v522 : IVec S16 32) (v585 : IVec S16 32) (k1_hw39 : k1_chk39 v522 v585), ∀ a x, ((![v522, v585] : Fin 2 → IVec S16 32) a x).toNat < S512x128.size a := fun v522 v585 k1_hw39 => k1_hw39

def k1_chk40 (v522 : IVec S16 32) (v584 : IVec S16 32) : Prop :=
  (∀ a x, ((![v584, v522] : Fin 2 → IVec S16 32) a x).toNat < S64x512.size a)
instance k1_chk40.dec : ∀ (v522 : IVec S16 32) (v584 : IVec S16 32), Decidable (k1_chk40 v522 v584) := fun v522 v584 => decidable_of_iff' _ (Iff.of_eq (k1_chk40.eq_1 v522 v584))
theorem k1_idx40_inb : ∀ (v522 : IVec S16 32) (v584 : IVec S16 32) (k1_hw40 : k1_chk40 v522 v584), ∀ a x, ((![v584, v522] : Fin 2 → IVec S16 32) a x).toNat < S64x512.size a := fun v522 v584 k1_hw40 => k1_hw40

def k1_chk41 (v522 : IVec S16 32) (v588 : IVec S16 32) : Prop :=
  (∀ a x, ((![v522, v588] : Fin 2 → IVec S16 32) a x).toNat < S512x128.size a)
instance k1_chk41.dec : ∀ (v522 : IVec S16 32) (v588 : IVec S16 32), Decidable (k1_chk41 v522 v588) := fun v522 v588 => decidable_of_iff' _ (Iff.of_eq (k1_chk41.eq_1 v522 v588))
theorem k1_idx41_inb : ∀ (v522 : IVec S16 32) (v588 : IVec S16 32) (k1_hw41 : k1_chk41 v522 v588), ∀ a x, ((![v522, v588] : Fin 2 → IVec S16 32) a x).toNat < S512x128.size a := fun v522 v588 k1_hw41 => k1_hw41

def k1_chk42 (v522 : IVec S16 32) (v587 : IVec S16 32) : Prop :=
  (∀ a x, ((![v587, v522] : Fin 2 → IVec S16 32) a x).toNat < S64x512.size a)
instance k1_chk42.dec : ∀ (v522 : IVec S16 32) (v587 : IVec S16 32), Decidable (k1_chk42 v522 v587) := fun v522 v587 => decidable_of_iff' _ (Iff.of_eq (k1_chk42.eq_1 v522 v587))
theorem k1_idx42_inb : ∀ (v522 : IVec S16 32) (v587 : IVec S16 32) (k1_hw42 : k1_chk42 v522 v587), ∀ a x, ((![v587, v522] : Fin 2 → IVec S16 32) a x).toNat < S64x512.size a := fun v522 v587 k1_hw42 => k1_hw42

def k1_chk43 (v522 : IVec S16 32) (v591 : IVec S16 32) : Prop :=
  (∀ a x, ((![v522, v591] : Fin 2 → IVec S16 32) a x).toNat < S512x128.size a)
instance k1_chk43.dec : ∀ (v522 : IVec S16 32) (v591 : IVec S16 32), Decidable (k1_chk43 v522 v591) := fun v522 v591 => decidable_of_iff' _ (Iff.of_eq (k1_chk43.eq_1 v522 v591))
theorem k1_idx43_inb : ∀ (v522 : IVec S16 32) (v591 : IVec S16 32) (k1_hw43 : k1_chk43 v522 v591), ∀ a x, ((![v522, v591] : Fin 2 → IVec S16 32) a x).toNat < S512x128.size a := fun v522 v591 k1_hw43 => k1_hw43

def k1_chk44 (v522 : IVec S16 32) (v590 : IVec S16 32) : Prop :=
  (∀ a x, ((![v590, v522] : Fin 2 → IVec S16 32) a x).toNat < S64x512.size a)
instance k1_chk44.dec : ∀ (v522 : IVec S16 32) (v590 : IVec S16 32), Decidable (k1_chk44 v522 v590) := fun v522 v590 => decidable_of_iff' _ (Iff.of_eq (k1_chk44.eq_1 v522 v590))
theorem k1_idx44_inb : ∀ (v522 : IVec S16 32) (v590 : IVec S16 32) (k1_hw44 : k1_chk44 v522 v590), ∀ a x, ((![v590, v522] : Fin 2 → IVec S16 32) a x).toNat < S64x512.size a := fun v522 v590 k1_hw44 => k1_hw44

def k1_chk45 (v522 : IVec S16 32) (v594 : IVec S16 32) : Prop :=
  (∀ a x, ((![v522, v594] : Fin 2 → IVec S16 32) a x).toNat < S512x128.size a)
instance k1_chk45.dec : ∀ (v522 : IVec S16 32) (v594 : IVec S16 32), Decidable (k1_chk45 v522 v594) := fun v522 v594 => decidable_of_iff' _ (Iff.of_eq (k1_chk45.eq_1 v522 v594))
theorem k1_idx45_inb : ∀ (v522 : IVec S16 32) (v594 : IVec S16 32) (k1_hw45 : k1_chk45 v522 v594), ∀ a x, ((![v522, v594] : Fin 2 → IVec S16 32) a x).toNat < S512x128.size a := fun v522 v594 k1_hw45 => k1_hw45

def k1_chk46 (v522 : IVec S16 32) (v593 : IVec S16 32) : Prop :=
  (∀ a x, ((![v593, v522] : Fin 2 → IVec S16 32) a x).toNat < S64x512.size a)
instance k1_chk46.dec : ∀ (v522 : IVec S16 32) (v593 : IVec S16 32), Decidable (k1_chk46 v522 v593) := fun v522 v593 => decidable_of_iff' _ (Iff.of_eq (k1_chk46.eq_1 v522 v593))
theorem k1_idx46_inb : ∀ (v522 : IVec S16 32) (v593 : IVec S16 32) (k1_hw46 : k1_chk46 v522 v593), ∀ a x, ((![v593, v522] : Fin 2 → IVec S16 32) a x).toNat < S64x512.size a := fun v522 v593 k1_hw46 => k1_hw46

def k1_chk47 (v522 : IVec S16 32) (v597 : IVec S16 32) : Prop :=
  (∀ a x, ((![v522, v597] : Fin 2 → IVec S16 32) a x).toNat < S512x128.size a)
instance k1_chk47.dec : ∀ (v522 : IVec S16 32) (v597 : IVec S16 32), Decidable (k1_chk47 v522 v597) := fun v522 v597 => decidable_of_iff' _ (Iff.of_eq (k1_chk47.eq_1 v522 v597))
theorem k1_idx47_inb : ∀ (v522 : IVec S16 32) (v597 : IVec S16 32) (k1_hw47 : k1_chk47 v522 v597), ∀ a x, ((![v522, v597] : Fin 2 → IVec S16 32) a x).toNat < S512x128.size a := fun v522 v597 k1_hw47 => k1_hw47

def k1_chk48 (v522 : IVec S16 32) (v596 : IVec S16 32) : Prop :=
  (∀ a x, ((![v596, v522] : Fin 2 → IVec S16 32) a x).toNat < S64x512.size a)
instance k1_chk48.dec : ∀ (v522 : IVec S16 32) (v596 : IVec S16 32), Decidable (k1_chk48 v522 v596) := fun v522 v596 => decidable_of_iff' _ (Iff.of_eq (k1_chk48.eq_1 v522 v596))
theorem k1_idx48_inb : ∀ (v522 : IVec S16 32) (v596 : IVec S16 32) (k1_hw48 : k1_chk48 v522 v596), ∀ a x, ((![v596, v522] : Fin 2 → IVec S16 32) a x).toNat < S64x512.size a := fun v522 v596 k1_hw48 => k1_hw48

def k1_chk49 (v522 : IVec S16 32) (v600 : IVec S16 32) : Prop :=
  (∀ a x, ((![v522, v600] : Fin 2 → IVec S16 32) a x).toNat < S512x128.size a)
instance k1_chk49.dec : ∀ (v522 : IVec S16 32) (v600 : IVec S16 32), Decidable (k1_chk49 v522 v600) := fun v522 v600 => decidable_of_iff' _ (Iff.of_eq (k1_chk49.eq_1 v522 v600))
theorem k1_idx49_inb : ∀ (v522 : IVec S16 32) (v600 : IVec S16 32) (k1_hw49 : k1_chk49 v522 v600), ∀ a x, ((![v522, v600] : Fin 2 → IVec S16 32) a x).toNat < S512x128.size a := fun v522 v600 k1_hw49 => k1_hw49

def k1_chk50 (v522 : IVec S16 32) (v599 : IVec S16 32) : Prop :=
  (∀ a x, ((![v599, v522] : Fin 2 → IVec S16 32) a x).toNat < S64x512.size a)
instance k1_chk50.dec : ∀ (v522 : IVec S16 32) (v599 : IVec S16 32), Decidable (k1_chk50 v522 v599) := fun v522 v599 => decidable_of_iff' _ (Iff.of_eq (k1_chk50.eq_1 v522 v599))
theorem k1_idx50_inb : ∀ (v522 : IVec S16 32) (v599 : IVec S16 32) (k1_hw50 : k1_chk50 v522 v599), ∀ a x, ((![v599, v522] : Fin 2 → IVec S16 32) a x).toNat < S64x512.size a := fun v522 v599 k1_hw50 => k1_hw50

def k1_chk51 (v522 : IVec S16 32) (v603 : IVec S16 32) : Prop :=
  (∀ a x, ((![v522, v603] : Fin 2 → IVec S16 32) a x).toNat < S512x128.size a)
instance k1_chk51.dec : ∀ (v522 : IVec S16 32) (v603 : IVec S16 32), Decidable (k1_chk51 v522 v603) := fun v522 v603 => decidable_of_iff' _ (Iff.of_eq (k1_chk51.eq_1 v522 v603))
theorem k1_idx51_inb : ∀ (v522 : IVec S16 32) (v603 : IVec S16 32) (k1_hw51 : k1_chk51 v522 v603), ∀ a x, ((![v522, v603] : Fin 2 → IVec S16 32) a x).toNat < S512x128.size a := fun v522 v603 k1_hw51 => k1_hw51

def k1_chk52 (v522 : IVec S16 32) (v602 : IVec S16 32) : Prop :=
  (∀ a x, ((![v602, v522] : Fin 2 → IVec S16 32) a x).toNat < S64x512.size a)
instance k1_chk52.dec : ∀ (v522 : IVec S16 32) (v602 : IVec S16 32), Decidable (k1_chk52 v522 v602) := fun v522 v602 => decidable_of_iff' _ (Iff.of_eq (k1_chk52.eq_1 v522 v602))
theorem k1_idx52_inb : ∀ (v522 : IVec S16 32) (v602 : IVec S16 32) (k1_hw52 : k1_chk52 v522 v602), ∀ a x, ((![v602, v522] : Fin 2 → IVec S16 32) a x).toNat < S64x512.size a := fun v522 v602 k1_hw52 => k1_hw52

def k1_chk53 (v522 : IVec S16 32) (v606 : IVec S16 32) : Prop :=
  (∀ a x, ((![v522, v606] : Fin 2 → IVec S16 32) a x).toNat < S512x128.size a)
instance k1_chk53.dec : ∀ (v522 : IVec S16 32) (v606 : IVec S16 32), Decidable (k1_chk53 v522 v606) := fun v522 v606 => decidable_of_iff' _ (Iff.of_eq (k1_chk53.eq_1 v522 v606))
theorem k1_idx53_inb : ∀ (v522 : IVec S16 32) (v606 : IVec S16 32) (k1_hw53 : k1_chk53 v522 v606), ∀ a x, ((![v522, v606] : Fin 2 → IVec S16 32) a x).toNat < S512x128.size a := fun v522 v606 k1_hw53 => k1_hw53

def k1_chk54 (v522 : IVec S16 32) (v605 : IVec S16 32) : Prop :=
  (∀ a x, ((![v605, v522] : Fin 2 → IVec S16 32) a x).toNat < S64x512.size a)
instance k1_chk54.dec : ∀ (v522 : IVec S16 32) (v605 : IVec S16 32), Decidable (k1_chk54 v522 v605) := fun v522 v605 => decidable_of_iff' _ (Iff.of_eq (k1_chk54.eq_1 v522 v605))
theorem k1_idx54_inb : ∀ (v522 : IVec S16 32) (v605 : IVec S16 32) (k1_hw54 : k1_chk54 v522 v605), ∀ a x, ((![v605, v522] : Fin 2 → IVec S16 32) a x).toNat < S64x512.size a := fun v522 v605 k1_hw54 => k1_hw54

def k1_chk55 (v522 : IVec S16 32) (v609 : IVec S16 32) : Prop :=
  (∀ a x, ((![v522, v609] : Fin 2 → IVec S16 32) a x).toNat < S512x128.size a)
instance k1_chk55.dec : ∀ (v522 : IVec S16 32) (v609 : IVec S16 32), Decidable (k1_chk55 v522 v609) := fun v522 v609 => decidable_of_iff' _ (Iff.of_eq (k1_chk55.eq_1 v522 v609))
theorem k1_idx55_inb : ∀ (v522 : IVec S16 32) (v609 : IVec S16 32) (k1_hw55 : k1_chk55 v522 v609), ∀ a x, ((![v522, v609] : Fin 2 → IVec S16 32) a x).toNat < S512x128.size a := fun v522 v609 k1_hw55 => k1_hw55

def k1_chk56 (v522 : IVec S16 32) (v608 : IVec S16 32) : Prop :=
  (∀ a x, ((![v608, v522] : Fin 2 → IVec S16 32) a x).toNat < S64x512.size a)
instance k1_chk56.dec : ∀ (v522 : IVec S16 32) (v608 : IVec S16 32), Decidable (k1_chk56 v522 v608) := fun v522 v608 => decidable_of_iff' _ (Iff.of_eq (k1_chk56.eq_1 v522 v608))
theorem k1_idx56_inb : ∀ (v522 : IVec S16 32) (v608 : IVec S16 32) (k1_hw56 : k1_chk56 v522 v608), ∀ a x, ((![v608, v522] : Fin 2 → IVec S16 32) a x).toNat < S64x512.size a := fun v522 v608 k1_hw56 => k1_hw56

def k1_chk57 (v522 : IVec S16 32) (v612 : IVec S16 32) : Prop :=
  (∀ a x, ((![v522, v612] : Fin 2 → IVec S16 32) a x).toNat < S512x128.size a)
instance k1_chk57.dec : ∀ (v522 : IVec S16 32) (v612 : IVec S16 32), Decidable (k1_chk57 v522 v612) := fun v522 v612 => decidable_of_iff' _ (Iff.of_eq (k1_chk57.eq_1 v522 v612))
theorem k1_idx57_inb : ∀ (v522 : IVec S16 32) (v612 : IVec S16 32) (k1_hw57 : k1_chk57 v522 v612), ∀ a x, ((![v522, v612] : Fin 2 → IVec S16 32) a x).toNat < S512x128.size a := fun v522 v612 k1_hw57 => k1_hw57

def k1_chk58 (v522 : IVec S16 32) (v611 : IVec S16 32) : Prop :=
  (∀ a x, ((![v611, v522] : Fin 2 → IVec S16 32) a x).toNat < S64x512.size a)
instance k1_chk58.dec : ∀ (v522 : IVec S16 32) (v611 : IVec S16 32), Decidable (k1_chk58 v522 v611) := fun v522 v611 => decidable_of_iff' _ (Iff.of_eq (k1_chk58.eq_1 v522 v611))
theorem k1_idx58_inb : ∀ (v522 : IVec S16 32) (v611 : IVec S16 32) (k1_hw58 : k1_chk58 v522 v611), ∀ a x, ((![v611, v522] : Fin 2 → IVec S16 32) a x).toNat < S64x512.size a := fun v522 v611 k1_hw58 => k1_hw58

def k1_chk59 (v522 : IVec S16 32) (v615 : IVec S16 32) : Prop :=
  (∀ a x, ((![v522, v615] : Fin 2 → IVec S16 32) a x).toNat < S512x128.size a)
instance k1_chk59.dec : ∀ (v522 : IVec S16 32) (v615 : IVec S16 32), Decidable (k1_chk59 v522 v615) := fun v522 v615 => decidable_of_iff' _ (Iff.of_eq (k1_chk59.eq_1 v522 v615))
theorem k1_idx59_inb : ∀ (v522 : IVec S16 32) (v615 : IVec S16 32) (k1_hw59 : k1_chk59 v522 v615), ∀ a x, ((![v522, v615] : Fin 2 → IVec S16 32) a x).toNat < S512x128.size a := fun v522 v615 k1_hw59 => k1_hw59

def k1_chk60 (v522 : IVec S16 32) (v614 : IVec S16 32) : Prop :=
  (∀ a x, ((![v614, v522] : Fin 2 → IVec S16 32) a x).toNat < S64x512.size a)
instance k1_chk60.dec : ∀ (v522 : IVec S16 32) (v614 : IVec S16 32), Decidable (k1_chk60 v522 v614) := fun v522 v614 => decidable_of_iff' _ (Iff.of_eq (k1_chk60.eq_1 v522 v614))
theorem k1_idx60_inb : ∀ (v522 : IVec S16 32) (v614 : IVec S16 32) (k1_hw60 : k1_chk60 v522 v614), ∀ a x, ((![v614, v522] : Fin 2 → IVec S16 32) a x).toNat < S64x512.size a := fun v522 v614 k1_hw60 => k1_hw60

def k1_chk61 (v522 : IVec S16 32) (v618 : IVec S16 32) : Prop :=
  (∀ a x, ((![v522, v618] : Fin 2 → IVec S16 32) a x).toNat < S512x128.size a)
instance k1_chk61.dec : ∀ (v522 : IVec S16 32) (v618 : IVec S16 32), Decidable (k1_chk61 v522 v618) := fun v522 v618 => decidable_of_iff' _ (Iff.of_eq (k1_chk61.eq_1 v522 v618))
theorem k1_idx61_inb : ∀ (v522 : IVec S16 32) (v618 : IVec S16 32) (k1_hw61 : k1_chk61 v522 v618), ∀ a x, ((![v522, v618] : Fin 2 → IVec S16 32) a x).toNat < S512x128.size a := fun v522 v618 k1_hw61 => k1_hw61

def k1_chk62 (v522 : IVec S16 32) (v617 : IVec S16 32) : Prop :=
  (∀ a x, ((![v617, v522] : Fin 2 → IVec S16 32) a x).toNat < S64x512.size a)
instance k1_chk62.dec : ∀ (v522 : IVec S16 32) (v617 : IVec S16 32), Decidable (k1_chk62 v522 v617) := fun v522 v617 => decidable_of_iff' _ (Iff.of_eq (k1_chk62.eq_1 v522 v617))
theorem k1_idx62_inb : ∀ (v522 : IVec S16 32) (v617 : IVec S16 32) (k1_hw62 : k1_chk62 v522 v617), ∀ a x, ((![v617, v522] : Fin 2 → IVec S16 32) a x).toNat < S64x512.size a := fun v522 v617 k1_hw62 => k1_hw62

def k1_chk63 (v522 : IVec S16 32) (v621 : IVec S16 32) : Prop :=
  (∀ a x, ((![v522, v621] : Fin 2 → IVec S16 32) a x).toNat < S512x128.size a)
instance k1_chk63.dec : ∀ (v522 : IVec S16 32) (v621 : IVec S16 32), Decidable (k1_chk63 v522 v621) := fun v522 v621 => decidable_of_iff' _ (Iff.of_eq (k1_chk63.eq_1 v522 v621))
theorem k1_idx63_inb : ∀ (v522 : IVec S16 32) (v621 : IVec S16 32) (k1_hw63 : k1_chk63 v522 v621), ∀ a x, ((![v522, v621] : Fin 2 → IVec S16 32) a x).toNat < S512x128.size a := fun v522 v621 k1_hw63 => k1_hw63

def k1_chk64 (v522 : IVec S16 32) (v620 : IVec S16 32) : Prop :=
  (∀ a x, ((![v620, v522] : Fin 2 → IVec S16 32) a x).toNat < S64x512.size a)
instance k1_chk64.dec : ∀ (v522 : IVec S16 32) (v620 : IVec S16 32), Decidable (k1_chk64 v522 v620) := fun v522 v620 => decidable_of_iff' _ (Iff.of_eq (k1_chk64.eq_1 v522 v620))
theorem k1_idx64_inb : ∀ (v522 : IVec S16 32) (v620 : IVec S16 32) (k1_hw64 : k1_chk64 v522 v620), ∀ a x, ((![v620, v522] : Fin 2 → IVec S16 32) a x).toNat < S64x512.size a := fun v522 v620 k1_hw64 => k1_hw64

def k1_chk65 (v522 : IVec S16 32) (v624 : IVec S16 32) : Prop :=
  (∀ a x, ((![v522, v624] : Fin 2 → IVec S16 32) a x).toNat < S512x128.size a)
instance k1_chk65.dec : ∀ (v522 : IVec S16 32) (v624 : IVec S16 32), Decidable (k1_chk65 v522 v624) := fun v522 v624 => decidable_of_iff' _ (Iff.of_eq (k1_chk65.eq_1 v522 v624))
theorem k1_idx65_inb : ∀ (v522 : IVec S16 32) (v624 : IVec S16 32) (k1_hw65 : k1_chk65 v522 v624), ∀ a x, ((![v522, v624] : Fin 2 → IVec S16 32) a x).toNat < S512x128.size a := fun v522 v624 k1_hw65 => k1_hw65

def k1_chk66 (v522 : IVec S16 32) (v623 : IVec S16 32) : Prop :=
  (∀ a x, ((![v623, v522] : Fin 2 → IVec S16 32) a x).toNat < S64x512.size a)
instance k1_chk66.dec : ∀ (v522 : IVec S16 32) (v623 : IVec S16 32), Decidable (k1_chk66 v522 v623) := fun v522 v623 => decidable_of_iff' _ (Iff.of_eq (k1_chk66.eq_1 v522 v623))
theorem k1_idx66_inb : ∀ (v522 : IVec S16 32) (v623 : IVec S16 32) (k1_hw66 : k1_chk66 v522 v623), ∀ a x, ((![v623, v522] : Fin 2 → IVec S16 32) a x).toNat < S64x512.size a := fun v522 v623 k1_hw66 => k1_hw66

def k1_chk67 (v522 : IVec S16 32) (v627 : IVec S16 32) : Prop :=
  (∀ a x, ((![v522, v627] : Fin 2 → IVec S16 32) a x).toNat < S512x128.size a)
instance k1_chk67.dec : ∀ (v522 : IVec S16 32) (v627 : IVec S16 32), Decidable (k1_chk67 v522 v627) := fun v522 v627 => decidable_of_iff' _ (Iff.of_eq (k1_chk67.eq_1 v522 v627))
theorem k1_idx67_inb : ∀ (v522 : IVec S16 32) (v627 : IVec S16 32) (k1_hw67 : k1_chk67 v522 v627), ∀ a x, ((![v522, v627] : Fin 2 → IVec S16 32) a x).toNat < S512x128.size a := fun v522 v627 k1_hw67 => k1_hw67

def k1_chk68 (v522 : IVec S16 32) (v626 : IVec S16 32) : Prop :=
  (∀ a x, ((![v626, v522] : Fin 2 → IVec S16 32) a x).toNat < S64x512.size a)
instance k1_chk68.dec : ∀ (v522 : IVec S16 32) (v626 : IVec S16 32), Decidable (k1_chk68 v522 v626) := fun v522 v626 => decidable_of_iff' _ (Iff.of_eq (k1_chk68.eq_1 v522 v626))
theorem k1_idx68_inb : ∀ (v522 : IVec S16 32) (v626 : IVec S16 32) (k1_hw68 : k1_chk68 v522 v626), ∀ a x, ((![v626, v522] : Fin 2 → IVec S16 32) a x).toNat < S64x512.size a := fun v522 v626 k1_hw68 => k1_hw68

def k1_chk69 (v522 : IVec S16 32) (v630 : IVec S16 32) : Prop :=
  (∀ a x, ((![v522, v630] : Fin 2 → IVec S16 32) a x).toNat < S512x128.size a)
instance k1_chk69.dec : ∀ (v522 : IVec S16 32) (v630 : IVec S16 32), Decidable (k1_chk69 v522 v630) := fun v522 v630 => decidable_of_iff' _ (Iff.of_eq (k1_chk69.eq_1 v522 v630))
theorem k1_idx69_inb : ∀ (v522 : IVec S16 32) (v630 : IVec S16 32) (k1_hw69 : k1_chk69 v522 v630), ∀ a x, ((![v522, v630] : Fin 2 → IVec S16 32) a x).toNat < S512x128.size a := fun v522 v630 k1_hw69 => k1_hw69

def k1_chk70 (v522 : IVec S16 32) (v629 : IVec S16 32) : Prop :=
  (∀ a x, ((![v629, v522] : Fin 2 → IVec S16 32) a x).toNat < S64x512.size a)
instance k1_chk70.dec : ∀ (v522 : IVec S16 32) (v629 : IVec S16 32), Decidable (k1_chk70 v522 v629) := fun v522 v629 => decidable_of_iff' _ (Iff.of_eq (k1_chk70.eq_1 v522 v629))
theorem k1_idx70_inb : ∀ (v522 : IVec S16 32) (v629 : IVec S16 32) (k1_hw70 : k1_chk70 v522 v629), ∀ a x, ((![v629, v522] : Fin 2 → IVec S16 32) a x).toNat < S64x512.size a := fun v522 v629 k1_hw70 => k1_hw70

def k1_chk71 (v522 : IVec S16 32) (v633 : IVec S16 32) : Prop :=
  (∀ a x, ((![v522, v633] : Fin 2 → IVec S16 32) a x).toNat < S512x128.size a)
instance k1_chk71.dec : ∀ (v522 : IVec S16 32) (v633 : IVec S16 32), Decidable (k1_chk71 v522 v633) := fun v522 v633 => decidable_of_iff' _ (Iff.of_eq (k1_chk71.eq_1 v522 v633))
theorem k1_idx71_inb : ∀ (v522 : IVec S16 32) (v633 : IVec S16 32) (k1_hw71 : k1_chk71 v522 v633), ∀ a x, ((![v522, v633] : Fin 2 → IVec S16 32) a x).toNat < S512x128.size a := fun v522 v633 k1_hw71 => k1_hw71

def k1_chk72 (v522 : IVec S16 32) (v632 : IVec S16 32) : Prop :=
  (∀ a x, ((![v632, v522] : Fin 2 → IVec S16 32) a x).toNat < S64x512.size a)
instance k1_chk72.dec : ∀ (v522 : IVec S16 32) (v632 : IVec S16 32), Decidable (k1_chk72 v522 v632) := fun v522 v632 => decidable_of_iff' _ (Iff.of_eq (k1_chk72.eq_1 v522 v632))
theorem k1_idx72_inb : ∀ (v522 : IVec S16 32) (v632 : IVec S16 32) (k1_hw72 : k1_chk72 v522 v632), ∀ a x, ((![v632, v522] : Fin 2 → IVec S16 32) a x).toNat < S64x512.size a := fun v522 v632 k1_hw72 => k1_hw72

def k1_chk73 (v522 : IVec S16 32) (v636 : IVec S16 32) : Prop :=
  (∀ a x, ((![v522, v636] : Fin 2 → IVec S16 32) a x).toNat < S512x128.size a)
instance k1_chk73.dec : ∀ (v522 : IVec S16 32) (v636 : IVec S16 32), Decidable (k1_chk73 v522 v636) := fun v522 v636 => decidable_of_iff' _ (Iff.of_eq (k1_chk73.eq_1 v522 v636))
theorem k1_idx73_inb : ∀ (v522 : IVec S16 32) (v636 : IVec S16 32) (k1_hw73 : k1_chk73 v522 v636), ∀ a x, ((![v522, v636] : Fin 2 → IVec S16 32) a x).toNat < S512x128.size a := fun v522 v636 k1_hw73 => k1_hw73

def k1_chk74 (v522 : IVec S16 32) (v635 : IVec S16 32) : Prop :=
  (∀ a x, ((![v635, v522] : Fin 2 → IVec S16 32) a x).toNat < S64x512.size a)
instance k1_chk74.dec : ∀ (v522 : IVec S16 32) (v635 : IVec S16 32), Decidable (k1_chk74 v522 v635) := fun v522 v635 => decidable_of_iff' _ (Iff.of_eq (k1_chk74.eq_1 v522 v635))
theorem k1_idx74_inb : ∀ (v522 : IVec S16 32) (v635 : IVec S16 32) (k1_hw74 : k1_chk74 v522 v635), ∀ a x, ((![v635, v522] : Fin 2 → IVec S16 32) a x).toNat < S64x512.size a := fun v522 v635 k1_hw74 => k1_hw74

def k1_chk75 (v522 : IVec S16 32) (v639 : IVec S16 32) : Prop :=
  (∀ a x, ((![v522, v639] : Fin 2 → IVec S16 32) a x).toNat < S512x128.size a)
instance k1_chk75.dec : ∀ (v522 : IVec S16 32) (v639 : IVec S16 32), Decidable (k1_chk75 v522 v639) := fun v522 v639 => decidable_of_iff' _ (Iff.of_eq (k1_chk75.eq_1 v522 v639))
theorem k1_idx75_inb : ∀ (v522 : IVec S16 32) (v639 : IVec S16 32) (k1_hw75 : k1_chk75 v522 v639), ∀ a x, ((![v522, v639] : Fin 2 → IVec S16 32) a x).toNat < S512x128.size a := fun v522 v639 k1_hw75 => k1_hw75

def k1_chk76 (v522 : IVec S16 32) (v638 : IVec S16 32) : Prop :=
  (∀ a x, ((![v638, v522] : Fin 2 → IVec S16 32) a x).toNat < S64x512.size a)
instance k1_chk76.dec : ∀ (v522 : IVec S16 32) (v638 : IVec S16 32), Decidable (k1_chk76 v522 v638) := fun v522 v638 => decidable_of_iff' _ (Iff.of_eq (k1_chk76.eq_1 v522 v638))
theorem k1_idx76_inb : ∀ (v522 : IVec S16 32) (v638 : IVec S16 32) (k1_hw76 : k1_chk76 v522 v638), ∀ a x, ((![v638, v522] : Fin 2 → IVec S16 32) a x).toNat < S64x512.size a := fun v522 v638 k1_hw76 => k1_hw76

def k1_chk77 (v522 : IVec S16 32) (v642 : IVec S16 32) : Prop :=
  (∀ a x, ((![v522, v642] : Fin 2 → IVec S16 32) a x).toNat < S512x128.size a)
instance k1_chk77.dec : ∀ (v522 : IVec S16 32) (v642 : IVec S16 32), Decidable (k1_chk77 v522 v642) := fun v522 v642 => decidable_of_iff' _ (Iff.of_eq (k1_chk77.eq_1 v522 v642))
theorem k1_idx77_inb : ∀ (v522 : IVec S16 32) (v642 : IVec S16 32) (k1_hw77 : k1_chk77 v522 v642), ∀ a x, ((![v522, v642] : Fin 2 → IVec S16 32) a x).toNat < S512x128.size a := fun v522 v642 k1_hw77 => k1_hw77

def k1_chk78 (v522 : IVec S16 32) (v641 : IVec S16 32) : Prop :=
  (∀ a x, ((![v641, v522] : Fin 2 → IVec S16 32) a x).toNat < S64x512.size a)
instance k1_chk78.dec : ∀ (v522 : IVec S16 32) (v641 : IVec S16 32), Decidable (k1_chk78 v522 v641) := fun v522 v641 => decidable_of_iff' _ (Iff.of_eq (k1_chk78.eq_1 v522 v641))
theorem k1_idx78_inb : ∀ (v522 : IVec S16 32) (v641 : IVec S16 32) (k1_hw78 : k1_chk78 v522 v641), ∀ a x, ((![v641, v522] : Fin 2 → IVec S16 32) a x).toNat < S64x512.size a := fun v522 v641 k1_hw78 => k1_hw78

def k1_chk79 (v522 : IVec S16 32) (v645 : IVec S16 32) : Prop :=
  (∀ a x, ((![v522, v645] : Fin 2 → IVec S16 32) a x).toNat < S512x128.size a)
instance k1_chk79.dec : ∀ (v522 : IVec S16 32) (v645 : IVec S16 32), Decidable (k1_chk79 v522 v645) := fun v522 v645 => decidable_of_iff' _ (Iff.of_eq (k1_chk79.eq_1 v522 v645))
theorem k1_idx79_inb : ∀ (v522 : IVec S16 32) (v645 : IVec S16 32) (k1_hw79 : k1_chk79 v522 v645), ∀ a x, ((![v522, v645] : Fin 2 → IVec S16 32) a x).toNat < S512x128.size a := fun v522 v645 k1_hw79 => k1_hw79

def k1_chk80 (v522 : IVec S16 32) (v644 : IVec S16 32) : Prop :=
  (∀ a x, ((![v644, v522] : Fin 2 → IVec S16 32) a x).toNat < S64x512.size a)
instance k1_chk80.dec : ∀ (v522 : IVec S16 32) (v644 : IVec S16 32), Decidable (k1_chk80 v522 v644) := fun v522 v644 => decidable_of_iff' _ (Iff.of_eq (k1_chk80.eq_1 v522 v644))
theorem k1_idx80_inb : ∀ (v522 : IVec S16 32) (v644 : IVec S16 32) (k1_hw80 : k1_chk80 v522 v644), ∀ a x, ((![v644, v522] : Fin 2 → IVec S16 32) a x).toNat < S64x512.size a := fun v522 v644 k1_hw80 => k1_hw80

def k1_chk81 (v522 : IVec S16 32) (v648 : IVec S16 32) : Prop :=
  (∀ a x, ((![v522, v648] : Fin 2 → IVec S16 32) a x).toNat < S512x128.size a)
instance k1_chk81.dec : ∀ (v522 : IVec S16 32) (v648 : IVec S16 32), Decidable (k1_chk81 v522 v648) := fun v522 v648 => decidable_of_iff' _ (Iff.of_eq (k1_chk81.eq_1 v522 v648))
theorem k1_idx81_inb : ∀ (v522 : IVec S16 32) (v648 : IVec S16 32) (k1_hw81 : k1_chk81 v522 v648), ∀ a x, ((![v522, v648] : Fin 2 → IVec S16 32) a x).toNat < S512x128.size a := fun v522 v648 k1_hw81 => k1_hw81

def k1_chk82 (v522 : IVec S16 32) (v647 : IVec S16 32) : Prop :=
  (∀ a x, ((![v647, v522] : Fin 2 → IVec S16 32) a x).toNat < S64x512.size a)
instance k1_chk82.dec : ∀ (v522 : IVec S16 32) (v647 : IVec S16 32), Decidable (k1_chk82 v522 v647) := fun v522 v647 => decidable_of_iff' _ (Iff.of_eq (k1_chk82.eq_1 v522 v647))
theorem k1_idx82_inb : ∀ (v522 : IVec S16 32) (v647 : IVec S16 32) (k1_hw82 : k1_chk82 v522 v647), ∀ a x, ((![v647, v522] : Fin 2 → IVec S16 32) a x).toNat < S64x512.size a := fun v522 v647 k1_hw82 => k1_hw82

def k1_chk83 (v522 : IVec S16 32) (v651 : IVec S16 32) : Prop :=
  (∀ a x, ((![v522, v651] : Fin 2 → IVec S16 32) a x).toNat < S512x128.size a)
instance k1_chk83.dec : ∀ (v522 : IVec S16 32) (v651 : IVec S16 32), Decidable (k1_chk83 v522 v651) := fun v522 v651 => decidable_of_iff' _ (Iff.of_eq (k1_chk83.eq_1 v522 v651))
theorem k1_idx83_inb : ∀ (v522 : IVec S16 32) (v651 : IVec S16 32) (k1_hw83 : k1_chk83 v522 v651), ∀ a x, ((![v522, v651] : Fin 2 → IVec S16 32) a x).toNat < S512x128.size a := fun v522 v651 k1_hw83 => k1_hw83

def k1_chk84 (v522 : IVec S16 32) (v650 : IVec S16 32) : Prop :=
  (∀ a x, ((![v650, v522] : Fin 2 → IVec S16 32) a x).toNat < S64x512.size a)
instance k1_chk84.dec : ∀ (v522 : IVec S16 32) (v650 : IVec S16 32), Decidable (k1_chk84 v522 v650) := fun v522 v650 => decidable_of_iff' _ (Iff.of_eq (k1_chk84.eq_1 v522 v650))
theorem k1_idx84_inb : ∀ (v522 : IVec S16 32) (v650 : IVec S16 32) (k1_hw84 : k1_chk84 v522 v650), ∀ a x, ((![v650, v522] : Fin 2 → IVec S16 32) a x).toNat < S64x512.size a := fun v522 v650 k1_hw84 => k1_hw84

def k1_chk85 (v522 : IVec S16 32) (v654 : IVec S16 32) : Prop :=
  (∀ a x, ((![v522, v654] : Fin 2 → IVec S16 32) a x).toNat < S512x128.size a)
instance k1_chk85.dec : ∀ (v522 : IVec S16 32) (v654 : IVec S16 32), Decidable (k1_chk85 v522 v654) := fun v522 v654 => decidable_of_iff' _ (Iff.of_eq (k1_chk85.eq_1 v522 v654))
theorem k1_idx85_inb : ∀ (v522 : IVec S16 32) (v654 : IVec S16 32) (k1_hw85 : k1_chk85 v522 v654), ∀ a x, ((![v522, v654] : Fin 2 → IVec S16 32) a x).toNat < S512x128.size a := fun v522 v654 k1_hw85 => k1_hw85

def k1_chk86 (v522 : IVec S16 32) (v653 : IVec S16 32) : Prop :=
  (∀ a x, ((![v653, v522] : Fin 2 → IVec S16 32) a x).toNat < S64x512.size a)
instance k1_chk86.dec : ∀ (v522 : IVec S16 32) (v653 : IVec S16 32), Decidable (k1_chk86 v522 v653) := fun v522 v653 => decidable_of_iff' _ (Iff.of_eq (k1_chk86.eq_1 v522 v653))
theorem k1_idx86_inb : ∀ (v522 : IVec S16 32) (v653 : IVec S16 32) (k1_hw86 : k1_chk86 v522 v653), ∀ a x, ((![v653, v522] : Fin 2 → IVec S16 32) a x).toNat < S64x512.size a := fun v522 v653 k1_hw86 => k1_hw86

def k1_chk87 (v522 : IVec S16 32) (v657 : IVec S16 32) : Prop :=
  (∀ a x, ((![v522, v657] : Fin 2 → IVec S16 32) a x).toNat < S512x128.size a)
instance k1_chk87.dec : ∀ (v522 : IVec S16 32) (v657 : IVec S16 32), Decidable (k1_chk87 v522 v657) := fun v522 v657 => decidable_of_iff' _ (Iff.of_eq (k1_chk87.eq_1 v522 v657))
theorem k1_idx87_inb : ∀ (v522 : IVec S16 32) (v657 : IVec S16 32) (k1_hw87 : k1_chk87 v522 v657), ∀ a x, ((![v522, v657] : Fin 2 → IVec S16 32) a x).toNat < S512x128.size a := fun v522 v657 k1_hw87 => k1_hw87

def k1_chk88 (v522 : IVec S16 32) (v656 : IVec S16 32) : Prop :=
  (∀ a x, ((![v656, v522] : Fin 2 → IVec S16 32) a x).toNat < S64x512.size a)
instance k1_chk88.dec : ∀ (v522 : IVec S16 32) (v656 : IVec S16 32), Decidable (k1_chk88 v522 v656) := fun v522 v656 => decidable_of_iff' _ (Iff.of_eq (k1_chk88.eq_1 v522 v656))
theorem k1_idx88_inb : ∀ (v522 : IVec S16 32) (v656 : IVec S16 32) (k1_hw88 : k1_chk88 v522 v656), ∀ a x, ((![v656, v522] : Fin 2 → IVec S16 32) a x).toNat < S64x512.size a := fun v522 v656 k1_hw88 => k1_hw88

def k1_chk89 (v522 : IVec S16 32) (v660 : IVec S16 32) : Prop :=
  (∀ a x, ((![v522, v660] : Fin 2 → IVec S16 32) a x).toNat < S512x128.size a)
instance k1_chk89.dec : ∀ (v522 : IVec S16 32) (v660 : IVec S16 32), Decidable (k1_chk89 v522 v660) := fun v522 v660 => decidable_of_iff' _ (Iff.of_eq (k1_chk89.eq_1 v522 v660))
theorem k1_idx89_inb : ∀ (v522 : IVec S16 32) (v660 : IVec S16 32) (k1_hw89 : k1_chk89 v522 v660), ∀ a x, ((![v522, v660] : Fin 2 → IVec S16 32) a x).toNat < S512x128.size a := fun v522 v660 k1_hw89 => k1_hw89

def k1_chk90 (v522 : IVec S16 32) (v659 : IVec S16 32) : Prop :=
  (∀ a x, ((![v659, v522] : Fin 2 → IVec S16 32) a x).toNat < S64x512.size a)
instance k1_chk90.dec : ∀ (v522 : IVec S16 32) (v659 : IVec S16 32), Decidable (k1_chk90 v522 v659) := fun v522 v659 => decidable_of_iff' _ (Iff.of_eq (k1_chk90.eq_1 v522 v659))
theorem k1_idx90_inb : ∀ (v522 : IVec S16 32) (v659 : IVec S16 32) (k1_hw90 : k1_chk90 v522 v659), ∀ a x, ((![v659, v522] : Fin 2 → IVec S16 32) a x).toNat < S64x512.size a := fun v522 v659 k1_hw90 => k1_hw90

def k1_chk91 (v522 : IVec S16 32) (v663 : IVec S16 32) : Prop :=
  (∀ a x, ((![v522, v663] : Fin 2 → IVec S16 32) a x).toNat < S512x128.size a)
instance k1_chk91.dec : ∀ (v522 : IVec S16 32) (v663 : IVec S16 32), Decidable (k1_chk91 v522 v663) := fun v522 v663 => decidable_of_iff' _ (Iff.of_eq (k1_chk91.eq_1 v522 v663))
theorem k1_idx91_inb : ∀ (v522 : IVec S16 32) (v663 : IVec S16 32) (k1_hw91 : k1_chk91 v522 v663), ∀ a x, ((![v522, v663] : Fin 2 → IVec S16 32) a x).toNat < S512x128.size a := fun v522 v663 k1_hw91 => k1_hw91

def k1_chk92 (v522 : IVec S16 32) (v662 : IVec S16 32) : Prop :=
  (∀ a x, ((![v662, v522] : Fin 2 → IVec S16 32) a x).toNat < S64x512.size a)
instance k1_chk92.dec : ∀ (v522 : IVec S16 32) (v662 : IVec S16 32), Decidable (k1_chk92 v522 v662) := fun v522 v662 => decidable_of_iff' _ (Iff.of_eq (k1_chk92.eq_1 v522 v662))
theorem k1_idx92_inb : ∀ (v522 : IVec S16 32) (v662 : IVec S16 32) (k1_hw92 : k1_chk92 v522 v662), ∀ a x, ((![v662, v522] : Fin 2 → IVec S16 32) a x).toNat < S64x512.size a := fun v522 v662 k1_hw92 => k1_hw92

def k1_chk93 (v522 : IVec S16 32) (v666 : IVec S16 32) : Prop :=
  (∀ a x, ((![v522, v666] : Fin 2 → IVec S16 32) a x).toNat < S512x128.size a)
instance k1_chk93.dec : ∀ (v522 : IVec S16 32) (v666 : IVec S16 32), Decidable (k1_chk93 v522 v666) := fun v522 v666 => decidable_of_iff' _ (Iff.of_eq (k1_chk93.eq_1 v522 v666))
theorem k1_idx93_inb : ∀ (v522 : IVec S16 32) (v666 : IVec S16 32) (k1_hw93 : k1_chk93 v522 v666), ∀ a x, ((![v522, v666] : Fin 2 → IVec S16 32) a x).toNat < S512x128.size a := fun v522 v666 k1_hw93 => k1_hw93

def k1_chk94 (v522 : IVec S16 32) (v665 : IVec S16 32) : Prop :=
  (∀ a x, ((![v665, v522] : Fin 2 → IVec S16 32) a x).toNat < S64x512.size a)
instance k1_chk94.dec : ∀ (v522 : IVec S16 32) (v665 : IVec S16 32), Decidable (k1_chk94 v522 v665) := fun v522 v665 => decidable_of_iff' _ (Iff.of_eq (k1_chk94.eq_1 v522 v665))
theorem k1_idx94_inb : ∀ (v522 : IVec S16 32) (v665 : IVec S16 32) (k1_hw94 : k1_chk94 v522 v665), ∀ a x, ((![v665, v522] : Fin 2 → IVec S16 32) a x).toNat < S64x512.size a := fun v522 v665 k1_hw94 => k1_hw94

def k1_chk95 (v522 : IVec S16 32) (v669 : IVec S16 32) : Prop :=
  (∀ a x, ((![v522, v669] : Fin 2 → IVec S16 32) a x).toNat < S512x128.size a)
instance k1_chk95.dec : ∀ (v522 : IVec S16 32) (v669 : IVec S16 32), Decidable (k1_chk95 v522 v669) := fun v522 v669 => decidable_of_iff' _ (Iff.of_eq (k1_chk95.eq_1 v522 v669))
theorem k1_idx95_inb : ∀ (v522 : IVec S16 32) (v669 : IVec S16 32) (k1_hw95 : k1_chk95 v522 v669), ∀ a x, ((![v522, v669] : Fin 2 → IVec S16 32) a x).toNat < S512x128.size a := fun v522 v669 k1_hw95 => k1_hw95

def k1_chk96 (v522 : IVec S16 32) (v668 : IVec S16 32) : Prop :=
  (∀ a x, ((![v668, v522] : Fin 2 → IVec S16 32) a x).toNat < S64x512.size a)
instance k1_chk96.dec : ∀ (v522 : IVec S16 32) (v668 : IVec S16 32), Decidable (k1_chk96 v522 v668) := fun v522 v668 => decidable_of_iff' _ (Iff.of_eq (k1_chk96.eq_1 v522 v668))
theorem k1_idx96_inb : ∀ (v522 : IVec S16 32) (v668 : IVec S16 32) (k1_hw96 : k1_chk96 v522 v668), ∀ a x, ((![v668, v522] : Fin 2 → IVec S16 32) a x).toNat < S64x512.size a := fun v522 v668 k1_hw96 => k1_hw96

def k1_chk97 (v522 : IVec S16 32) (v672 : IVec S16 32) : Prop :=
  (∀ a x, ((![v522, v672] : Fin 2 → IVec S16 32) a x).toNat < S512x128.size a)
instance k1_chk97.dec : ∀ (v522 : IVec S16 32) (v672 : IVec S16 32), Decidable (k1_chk97 v522 v672) := fun v522 v672 => decidable_of_iff' _ (Iff.of_eq (k1_chk97.eq_1 v522 v672))
theorem k1_idx97_inb : ∀ (v522 : IVec S16 32) (v672 : IVec S16 32) (k1_hw97 : k1_chk97 v522 v672), ∀ a x, ((![v522, v672] : Fin 2 → IVec S16 32) a x).toNat < S512x128.size a := fun v522 v672 k1_hw97 => k1_hw97

def k1_chk98 (v522 : IVec S16 32) (v671 : IVec S16 32) : Prop :=
  (∀ a x, ((![v671, v522] : Fin 2 → IVec S16 32) a x).toNat < S64x512.size a)
instance k1_chk98.dec : ∀ (v522 : IVec S16 32) (v671 : IVec S16 32), Decidable (k1_chk98 v522 v671) := fun v522 v671 => decidable_of_iff' _ (Iff.of_eq (k1_chk98.eq_1 v522 v671))
theorem k1_idx98_inb : ∀ (v522 : IVec S16 32) (v671 : IVec S16 32) (k1_hw98 : k1_chk98 v522 v671), ∀ a x, ((![v671, v522] : Fin 2 → IVec S16 32) a x).toNat < S64x512.size a := fun v522 v671 k1_hw98 => k1_hw98

def k1_chk99 (v522 : IVec S16 32) (v675 : IVec S16 32) : Prop :=
  (∀ a x, ((![v522, v675] : Fin 2 → IVec S16 32) a x).toNat < S512x128.size a)
instance k1_chk99.dec : ∀ (v522 : IVec S16 32) (v675 : IVec S16 32), Decidable (k1_chk99 v522 v675) := fun v522 v675 => decidable_of_iff' _ (Iff.of_eq (k1_chk99.eq_1 v522 v675))
theorem k1_idx99_inb : ∀ (v522 : IVec S16 32) (v675 : IVec S16 32) (k1_hw99 : k1_chk99 v522 v675), ∀ a x, ((![v522, v675] : Fin 2 → IVec S16 32) a x).toNat < S512x128.size a := fun v522 v675 k1_hw99 => k1_hw99

def k1_chk100 (v522 : IVec S16 32) (v674 : IVec S16 32) : Prop :=
  (∀ a x, ((![v674, v522] : Fin 2 → IVec S16 32) a x).toNat < S64x512.size a)
instance k1_chk100.dec : ∀ (v522 : IVec S16 32) (v674 : IVec S16 32), Decidable (k1_chk100 v522 v674) := fun v522 v674 => decidable_of_iff' _ (Iff.of_eq (k1_chk100.eq_1 v522 v674))
theorem k1_idx100_inb : ∀ (v522 : IVec S16 32) (v674 : IVec S16 32) (k1_hw100 : k1_chk100 v522 v674), ∀ a x, ((![v674, v522] : Fin 2 → IVec S16 32) a x).toNat < S64x512.size a := fun v522 v674 k1_hw100 => k1_hw100

def k1_chk101 (v522 : IVec S16 32) (v678 : IVec S16 32) : Prop :=
  (∀ a x, ((![v522, v678] : Fin 2 → IVec S16 32) a x).toNat < S512x128.size a)
instance k1_chk101.dec : ∀ (v522 : IVec S16 32) (v678 : IVec S16 32), Decidable (k1_chk101 v522 v678) := fun v522 v678 => decidable_of_iff' _ (Iff.of_eq (k1_chk101.eq_1 v522 v678))
theorem k1_idx101_inb : ∀ (v522 : IVec S16 32) (v678 : IVec S16 32) (k1_hw101 : k1_chk101 v522 v678), ∀ a x, ((![v522, v678] : Fin 2 → IVec S16 32) a x).toNat < S512x128.size a := fun v522 v678 k1_hw101 => k1_hw101

def k1_chk102 (v522 : IVec S16 32) (v677 : IVec S16 32) : Prop :=
  (∀ a x, ((![v677, v522] : Fin 2 → IVec S16 32) a x).toNat < S64x512.size a)
instance k1_chk102.dec : ∀ (v522 : IVec S16 32) (v677 : IVec S16 32), Decidable (k1_chk102 v522 v677) := fun v522 v677 => decidable_of_iff' _ (Iff.of_eq (k1_chk102.eq_1 v522 v677))
theorem k1_idx102_inb : ∀ (v522 : IVec S16 32) (v677 : IVec S16 32) (k1_hw102 : k1_chk102 v522 v677), ∀ a x, ((![v677, v522] : Fin 2 → IVec S16 32) a x).toNat < S64x512.size a := fun v522 v677 k1_hw102 => k1_hw102

def k1_chk103 (v522 : IVec S16 32) (v681 : IVec S16 32) : Prop :=
  (∀ a x, ((![v522, v681] : Fin 2 → IVec S16 32) a x).toNat < S512x128.size a)
instance k1_chk103.dec : ∀ (v522 : IVec S16 32) (v681 : IVec S16 32), Decidable (k1_chk103 v522 v681) := fun v522 v681 => decidable_of_iff' _ (Iff.of_eq (k1_chk103.eq_1 v522 v681))
theorem k1_idx103_inb : ∀ (v522 : IVec S16 32) (v681 : IVec S16 32) (k1_hw103 : k1_chk103 v522 v681), ∀ a x, ((![v522, v681] : Fin 2 → IVec S16 32) a x).toNat < S512x128.size a := fun v522 v681 k1_hw103 => k1_hw103

def k1_chk104 (v522 : IVec S16 32) (v680 : IVec S16 32) : Prop :=
  (∀ a x, ((![v680, v522] : Fin 2 → IVec S16 32) a x).toNat < S64x512.size a)
instance k1_chk104.dec : ∀ (v522 : IVec S16 32) (v680 : IVec S16 32), Decidable (k1_chk104 v522 v680) := fun v522 v680 => decidable_of_iff' _ (Iff.of_eq (k1_chk104.eq_1 v522 v680))
theorem k1_idx104_inb : ∀ (v522 : IVec S16 32) (v680 : IVec S16 32) (k1_hw104 : k1_chk104 v522 v680), ∀ a x, ((![v680, v522] : Fin 2 → IVec S16 32) a x).toNat < S64x512.size a := fun v522 v680 k1_hw104 => k1_hw104

def k1_chk105 (v522 : IVec S16 32) (v684 : IVec S16 32) : Prop :=
  (∀ a x, ((![v522, v684] : Fin 2 → IVec S16 32) a x).toNat < S512x128.size a)
instance k1_chk105.dec : ∀ (v522 : IVec S16 32) (v684 : IVec S16 32), Decidable (k1_chk105 v522 v684) := fun v522 v684 => decidable_of_iff' _ (Iff.of_eq (k1_chk105.eq_1 v522 v684))
theorem k1_idx105_inb : ∀ (v522 : IVec S16 32) (v684 : IVec S16 32) (k1_hw105 : k1_chk105 v522 v684), ∀ a x, ((![v522, v684] : Fin 2 → IVec S16 32) a x).toNat < S512x128.size a := fun v522 v684 k1_hw105 => k1_hw105

def k1_chk106 (v522 : IVec S16 32) (v683 : IVec S16 32) : Prop :=
  (∀ a x, ((![v683, v522] : Fin 2 → IVec S16 32) a x).toNat < S64x512.size a)
instance k1_chk106.dec : ∀ (v522 : IVec S16 32) (v683 : IVec S16 32), Decidable (k1_chk106 v522 v683) := fun v522 v683 => decidable_of_iff' _ (Iff.of_eq (k1_chk106.eq_1 v522 v683))
theorem k1_idx106_inb : ∀ (v522 : IVec S16 32) (v683 : IVec S16 32) (k1_hw106 : k1_chk106 v522 v683), ∀ a x, ((![v683, v522] : Fin 2 → IVec S16 32) a x).toNat < S64x512.size a := fun v522 v683 k1_hw106 => k1_hw106

def k1_chk107 (v522 : IVec S16 32) (v687 : IVec S16 32) : Prop :=
  (∀ a x, ((![v522, v687] : Fin 2 → IVec S16 32) a x).toNat < S512x128.size a)
instance k1_chk107.dec : ∀ (v522 : IVec S16 32) (v687 : IVec S16 32), Decidable (k1_chk107 v522 v687) := fun v522 v687 => decidable_of_iff' _ (Iff.of_eq (k1_chk107.eq_1 v522 v687))
theorem k1_idx107_inb : ∀ (v522 : IVec S16 32) (v687 : IVec S16 32) (k1_hw107 : k1_chk107 v522 v687), ∀ a x, ((![v522, v687] : Fin 2 → IVec S16 32) a x).toNat < S512x128.size a := fun v522 v687 k1_hw107 => k1_hw107

def k1_chk108 (v522 : IVec S16 32) (v686 : IVec S16 32) : Prop :=
  (∀ a x, ((![v686, v522] : Fin 2 → IVec S16 32) a x).toNat < S64x512.size a)
instance k1_chk108.dec : ∀ (v522 : IVec S16 32) (v686 : IVec S16 32), Decidable (k1_chk108 v522 v686) := fun v522 v686 => decidable_of_iff' _ (Iff.of_eq (k1_chk108.eq_1 v522 v686))
theorem k1_idx108_inb : ∀ (v522 : IVec S16 32) (v686 : IVec S16 32) (k1_hw108 : k1_chk108 v522 v686), ∀ a x, ((![v686, v522] : Fin 2 → IVec S16 32) a x).toNat < S64x512.size a := fun v522 v686 k1_hw108 => k1_hw108

def k1_chk109 (v522 : IVec S16 32) (v690 : IVec S16 32) : Prop :=
  (∀ a x, ((![v522, v690] : Fin 2 → IVec S16 32) a x).toNat < S512x128.size a)
instance k1_chk109.dec : ∀ (v522 : IVec S16 32) (v690 : IVec S16 32), Decidable (k1_chk109 v522 v690) := fun v522 v690 => decidable_of_iff' _ (Iff.of_eq (k1_chk109.eq_1 v522 v690))
theorem k1_idx109_inb : ∀ (v522 : IVec S16 32) (v690 : IVec S16 32) (k1_hw109 : k1_chk109 v522 v690), ∀ a x, ((![v522, v690] : Fin 2 → IVec S16 32) a x).toNat < S512x128.size a := fun v522 v690 k1_hw109 => k1_hw109

def k1_chk110 (v522 : IVec S16 32) (v689 : IVec S16 32) : Prop :=
  (∀ a x, ((![v689, v522] : Fin 2 → IVec S16 32) a x).toNat < S64x512.size a)
instance k1_chk110.dec : ∀ (v522 : IVec S16 32) (v689 : IVec S16 32), Decidable (k1_chk110 v522 v689) := fun v522 v689 => decidable_of_iff' _ (Iff.of_eq (k1_chk110.eq_1 v522 v689))
theorem k1_idx110_inb : ∀ (v522 : IVec S16 32) (v689 : IVec S16 32) (k1_hw110 : k1_chk110 v522 v689), ∀ a x, ((![v689, v522] : Fin 2 → IVec S16 32) a x).toNat < S64x512.size a := fun v522 v689 k1_hw110 => k1_hw110

def k1_chk111 (v522 : IVec S16 32) (v693 : IVec S16 32) : Prop :=
  (∀ a x, ((![v522, v693] : Fin 2 → IVec S16 32) a x).toNat < S512x128.size a)
instance k1_chk111.dec : ∀ (v522 : IVec S16 32) (v693 : IVec S16 32), Decidable (k1_chk111 v522 v693) := fun v522 v693 => decidable_of_iff' _ (Iff.of_eq (k1_chk111.eq_1 v522 v693))
theorem k1_idx111_inb : ∀ (v522 : IVec S16 32) (v693 : IVec S16 32) (k1_hw111 : k1_chk111 v522 v693), ∀ a x, ((![v522, v693] : Fin 2 → IVec S16 32) a x).toNat < S512x128.size a := fun v522 v693 k1_hw111 => k1_hw111

def k1_chk112 (v522 : IVec S16 32) (v692 : IVec S16 32) : Prop :=
  (∀ a x, ((![v692, v522] : Fin 2 → IVec S16 32) a x).toNat < S64x512.size a)
instance k1_chk112.dec : ∀ (v522 : IVec S16 32) (v692 : IVec S16 32), Decidable (k1_chk112 v522 v692) := fun v522 v692 => decidable_of_iff' _ (Iff.of_eq (k1_chk112.eq_1 v522 v692))
theorem k1_idx112_inb : ∀ (v522 : IVec S16 32) (v692 : IVec S16 32) (k1_hw112 : k1_chk112 v522 v692), ∀ a x, ((![v692, v522] : Fin 2 → IVec S16 32) a x).toNat < S64x512.size a := fun v522 v692 k1_hw112 => k1_hw112

def k1_chk113 (v522 : IVec S16 32) (v696 : IVec S16 32) : Prop :=
  (∀ a x, ((![v522, v696] : Fin 2 → IVec S16 32) a x).toNat < S512x128.size a)
instance k1_chk113.dec : ∀ (v522 : IVec S16 32) (v696 : IVec S16 32), Decidable (k1_chk113 v522 v696) := fun v522 v696 => decidable_of_iff' _ (Iff.of_eq (k1_chk113.eq_1 v522 v696))
theorem k1_idx113_inb : ∀ (v522 : IVec S16 32) (v696 : IVec S16 32) (k1_hw113 : k1_chk113 v522 v696), ∀ a x, ((![v522, v696] : Fin 2 → IVec S16 32) a x).toNat < S512x128.size a := fun v522 v696 k1_hw113 => k1_hw113

def k1_chk114 (v522 : IVec S16 32) (v695 : IVec S16 32) : Prop :=
  (∀ a x, ((![v695, v522] : Fin 2 → IVec S16 32) a x).toNat < S64x512.size a)
instance k1_chk114.dec : ∀ (v522 : IVec S16 32) (v695 : IVec S16 32), Decidable (k1_chk114 v522 v695) := fun v522 v695 => decidable_of_iff' _ (Iff.of_eq (k1_chk114.eq_1 v522 v695))
theorem k1_idx114_inb : ∀ (v522 : IVec S16 32) (v695 : IVec S16 32) (k1_hw114 : k1_chk114 v522 v695), ∀ a x, ((![v695, v522] : Fin 2 → IVec S16 32) a x).toNat < S64x512.size a := fun v522 v695 k1_hw114 => k1_hw114

def k1_chk115 (v522 : IVec S16 32) (v699 : IVec S16 32) : Prop :=
  (∀ a x, ((![v522, v699] : Fin 2 → IVec S16 32) a x).toNat < S512x128.size a)
instance k1_chk115.dec : ∀ (v522 : IVec S16 32) (v699 : IVec S16 32), Decidable (k1_chk115 v522 v699) := fun v522 v699 => decidable_of_iff' _ (Iff.of_eq (k1_chk115.eq_1 v522 v699))
theorem k1_idx115_inb : ∀ (v522 : IVec S16 32) (v699 : IVec S16 32) (k1_hw115 : k1_chk115 v522 v699), ∀ a x, ((![v522, v699] : Fin 2 → IVec S16 32) a x).toNat < S512x128.size a := fun v522 v699 k1_hw115 => k1_hw115

def k1_chk116 (v522 : IVec S16 32) (v698 : IVec S16 32) : Prop :=
  (∀ a x, ((![v698, v522] : Fin 2 → IVec S16 32) a x).toNat < S64x512.size a)
instance k1_chk116.dec : ∀ (v522 : IVec S16 32) (v698 : IVec S16 32), Decidable (k1_chk116 v522 v698) := fun v522 v698 => decidable_of_iff' _ (Iff.of_eq (k1_chk116.eq_1 v522 v698))
theorem k1_idx116_inb : ∀ (v522 : IVec S16 32) (v698 : IVec S16 32) (k1_hw116 : k1_chk116 v522 v698), ∀ a x, ((![v698, v522] : Fin 2 → IVec S16 32) a x).toNat < S64x512.size a := fun v522 v698 k1_hw116 => k1_hw116

def k1_chk117 (v522 : IVec S16 32) (v702 : IVec S16 32) : Prop :=
  (∀ a x, ((![v522, v702] : Fin 2 → IVec S16 32) a x).toNat < S512x128.size a)
instance k1_chk117.dec : ∀ (v522 : IVec S16 32) (v702 : IVec S16 32), Decidable (k1_chk117 v522 v702) := fun v522 v702 => decidable_of_iff' _ (Iff.of_eq (k1_chk117.eq_1 v522 v702))
theorem k1_idx117_inb : ∀ (v522 : IVec S16 32) (v702 : IVec S16 32) (k1_hw117 : k1_chk117 v522 v702), ∀ a x, ((![v522, v702] : Fin 2 → IVec S16 32) a x).toNat < S512x128.size a := fun v522 v702 k1_hw117 => k1_hw117

def k1_chk118 (v522 : IVec S16 32) (v701 : IVec S16 32) : Prop :=
  (∀ a x, ((![v701, v522] : Fin 2 → IVec S16 32) a x).toNat < S64x512.size a)
instance k1_chk118.dec : ∀ (v522 : IVec S16 32) (v701 : IVec S16 32), Decidable (k1_chk118 v522 v701) := fun v522 v701 => decidable_of_iff' _ (Iff.of_eq (k1_chk118.eq_1 v522 v701))
theorem k1_idx118_inb : ∀ (v522 : IVec S16 32) (v701 : IVec S16 32) (k1_hw118 : k1_chk118 v522 v701), ∀ a x, ((![v701, v522] : Fin 2 → IVec S16 32) a x).toNat < S64x512.size a := fun v522 v701 k1_hw118 => k1_hw118

def k1_chk119 (v522 : IVec S16 32) (v705 : IVec S16 32) : Prop :=
  (∀ a x, ((![v522, v705] : Fin 2 → IVec S16 32) a x).toNat < S512x128.size a)
instance k1_chk119.dec : ∀ (v522 : IVec S16 32) (v705 : IVec S16 32), Decidable (k1_chk119 v522 v705) := fun v522 v705 => decidable_of_iff' _ (Iff.of_eq (k1_chk119.eq_1 v522 v705))
theorem k1_idx119_inb : ∀ (v522 : IVec S16 32) (v705 : IVec S16 32) (k1_hw119 : k1_chk119 v522 v705), ∀ a x, ((![v522, v705] : Fin 2 → IVec S16 32) a x).toNat < S512x128.size a := fun v522 v705 k1_hw119 => k1_hw119

def k1_chk120 (v522 : IVec S16 32) (v704 : IVec S16 32) : Prop :=
  (∀ a x, ((![v704, v522] : Fin 2 → IVec S16 32) a x).toNat < S64x512.size a)
instance k1_chk120.dec : ∀ (v522 : IVec S16 32) (v704 : IVec S16 32), Decidable (k1_chk120 v522 v704) := fun v522 v704 => decidable_of_iff' _ (Iff.of_eq (k1_chk120.eq_1 v522 v704))
theorem k1_idx120_inb : ∀ (v522 : IVec S16 32) (v704 : IVec S16 32) (k1_hw120 : k1_chk120 v522 v704), ∀ a x, ((![v704, v522] : Fin 2 → IVec S16 32) a x).toNat < S64x512.size a := fun v522 v704 k1_hw120 => k1_hw120

def k1_chk121 (v522 : IVec S16 32) (v708 : IVec S16 32) : Prop :=
  (∀ a x, ((![v522, v708] : Fin 2 → IVec S16 32) a x).toNat < S512x128.size a)
instance k1_chk121.dec : ∀ (v522 : IVec S16 32) (v708 : IVec S16 32), Decidable (k1_chk121 v522 v708) := fun v522 v708 => decidable_of_iff' _ (Iff.of_eq (k1_chk121.eq_1 v522 v708))
theorem k1_idx121_inb : ∀ (v522 : IVec S16 32) (v708 : IVec S16 32) (k1_hw121 : k1_chk121 v522 v708), ∀ a x, ((![v522, v708] : Fin 2 → IVec S16 32) a x).toNat < S512x128.size a := fun v522 v708 k1_hw121 => k1_hw121

def k1_chk122 (v522 : IVec S16 32) (v707 : IVec S16 32) : Prop :=
  (∀ a x, ((![v707, v522] : Fin 2 → IVec S16 32) a x).toNat < S64x512.size a)
instance k1_chk122.dec : ∀ (v522 : IVec S16 32) (v707 : IVec S16 32), Decidable (k1_chk122 v522 v707) := fun v522 v707 => decidable_of_iff' _ (Iff.of_eq (k1_chk122.eq_1 v522 v707))
theorem k1_idx122_inb : ∀ (v522 : IVec S16 32) (v707 : IVec S16 32) (k1_hw122 : k1_chk122 v522 v707), ∀ a x, ((![v707, v522] : Fin 2 → IVec S16 32) a x).toNat < S64x512.size a := fun v522 v707 k1_hw122 => k1_hw122

def k1_chk123 (v522 : IVec S16 32) (v711 : IVec S16 32) : Prop :=
  (∀ a x, ((![v522, v711] : Fin 2 → IVec S16 32) a x).toNat < S512x128.size a)
instance k1_chk123.dec : ∀ (v522 : IVec S16 32) (v711 : IVec S16 32), Decidable (k1_chk123 v522 v711) := fun v522 v711 => decidable_of_iff' _ (Iff.of_eq (k1_chk123.eq_1 v522 v711))
theorem k1_idx123_inb : ∀ (v522 : IVec S16 32) (v711 : IVec S16 32) (k1_hw123 : k1_chk123 v522 v711), ∀ a x, ((![v522, v711] : Fin 2 → IVec S16 32) a x).toNat < S512x128.size a := fun v522 v711 k1_hw123 => k1_hw123

def k1_chk124 (v522 : IVec S16 32) (v710 : IVec S16 32) : Prop :=
  (∀ a x, ((![v710, v522] : Fin 2 → IVec S16 32) a x).toNat < S64x512.size a)
instance k1_chk124.dec : ∀ (v522 : IVec S16 32) (v710 : IVec S16 32), Decidable (k1_chk124 v522 v710) := fun v522 v710 => decidable_of_iff' _ (Iff.of_eq (k1_chk124.eq_1 v522 v710))
theorem k1_idx124_inb : ∀ (v522 : IVec S16 32) (v710 : IVec S16 32) (k1_hw124 : k1_chk124 v522 v710), ∀ a x, ((![v710, v522] : Fin 2 → IVec S16 32) a x).toNat < S64x512.size a := fun v522 v710 k1_hw124 => k1_hw124

def k1_chk125 (v522 : IVec S16 32) (v714 : IVec S16 32) : Prop :=
  (∀ a x, ((![v522, v714] : Fin 2 → IVec S16 32) a x).toNat < S512x128.size a)
instance k1_chk125.dec : ∀ (v522 : IVec S16 32) (v714 : IVec S16 32), Decidable (k1_chk125 v522 v714) := fun v522 v714 => decidable_of_iff' _ (Iff.of_eq (k1_chk125.eq_1 v522 v714))
theorem k1_idx125_inb : ∀ (v522 : IVec S16 32) (v714 : IVec S16 32) (k1_hw125 : k1_chk125 v522 v714), ∀ a x, ((![v522, v714] : Fin 2 → IVec S16 32) a x).toNat < S512x128.size a := fun v522 v714 k1_hw125 => k1_hw125

def k1_chk126 (v522 : IVec S16 32) (v713 : IVec S16 32) : Prop :=
  (∀ a x, ((![v713, v522] : Fin 2 → IVec S16 32) a x).toNat < S64x512.size a)
instance k1_chk126.dec : ∀ (v522 : IVec S16 32) (v713 : IVec S16 32), Decidable (k1_chk126 v522 v713) := fun v522 v713 => decidable_of_iff' _ (Iff.of_eq (k1_chk126.eq_1 v522 v713))
theorem k1_idx126_inb : ∀ (v522 : IVec S16 32) (v713 : IVec S16 32) (k1_hw126 : k1_chk126 v522 v713), ∀ a x, ((![v713, v522] : Fin 2 → IVec S16 32) a x).toNat < S64x512.size a := fun v522 v713 k1_hw126 => k1_hw126

def k1_chk127 (v522 : IVec S16 32) (v717 : IVec S16 32) : Prop :=
  (∀ a x, ((![v522, v717] : Fin 2 → IVec S16 32) a x).toNat < S512x128.size a)
instance k1_chk127.dec : ∀ (v522 : IVec S16 32) (v717 : IVec S16 32), Decidable (k1_chk127 v522 v717) := fun v522 v717 => decidable_of_iff' _ (Iff.of_eq (k1_chk127.eq_1 v522 v717))
theorem k1_idx127_inb : ∀ (v522 : IVec S16 32) (v717 : IVec S16 32) (k1_hw127 : k1_chk127 v522 v717), ∀ a x, ((![v522, v717] : Fin 2 → IVec S16 32) a x).toNat < S512x128.size a := fun v522 v717 k1_hw127 => k1_hw127

def k1_chk128 (v522 : IVec S16 32) (v716 : IVec S16 32) : Prop :=
  (∀ a x, ((![v716, v522] : Fin 2 → IVec S16 32) a x).toNat < S64x512.size a)
instance k1_chk128.dec : ∀ (v522 : IVec S16 32) (v716 : IVec S16 32), Decidable (k1_chk128 v522 v716) := fun v522 v716 => decidable_of_iff' _ (Iff.of_eq (k1_chk128.eq_1 v522 v716))
theorem k1_idx128_inb : ∀ (v522 : IVec S16 32) (v716 : IVec S16 32) (k1_hw128 : k1_chk128 v522 v716), ∀ a x, ((![v716, v522] : Fin 2 → IVec S16 32) a x).toNat < S64x512.size a := fun v522 v716 k1_hw128 => k1_hw128
def k1_off3 (k1_t1 : Fin k1_t1_loop.trips) : Fin 1 → Nat :=
  let c0_i32_254 : BitVec 32 := 0#32
  let c1_i32_255 : BitVec 32 := 1#32
  let arg11 : BitVec 32 := Scf.iv c0_i32_254 c1_i32_255 k1_t1
  let c128_i32_269 : BitVec 32 := 128#32
  let v723 : BitVec 32 := Scalar.muli arg11 c128_i32_269
  let c16_i32_270 : BitVec 32 := 16#32
  let v724 : BitVec 32 := Scalar.addi v723 c16_i32_270
  let v725 : Index := Scalar.indexCast v724
  ![v725.toNat]

def k1_chk129 (v722 : IVec S16 32) (v728 : IVec S16 32) : Prop :=
  (∀ a x, ((![v722, v728] : Fin 2 → IVec S16 32) a x).toNat < S512x128.size a)
instance k1_chk129.dec : ∀ (v722 : IVec S16 32) (v728 : IVec S16 32), Decidable (k1_chk129 v722 v728) := fun v722 v728 => decidable_of_iff' _ (Iff.of_eq (k1_chk129.eq_1 v722 v728))
theorem k1_idx129_inb : ∀ (v722 : IVec S16 32) (v728 : IVec S16 32) (k1_hw129 : k1_chk129 v722 v728), ∀ a x, ((![v722, v728] : Fin 2 → IVec S16 32) a x).toNat < S512x128.size a := fun v722 v728 k1_hw129 => k1_hw129

def k1_chk130 (v722 : IVec S16 32) (v727 : IVec S16 32) : Prop :=
  (∀ a x, ((![v727, v722] : Fin 2 → IVec S16 32) a x).toNat < S64x512.size a)
instance k1_chk130.dec : ∀ (v722 : IVec S16 32) (v727 : IVec S16 32), Decidable (k1_chk130 v722 v727) := fun v722 v727 => decidable_of_iff' _ (Iff.of_eq (k1_chk130.eq_1 v722 v727))
theorem k1_idx130_inb : ∀ (v722 : IVec S16 32) (v727 : IVec S16 32) (k1_hw130 : k1_chk130 v722 v727), ∀ a x, ((![v727, v722] : Fin 2 → IVec S16 32) a x).toNat < S64x512.size a := fun v722 v727 k1_hw130 => k1_hw130

def k1_chk131 (v722 : IVec S16 32) (v731 : IVec S16 32) : Prop :=
  (∀ a x, ((![v722, v731] : Fin 2 → IVec S16 32) a x).toNat < S512x128.size a)
instance k1_chk131.dec : ∀ (v722 : IVec S16 32) (v731 : IVec S16 32), Decidable (k1_chk131 v722 v731) := fun v722 v731 => decidable_of_iff' _ (Iff.of_eq (k1_chk131.eq_1 v722 v731))
theorem k1_idx131_inb : ∀ (v722 : IVec S16 32) (v731 : IVec S16 32) (k1_hw131 : k1_chk131 v722 v731), ∀ a x, ((![v722, v731] : Fin 2 → IVec S16 32) a x).toNat < S512x128.size a := fun v722 v731 k1_hw131 => k1_hw131

def k1_chk132 (v722 : IVec S16 32) (v730 : IVec S16 32) : Prop :=
  (∀ a x, ((![v730, v722] : Fin 2 → IVec S16 32) a x).toNat < S64x512.size a)
instance k1_chk132.dec : ∀ (v722 : IVec S16 32) (v730 : IVec S16 32), Decidable (k1_chk132 v722 v730) := fun v722 v730 => decidable_of_iff' _ (Iff.of_eq (k1_chk132.eq_1 v722 v730))
theorem k1_idx132_inb : ∀ (v722 : IVec S16 32) (v730 : IVec S16 32) (k1_hw132 : k1_chk132 v722 v730), ∀ a x, ((![v730, v722] : Fin 2 → IVec S16 32) a x).toNat < S64x512.size a := fun v722 v730 k1_hw132 => k1_hw132

def k1_chk133 (v722 : IVec S16 32) (v734 : IVec S16 32) : Prop :=
  (∀ a x, ((![v722, v734] : Fin 2 → IVec S16 32) a x).toNat < S512x128.size a)
instance k1_chk133.dec : ∀ (v722 : IVec S16 32) (v734 : IVec S16 32), Decidable (k1_chk133 v722 v734) := fun v722 v734 => decidable_of_iff' _ (Iff.of_eq (k1_chk133.eq_1 v722 v734))
theorem k1_idx133_inb : ∀ (v722 : IVec S16 32) (v734 : IVec S16 32) (k1_hw133 : k1_chk133 v722 v734), ∀ a x, ((![v722, v734] : Fin 2 → IVec S16 32) a x).toNat < S512x128.size a := fun v722 v734 k1_hw133 => k1_hw133

def k1_chk134 (v722 : IVec S16 32) (v733 : IVec S16 32) : Prop :=
  (∀ a x, ((![v733, v722] : Fin 2 → IVec S16 32) a x).toNat < S64x512.size a)
instance k1_chk134.dec : ∀ (v722 : IVec S16 32) (v733 : IVec S16 32), Decidable (k1_chk134 v722 v733) := fun v722 v733 => decidable_of_iff' _ (Iff.of_eq (k1_chk134.eq_1 v722 v733))
theorem k1_idx134_inb : ∀ (v722 : IVec S16 32) (v733 : IVec S16 32) (k1_hw134 : k1_chk134 v722 v733), ∀ a x, ((![v733, v722] : Fin 2 → IVec S16 32) a x).toNat < S64x512.size a := fun v722 v733 k1_hw134 => k1_hw134

def k1_chk135 (v722 : IVec S16 32) (v737 : IVec S16 32) : Prop :=
  (∀ a x, ((![v722, v737] : Fin 2 → IVec S16 32) a x).toNat < S512x128.size a)
instance k1_chk135.dec : ∀ (v722 : IVec S16 32) (v737 : IVec S16 32), Decidable (k1_chk135 v722 v737) := fun v722 v737 => decidable_of_iff' _ (Iff.of_eq (k1_chk135.eq_1 v722 v737))
theorem k1_idx135_inb : ∀ (v722 : IVec S16 32) (v737 : IVec S16 32) (k1_hw135 : k1_chk135 v722 v737), ∀ a x, ((![v722, v737] : Fin 2 → IVec S16 32) a x).toNat < S512x128.size a := fun v722 v737 k1_hw135 => k1_hw135

def k1_chk136 (v722 : IVec S16 32) (v736 : IVec S16 32) : Prop :=
  (∀ a x, ((![v736, v722] : Fin 2 → IVec S16 32) a x).toNat < S64x512.size a)
instance k1_chk136.dec : ∀ (v722 : IVec S16 32) (v736 : IVec S16 32), Decidable (k1_chk136 v722 v736) := fun v722 v736 => decidable_of_iff' _ (Iff.of_eq (k1_chk136.eq_1 v722 v736))
theorem k1_idx136_inb : ∀ (v722 : IVec S16 32) (v736 : IVec S16 32) (k1_hw136 : k1_chk136 v722 v736), ∀ a x, ((![v736, v722] : Fin 2 → IVec S16 32) a x).toNat < S64x512.size a := fun v722 v736 k1_hw136 => k1_hw136

def k1_chk137 (v722 : IVec S16 32) (v740 : IVec S16 32) : Prop :=
  (∀ a x, ((![v722, v740] : Fin 2 → IVec S16 32) a x).toNat < S512x128.size a)
instance k1_chk137.dec : ∀ (v722 : IVec S16 32) (v740 : IVec S16 32), Decidable (k1_chk137 v722 v740) := fun v722 v740 => decidable_of_iff' _ (Iff.of_eq (k1_chk137.eq_1 v722 v740))
theorem k1_idx137_inb : ∀ (v722 : IVec S16 32) (v740 : IVec S16 32) (k1_hw137 : k1_chk137 v722 v740), ∀ a x, ((![v722, v740] : Fin 2 → IVec S16 32) a x).toNat < S512x128.size a := fun v722 v740 k1_hw137 => k1_hw137

def k1_chk138 (v722 : IVec S16 32) (v739 : IVec S16 32) : Prop :=
  (∀ a x, ((![v739, v722] : Fin 2 → IVec S16 32) a x).toNat < S64x512.size a)
instance k1_chk138.dec : ∀ (v722 : IVec S16 32) (v739 : IVec S16 32), Decidable (k1_chk138 v722 v739) := fun v722 v739 => decidable_of_iff' _ (Iff.of_eq (k1_chk138.eq_1 v722 v739))
theorem k1_idx138_inb : ∀ (v722 : IVec S16 32) (v739 : IVec S16 32) (k1_hw138 : k1_chk138 v722 v739), ∀ a x, ((![v739, v722] : Fin 2 → IVec S16 32) a x).toNat < S64x512.size a := fun v722 v739 k1_hw138 => k1_hw138

def k1_chk139 (v722 : IVec S16 32) (v743 : IVec S16 32) : Prop :=
  (∀ a x, ((![v722, v743] : Fin 2 → IVec S16 32) a x).toNat < S512x128.size a)
instance k1_chk139.dec : ∀ (v722 : IVec S16 32) (v743 : IVec S16 32), Decidable (k1_chk139 v722 v743) := fun v722 v743 => decidable_of_iff' _ (Iff.of_eq (k1_chk139.eq_1 v722 v743))
theorem k1_idx139_inb : ∀ (v722 : IVec S16 32) (v743 : IVec S16 32) (k1_hw139 : k1_chk139 v722 v743), ∀ a x, ((![v722, v743] : Fin 2 → IVec S16 32) a x).toNat < S512x128.size a := fun v722 v743 k1_hw139 => k1_hw139

def k1_chk140 (v722 : IVec S16 32) (v742 : IVec S16 32) : Prop :=
  (∀ a x, ((![v742, v722] : Fin 2 → IVec S16 32) a x).toNat < S64x512.size a)
instance k1_chk140.dec : ∀ (v722 : IVec S16 32) (v742 : IVec S16 32), Decidable (k1_chk140 v722 v742) := fun v722 v742 => decidable_of_iff' _ (Iff.of_eq (k1_chk140.eq_1 v722 v742))
theorem k1_idx140_inb : ∀ (v722 : IVec S16 32) (v742 : IVec S16 32) (k1_hw140 : k1_chk140 v722 v742), ∀ a x, ((![v742, v722] : Fin 2 → IVec S16 32) a x).toNat < S64x512.size a := fun v722 v742 k1_hw140 => k1_hw140

def k1_chk141 (v722 : IVec S16 32) (v746 : IVec S16 32) : Prop :=
  (∀ a x, ((![v722, v746] : Fin 2 → IVec S16 32) a x).toNat < S512x128.size a)
instance k1_chk141.dec : ∀ (v722 : IVec S16 32) (v746 : IVec S16 32), Decidable (k1_chk141 v722 v746) := fun v722 v746 => decidable_of_iff' _ (Iff.of_eq (k1_chk141.eq_1 v722 v746))
theorem k1_idx141_inb : ∀ (v722 : IVec S16 32) (v746 : IVec S16 32) (k1_hw141 : k1_chk141 v722 v746), ∀ a x, ((![v722, v746] : Fin 2 → IVec S16 32) a x).toNat < S512x128.size a := fun v722 v746 k1_hw141 => k1_hw141

def k1_chk142 (v722 : IVec S16 32) (v745 : IVec S16 32) : Prop :=
  (∀ a x, ((![v745, v722] : Fin 2 → IVec S16 32) a x).toNat < S64x512.size a)
instance k1_chk142.dec : ∀ (v722 : IVec S16 32) (v745 : IVec S16 32), Decidable (k1_chk142 v722 v745) := fun v722 v745 => decidable_of_iff' _ (Iff.of_eq (k1_chk142.eq_1 v722 v745))
theorem k1_idx142_inb : ∀ (v722 : IVec S16 32) (v745 : IVec S16 32) (k1_hw142 : k1_chk142 v722 v745), ∀ a x, ((![v745, v722] : Fin 2 → IVec S16 32) a x).toNat < S64x512.size a := fun v722 v745 k1_hw142 => k1_hw142

def k1_chk143 (v722 : IVec S16 32) (v749 : IVec S16 32) : Prop :=
  (∀ a x, ((![v722, v749] : Fin 2 → IVec S16 32) a x).toNat < S512x128.size a)
instance k1_chk143.dec : ∀ (v722 : IVec S16 32) (v749 : IVec S16 32), Decidable (k1_chk143 v722 v749) := fun v722 v749 => decidable_of_iff' _ (Iff.of_eq (k1_chk143.eq_1 v722 v749))
theorem k1_idx143_inb : ∀ (v722 : IVec S16 32) (v749 : IVec S16 32) (k1_hw143 : k1_chk143 v722 v749), ∀ a x, ((![v722, v749] : Fin 2 → IVec S16 32) a x).toNat < S512x128.size a := fun v722 v749 k1_hw143 => k1_hw143

def k1_chk144 (v722 : IVec S16 32) (v748 : IVec S16 32) : Prop :=
  (∀ a x, ((![v748, v722] : Fin 2 → IVec S16 32) a x).toNat < S64x512.size a)
instance k1_chk144.dec : ∀ (v722 : IVec S16 32) (v748 : IVec S16 32), Decidable (k1_chk144 v722 v748) := fun v722 v748 => decidable_of_iff' _ (Iff.of_eq (k1_chk144.eq_1 v722 v748))
theorem k1_idx144_inb : ∀ (v722 : IVec S16 32) (v748 : IVec S16 32) (k1_hw144 : k1_chk144 v722 v748), ∀ a x, ((![v748, v722] : Fin 2 → IVec S16 32) a x).toNat < S64x512.size a := fun v722 v748 k1_hw144 => k1_hw144

def k1_chk145 (v722 : IVec S16 32) (v752 : IVec S16 32) : Prop :=
  (∀ a x, ((![v722, v752] : Fin 2 → IVec S16 32) a x).toNat < S512x128.size a)
instance k1_chk145.dec : ∀ (v722 : IVec S16 32) (v752 : IVec S16 32), Decidable (k1_chk145 v722 v752) := fun v722 v752 => decidable_of_iff' _ (Iff.of_eq (k1_chk145.eq_1 v722 v752))
theorem k1_idx145_inb : ∀ (v722 : IVec S16 32) (v752 : IVec S16 32) (k1_hw145 : k1_chk145 v722 v752), ∀ a x, ((![v722, v752] : Fin 2 → IVec S16 32) a x).toNat < S512x128.size a := fun v722 v752 k1_hw145 => k1_hw145

def k1_chk146 (v722 : IVec S16 32) (v751 : IVec S16 32) : Prop :=
  (∀ a x, ((![v751, v722] : Fin 2 → IVec S16 32) a x).toNat < S64x512.size a)
instance k1_chk146.dec : ∀ (v722 : IVec S16 32) (v751 : IVec S16 32), Decidable (k1_chk146 v722 v751) := fun v722 v751 => decidable_of_iff' _ (Iff.of_eq (k1_chk146.eq_1 v722 v751))
theorem k1_idx146_inb : ∀ (v722 : IVec S16 32) (v751 : IVec S16 32) (k1_hw146 : k1_chk146 v722 v751), ∀ a x, ((![v751, v722] : Fin 2 → IVec S16 32) a x).toNat < S64x512.size a := fun v722 v751 k1_hw146 => k1_hw146

def k1_chk147 (v722 : IVec S16 32) (v755 : IVec S16 32) : Prop :=
  (∀ a x, ((![v722, v755] : Fin 2 → IVec S16 32) a x).toNat < S512x128.size a)
instance k1_chk147.dec : ∀ (v722 : IVec S16 32) (v755 : IVec S16 32), Decidable (k1_chk147 v722 v755) := fun v722 v755 => decidable_of_iff' _ (Iff.of_eq (k1_chk147.eq_1 v722 v755))
theorem k1_idx147_inb : ∀ (v722 : IVec S16 32) (v755 : IVec S16 32) (k1_hw147 : k1_chk147 v722 v755), ∀ a x, ((![v722, v755] : Fin 2 → IVec S16 32) a x).toNat < S512x128.size a := fun v722 v755 k1_hw147 => k1_hw147

def k1_chk148 (v722 : IVec S16 32) (v754 : IVec S16 32) : Prop :=
  (∀ a x, ((![v754, v722] : Fin 2 → IVec S16 32) a x).toNat < S64x512.size a)
instance k1_chk148.dec : ∀ (v722 : IVec S16 32) (v754 : IVec S16 32), Decidable (k1_chk148 v722 v754) := fun v722 v754 => decidable_of_iff' _ (Iff.of_eq (k1_chk148.eq_1 v722 v754))
theorem k1_idx148_inb : ∀ (v722 : IVec S16 32) (v754 : IVec S16 32) (k1_hw148 : k1_chk148 v722 v754), ∀ a x, ((![v754, v722] : Fin 2 → IVec S16 32) a x).toNat < S64x512.size a := fun v722 v754 k1_hw148 => k1_hw148

def k1_chk149 (v722 : IVec S16 32) (v758 : IVec S16 32) : Prop :=
  (∀ a x, ((![v722, v758] : Fin 2 → IVec S16 32) a x).toNat < S512x128.size a)
instance k1_chk149.dec : ∀ (v722 : IVec S16 32) (v758 : IVec S16 32), Decidable (k1_chk149 v722 v758) := fun v722 v758 => decidable_of_iff' _ (Iff.of_eq (k1_chk149.eq_1 v722 v758))
theorem k1_idx149_inb : ∀ (v722 : IVec S16 32) (v758 : IVec S16 32) (k1_hw149 : k1_chk149 v722 v758), ∀ a x, ((![v722, v758] : Fin 2 → IVec S16 32) a x).toNat < S512x128.size a := fun v722 v758 k1_hw149 => k1_hw149

def k1_chk150 (v722 : IVec S16 32) (v757 : IVec S16 32) : Prop :=
  (∀ a x, ((![v757, v722] : Fin 2 → IVec S16 32) a x).toNat < S64x512.size a)
instance k1_chk150.dec : ∀ (v722 : IVec S16 32) (v757 : IVec S16 32), Decidable (k1_chk150 v722 v757) := fun v722 v757 => decidable_of_iff' _ (Iff.of_eq (k1_chk150.eq_1 v722 v757))
theorem k1_idx150_inb : ∀ (v722 : IVec S16 32) (v757 : IVec S16 32) (k1_hw150 : k1_chk150 v722 v757), ∀ a x, ((![v757, v722] : Fin 2 → IVec S16 32) a x).toNat < S64x512.size a := fun v722 v757 k1_hw150 => k1_hw150

def k1_chk151 (v722 : IVec S16 32) (v761 : IVec S16 32) : Prop :=
  (∀ a x, ((![v722, v761] : Fin 2 → IVec S16 32) a x).toNat < S512x128.size a)
instance k1_chk151.dec : ∀ (v722 : IVec S16 32) (v761 : IVec S16 32), Decidable (k1_chk151 v722 v761) := fun v722 v761 => decidable_of_iff' _ (Iff.of_eq (k1_chk151.eq_1 v722 v761))
theorem k1_idx151_inb : ∀ (v722 : IVec S16 32) (v761 : IVec S16 32) (k1_hw151 : k1_chk151 v722 v761), ∀ a x, ((![v722, v761] : Fin 2 → IVec S16 32) a x).toNat < S512x128.size a := fun v722 v761 k1_hw151 => k1_hw151

def k1_chk152 (v722 : IVec S16 32) (v760 : IVec S16 32) : Prop :=
  (∀ a x, ((![v760, v722] : Fin 2 → IVec S16 32) a x).toNat < S64x512.size a)
instance k1_chk152.dec : ∀ (v722 : IVec S16 32) (v760 : IVec S16 32), Decidable (k1_chk152 v722 v760) := fun v722 v760 => decidable_of_iff' _ (Iff.of_eq (k1_chk152.eq_1 v722 v760))
theorem k1_idx152_inb : ∀ (v722 : IVec S16 32) (v760 : IVec S16 32) (k1_hw152 : k1_chk152 v722 v760), ∀ a x, ((![v760, v722] : Fin 2 → IVec S16 32) a x).toNat < S64x512.size a := fun v722 v760 k1_hw152 => k1_hw152

def k1_chk153 (v722 : IVec S16 32) (v764 : IVec S16 32) : Prop :=
  (∀ a x, ((![v722, v764] : Fin 2 → IVec S16 32) a x).toNat < S512x128.size a)
instance k1_chk153.dec : ∀ (v722 : IVec S16 32) (v764 : IVec S16 32), Decidable (k1_chk153 v722 v764) := fun v722 v764 => decidable_of_iff' _ (Iff.of_eq (k1_chk153.eq_1 v722 v764))
theorem k1_idx153_inb : ∀ (v722 : IVec S16 32) (v764 : IVec S16 32) (k1_hw153 : k1_chk153 v722 v764), ∀ a x, ((![v722, v764] : Fin 2 → IVec S16 32) a x).toNat < S512x128.size a := fun v722 v764 k1_hw153 => k1_hw153

def k1_chk154 (v722 : IVec S16 32) (v763 : IVec S16 32) : Prop :=
  (∀ a x, ((![v763, v722] : Fin 2 → IVec S16 32) a x).toNat < S64x512.size a)
instance k1_chk154.dec : ∀ (v722 : IVec S16 32) (v763 : IVec S16 32), Decidable (k1_chk154 v722 v763) := fun v722 v763 => decidable_of_iff' _ (Iff.of_eq (k1_chk154.eq_1 v722 v763))
theorem k1_idx154_inb : ∀ (v722 : IVec S16 32) (v763 : IVec S16 32) (k1_hw154 : k1_chk154 v722 v763), ∀ a x, ((![v763, v722] : Fin 2 → IVec S16 32) a x).toNat < S64x512.size a := fun v722 v763 k1_hw154 => k1_hw154

def k1_chk155 (v722 : IVec S16 32) (v767 : IVec S16 32) : Prop :=
  (∀ a x, ((![v722, v767] : Fin 2 → IVec S16 32) a x).toNat < S512x128.size a)
instance k1_chk155.dec : ∀ (v722 : IVec S16 32) (v767 : IVec S16 32), Decidable (k1_chk155 v722 v767) := fun v722 v767 => decidable_of_iff' _ (Iff.of_eq (k1_chk155.eq_1 v722 v767))
theorem k1_idx155_inb : ∀ (v722 : IVec S16 32) (v767 : IVec S16 32) (k1_hw155 : k1_chk155 v722 v767), ∀ a x, ((![v722, v767] : Fin 2 → IVec S16 32) a x).toNat < S512x128.size a := fun v722 v767 k1_hw155 => k1_hw155

def k1_chk156 (v722 : IVec S16 32) (v766 : IVec S16 32) : Prop :=
  (∀ a x, ((![v766, v722] : Fin 2 → IVec S16 32) a x).toNat < S64x512.size a)
instance k1_chk156.dec : ∀ (v722 : IVec S16 32) (v766 : IVec S16 32), Decidable (k1_chk156 v722 v766) := fun v722 v766 => decidable_of_iff' _ (Iff.of_eq (k1_chk156.eq_1 v722 v766))
theorem k1_idx156_inb : ∀ (v722 : IVec S16 32) (v766 : IVec S16 32) (k1_hw156 : k1_chk156 v722 v766), ∀ a x, ((![v766, v722] : Fin 2 → IVec S16 32) a x).toNat < S64x512.size a := fun v722 v766 k1_hw156 => k1_hw156

def k1_chk157 (v722 : IVec S16 32) (v770 : IVec S16 32) : Prop :=
  (∀ a x, ((![v722, v770] : Fin 2 → IVec S16 32) a x).toNat < S512x128.size a)
instance k1_chk157.dec : ∀ (v722 : IVec S16 32) (v770 : IVec S16 32), Decidable (k1_chk157 v722 v770) := fun v722 v770 => decidable_of_iff' _ (Iff.of_eq (k1_chk157.eq_1 v722 v770))
theorem k1_idx157_inb : ∀ (v722 : IVec S16 32) (v770 : IVec S16 32) (k1_hw157 : k1_chk157 v722 v770), ∀ a x, ((![v722, v770] : Fin 2 → IVec S16 32) a x).toNat < S512x128.size a := fun v722 v770 k1_hw157 => k1_hw157

def k1_chk158 (v722 : IVec S16 32) (v769 : IVec S16 32) : Prop :=
  (∀ a x, ((![v769, v722] : Fin 2 → IVec S16 32) a x).toNat < S64x512.size a)
instance k1_chk158.dec : ∀ (v722 : IVec S16 32) (v769 : IVec S16 32), Decidable (k1_chk158 v722 v769) := fun v722 v769 => decidable_of_iff' _ (Iff.of_eq (k1_chk158.eq_1 v722 v769))
theorem k1_idx158_inb : ∀ (v722 : IVec S16 32) (v769 : IVec S16 32) (k1_hw158 : k1_chk158 v722 v769), ∀ a x, ((![v769, v722] : Fin 2 → IVec S16 32) a x).toNat < S64x512.size a := fun v722 v769 k1_hw158 => k1_hw158

def k1_chk159 (v722 : IVec S16 32) (v773 : IVec S16 32) : Prop :=
  (∀ a x, ((![v722, v773] : Fin 2 → IVec S16 32) a x).toNat < S512x128.size a)
instance k1_chk159.dec : ∀ (v722 : IVec S16 32) (v773 : IVec S16 32), Decidable (k1_chk159 v722 v773) := fun v722 v773 => decidable_of_iff' _ (Iff.of_eq (k1_chk159.eq_1 v722 v773))
theorem k1_idx159_inb : ∀ (v722 : IVec S16 32) (v773 : IVec S16 32) (k1_hw159 : k1_chk159 v722 v773), ∀ a x, ((![v722, v773] : Fin 2 → IVec S16 32) a x).toNat < S512x128.size a := fun v722 v773 k1_hw159 => k1_hw159

def k1_chk160 (v722 : IVec S16 32) (v772 : IVec S16 32) : Prop :=
  (∀ a x, ((![v772, v722] : Fin 2 → IVec S16 32) a x).toNat < S64x512.size a)
instance k1_chk160.dec : ∀ (v722 : IVec S16 32) (v772 : IVec S16 32), Decidable (k1_chk160 v722 v772) := fun v722 v772 => decidable_of_iff' _ (Iff.of_eq (k1_chk160.eq_1 v722 v772))
theorem k1_idx160_inb : ∀ (v722 : IVec S16 32) (v772 : IVec S16 32) (k1_hw160 : k1_chk160 v722 v772), ∀ a x, ((![v772, v722] : Fin 2 → IVec S16 32) a x).toNat < S64x512.size a := fun v722 v772 k1_hw160 => k1_hw160

def k1_chk161 (v722 : IVec S16 32) (v776 : IVec S16 32) : Prop :=
  (∀ a x, ((![v722, v776] : Fin 2 → IVec S16 32) a x).toNat < S512x128.size a)
instance k1_chk161.dec : ∀ (v722 : IVec S16 32) (v776 : IVec S16 32), Decidable (k1_chk161 v722 v776) := fun v722 v776 => decidable_of_iff' _ (Iff.of_eq (k1_chk161.eq_1 v722 v776))
theorem k1_idx161_inb : ∀ (v722 : IVec S16 32) (v776 : IVec S16 32) (k1_hw161 : k1_chk161 v722 v776), ∀ a x, ((![v722, v776] : Fin 2 → IVec S16 32) a x).toNat < S512x128.size a := fun v722 v776 k1_hw161 => k1_hw161

def k1_chk162 (v722 : IVec S16 32) (v775 : IVec S16 32) : Prop :=
  (∀ a x, ((![v775, v722] : Fin 2 → IVec S16 32) a x).toNat < S64x512.size a)
instance k1_chk162.dec : ∀ (v722 : IVec S16 32) (v775 : IVec S16 32), Decidable (k1_chk162 v722 v775) := fun v722 v775 => decidable_of_iff' _ (Iff.of_eq (k1_chk162.eq_1 v722 v775))
theorem k1_idx162_inb : ∀ (v722 : IVec S16 32) (v775 : IVec S16 32) (k1_hw162 : k1_chk162 v722 v775), ∀ a x, ((![v775, v722] : Fin 2 → IVec S16 32) a x).toNat < S64x512.size a := fun v722 v775 k1_hw162 => k1_hw162

def k1_chk163 (v722 : IVec S16 32) (v779 : IVec S16 32) : Prop :=
  (∀ a x, ((![v722, v779] : Fin 2 → IVec S16 32) a x).toNat < S512x128.size a)
instance k1_chk163.dec : ∀ (v722 : IVec S16 32) (v779 : IVec S16 32), Decidable (k1_chk163 v722 v779) := fun v722 v779 => decidable_of_iff' _ (Iff.of_eq (k1_chk163.eq_1 v722 v779))
theorem k1_idx163_inb : ∀ (v722 : IVec S16 32) (v779 : IVec S16 32) (k1_hw163 : k1_chk163 v722 v779), ∀ a x, ((![v722, v779] : Fin 2 → IVec S16 32) a x).toNat < S512x128.size a := fun v722 v779 k1_hw163 => k1_hw163

def k1_chk164 (v722 : IVec S16 32) (v778 : IVec S16 32) : Prop :=
  (∀ a x, ((![v778, v722] : Fin 2 → IVec S16 32) a x).toNat < S64x512.size a)
instance k1_chk164.dec : ∀ (v722 : IVec S16 32) (v778 : IVec S16 32), Decidable (k1_chk164 v722 v778) := fun v722 v778 => decidable_of_iff' _ (Iff.of_eq (k1_chk164.eq_1 v722 v778))
theorem k1_idx164_inb : ∀ (v722 : IVec S16 32) (v778 : IVec S16 32) (k1_hw164 : k1_chk164 v722 v778), ∀ a x, ((![v778, v722] : Fin 2 → IVec S16 32) a x).toNat < S64x512.size a := fun v722 v778 k1_hw164 => k1_hw164

def k1_chk165 (v722 : IVec S16 32) (v782 : IVec S16 32) : Prop :=
  (∀ a x, ((![v722, v782] : Fin 2 → IVec S16 32) a x).toNat < S512x128.size a)
instance k1_chk165.dec : ∀ (v722 : IVec S16 32) (v782 : IVec S16 32), Decidable (k1_chk165 v722 v782) := fun v722 v782 => decidable_of_iff' _ (Iff.of_eq (k1_chk165.eq_1 v722 v782))
theorem k1_idx165_inb : ∀ (v722 : IVec S16 32) (v782 : IVec S16 32) (k1_hw165 : k1_chk165 v722 v782), ∀ a x, ((![v722, v782] : Fin 2 → IVec S16 32) a x).toNat < S512x128.size a := fun v722 v782 k1_hw165 => k1_hw165

def k1_chk166 (v722 : IVec S16 32) (v781 : IVec S16 32) : Prop :=
  (∀ a x, ((![v781, v722] : Fin 2 → IVec S16 32) a x).toNat < S64x512.size a)
instance k1_chk166.dec : ∀ (v722 : IVec S16 32) (v781 : IVec S16 32), Decidable (k1_chk166 v722 v781) := fun v722 v781 => decidable_of_iff' _ (Iff.of_eq (k1_chk166.eq_1 v722 v781))
theorem k1_idx166_inb : ∀ (v722 : IVec S16 32) (v781 : IVec S16 32) (k1_hw166 : k1_chk166 v722 v781), ∀ a x, ((![v781, v722] : Fin 2 → IVec S16 32) a x).toNat < S64x512.size a := fun v722 v781 k1_hw166 => k1_hw166

def k1_chk167 (v722 : IVec S16 32) (v785 : IVec S16 32) : Prop :=
  (∀ a x, ((![v722, v785] : Fin 2 → IVec S16 32) a x).toNat < S512x128.size a)
instance k1_chk167.dec : ∀ (v722 : IVec S16 32) (v785 : IVec S16 32), Decidable (k1_chk167 v722 v785) := fun v722 v785 => decidable_of_iff' _ (Iff.of_eq (k1_chk167.eq_1 v722 v785))
theorem k1_idx167_inb : ∀ (v722 : IVec S16 32) (v785 : IVec S16 32) (k1_hw167 : k1_chk167 v722 v785), ∀ a x, ((![v722, v785] : Fin 2 → IVec S16 32) a x).toNat < S512x128.size a := fun v722 v785 k1_hw167 => k1_hw167

def k1_chk168 (v722 : IVec S16 32) (v784 : IVec S16 32) : Prop :=
  (∀ a x, ((![v784, v722] : Fin 2 → IVec S16 32) a x).toNat < S64x512.size a)
instance k1_chk168.dec : ∀ (v722 : IVec S16 32) (v784 : IVec S16 32), Decidable (k1_chk168 v722 v784) := fun v722 v784 => decidable_of_iff' _ (Iff.of_eq (k1_chk168.eq_1 v722 v784))
theorem k1_idx168_inb : ∀ (v722 : IVec S16 32) (v784 : IVec S16 32) (k1_hw168 : k1_chk168 v722 v784), ∀ a x, ((![v784, v722] : Fin 2 → IVec S16 32) a x).toNat < S64x512.size a := fun v722 v784 k1_hw168 => k1_hw168

def k1_chk169 (v722 : IVec S16 32) (v788 : IVec S16 32) : Prop :=
  (∀ a x, ((![v722, v788] : Fin 2 → IVec S16 32) a x).toNat < S512x128.size a)
instance k1_chk169.dec : ∀ (v722 : IVec S16 32) (v788 : IVec S16 32), Decidable (k1_chk169 v722 v788) := fun v722 v788 => decidable_of_iff' _ (Iff.of_eq (k1_chk169.eq_1 v722 v788))
theorem k1_idx169_inb : ∀ (v722 : IVec S16 32) (v788 : IVec S16 32) (k1_hw169 : k1_chk169 v722 v788), ∀ a x, ((![v722, v788] : Fin 2 → IVec S16 32) a x).toNat < S512x128.size a := fun v722 v788 k1_hw169 => k1_hw169

def k1_chk170 (v722 : IVec S16 32) (v787 : IVec S16 32) : Prop :=
  (∀ a x, ((![v787, v722] : Fin 2 → IVec S16 32) a x).toNat < S64x512.size a)
instance k1_chk170.dec : ∀ (v722 : IVec S16 32) (v787 : IVec S16 32), Decidable (k1_chk170 v722 v787) := fun v722 v787 => decidable_of_iff' _ (Iff.of_eq (k1_chk170.eq_1 v722 v787))
theorem k1_idx170_inb : ∀ (v722 : IVec S16 32) (v787 : IVec S16 32) (k1_hw170 : k1_chk170 v722 v787), ∀ a x, ((![v787, v722] : Fin 2 → IVec S16 32) a x).toNat < S64x512.size a := fun v722 v787 k1_hw170 => k1_hw170

def k1_chk171 (v722 : IVec S16 32) (v791 : IVec S16 32) : Prop :=
  (∀ a x, ((![v722, v791] : Fin 2 → IVec S16 32) a x).toNat < S512x128.size a)
instance k1_chk171.dec : ∀ (v722 : IVec S16 32) (v791 : IVec S16 32), Decidable (k1_chk171 v722 v791) := fun v722 v791 => decidable_of_iff' _ (Iff.of_eq (k1_chk171.eq_1 v722 v791))
theorem k1_idx171_inb : ∀ (v722 : IVec S16 32) (v791 : IVec S16 32) (k1_hw171 : k1_chk171 v722 v791), ∀ a x, ((![v722, v791] : Fin 2 → IVec S16 32) a x).toNat < S512x128.size a := fun v722 v791 k1_hw171 => k1_hw171

def k1_chk172 (v722 : IVec S16 32) (v790 : IVec S16 32) : Prop :=
  (∀ a x, ((![v790, v722] : Fin 2 → IVec S16 32) a x).toNat < S64x512.size a)
instance k1_chk172.dec : ∀ (v722 : IVec S16 32) (v790 : IVec S16 32), Decidable (k1_chk172 v722 v790) := fun v722 v790 => decidable_of_iff' _ (Iff.of_eq (k1_chk172.eq_1 v722 v790))
theorem k1_idx172_inb : ∀ (v722 : IVec S16 32) (v790 : IVec S16 32) (k1_hw172 : k1_chk172 v722 v790), ∀ a x, ((![v790, v722] : Fin 2 → IVec S16 32) a x).toNat < S64x512.size a := fun v722 v790 k1_hw172 => k1_hw172

def k1_chk173 (v722 : IVec S16 32) (v794 : IVec S16 32) : Prop :=
  (∀ a x, ((![v722, v794] : Fin 2 → IVec S16 32) a x).toNat < S512x128.size a)
instance k1_chk173.dec : ∀ (v722 : IVec S16 32) (v794 : IVec S16 32), Decidable (k1_chk173 v722 v794) := fun v722 v794 => decidable_of_iff' _ (Iff.of_eq (k1_chk173.eq_1 v722 v794))
theorem k1_idx173_inb : ∀ (v722 : IVec S16 32) (v794 : IVec S16 32) (k1_hw173 : k1_chk173 v722 v794), ∀ a x, ((![v722, v794] : Fin 2 → IVec S16 32) a x).toNat < S512x128.size a := fun v722 v794 k1_hw173 => k1_hw173

def k1_chk174 (v722 : IVec S16 32) (v793 : IVec S16 32) : Prop :=
  (∀ a x, ((![v793, v722] : Fin 2 → IVec S16 32) a x).toNat < S64x512.size a)
instance k1_chk174.dec : ∀ (v722 : IVec S16 32) (v793 : IVec S16 32), Decidable (k1_chk174 v722 v793) := fun v722 v793 => decidable_of_iff' _ (Iff.of_eq (k1_chk174.eq_1 v722 v793))
theorem k1_idx174_inb : ∀ (v722 : IVec S16 32) (v793 : IVec S16 32) (k1_hw174 : k1_chk174 v722 v793), ∀ a x, ((![v793, v722] : Fin 2 → IVec S16 32) a x).toNat < S64x512.size a := fun v722 v793 k1_hw174 => k1_hw174

def k1_chk175 (v722 : IVec S16 32) (v797 : IVec S16 32) : Prop :=
  (∀ a x, ((![v722, v797] : Fin 2 → IVec S16 32) a x).toNat < S512x128.size a)
instance k1_chk175.dec : ∀ (v722 : IVec S16 32) (v797 : IVec S16 32), Decidable (k1_chk175 v722 v797) := fun v722 v797 => decidable_of_iff' _ (Iff.of_eq (k1_chk175.eq_1 v722 v797))
theorem k1_idx175_inb : ∀ (v722 : IVec S16 32) (v797 : IVec S16 32) (k1_hw175 : k1_chk175 v722 v797), ∀ a x, ((![v722, v797] : Fin 2 → IVec S16 32) a x).toNat < S512x128.size a := fun v722 v797 k1_hw175 => k1_hw175

def k1_chk176 (v722 : IVec S16 32) (v796 : IVec S16 32) : Prop :=
  (∀ a x, ((![v796, v722] : Fin 2 → IVec S16 32) a x).toNat < S64x512.size a)
instance k1_chk176.dec : ∀ (v722 : IVec S16 32) (v796 : IVec S16 32), Decidable (k1_chk176 v722 v796) := fun v722 v796 => decidable_of_iff' _ (Iff.of_eq (k1_chk176.eq_1 v722 v796))
theorem k1_idx176_inb : ∀ (v722 : IVec S16 32) (v796 : IVec S16 32) (k1_hw176 : k1_chk176 v722 v796), ∀ a x, ((![v796, v722] : Fin 2 → IVec S16 32) a x).toNat < S64x512.size a := fun v722 v796 k1_hw176 => k1_hw176

def k1_chk177 (v722 : IVec S16 32) (v800 : IVec S16 32) : Prop :=
  (∀ a x, ((![v722, v800] : Fin 2 → IVec S16 32) a x).toNat < S512x128.size a)
instance k1_chk177.dec : ∀ (v722 : IVec S16 32) (v800 : IVec S16 32), Decidable (k1_chk177 v722 v800) := fun v722 v800 => decidable_of_iff' _ (Iff.of_eq (k1_chk177.eq_1 v722 v800))
theorem k1_idx177_inb : ∀ (v722 : IVec S16 32) (v800 : IVec S16 32) (k1_hw177 : k1_chk177 v722 v800), ∀ a x, ((![v722, v800] : Fin 2 → IVec S16 32) a x).toNat < S512x128.size a := fun v722 v800 k1_hw177 => k1_hw177

def k1_chk178 (v722 : IVec S16 32) (v799 : IVec S16 32) : Prop :=
  (∀ a x, ((![v799, v722] : Fin 2 → IVec S16 32) a x).toNat < S64x512.size a)
instance k1_chk178.dec : ∀ (v722 : IVec S16 32) (v799 : IVec S16 32), Decidable (k1_chk178 v722 v799) := fun v722 v799 => decidable_of_iff' _ (Iff.of_eq (k1_chk178.eq_1 v722 v799))
theorem k1_idx178_inb : ∀ (v722 : IVec S16 32) (v799 : IVec S16 32) (k1_hw178 : k1_chk178 v722 v799), ∀ a x, ((![v799, v722] : Fin 2 → IVec S16 32) a x).toNat < S64x512.size a := fun v722 v799 k1_hw178 => k1_hw178

def k1_chk179 (v722 : IVec S16 32) (v803 : IVec S16 32) : Prop :=
  (∀ a x, ((![v722, v803] : Fin 2 → IVec S16 32) a x).toNat < S512x128.size a)
instance k1_chk179.dec : ∀ (v722 : IVec S16 32) (v803 : IVec S16 32), Decidable (k1_chk179 v722 v803) := fun v722 v803 => decidable_of_iff' _ (Iff.of_eq (k1_chk179.eq_1 v722 v803))
theorem k1_idx179_inb : ∀ (v722 : IVec S16 32) (v803 : IVec S16 32) (k1_hw179 : k1_chk179 v722 v803), ∀ a x, ((![v722, v803] : Fin 2 → IVec S16 32) a x).toNat < S512x128.size a := fun v722 v803 k1_hw179 => k1_hw179

def k1_chk180 (v722 : IVec S16 32) (v802 : IVec S16 32) : Prop :=
  (∀ a x, ((![v802, v722] : Fin 2 → IVec S16 32) a x).toNat < S64x512.size a)
instance k1_chk180.dec : ∀ (v722 : IVec S16 32) (v802 : IVec S16 32), Decidable (k1_chk180 v722 v802) := fun v722 v802 => decidable_of_iff' _ (Iff.of_eq (k1_chk180.eq_1 v722 v802))
theorem k1_idx180_inb : ∀ (v722 : IVec S16 32) (v802 : IVec S16 32) (k1_hw180 : k1_chk180 v722 v802), ∀ a x, ((![v802, v722] : Fin 2 → IVec S16 32) a x).toNat < S64x512.size a := fun v722 v802 k1_hw180 => k1_hw180

def k1_chk181 (v722 : IVec S16 32) (v806 : IVec S16 32) : Prop :=
  (∀ a x, ((![v722, v806] : Fin 2 → IVec S16 32) a x).toNat < S512x128.size a)
instance k1_chk181.dec : ∀ (v722 : IVec S16 32) (v806 : IVec S16 32), Decidable (k1_chk181 v722 v806) := fun v722 v806 => decidable_of_iff' _ (Iff.of_eq (k1_chk181.eq_1 v722 v806))
theorem k1_idx181_inb : ∀ (v722 : IVec S16 32) (v806 : IVec S16 32) (k1_hw181 : k1_chk181 v722 v806), ∀ a x, ((![v722, v806] : Fin 2 → IVec S16 32) a x).toNat < S512x128.size a := fun v722 v806 k1_hw181 => k1_hw181

def k1_chk182 (v722 : IVec S16 32) (v805 : IVec S16 32) : Prop :=
  (∀ a x, ((![v805, v722] : Fin 2 → IVec S16 32) a x).toNat < S64x512.size a)
instance k1_chk182.dec : ∀ (v722 : IVec S16 32) (v805 : IVec S16 32), Decidable (k1_chk182 v722 v805) := fun v722 v805 => decidable_of_iff' _ (Iff.of_eq (k1_chk182.eq_1 v722 v805))
theorem k1_idx182_inb : ∀ (v722 : IVec S16 32) (v805 : IVec S16 32) (k1_hw182 : k1_chk182 v722 v805), ∀ a x, ((![v805, v722] : Fin 2 → IVec S16 32) a x).toNat < S64x512.size a := fun v722 v805 k1_hw182 => k1_hw182

def k1_chk183 (v722 : IVec S16 32) (v809 : IVec S16 32) : Prop :=
  (∀ a x, ((![v722, v809] : Fin 2 → IVec S16 32) a x).toNat < S512x128.size a)
instance k1_chk183.dec : ∀ (v722 : IVec S16 32) (v809 : IVec S16 32), Decidable (k1_chk183 v722 v809) := fun v722 v809 => decidable_of_iff' _ (Iff.of_eq (k1_chk183.eq_1 v722 v809))
theorem k1_idx183_inb : ∀ (v722 : IVec S16 32) (v809 : IVec S16 32) (k1_hw183 : k1_chk183 v722 v809), ∀ a x, ((![v722, v809] : Fin 2 → IVec S16 32) a x).toNat < S512x128.size a := fun v722 v809 k1_hw183 => k1_hw183

def k1_chk184 (v722 : IVec S16 32) (v808 : IVec S16 32) : Prop :=
  (∀ a x, ((![v808, v722] : Fin 2 → IVec S16 32) a x).toNat < S64x512.size a)
instance k1_chk184.dec : ∀ (v722 : IVec S16 32) (v808 : IVec S16 32), Decidable (k1_chk184 v722 v808) := fun v722 v808 => decidable_of_iff' _ (Iff.of_eq (k1_chk184.eq_1 v722 v808))
theorem k1_idx184_inb : ∀ (v722 : IVec S16 32) (v808 : IVec S16 32) (k1_hw184 : k1_chk184 v722 v808), ∀ a x, ((![v808, v722] : Fin 2 → IVec S16 32) a x).toNat < S64x512.size a := fun v722 v808 k1_hw184 => k1_hw184

def k1_chk185 (v722 : IVec S16 32) (v812 : IVec S16 32) : Prop :=
  (∀ a x, ((![v722, v812] : Fin 2 → IVec S16 32) a x).toNat < S512x128.size a)
instance k1_chk185.dec : ∀ (v722 : IVec S16 32) (v812 : IVec S16 32), Decidable (k1_chk185 v722 v812) := fun v722 v812 => decidable_of_iff' _ (Iff.of_eq (k1_chk185.eq_1 v722 v812))
theorem k1_idx185_inb : ∀ (v722 : IVec S16 32) (v812 : IVec S16 32) (k1_hw185 : k1_chk185 v722 v812), ∀ a x, ((![v722, v812] : Fin 2 → IVec S16 32) a x).toNat < S512x128.size a := fun v722 v812 k1_hw185 => k1_hw185

def k1_chk186 (v722 : IVec S16 32) (v811 : IVec S16 32) : Prop :=
  (∀ a x, ((![v811, v722] : Fin 2 → IVec S16 32) a x).toNat < S64x512.size a)
instance k1_chk186.dec : ∀ (v722 : IVec S16 32) (v811 : IVec S16 32), Decidable (k1_chk186 v722 v811) := fun v722 v811 => decidable_of_iff' _ (Iff.of_eq (k1_chk186.eq_1 v722 v811))
theorem k1_idx186_inb : ∀ (v722 : IVec S16 32) (v811 : IVec S16 32) (k1_hw186 : k1_chk186 v722 v811), ∀ a x, ((![v811, v722] : Fin 2 → IVec S16 32) a x).toNat < S64x512.size a := fun v722 v811 k1_hw186 => k1_hw186

def k1_chk187 (v722 : IVec S16 32) (v815 : IVec S16 32) : Prop :=
  (∀ a x, ((![v722, v815] : Fin 2 → IVec S16 32) a x).toNat < S512x128.size a)
instance k1_chk187.dec : ∀ (v722 : IVec S16 32) (v815 : IVec S16 32), Decidable (k1_chk187 v722 v815) := fun v722 v815 => decidable_of_iff' _ (Iff.of_eq (k1_chk187.eq_1 v722 v815))
theorem k1_idx187_inb : ∀ (v722 : IVec S16 32) (v815 : IVec S16 32) (k1_hw187 : k1_chk187 v722 v815), ∀ a x, ((![v722, v815] : Fin 2 → IVec S16 32) a x).toNat < S512x128.size a := fun v722 v815 k1_hw187 => k1_hw187

def k1_chk188 (v722 : IVec S16 32) (v814 : IVec S16 32) : Prop :=
  (∀ a x, ((![v814, v722] : Fin 2 → IVec S16 32) a x).toNat < S64x512.size a)
instance k1_chk188.dec : ∀ (v722 : IVec S16 32) (v814 : IVec S16 32), Decidable (k1_chk188 v722 v814) := fun v722 v814 => decidable_of_iff' _ (Iff.of_eq (k1_chk188.eq_1 v722 v814))
theorem k1_idx188_inb : ∀ (v722 : IVec S16 32) (v814 : IVec S16 32) (k1_hw188 : k1_chk188 v722 v814), ∀ a x, ((![v814, v722] : Fin 2 → IVec S16 32) a x).toNat < S64x512.size a := fun v722 v814 k1_hw188 => k1_hw188

def k1_chk189 (v722 : IVec S16 32) (v818 : IVec S16 32) : Prop :=
  (∀ a x, ((![v722, v818] : Fin 2 → IVec S16 32) a x).toNat < S512x128.size a)
instance k1_chk189.dec : ∀ (v722 : IVec S16 32) (v818 : IVec S16 32), Decidable (k1_chk189 v722 v818) := fun v722 v818 => decidable_of_iff' _ (Iff.of_eq (k1_chk189.eq_1 v722 v818))
theorem k1_idx189_inb : ∀ (v722 : IVec S16 32) (v818 : IVec S16 32) (k1_hw189 : k1_chk189 v722 v818), ∀ a x, ((![v722, v818] : Fin 2 → IVec S16 32) a x).toNat < S512x128.size a := fun v722 v818 k1_hw189 => k1_hw189

def k1_chk190 (v722 : IVec S16 32) (v817 : IVec S16 32) : Prop :=
  (∀ a x, ((![v817, v722] : Fin 2 → IVec S16 32) a x).toNat < S64x512.size a)
instance k1_chk190.dec : ∀ (v722 : IVec S16 32) (v817 : IVec S16 32), Decidable (k1_chk190 v722 v817) := fun v722 v817 => decidable_of_iff' _ (Iff.of_eq (k1_chk190.eq_1 v722 v817))
theorem k1_idx190_inb : ∀ (v722 : IVec S16 32) (v817 : IVec S16 32) (k1_hw190 : k1_chk190 v722 v817), ∀ a x, ((![v817, v722] : Fin 2 → IVec S16 32) a x).toNat < S64x512.size a := fun v722 v817 k1_hw190 => k1_hw190

def k1_chk191 (v722 : IVec S16 32) (v821 : IVec S16 32) : Prop :=
  (∀ a x, ((![v722, v821] : Fin 2 → IVec S16 32) a x).toNat < S512x128.size a)
instance k1_chk191.dec : ∀ (v722 : IVec S16 32) (v821 : IVec S16 32), Decidable (k1_chk191 v722 v821) := fun v722 v821 => decidable_of_iff' _ (Iff.of_eq (k1_chk191.eq_1 v722 v821))
theorem k1_idx191_inb : ∀ (v722 : IVec S16 32) (v821 : IVec S16 32) (k1_hw191 : k1_chk191 v722 v821), ∀ a x, ((![v722, v821] : Fin 2 → IVec S16 32) a x).toNat < S512x128.size a := fun v722 v821 k1_hw191 => k1_hw191

def k1_chk192 (v722 : IVec S16 32) (v820 : IVec S16 32) : Prop :=
  (∀ a x, ((![v820, v722] : Fin 2 → IVec S16 32) a x).toNat < S64x512.size a)
instance k1_chk192.dec : ∀ (v722 : IVec S16 32) (v820 : IVec S16 32), Decidable (k1_chk192 v722 v820) := fun v722 v820 => decidable_of_iff' _ (Iff.of_eq (k1_chk192.eq_1 v722 v820))
theorem k1_idx192_inb : ∀ (v722 : IVec S16 32) (v820 : IVec S16 32) (k1_hw192 : k1_chk192 v722 v820), ∀ a x, ((![v820, v722] : Fin 2 → IVec S16 32) a x).toNat < S64x512.size a := fun v722 v820 k1_hw192 => k1_hw192

def k1_chk193 (v722 : IVec S16 32) (v824 : IVec S16 32) : Prop :=
  (∀ a x, ((![v722, v824] : Fin 2 → IVec S16 32) a x).toNat < S512x128.size a)
instance k1_chk193.dec : ∀ (v722 : IVec S16 32) (v824 : IVec S16 32), Decidable (k1_chk193 v722 v824) := fun v722 v824 => decidable_of_iff' _ (Iff.of_eq (k1_chk193.eq_1 v722 v824))
theorem k1_idx193_inb : ∀ (v722 : IVec S16 32) (v824 : IVec S16 32) (k1_hw193 : k1_chk193 v722 v824), ∀ a x, ((![v722, v824] : Fin 2 → IVec S16 32) a x).toNat < S512x128.size a := fun v722 v824 k1_hw193 => k1_hw193

def k1_chk194 (v722 : IVec S16 32) (v823 : IVec S16 32) : Prop :=
  (∀ a x, ((![v823, v722] : Fin 2 → IVec S16 32) a x).toNat < S64x512.size a)
instance k1_chk194.dec : ∀ (v722 : IVec S16 32) (v823 : IVec S16 32), Decidable (k1_chk194 v722 v823) := fun v722 v823 => decidable_of_iff' _ (Iff.of_eq (k1_chk194.eq_1 v722 v823))
theorem k1_idx194_inb : ∀ (v722 : IVec S16 32) (v823 : IVec S16 32) (k1_hw194 : k1_chk194 v722 v823), ∀ a x, ((![v823, v722] : Fin 2 → IVec S16 32) a x).toNat < S64x512.size a := fun v722 v823 k1_hw194 => k1_hw194

def k1_chk195 (v722 : IVec S16 32) (v827 : IVec S16 32) : Prop :=
  (∀ a x, ((![v722, v827] : Fin 2 → IVec S16 32) a x).toNat < S512x128.size a)
instance k1_chk195.dec : ∀ (v722 : IVec S16 32) (v827 : IVec S16 32), Decidable (k1_chk195 v722 v827) := fun v722 v827 => decidable_of_iff' _ (Iff.of_eq (k1_chk195.eq_1 v722 v827))
theorem k1_idx195_inb : ∀ (v722 : IVec S16 32) (v827 : IVec S16 32) (k1_hw195 : k1_chk195 v722 v827), ∀ a x, ((![v722, v827] : Fin 2 → IVec S16 32) a x).toNat < S512x128.size a := fun v722 v827 k1_hw195 => k1_hw195

def k1_chk196 (v722 : IVec S16 32) (v826 : IVec S16 32) : Prop :=
  (∀ a x, ((![v826, v722] : Fin 2 → IVec S16 32) a x).toNat < S64x512.size a)
instance k1_chk196.dec : ∀ (v722 : IVec S16 32) (v826 : IVec S16 32), Decidable (k1_chk196 v722 v826) := fun v722 v826 => decidable_of_iff' _ (Iff.of_eq (k1_chk196.eq_1 v722 v826))
theorem k1_idx196_inb : ∀ (v722 : IVec S16 32) (v826 : IVec S16 32) (k1_hw196 : k1_chk196 v722 v826), ∀ a x, ((![v826, v722] : Fin 2 → IVec S16 32) a x).toNat < S64x512.size a := fun v722 v826 k1_hw196 => k1_hw196

def k1_chk197 (v722 : IVec S16 32) (v830 : IVec S16 32) : Prop :=
  (∀ a x, ((![v722, v830] : Fin 2 → IVec S16 32) a x).toNat < S512x128.size a)
instance k1_chk197.dec : ∀ (v722 : IVec S16 32) (v830 : IVec S16 32), Decidable (k1_chk197 v722 v830) := fun v722 v830 => decidable_of_iff' _ (Iff.of_eq (k1_chk197.eq_1 v722 v830))
theorem k1_idx197_inb : ∀ (v722 : IVec S16 32) (v830 : IVec S16 32) (k1_hw197 : k1_chk197 v722 v830), ∀ a x, ((![v722, v830] : Fin 2 → IVec S16 32) a x).toNat < S512x128.size a := fun v722 v830 k1_hw197 => k1_hw197

def k1_chk198 (v722 : IVec S16 32) (v829 : IVec S16 32) : Prop :=
  (∀ a x, ((![v829, v722] : Fin 2 → IVec S16 32) a x).toNat < S64x512.size a)
instance k1_chk198.dec : ∀ (v722 : IVec S16 32) (v829 : IVec S16 32), Decidable (k1_chk198 v722 v829) := fun v722 v829 => decidable_of_iff' _ (Iff.of_eq (k1_chk198.eq_1 v722 v829))
theorem k1_idx198_inb : ∀ (v722 : IVec S16 32) (v829 : IVec S16 32) (k1_hw198 : k1_chk198 v722 v829), ∀ a x, ((![v829, v722] : Fin 2 → IVec S16 32) a x).toNat < S64x512.size a := fun v722 v829 k1_hw198 => k1_hw198

def k1_chk199 (v722 : IVec S16 32) (v833 : IVec S16 32) : Prop :=
  (∀ a x, ((![v722, v833] : Fin 2 → IVec S16 32) a x).toNat < S512x128.size a)
instance k1_chk199.dec : ∀ (v722 : IVec S16 32) (v833 : IVec S16 32), Decidable (k1_chk199 v722 v833) := fun v722 v833 => decidable_of_iff' _ (Iff.of_eq (k1_chk199.eq_1 v722 v833))
theorem k1_idx199_inb : ∀ (v722 : IVec S16 32) (v833 : IVec S16 32) (k1_hw199 : k1_chk199 v722 v833), ∀ a x, ((![v722, v833] : Fin 2 → IVec S16 32) a x).toNat < S512x128.size a := fun v722 v833 k1_hw199 => k1_hw199

def k1_chk200 (v722 : IVec S16 32) (v832 : IVec S16 32) : Prop :=
  (∀ a x, ((![v832, v722] : Fin 2 → IVec S16 32) a x).toNat < S64x512.size a)
instance k1_chk200.dec : ∀ (v722 : IVec S16 32) (v832 : IVec S16 32), Decidable (k1_chk200 v722 v832) := fun v722 v832 => decidable_of_iff' _ (Iff.of_eq (k1_chk200.eq_1 v722 v832))
theorem k1_idx200_inb : ∀ (v722 : IVec S16 32) (v832 : IVec S16 32) (k1_hw200 : k1_chk200 v722 v832), ∀ a x, ((![v832, v722] : Fin 2 → IVec S16 32) a x).toNat < S64x512.size a := fun v722 v832 k1_hw200 => k1_hw200

def k1_chk201 (v722 : IVec S16 32) (v836 : IVec S16 32) : Prop :=
  (∀ a x, ((![v722, v836] : Fin 2 → IVec S16 32) a x).toNat < S512x128.size a)
instance k1_chk201.dec : ∀ (v722 : IVec S16 32) (v836 : IVec S16 32), Decidable (k1_chk201 v722 v836) := fun v722 v836 => decidable_of_iff' _ (Iff.of_eq (k1_chk201.eq_1 v722 v836))
theorem k1_idx201_inb : ∀ (v722 : IVec S16 32) (v836 : IVec S16 32) (k1_hw201 : k1_chk201 v722 v836), ∀ a x, ((![v722, v836] : Fin 2 → IVec S16 32) a x).toNat < S512x128.size a := fun v722 v836 k1_hw201 => k1_hw201

def k1_chk202 (v722 : IVec S16 32) (v835 : IVec S16 32) : Prop :=
  (∀ a x, ((![v835, v722] : Fin 2 → IVec S16 32) a x).toNat < S64x512.size a)
instance k1_chk202.dec : ∀ (v722 : IVec S16 32) (v835 : IVec S16 32), Decidable (k1_chk202 v722 v835) := fun v722 v835 => decidable_of_iff' _ (Iff.of_eq (k1_chk202.eq_1 v722 v835))
theorem k1_idx202_inb : ∀ (v722 : IVec S16 32) (v835 : IVec S16 32) (k1_hw202 : k1_chk202 v722 v835), ∀ a x, ((![v835, v722] : Fin 2 → IVec S16 32) a x).toNat < S64x512.size a := fun v722 v835 k1_hw202 => k1_hw202

def k1_chk203 (v722 : IVec S16 32) (v839 : IVec S16 32) : Prop :=
  (∀ a x, ((![v722, v839] : Fin 2 → IVec S16 32) a x).toNat < S512x128.size a)
instance k1_chk203.dec : ∀ (v722 : IVec S16 32) (v839 : IVec S16 32), Decidable (k1_chk203 v722 v839) := fun v722 v839 => decidable_of_iff' _ (Iff.of_eq (k1_chk203.eq_1 v722 v839))
theorem k1_idx203_inb : ∀ (v722 : IVec S16 32) (v839 : IVec S16 32) (k1_hw203 : k1_chk203 v722 v839), ∀ a x, ((![v722, v839] : Fin 2 → IVec S16 32) a x).toNat < S512x128.size a := fun v722 v839 k1_hw203 => k1_hw203

def k1_chk204 (v722 : IVec S16 32) (v838 : IVec S16 32) : Prop :=
  (∀ a x, ((![v838, v722] : Fin 2 → IVec S16 32) a x).toNat < S64x512.size a)
instance k1_chk204.dec : ∀ (v722 : IVec S16 32) (v838 : IVec S16 32), Decidable (k1_chk204 v722 v838) := fun v722 v838 => decidable_of_iff' _ (Iff.of_eq (k1_chk204.eq_1 v722 v838))
theorem k1_idx204_inb : ∀ (v722 : IVec S16 32) (v838 : IVec S16 32) (k1_hw204 : k1_chk204 v722 v838), ∀ a x, ((![v838, v722] : Fin 2 → IVec S16 32) a x).toNat < S64x512.size a := fun v722 v838 k1_hw204 => k1_hw204

def k1_chk205 (v722 : IVec S16 32) (v842 : IVec S16 32) : Prop :=
  (∀ a x, ((![v722, v842] : Fin 2 → IVec S16 32) a x).toNat < S512x128.size a)
instance k1_chk205.dec : ∀ (v722 : IVec S16 32) (v842 : IVec S16 32), Decidable (k1_chk205 v722 v842) := fun v722 v842 => decidable_of_iff' _ (Iff.of_eq (k1_chk205.eq_1 v722 v842))
theorem k1_idx205_inb : ∀ (v722 : IVec S16 32) (v842 : IVec S16 32) (k1_hw205 : k1_chk205 v722 v842), ∀ a x, ((![v722, v842] : Fin 2 → IVec S16 32) a x).toNat < S512x128.size a := fun v722 v842 k1_hw205 => k1_hw205

def k1_chk206 (v722 : IVec S16 32) (v841 : IVec S16 32) : Prop :=
  (∀ a x, ((![v841, v722] : Fin 2 → IVec S16 32) a x).toNat < S64x512.size a)
instance k1_chk206.dec : ∀ (v722 : IVec S16 32) (v841 : IVec S16 32), Decidable (k1_chk206 v722 v841) := fun v722 v841 => decidable_of_iff' _ (Iff.of_eq (k1_chk206.eq_1 v722 v841))
theorem k1_idx206_inb : ∀ (v722 : IVec S16 32) (v841 : IVec S16 32) (k1_hw206 : k1_chk206 v722 v841), ∀ a x, ((![v841, v722] : Fin 2 → IVec S16 32) a x).toNat < S64x512.size a := fun v722 v841 k1_hw206 => k1_hw206

def k1_chk207 (v722 : IVec S16 32) (v845 : IVec S16 32) : Prop :=
  (∀ a x, ((![v722, v845] : Fin 2 → IVec S16 32) a x).toNat < S512x128.size a)
instance k1_chk207.dec : ∀ (v722 : IVec S16 32) (v845 : IVec S16 32), Decidable (k1_chk207 v722 v845) := fun v722 v845 => decidable_of_iff' _ (Iff.of_eq (k1_chk207.eq_1 v722 v845))
theorem k1_idx207_inb : ∀ (v722 : IVec S16 32) (v845 : IVec S16 32) (k1_hw207 : k1_chk207 v722 v845), ∀ a x, ((![v722, v845] : Fin 2 → IVec S16 32) a x).toNat < S512x128.size a := fun v722 v845 k1_hw207 => k1_hw207

def k1_chk208 (v722 : IVec S16 32) (v844 : IVec S16 32) : Prop :=
  (∀ a x, ((![v844, v722] : Fin 2 → IVec S16 32) a x).toNat < S64x512.size a)
instance k1_chk208.dec : ∀ (v722 : IVec S16 32) (v844 : IVec S16 32), Decidable (k1_chk208 v722 v844) := fun v722 v844 => decidable_of_iff' _ (Iff.of_eq (k1_chk208.eq_1 v722 v844))
theorem k1_idx208_inb : ∀ (v722 : IVec S16 32) (v844 : IVec S16 32) (k1_hw208 : k1_chk208 v722 v844), ∀ a x, ((![v844, v722] : Fin 2 → IVec S16 32) a x).toNat < S64x512.size a := fun v722 v844 k1_hw208 => k1_hw208

def k1_chk209 (v722 : IVec S16 32) (v848 : IVec S16 32) : Prop :=
  (∀ a x, ((![v722, v848] : Fin 2 → IVec S16 32) a x).toNat < S512x128.size a)
instance k1_chk209.dec : ∀ (v722 : IVec S16 32) (v848 : IVec S16 32), Decidable (k1_chk209 v722 v848) := fun v722 v848 => decidable_of_iff' _ (Iff.of_eq (k1_chk209.eq_1 v722 v848))
theorem k1_idx209_inb : ∀ (v722 : IVec S16 32) (v848 : IVec S16 32) (k1_hw209 : k1_chk209 v722 v848), ∀ a x, ((![v722, v848] : Fin 2 → IVec S16 32) a x).toNat < S512x128.size a := fun v722 v848 k1_hw209 => k1_hw209

def k1_chk210 (v722 : IVec S16 32) (v847 : IVec S16 32) : Prop :=
  (∀ a x, ((![v847, v722] : Fin 2 → IVec S16 32) a x).toNat < S64x512.size a)
instance k1_chk210.dec : ∀ (v722 : IVec S16 32) (v847 : IVec S16 32), Decidable (k1_chk210 v722 v847) := fun v722 v847 => decidable_of_iff' _ (Iff.of_eq (k1_chk210.eq_1 v722 v847))
theorem k1_idx210_inb : ∀ (v722 : IVec S16 32) (v847 : IVec S16 32) (k1_hw210 : k1_chk210 v722 v847), ∀ a x, ((![v847, v722] : Fin 2 → IVec S16 32) a x).toNat < S64x512.size a := fun v722 v847 k1_hw210 => k1_hw210

def k1_chk211 (v722 : IVec S16 32) (v851 : IVec S16 32) : Prop :=
  (∀ a x, ((![v722, v851] : Fin 2 → IVec S16 32) a x).toNat < S512x128.size a)
instance k1_chk211.dec : ∀ (v722 : IVec S16 32) (v851 : IVec S16 32), Decidable (k1_chk211 v722 v851) := fun v722 v851 => decidable_of_iff' _ (Iff.of_eq (k1_chk211.eq_1 v722 v851))
theorem k1_idx211_inb : ∀ (v722 : IVec S16 32) (v851 : IVec S16 32) (k1_hw211 : k1_chk211 v722 v851), ∀ a x, ((![v722, v851] : Fin 2 → IVec S16 32) a x).toNat < S512x128.size a := fun v722 v851 k1_hw211 => k1_hw211

def k1_chk212 (v722 : IVec S16 32) (v850 : IVec S16 32) : Prop :=
  (∀ a x, ((![v850, v722] : Fin 2 → IVec S16 32) a x).toNat < S64x512.size a)
instance k1_chk212.dec : ∀ (v722 : IVec S16 32) (v850 : IVec S16 32), Decidable (k1_chk212 v722 v850) := fun v722 v850 => decidable_of_iff' _ (Iff.of_eq (k1_chk212.eq_1 v722 v850))
theorem k1_idx212_inb : ∀ (v722 : IVec S16 32) (v850 : IVec S16 32) (k1_hw212 : k1_chk212 v722 v850), ∀ a x, ((![v850, v722] : Fin 2 → IVec S16 32) a x).toNat < S64x512.size a := fun v722 v850 k1_hw212 => k1_hw212

def k1_chk213 (v722 : IVec S16 32) (v854 : IVec S16 32) : Prop :=
  (∀ a x, ((![v722, v854] : Fin 2 → IVec S16 32) a x).toNat < S512x128.size a)
instance k1_chk213.dec : ∀ (v722 : IVec S16 32) (v854 : IVec S16 32), Decidable (k1_chk213 v722 v854) := fun v722 v854 => decidable_of_iff' _ (Iff.of_eq (k1_chk213.eq_1 v722 v854))
theorem k1_idx213_inb : ∀ (v722 : IVec S16 32) (v854 : IVec S16 32) (k1_hw213 : k1_chk213 v722 v854), ∀ a x, ((![v722, v854] : Fin 2 → IVec S16 32) a x).toNat < S512x128.size a := fun v722 v854 k1_hw213 => k1_hw213

def k1_chk214 (v722 : IVec S16 32) (v853 : IVec S16 32) : Prop :=
  (∀ a x, ((![v853, v722] : Fin 2 → IVec S16 32) a x).toNat < S64x512.size a)
instance k1_chk214.dec : ∀ (v722 : IVec S16 32) (v853 : IVec S16 32), Decidable (k1_chk214 v722 v853) := fun v722 v853 => decidable_of_iff' _ (Iff.of_eq (k1_chk214.eq_1 v722 v853))
theorem k1_idx214_inb : ∀ (v722 : IVec S16 32) (v853 : IVec S16 32) (k1_hw214 : k1_chk214 v722 v853), ∀ a x, ((![v853, v722] : Fin 2 → IVec S16 32) a x).toNat < S64x512.size a := fun v722 v853 k1_hw214 => k1_hw214

def k1_chk215 (v722 : IVec S16 32) (v857 : IVec S16 32) : Prop :=
  (∀ a x, ((![v722, v857] : Fin 2 → IVec S16 32) a x).toNat < S512x128.size a)
instance k1_chk215.dec : ∀ (v722 : IVec S16 32) (v857 : IVec S16 32), Decidable (k1_chk215 v722 v857) := fun v722 v857 => decidable_of_iff' _ (Iff.of_eq (k1_chk215.eq_1 v722 v857))
theorem k1_idx215_inb : ∀ (v722 : IVec S16 32) (v857 : IVec S16 32) (k1_hw215 : k1_chk215 v722 v857), ∀ a x, ((![v722, v857] : Fin 2 → IVec S16 32) a x).toNat < S512x128.size a := fun v722 v857 k1_hw215 => k1_hw215

def k1_chk216 (v722 : IVec S16 32) (v856 : IVec S16 32) : Prop :=
  (∀ a x, ((![v856, v722] : Fin 2 → IVec S16 32) a x).toNat < S64x512.size a)
instance k1_chk216.dec : ∀ (v722 : IVec S16 32) (v856 : IVec S16 32), Decidable (k1_chk216 v722 v856) := fun v722 v856 => decidable_of_iff' _ (Iff.of_eq (k1_chk216.eq_1 v722 v856))
theorem k1_idx216_inb : ∀ (v722 : IVec S16 32) (v856 : IVec S16 32) (k1_hw216 : k1_chk216 v722 v856), ∀ a x, ((![v856, v722] : Fin 2 → IVec S16 32) a x).toNat < S64x512.size a := fun v722 v856 k1_hw216 => k1_hw216

def k1_chk217 (v722 : IVec S16 32) (v860 : IVec S16 32) : Prop :=
  (∀ a x, ((![v722, v860] : Fin 2 → IVec S16 32) a x).toNat < S512x128.size a)
instance k1_chk217.dec : ∀ (v722 : IVec S16 32) (v860 : IVec S16 32), Decidable (k1_chk217 v722 v860) := fun v722 v860 => decidable_of_iff' _ (Iff.of_eq (k1_chk217.eq_1 v722 v860))
theorem k1_idx217_inb : ∀ (v722 : IVec S16 32) (v860 : IVec S16 32) (k1_hw217 : k1_chk217 v722 v860), ∀ a x, ((![v722, v860] : Fin 2 → IVec S16 32) a x).toNat < S512x128.size a := fun v722 v860 k1_hw217 => k1_hw217

def k1_chk218 (v722 : IVec S16 32) (v859 : IVec S16 32) : Prop :=
  (∀ a x, ((![v859, v722] : Fin 2 → IVec S16 32) a x).toNat < S64x512.size a)
instance k1_chk218.dec : ∀ (v722 : IVec S16 32) (v859 : IVec S16 32), Decidable (k1_chk218 v722 v859) := fun v722 v859 => decidable_of_iff' _ (Iff.of_eq (k1_chk218.eq_1 v722 v859))
theorem k1_idx218_inb : ∀ (v722 : IVec S16 32) (v859 : IVec S16 32) (k1_hw218 : k1_chk218 v722 v859), ∀ a x, ((![v859, v722] : Fin 2 → IVec S16 32) a x).toNat < S64x512.size a := fun v722 v859 k1_hw218 => k1_hw218

def k1_chk219 (v722 : IVec S16 32) (v863 : IVec S16 32) : Prop :=
  (∀ a x, ((![v722, v863] : Fin 2 → IVec S16 32) a x).toNat < S512x128.size a)
instance k1_chk219.dec : ∀ (v722 : IVec S16 32) (v863 : IVec S16 32), Decidable (k1_chk219 v722 v863) := fun v722 v863 => decidable_of_iff' _ (Iff.of_eq (k1_chk219.eq_1 v722 v863))
theorem k1_idx219_inb : ∀ (v722 : IVec S16 32) (v863 : IVec S16 32) (k1_hw219 : k1_chk219 v722 v863), ∀ a x, ((![v722, v863] : Fin 2 → IVec S16 32) a x).toNat < S512x128.size a := fun v722 v863 k1_hw219 => k1_hw219

def k1_chk220 (v722 : IVec S16 32) (v862 : IVec S16 32) : Prop :=
  (∀ a x, ((![v862, v722] : Fin 2 → IVec S16 32) a x).toNat < S64x512.size a)
instance k1_chk220.dec : ∀ (v722 : IVec S16 32) (v862 : IVec S16 32), Decidable (k1_chk220 v722 v862) := fun v722 v862 => decidable_of_iff' _ (Iff.of_eq (k1_chk220.eq_1 v722 v862))
theorem k1_idx220_inb : ∀ (v722 : IVec S16 32) (v862 : IVec S16 32) (k1_hw220 : k1_chk220 v722 v862), ∀ a x, ((![v862, v722] : Fin 2 → IVec S16 32) a x).toNat < S64x512.size a := fun v722 v862 k1_hw220 => k1_hw220

def k1_chk221 (v722 : IVec S16 32) (v866 : IVec S16 32) : Prop :=
  (∀ a x, ((![v722, v866] : Fin 2 → IVec S16 32) a x).toNat < S512x128.size a)
instance k1_chk221.dec : ∀ (v722 : IVec S16 32) (v866 : IVec S16 32), Decidable (k1_chk221 v722 v866) := fun v722 v866 => decidable_of_iff' _ (Iff.of_eq (k1_chk221.eq_1 v722 v866))
theorem k1_idx221_inb : ∀ (v722 : IVec S16 32) (v866 : IVec S16 32) (k1_hw221 : k1_chk221 v722 v866), ∀ a x, ((![v722, v866] : Fin 2 → IVec S16 32) a x).toNat < S512x128.size a := fun v722 v866 k1_hw221 => k1_hw221

def k1_chk222 (v722 : IVec S16 32) (v865 : IVec S16 32) : Prop :=
  (∀ a x, ((![v865, v722] : Fin 2 → IVec S16 32) a x).toNat < S64x512.size a)
instance k1_chk222.dec : ∀ (v722 : IVec S16 32) (v865 : IVec S16 32), Decidable (k1_chk222 v722 v865) := fun v722 v865 => decidable_of_iff' _ (Iff.of_eq (k1_chk222.eq_1 v722 v865))
theorem k1_idx222_inb : ∀ (v722 : IVec S16 32) (v865 : IVec S16 32) (k1_hw222 : k1_chk222 v722 v865), ∀ a x, ((![v865, v722] : Fin 2 → IVec S16 32) a x).toNat < S64x512.size a := fun v722 v865 k1_hw222 => k1_hw222

def k1_chk223 (v722 : IVec S16 32) (v869 : IVec S16 32) : Prop :=
  (∀ a x, ((![v722, v869] : Fin 2 → IVec S16 32) a x).toNat < S512x128.size a)
instance k1_chk223.dec : ∀ (v722 : IVec S16 32) (v869 : IVec S16 32), Decidable (k1_chk223 v722 v869) := fun v722 v869 => decidable_of_iff' _ (Iff.of_eq (k1_chk223.eq_1 v722 v869))
theorem k1_idx223_inb : ∀ (v722 : IVec S16 32) (v869 : IVec S16 32) (k1_hw223 : k1_chk223 v722 v869), ∀ a x, ((![v722, v869] : Fin 2 → IVec S16 32) a x).toNat < S512x128.size a := fun v722 v869 k1_hw223 => k1_hw223

def k1_chk224 (v722 : IVec S16 32) (v868 : IVec S16 32) : Prop :=
  (∀ a x, ((![v868, v722] : Fin 2 → IVec S16 32) a x).toNat < S64x512.size a)
instance k1_chk224.dec : ∀ (v722 : IVec S16 32) (v868 : IVec S16 32), Decidable (k1_chk224 v722 v868) := fun v722 v868 => decidable_of_iff' _ (Iff.of_eq (k1_chk224.eq_1 v722 v868))
theorem k1_idx224_inb : ∀ (v722 : IVec S16 32) (v868 : IVec S16 32) (k1_hw224 : k1_chk224 v722 v868), ∀ a x, ((![v868, v722] : Fin 2 → IVec S16 32) a x).toNat < S64x512.size a := fun v722 v868 k1_hw224 => k1_hw224

def k1_chk225 (v722 : IVec S16 32) (v872 : IVec S16 32) : Prop :=
  (∀ a x, ((![v722, v872] : Fin 2 → IVec S16 32) a x).toNat < S512x128.size a)
instance k1_chk225.dec : ∀ (v722 : IVec S16 32) (v872 : IVec S16 32), Decidable (k1_chk225 v722 v872) := fun v722 v872 => decidable_of_iff' _ (Iff.of_eq (k1_chk225.eq_1 v722 v872))
theorem k1_idx225_inb : ∀ (v722 : IVec S16 32) (v872 : IVec S16 32) (k1_hw225 : k1_chk225 v722 v872), ∀ a x, ((![v722, v872] : Fin 2 → IVec S16 32) a x).toNat < S512x128.size a := fun v722 v872 k1_hw225 => k1_hw225

def k1_chk226 (v722 : IVec S16 32) (v871 : IVec S16 32) : Prop :=
  (∀ a x, ((![v871, v722] : Fin 2 → IVec S16 32) a x).toNat < S64x512.size a)
instance k1_chk226.dec : ∀ (v722 : IVec S16 32) (v871 : IVec S16 32), Decidable (k1_chk226 v722 v871) := fun v722 v871 => decidable_of_iff' _ (Iff.of_eq (k1_chk226.eq_1 v722 v871))
theorem k1_idx226_inb : ∀ (v722 : IVec S16 32) (v871 : IVec S16 32) (k1_hw226 : k1_chk226 v722 v871), ∀ a x, ((![v871, v722] : Fin 2 → IVec S16 32) a x).toNat < S64x512.size a := fun v722 v871 k1_hw226 => k1_hw226

def k1_chk227 (v722 : IVec S16 32) (v875 : IVec S16 32) : Prop :=
  (∀ a x, ((![v722, v875] : Fin 2 → IVec S16 32) a x).toNat < S512x128.size a)
instance k1_chk227.dec : ∀ (v722 : IVec S16 32) (v875 : IVec S16 32), Decidable (k1_chk227 v722 v875) := fun v722 v875 => decidable_of_iff' _ (Iff.of_eq (k1_chk227.eq_1 v722 v875))
theorem k1_idx227_inb : ∀ (v722 : IVec S16 32) (v875 : IVec S16 32) (k1_hw227 : k1_chk227 v722 v875), ∀ a x, ((![v722, v875] : Fin 2 → IVec S16 32) a x).toNat < S512x128.size a := fun v722 v875 k1_hw227 => k1_hw227

def k1_chk228 (v722 : IVec S16 32) (v874 : IVec S16 32) : Prop :=
  (∀ a x, ((![v874, v722] : Fin 2 → IVec S16 32) a x).toNat < S64x512.size a)
instance k1_chk228.dec : ∀ (v722 : IVec S16 32) (v874 : IVec S16 32), Decidable (k1_chk228 v722 v874) := fun v722 v874 => decidable_of_iff' _ (Iff.of_eq (k1_chk228.eq_1 v722 v874))
theorem k1_idx228_inb : ∀ (v722 : IVec S16 32) (v874 : IVec S16 32) (k1_hw228 : k1_chk228 v722 v874), ∀ a x, ((![v874, v722] : Fin 2 → IVec S16 32) a x).toNat < S64x512.size a := fun v722 v874 k1_hw228 => k1_hw228

def k1_chk229 (v722 : IVec S16 32) (v878 : IVec S16 32) : Prop :=
  (∀ a x, ((![v722, v878] : Fin 2 → IVec S16 32) a x).toNat < S512x128.size a)
instance k1_chk229.dec : ∀ (v722 : IVec S16 32) (v878 : IVec S16 32), Decidable (k1_chk229 v722 v878) := fun v722 v878 => decidable_of_iff' _ (Iff.of_eq (k1_chk229.eq_1 v722 v878))
theorem k1_idx229_inb : ∀ (v722 : IVec S16 32) (v878 : IVec S16 32) (k1_hw229 : k1_chk229 v722 v878), ∀ a x, ((![v722, v878] : Fin 2 → IVec S16 32) a x).toNat < S512x128.size a := fun v722 v878 k1_hw229 => k1_hw229

def k1_chk230 (v722 : IVec S16 32) (v877 : IVec S16 32) : Prop :=
  (∀ a x, ((![v877, v722] : Fin 2 → IVec S16 32) a x).toNat < S64x512.size a)
instance k1_chk230.dec : ∀ (v722 : IVec S16 32) (v877 : IVec S16 32), Decidable (k1_chk230 v722 v877) := fun v722 v877 => decidable_of_iff' _ (Iff.of_eq (k1_chk230.eq_1 v722 v877))
theorem k1_idx230_inb : ∀ (v722 : IVec S16 32) (v877 : IVec S16 32) (k1_hw230 : k1_chk230 v722 v877), ∀ a x, ((![v877, v722] : Fin 2 → IVec S16 32) a x).toNat < S64x512.size a := fun v722 v877 k1_hw230 => k1_hw230

def k1_chk231 (v722 : IVec S16 32) (v881 : IVec S16 32) : Prop :=
  (∀ a x, ((![v722, v881] : Fin 2 → IVec S16 32) a x).toNat < S512x128.size a)
instance k1_chk231.dec : ∀ (v722 : IVec S16 32) (v881 : IVec S16 32), Decidable (k1_chk231 v722 v881) := fun v722 v881 => decidable_of_iff' _ (Iff.of_eq (k1_chk231.eq_1 v722 v881))
theorem k1_idx231_inb : ∀ (v722 : IVec S16 32) (v881 : IVec S16 32) (k1_hw231 : k1_chk231 v722 v881), ∀ a x, ((![v722, v881] : Fin 2 → IVec S16 32) a x).toNat < S512x128.size a := fun v722 v881 k1_hw231 => k1_hw231

def k1_chk232 (v722 : IVec S16 32) (v880 : IVec S16 32) : Prop :=
  (∀ a x, ((![v880, v722] : Fin 2 → IVec S16 32) a x).toNat < S64x512.size a)
instance k1_chk232.dec : ∀ (v722 : IVec S16 32) (v880 : IVec S16 32), Decidable (k1_chk232 v722 v880) := fun v722 v880 => decidable_of_iff' _ (Iff.of_eq (k1_chk232.eq_1 v722 v880))
theorem k1_idx232_inb : ∀ (v722 : IVec S16 32) (v880 : IVec S16 32) (k1_hw232 : k1_chk232 v722 v880), ∀ a x, ((![v880, v722] : Fin 2 → IVec S16 32) a x).toNat < S64x512.size a := fun v722 v880 k1_hw232 => k1_hw232

def k1_chk233 (v722 : IVec S16 32) (v884 : IVec S16 32) : Prop :=
  (∀ a x, ((![v722, v884] : Fin 2 → IVec S16 32) a x).toNat < S512x128.size a)
instance k1_chk233.dec : ∀ (v722 : IVec S16 32) (v884 : IVec S16 32), Decidable (k1_chk233 v722 v884) := fun v722 v884 => decidable_of_iff' _ (Iff.of_eq (k1_chk233.eq_1 v722 v884))
theorem k1_idx233_inb : ∀ (v722 : IVec S16 32) (v884 : IVec S16 32) (k1_hw233 : k1_chk233 v722 v884), ∀ a x, ((![v722, v884] : Fin 2 → IVec S16 32) a x).toNat < S512x128.size a := fun v722 v884 k1_hw233 => k1_hw233

def k1_chk234 (v722 : IVec S16 32) (v883 : IVec S16 32) : Prop :=
  (∀ a x, ((![v883, v722] : Fin 2 → IVec S16 32) a x).toNat < S64x512.size a)
instance k1_chk234.dec : ∀ (v722 : IVec S16 32) (v883 : IVec S16 32), Decidable (k1_chk234 v722 v883) := fun v722 v883 => decidable_of_iff' _ (Iff.of_eq (k1_chk234.eq_1 v722 v883))
theorem k1_idx234_inb : ∀ (v722 : IVec S16 32) (v883 : IVec S16 32) (k1_hw234 : k1_chk234 v722 v883), ∀ a x, ((![v883, v722] : Fin 2 → IVec S16 32) a x).toNat < S64x512.size a := fun v722 v883 k1_hw234 => k1_hw234

def k1_chk235 (v722 : IVec S16 32) (v887 : IVec S16 32) : Prop :=
  (∀ a x, ((![v722, v887] : Fin 2 → IVec S16 32) a x).toNat < S512x128.size a)
instance k1_chk235.dec : ∀ (v722 : IVec S16 32) (v887 : IVec S16 32), Decidable (k1_chk235 v722 v887) := fun v722 v887 => decidable_of_iff' _ (Iff.of_eq (k1_chk235.eq_1 v722 v887))
theorem k1_idx235_inb : ∀ (v722 : IVec S16 32) (v887 : IVec S16 32) (k1_hw235 : k1_chk235 v722 v887), ∀ a x, ((![v722, v887] : Fin 2 → IVec S16 32) a x).toNat < S512x128.size a := fun v722 v887 k1_hw235 => k1_hw235

def k1_chk236 (v722 : IVec S16 32) (v886 : IVec S16 32) : Prop :=
  (∀ a x, ((![v886, v722] : Fin 2 → IVec S16 32) a x).toNat < S64x512.size a)
instance k1_chk236.dec : ∀ (v722 : IVec S16 32) (v886 : IVec S16 32), Decidable (k1_chk236 v722 v886) := fun v722 v886 => decidable_of_iff' _ (Iff.of_eq (k1_chk236.eq_1 v722 v886))
theorem k1_idx236_inb : ∀ (v722 : IVec S16 32) (v886 : IVec S16 32) (k1_hw236 : k1_chk236 v722 v886), ∀ a x, ((![v886, v722] : Fin 2 → IVec S16 32) a x).toNat < S64x512.size a := fun v722 v886 k1_hw236 => k1_hw236

def k1_chk237 (v722 : IVec S16 32) (v890 : IVec S16 32) : Prop :=
  (∀ a x, ((![v722, v890] : Fin 2 → IVec S16 32) a x).toNat < S512x128.size a)
instance k1_chk237.dec : ∀ (v722 : IVec S16 32) (v890 : IVec S16 32), Decidable (k1_chk237 v722 v890) := fun v722 v890 => decidable_of_iff' _ (Iff.of_eq (k1_chk237.eq_1 v722 v890))
theorem k1_idx237_inb : ∀ (v722 : IVec S16 32) (v890 : IVec S16 32) (k1_hw237 : k1_chk237 v722 v890), ∀ a x, ((![v722, v890] : Fin 2 → IVec S16 32) a x).toNat < S512x128.size a := fun v722 v890 k1_hw237 => k1_hw237

def k1_chk238 (v722 : IVec S16 32) (v889 : IVec S16 32) : Prop :=
  (∀ a x, ((![v889, v722] : Fin 2 → IVec S16 32) a x).toNat < S64x512.size a)
instance k1_chk238.dec : ∀ (v722 : IVec S16 32) (v889 : IVec S16 32), Decidable (k1_chk238 v722 v889) := fun v722 v889 => decidable_of_iff' _ (Iff.of_eq (k1_chk238.eq_1 v722 v889))
theorem k1_idx238_inb : ∀ (v722 : IVec S16 32) (v889 : IVec S16 32) (k1_hw238 : k1_chk238 v722 v889), ∀ a x, ((![v889, v722] : Fin 2 → IVec S16 32) a x).toNat < S64x512.size a := fun v722 v889 k1_hw238 => k1_hw238

def k1_chk239 (v722 : IVec S16 32) (v893 : IVec S16 32) : Prop :=
  (∀ a x, ((![v722, v893] : Fin 2 → IVec S16 32) a x).toNat < S512x128.size a)
instance k1_chk239.dec : ∀ (v722 : IVec S16 32) (v893 : IVec S16 32), Decidable (k1_chk239 v722 v893) := fun v722 v893 => decidable_of_iff' _ (Iff.of_eq (k1_chk239.eq_1 v722 v893))
theorem k1_idx239_inb : ∀ (v722 : IVec S16 32) (v893 : IVec S16 32) (k1_hw239 : k1_chk239 v722 v893), ∀ a x, ((![v722, v893] : Fin 2 → IVec S16 32) a x).toNat < S512x128.size a := fun v722 v893 k1_hw239 => k1_hw239

def k1_chk240 (v722 : IVec S16 32) (v892 : IVec S16 32) : Prop :=
  (∀ a x, ((![v892, v722] : Fin 2 → IVec S16 32) a x).toNat < S64x512.size a)
instance k1_chk240.dec : ∀ (v722 : IVec S16 32) (v892 : IVec S16 32), Decidable (k1_chk240 v722 v892) := fun v722 v892 => decidable_of_iff' _ (Iff.of_eq (k1_chk240.eq_1 v722 v892))
theorem k1_idx240_inb : ∀ (v722 : IVec S16 32) (v892 : IVec S16 32) (k1_hw240 : k1_chk240 v722 v892), ∀ a x, ((![v892, v722] : Fin 2 → IVec S16 32) a x).toNat < S64x512.size a := fun v722 v892 k1_hw240 => k1_hw240

def k1_chk241 (v722 : IVec S16 32) (v896 : IVec S16 32) : Prop :=
  (∀ a x, ((![v722, v896] : Fin 2 → IVec S16 32) a x).toNat < S512x128.size a)
instance k1_chk241.dec : ∀ (v722 : IVec S16 32) (v896 : IVec S16 32), Decidable (k1_chk241 v722 v896) := fun v722 v896 => decidable_of_iff' _ (Iff.of_eq (k1_chk241.eq_1 v722 v896))
theorem k1_idx241_inb : ∀ (v722 : IVec S16 32) (v896 : IVec S16 32) (k1_hw241 : k1_chk241 v722 v896), ∀ a x, ((![v722, v896] : Fin 2 → IVec S16 32) a x).toNat < S512x128.size a := fun v722 v896 k1_hw241 => k1_hw241

def k1_chk242 (v722 : IVec S16 32) (v895 : IVec S16 32) : Prop :=
  (∀ a x, ((![v895, v722] : Fin 2 → IVec S16 32) a x).toNat < S64x512.size a)
instance k1_chk242.dec : ∀ (v722 : IVec S16 32) (v895 : IVec S16 32), Decidable (k1_chk242 v722 v895) := fun v722 v895 => decidable_of_iff' _ (Iff.of_eq (k1_chk242.eq_1 v722 v895))
theorem k1_idx242_inb : ∀ (v722 : IVec S16 32) (v895 : IVec S16 32) (k1_hw242 : k1_chk242 v722 v895), ∀ a x, ((![v895, v722] : Fin 2 → IVec S16 32) a x).toNat < S64x512.size a := fun v722 v895 k1_hw242 => k1_hw242

def k1_chk243 (v722 : IVec S16 32) (v899 : IVec S16 32) : Prop :=
  (∀ a x, ((![v722, v899] : Fin 2 → IVec S16 32) a x).toNat < S512x128.size a)
instance k1_chk243.dec : ∀ (v722 : IVec S16 32) (v899 : IVec S16 32), Decidable (k1_chk243 v722 v899) := fun v722 v899 => decidable_of_iff' _ (Iff.of_eq (k1_chk243.eq_1 v722 v899))
theorem k1_idx243_inb : ∀ (v722 : IVec S16 32) (v899 : IVec S16 32) (k1_hw243 : k1_chk243 v722 v899), ∀ a x, ((![v722, v899] : Fin 2 → IVec S16 32) a x).toNat < S512x128.size a := fun v722 v899 k1_hw243 => k1_hw243

def k1_chk244 (v722 : IVec S16 32) (v898 : IVec S16 32) : Prop :=
  (∀ a x, ((![v898, v722] : Fin 2 → IVec S16 32) a x).toNat < S64x512.size a)
instance k1_chk244.dec : ∀ (v722 : IVec S16 32) (v898 : IVec S16 32), Decidable (k1_chk244 v722 v898) := fun v722 v898 => decidable_of_iff' _ (Iff.of_eq (k1_chk244.eq_1 v722 v898))
theorem k1_idx244_inb : ∀ (v722 : IVec S16 32) (v898 : IVec S16 32) (k1_hw244 : k1_chk244 v722 v898), ∀ a x, ((![v898, v722] : Fin 2 → IVec S16 32) a x).toNat < S64x512.size a := fun v722 v898 k1_hw244 => k1_hw244

def k1_chk245 (v722 : IVec S16 32) (v902 : IVec S16 32) : Prop :=
  (∀ a x, ((![v722, v902] : Fin 2 → IVec S16 32) a x).toNat < S512x128.size a)
instance k1_chk245.dec : ∀ (v722 : IVec S16 32) (v902 : IVec S16 32), Decidable (k1_chk245 v722 v902) := fun v722 v902 => decidable_of_iff' _ (Iff.of_eq (k1_chk245.eq_1 v722 v902))
theorem k1_idx245_inb : ∀ (v722 : IVec S16 32) (v902 : IVec S16 32) (k1_hw245 : k1_chk245 v722 v902), ∀ a x, ((![v722, v902] : Fin 2 → IVec S16 32) a x).toNat < S512x128.size a := fun v722 v902 k1_hw245 => k1_hw245

def k1_chk246 (v722 : IVec S16 32) (v901 : IVec S16 32) : Prop :=
  (∀ a x, ((![v901, v722] : Fin 2 → IVec S16 32) a x).toNat < S64x512.size a)
instance k1_chk246.dec : ∀ (v722 : IVec S16 32) (v901 : IVec S16 32), Decidable (k1_chk246 v722 v901) := fun v722 v901 => decidable_of_iff' _ (Iff.of_eq (k1_chk246.eq_1 v722 v901))
theorem k1_idx246_inb : ∀ (v722 : IVec S16 32) (v901 : IVec S16 32) (k1_hw246 : k1_chk246 v722 v901), ∀ a x, ((![v901, v722] : Fin 2 → IVec S16 32) a x).toNat < S64x512.size a := fun v722 v901 k1_hw246 => k1_hw246

def k1_chk247 (v722 : IVec S16 32) (v905 : IVec S16 32) : Prop :=
  (∀ a x, ((![v722, v905] : Fin 2 → IVec S16 32) a x).toNat < S512x128.size a)
instance k1_chk247.dec : ∀ (v722 : IVec S16 32) (v905 : IVec S16 32), Decidable (k1_chk247 v722 v905) := fun v722 v905 => decidable_of_iff' _ (Iff.of_eq (k1_chk247.eq_1 v722 v905))
theorem k1_idx247_inb : ∀ (v722 : IVec S16 32) (v905 : IVec S16 32) (k1_hw247 : k1_chk247 v722 v905), ∀ a x, ((![v722, v905] : Fin 2 → IVec S16 32) a x).toNat < S512x128.size a := fun v722 v905 k1_hw247 => k1_hw247

def k1_chk248 (v722 : IVec S16 32) (v904 : IVec S16 32) : Prop :=
  (∀ a x, ((![v904, v722] : Fin 2 → IVec S16 32) a x).toNat < S64x512.size a)
instance k1_chk248.dec : ∀ (v722 : IVec S16 32) (v904 : IVec S16 32), Decidable (k1_chk248 v722 v904) := fun v722 v904 => decidable_of_iff' _ (Iff.of_eq (k1_chk248.eq_1 v722 v904))
theorem k1_idx248_inb : ∀ (v722 : IVec S16 32) (v904 : IVec S16 32) (k1_hw248 : k1_chk248 v722 v904), ∀ a x, ((![v904, v722] : Fin 2 → IVec S16 32) a x).toNat < S64x512.size a := fun v722 v904 k1_hw248 => k1_hw248

def k1_chk249 (v722 : IVec S16 32) (v908 : IVec S16 32) : Prop :=
  (∀ a x, ((![v722, v908] : Fin 2 → IVec S16 32) a x).toNat < S512x128.size a)
instance k1_chk249.dec : ∀ (v722 : IVec S16 32) (v908 : IVec S16 32), Decidable (k1_chk249 v722 v908) := fun v722 v908 => decidable_of_iff' _ (Iff.of_eq (k1_chk249.eq_1 v722 v908))
theorem k1_idx249_inb : ∀ (v722 : IVec S16 32) (v908 : IVec S16 32) (k1_hw249 : k1_chk249 v722 v908), ∀ a x, ((![v722, v908] : Fin 2 → IVec S16 32) a x).toNat < S512x128.size a := fun v722 v908 k1_hw249 => k1_hw249

def k1_chk250 (v722 : IVec S16 32) (v907 : IVec S16 32) : Prop :=
  (∀ a x, ((![v907, v722] : Fin 2 → IVec S16 32) a x).toNat < S64x512.size a)
instance k1_chk250.dec : ∀ (v722 : IVec S16 32) (v907 : IVec S16 32), Decidable (k1_chk250 v722 v907) := fun v722 v907 => decidable_of_iff' _ (Iff.of_eq (k1_chk250.eq_1 v722 v907))
theorem k1_idx250_inb : ∀ (v722 : IVec S16 32) (v907 : IVec S16 32) (k1_hw250 : k1_chk250 v722 v907), ∀ a x, ((![v907, v722] : Fin 2 → IVec S16 32) a x).toNat < S64x512.size a := fun v722 v907 k1_hw250 => k1_hw250

def k1_chk251 (v722 : IVec S16 32) (v911 : IVec S16 32) : Prop :=
  (∀ a x, ((![v722, v911] : Fin 2 → IVec S16 32) a x).toNat < S512x128.size a)
instance k1_chk251.dec : ∀ (v722 : IVec S16 32) (v911 : IVec S16 32), Decidable (k1_chk251 v722 v911) := fun v722 v911 => decidable_of_iff' _ (Iff.of_eq (k1_chk251.eq_1 v722 v911))
theorem k1_idx251_inb : ∀ (v722 : IVec S16 32) (v911 : IVec S16 32) (k1_hw251 : k1_chk251 v722 v911), ∀ a x, ((![v722, v911] : Fin 2 → IVec S16 32) a x).toNat < S512x128.size a := fun v722 v911 k1_hw251 => k1_hw251

def k1_chk252 (v722 : IVec S16 32) (v910 : IVec S16 32) : Prop :=
  (∀ a x, ((![v910, v722] : Fin 2 → IVec S16 32) a x).toNat < S64x512.size a)
instance k1_chk252.dec : ∀ (v722 : IVec S16 32) (v910 : IVec S16 32), Decidable (k1_chk252 v722 v910) := fun v722 v910 => decidable_of_iff' _ (Iff.of_eq (k1_chk252.eq_1 v722 v910))
theorem k1_idx252_inb : ∀ (v722 : IVec S16 32) (v910 : IVec S16 32) (k1_hw252 : k1_chk252 v722 v910), ∀ a x, ((![v910, v722] : Fin 2 → IVec S16 32) a x).toNat < S64x512.size a := fun v722 v910 k1_hw252 => k1_hw252

def k1_chk253 (v722 : IVec S16 32) (v914 : IVec S16 32) : Prop :=
  (∀ a x, ((![v722, v914] : Fin 2 → IVec S16 32) a x).toNat < S512x128.size a)
instance k1_chk253.dec : ∀ (v722 : IVec S16 32) (v914 : IVec S16 32), Decidable (k1_chk253 v722 v914) := fun v722 v914 => decidable_of_iff' _ (Iff.of_eq (k1_chk253.eq_1 v722 v914))
theorem k1_idx253_inb : ∀ (v722 : IVec S16 32) (v914 : IVec S16 32) (k1_hw253 : k1_chk253 v722 v914), ∀ a x, ((![v722, v914] : Fin 2 → IVec S16 32) a x).toNat < S512x128.size a := fun v722 v914 k1_hw253 => k1_hw253

def k1_chk254 (v722 : IVec S16 32) (v913 : IVec S16 32) : Prop :=
  (∀ a x, ((![v913, v722] : Fin 2 → IVec S16 32) a x).toNat < S64x512.size a)
instance k1_chk254.dec : ∀ (v722 : IVec S16 32) (v913 : IVec S16 32), Decidable (k1_chk254 v722 v913) := fun v722 v913 => decidable_of_iff' _ (Iff.of_eq (k1_chk254.eq_1 v722 v913))
theorem k1_idx254_inb : ∀ (v722 : IVec S16 32) (v913 : IVec S16 32) (k1_hw254 : k1_chk254 v722 v913), ∀ a x, ((![v913, v722] : Fin 2 → IVec S16 32) a x).toNat < S64x512.size a := fun v722 v913 k1_hw254 => k1_hw254

def k1_chk255 (v722 : IVec S16 32) (v917 : IVec S16 32) : Prop :=
  (∀ a x, ((![v722, v917] : Fin 2 → IVec S16 32) a x).toNat < S512x128.size a)
instance k1_chk255.dec : ∀ (v722 : IVec S16 32) (v917 : IVec S16 32), Decidable (k1_chk255 v722 v917) := fun v722 v917 => decidable_of_iff' _ (Iff.of_eq (k1_chk255.eq_1 v722 v917))
theorem k1_idx255_inb : ∀ (v722 : IVec S16 32) (v917 : IVec S16 32) (k1_hw255 : k1_chk255 v722 v917), ∀ a x, ((![v722, v917] : Fin 2 → IVec S16 32) a x).toNat < S512x128.size a := fun v722 v917 k1_hw255 => k1_hw255

def k1_chk256 (v722 : IVec S16 32) (v916 : IVec S16 32) : Prop :=
  (∀ a x, ((![v916, v722] : Fin 2 → IVec S16 32) a x).toNat < S64x512.size a)
instance k1_chk256.dec : ∀ (v722 : IVec S16 32) (v916 : IVec S16 32), Decidable (k1_chk256 v722 v916) := fun v722 v916 => decidable_of_iff' _ (Iff.of_eq (k1_chk256.eq_1 v722 v916))
theorem k1_idx256_inb : ∀ (v722 : IVec S16 32) (v916 : IVec S16 32) (k1_hw256 : k1_chk256 v722 v916), ∀ a x, ((![v916, v722] : Fin 2 → IVec S16 32) a x).toNat < S64x512.size a := fun v722 v916 k1_hw256 => k1_hw256
def k1_off4 (k1_t1 : Fin k1_t1_loop.trips) : Fin 1 → Nat :=
  let c0_i32_254 : BitVec 32 := 0#32
  let c1_i32_255 : BitVec 32 := 1#32
  let arg11 : BitVec 32 := Scf.iv c0_i32_254 c1_i32_255 k1_t1
  let c128_i32_337 : BitVec 32 := 128#32
  let v923 : BitVec 32 := Scalar.muli arg11 c128_i32_337
  let c32_i32_338 : BitVec 32 := 32#32
  let v924 : BitVec 32 := Scalar.addi v923 c32_i32_338
  let v925 : Index := Scalar.indexCast v924
  ![v925.toNat]

def k1_chk257 (v922 : IVec S16 32) (v928 : IVec S16 32) : Prop :=
  (∀ a x, ((![v922, v928] : Fin 2 → IVec S16 32) a x).toNat < S512x128.size a)
instance k1_chk257.dec : ∀ (v922 : IVec S16 32) (v928 : IVec S16 32), Decidable (k1_chk257 v922 v928) := fun v922 v928 => decidable_of_iff' _ (Iff.of_eq (k1_chk257.eq_1 v922 v928))
theorem k1_idx257_inb : ∀ (v922 : IVec S16 32) (v928 : IVec S16 32) (k1_hw257 : k1_chk257 v922 v928), ∀ a x, ((![v922, v928] : Fin 2 → IVec S16 32) a x).toNat < S512x128.size a := fun v922 v928 k1_hw257 => k1_hw257

def k1_chk258 (v922 : IVec S16 32) (v927 : IVec S16 32) : Prop :=
  (∀ a x, ((![v927, v922] : Fin 2 → IVec S16 32) a x).toNat < S64x512.size a)
instance k1_chk258.dec : ∀ (v922 : IVec S16 32) (v927 : IVec S16 32), Decidable (k1_chk258 v922 v927) := fun v922 v927 => decidable_of_iff' _ (Iff.of_eq (k1_chk258.eq_1 v922 v927))
theorem k1_idx258_inb : ∀ (v922 : IVec S16 32) (v927 : IVec S16 32) (k1_hw258 : k1_chk258 v922 v927), ∀ a x, ((![v927, v922] : Fin 2 → IVec S16 32) a x).toNat < S64x512.size a := fun v922 v927 k1_hw258 => k1_hw258

def k1_chk259 (v922 : IVec S16 32) (v931 : IVec S16 32) : Prop :=
  (∀ a x, ((![v922, v931] : Fin 2 → IVec S16 32) a x).toNat < S512x128.size a)
instance k1_chk259.dec : ∀ (v922 : IVec S16 32) (v931 : IVec S16 32), Decidable (k1_chk259 v922 v931) := fun v922 v931 => decidable_of_iff' _ (Iff.of_eq (k1_chk259.eq_1 v922 v931))
theorem k1_idx259_inb : ∀ (v922 : IVec S16 32) (v931 : IVec S16 32) (k1_hw259 : k1_chk259 v922 v931), ∀ a x, ((![v922, v931] : Fin 2 → IVec S16 32) a x).toNat < S512x128.size a := fun v922 v931 k1_hw259 => k1_hw259

def k1_chk260 (v922 : IVec S16 32) (v930 : IVec S16 32) : Prop :=
  (∀ a x, ((![v930, v922] : Fin 2 → IVec S16 32) a x).toNat < S64x512.size a)
instance k1_chk260.dec : ∀ (v922 : IVec S16 32) (v930 : IVec S16 32), Decidable (k1_chk260 v922 v930) := fun v922 v930 => decidable_of_iff' _ (Iff.of_eq (k1_chk260.eq_1 v922 v930))
theorem k1_idx260_inb : ∀ (v922 : IVec S16 32) (v930 : IVec S16 32) (k1_hw260 : k1_chk260 v922 v930), ∀ a x, ((![v930, v922] : Fin 2 → IVec S16 32) a x).toNat < S64x512.size a := fun v922 v930 k1_hw260 => k1_hw260

def k1_chk261 (v922 : IVec S16 32) (v934 : IVec S16 32) : Prop :=
  (∀ a x, ((![v922, v934] : Fin 2 → IVec S16 32) a x).toNat < S512x128.size a)
instance k1_chk261.dec : ∀ (v922 : IVec S16 32) (v934 : IVec S16 32), Decidable (k1_chk261 v922 v934) := fun v922 v934 => decidable_of_iff' _ (Iff.of_eq (k1_chk261.eq_1 v922 v934))
theorem k1_idx261_inb : ∀ (v922 : IVec S16 32) (v934 : IVec S16 32) (k1_hw261 : k1_chk261 v922 v934), ∀ a x, ((![v922, v934] : Fin 2 → IVec S16 32) a x).toNat < S512x128.size a := fun v922 v934 k1_hw261 => k1_hw261

def k1_chk262 (v922 : IVec S16 32) (v933 : IVec S16 32) : Prop :=
  (∀ a x, ((![v933, v922] : Fin 2 → IVec S16 32) a x).toNat < S64x512.size a)
instance k1_chk262.dec : ∀ (v922 : IVec S16 32) (v933 : IVec S16 32), Decidable (k1_chk262 v922 v933) := fun v922 v933 => decidable_of_iff' _ (Iff.of_eq (k1_chk262.eq_1 v922 v933))
theorem k1_idx262_inb : ∀ (v922 : IVec S16 32) (v933 : IVec S16 32) (k1_hw262 : k1_chk262 v922 v933), ∀ a x, ((![v933, v922] : Fin 2 → IVec S16 32) a x).toNat < S64x512.size a := fun v922 v933 k1_hw262 => k1_hw262

def k1_chk263 (v922 : IVec S16 32) (v937 : IVec S16 32) : Prop :=
  (∀ a x, ((![v922, v937] : Fin 2 → IVec S16 32) a x).toNat < S512x128.size a)
instance k1_chk263.dec : ∀ (v922 : IVec S16 32) (v937 : IVec S16 32), Decidable (k1_chk263 v922 v937) := fun v922 v937 => decidable_of_iff' _ (Iff.of_eq (k1_chk263.eq_1 v922 v937))
theorem k1_idx263_inb : ∀ (v922 : IVec S16 32) (v937 : IVec S16 32) (k1_hw263 : k1_chk263 v922 v937), ∀ a x, ((![v922, v937] : Fin 2 → IVec S16 32) a x).toNat < S512x128.size a := fun v922 v937 k1_hw263 => k1_hw263

def k1_chk264 (v922 : IVec S16 32) (v936 : IVec S16 32) : Prop :=
  (∀ a x, ((![v936, v922] : Fin 2 → IVec S16 32) a x).toNat < S64x512.size a)
instance k1_chk264.dec : ∀ (v922 : IVec S16 32) (v936 : IVec S16 32), Decidable (k1_chk264 v922 v936) := fun v922 v936 => decidable_of_iff' _ (Iff.of_eq (k1_chk264.eq_1 v922 v936))
theorem k1_idx264_inb : ∀ (v922 : IVec S16 32) (v936 : IVec S16 32) (k1_hw264 : k1_chk264 v922 v936), ∀ a x, ((![v936, v922] : Fin 2 → IVec S16 32) a x).toNat < S64x512.size a := fun v922 v936 k1_hw264 => k1_hw264

def k1_chk265 (v922 : IVec S16 32) (v940 : IVec S16 32) : Prop :=
  (∀ a x, ((![v922, v940] : Fin 2 → IVec S16 32) a x).toNat < S512x128.size a)
instance k1_chk265.dec : ∀ (v922 : IVec S16 32) (v940 : IVec S16 32), Decidable (k1_chk265 v922 v940) := fun v922 v940 => decidable_of_iff' _ (Iff.of_eq (k1_chk265.eq_1 v922 v940))
theorem k1_idx265_inb : ∀ (v922 : IVec S16 32) (v940 : IVec S16 32) (k1_hw265 : k1_chk265 v922 v940), ∀ a x, ((![v922, v940] : Fin 2 → IVec S16 32) a x).toNat < S512x128.size a := fun v922 v940 k1_hw265 => k1_hw265

def k1_chk266 (v922 : IVec S16 32) (v939 : IVec S16 32) : Prop :=
  (∀ a x, ((![v939, v922] : Fin 2 → IVec S16 32) a x).toNat < S64x512.size a)
instance k1_chk266.dec : ∀ (v922 : IVec S16 32) (v939 : IVec S16 32), Decidable (k1_chk266 v922 v939) := fun v922 v939 => decidable_of_iff' _ (Iff.of_eq (k1_chk266.eq_1 v922 v939))
theorem k1_idx266_inb : ∀ (v922 : IVec S16 32) (v939 : IVec S16 32) (k1_hw266 : k1_chk266 v922 v939), ∀ a x, ((![v939, v922] : Fin 2 → IVec S16 32) a x).toNat < S64x512.size a := fun v922 v939 k1_hw266 => k1_hw266

def k1_chk267 (v922 : IVec S16 32) (v943 : IVec S16 32) : Prop :=
  (∀ a x, ((![v922, v943] : Fin 2 → IVec S16 32) a x).toNat < S512x128.size a)
instance k1_chk267.dec : ∀ (v922 : IVec S16 32) (v943 : IVec S16 32), Decidable (k1_chk267 v922 v943) := fun v922 v943 => decidable_of_iff' _ (Iff.of_eq (k1_chk267.eq_1 v922 v943))
theorem k1_idx267_inb : ∀ (v922 : IVec S16 32) (v943 : IVec S16 32) (k1_hw267 : k1_chk267 v922 v943), ∀ a x, ((![v922, v943] : Fin 2 → IVec S16 32) a x).toNat < S512x128.size a := fun v922 v943 k1_hw267 => k1_hw267

def k1_chk268 (v922 : IVec S16 32) (v942 : IVec S16 32) : Prop :=
  (∀ a x, ((![v942, v922] : Fin 2 → IVec S16 32) a x).toNat < S64x512.size a)
instance k1_chk268.dec : ∀ (v922 : IVec S16 32) (v942 : IVec S16 32), Decidable (k1_chk268 v922 v942) := fun v922 v942 => decidable_of_iff' _ (Iff.of_eq (k1_chk268.eq_1 v922 v942))
theorem k1_idx268_inb : ∀ (v922 : IVec S16 32) (v942 : IVec S16 32) (k1_hw268 : k1_chk268 v922 v942), ∀ a x, ((![v942, v922] : Fin 2 → IVec S16 32) a x).toNat < S64x512.size a := fun v922 v942 k1_hw268 => k1_hw268

def k1_chk269 (v922 : IVec S16 32) (v946 : IVec S16 32) : Prop :=
  (∀ a x, ((![v922, v946] : Fin 2 → IVec S16 32) a x).toNat < S512x128.size a)
instance k1_chk269.dec : ∀ (v922 : IVec S16 32) (v946 : IVec S16 32), Decidable (k1_chk269 v922 v946) := fun v922 v946 => decidable_of_iff' _ (Iff.of_eq (k1_chk269.eq_1 v922 v946))
theorem k1_idx269_inb : ∀ (v922 : IVec S16 32) (v946 : IVec S16 32) (k1_hw269 : k1_chk269 v922 v946), ∀ a x, ((![v922, v946] : Fin 2 → IVec S16 32) a x).toNat < S512x128.size a := fun v922 v946 k1_hw269 => k1_hw269

def k1_chk270 (v922 : IVec S16 32) (v945 : IVec S16 32) : Prop :=
  (∀ a x, ((![v945, v922] : Fin 2 → IVec S16 32) a x).toNat < S64x512.size a)
instance k1_chk270.dec : ∀ (v922 : IVec S16 32) (v945 : IVec S16 32), Decidable (k1_chk270 v922 v945) := fun v922 v945 => decidable_of_iff' _ (Iff.of_eq (k1_chk270.eq_1 v922 v945))
theorem k1_idx270_inb : ∀ (v922 : IVec S16 32) (v945 : IVec S16 32) (k1_hw270 : k1_chk270 v922 v945), ∀ a x, ((![v945, v922] : Fin 2 → IVec S16 32) a x).toNat < S64x512.size a := fun v922 v945 k1_hw270 => k1_hw270

def k1_chk271 (v922 : IVec S16 32) (v949 : IVec S16 32) : Prop :=
  (∀ a x, ((![v922, v949] : Fin 2 → IVec S16 32) a x).toNat < S512x128.size a)
instance k1_chk271.dec : ∀ (v922 : IVec S16 32) (v949 : IVec S16 32), Decidable (k1_chk271 v922 v949) := fun v922 v949 => decidable_of_iff' _ (Iff.of_eq (k1_chk271.eq_1 v922 v949))
theorem k1_idx271_inb : ∀ (v922 : IVec S16 32) (v949 : IVec S16 32) (k1_hw271 : k1_chk271 v922 v949), ∀ a x, ((![v922, v949] : Fin 2 → IVec S16 32) a x).toNat < S512x128.size a := fun v922 v949 k1_hw271 => k1_hw271

def k1_chk272 (v922 : IVec S16 32) (v948 : IVec S16 32) : Prop :=
  (∀ a x, ((![v948, v922] : Fin 2 → IVec S16 32) a x).toNat < S64x512.size a)
instance k1_chk272.dec : ∀ (v922 : IVec S16 32) (v948 : IVec S16 32), Decidable (k1_chk272 v922 v948) := fun v922 v948 => decidable_of_iff' _ (Iff.of_eq (k1_chk272.eq_1 v922 v948))
theorem k1_idx272_inb : ∀ (v922 : IVec S16 32) (v948 : IVec S16 32) (k1_hw272 : k1_chk272 v922 v948), ∀ a x, ((![v948, v922] : Fin 2 → IVec S16 32) a x).toNat < S64x512.size a := fun v922 v948 k1_hw272 => k1_hw272

def k1_chk273 (v922 : IVec S16 32) (v952 : IVec S16 32) : Prop :=
  (∀ a x, ((![v922, v952] : Fin 2 → IVec S16 32) a x).toNat < S512x128.size a)
instance k1_chk273.dec : ∀ (v922 : IVec S16 32) (v952 : IVec S16 32), Decidable (k1_chk273 v922 v952) := fun v922 v952 => decidable_of_iff' _ (Iff.of_eq (k1_chk273.eq_1 v922 v952))
theorem k1_idx273_inb : ∀ (v922 : IVec S16 32) (v952 : IVec S16 32) (k1_hw273 : k1_chk273 v922 v952), ∀ a x, ((![v922, v952] : Fin 2 → IVec S16 32) a x).toNat < S512x128.size a := fun v922 v952 k1_hw273 => k1_hw273

def k1_chk274 (v922 : IVec S16 32) (v951 : IVec S16 32) : Prop :=
  (∀ a x, ((![v951, v922] : Fin 2 → IVec S16 32) a x).toNat < S64x512.size a)
instance k1_chk274.dec : ∀ (v922 : IVec S16 32) (v951 : IVec S16 32), Decidable (k1_chk274 v922 v951) := fun v922 v951 => decidable_of_iff' _ (Iff.of_eq (k1_chk274.eq_1 v922 v951))
theorem k1_idx274_inb : ∀ (v922 : IVec S16 32) (v951 : IVec S16 32) (k1_hw274 : k1_chk274 v922 v951), ∀ a x, ((![v951, v922] : Fin 2 → IVec S16 32) a x).toNat < S64x512.size a := fun v922 v951 k1_hw274 => k1_hw274

def k1_chk275 (v922 : IVec S16 32) (v955 : IVec S16 32) : Prop :=
  (∀ a x, ((![v922, v955] : Fin 2 → IVec S16 32) a x).toNat < S512x128.size a)
instance k1_chk275.dec : ∀ (v922 : IVec S16 32) (v955 : IVec S16 32), Decidable (k1_chk275 v922 v955) := fun v922 v955 => decidable_of_iff' _ (Iff.of_eq (k1_chk275.eq_1 v922 v955))
theorem k1_idx275_inb : ∀ (v922 : IVec S16 32) (v955 : IVec S16 32) (k1_hw275 : k1_chk275 v922 v955), ∀ a x, ((![v922, v955] : Fin 2 → IVec S16 32) a x).toNat < S512x128.size a := fun v922 v955 k1_hw275 => k1_hw275

def k1_chk276 (v922 : IVec S16 32) (v954 : IVec S16 32) : Prop :=
  (∀ a x, ((![v954, v922] : Fin 2 → IVec S16 32) a x).toNat < S64x512.size a)
instance k1_chk276.dec : ∀ (v922 : IVec S16 32) (v954 : IVec S16 32), Decidable (k1_chk276 v922 v954) := fun v922 v954 => decidable_of_iff' _ (Iff.of_eq (k1_chk276.eq_1 v922 v954))
theorem k1_idx276_inb : ∀ (v922 : IVec S16 32) (v954 : IVec S16 32) (k1_hw276 : k1_chk276 v922 v954), ∀ a x, ((![v954, v922] : Fin 2 → IVec S16 32) a x).toNat < S64x512.size a := fun v922 v954 k1_hw276 => k1_hw276

def k1_chk277 (v922 : IVec S16 32) (v958 : IVec S16 32) : Prop :=
  (∀ a x, ((![v922, v958] : Fin 2 → IVec S16 32) a x).toNat < S512x128.size a)
instance k1_chk277.dec : ∀ (v922 : IVec S16 32) (v958 : IVec S16 32), Decidable (k1_chk277 v922 v958) := fun v922 v958 => decidable_of_iff' _ (Iff.of_eq (k1_chk277.eq_1 v922 v958))
theorem k1_idx277_inb : ∀ (v922 : IVec S16 32) (v958 : IVec S16 32) (k1_hw277 : k1_chk277 v922 v958), ∀ a x, ((![v922, v958] : Fin 2 → IVec S16 32) a x).toNat < S512x128.size a := fun v922 v958 k1_hw277 => k1_hw277

def k1_chk278 (v922 : IVec S16 32) (v957 : IVec S16 32) : Prop :=
  (∀ a x, ((![v957, v922] : Fin 2 → IVec S16 32) a x).toNat < S64x512.size a)
instance k1_chk278.dec : ∀ (v922 : IVec S16 32) (v957 : IVec S16 32), Decidable (k1_chk278 v922 v957) := fun v922 v957 => decidable_of_iff' _ (Iff.of_eq (k1_chk278.eq_1 v922 v957))
theorem k1_idx278_inb : ∀ (v922 : IVec S16 32) (v957 : IVec S16 32) (k1_hw278 : k1_chk278 v922 v957), ∀ a x, ((![v957, v922] : Fin 2 → IVec S16 32) a x).toNat < S64x512.size a := fun v922 v957 k1_hw278 => k1_hw278

def k1_chk279 (v922 : IVec S16 32) (v961 : IVec S16 32) : Prop :=
  (∀ a x, ((![v922, v961] : Fin 2 → IVec S16 32) a x).toNat < S512x128.size a)
instance k1_chk279.dec : ∀ (v922 : IVec S16 32) (v961 : IVec S16 32), Decidable (k1_chk279 v922 v961) := fun v922 v961 => decidable_of_iff' _ (Iff.of_eq (k1_chk279.eq_1 v922 v961))
theorem k1_idx279_inb : ∀ (v922 : IVec S16 32) (v961 : IVec S16 32) (k1_hw279 : k1_chk279 v922 v961), ∀ a x, ((![v922, v961] : Fin 2 → IVec S16 32) a x).toNat < S512x128.size a := fun v922 v961 k1_hw279 => k1_hw279

def k1_chk280 (v922 : IVec S16 32) (v960 : IVec S16 32) : Prop :=
  (∀ a x, ((![v960, v922] : Fin 2 → IVec S16 32) a x).toNat < S64x512.size a)
instance k1_chk280.dec : ∀ (v922 : IVec S16 32) (v960 : IVec S16 32), Decidable (k1_chk280 v922 v960) := fun v922 v960 => decidable_of_iff' _ (Iff.of_eq (k1_chk280.eq_1 v922 v960))
theorem k1_idx280_inb : ∀ (v922 : IVec S16 32) (v960 : IVec S16 32) (k1_hw280 : k1_chk280 v922 v960), ∀ a x, ((![v960, v922] : Fin 2 → IVec S16 32) a x).toNat < S64x512.size a := fun v922 v960 k1_hw280 => k1_hw280

def k1_chk281 (v922 : IVec S16 32) (v964 : IVec S16 32) : Prop :=
  (∀ a x, ((![v922, v964] : Fin 2 → IVec S16 32) a x).toNat < S512x128.size a)
instance k1_chk281.dec : ∀ (v922 : IVec S16 32) (v964 : IVec S16 32), Decidable (k1_chk281 v922 v964) := fun v922 v964 => decidable_of_iff' _ (Iff.of_eq (k1_chk281.eq_1 v922 v964))
theorem k1_idx281_inb : ∀ (v922 : IVec S16 32) (v964 : IVec S16 32) (k1_hw281 : k1_chk281 v922 v964), ∀ a x, ((![v922, v964] : Fin 2 → IVec S16 32) a x).toNat < S512x128.size a := fun v922 v964 k1_hw281 => k1_hw281

def k1_chk282 (v922 : IVec S16 32) (v963 : IVec S16 32) : Prop :=
  (∀ a x, ((![v963, v922] : Fin 2 → IVec S16 32) a x).toNat < S64x512.size a)
instance k1_chk282.dec : ∀ (v922 : IVec S16 32) (v963 : IVec S16 32), Decidable (k1_chk282 v922 v963) := fun v922 v963 => decidable_of_iff' _ (Iff.of_eq (k1_chk282.eq_1 v922 v963))
theorem k1_idx282_inb : ∀ (v922 : IVec S16 32) (v963 : IVec S16 32) (k1_hw282 : k1_chk282 v922 v963), ∀ a x, ((![v963, v922] : Fin 2 → IVec S16 32) a x).toNat < S64x512.size a := fun v922 v963 k1_hw282 => k1_hw282

def k1_chk283 (v922 : IVec S16 32) (v967 : IVec S16 32) : Prop :=
  (∀ a x, ((![v922, v967] : Fin 2 → IVec S16 32) a x).toNat < S512x128.size a)
instance k1_chk283.dec : ∀ (v922 : IVec S16 32) (v967 : IVec S16 32), Decidable (k1_chk283 v922 v967) := fun v922 v967 => decidable_of_iff' _ (Iff.of_eq (k1_chk283.eq_1 v922 v967))
theorem k1_idx283_inb : ∀ (v922 : IVec S16 32) (v967 : IVec S16 32) (k1_hw283 : k1_chk283 v922 v967), ∀ a x, ((![v922, v967] : Fin 2 → IVec S16 32) a x).toNat < S512x128.size a := fun v922 v967 k1_hw283 => k1_hw283

def k1_chk284 (v922 : IVec S16 32) (v966 : IVec S16 32) : Prop :=
  (∀ a x, ((![v966, v922] : Fin 2 → IVec S16 32) a x).toNat < S64x512.size a)
instance k1_chk284.dec : ∀ (v922 : IVec S16 32) (v966 : IVec S16 32), Decidable (k1_chk284 v922 v966) := fun v922 v966 => decidable_of_iff' _ (Iff.of_eq (k1_chk284.eq_1 v922 v966))
theorem k1_idx284_inb : ∀ (v922 : IVec S16 32) (v966 : IVec S16 32) (k1_hw284 : k1_chk284 v922 v966), ∀ a x, ((![v966, v922] : Fin 2 → IVec S16 32) a x).toNat < S64x512.size a := fun v922 v966 k1_hw284 => k1_hw284

def k1_chk285 (v922 : IVec S16 32) (v970 : IVec S16 32) : Prop :=
  (∀ a x, ((![v922, v970] : Fin 2 → IVec S16 32) a x).toNat < S512x128.size a)
instance k1_chk285.dec : ∀ (v922 : IVec S16 32) (v970 : IVec S16 32), Decidable (k1_chk285 v922 v970) := fun v922 v970 => decidable_of_iff' _ (Iff.of_eq (k1_chk285.eq_1 v922 v970))
theorem k1_idx285_inb : ∀ (v922 : IVec S16 32) (v970 : IVec S16 32) (k1_hw285 : k1_chk285 v922 v970), ∀ a x, ((![v922, v970] : Fin 2 → IVec S16 32) a x).toNat < S512x128.size a := fun v922 v970 k1_hw285 => k1_hw285

def k1_chk286 (v922 : IVec S16 32) (v969 : IVec S16 32) : Prop :=
  (∀ a x, ((![v969, v922] : Fin 2 → IVec S16 32) a x).toNat < S64x512.size a)
instance k1_chk286.dec : ∀ (v922 : IVec S16 32) (v969 : IVec S16 32), Decidable (k1_chk286 v922 v969) := fun v922 v969 => decidable_of_iff' _ (Iff.of_eq (k1_chk286.eq_1 v922 v969))
theorem k1_idx286_inb : ∀ (v922 : IVec S16 32) (v969 : IVec S16 32) (k1_hw286 : k1_chk286 v922 v969), ∀ a x, ((![v969, v922] : Fin 2 → IVec S16 32) a x).toNat < S64x512.size a := fun v922 v969 k1_hw286 => k1_hw286

def k1_chk287 (v922 : IVec S16 32) (v973 : IVec S16 32) : Prop :=
  (∀ a x, ((![v922, v973] : Fin 2 → IVec S16 32) a x).toNat < S512x128.size a)
instance k1_chk287.dec : ∀ (v922 : IVec S16 32) (v973 : IVec S16 32), Decidable (k1_chk287 v922 v973) := fun v922 v973 => decidable_of_iff' _ (Iff.of_eq (k1_chk287.eq_1 v922 v973))
theorem k1_idx287_inb : ∀ (v922 : IVec S16 32) (v973 : IVec S16 32) (k1_hw287 : k1_chk287 v922 v973), ∀ a x, ((![v922, v973] : Fin 2 → IVec S16 32) a x).toNat < S512x128.size a := fun v922 v973 k1_hw287 => k1_hw287

def k1_chk288 (v922 : IVec S16 32) (v972 : IVec S16 32) : Prop :=
  (∀ a x, ((![v972, v922] : Fin 2 → IVec S16 32) a x).toNat < S64x512.size a)
instance k1_chk288.dec : ∀ (v922 : IVec S16 32) (v972 : IVec S16 32), Decidable (k1_chk288 v922 v972) := fun v922 v972 => decidable_of_iff' _ (Iff.of_eq (k1_chk288.eq_1 v922 v972))
theorem k1_idx288_inb : ∀ (v922 : IVec S16 32) (v972 : IVec S16 32) (k1_hw288 : k1_chk288 v922 v972), ∀ a x, ((![v972, v922] : Fin 2 → IVec S16 32) a x).toNat < S64x512.size a := fun v922 v972 k1_hw288 => k1_hw288

def k1_chk289 (v922 : IVec S16 32) (v976 : IVec S16 32) : Prop :=
  (∀ a x, ((![v922, v976] : Fin 2 → IVec S16 32) a x).toNat < S512x128.size a)
instance k1_chk289.dec : ∀ (v922 : IVec S16 32) (v976 : IVec S16 32), Decidable (k1_chk289 v922 v976) := fun v922 v976 => decidable_of_iff' _ (Iff.of_eq (k1_chk289.eq_1 v922 v976))
theorem k1_idx289_inb : ∀ (v922 : IVec S16 32) (v976 : IVec S16 32) (k1_hw289 : k1_chk289 v922 v976), ∀ a x, ((![v922, v976] : Fin 2 → IVec S16 32) a x).toNat < S512x128.size a := fun v922 v976 k1_hw289 => k1_hw289

def k1_chk290 (v922 : IVec S16 32) (v975 : IVec S16 32) : Prop :=
  (∀ a x, ((![v975, v922] : Fin 2 → IVec S16 32) a x).toNat < S64x512.size a)
instance k1_chk290.dec : ∀ (v922 : IVec S16 32) (v975 : IVec S16 32), Decidable (k1_chk290 v922 v975) := fun v922 v975 => decidable_of_iff' _ (Iff.of_eq (k1_chk290.eq_1 v922 v975))
theorem k1_idx290_inb : ∀ (v922 : IVec S16 32) (v975 : IVec S16 32) (k1_hw290 : k1_chk290 v922 v975), ∀ a x, ((![v975, v922] : Fin 2 → IVec S16 32) a x).toNat < S64x512.size a := fun v922 v975 k1_hw290 => k1_hw290

def k1_chk291 (v922 : IVec S16 32) (v979 : IVec S16 32) : Prop :=
  (∀ a x, ((![v922, v979] : Fin 2 → IVec S16 32) a x).toNat < S512x128.size a)
instance k1_chk291.dec : ∀ (v922 : IVec S16 32) (v979 : IVec S16 32), Decidable (k1_chk291 v922 v979) := fun v922 v979 => decidable_of_iff' _ (Iff.of_eq (k1_chk291.eq_1 v922 v979))
theorem k1_idx291_inb : ∀ (v922 : IVec S16 32) (v979 : IVec S16 32) (k1_hw291 : k1_chk291 v922 v979), ∀ a x, ((![v922, v979] : Fin 2 → IVec S16 32) a x).toNat < S512x128.size a := fun v922 v979 k1_hw291 => k1_hw291

def k1_chk292 (v922 : IVec S16 32) (v978 : IVec S16 32) : Prop :=
  (∀ a x, ((![v978, v922] : Fin 2 → IVec S16 32) a x).toNat < S64x512.size a)
instance k1_chk292.dec : ∀ (v922 : IVec S16 32) (v978 : IVec S16 32), Decidable (k1_chk292 v922 v978) := fun v922 v978 => decidable_of_iff' _ (Iff.of_eq (k1_chk292.eq_1 v922 v978))
theorem k1_idx292_inb : ∀ (v922 : IVec S16 32) (v978 : IVec S16 32) (k1_hw292 : k1_chk292 v922 v978), ∀ a x, ((![v978, v922] : Fin 2 → IVec S16 32) a x).toNat < S64x512.size a := fun v922 v978 k1_hw292 => k1_hw292

def k1_chk293 (v922 : IVec S16 32) (v982 : IVec S16 32) : Prop :=
  (∀ a x, ((![v922, v982] : Fin 2 → IVec S16 32) a x).toNat < S512x128.size a)
instance k1_chk293.dec : ∀ (v922 : IVec S16 32) (v982 : IVec S16 32), Decidable (k1_chk293 v922 v982) := fun v922 v982 => decidable_of_iff' _ (Iff.of_eq (k1_chk293.eq_1 v922 v982))
theorem k1_idx293_inb : ∀ (v922 : IVec S16 32) (v982 : IVec S16 32) (k1_hw293 : k1_chk293 v922 v982), ∀ a x, ((![v922, v982] : Fin 2 → IVec S16 32) a x).toNat < S512x128.size a := fun v922 v982 k1_hw293 => k1_hw293

def k1_chk294 (v922 : IVec S16 32) (v981 : IVec S16 32) : Prop :=
  (∀ a x, ((![v981, v922] : Fin 2 → IVec S16 32) a x).toNat < S64x512.size a)
instance k1_chk294.dec : ∀ (v922 : IVec S16 32) (v981 : IVec S16 32), Decidable (k1_chk294 v922 v981) := fun v922 v981 => decidable_of_iff' _ (Iff.of_eq (k1_chk294.eq_1 v922 v981))
theorem k1_idx294_inb : ∀ (v922 : IVec S16 32) (v981 : IVec S16 32) (k1_hw294 : k1_chk294 v922 v981), ∀ a x, ((![v981, v922] : Fin 2 → IVec S16 32) a x).toNat < S64x512.size a := fun v922 v981 k1_hw294 => k1_hw294

def k1_chk295 (v922 : IVec S16 32) (v985 : IVec S16 32) : Prop :=
  (∀ a x, ((![v922, v985] : Fin 2 → IVec S16 32) a x).toNat < S512x128.size a)
instance k1_chk295.dec : ∀ (v922 : IVec S16 32) (v985 : IVec S16 32), Decidable (k1_chk295 v922 v985) := fun v922 v985 => decidable_of_iff' _ (Iff.of_eq (k1_chk295.eq_1 v922 v985))
theorem k1_idx295_inb : ∀ (v922 : IVec S16 32) (v985 : IVec S16 32) (k1_hw295 : k1_chk295 v922 v985), ∀ a x, ((![v922, v985] : Fin 2 → IVec S16 32) a x).toNat < S512x128.size a := fun v922 v985 k1_hw295 => k1_hw295

def k1_chk296 (v922 : IVec S16 32) (v984 : IVec S16 32) : Prop :=
  (∀ a x, ((![v984, v922] : Fin 2 → IVec S16 32) a x).toNat < S64x512.size a)
instance k1_chk296.dec : ∀ (v922 : IVec S16 32) (v984 : IVec S16 32), Decidable (k1_chk296 v922 v984) := fun v922 v984 => decidable_of_iff' _ (Iff.of_eq (k1_chk296.eq_1 v922 v984))
theorem k1_idx296_inb : ∀ (v922 : IVec S16 32) (v984 : IVec S16 32) (k1_hw296 : k1_chk296 v922 v984), ∀ a x, ((![v984, v922] : Fin 2 → IVec S16 32) a x).toNat < S64x512.size a := fun v922 v984 k1_hw296 => k1_hw296

def k1_chk297 (v922 : IVec S16 32) (v988 : IVec S16 32) : Prop :=
  (∀ a x, ((![v922, v988] : Fin 2 → IVec S16 32) a x).toNat < S512x128.size a)
instance k1_chk297.dec : ∀ (v922 : IVec S16 32) (v988 : IVec S16 32), Decidable (k1_chk297 v922 v988) := fun v922 v988 => decidable_of_iff' _ (Iff.of_eq (k1_chk297.eq_1 v922 v988))
theorem k1_idx297_inb : ∀ (v922 : IVec S16 32) (v988 : IVec S16 32) (k1_hw297 : k1_chk297 v922 v988), ∀ a x, ((![v922, v988] : Fin 2 → IVec S16 32) a x).toNat < S512x128.size a := fun v922 v988 k1_hw297 => k1_hw297

def k1_chk298 (v922 : IVec S16 32) (v987 : IVec S16 32) : Prop :=
  (∀ a x, ((![v987, v922] : Fin 2 → IVec S16 32) a x).toNat < S64x512.size a)
instance k1_chk298.dec : ∀ (v922 : IVec S16 32) (v987 : IVec S16 32), Decidable (k1_chk298 v922 v987) := fun v922 v987 => decidable_of_iff' _ (Iff.of_eq (k1_chk298.eq_1 v922 v987))
theorem k1_idx298_inb : ∀ (v922 : IVec S16 32) (v987 : IVec S16 32) (k1_hw298 : k1_chk298 v922 v987), ∀ a x, ((![v987, v922] : Fin 2 → IVec S16 32) a x).toNat < S64x512.size a := fun v922 v987 k1_hw298 => k1_hw298

def k1_chk299 (v922 : IVec S16 32) (v991 : IVec S16 32) : Prop :=
  (∀ a x, ((![v922, v991] : Fin 2 → IVec S16 32) a x).toNat < S512x128.size a)
instance k1_chk299.dec : ∀ (v922 : IVec S16 32) (v991 : IVec S16 32), Decidable (k1_chk299 v922 v991) := fun v922 v991 => decidable_of_iff' _ (Iff.of_eq (k1_chk299.eq_1 v922 v991))
theorem k1_idx299_inb : ∀ (v922 : IVec S16 32) (v991 : IVec S16 32) (k1_hw299 : k1_chk299 v922 v991), ∀ a x, ((![v922, v991] : Fin 2 → IVec S16 32) a x).toNat < S512x128.size a := fun v922 v991 k1_hw299 => k1_hw299

def k1_chk300 (v922 : IVec S16 32) (v990 : IVec S16 32) : Prop :=
  (∀ a x, ((![v990, v922] : Fin 2 → IVec S16 32) a x).toNat < S64x512.size a)
instance k1_chk300.dec : ∀ (v922 : IVec S16 32) (v990 : IVec S16 32), Decidable (k1_chk300 v922 v990) := fun v922 v990 => decidable_of_iff' _ (Iff.of_eq (k1_chk300.eq_1 v922 v990))
theorem k1_idx300_inb : ∀ (v922 : IVec S16 32) (v990 : IVec S16 32) (k1_hw300 : k1_chk300 v922 v990), ∀ a x, ((![v990, v922] : Fin 2 → IVec S16 32) a x).toNat < S64x512.size a := fun v922 v990 k1_hw300 => k1_hw300

def k1_chk301 (v922 : IVec S16 32) (v994 : IVec S16 32) : Prop :=
  (∀ a x, ((![v922, v994] : Fin 2 → IVec S16 32) a x).toNat < S512x128.size a)
instance k1_chk301.dec : ∀ (v922 : IVec S16 32) (v994 : IVec S16 32), Decidable (k1_chk301 v922 v994) := fun v922 v994 => decidable_of_iff' _ (Iff.of_eq (k1_chk301.eq_1 v922 v994))
theorem k1_idx301_inb : ∀ (v922 : IVec S16 32) (v994 : IVec S16 32) (k1_hw301 : k1_chk301 v922 v994), ∀ a x, ((![v922, v994] : Fin 2 → IVec S16 32) a x).toNat < S512x128.size a := fun v922 v994 k1_hw301 => k1_hw301

def k1_chk302 (v922 : IVec S16 32) (v993 : IVec S16 32) : Prop :=
  (∀ a x, ((![v993, v922] : Fin 2 → IVec S16 32) a x).toNat < S64x512.size a)
instance k1_chk302.dec : ∀ (v922 : IVec S16 32) (v993 : IVec S16 32), Decidable (k1_chk302 v922 v993) := fun v922 v993 => decidable_of_iff' _ (Iff.of_eq (k1_chk302.eq_1 v922 v993))
theorem k1_idx302_inb : ∀ (v922 : IVec S16 32) (v993 : IVec S16 32) (k1_hw302 : k1_chk302 v922 v993), ∀ a x, ((![v993, v922] : Fin 2 → IVec S16 32) a x).toNat < S64x512.size a := fun v922 v993 k1_hw302 => k1_hw302

def k1_chk303 (v922 : IVec S16 32) (v997 : IVec S16 32) : Prop :=
  (∀ a x, ((![v922, v997] : Fin 2 → IVec S16 32) a x).toNat < S512x128.size a)
instance k1_chk303.dec : ∀ (v922 : IVec S16 32) (v997 : IVec S16 32), Decidable (k1_chk303 v922 v997) := fun v922 v997 => decidable_of_iff' _ (Iff.of_eq (k1_chk303.eq_1 v922 v997))
theorem k1_idx303_inb : ∀ (v922 : IVec S16 32) (v997 : IVec S16 32) (k1_hw303 : k1_chk303 v922 v997), ∀ a x, ((![v922, v997] : Fin 2 → IVec S16 32) a x).toNat < S512x128.size a := fun v922 v997 k1_hw303 => k1_hw303

def k1_chk304 (v922 : IVec S16 32) (v996 : IVec S16 32) : Prop :=
  (∀ a x, ((![v996, v922] : Fin 2 → IVec S16 32) a x).toNat < S64x512.size a)
instance k1_chk304.dec : ∀ (v922 : IVec S16 32) (v996 : IVec S16 32), Decidable (k1_chk304 v922 v996) := fun v922 v996 => decidable_of_iff' _ (Iff.of_eq (k1_chk304.eq_1 v922 v996))
theorem k1_idx304_inb : ∀ (v922 : IVec S16 32) (v996 : IVec S16 32) (k1_hw304 : k1_chk304 v922 v996), ∀ a x, ((![v996, v922] : Fin 2 → IVec S16 32) a x).toNat < S64x512.size a := fun v922 v996 k1_hw304 => k1_hw304

def k1_chk305 (v922 : IVec S16 32) (v1000 : IVec S16 32) : Prop :=
  (∀ a x, ((![v922, v1000] : Fin 2 → IVec S16 32) a x).toNat < S512x128.size a)
instance k1_chk305.dec : ∀ (v922 : IVec S16 32) (v1000 : IVec S16 32), Decidable (k1_chk305 v922 v1000) := fun v922 v1000 => decidable_of_iff' _ (Iff.of_eq (k1_chk305.eq_1 v922 v1000))
theorem k1_idx305_inb : ∀ (v922 : IVec S16 32) (v1000 : IVec S16 32) (k1_hw305 : k1_chk305 v922 v1000), ∀ a x, ((![v922, v1000] : Fin 2 → IVec S16 32) a x).toNat < S512x128.size a := fun v922 v1000 k1_hw305 => k1_hw305

def k1_chk306 (v922 : IVec S16 32) (v999 : IVec S16 32) : Prop :=
  (∀ a x, ((![v999, v922] : Fin 2 → IVec S16 32) a x).toNat < S64x512.size a)
instance k1_chk306.dec : ∀ (v922 : IVec S16 32) (v999 : IVec S16 32), Decidable (k1_chk306 v922 v999) := fun v922 v999 => decidable_of_iff' _ (Iff.of_eq (k1_chk306.eq_1 v922 v999))
theorem k1_idx306_inb : ∀ (v922 : IVec S16 32) (v999 : IVec S16 32) (k1_hw306 : k1_chk306 v922 v999), ∀ a x, ((![v999, v922] : Fin 2 → IVec S16 32) a x).toNat < S64x512.size a := fun v922 v999 k1_hw306 => k1_hw306

def k1_chk307 (v922 : IVec S16 32) (v1003 : IVec S16 32) : Prop :=
  (∀ a x, ((![v922, v1003] : Fin 2 → IVec S16 32) a x).toNat < S512x128.size a)
instance k1_chk307.dec : ∀ (v922 : IVec S16 32) (v1003 : IVec S16 32), Decidable (k1_chk307 v922 v1003) := fun v922 v1003 => decidable_of_iff' _ (Iff.of_eq (k1_chk307.eq_1 v922 v1003))
theorem k1_idx307_inb : ∀ (v922 : IVec S16 32) (v1003 : IVec S16 32) (k1_hw307 : k1_chk307 v922 v1003), ∀ a x, ((![v922, v1003] : Fin 2 → IVec S16 32) a x).toNat < S512x128.size a := fun v922 v1003 k1_hw307 => k1_hw307

def k1_chk308 (v922 : IVec S16 32) (v1002 : IVec S16 32) : Prop :=
  (∀ a x, ((![v1002, v922] : Fin 2 → IVec S16 32) a x).toNat < S64x512.size a)
instance k1_chk308.dec : ∀ (v922 : IVec S16 32) (v1002 : IVec S16 32), Decidable (k1_chk308 v922 v1002) := fun v922 v1002 => decidable_of_iff' _ (Iff.of_eq (k1_chk308.eq_1 v922 v1002))
theorem k1_idx308_inb : ∀ (v922 : IVec S16 32) (v1002 : IVec S16 32) (k1_hw308 : k1_chk308 v922 v1002), ∀ a x, ((![v1002, v922] : Fin 2 → IVec S16 32) a x).toNat < S64x512.size a := fun v922 v1002 k1_hw308 => k1_hw308

def k1_chk309 (v922 : IVec S16 32) (v1006 : IVec S16 32) : Prop :=
  (∀ a x, ((![v922, v1006] : Fin 2 → IVec S16 32) a x).toNat < S512x128.size a)
instance k1_chk309.dec : ∀ (v922 : IVec S16 32) (v1006 : IVec S16 32), Decidable (k1_chk309 v922 v1006) := fun v922 v1006 => decidable_of_iff' _ (Iff.of_eq (k1_chk309.eq_1 v922 v1006))
theorem k1_idx309_inb : ∀ (v922 : IVec S16 32) (v1006 : IVec S16 32) (k1_hw309 : k1_chk309 v922 v1006), ∀ a x, ((![v922, v1006] : Fin 2 → IVec S16 32) a x).toNat < S512x128.size a := fun v922 v1006 k1_hw309 => k1_hw309

def k1_chk310 (v922 : IVec S16 32) (v1005 : IVec S16 32) : Prop :=
  (∀ a x, ((![v1005, v922] : Fin 2 → IVec S16 32) a x).toNat < S64x512.size a)
instance k1_chk310.dec : ∀ (v922 : IVec S16 32) (v1005 : IVec S16 32), Decidable (k1_chk310 v922 v1005) := fun v922 v1005 => decidable_of_iff' _ (Iff.of_eq (k1_chk310.eq_1 v922 v1005))
theorem k1_idx310_inb : ∀ (v922 : IVec S16 32) (v1005 : IVec S16 32) (k1_hw310 : k1_chk310 v922 v1005), ∀ a x, ((![v1005, v922] : Fin 2 → IVec S16 32) a x).toNat < S64x512.size a := fun v922 v1005 k1_hw310 => k1_hw310

def k1_chk311 (v922 : IVec S16 32) (v1009 : IVec S16 32) : Prop :=
  (∀ a x, ((![v922, v1009] : Fin 2 → IVec S16 32) a x).toNat < S512x128.size a)
instance k1_chk311.dec : ∀ (v922 : IVec S16 32) (v1009 : IVec S16 32), Decidable (k1_chk311 v922 v1009) := fun v922 v1009 => decidable_of_iff' _ (Iff.of_eq (k1_chk311.eq_1 v922 v1009))
theorem k1_idx311_inb : ∀ (v922 : IVec S16 32) (v1009 : IVec S16 32) (k1_hw311 : k1_chk311 v922 v1009), ∀ a x, ((![v922, v1009] : Fin 2 → IVec S16 32) a x).toNat < S512x128.size a := fun v922 v1009 k1_hw311 => k1_hw311

def k1_chk312 (v922 : IVec S16 32) (v1008 : IVec S16 32) : Prop :=
  (∀ a x, ((![v1008, v922] : Fin 2 → IVec S16 32) a x).toNat < S64x512.size a)
instance k1_chk312.dec : ∀ (v922 : IVec S16 32) (v1008 : IVec S16 32), Decidable (k1_chk312 v922 v1008) := fun v922 v1008 => decidable_of_iff' _ (Iff.of_eq (k1_chk312.eq_1 v922 v1008))
theorem k1_idx312_inb : ∀ (v922 : IVec S16 32) (v1008 : IVec S16 32) (k1_hw312 : k1_chk312 v922 v1008), ∀ a x, ((![v1008, v922] : Fin 2 → IVec S16 32) a x).toNat < S64x512.size a := fun v922 v1008 k1_hw312 => k1_hw312

def k1_chk313 (v922 : IVec S16 32) (v1012 : IVec S16 32) : Prop :=
  (∀ a x, ((![v922, v1012] : Fin 2 → IVec S16 32) a x).toNat < S512x128.size a)
instance k1_chk313.dec : ∀ (v922 : IVec S16 32) (v1012 : IVec S16 32), Decidable (k1_chk313 v922 v1012) := fun v922 v1012 => decidable_of_iff' _ (Iff.of_eq (k1_chk313.eq_1 v922 v1012))
theorem k1_idx313_inb : ∀ (v922 : IVec S16 32) (v1012 : IVec S16 32) (k1_hw313 : k1_chk313 v922 v1012), ∀ a x, ((![v922, v1012] : Fin 2 → IVec S16 32) a x).toNat < S512x128.size a := fun v922 v1012 k1_hw313 => k1_hw313

def k1_chk314 (v922 : IVec S16 32) (v1011 : IVec S16 32) : Prop :=
  (∀ a x, ((![v1011, v922] : Fin 2 → IVec S16 32) a x).toNat < S64x512.size a)
instance k1_chk314.dec : ∀ (v922 : IVec S16 32) (v1011 : IVec S16 32), Decidable (k1_chk314 v922 v1011) := fun v922 v1011 => decidable_of_iff' _ (Iff.of_eq (k1_chk314.eq_1 v922 v1011))
theorem k1_idx314_inb : ∀ (v922 : IVec S16 32) (v1011 : IVec S16 32) (k1_hw314 : k1_chk314 v922 v1011), ∀ a x, ((![v1011, v922] : Fin 2 → IVec S16 32) a x).toNat < S64x512.size a := fun v922 v1011 k1_hw314 => k1_hw314

def k1_chk315 (v922 : IVec S16 32) (v1015 : IVec S16 32) : Prop :=
  (∀ a x, ((![v922, v1015] : Fin 2 → IVec S16 32) a x).toNat < S512x128.size a)
instance k1_chk315.dec : ∀ (v922 : IVec S16 32) (v1015 : IVec S16 32), Decidable (k1_chk315 v922 v1015) := fun v922 v1015 => decidable_of_iff' _ (Iff.of_eq (k1_chk315.eq_1 v922 v1015))
theorem k1_idx315_inb : ∀ (v922 : IVec S16 32) (v1015 : IVec S16 32) (k1_hw315 : k1_chk315 v922 v1015), ∀ a x, ((![v922, v1015] : Fin 2 → IVec S16 32) a x).toNat < S512x128.size a := fun v922 v1015 k1_hw315 => k1_hw315

def k1_chk316 (v922 : IVec S16 32) (v1014 : IVec S16 32) : Prop :=
  (∀ a x, ((![v1014, v922] : Fin 2 → IVec S16 32) a x).toNat < S64x512.size a)
instance k1_chk316.dec : ∀ (v922 : IVec S16 32) (v1014 : IVec S16 32), Decidable (k1_chk316 v922 v1014) := fun v922 v1014 => decidable_of_iff' _ (Iff.of_eq (k1_chk316.eq_1 v922 v1014))
theorem k1_idx316_inb : ∀ (v922 : IVec S16 32) (v1014 : IVec S16 32) (k1_hw316 : k1_chk316 v922 v1014), ∀ a x, ((![v1014, v922] : Fin 2 → IVec S16 32) a x).toNat < S64x512.size a := fun v922 v1014 k1_hw316 => k1_hw316

def k1_chk317 (v922 : IVec S16 32) (v1018 : IVec S16 32) : Prop :=
  (∀ a x, ((![v922, v1018] : Fin 2 → IVec S16 32) a x).toNat < S512x128.size a)
instance k1_chk317.dec : ∀ (v922 : IVec S16 32) (v1018 : IVec S16 32), Decidable (k1_chk317 v922 v1018) := fun v922 v1018 => decidable_of_iff' _ (Iff.of_eq (k1_chk317.eq_1 v922 v1018))
theorem k1_idx317_inb : ∀ (v922 : IVec S16 32) (v1018 : IVec S16 32) (k1_hw317 : k1_chk317 v922 v1018), ∀ a x, ((![v922, v1018] : Fin 2 → IVec S16 32) a x).toNat < S512x128.size a := fun v922 v1018 k1_hw317 => k1_hw317

def k1_chk318 (v922 : IVec S16 32) (v1017 : IVec S16 32) : Prop :=
  (∀ a x, ((![v1017, v922] : Fin 2 → IVec S16 32) a x).toNat < S64x512.size a)
instance k1_chk318.dec : ∀ (v922 : IVec S16 32) (v1017 : IVec S16 32), Decidable (k1_chk318 v922 v1017) := fun v922 v1017 => decidable_of_iff' _ (Iff.of_eq (k1_chk318.eq_1 v922 v1017))
theorem k1_idx318_inb : ∀ (v922 : IVec S16 32) (v1017 : IVec S16 32) (k1_hw318 : k1_chk318 v922 v1017), ∀ a x, ((![v1017, v922] : Fin 2 → IVec S16 32) a x).toNat < S64x512.size a := fun v922 v1017 k1_hw318 => k1_hw318

def k1_chk319 (v922 : IVec S16 32) (v1021 : IVec S16 32) : Prop :=
  (∀ a x, ((![v922, v1021] : Fin 2 → IVec S16 32) a x).toNat < S512x128.size a)
instance k1_chk319.dec : ∀ (v922 : IVec S16 32) (v1021 : IVec S16 32), Decidable (k1_chk319 v922 v1021) := fun v922 v1021 => decidable_of_iff' _ (Iff.of_eq (k1_chk319.eq_1 v922 v1021))
theorem k1_idx319_inb : ∀ (v922 : IVec S16 32) (v1021 : IVec S16 32) (k1_hw319 : k1_chk319 v922 v1021), ∀ a x, ((![v922, v1021] : Fin 2 → IVec S16 32) a x).toNat < S512x128.size a := fun v922 v1021 k1_hw319 => k1_hw319

def k1_chk320 (v922 : IVec S16 32) (v1020 : IVec S16 32) : Prop :=
  (∀ a x, ((![v1020, v922] : Fin 2 → IVec S16 32) a x).toNat < S64x512.size a)
instance k1_chk320.dec : ∀ (v922 : IVec S16 32) (v1020 : IVec S16 32), Decidable (k1_chk320 v922 v1020) := fun v922 v1020 => decidable_of_iff' _ (Iff.of_eq (k1_chk320.eq_1 v922 v1020))
theorem k1_idx320_inb : ∀ (v922 : IVec S16 32) (v1020 : IVec S16 32) (k1_hw320 : k1_chk320 v922 v1020), ∀ a x, ((![v1020, v922] : Fin 2 → IVec S16 32) a x).toNat < S64x512.size a := fun v922 v1020 k1_hw320 => k1_hw320

def k1_chk321 (v922 : IVec S16 32) (v1024 : IVec S16 32) : Prop :=
  (∀ a x, ((![v922, v1024] : Fin 2 → IVec S16 32) a x).toNat < S512x128.size a)
instance k1_chk321.dec : ∀ (v922 : IVec S16 32) (v1024 : IVec S16 32), Decidable (k1_chk321 v922 v1024) := fun v922 v1024 => decidable_of_iff' _ (Iff.of_eq (k1_chk321.eq_1 v922 v1024))
theorem k1_idx321_inb : ∀ (v922 : IVec S16 32) (v1024 : IVec S16 32) (k1_hw321 : k1_chk321 v922 v1024), ∀ a x, ((![v922, v1024] : Fin 2 → IVec S16 32) a x).toNat < S512x128.size a := fun v922 v1024 k1_hw321 => k1_hw321

def k1_chk322 (v922 : IVec S16 32) (v1023 : IVec S16 32) : Prop :=
  (∀ a x, ((![v1023, v922] : Fin 2 → IVec S16 32) a x).toNat < S64x512.size a)
instance k1_chk322.dec : ∀ (v922 : IVec S16 32) (v1023 : IVec S16 32), Decidable (k1_chk322 v922 v1023) := fun v922 v1023 => decidable_of_iff' _ (Iff.of_eq (k1_chk322.eq_1 v922 v1023))
theorem k1_idx322_inb : ∀ (v922 : IVec S16 32) (v1023 : IVec S16 32) (k1_hw322 : k1_chk322 v922 v1023), ∀ a x, ((![v1023, v922] : Fin 2 → IVec S16 32) a x).toNat < S64x512.size a := fun v922 v1023 k1_hw322 => k1_hw322

def k1_chk323 (v922 : IVec S16 32) (v1027 : IVec S16 32) : Prop :=
  (∀ a x, ((![v922, v1027] : Fin 2 → IVec S16 32) a x).toNat < S512x128.size a)
instance k1_chk323.dec : ∀ (v922 : IVec S16 32) (v1027 : IVec S16 32), Decidable (k1_chk323 v922 v1027) := fun v922 v1027 => decidable_of_iff' _ (Iff.of_eq (k1_chk323.eq_1 v922 v1027))
theorem k1_idx323_inb : ∀ (v922 : IVec S16 32) (v1027 : IVec S16 32) (k1_hw323 : k1_chk323 v922 v1027), ∀ a x, ((![v922, v1027] : Fin 2 → IVec S16 32) a x).toNat < S512x128.size a := fun v922 v1027 k1_hw323 => k1_hw323

def k1_chk324 (v922 : IVec S16 32) (v1026 : IVec S16 32) : Prop :=
  (∀ a x, ((![v1026, v922] : Fin 2 → IVec S16 32) a x).toNat < S64x512.size a)
instance k1_chk324.dec : ∀ (v922 : IVec S16 32) (v1026 : IVec S16 32), Decidable (k1_chk324 v922 v1026) := fun v922 v1026 => decidable_of_iff' _ (Iff.of_eq (k1_chk324.eq_1 v922 v1026))
theorem k1_idx324_inb : ∀ (v922 : IVec S16 32) (v1026 : IVec S16 32) (k1_hw324 : k1_chk324 v922 v1026), ∀ a x, ((![v1026, v922] : Fin 2 → IVec S16 32) a x).toNat < S64x512.size a := fun v922 v1026 k1_hw324 => k1_hw324

def k1_chk325 (v922 : IVec S16 32) (v1030 : IVec S16 32) : Prop :=
  (∀ a x, ((![v922, v1030] : Fin 2 → IVec S16 32) a x).toNat < S512x128.size a)
instance k1_chk325.dec : ∀ (v922 : IVec S16 32) (v1030 : IVec S16 32), Decidable (k1_chk325 v922 v1030) := fun v922 v1030 => decidable_of_iff' _ (Iff.of_eq (k1_chk325.eq_1 v922 v1030))
theorem k1_idx325_inb : ∀ (v922 : IVec S16 32) (v1030 : IVec S16 32) (k1_hw325 : k1_chk325 v922 v1030), ∀ a x, ((![v922, v1030] : Fin 2 → IVec S16 32) a x).toNat < S512x128.size a := fun v922 v1030 k1_hw325 => k1_hw325

def k1_chk326 (v922 : IVec S16 32) (v1029 : IVec S16 32) : Prop :=
  (∀ a x, ((![v1029, v922] : Fin 2 → IVec S16 32) a x).toNat < S64x512.size a)
instance k1_chk326.dec : ∀ (v922 : IVec S16 32) (v1029 : IVec S16 32), Decidable (k1_chk326 v922 v1029) := fun v922 v1029 => decidable_of_iff' _ (Iff.of_eq (k1_chk326.eq_1 v922 v1029))
theorem k1_idx326_inb : ∀ (v922 : IVec S16 32) (v1029 : IVec S16 32) (k1_hw326 : k1_chk326 v922 v1029), ∀ a x, ((![v1029, v922] : Fin 2 → IVec S16 32) a x).toNat < S64x512.size a := fun v922 v1029 k1_hw326 => k1_hw326

def k1_chk327 (v922 : IVec S16 32) (v1033 : IVec S16 32) : Prop :=
  (∀ a x, ((![v922, v1033] : Fin 2 → IVec S16 32) a x).toNat < S512x128.size a)
instance k1_chk327.dec : ∀ (v922 : IVec S16 32) (v1033 : IVec S16 32), Decidable (k1_chk327 v922 v1033) := fun v922 v1033 => decidable_of_iff' _ (Iff.of_eq (k1_chk327.eq_1 v922 v1033))
theorem k1_idx327_inb : ∀ (v922 : IVec S16 32) (v1033 : IVec S16 32) (k1_hw327 : k1_chk327 v922 v1033), ∀ a x, ((![v922, v1033] : Fin 2 → IVec S16 32) a x).toNat < S512x128.size a := fun v922 v1033 k1_hw327 => k1_hw327

def k1_chk328 (v922 : IVec S16 32) (v1032 : IVec S16 32) : Prop :=
  (∀ a x, ((![v1032, v922] : Fin 2 → IVec S16 32) a x).toNat < S64x512.size a)
instance k1_chk328.dec : ∀ (v922 : IVec S16 32) (v1032 : IVec S16 32), Decidable (k1_chk328 v922 v1032) := fun v922 v1032 => decidable_of_iff' _ (Iff.of_eq (k1_chk328.eq_1 v922 v1032))
theorem k1_idx328_inb : ∀ (v922 : IVec S16 32) (v1032 : IVec S16 32) (k1_hw328 : k1_chk328 v922 v1032), ∀ a x, ((![v1032, v922] : Fin 2 → IVec S16 32) a x).toNat < S64x512.size a := fun v922 v1032 k1_hw328 => k1_hw328

def k1_chk329 (v922 : IVec S16 32) (v1036 : IVec S16 32) : Prop :=
  (∀ a x, ((![v922, v1036] : Fin 2 → IVec S16 32) a x).toNat < S512x128.size a)
instance k1_chk329.dec : ∀ (v922 : IVec S16 32) (v1036 : IVec S16 32), Decidable (k1_chk329 v922 v1036) := fun v922 v1036 => decidable_of_iff' _ (Iff.of_eq (k1_chk329.eq_1 v922 v1036))
theorem k1_idx329_inb : ∀ (v922 : IVec S16 32) (v1036 : IVec S16 32) (k1_hw329 : k1_chk329 v922 v1036), ∀ a x, ((![v922, v1036] : Fin 2 → IVec S16 32) a x).toNat < S512x128.size a := fun v922 v1036 k1_hw329 => k1_hw329

def k1_chk330 (v922 : IVec S16 32) (v1035 : IVec S16 32) : Prop :=
  (∀ a x, ((![v1035, v922] : Fin 2 → IVec S16 32) a x).toNat < S64x512.size a)
instance k1_chk330.dec : ∀ (v922 : IVec S16 32) (v1035 : IVec S16 32), Decidable (k1_chk330 v922 v1035) := fun v922 v1035 => decidable_of_iff' _ (Iff.of_eq (k1_chk330.eq_1 v922 v1035))
theorem k1_idx330_inb : ∀ (v922 : IVec S16 32) (v1035 : IVec S16 32) (k1_hw330 : k1_chk330 v922 v1035), ∀ a x, ((![v1035, v922] : Fin 2 → IVec S16 32) a x).toNat < S64x512.size a := fun v922 v1035 k1_hw330 => k1_hw330

def k1_chk331 (v922 : IVec S16 32) (v1039 : IVec S16 32) : Prop :=
  (∀ a x, ((![v922, v1039] : Fin 2 → IVec S16 32) a x).toNat < S512x128.size a)
instance k1_chk331.dec : ∀ (v922 : IVec S16 32) (v1039 : IVec S16 32), Decidable (k1_chk331 v922 v1039) := fun v922 v1039 => decidable_of_iff' _ (Iff.of_eq (k1_chk331.eq_1 v922 v1039))
theorem k1_idx331_inb : ∀ (v922 : IVec S16 32) (v1039 : IVec S16 32) (k1_hw331 : k1_chk331 v922 v1039), ∀ a x, ((![v922, v1039] : Fin 2 → IVec S16 32) a x).toNat < S512x128.size a := fun v922 v1039 k1_hw331 => k1_hw331

def k1_chk332 (v922 : IVec S16 32) (v1038 : IVec S16 32) : Prop :=
  (∀ a x, ((![v1038, v922] : Fin 2 → IVec S16 32) a x).toNat < S64x512.size a)
instance k1_chk332.dec : ∀ (v922 : IVec S16 32) (v1038 : IVec S16 32), Decidable (k1_chk332 v922 v1038) := fun v922 v1038 => decidable_of_iff' _ (Iff.of_eq (k1_chk332.eq_1 v922 v1038))
theorem k1_idx332_inb : ∀ (v922 : IVec S16 32) (v1038 : IVec S16 32) (k1_hw332 : k1_chk332 v922 v1038), ∀ a x, ((![v1038, v922] : Fin 2 → IVec S16 32) a x).toNat < S64x512.size a := fun v922 v1038 k1_hw332 => k1_hw332

def k1_chk333 (v922 : IVec S16 32) (v1042 : IVec S16 32) : Prop :=
  (∀ a x, ((![v922, v1042] : Fin 2 → IVec S16 32) a x).toNat < S512x128.size a)
instance k1_chk333.dec : ∀ (v922 : IVec S16 32) (v1042 : IVec S16 32), Decidable (k1_chk333 v922 v1042) := fun v922 v1042 => decidable_of_iff' _ (Iff.of_eq (k1_chk333.eq_1 v922 v1042))
theorem k1_idx333_inb : ∀ (v922 : IVec S16 32) (v1042 : IVec S16 32) (k1_hw333 : k1_chk333 v922 v1042), ∀ a x, ((![v922, v1042] : Fin 2 → IVec S16 32) a x).toNat < S512x128.size a := fun v922 v1042 k1_hw333 => k1_hw333

def k1_chk334 (v922 : IVec S16 32) (v1041 : IVec S16 32) : Prop :=
  (∀ a x, ((![v1041, v922] : Fin 2 → IVec S16 32) a x).toNat < S64x512.size a)
instance k1_chk334.dec : ∀ (v922 : IVec S16 32) (v1041 : IVec S16 32), Decidable (k1_chk334 v922 v1041) := fun v922 v1041 => decidable_of_iff' _ (Iff.of_eq (k1_chk334.eq_1 v922 v1041))
theorem k1_idx334_inb : ∀ (v922 : IVec S16 32) (v1041 : IVec S16 32) (k1_hw334 : k1_chk334 v922 v1041), ∀ a x, ((![v1041, v922] : Fin 2 → IVec S16 32) a x).toNat < S64x512.size a := fun v922 v1041 k1_hw334 => k1_hw334

def k1_chk335 (v922 : IVec S16 32) (v1045 : IVec S16 32) : Prop :=
  (∀ a x, ((![v922, v1045] : Fin 2 → IVec S16 32) a x).toNat < S512x128.size a)
instance k1_chk335.dec : ∀ (v922 : IVec S16 32) (v1045 : IVec S16 32), Decidable (k1_chk335 v922 v1045) := fun v922 v1045 => decidable_of_iff' _ (Iff.of_eq (k1_chk335.eq_1 v922 v1045))
theorem k1_idx335_inb : ∀ (v922 : IVec S16 32) (v1045 : IVec S16 32) (k1_hw335 : k1_chk335 v922 v1045), ∀ a x, ((![v922, v1045] : Fin 2 → IVec S16 32) a x).toNat < S512x128.size a := fun v922 v1045 k1_hw335 => k1_hw335

def k1_chk336 (v922 : IVec S16 32) (v1044 : IVec S16 32) : Prop :=
  (∀ a x, ((![v1044, v922] : Fin 2 → IVec S16 32) a x).toNat < S64x512.size a)
instance k1_chk336.dec : ∀ (v922 : IVec S16 32) (v1044 : IVec S16 32), Decidable (k1_chk336 v922 v1044) := fun v922 v1044 => decidable_of_iff' _ (Iff.of_eq (k1_chk336.eq_1 v922 v1044))
theorem k1_idx336_inb : ∀ (v922 : IVec S16 32) (v1044 : IVec S16 32) (k1_hw336 : k1_chk336 v922 v1044), ∀ a x, ((![v1044, v922] : Fin 2 → IVec S16 32) a x).toNat < S64x512.size a := fun v922 v1044 k1_hw336 => k1_hw336

def k1_chk337 (v922 : IVec S16 32) (v1048 : IVec S16 32) : Prop :=
  (∀ a x, ((![v922, v1048] : Fin 2 → IVec S16 32) a x).toNat < S512x128.size a)
instance k1_chk337.dec : ∀ (v922 : IVec S16 32) (v1048 : IVec S16 32), Decidable (k1_chk337 v922 v1048) := fun v922 v1048 => decidable_of_iff' _ (Iff.of_eq (k1_chk337.eq_1 v922 v1048))
theorem k1_idx337_inb : ∀ (v922 : IVec S16 32) (v1048 : IVec S16 32) (k1_hw337 : k1_chk337 v922 v1048), ∀ a x, ((![v922, v1048] : Fin 2 → IVec S16 32) a x).toNat < S512x128.size a := fun v922 v1048 k1_hw337 => k1_hw337

def k1_chk338 (v922 : IVec S16 32) (v1047 : IVec S16 32) : Prop :=
  (∀ a x, ((![v1047, v922] : Fin 2 → IVec S16 32) a x).toNat < S64x512.size a)
instance k1_chk338.dec : ∀ (v922 : IVec S16 32) (v1047 : IVec S16 32), Decidable (k1_chk338 v922 v1047) := fun v922 v1047 => decidable_of_iff' _ (Iff.of_eq (k1_chk338.eq_1 v922 v1047))
theorem k1_idx338_inb : ∀ (v922 : IVec S16 32) (v1047 : IVec S16 32) (k1_hw338 : k1_chk338 v922 v1047), ∀ a x, ((![v1047, v922] : Fin 2 → IVec S16 32) a x).toNat < S64x512.size a := fun v922 v1047 k1_hw338 => k1_hw338

def k1_chk339 (v922 : IVec S16 32) (v1051 : IVec S16 32) : Prop :=
  (∀ a x, ((![v922, v1051] : Fin 2 → IVec S16 32) a x).toNat < S512x128.size a)
instance k1_chk339.dec : ∀ (v922 : IVec S16 32) (v1051 : IVec S16 32), Decidable (k1_chk339 v922 v1051) := fun v922 v1051 => decidable_of_iff' _ (Iff.of_eq (k1_chk339.eq_1 v922 v1051))
theorem k1_idx339_inb : ∀ (v922 : IVec S16 32) (v1051 : IVec S16 32) (k1_hw339 : k1_chk339 v922 v1051), ∀ a x, ((![v922, v1051] : Fin 2 → IVec S16 32) a x).toNat < S512x128.size a := fun v922 v1051 k1_hw339 => k1_hw339

def k1_chk340 (v922 : IVec S16 32) (v1050 : IVec S16 32) : Prop :=
  (∀ a x, ((![v1050, v922] : Fin 2 → IVec S16 32) a x).toNat < S64x512.size a)
instance k1_chk340.dec : ∀ (v922 : IVec S16 32) (v1050 : IVec S16 32), Decidable (k1_chk340 v922 v1050) := fun v922 v1050 => decidable_of_iff' _ (Iff.of_eq (k1_chk340.eq_1 v922 v1050))
theorem k1_idx340_inb : ∀ (v922 : IVec S16 32) (v1050 : IVec S16 32) (k1_hw340 : k1_chk340 v922 v1050), ∀ a x, ((![v1050, v922] : Fin 2 → IVec S16 32) a x).toNat < S64x512.size a := fun v922 v1050 k1_hw340 => k1_hw340

def k1_chk341 (v922 : IVec S16 32) (v1054 : IVec S16 32) : Prop :=
  (∀ a x, ((![v922, v1054] : Fin 2 → IVec S16 32) a x).toNat < S512x128.size a)
instance k1_chk341.dec : ∀ (v922 : IVec S16 32) (v1054 : IVec S16 32), Decidable (k1_chk341 v922 v1054) := fun v922 v1054 => decidable_of_iff' _ (Iff.of_eq (k1_chk341.eq_1 v922 v1054))
theorem k1_idx341_inb : ∀ (v922 : IVec S16 32) (v1054 : IVec S16 32) (k1_hw341 : k1_chk341 v922 v1054), ∀ a x, ((![v922, v1054] : Fin 2 → IVec S16 32) a x).toNat < S512x128.size a := fun v922 v1054 k1_hw341 => k1_hw341

def k1_chk342 (v922 : IVec S16 32) (v1053 : IVec S16 32) : Prop :=
  (∀ a x, ((![v1053, v922] : Fin 2 → IVec S16 32) a x).toNat < S64x512.size a)
instance k1_chk342.dec : ∀ (v922 : IVec S16 32) (v1053 : IVec S16 32), Decidable (k1_chk342 v922 v1053) := fun v922 v1053 => decidable_of_iff' _ (Iff.of_eq (k1_chk342.eq_1 v922 v1053))
theorem k1_idx342_inb : ∀ (v922 : IVec S16 32) (v1053 : IVec S16 32) (k1_hw342 : k1_chk342 v922 v1053), ∀ a x, ((![v1053, v922] : Fin 2 → IVec S16 32) a x).toNat < S64x512.size a := fun v922 v1053 k1_hw342 => k1_hw342

def k1_chk343 (v922 : IVec S16 32) (v1057 : IVec S16 32) : Prop :=
  (∀ a x, ((![v922, v1057] : Fin 2 → IVec S16 32) a x).toNat < S512x128.size a)
instance k1_chk343.dec : ∀ (v922 : IVec S16 32) (v1057 : IVec S16 32), Decidable (k1_chk343 v922 v1057) := fun v922 v1057 => decidable_of_iff' _ (Iff.of_eq (k1_chk343.eq_1 v922 v1057))
theorem k1_idx343_inb : ∀ (v922 : IVec S16 32) (v1057 : IVec S16 32) (k1_hw343 : k1_chk343 v922 v1057), ∀ a x, ((![v922, v1057] : Fin 2 → IVec S16 32) a x).toNat < S512x128.size a := fun v922 v1057 k1_hw343 => k1_hw343

def k1_chk344 (v922 : IVec S16 32) (v1056 : IVec S16 32) : Prop :=
  (∀ a x, ((![v1056, v922] : Fin 2 → IVec S16 32) a x).toNat < S64x512.size a)
instance k1_chk344.dec : ∀ (v922 : IVec S16 32) (v1056 : IVec S16 32), Decidable (k1_chk344 v922 v1056) := fun v922 v1056 => decidable_of_iff' _ (Iff.of_eq (k1_chk344.eq_1 v922 v1056))
theorem k1_idx344_inb : ∀ (v922 : IVec S16 32) (v1056 : IVec S16 32) (k1_hw344 : k1_chk344 v922 v1056), ∀ a x, ((![v1056, v922] : Fin 2 → IVec S16 32) a x).toNat < S64x512.size a := fun v922 v1056 k1_hw344 => k1_hw344

def k1_chk345 (v922 : IVec S16 32) (v1060 : IVec S16 32) : Prop :=
  (∀ a x, ((![v922, v1060] : Fin 2 → IVec S16 32) a x).toNat < S512x128.size a)
instance k1_chk345.dec : ∀ (v922 : IVec S16 32) (v1060 : IVec S16 32), Decidable (k1_chk345 v922 v1060) := fun v922 v1060 => decidable_of_iff' _ (Iff.of_eq (k1_chk345.eq_1 v922 v1060))
theorem k1_idx345_inb : ∀ (v922 : IVec S16 32) (v1060 : IVec S16 32) (k1_hw345 : k1_chk345 v922 v1060), ∀ a x, ((![v922, v1060] : Fin 2 → IVec S16 32) a x).toNat < S512x128.size a := fun v922 v1060 k1_hw345 => k1_hw345

def k1_chk346 (v922 : IVec S16 32) (v1059 : IVec S16 32) : Prop :=
  (∀ a x, ((![v1059, v922] : Fin 2 → IVec S16 32) a x).toNat < S64x512.size a)
instance k1_chk346.dec : ∀ (v922 : IVec S16 32) (v1059 : IVec S16 32), Decidable (k1_chk346 v922 v1059) := fun v922 v1059 => decidable_of_iff' _ (Iff.of_eq (k1_chk346.eq_1 v922 v1059))
theorem k1_idx346_inb : ∀ (v922 : IVec S16 32) (v1059 : IVec S16 32) (k1_hw346 : k1_chk346 v922 v1059), ∀ a x, ((![v1059, v922] : Fin 2 → IVec S16 32) a x).toNat < S64x512.size a := fun v922 v1059 k1_hw346 => k1_hw346

def k1_chk347 (v922 : IVec S16 32) (v1063 : IVec S16 32) : Prop :=
  (∀ a x, ((![v922, v1063] : Fin 2 → IVec S16 32) a x).toNat < S512x128.size a)
instance k1_chk347.dec : ∀ (v922 : IVec S16 32) (v1063 : IVec S16 32), Decidable (k1_chk347 v922 v1063) := fun v922 v1063 => decidable_of_iff' _ (Iff.of_eq (k1_chk347.eq_1 v922 v1063))
theorem k1_idx347_inb : ∀ (v922 : IVec S16 32) (v1063 : IVec S16 32) (k1_hw347 : k1_chk347 v922 v1063), ∀ a x, ((![v922, v1063] : Fin 2 → IVec S16 32) a x).toNat < S512x128.size a := fun v922 v1063 k1_hw347 => k1_hw347

def k1_chk348 (v922 : IVec S16 32) (v1062 : IVec S16 32) : Prop :=
  (∀ a x, ((![v1062, v922] : Fin 2 → IVec S16 32) a x).toNat < S64x512.size a)
instance k1_chk348.dec : ∀ (v922 : IVec S16 32) (v1062 : IVec S16 32), Decidable (k1_chk348 v922 v1062) := fun v922 v1062 => decidable_of_iff' _ (Iff.of_eq (k1_chk348.eq_1 v922 v1062))
theorem k1_idx348_inb : ∀ (v922 : IVec S16 32) (v1062 : IVec S16 32) (k1_hw348 : k1_chk348 v922 v1062), ∀ a x, ((![v1062, v922] : Fin 2 → IVec S16 32) a x).toNat < S64x512.size a := fun v922 v1062 k1_hw348 => k1_hw348

def k1_chk349 (v922 : IVec S16 32) (v1066 : IVec S16 32) : Prop :=
  (∀ a x, ((![v922, v1066] : Fin 2 → IVec S16 32) a x).toNat < S512x128.size a)
instance k1_chk349.dec : ∀ (v922 : IVec S16 32) (v1066 : IVec S16 32), Decidable (k1_chk349 v922 v1066) := fun v922 v1066 => decidable_of_iff' _ (Iff.of_eq (k1_chk349.eq_1 v922 v1066))
theorem k1_idx349_inb : ∀ (v922 : IVec S16 32) (v1066 : IVec S16 32) (k1_hw349 : k1_chk349 v922 v1066), ∀ a x, ((![v922, v1066] : Fin 2 → IVec S16 32) a x).toNat < S512x128.size a := fun v922 v1066 k1_hw349 => k1_hw349

def k1_chk350 (v922 : IVec S16 32) (v1065 : IVec S16 32) : Prop :=
  (∀ a x, ((![v1065, v922] : Fin 2 → IVec S16 32) a x).toNat < S64x512.size a)
instance k1_chk350.dec : ∀ (v922 : IVec S16 32) (v1065 : IVec S16 32), Decidable (k1_chk350 v922 v1065) := fun v922 v1065 => decidable_of_iff' _ (Iff.of_eq (k1_chk350.eq_1 v922 v1065))
theorem k1_idx350_inb : ∀ (v922 : IVec S16 32) (v1065 : IVec S16 32) (k1_hw350 : k1_chk350 v922 v1065), ∀ a x, ((![v1065, v922] : Fin 2 → IVec S16 32) a x).toNat < S64x512.size a := fun v922 v1065 k1_hw350 => k1_hw350

def k1_chk351 (v922 : IVec S16 32) (v1069 : IVec S16 32) : Prop :=
  (∀ a x, ((![v922, v1069] : Fin 2 → IVec S16 32) a x).toNat < S512x128.size a)
instance k1_chk351.dec : ∀ (v922 : IVec S16 32) (v1069 : IVec S16 32), Decidable (k1_chk351 v922 v1069) := fun v922 v1069 => decidable_of_iff' _ (Iff.of_eq (k1_chk351.eq_1 v922 v1069))
theorem k1_idx351_inb : ∀ (v922 : IVec S16 32) (v1069 : IVec S16 32) (k1_hw351 : k1_chk351 v922 v1069), ∀ a x, ((![v922, v1069] : Fin 2 → IVec S16 32) a x).toNat < S512x128.size a := fun v922 v1069 k1_hw351 => k1_hw351

def k1_chk352 (v922 : IVec S16 32) (v1068 : IVec S16 32) : Prop :=
  (∀ a x, ((![v1068, v922] : Fin 2 → IVec S16 32) a x).toNat < S64x512.size a)
instance k1_chk352.dec : ∀ (v922 : IVec S16 32) (v1068 : IVec S16 32), Decidable (k1_chk352 v922 v1068) := fun v922 v1068 => decidable_of_iff' _ (Iff.of_eq (k1_chk352.eq_1 v922 v1068))
theorem k1_idx352_inb : ∀ (v922 : IVec S16 32) (v1068 : IVec S16 32) (k1_hw352 : k1_chk352 v922 v1068), ∀ a x, ((![v1068, v922] : Fin 2 → IVec S16 32) a x).toNat < S64x512.size a := fun v922 v1068 k1_hw352 => k1_hw352

def k1_chk353 (v922 : IVec S16 32) (v1072 : IVec S16 32) : Prop :=
  (∀ a x, ((![v922, v1072] : Fin 2 → IVec S16 32) a x).toNat < S512x128.size a)
instance k1_chk353.dec : ∀ (v922 : IVec S16 32) (v1072 : IVec S16 32), Decidable (k1_chk353 v922 v1072) := fun v922 v1072 => decidable_of_iff' _ (Iff.of_eq (k1_chk353.eq_1 v922 v1072))
theorem k1_idx353_inb : ∀ (v922 : IVec S16 32) (v1072 : IVec S16 32) (k1_hw353 : k1_chk353 v922 v1072), ∀ a x, ((![v922, v1072] : Fin 2 → IVec S16 32) a x).toNat < S512x128.size a := fun v922 v1072 k1_hw353 => k1_hw353

def k1_chk354 (v922 : IVec S16 32) (v1071 : IVec S16 32) : Prop :=
  (∀ a x, ((![v1071, v922] : Fin 2 → IVec S16 32) a x).toNat < S64x512.size a)
instance k1_chk354.dec : ∀ (v922 : IVec S16 32) (v1071 : IVec S16 32), Decidable (k1_chk354 v922 v1071) := fun v922 v1071 => decidable_of_iff' _ (Iff.of_eq (k1_chk354.eq_1 v922 v1071))
theorem k1_idx354_inb : ∀ (v922 : IVec S16 32) (v1071 : IVec S16 32) (k1_hw354 : k1_chk354 v922 v1071), ∀ a x, ((![v1071, v922] : Fin 2 → IVec S16 32) a x).toNat < S64x512.size a := fun v922 v1071 k1_hw354 => k1_hw354

def k1_chk355 (v922 : IVec S16 32) (v1075 : IVec S16 32) : Prop :=
  (∀ a x, ((![v922, v1075] : Fin 2 → IVec S16 32) a x).toNat < S512x128.size a)
instance k1_chk355.dec : ∀ (v922 : IVec S16 32) (v1075 : IVec S16 32), Decidable (k1_chk355 v922 v1075) := fun v922 v1075 => decidable_of_iff' _ (Iff.of_eq (k1_chk355.eq_1 v922 v1075))
theorem k1_idx355_inb : ∀ (v922 : IVec S16 32) (v1075 : IVec S16 32) (k1_hw355 : k1_chk355 v922 v1075), ∀ a x, ((![v922, v1075] : Fin 2 → IVec S16 32) a x).toNat < S512x128.size a := fun v922 v1075 k1_hw355 => k1_hw355

def k1_chk356 (v922 : IVec S16 32) (v1074 : IVec S16 32) : Prop :=
  (∀ a x, ((![v1074, v922] : Fin 2 → IVec S16 32) a x).toNat < S64x512.size a)
instance k1_chk356.dec : ∀ (v922 : IVec S16 32) (v1074 : IVec S16 32), Decidable (k1_chk356 v922 v1074) := fun v922 v1074 => decidable_of_iff' _ (Iff.of_eq (k1_chk356.eq_1 v922 v1074))
theorem k1_idx356_inb : ∀ (v922 : IVec S16 32) (v1074 : IVec S16 32) (k1_hw356 : k1_chk356 v922 v1074), ∀ a x, ((![v1074, v922] : Fin 2 → IVec S16 32) a x).toNat < S64x512.size a := fun v922 v1074 k1_hw356 => k1_hw356

def k1_chk357 (v922 : IVec S16 32) (v1078 : IVec S16 32) : Prop :=
  (∀ a x, ((![v922, v1078] : Fin 2 → IVec S16 32) a x).toNat < S512x128.size a)
instance k1_chk357.dec : ∀ (v922 : IVec S16 32) (v1078 : IVec S16 32), Decidable (k1_chk357 v922 v1078) := fun v922 v1078 => decidable_of_iff' _ (Iff.of_eq (k1_chk357.eq_1 v922 v1078))
theorem k1_idx357_inb : ∀ (v922 : IVec S16 32) (v1078 : IVec S16 32) (k1_hw357 : k1_chk357 v922 v1078), ∀ a x, ((![v922, v1078] : Fin 2 → IVec S16 32) a x).toNat < S512x128.size a := fun v922 v1078 k1_hw357 => k1_hw357

def k1_chk358 (v922 : IVec S16 32) (v1077 : IVec S16 32) : Prop :=
  (∀ a x, ((![v1077, v922] : Fin 2 → IVec S16 32) a x).toNat < S64x512.size a)
instance k1_chk358.dec : ∀ (v922 : IVec S16 32) (v1077 : IVec S16 32), Decidable (k1_chk358 v922 v1077) := fun v922 v1077 => decidable_of_iff' _ (Iff.of_eq (k1_chk358.eq_1 v922 v1077))
theorem k1_idx358_inb : ∀ (v922 : IVec S16 32) (v1077 : IVec S16 32) (k1_hw358 : k1_chk358 v922 v1077), ∀ a x, ((![v1077, v922] : Fin 2 → IVec S16 32) a x).toNat < S64x512.size a := fun v922 v1077 k1_hw358 => k1_hw358

def k1_chk359 (v922 : IVec S16 32) (v1081 : IVec S16 32) : Prop :=
  (∀ a x, ((![v922, v1081] : Fin 2 → IVec S16 32) a x).toNat < S512x128.size a)
instance k1_chk359.dec : ∀ (v922 : IVec S16 32) (v1081 : IVec S16 32), Decidable (k1_chk359 v922 v1081) := fun v922 v1081 => decidable_of_iff' _ (Iff.of_eq (k1_chk359.eq_1 v922 v1081))
theorem k1_idx359_inb : ∀ (v922 : IVec S16 32) (v1081 : IVec S16 32) (k1_hw359 : k1_chk359 v922 v1081), ∀ a x, ((![v922, v1081] : Fin 2 → IVec S16 32) a x).toNat < S512x128.size a := fun v922 v1081 k1_hw359 => k1_hw359

def k1_chk360 (v922 : IVec S16 32) (v1080 : IVec S16 32) : Prop :=
  (∀ a x, ((![v1080, v922] : Fin 2 → IVec S16 32) a x).toNat < S64x512.size a)
instance k1_chk360.dec : ∀ (v922 : IVec S16 32) (v1080 : IVec S16 32), Decidable (k1_chk360 v922 v1080) := fun v922 v1080 => decidable_of_iff' _ (Iff.of_eq (k1_chk360.eq_1 v922 v1080))
theorem k1_idx360_inb : ∀ (v922 : IVec S16 32) (v1080 : IVec S16 32) (k1_hw360 : k1_chk360 v922 v1080), ∀ a x, ((![v1080, v922] : Fin 2 → IVec S16 32) a x).toNat < S64x512.size a := fun v922 v1080 k1_hw360 => k1_hw360

def k1_chk361 (v922 : IVec S16 32) (v1084 : IVec S16 32) : Prop :=
  (∀ a x, ((![v922, v1084] : Fin 2 → IVec S16 32) a x).toNat < S512x128.size a)
instance k1_chk361.dec : ∀ (v922 : IVec S16 32) (v1084 : IVec S16 32), Decidable (k1_chk361 v922 v1084) := fun v922 v1084 => decidable_of_iff' _ (Iff.of_eq (k1_chk361.eq_1 v922 v1084))
theorem k1_idx361_inb : ∀ (v922 : IVec S16 32) (v1084 : IVec S16 32) (k1_hw361 : k1_chk361 v922 v1084), ∀ a x, ((![v922, v1084] : Fin 2 → IVec S16 32) a x).toNat < S512x128.size a := fun v922 v1084 k1_hw361 => k1_hw361

def k1_chk362 (v922 : IVec S16 32) (v1083 : IVec S16 32) : Prop :=
  (∀ a x, ((![v1083, v922] : Fin 2 → IVec S16 32) a x).toNat < S64x512.size a)
instance k1_chk362.dec : ∀ (v922 : IVec S16 32) (v1083 : IVec S16 32), Decidable (k1_chk362 v922 v1083) := fun v922 v1083 => decidable_of_iff' _ (Iff.of_eq (k1_chk362.eq_1 v922 v1083))
theorem k1_idx362_inb : ∀ (v922 : IVec S16 32) (v1083 : IVec S16 32) (k1_hw362 : k1_chk362 v922 v1083), ∀ a x, ((![v1083, v922] : Fin 2 → IVec S16 32) a x).toNat < S64x512.size a := fun v922 v1083 k1_hw362 => k1_hw362

def k1_chk363 (v922 : IVec S16 32) (v1087 : IVec S16 32) : Prop :=
  (∀ a x, ((![v922, v1087] : Fin 2 → IVec S16 32) a x).toNat < S512x128.size a)
instance k1_chk363.dec : ∀ (v922 : IVec S16 32) (v1087 : IVec S16 32), Decidable (k1_chk363 v922 v1087) := fun v922 v1087 => decidable_of_iff' _ (Iff.of_eq (k1_chk363.eq_1 v922 v1087))
theorem k1_idx363_inb : ∀ (v922 : IVec S16 32) (v1087 : IVec S16 32) (k1_hw363 : k1_chk363 v922 v1087), ∀ a x, ((![v922, v1087] : Fin 2 → IVec S16 32) a x).toNat < S512x128.size a := fun v922 v1087 k1_hw363 => k1_hw363

def k1_chk364 (v922 : IVec S16 32) (v1086 : IVec S16 32) : Prop :=
  (∀ a x, ((![v1086, v922] : Fin 2 → IVec S16 32) a x).toNat < S64x512.size a)
instance k1_chk364.dec : ∀ (v922 : IVec S16 32) (v1086 : IVec S16 32), Decidable (k1_chk364 v922 v1086) := fun v922 v1086 => decidable_of_iff' _ (Iff.of_eq (k1_chk364.eq_1 v922 v1086))
theorem k1_idx364_inb : ∀ (v922 : IVec S16 32) (v1086 : IVec S16 32) (k1_hw364 : k1_chk364 v922 v1086), ∀ a x, ((![v1086, v922] : Fin 2 → IVec S16 32) a x).toNat < S64x512.size a := fun v922 v1086 k1_hw364 => k1_hw364

def k1_chk365 (v922 : IVec S16 32) (v1090 : IVec S16 32) : Prop :=
  (∀ a x, ((![v922, v1090] : Fin 2 → IVec S16 32) a x).toNat < S512x128.size a)
instance k1_chk365.dec : ∀ (v922 : IVec S16 32) (v1090 : IVec S16 32), Decidable (k1_chk365 v922 v1090) := fun v922 v1090 => decidable_of_iff' _ (Iff.of_eq (k1_chk365.eq_1 v922 v1090))
theorem k1_idx365_inb : ∀ (v922 : IVec S16 32) (v1090 : IVec S16 32) (k1_hw365 : k1_chk365 v922 v1090), ∀ a x, ((![v922, v1090] : Fin 2 → IVec S16 32) a x).toNat < S512x128.size a := fun v922 v1090 k1_hw365 => k1_hw365

def k1_chk366 (v922 : IVec S16 32) (v1089 : IVec S16 32) : Prop :=
  (∀ a x, ((![v1089, v922] : Fin 2 → IVec S16 32) a x).toNat < S64x512.size a)
instance k1_chk366.dec : ∀ (v922 : IVec S16 32) (v1089 : IVec S16 32), Decidable (k1_chk366 v922 v1089) := fun v922 v1089 => decidable_of_iff' _ (Iff.of_eq (k1_chk366.eq_1 v922 v1089))
theorem k1_idx366_inb : ∀ (v922 : IVec S16 32) (v1089 : IVec S16 32) (k1_hw366 : k1_chk366 v922 v1089), ∀ a x, ((![v1089, v922] : Fin 2 → IVec S16 32) a x).toNat < S64x512.size a := fun v922 v1089 k1_hw366 => k1_hw366

def k1_chk367 (v922 : IVec S16 32) (v1093 : IVec S16 32) : Prop :=
  (∀ a x, ((![v922, v1093] : Fin 2 → IVec S16 32) a x).toNat < S512x128.size a)
instance k1_chk367.dec : ∀ (v922 : IVec S16 32) (v1093 : IVec S16 32), Decidable (k1_chk367 v922 v1093) := fun v922 v1093 => decidable_of_iff' _ (Iff.of_eq (k1_chk367.eq_1 v922 v1093))
theorem k1_idx367_inb : ∀ (v922 : IVec S16 32) (v1093 : IVec S16 32) (k1_hw367 : k1_chk367 v922 v1093), ∀ a x, ((![v922, v1093] : Fin 2 → IVec S16 32) a x).toNat < S512x128.size a := fun v922 v1093 k1_hw367 => k1_hw367

def k1_chk368 (v922 : IVec S16 32) (v1092 : IVec S16 32) : Prop :=
  (∀ a x, ((![v1092, v922] : Fin 2 → IVec S16 32) a x).toNat < S64x512.size a)
instance k1_chk368.dec : ∀ (v922 : IVec S16 32) (v1092 : IVec S16 32), Decidable (k1_chk368 v922 v1092) := fun v922 v1092 => decidable_of_iff' _ (Iff.of_eq (k1_chk368.eq_1 v922 v1092))
theorem k1_idx368_inb : ∀ (v922 : IVec S16 32) (v1092 : IVec S16 32) (k1_hw368 : k1_chk368 v922 v1092), ∀ a x, ((![v1092, v922] : Fin 2 → IVec S16 32) a x).toNat < S64x512.size a := fun v922 v1092 k1_hw368 => k1_hw368

def k1_chk369 (v922 : IVec S16 32) (v1096 : IVec S16 32) : Prop :=
  (∀ a x, ((![v922, v1096] : Fin 2 → IVec S16 32) a x).toNat < S512x128.size a)
instance k1_chk369.dec : ∀ (v922 : IVec S16 32) (v1096 : IVec S16 32), Decidable (k1_chk369 v922 v1096) := fun v922 v1096 => decidable_of_iff' _ (Iff.of_eq (k1_chk369.eq_1 v922 v1096))
theorem k1_idx369_inb : ∀ (v922 : IVec S16 32) (v1096 : IVec S16 32) (k1_hw369 : k1_chk369 v922 v1096), ∀ a x, ((![v922, v1096] : Fin 2 → IVec S16 32) a x).toNat < S512x128.size a := fun v922 v1096 k1_hw369 => k1_hw369

def k1_chk370 (v922 : IVec S16 32) (v1095 : IVec S16 32) : Prop :=
  (∀ a x, ((![v1095, v922] : Fin 2 → IVec S16 32) a x).toNat < S64x512.size a)
instance k1_chk370.dec : ∀ (v922 : IVec S16 32) (v1095 : IVec S16 32), Decidable (k1_chk370 v922 v1095) := fun v922 v1095 => decidable_of_iff' _ (Iff.of_eq (k1_chk370.eq_1 v922 v1095))
theorem k1_idx370_inb : ∀ (v922 : IVec S16 32) (v1095 : IVec S16 32) (k1_hw370 : k1_chk370 v922 v1095), ∀ a x, ((![v1095, v922] : Fin 2 → IVec S16 32) a x).toNat < S64x512.size a := fun v922 v1095 k1_hw370 => k1_hw370

def k1_chk371 (v922 : IVec S16 32) (v1099 : IVec S16 32) : Prop :=
  (∀ a x, ((![v922, v1099] : Fin 2 → IVec S16 32) a x).toNat < S512x128.size a)
instance k1_chk371.dec : ∀ (v922 : IVec S16 32) (v1099 : IVec S16 32), Decidable (k1_chk371 v922 v1099) := fun v922 v1099 => decidable_of_iff' _ (Iff.of_eq (k1_chk371.eq_1 v922 v1099))
theorem k1_idx371_inb : ∀ (v922 : IVec S16 32) (v1099 : IVec S16 32) (k1_hw371 : k1_chk371 v922 v1099), ∀ a x, ((![v922, v1099] : Fin 2 → IVec S16 32) a x).toNat < S512x128.size a := fun v922 v1099 k1_hw371 => k1_hw371

def k1_chk372 (v922 : IVec S16 32) (v1098 : IVec S16 32) : Prop :=
  (∀ a x, ((![v1098, v922] : Fin 2 → IVec S16 32) a x).toNat < S64x512.size a)
instance k1_chk372.dec : ∀ (v922 : IVec S16 32) (v1098 : IVec S16 32), Decidable (k1_chk372 v922 v1098) := fun v922 v1098 => decidable_of_iff' _ (Iff.of_eq (k1_chk372.eq_1 v922 v1098))
theorem k1_idx372_inb : ∀ (v922 : IVec S16 32) (v1098 : IVec S16 32) (k1_hw372 : k1_chk372 v922 v1098), ∀ a x, ((![v1098, v922] : Fin 2 → IVec S16 32) a x).toNat < S64x512.size a := fun v922 v1098 k1_hw372 => k1_hw372

def k1_chk373 (v922 : IVec S16 32) (v1102 : IVec S16 32) : Prop :=
  (∀ a x, ((![v922, v1102] : Fin 2 → IVec S16 32) a x).toNat < S512x128.size a)
instance k1_chk373.dec : ∀ (v922 : IVec S16 32) (v1102 : IVec S16 32), Decidable (k1_chk373 v922 v1102) := fun v922 v1102 => decidable_of_iff' _ (Iff.of_eq (k1_chk373.eq_1 v922 v1102))
theorem k1_idx373_inb : ∀ (v922 : IVec S16 32) (v1102 : IVec S16 32) (k1_hw373 : k1_chk373 v922 v1102), ∀ a x, ((![v922, v1102] : Fin 2 → IVec S16 32) a x).toNat < S512x128.size a := fun v922 v1102 k1_hw373 => k1_hw373

def k1_chk374 (v922 : IVec S16 32) (v1101 : IVec S16 32) : Prop :=
  (∀ a x, ((![v1101, v922] : Fin 2 → IVec S16 32) a x).toNat < S64x512.size a)
instance k1_chk374.dec : ∀ (v922 : IVec S16 32) (v1101 : IVec S16 32), Decidable (k1_chk374 v922 v1101) := fun v922 v1101 => decidable_of_iff' _ (Iff.of_eq (k1_chk374.eq_1 v922 v1101))
theorem k1_idx374_inb : ∀ (v922 : IVec S16 32) (v1101 : IVec S16 32) (k1_hw374 : k1_chk374 v922 v1101), ∀ a x, ((![v1101, v922] : Fin 2 → IVec S16 32) a x).toNat < S64x512.size a := fun v922 v1101 k1_hw374 => k1_hw374

def k1_chk375 (v922 : IVec S16 32) (v1105 : IVec S16 32) : Prop :=
  (∀ a x, ((![v922, v1105] : Fin 2 → IVec S16 32) a x).toNat < S512x128.size a)
instance k1_chk375.dec : ∀ (v922 : IVec S16 32) (v1105 : IVec S16 32), Decidable (k1_chk375 v922 v1105) := fun v922 v1105 => decidable_of_iff' _ (Iff.of_eq (k1_chk375.eq_1 v922 v1105))
theorem k1_idx375_inb : ∀ (v922 : IVec S16 32) (v1105 : IVec S16 32) (k1_hw375 : k1_chk375 v922 v1105), ∀ a x, ((![v922, v1105] : Fin 2 → IVec S16 32) a x).toNat < S512x128.size a := fun v922 v1105 k1_hw375 => k1_hw375

def k1_chk376 (v922 : IVec S16 32) (v1104 : IVec S16 32) : Prop :=
  (∀ a x, ((![v1104, v922] : Fin 2 → IVec S16 32) a x).toNat < S64x512.size a)
instance k1_chk376.dec : ∀ (v922 : IVec S16 32) (v1104 : IVec S16 32), Decidable (k1_chk376 v922 v1104) := fun v922 v1104 => decidable_of_iff' _ (Iff.of_eq (k1_chk376.eq_1 v922 v1104))
theorem k1_idx376_inb : ∀ (v922 : IVec S16 32) (v1104 : IVec S16 32) (k1_hw376 : k1_chk376 v922 v1104), ∀ a x, ((![v1104, v922] : Fin 2 → IVec S16 32) a x).toNat < S64x512.size a := fun v922 v1104 k1_hw376 => k1_hw376

def k1_chk377 (v922 : IVec S16 32) (v1108 : IVec S16 32) : Prop :=
  (∀ a x, ((![v922, v1108] : Fin 2 → IVec S16 32) a x).toNat < S512x128.size a)
instance k1_chk377.dec : ∀ (v922 : IVec S16 32) (v1108 : IVec S16 32), Decidable (k1_chk377 v922 v1108) := fun v922 v1108 => decidable_of_iff' _ (Iff.of_eq (k1_chk377.eq_1 v922 v1108))
theorem k1_idx377_inb : ∀ (v922 : IVec S16 32) (v1108 : IVec S16 32) (k1_hw377 : k1_chk377 v922 v1108), ∀ a x, ((![v922, v1108] : Fin 2 → IVec S16 32) a x).toNat < S512x128.size a := fun v922 v1108 k1_hw377 => k1_hw377

def k1_chk378 (v922 : IVec S16 32) (v1107 : IVec S16 32) : Prop :=
  (∀ a x, ((![v1107, v922] : Fin 2 → IVec S16 32) a x).toNat < S64x512.size a)
instance k1_chk378.dec : ∀ (v922 : IVec S16 32) (v1107 : IVec S16 32), Decidable (k1_chk378 v922 v1107) := fun v922 v1107 => decidable_of_iff' _ (Iff.of_eq (k1_chk378.eq_1 v922 v1107))
theorem k1_idx378_inb : ∀ (v922 : IVec S16 32) (v1107 : IVec S16 32) (k1_hw378 : k1_chk378 v922 v1107), ∀ a x, ((![v1107, v922] : Fin 2 → IVec S16 32) a x).toNat < S64x512.size a := fun v922 v1107 k1_hw378 => k1_hw378

def k1_chk379 (v922 : IVec S16 32) (v1111 : IVec S16 32) : Prop :=
  (∀ a x, ((![v922, v1111] : Fin 2 → IVec S16 32) a x).toNat < S512x128.size a)
instance k1_chk379.dec : ∀ (v922 : IVec S16 32) (v1111 : IVec S16 32), Decidable (k1_chk379 v922 v1111) := fun v922 v1111 => decidable_of_iff' _ (Iff.of_eq (k1_chk379.eq_1 v922 v1111))
theorem k1_idx379_inb : ∀ (v922 : IVec S16 32) (v1111 : IVec S16 32) (k1_hw379 : k1_chk379 v922 v1111), ∀ a x, ((![v922, v1111] : Fin 2 → IVec S16 32) a x).toNat < S512x128.size a := fun v922 v1111 k1_hw379 => k1_hw379

def k1_chk380 (v922 : IVec S16 32) (v1110 : IVec S16 32) : Prop :=
  (∀ a x, ((![v1110, v922] : Fin 2 → IVec S16 32) a x).toNat < S64x512.size a)
instance k1_chk380.dec : ∀ (v922 : IVec S16 32) (v1110 : IVec S16 32), Decidable (k1_chk380 v922 v1110) := fun v922 v1110 => decidable_of_iff' _ (Iff.of_eq (k1_chk380.eq_1 v922 v1110))
theorem k1_idx380_inb : ∀ (v922 : IVec S16 32) (v1110 : IVec S16 32) (k1_hw380 : k1_chk380 v922 v1110), ∀ a x, ((![v1110, v922] : Fin 2 → IVec S16 32) a x).toNat < S64x512.size a := fun v922 v1110 k1_hw380 => k1_hw380

def k1_chk381 (v922 : IVec S16 32) (v1114 : IVec S16 32) : Prop :=
  (∀ a x, ((![v922, v1114] : Fin 2 → IVec S16 32) a x).toNat < S512x128.size a)
instance k1_chk381.dec : ∀ (v922 : IVec S16 32) (v1114 : IVec S16 32), Decidable (k1_chk381 v922 v1114) := fun v922 v1114 => decidable_of_iff' _ (Iff.of_eq (k1_chk381.eq_1 v922 v1114))
theorem k1_idx381_inb : ∀ (v922 : IVec S16 32) (v1114 : IVec S16 32) (k1_hw381 : k1_chk381 v922 v1114), ∀ a x, ((![v922, v1114] : Fin 2 → IVec S16 32) a x).toNat < S512x128.size a := fun v922 v1114 k1_hw381 => k1_hw381

def k1_chk382 (v922 : IVec S16 32) (v1113 : IVec S16 32) : Prop :=
  (∀ a x, ((![v1113, v922] : Fin 2 → IVec S16 32) a x).toNat < S64x512.size a)
instance k1_chk382.dec : ∀ (v922 : IVec S16 32) (v1113 : IVec S16 32), Decidable (k1_chk382 v922 v1113) := fun v922 v1113 => decidable_of_iff' _ (Iff.of_eq (k1_chk382.eq_1 v922 v1113))
theorem k1_idx382_inb : ∀ (v922 : IVec S16 32) (v1113 : IVec S16 32) (k1_hw382 : k1_chk382 v922 v1113), ∀ a x, ((![v1113, v922] : Fin 2 → IVec S16 32) a x).toNat < S64x512.size a := fun v922 v1113 k1_hw382 => k1_hw382

def k1_chk383 (v922 : IVec S16 32) (v1117 : IVec S16 32) : Prop :=
  (∀ a x, ((![v922, v1117] : Fin 2 → IVec S16 32) a x).toNat < S512x128.size a)
instance k1_chk383.dec : ∀ (v922 : IVec S16 32) (v1117 : IVec S16 32), Decidable (k1_chk383 v922 v1117) := fun v922 v1117 => decidable_of_iff' _ (Iff.of_eq (k1_chk383.eq_1 v922 v1117))
theorem k1_idx383_inb : ∀ (v922 : IVec S16 32) (v1117 : IVec S16 32) (k1_hw383 : k1_chk383 v922 v1117), ∀ a x, ((![v922, v1117] : Fin 2 → IVec S16 32) a x).toNat < S512x128.size a := fun v922 v1117 k1_hw383 => k1_hw383

def k1_chk384 (v922 : IVec S16 32) (v1116 : IVec S16 32) : Prop :=
  (∀ a x, ((![v1116, v922] : Fin 2 → IVec S16 32) a x).toNat < S64x512.size a)
instance k1_chk384.dec : ∀ (v922 : IVec S16 32) (v1116 : IVec S16 32), Decidable (k1_chk384 v922 v1116) := fun v922 v1116 => decidable_of_iff' _ (Iff.of_eq (k1_chk384.eq_1 v922 v1116))
theorem k1_idx384_inb : ∀ (v922 : IVec S16 32) (v1116 : IVec S16 32) (k1_hw384 : k1_chk384 v922 v1116), ∀ a x, ((![v1116, v922] : Fin 2 → IVec S16 32) a x).toNat < S64x512.size a := fun v922 v1116 k1_hw384 => k1_hw384
def k1_off5 (k1_t1 : Fin k1_t1_loop.trips) : Fin 1 → Nat :=
  let c0_i32_254 : BitVec 32 := 0#32
  let c1_i32_255 : BitVec 32 := 1#32
  let arg11 : BitVec 32 := Scf.iv c0_i32_254 c1_i32_255 k1_t1
  let c128_i32_405 : BitVec 32 := 128#32
  let v1123 : BitVec 32 := Scalar.muli arg11 c128_i32_405
  let c48_i32_406 : BitVec 32 := 48#32
  let v1124 : BitVec 32 := Scalar.addi v1123 c48_i32_406
  let v1125 : Index := Scalar.indexCast v1124
  ![v1125.toNat]

def k1_chk385 (v1122 : IVec S16 32) (v1128 : IVec S16 32) : Prop :=
  (∀ a x, ((![v1122, v1128] : Fin 2 → IVec S16 32) a x).toNat < S512x128.size a)
instance k1_chk385.dec : ∀ (v1122 : IVec S16 32) (v1128 : IVec S16 32), Decidable (k1_chk385 v1122 v1128) := fun v1122 v1128 => decidable_of_iff' _ (Iff.of_eq (k1_chk385.eq_1 v1122 v1128))
theorem k1_idx385_inb : ∀ (v1122 : IVec S16 32) (v1128 : IVec S16 32) (k1_hw385 : k1_chk385 v1122 v1128), ∀ a x, ((![v1122, v1128] : Fin 2 → IVec S16 32) a x).toNat < S512x128.size a := fun v1122 v1128 k1_hw385 => k1_hw385

def k1_chk386 (v1122 : IVec S16 32) (v1127 : IVec S16 32) : Prop :=
  (∀ a x, ((![v1127, v1122] : Fin 2 → IVec S16 32) a x).toNat < S64x512.size a)
instance k1_chk386.dec : ∀ (v1122 : IVec S16 32) (v1127 : IVec S16 32), Decidable (k1_chk386 v1122 v1127) := fun v1122 v1127 => decidable_of_iff' _ (Iff.of_eq (k1_chk386.eq_1 v1122 v1127))
theorem k1_idx386_inb : ∀ (v1122 : IVec S16 32) (v1127 : IVec S16 32) (k1_hw386 : k1_chk386 v1122 v1127), ∀ a x, ((![v1127, v1122] : Fin 2 → IVec S16 32) a x).toNat < S64x512.size a := fun v1122 v1127 k1_hw386 => k1_hw386

def k1_chk387 (v1122 : IVec S16 32) (v1131 : IVec S16 32) : Prop :=
  (∀ a x, ((![v1122, v1131] : Fin 2 → IVec S16 32) a x).toNat < S512x128.size a)
instance k1_chk387.dec : ∀ (v1122 : IVec S16 32) (v1131 : IVec S16 32), Decidable (k1_chk387 v1122 v1131) := fun v1122 v1131 => decidable_of_iff' _ (Iff.of_eq (k1_chk387.eq_1 v1122 v1131))
theorem k1_idx387_inb : ∀ (v1122 : IVec S16 32) (v1131 : IVec S16 32) (k1_hw387 : k1_chk387 v1122 v1131), ∀ a x, ((![v1122, v1131] : Fin 2 → IVec S16 32) a x).toNat < S512x128.size a := fun v1122 v1131 k1_hw387 => k1_hw387

def k1_chk388 (v1122 : IVec S16 32) (v1130 : IVec S16 32) : Prop :=
  (∀ a x, ((![v1130, v1122] : Fin 2 → IVec S16 32) a x).toNat < S64x512.size a)
instance k1_chk388.dec : ∀ (v1122 : IVec S16 32) (v1130 : IVec S16 32), Decidable (k1_chk388 v1122 v1130) := fun v1122 v1130 => decidable_of_iff' _ (Iff.of_eq (k1_chk388.eq_1 v1122 v1130))
theorem k1_idx388_inb : ∀ (v1122 : IVec S16 32) (v1130 : IVec S16 32) (k1_hw388 : k1_chk388 v1122 v1130), ∀ a x, ((![v1130, v1122] : Fin 2 → IVec S16 32) a x).toNat < S64x512.size a := fun v1122 v1130 k1_hw388 => k1_hw388

def k1_chk389 (v1122 : IVec S16 32) (v1134 : IVec S16 32) : Prop :=
  (∀ a x, ((![v1122, v1134] : Fin 2 → IVec S16 32) a x).toNat < S512x128.size a)
instance k1_chk389.dec : ∀ (v1122 : IVec S16 32) (v1134 : IVec S16 32), Decidable (k1_chk389 v1122 v1134) := fun v1122 v1134 => decidable_of_iff' _ (Iff.of_eq (k1_chk389.eq_1 v1122 v1134))
theorem k1_idx389_inb : ∀ (v1122 : IVec S16 32) (v1134 : IVec S16 32) (k1_hw389 : k1_chk389 v1122 v1134), ∀ a x, ((![v1122, v1134] : Fin 2 → IVec S16 32) a x).toNat < S512x128.size a := fun v1122 v1134 k1_hw389 => k1_hw389

def k1_chk390 (v1122 : IVec S16 32) (v1133 : IVec S16 32) : Prop :=
  (∀ a x, ((![v1133, v1122] : Fin 2 → IVec S16 32) a x).toNat < S64x512.size a)
instance k1_chk390.dec : ∀ (v1122 : IVec S16 32) (v1133 : IVec S16 32), Decidable (k1_chk390 v1122 v1133) := fun v1122 v1133 => decidable_of_iff' _ (Iff.of_eq (k1_chk390.eq_1 v1122 v1133))
theorem k1_idx390_inb : ∀ (v1122 : IVec S16 32) (v1133 : IVec S16 32) (k1_hw390 : k1_chk390 v1122 v1133), ∀ a x, ((![v1133, v1122] : Fin 2 → IVec S16 32) a x).toNat < S64x512.size a := fun v1122 v1133 k1_hw390 => k1_hw390

def k1_chk391 (v1122 : IVec S16 32) (v1137 : IVec S16 32) : Prop :=
  (∀ a x, ((![v1122, v1137] : Fin 2 → IVec S16 32) a x).toNat < S512x128.size a)
instance k1_chk391.dec : ∀ (v1122 : IVec S16 32) (v1137 : IVec S16 32), Decidable (k1_chk391 v1122 v1137) := fun v1122 v1137 => decidable_of_iff' _ (Iff.of_eq (k1_chk391.eq_1 v1122 v1137))
theorem k1_idx391_inb : ∀ (v1122 : IVec S16 32) (v1137 : IVec S16 32) (k1_hw391 : k1_chk391 v1122 v1137), ∀ a x, ((![v1122, v1137] : Fin 2 → IVec S16 32) a x).toNat < S512x128.size a := fun v1122 v1137 k1_hw391 => k1_hw391

def k1_chk392 (v1122 : IVec S16 32) (v1136 : IVec S16 32) : Prop :=
  (∀ a x, ((![v1136, v1122] : Fin 2 → IVec S16 32) a x).toNat < S64x512.size a)
instance k1_chk392.dec : ∀ (v1122 : IVec S16 32) (v1136 : IVec S16 32), Decidable (k1_chk392 v1122 v1136) := fun v1122 v1136 => decidable_of_iff' _ (Iff.of_eq (k1_chk392.eq_1 v1122 v1136))
theorem k1_idx392_inb : ∀ (v1122 : IVec S16 32) (v1136 : IVec S16 32) (k1_hw392 : k1_chk392 v1122 v1136), ∀ a x, ((![v1136, v1122] : Fin 2 → IVec S16 32) a x).toNat < S64x512.size a := fun v1122 v1136 k1_hw392 => k1_hw392

def k1_chk393 (v1122 : IVec S16 32) (v1140 : IVec S16 32) : Prop :=
  (∀ a x, ((![v1122, v1140] : Fin 2 → IVec S16 32) a x).toNat < S512x128.size a)
instance k1_chk393.dec : ∀ (v1122 : IVec S16 32) (v1140 : IVec S16 32), Decidable (k1_chk393 v1122 v1140) := fun v1122 v1140 => decidable_of_iff' _ (Iff.of_eq (k1_chk393.eq_1 v1122 v1140))
theorem k1_idx393_inb : ∀ (v1122 : IVec S16 32) (v1140 : IVec S16 32) (k1_hw393 : k1_chk393 v1122 v1140), ∀ a x, ((![v1122, v1140] : Fin 2 → IVec S16 32) a x).toNat < S512x128.size a := fun v1122 v1140 k1_hw393 => k1_hw393

def k1_chk394 (v1122 : IVec S16 32) (v1139 : IVec S16 32) : Prop :=
  (∀ a x, ((![v1139, v1122] : Fin 2 → IVec S16 32) a x).toNat < S64x512.size a)
instance k1_chk394.dec : ∀ (v1122 : IVec S16 32) (v1139 : IVec S16 32), Decidable (k1_chk394 v1122 v1139) := fun v1122 v1139 => decidable_of_iff' _ (Iff.of_eq (k1_chk394.eq_1 v1122 v1139))
theorem k1_idx394_inb : ∀ (v1122 : IVec S16 32) (v1139 : IVec S16 32) (k1_hw394 : k1_chk394 v1122 v1139), ∀ a x, ((![v1139, v1122] : Fin 2 → IVec S16 32) a x).toNat < S64x512.size a := fun v1122 v1139 k1_hw394 => k1_hw394

def k1_chk395 (v1122 : IVec S16 32) (v1143 : IVec S16 32) : Prop :=
  (∀ a x, ((![v1122, v1143] : Fin 2 → IVec S16 32) a x).toNat < S512x128.size a)
instance k1_chk395.dec : ∀ (v1122 : IVec S16 32) (v1143 : IVec S16 32), Decidable (k1_chk395 v1122 v1143) := fun v1122 v1143 => decidable_of_iff' _ (Iff.of_eq (k1_chk395.eq_1 v1122 v1143))
theorem k1_idx395_inb : ∀ (v1122 : IVec S16 32) (v1143 : IVec S16 32) (k1_hw395 : k1_chk395 v1122 v1143), ∀ a x, ((![v1122, v1143] : Fin 2 → IVec S16 32) a x).toNat < S512x128.size a := fun v1122 v1143 k1_hw395 => k1_hw395

def k1_chk396 (v1122 : IVec S16 32) (v1142 : IVec S16 32) : Prop :=
  (∀ a x, ((![v1142, v1122] : Fin 2 → IVec S16 32) a x).toNat < S64x512.size a)
instance k1_chk396.dec : ∀ (v1122 : IVec S16 32) (v1142 : IVec S16 32), Decidable (k1_chk396 v1122 v1142) := fun v1122 v1142 => decidable_of_iff' _ (Iff.of_eq (k1_chk396.eq_1 v1122 v1142))
theorem k1_idx396_inb : ∀ (v1122 : IVec S16 32) (v1142 : IVec S16 32) (k1_hw396 : k1_chk396 v1122 v1142), ∀ a x, ((![v1142, v1122] : Fin 2 → IVec S16 32) a x).toNat < S64x512.size a := fun v1122 v1142 k1_hw396 => k1_hw396

def k1_chk397 (v1122 : IVec S16 32) (v1146 : IVec S16 32) : Prop :=
  (∀ a x, ((![v1122, v1146] : Fin 2 → IVec S16 32) a x).toNat < S512x128.size a)
instance k1_chk397.dec : ∀ (v1122 : IVec S16 32) (v1146 : IVec S16 32), Decidable (k1_chk397 v1122 v1146) := fun v1122 v1146 => decidable_of_iff' _ (Iff.of_eq (k1_chk397.eq_1 v1122 v1146))
theorem k1_idx397_inb : ∀ (v1122 : IVec S16 32) (v1146 : IVec S16 32) (k1_hw397 : k1_chk397 v1122 v1146), ∀ a x, ((![v1122, v1146] : Fin 2 → IVec S16 32) a x).toNat < S512x128.size a := fun v1122 v1146 k1_hw397 => k1_hw397

def k1_chk398 (v1122 : IVec S16 32) (v1145 : IVec S16 32) : Prop :=
  (∀ a x, ((![v1145, v1122] : Fin 2 → IVec S16 32) a x).toNat < S64x512.size a)
instance k1_chk398.dec : ∀ (v1122 : IVec S16 32) (v1145 : IVec S16 32), Decidable (k1_chk398 v1122 v1145) := fun v1122 v1145 => decidable_of_iff' _ (Iff.of_eq (k1_chk398.eq_1 v1122 v1145))
theorem k1_idx398_inb : ∀ (v1122 : IVec S16 32) (v1145 : IVec S16 32) (k1_hw398 : k1_chk398 v1122 v1145), ∀ a x, ((![v1145, v1122] : Fin 2 → IVec S16 32) a x).toNat < S64x512.size a := fun v1122 v1145 k1_hw398 => k1_hw398

def k1_chk399 (v1122 : IVec S16 32) (v1149 : IVec S16 32) : Prop :=
  (∀ a x, ((![v1122, v1149] : Fin 2 → IVec S16 32) a x).toNat < S512x128.size a)
instance k1_chk399.dec : ∀ (v1122 : IVec S16 32) (v1149 : IVec S16 32), Decidable (k1_chk399 v1122 v1149) := fun v1122 v1149 => decidable_of_iff' _ (Iff.of_eq (k1_chk399.eq_1 v1122 v1149))
theorem k1_idx399_inb : ∀ (v1122 : IVec S16 32) (v1149 : IVec S16 32) (k1_hw399 : k1_chk399 v1122 v1149), ∀ a x, ((![v1122, v1149] : Fin 2 → IVec S16 32) a x).toNat < S512x128.size a := fun v1122 v1149 k1_hw399 => k1_hw399

def k1_chk400 (v1122 : IVec S16 32) (v1148 : IVec S16 32) : Prop :=
  (∀ a x, ((![v1148, v1122] : Fin 2 → IVec S16 32) a x).toNat < S64x512.size a)
instance k1_chk400.dec : ∀ (v1122 : IVec S16 32) (v1148 : IVec S16 32), Decidable (k1_chk400 v1122 v1148) := fun v1122 v1148 => decidable_of_iff' _ (Iff.of_eq (k1_chk400.eq_1 v1122 v1148))
theorem k1_idx400_inb : ∀ (v1122 : IVec S16 32) (v1148 : IVec S16 32) (k1_hw400 : k1_chk400 v1122 v1148), ∀ a x, ((![v1148, v1122] : Fin 2 → IVec S16 32) a x).toNat < S64x512.size a := fun v1122 v1148 k1_hw400 => k1_hw400

def k1_chk401 (v1122 : IVec S16 32) (v1152 : IVec S16 32) : Prop :=
  (∀ a x, ((![v1122, v1152] : Fin 2 → IVec S16 32) a x).toNat < S512x128.size a)
instance k1_chk401.dec : ∀ (v1122 : IVec S16 32) (v1152 : IVec S16 32), Decidable (k1_chk401 v1122 v1152) := fun v1122 v1152 => decidable_of_iff' _ (Iff.of_eq (k1_chk401.eq_1 v1122 v1152))
theorem k1_idx401_inb : ∀ (v1122 : IVec S16 32) (v1152 : IVec S16 32) (k1_hw401 : k1_chk401 v1122 v1152), ∀ a x, ((![v1122, v1152] : Fin 2 → IVec S16 32) a x).toNat < S512x128.size a := fun v1122 v1152 k1_hw401 => k1_hw401

def k1_chk402 (v1122 : IVec S16 32) (v1151 : IVec S16 32) : Prop :=
  (∀ a x, ((![v1151, v1122] : Fin 2 → IVec S16 32) a x).toNat < S64x512.size a)
instance k1_chk402.dec : ∀ (v1122 : IVec S16 32) (v1151 : IVec S16 32), Decidable (k1_chk402 v1122 v1151) := fun v1122 v1151 => decidable_of_iff' _ (Iff.of_eq (k1_chk402.eq_1 v1122 v1151))
theorem k1_idx402_inb : ∀ (v1122 : IVec S16 32) (v1151 : IVec S16 32) (k1_hw402 : k1_chk402 v1122 v1151), ∀ a x, ((![v1151, v1122] : Fin 2 → IVec S16 32) a x).toNat < S64x512.size a := fun v1122 v1151 k1_hw402 => k1_hw402

def k1_chk403 (v1122 : IVec S16 32) (v1155 : IVec S16 32) : Prop :=
  (∀ a x, ((![v1122, v1155] : Fin 2 → IVec S16 32) a x).toNat < S512x128.size a)
instance k1_chk403.dec : ∀ (v1122 : IVec S16 32) (v1155 : IVec S16 32), Decidable (k1_chk403 v1122 v1155) := fun v1122 v1155 => decidable_of_iff' _ (Iff.of_eq (k1_chk403.eq_1 v1122 v1155))
theorem k1_idx403_inb : ∀ (v1122 : IVec S16 32) (v1155 : IVec S16 32) (k1_hw403 : k1_chk403 v1122 v1155), ∀ a x, ((![v1122, v1155] : Fin 2 → IVec S16 32) a x).toNat < S512x128.size a := fun v1122 v1155 k1_hw403 => k1_hw403

def k1_chk404 (v1122 : IVec S16 32) (v1154 : IVec S16 32) : Prop :=
  (∀ a x, ((![v1154, v1122] : Fin 2 → IVec S16 32) a x).toNat < S64x512.size a)
instance k1_chk404.dec : ∀ (v1122 : IVec S16 32) (v1154 : IVec S16 32), Decidable (k1_chk404 v1122 v1154) := fun v1122 v1154 => decidable_of_iff' _ (Iff.of_eq (k1_chk404.eq_1 v1122 v1154))
theorem k1_idx404_inb : ∀ (v1122 : IVec S16 32) (v1154 : IVec S16 32) (k1_hw404 : k1_chk404 v1122 v1154), ∀ a x, ((![v1154, v1122] : Fin 2 → IVec S16 32) a x).toNat < S64x512.size a := fun v1122 v1154 k1_hw404 => k1_hw404

def k1_chk405 (v1122 : IVec S16 32) (v1158 : IVec S16 32) : Prop :=
  (∀ a x, ((![v1122, v1158] : Fin 2 → IVec S16 32) a x).toNat < S512x128.size a)
instance k1_chk405.dec : ∀ (v1122 : IVec S16 32) (v1158 : IVec S16 32), Decidable (k1_chk405 v1122 v1158) := fun v1122 v1158 => decidable_of_iff' _ (Iff.of_eq (k1_chk405.eq_1 v1122 v1158))
theorem k1_idx405_inb : ∀ (v1122 : IVec S16 32) (v1158 : IVec S16 32) (k1_hw405 : k1_chk405 v1122 v1158), ∀ a x, ((![v1122, v1158] : Fin 2 → IVec S16 32) a x).toNat < S512x128.size a := fun v1122 v1158 k1_hw405 => k1_hw405

def k1_chk406 (v1122 : IVec S16 32) (v1157 : IVec S16 32) : Prop :=
  (∀ a x, ((![v1157, v1122] : Fin 2 → IVec S16 32) a x).toNat < S64x512.size a)
instance k1_chk406.dec : ∀ (v1122 : IVec S16 32) (v1157 : IVec S16 32), Decidable (k1_chk406 v1122 v1157) := fun v1122 v1157 => decidable_of_iff' _ (Iff.of_eq (k1_chk406.eq_1 v1122 v1157))
theorem k1_idx406_inb : ∀ (v1122 : IVec S16 32) (v1157 : IVec S16 32) (k1_hw406 : k1_chk406 v1122 v1157), ∀ a x, ((![v1157, v1122] : Fin 2 → IVec S16 32) a x).toNat < S64x512.size a := fun v1122 v1157 k1_hw406 => k1_hw406

def k1_chk407 (v1122 : IVec S16 32) (v1161 : IVec S16 32) : Prop :=
  (∀ a x, ((![v1122, v1161] : Fin 2 → IVec S16 32) a x).toNat < S512x128.size a)
instance k1_chk407.dec : ∀ (v1122 : IVec S16 32) (v1161 : IVec S16 32), Decidable (k1_chk407 v1122 v1161) := fun v1122 v1161 => decidable_of_iff' _ (Iff.of_eq (k1_chk407.eq_1 v1122 v1161))
theorem k1_idx407_inb : ∀ (v1122 : IVec S16 32) (v1161 : IVec S16 32) (k1_hw407 : k1_chk407 v1122 v1161), ∀ a x, ((![v1122, v1161] : Fin 2 → IVec S16 32) a x).toNat < S512x128.size a := fun v1122 v1161 k1_hw407 => k1_hw407

def k1_chk408 (v1122 : IVec S16 32) (v1160 : IVec S16 32) : Prop :=
  (∀ a x, ((![v1160, v1122] : Fin 2 → IVec S16 32) a x).toNat < S64x512.size a)
instance k1_chk408.dec : ∀ (v1122 : IVec S16 32) (v1160 : IVec S16 32), Decidable (k1_chk408 v1122 v1160) := fun v1122 v1160 => decidable_of_iff' _ (Iff.of_eq (k1_chk408.eq_1 v1122 v1160))
theorem k1_idx408_inb : ∀ (v1122 : IVec S16 32) (v1160 : IVec S16 32) (k1_hw408 : k1_chk408 v1122 v1160), ∀ a x, ((![v1160, v1122] : Fin 2 → IVec S16 32) a x).toNat < S64x512.size a := fun v1122 v1160 k1_hw408 => k1_hw408

def k1_chk409 (v1122 : IVec S16 32) (v1164 : IVec S16 32) : Prop :=
  (∀ a x, ((![v1122, v1164] : Fin 2 → IVec S16 32) a x).toNat < S512x128.size a)
instance k1_chk409.dec : ∀ (v1122 : IVec S16 32) (v1164 : IVec S16 32), Decidable (k1_chk409 v1122 v1164) := fun v1122 v1164 => decidable_of_iff' _ (Iff.of_eq (k1_chk409.eq_1 v1122 v1164))
theorem k1_idx409_inb : ∀ (v1122 : IVec S16 32) (v1164 : IVec S16 32) (k1_hw409 : k1_chk409 v1122 v1164), ∀ a x, ((![v1122, v1164] : Fin 2 → IVec S16 32) a x).toNat < S512x128.size a := fun v1122 v1164 k1_hw409 => k1_hw409

def k1_chk410 (v1122 : IVec S16 32) (v1163 : IVec S16 32) : Prop :=
  (∀ a x, ((![v1163, v1122] : Fin 2 → IVec S16 32) a x).toNat < S64x512.size a)
instance k1_chk410.dec : ∀ (v1122 : IVec S16 32) (v1163 : IVec S16 32), Decidable (k1_chk410 v1122 v1163) := fun v1122 v1163 => decidable_of_iff' _ (Iff.of_eq (k1_chk410.eq_1 v1122 v1163))
theorem k1_idx410_inb : ∀ (v1122 : IVec S16 32) (v1163 : IVec S16 32) (k1_hw410 : k1_chk410 v1122 v1163), ∀ a x, ((![v1163, v1122] : Fin 2 → IVec S16 32) a x).toNat < S64x512.size a := fun v1122 v1163 k1_hw410 => k1_hw410

def k1_chk411 (v1122 : IVec S16 32) (v1167 : IVec S16 32) : Prop :=
  (∀ a x, ((![v1122, v1167] : Fin 2 → IVec S16 32) a x).toNat < S512x128.size a)
instance k1_chk411.dec : ∀ (v1122 : IVec S16 32) (v1167 : IVec S16 32), Decidable (k1_chk411 v1122 v1167) := fun v1122 v1167 => decidable_of_iff' _ (Iff.of_eq (k1_chk411.eq_1 v1122 v1167))
theorem k1_idx411_inb : ∀ (v1122 : IVec S16 32) (v1167 : IVec S16 32) (k1_hw411 : k1_chk411 v1122 v1167), ∀ a x, ((![v1122, v1167] : Fin 2 → IVec S16 32) a x).toNat < S512x128.size a := fun v1122 v1167 k1_hw411 => k1_hw411

def k1_chk412 (v1122 : IVec S16 32) (v1166 : IVec S16 32) : Prop :=
  (∀ a x, ((![v1166, v1122] : Fin 2 → IVec S16 32) a x).toNat < S64x512.size a)
instance k1_chk412.dec : ∀ (v1122 : IVec S16 32) (v1166 : IVec S16 32), Decidable (k1_chk412 v1122 v1166) := fun v1122 v1166 => decidable_of_iff' _ (Iff.of_eq (k1_chk412.eq_1 v1122 v1166))
theorem k1_idx412_inb : ∀ (v1122 : IVec S16 32) (v1166 : IVec S16 32) (k1_hw412 : k1_chk412 v1122 v1166), ∀ a x, ((![v1166, v1122] : Fin 2 → IVec S16 32) a x).toNat < S64x512.size a := fun v1122 v1166 k1_hw412 => k1_hw412

def k1_chk413 (v1122 : IVec S16 32) (v1170 : IVec S16 32) : Prop :=
  (∀ a x, ((![v1122, v1170] : Fin 2 → IVec S16 32) a x).toNat < S512x128.size a)
instance k1_chk413.dec : ∀ (v1122 : IVec S16 32) (v1170 : IVec S16 32), Decidable (k1_chk413 v1122 v1170) := fun v1122 v1170 => decidable_of_iff' _ (Iff.of_eq (k1_chk413.eq_1 v1122 v1170))
theorem k1_idx413_inb : ∀ (v1122 : IVec S16 32) (v1170 : IVec S16 32) (k1_hw413 : k1_chk413 v1122 v1170), ∀ a x, ((![v1122, v1170] : Fin 2 → IVec S16 32) a x).toNat < S512x128.size a := fun v1122 v1170 k1_hw413 => k1_hw413

def k1_chk414 (v1122 : IVec S16 32) (v1169 : IVec S16 32) : Prop :=
  (∀ a x, ((![v1169, v1122] : Fin 2 → IVec S16 32) a x).toNat < S64x512.size a)
instance k1_chk414.dec : ∀ (v1122 : IVec S16 32) (v1169 : IVec S16 32), Decidable (k1_chk414 v1122 v1169) := fun v1122 v1169 => decidable_of_iff' _ (Iff.of_eq (k1_chk414.eq_1 v1122 v1169))
theorem k1_idx414_inb : ∀ (v1122 : IVec S16 32) (v1169 : IVec S16 32) (k1_hw414 : k1_chk414 v1122 v1169), ∀ a x, ((![v1169, v1122] : Fin 2 → IVec S16 32) a x).toNat < S64x512.size a := fun v1122 v1169 k1_hw414 => k1_hw414

def k1_chk415 (v1122 : IVec S16 32) (v1173 : IVec S16 32) : Prop :=
  (∀ a x, ((![v1122, v1173] : Fin 2 → IVec S16 32) a x).toNat < S512x128.size a)
instance k1_chk415.dec : ∀ (v1122 : IVec S16 32) (v1173 : IVec S16 32), Decidable (k1_chk415 v1122 v1173) := fun v1122 v1173 => decidable_of_iff' _ (Iff.of_eq (k1_chk415.eq_1 v1122 v1173))
theorem k1_idx415_inb : ∀ (v1122 : IVec S16 32) (v1173 : IVec S16 32) (k1_hw415 : k1_chk415 v1122 v1173), ∀ a x, ((![v1122, v1173] : Fin 2 → IVec S16 32) a x).toNat < S512x128.size a := fun v1122 v1173 k1_hw415 => k1_hw415

def k1_chk416 (v1122 : IVec S16 32) (v1172 : IVec S16 32) : Prop :=
  (∀ a x, ((![v1172, v1122] : Fin 2 → IVec S16 32) a x).toNat < S64x512.size a)
instance k1_chk416.dec : ∀ (v1122 : IVec S16 32) (v1172 : IVec S16 32), Decidable (k1_chk416 v1122 v1172) := fun v1122 v1172 => decidable_of_iff' _ (Iff.of_eq (k1_chk416.eq_1 v1122 v1172))
theorem k1_idx416_inb : ∀ (v1122 : IVec S16 32) (v1172 : IVec S16 32) (k1_hw416 : k1_chk416 v1122 v1172), ∀ a x, ((![v1172, v1122] : Fin 2 → IVec S16 32) a x).toNat < S64x512.size a := fun v1122 v1172 k1_hw416 => k1_hw416

def k1_chk417 (v1122 : IVec S16 32) (v1176 : IVec S16 32) : Prop :=
  (∀ a x, ((![v1122, v1176] : Fin 2 → IVec S16 32) a x).toNat < S512x128.size a)
instance k1_chk417.dec : ∀ (v1122 : IVec S16 32) (v1176 : IVec S16 32), Decidable (k1_chk417 v1122 v1176) := fun v1122 v1176 => decidable_of_iff' _ (Iff.of_eq (k1_chk417.eq_1 v1122 v1176))
theorem k1_idx417_inb : ∀ (v1122 : IVec S16 32) (v1176 : IVec S16 32) (k1_hw417 : k1_chk417 v1122 v1176), ∀ a x, ((![v1122, v1176] : Fin 2 → IVec S16 32) a x).toNat < S512x128.size a := fun v1122 v1176 k1_hw417 => k1_hw417

def k1_chk418 (v1122 : IVec S16 32) (v1175 : IVec S16 32) : Prop :=
  (∀ a x, ((![v1175, v1122] : Fin 2 → IVec S16 32) a x).toNat < S64x512.size a)
instance k1_chk418.dec : ∀ (v1122 : IVec S16 32) (v1175 : IVec S16 32), Decidable (k1_chk418 v1122 v1175) := fun v1122 v1175 => decidable_of_iff' _ (Iff.of_eq (k1_chk418.eq_1 v1122 v1175))
theorem k1_idx418_inb : ∀ (v1122 : IVec S16 32) (v1175 : IVec S16 32) (k1_hw418 : k1_chk418 v1122 v1175), ∀ a x, ((![v1175, v1122] : Fin 2 → IVec S16 32) a x).toNat < S64x512.size a := fun v1122 v1175 k1_hw418 => k1_hw418

def k1_chk419 (v1122 : IVec S16 32) (v1179 : IVec S16 32) : Prop :=
  (∀ a x, ((![v1122, v1179] : Fin 2 → IVec S16 32) a x).toNat < S512x128.size a)
instance k1_chk419.dec : ∀ (v1122 : IVec S16 32) (v1179 : IVec S16 32), Decidable (k1_chk419 v1122 v1179) := fun v1122 v1179 => decidable_of_iff' _ (Iff.of_eq (k1_chk419.eq_1 v1122 v1179))
theorem k1_idx419_inb : ∀ (v1122 : IVec S16 32) (v1179 : IVec S16 32) (k1_hw419 : k1_chk419 v1122 v1179), ∀ a x, ((![v1122, v1179] : Fin 2 → IVec S16 32) a x).toNat < S512x128.size a := fun v1122 v1179 k1_hw419 => k1_hw419

def k1_chk420 (v1122 : IVec S16 32) (v1178 : IVec S16 32) : Prop :=
  (∀ a x, ((![v1178, v1122] : Fin 2 → IVec S16 32) a x).toNat < S64x512.size a)
instance k1_chk420.dec : ∀ (v1122 : IVec S16 32) (v1178 : IVec S16 32), Decidable (k1_chk420 v1122 v1178) := fun v1122 v1178 => decidable_of_iff' _ (Iff.of_eq (k1_chk420.eq_1 v1122 v1178))
theorem k1_idx420_inb : ∀ (v1122 : IVec S16 32) (v1178 : IVec S16 32) (k1_hw420 : k1_chk420 v1122 v1178), ∀ a x, ((![v1178, v1122] : Fin 2 → IVec S16 32) a x).toNat < S64x512.size a := fun v1122 v1178 k1_hw420 => k1_hw420

def k1_chk421 (v1122 : IVec S16 32) (v1182 : IVec S16 32) : Prop :=
  (∀ a x, ((![v1122, v1182] : Fin 2 → IVec S16 32) a x).toNat < S512x128.size a)
instance k1_chk421.dec : ∀ (v1122 : IVec S16 32) (v1182 : IVec S16 32), Decidable (k1_chk421 v1122 v1182) := fun v1122 v1182 => decidable_of_iff' _ (Iff.of_eq (k1_chk421.eq_1 v1122 v1182))
theorem k1_idx421_inb : ∀ (v1122 : IVec S16 32) (v1182 : IVec S16 32) (k1_hw421 : k1_chk421 v1122 v1182), ∀ a x, ((![v1122, v1182] : Fin 2 → IVec S16 32) a x).toNat < S512x128.size a := fun v1122 v1182 k1_hw421 => k1_hw421

def k1_chk422 (v1122 : IVec S16 32) (v1181 : IVec S16 32) : Prop :=
  (∀ a x, ((![v1181, v1122] : Fin 2 → IVec S16 32) a x).toNat < S64x512.size a)
instance k1_chk422.dec : ∀ (v1122 : IVec S16 32) (v1181 : IVec S16 32), Decidable (k1_chk422 v1122 v1181) := fun v1122 v1181 => decidable_of_iff' _ (Iff.of_eq (k1_chk422.eq_1 v1122 v1181))
theorem k1_idx422_inb : ∀ (v1122 : IVec S16 32) (v1181 : IVec S16 32) (k1_hw422 : k1_chk422 v1122 v1181), ∀ a x, ((![v1181, v1122] : Fin 2 → IVec S16 32) a x).toNat < S64x512.size a := fun v1122 v1181 k1_hw422 => k1_hw422

def k1_chk423 (v1122 : IVec S16 32) (v1185 : IVec S16 32) : Prop :=
  (∀ a x, ((![v1122, v1185] : Fin 2 → IVec S16 32) a x).toNat < S512x128.size a)
instance k1_chk423.dec : ∀ (v1122 : IVec S16 32) (v1185 : IVec S16 32), Decidable (k1_chk423 v1122 v1185) := fun v1122 v1185 => decidable_of_iff' _ (Iff.of_eq (k1_chk423.eq_1 v1122 v1185))
theorem k1_idx423_inb : ∀ (v1122 : IVec S16 32) (v1185 : IVec S16 32) (k1_hw423 : k1_chk423 v1122 v1185), ∀ a x, ((![v1122, v1185] : Fin 2 → IVec S16 32) a x).toNat < S512x128.size a := fun v1122 v1185 k1_hw423 => k1_hw423

def k1_chk424 (v1122 : IVec S16 32) (v1184 : IVec S16 32) : Prop :=
  (∀ a x, ((![v1184, v1122] : Fin 2 → IVec S16 32) a x).toNat < S64x512.size a)
instance k1_chk424.dec : ∀ (v1122 : IVec S16 32) (v1184 : IVec S16 32), Decidable (k1_chk424 v1122 v1184) := fun v1122 v1184 => decidable_of_iff' _ (Iff.of_eq (k1_chk424.eq_1 v1122 v1184))
theorem k1_idx424_inb : ∀ (v1122 : IVec S16 32) (v1184 : IVec S16 32) (k1_hw424 : k1_chk424 v1122 v1184), ∀ a x, ((![v1184, v1122] : Fin 2 → IVec S16 32) a x).toNat < S64x512.size a := fun v1122 v1184 k1_hw424 => k1_hw424

def k1_chk425 (v1122 : IVec S16 32) (v1188 : IVec S16 32) : Prop :=
  (∀ a x, ((![v1122, v1188] : Fin 2 → IVec S16 32) a x).toNat < S512x128.size a)
instance k1_chk425.dec : ∀ (v1122 : IVec S16 32) (v1188 : IVec S16 32), Decidable (k1_chk425 v1122 v1188) := fun v1122 v1188 => decidable_of_iff' _ (Iff.of_eq (k1_chk425.eq_1 v1122 v1188))
theorem k1_idx425_inb : ∀ (v1122 : IVec S16 32) (v1188 : IVec S16 32) (k1_hw425 : k1_chk425 v1122 v1188), ∀ a x, ((![v1122, v1188] : Fin 2 → IVec S16 32) a x).toNat < S512x128.size a := fun v1122 v1188 k1_hw425 => k1_hw425

def k1_chk426 (v1122 : IVec S16 32) (v1187 : IVec S16 32) : Prop :=
  (∀ a x, ((![v1187, v1122] : Fin 2 → IVec S16 32) a x).toNat < S64x512.size a)
instance k1_chk426.dec : ∀ (v1122 : IVec S16 32) (v1187 : IVec S16 32), Decidable (k1_chk426 v1122 v1187) := fun v1122 v1187 => decidable_of_iff' _ (Iff.of_eq (k1_chk426.eq_1 v1122 v1187))
theorem k1_idx426_inb : ∀ (v1122 : IVec S16 32) (v1187 : IVec S16 32) (k1_hw426 : k1_chk426 v1122 v1187), ∀ a x, ((![v1187, v1122] : Fin 2 → IVec S16 32) a x).toNat < S64x512.size a := fun v1122 v1187 k1_hw426 => k1_hw426

def k1_chk427 (v1122 : IVec S16 32) (v1191 : IVec S16 32) : Prop :=
  (∀ a x, ((![v1122, v1191] : Fin 2 → IVec S16 32) a x).toNat < S512x128.size a)
instance k1_chk427.dec : ∀ (v1122 : IVec S16 32) (v1191 : IVec S16 32), Decidable (k1_chk427 v1122 v1191) := fun v1122 v1191 => decidable_of_iff' _ (Iff.of_eq (k1_chk427.eq_1 v1122 v1191))
theorem k1_idx427_inb : ∀ (v1122 : IVec S16 32) (v1191 : IVec S16 32) (k1_hw427 : k1_chk427 v1122 v1191), ∀ a x, ((![v1122, v1191] : Fin 2 → IVec S16 32) a x).toNat < S512x128.size a := fun v1122 v1191 k1_hw427 => k1_hw427

def k1_chk428 (v1122 : IVec S16 32) (v1190 : IVec S16 32) : Prop :=
  (∀ a x, ((![v1190, v1122] : Fin 2 → IVec S16 32) a x).toNat < S64x512.size a)
instance k1_chk428.dec : ∀ (v1122 : IVec S16 32) (v1190 : IVec S16 32), Decidable (k1_chk428 v1122 v1190) := fun v1122 v1190 => decidable_of_iff' _ (Iff.of_eq (k1_chk428.eq_1 v1122 v1190))
theorem k1_idx428_inb : ∀ (v1122 : IVec S16 32) (v1190 : IVec S16 32) (k1_hw428 : k1_chk428 v1122 v1190), ∀ a x, ((![v1190, v1122] : Fin 2 → IVec S16 32) a x).toNat < S64x512.size a := fun v1122 v1190 k1_hw428 => k1_hw428

def k1_chk429 (v1122 : IVec S16 32) (v1194 : IVec S16 32) : Prop :=
  (∀ a x, ((![v1122, v1194] : Fin 2 → IVec S16 32) a x).toNat < S512x128.size a)
instance k1_chk429.dec : ∀ (v1122 : IVec S16 32) (v1194 : IVec S16 32), Decidable (k1_chk429 v1122 v1194) := fun v1122 v1194 => decidable_of_iff' _ (Iff.of_eq (k1_chk429.eq_1 v1122 v1194))
theorem k1_idx429_inb : ∀ (v1122 : IVec S16 32) (v1194 : IVec S16 32) (k1_hw429 : k1_chk429 v1122 v1194), ∀ a x, ((![v1122, v1194] : Fin 2 → IVec S16 32) a x).toNat < S512x128.size a := fun v1122 v1194 k1_hw429 => k1_hw429

def k1_chk430 (v1122 : IVec S16 32) (v1193 : IVec S16 32) : Prop :=
  (∀ a x, ((![v1193, v1122] : Fin 2 → IVec S16 32) a x).toNat < S64x512.size a)
instance k1_chk430.dec : ∀ (v1122 : IVec S16 32) (v1193 : IVec S16 32), Decidable (k1_chk430 v1122 v1193) := fun v1122 v1193 => decidable_of_iff' _ (Iff.of_eq (k1_chk430.eq_1 v1122 v1193))
theorem k1_idx430_inb : ∀ (v1122 : IVec S16 32) (v1193 : IVec S16 32) (k1_hw430 : k1_chk430 v1122 v1193), ∀ a x, ((![v1193, v1122] : Fin 2 → IVec S16 32) a x).toNat < S64x512.size a := fun v1122 v1193 k1_hw430 => k1_hw430

def k1_chk431 (v1122 : IVec S16 32) (v1197 : IVec S16 32) : Prop :=
  (∀ a x, ((![v1122, v1197] : Fin 2 → IVec S16 32) a x).toNat < S512x128.size a)
instance k1_chk431.dec : ∀ (v1122 : IVec S16 32) (v1197 : IVec S16 32), Decidable (k1_chk431 v1122 v1197) := fun v1122 v1197 => decidable_of_iff' _ (Iff.of_eq (k1_chk431.eq_1 v1122 v1197))
theorem k1_idx431_inb : ∀ (v1122 : IVec S16 32) (v1197 : IVec S16 32) (k1_hw431 : k1_chk431 v1122 v1197), ∀ a x, ((![v1122, v1197] : Fin 2 → IVec S16 32) a x).toNat < S512x128.size a := fun v1122 v1197 k1_hw431 => k1_hw431

def k1_chk432 (v1122 : IVec S16 32) (v1196 : IVec S16 32) : Prop :=
  (∀ a x, ((![v1196, v1122] : Fin 2 → IVec S16 32) a x).toNat < S64x512.size a)
instance k1_chk432.dec : ∀ (v1122 : IVec S16 32) (v1196 : IVec S16 32), Decidable (k1_chk432 v1122 v1196) := fun v1122 v1196 => decidable_of_iff' _ (Iff.of_eq (k1_chk432.eq_1 v1122 v1196))
theorem k1_idx432_inb : ∀ (v1122 : IVec S16 32) (v1196 : IVec S16 32) (k1_hw432 : k1_chk432 v1122 v1196), ∀ a x, ((![v1196, v1122] : Fin 2 → IVec S16 32) a x).toNat < S64x512.size a := fun v1122 v1196 k1_hw432 => k1_hw432

def k1_chk433 (v1122 : IVec S16 32) (v1200 : IVec S16 32) : Prop :=
  (∀ a x, ((![v1122, v1200] : Fin 2 → IVec S16 32) a x).toNat < S512x128.size a)
instance k1_chk433.dec : ∀ (v1122 : IVec S16 32) (v1200 : IVec S16 32), Decidable (k1_chk433 v1122 v1200) := fun v1122 v1200 => decidable_of_iff' _ (Iff.of_eq (k1_chk433.eq_1 v1122 v1200))
theorem k1_idx433_inb : ∀ (v1122 : IVec S16 32) (v1200 : IVec S16 32) (k1_hw433 : k1_chk433 v1122 v1200), ∀ a x, ((![v1122, v1200] : Fin 2 → IVec S16 32) a x).toNat < S512x128.size a := fun v1122 v1200 k1_hw433 => k1_hw433

def k1_chk434 (v1122 : IVec S16 32) (v1199 : IVec S16 32) : Prop :=
  (∀ a x, ((![v1199, v1122] : Fin 2 → IVec S16 32) a x).toNat < S64x512.size a)
instance k1_chk434.dec : ∀ (v1122 : IVec S16 32) (v1199 : IVec S16 32), Decidable (k1_chk434 v1122 v1199) := fun v1122 v1199 => decidable_of_iff' _ (Iff.of_eq (k1_chk434.eq_1 v1122 v1199))
theorem k1_idx434_inb : ∀ (v1122 : IVec S16 32) (v1199 : IVec S16 32) (k1_hw434 : k1_chk434 v1122 v1199), ∀ a x, ((![v1199, v1122] : Fin 2 → IVec S16 32) a x).toNat < S64x512.size a := fun v1122 v1199 k1_hw434 => k1_hw434

def k1_chk435 (v1122 : IVec S16 32) (v1203 : IVec S16 32) : Prop :=
  (∀ a x, ((![v1122, v1203] : Fin 2 → IVec S16 32) a x).toNat < S512x128.size a)
instance k1_chk435.dec : ∀ (v1122 : IVec S16 32) (v1203 : IVec S16 32), Decidable (k1_chk435 v1122 v1203) := fun v1122 v1203 => decidable_of_iff' _ (Iff.of_eq (k1_chk435.eq_1 v1122 v1203))
theorem k1_idx435_inb : ∀ (v1122 : IVec S16 32) (v1203 : IVec S16 32) (k1_hw435 : k1_chk435 v1122 v1203), ∀ a x, ((![v1122, v1203] : Fin 2 → IVec S16 32) a x).toNat < S512x128.size a := fun v1122 v1203 k1_hw435 => k1_hw435

def k1_chk436 (v1122 : IVec S16 32) (v1202 : IVec S16 32) : Prop :=
  (∀ a x, ((![v1202, v1122] : Fin 2 → IVec S16 32) a x).toNat < S64x512.size a)
instance k1_chk436.dec : ∀ (v1122 : IVec S16 32) (v1202 : IVec S16 32), Decidable (k1_chk436 v1122 v1202) := fun v1122 v1202 => decidable_of_iff' _ (Iff.of_eq (k1_chk436.eq_1 v1122 v1202))
theorem k1_idx436_inb : ∀ (v1122 : IVec S16 32) (v1202 : IVec S16 32) (k1_hw436 : k1_chk436 v1122 v1202), ∀ a x, ((![v1202, v1122] : Fin 2 → IVec S16 32) a x).toNat < S64x512.size a := fun v1122 v1202 k1_hw436 => k1_hw436

def k1_chk437 (v1122 : IVec S16 32) (v1206 : IVec S16 32) : Prop :=
  (∀ a x, ((![v1122, v1206] : Fin 2 → IVec S16 32) a x).toNat < S512x128.size a)
instance k1_chk437.dec : ∀ (v1122 : IVec S16 32) (v1206 : IVec S16 32), Decidable (k1_chk437 v1122 v1206) := fun v1122 v1206 => decidable_of_iff' _ (Iff.of_eq (k1_chk437.eq_1 v1122 v1206))
theorem k1_idx437_inb : ∀ (v1122 : IVec S16 32) (v1206 : IVec S16 32) (k1_hw437 : k1_chk437 v1122 v1206), ∀ a x, ((![v1122, v1206] : Fin 2 → IVec S16 32) a x).toNat < S512x128.size a := fun v1122 v1206 k1_hw437 => k1_hw437

def k1_chk438 (v1122 : IVec S16 32) (v1205 : IVec S16 32) : Prop :=
  (∀ a x, ((![v1205, v1122] : Fin 2 → IVec S16 32) a x).toNat < S64x512.size a)
instance k1_chk438.dec : ∀ (v1122 : IVec S16 32) (v1205 : IVec S16 32), Decidable (k1_chk438 v1122 v1205) := fun v1122 v1205 => decidable_of_iff' _ (Iff.of_eq (k1_chk438.eq_1 v1122 v1205))
theorem k1_idx438_inb : ∀ (v1122 : IVec S16 32) (v1205 : IVec S16 32) (k1_hw438 : k1_chk438 v1122 v1205), ∀ a x, ((![v1205, v1122] : Fin 2 → IVec S16 32) a x).toNat < S64x512.size a := fun v1122 v1205 k1_hw438 => k1_hw438

def k1_chk439 (v1122 : IVec S16 32) (v1209 : IVec S16 32) : Prop :=
  (∀ a x, ((![v1122, v1209] : Fin 2 → IVec S16 32) a x).toNat < S512x128.size a)
instance k1_chk439.dec : ∀ (v1122 : IVec S16 32) (v1209 : IVec S16 32), Decidable (k1_chk439 v1122 v1209) := fun v1122 v1209 => decidable_of_iff' _ (Iff.of_eq (k1_chk439.eq_1 v1122 v1209))
theorem k1_idx439_inb : ∀ (v1122 : IVec S16 32) (v1209 : IVec S16 32) (k1_hw439 : k1_chk439 v1122 v1209), ∀ a x, ((![v1122, v1209] : Fin 2 → IVec S16 32) a x).toNat < S512x128.size a := fun v1122 v1209 k1_hw439 => k1_hw439

def k1_chk440 (v1122 : IVec S16 32) (v1208 : IVec S16 32) : Prop :=
  (∀ a x, ((![v1208, v1122] : Fin 2 → IVec S16 32) a x).toNat < S64x512.size a)
instance k1_chk440.dec : ∀ (v1122 : IVec S16 32) (v1208 : IVec S16 32), Decidable (k1_chk440 v1122 v1208) := fun v1122 v1208 => decidable_of_iff' _ (Iff.of_eq (k1_chk440.eq_1 v1122 v1208))
theorem k1_idx440_inb : ∀ (v1122 : IVec S16 32) (v1208 : IVec S16 32) (k1_hw440 : k1_chk440 v1122 v1208), ∀ a x, ((![v1208, v1122] : Fin 2 → IVec S16 32) a x).toNat < S64x512.size a := fun v1122 v1208 k1_hw440 => k1_hw440

def k1_chk441 (v1122 : IVec S16 32) (v1212 : IVec S16 32) : Prop :=
  (∀ a x, ((![v1122, v1212] : Fin 2 → IVec S16 32) a x).toNat < S512x128.size a)
instance k1_chk441.dec : ∀ (v1122 : IVec S16 32) (v1212 : IVec S16 32), Decidable (k1_chk441 v1122 v1212) := fun v1122 v1212 => decidable_of_iff' _ (Iff.of_eq (k1_chk441.eq_1 v1122 v1212))
theorem k1_idx441_inb : ∀ (v1122 : IVec S16 32) (v1212 : IVec S16 32) (k1_hw441 : k1_chk441 v1122 v1212), ∀ a x, ((![v1122, v1212] : Fin 2 → IVec S16 32) a x).toNat < S512x128.size a := fun v1122 v1212 k1_hw441 => k1_hw441

def k1_chk442 (v1122 : IVec S16 32) (v1211 : IVec S16 32) : Prop :=
  (∀ a x, ((![v1211, v1122] : Fin 2 → IVec S16 32) a x).toNat < S64x512.size a)
instance k1_chk442.dec : ∀ (v1122 : IVec S16 32) (v1211 : IVec S16 32), Decidable (k1_chk442 v1122 v1211) := fun v1122 v1211 => decidable_of_iff' _ (Iff.of_eq (k1_chk442.eq_1 v1122 v1211))
theorem k1_idx442_inb : ∀ (v1122 : IVec S16 32) (v1211 : IVec S16 32) (k1_hw442 : k1_chk442 v1122 v1211), ∀ a x, ((![v1211, v1122] : Fin 2 → IVec S16 32) a x).toNat < S64x512.size a := fun v1122 v1211 k1_hw442 => k1_hw442

def k1_chk443 (v1122 : IVec S16 32) (v1215 : IVec S16 32) : Prop :=
  (∀ a x, ((![v1122, v1215] : Fin 2 → IVec S16 32) a x).toNat < S512x128.size a)
instance k1_chk443.dec : ∀ (v1122 : IVec S16 32) (v1215 : IVec S16 32), Decidable (k1_chk443 v1122 v1215) := fun v1122 v1215 => decidable_of_iff' _ (Iff.of_eq (k1_chk443.eq_1 v1122 v1215))
theorem k1_idx443_inb : ∀ (v1122 : IVec S16 32) (v1215 : IVec S16 32) (k1_hw443 : k1_chk443 v1122 v1215), ∀ a x, ((![v1122, v1215] : Fin 2 → IVec S16 32) a x).toNat < S512x128.size a := fun v1122 v1215 k1_hw443 => k1_hw443

def k1_chk444 (v1122 : IVec S16 32) (v1214 : IVec S16 32) : Prop :=
  (∀ a x, ((![v1214, v1122] : Fin 2 → IVec S16 32) a x).toNat < S64x512.size a)
instance k1_chk444.dec : ∀ (v1122 : IVec S16 32) (v1214 : IVec S16 32), Decidable (k1_chk444 v1122 v1214) := fun v1122 v1214 => decidable_of_iff' _ (Iff.of_eq (k1_chk444.eq_1 v1122 v1214))
theorem k1_idx444_inb : ∀ (v1122 : IVec S16 32) (v1214 : IVec S16 32) (k1_hw444 : k1_chk444 v1122 v1214), ∀ a x, ((![v1214, v1122] : Fin 2 → IVec S16 32) a x).toNat < S64x512.size a := fun v1122 v1214 k1_hw444 => k1_hw444

def k1_chk445 (v1122 : IVec S16 32) (v1218 : IVec S16 32) : Prop :=
  (∀ a x, ((![v1122, v1218] : Fin 2 → IVec S16 32) a x).toNat < S512x128.size a)
instance k1_chk445.dec : ∀ (v1122 : IVec S16 32) (v1218 : IVec S16 32), Decidable (k1_chk445 v1122 v1218) := fun v1122 v1218 => decidable_of_iff' _ (Iff.of_eq (k1_chk445.eq_1 v1122 v1218))
theorem k1_idx445_inb : ∀ (v1122 : IVec S16 32) (v1218 : IVec S16 32) (k1_hw445 : k1_chk445 v1122 v1218), ∀ a x, ((![v1122, v1218] : Fin 2 → IVec S16 32) a x).toNat < S512x128.size a := fun v1122 v1218 k1_hw445 => k1_hw445

def k1_chk446 (v1122 : IVec S16 32) (v1217 : IVec S16 32) : Prop :=
  (∀ a x, ((![v1217, v1122] : Fin 2 → IVec S16 32) a x).toNat < S64x512.size a)
instance k1_chk446.dec : ∀ (v1122 : IVec S16 32) (v1217 : IVec S16 32), Decidable (k1_chk446 v1122 v1217) := fun v1122 v1217 => decidable_of_iff' _ (Iff.of_eq (k1_chk446.eq_1 v1122 v1217))
theorem k1_idx446_inb : ∀ (v1122 : IVec S16 32) (v1217 : IVec S16 32) (k1_hw446 : k1_chk446 v1122 v1217), ∀ a x, ((![v1217, v1122] : Fin 2 → IVec S16 32) a x).toNat < S64x512.size a := fun v1122 v1217 k1_hw446 => k1_hw446

def k1_chk447 (v1122 : IVec S16 32) (v1221 : IVec S16 32) : Prop :=
  (∀ a x, ((![v1122, v1221] : Fin 2 → IVec S16 32) a x).toNat < S512x128.size a)
instance k1_chk447.dec : ∀ (v1122 : IVec S16 32) (v1221 : IVec S16 32), Decidable (k1_chk447 v1122 v1221) := fun v1122 v1221 => decidable_of_iff' _ (Iff.of_eq (k1_chk447.eq_1 v1122 v1221))
theorem k1_idx447_inb : ∀ (v1122 : IVec S16 32) (v1221 : IVec S16 32) (k1_hw447 : k1_chk447 v1122 v1221), ∀ a x, ((![v1122, v1221] : Fin 2 → IVec S16 32) a x).toNat < S512x128.size a := fun v1122 v1221 k1_hw447 => k1_hw447

def k1_chk448 (v1122 : IVec S16 32) (v1220 : IVec S16 32) : Prop :=
  (∀ a x, ((![v1220, v1122] : Fin 2 → IVec S16 32) a x).toNat < S64x512.size a)
instance k1_chk448.dec : ∀ (v1122 : IVec S16 32) (v1220 : IVec S16 32), Decidable (k1_chk448 v1122 v1220) := fun v1122 v1220 => decidable_of_iff' _ (Iff.of_eq (k1_chk448.eq_1 v1122 v1220))
theorem k1_idx448_inb : ∀ (v1122 : IVec S16 32) (v1220 : IVec S16 32) (k1_hw448 : k1_chk448 v1122 v1220), ∀ a x, ((![v1220, v1122] : Fin 2 → IVec S16 32) a x).toNat < S64x512.size a := fun v1122 v1220 k1_hw448 => k1_hw448

def k1_chk449 (v1122 : IVec S16 32) (v1224 : IVec S16 32) : Prop :=
  (∀ a x, ((![v1122, v1224] : Fin 2 → IVec S16 32) a x).toNat < S512x128.size a)
instance k1_chk449.dec : ∀ (v1122 : IVec S16 32) (v1224 : IVec S16 32), Decidable (k1_chk449 v1122 v1224) := fun v1122 v1224 => decidable_of_iff' _ (Iff.of_eq (k1_chk449.eq_1 v1122 v1224))
theorem k1_idx449_inb : ∀ (v1122 : IVec S16 32) (v1224 : IVec S16 32) (k1_hw449 : k1_chk449 v1122 v1224), ∀ a x, ((![v1122, v1224] : Fin 2 → IVec S16 32) a x).toNat < S512x128.size a := fun v1122 v1224 k1_hw449 => k1_hw449

def k1_chk450 (v1122 : IVec S16 32) (v1223 : IVec S16 32) : Prop :=
  (∀ a x, ((![v1223, v1122] : Fin 2 → IVec S16 32) a x).toNat < S64x512.size a)
instance k1_chk450.dec : ∀ (v1122 : IVec S16 32) (v1223 : IVec S16 32), Decidable (k1_chk450 v1122 v1223) := fun v1122 v1223 => decidable_of_iff' _ (Iff.of_eq (k1_chk450.eq_1 v1122 v1223))
theorem k1_idx450_inb : ∀ (v1122 : IVec S16 32) (v1223 : IVec S16 32) (k1_hw450 : k1_chk450 v1122 v1223), ∀ a x, ((![v1223, v1122] : Fin 2 → IVec S16 32) a x).toNat < S64x512.size a := fun v1122 v1223 k1_hw450 => k1_hw450

def k1_chk451 (v1122 : IVec S16 32) (v1227 : IVec S16 32) : Prop :=
  (∀ a x, ((![v1122, v1227] : Fin 2 → IVec S16 32) a x).toNat < S512x128.size a)
instance k1_chk451.dec : ∀ (v1122 : IVec S16 32) (v1227 : IVec S16 32), Decidable (k1_chk451 v1122 v1227) := fun v1122 v1227 => decidable_of_iff' _ (Iff.of_eq (k1_chk451.eq_1 v1122 v1227))
theorem k1_idx451_inb : ∀ (v1122 : IVec S16 32) (v1227 : IVec S16 32) (k1_hw451 : k1_chk451 v1122 v1227), ∀ a x, ((![v1122, v1227] : Fin 2 → IVec S16 32) a x).toNat < S512x128.size a := fun v1122 v1227 k1_hw451 => k1_hw451

def k1_chk452 (v1122 : IVec S16 32) (v1226 : IVec S16 32) : Prop :=
  (∀ a x, ((![v1226, v1122] : Fin 2 → IVec S16 32) a x).toNat < S64x512.size a)
instance k1_chk452.dec : ∀ (v1122 : IVec S16 32) (v1226 : IVec S16 32), Decidable (k1_chk452 v1122 v1226) := fun v1122 v1226 => decidable_of_iff' _ (Iff.of_eq (k1_chk452.eq_1 v1122 v1226))
theorem k1_idx452_inb : ∀ (v1122 : IVec S16 32) (v1226 : IVec S16 32) (k1_hw452 : k1_chk452 v1122 v1226), ∀ a x, ((![v1226, v1122] : Fin 2 → IVec S16 32) a x).toNat < S64x512.size a := fun v1122 v1226 k1_hw452 => k1_hw452

def k1_chk453 (v1122 : IVec S16 32) (v1230 : IVec S16 32) : Prop :=
  (∀ a x, ((![v1122, v1230] : Fin 2 → IVec S16 32) a x).toNat < S512x128.size a)
instance k1_chk453.dec : ∀ (v1122 : IVec S16 32) (v1230 : IVec S16 32), Decidable (k1_chk453 v1122 v1230) := fun v1122 v1230 => decidable_of_iff' _ (Iff.of_eq (k1_chk453.eq_1 v1122 v1230))
theorem k1_idx453_inb : ∀ (v1122 : IVec S16 32) (v1230 : IVec S16 32) (k1_hw453 : k1_chk453 v1122 v1230), ∀ a x, ((![v1122, v1230] : Fin 2 → IVec S16 32) a x).toNat < S512x128.size a := fun v1122 v1230 k1_hw453 => k1_hw453

def k1_chk454 (v1122 : IVec S16 32) (v1229 : IVec S16 32) : Prop :=
  (∀ a x, ((![v1229, v1122] : Fin 2 → IVec S16 32) a x).toNat < S64x512.size a)
instance k1_chk454.dec : ∀ (v1122 : IVec S16 32) (v1229 : IVec S16 32), Decidable (k1_chk454 v1122 v1229) := fun v1122 v1229 => decidable_of_iff' _ (Iff.of_eq (k1_chk454.eq_1 v1122 v1229))
theorem k1_idx454_inb : ∀ (v1122 : IVec S16 32) (v1229 : IVec S16 32) (k1_hw454 : k1_chk454 v1122 v1229), ∀ a x, ((![v1229, v1122] : Fin 2 → IVec S16 32) a x).toNat < S64x512.size a := fun v1122 v1229 k1_hw454 => k1_hw454

def k1_chk455 (v1122 : IVec S16 32) (v1233 : IVec S16 32) : Prop :=
  (∀ a x, ((![v1122, v1233] : Fin 2 → IVec S16 32) a x).toNat < S512x128.size a)
instance k1_chk455.dec : ∀ (v1122 : IVec S16 32) (v1233 : IVec S16 32), Decidable (k1_chk455 v1122 v1233) := fun v1122 v1233 => decidable_of_iff' _ (Iff.of_eq (k1_chk455.eq_1 v1122 v1233))
theorem k1_idx455_inb : ∀ (v1122 : IVec S16 32) (v1233 : IVec S16 32) (k1_hw455 : k1_chk455 v1122 v1233), ∀ a x, ((![v1122, v1233] : Fin 2 → IVec S16 32) a x).toNat < S512x128.size a := fun v1122 v1233 k1_hw455 => k1_hw455

def k1_chk456 (v1122 : IVec S16 32) (v1232 : IVec S16 32) : Prop :=
  (∀ a x, ((![v1232, v1122] : Fin 2 → IVec S16 32) a x).toNat < S64x512.size a)
instance k1_chk456.dec : ∀ (v1122 : IVec S16 32) (v1232 : IVec S16 32), Decidable (k1_chk456 v1122 v1232) := fun v1122 v1232 => decidable_of_iff' _ (Iff.of_eq (k1_chk456.eq_1 v1122 v1232))
theorem k1_idx456_inb : ∀ (v1122 : IVec S16 32) (v1232 : IVec S16 32) (k1_hw456 : k1_chk456 v1122 v1232), ∀ a x, ((![v1232, v1122] : Fin 2 → IVec S16 32) a x).toNat < S64x512.size a := fun v1122 v1232 k1_hw456 => k1_hw456

def k1_chk457 (v1122 : IVec S16 32) (v1236 : IVec S16 32) : Prop :=
  (∀ a x, ((![v1122, v1236] : Fin 2 → IVec S16 32) a x).toNat < S512x128.size a)
instance k1_chk457.dec : ∀ (v1122 : IVec S16 32) (v1236 : IVec S16 32), Decidable (k1_chk457 v1122 v1236) := fun v1122 v1236 => decidable_of_iff' _ (Iff.of_eq (k1_chk457.eq_1 v1122 v1236))
theorem k1_idx457_inb : ∀ (v1122 : IVec S16 32) (v1236 : IVec S16 32) (k1_hw457 : k1_chk457 v1122 v1236), ∀ a x, ((![v1122, v1236] : Fin 2 → IVec S16 32) a x).toNat < S512x128.size a := fun v1122 v1236 k1_hw457 => k1_hw457

def k1_chk458 (v1122 : IVec S16 32) (v1235 : IVec S16 32) : Prop :=
  (∀ a x, ((![v1235, v1122] : Fin 2 → IVec S16 32) a x).toNat < S64x512.size a)
instance k1_chk458.dec : ∀ (v1122 : IVec S16 32) (v1235 : IVec S16 32), Decidable (k1_chk458 v1122 v1235) := fun v1122 v1235 => decidable_of_iff' _ (Iff.of_eq (k1_chk458.eq_1 v1122 v1235))
theorem k1_idx458_inb : ∀ (v1122 : IVec S16 32) (v1235 : IVec S16 32) (k1_hw458 : k1_chk458 v1122 v1235), ∀ a x, ((![v1235, v1122] : Fin 2 → IVec S16 32) a x).toNat < S64x512.size a := fun v1122 v1235 k1_hw458 => k1_hw458

def k1_chk459 (v1122 : IVec S16 32) (v1239 : IVec S16 32) : Prop :=
  (∀ a x, ((![v1122, v1239] : Fin 2 → IVec S16 32) a x).toNat < S512x128.size a)
instance k1_chk459.dec : ∀ (v1122 : IVec S16 32) (v1239 : IVec S16 32), Decidable (k1_chk459 v1122 v1239) := fun v1122 v1239 => decidable_of_iff' _ (Iff.of_eq (k1_chk459.eq_1 v1122 v1239))
theorem k1_idx459_inb : ∀ (v1122 : IVec S16 32) (v1239 : IVec S16 32) (k1_hw459 : k1_chk459 v1122 v1239), ∀ a x, ((![v1122, v1239] : Fin 2 → IVec S16 32) a x).toNat < S512x128.size a := fun v1122 v1239 k1_hw459 => k1_hw459

def k1_chk460 (v1122 : IVec S16 32) (v1238 : IVec S16 32) : Prop :=
  (∀ a x, ((![v1238, v1122] : Fin 2 → IVec S16 32) a x).toNat < S64x512.size a)
instance k1_chk460.dec : ∀ (v1122 : IVec S16 32) (v1238 : IVec S16 32), Decidable (k1_chk460 v1122 v1238) := fun v1122 v1238 => decidable_of_iff' _ (Iff.of_eq (k1_chk460.eq_1 v1122 v1238))
theorem k1_idx460_inb : ∀ (v1122 : IVec S16 32) (v1238 : IVec S16 32) (k1_hw460 : k1_chk460 v1122 v1238), ∀ a x, ((![v1238, v1122] : Fin 2 → IVec S16 32) a x).toNat < S64x512.size a := fun v1122 v1238 k1_hw460 => k1_hw460

def k1_chk461 (v1122 : IVec S16 32) (v1242 : IVec S16 32) : Prop :=
  (∀ a x, ((![v1122, v1242] : Fin 2 → IVec S16 32) a x).toNat < S512x128.size a)
instance k1_chk461.dec : ∀ (v1122 : IVec S16 32) (v1242 : IVec S16 32), Decidable (k1_chk461 v1122 v1242) := fun v1122 v1242 => decidable_of_iff' _ (Iff.of_eq (k1_chk461.eq_1 v1122 v1242))
theorem k1_idx461_inb : ∀ (v1122 : IVec S16 32) (v1242 : IVec S16 32) (k1_hw461 : k1_chk461 v1122 v1242), ∀ a x, ((![v1122, v1242] : Fin 2 → IVec S16 32) a x).toNat < S512x128.size a := fun v1122 v1242 k1_hw461 => k1_hw461

def k1_chk462 (v1122 : IVec S16 32) (v1241 : IVec S16 32) : Prop :=
  (∀ a x, ((![v1241, v1122] : Fin 2 → IVec S16 32) a x).toNat < S64x512.size a)
instance k1_chk462.dec : ∀ (v1122 : IVec S16 32) (v1241 : IVec S16 32), Decidable (k1_chk462 v1122 v1241) := fun v1122 v1241 => decidable_of_iff' _ (Iff.of_eq (k1_chk462.eq_1 v1122 v1241))
theorem k1_idx462_inb : ∀ (v1122 : IVec S16 32) (v1241 : IVec S16 32) (k1_hw462 : k1_chk462 v1122 v1241), ∀ a x, ((![v1241, v1122] : Fin 2 → IVec S16 32) a x).toNat < S64x512.size a := fun v1122 v1241 k1_hw462 => k1_hw462

def k1_chk463 (v1122 : IVec S16 32) (v1245 : IVec S16 32) : Prop :=
  (∀ a x, ((![v1122, v1245] : Fin 2 → IVec S16 32) a x).toNat < S512x128.size a)
instance k1_chk463.dec : ∀ (v1122 : IVec S16 32) (v1245 : IVec S16 32), Decidable (k1_chk463 v1122 v1245) := fun v1122 v1245 => decidable_of_iff' _ (Iff.of_eq (k1_chk463.eq_1 v1122 v1245))
theorem k1_idx463_inb : ∀ (v1122 : IVec S16 32) (v1245 : IVec S16 32) (k1_hw463 : k1_chk463 v1122 v1245), ∀ a x, ((![v1122, v1245] : Fin 2 → IVec S16 32) a x).toNat < S512x128.size a := fun v1122 v1245 k1_hw463 => k1_hw463

def k1_chk464 (v1122 : IVec S16 32) (v1244 : IVec S16 32) : Prop :=
  (∀ a x, ((![v1244, v1122] : Fin 2 → IVec S16 32) a x).toNat < S64x512.size a)
instance k1_chk464.dec : ∀ (v1122 : IVec S16 32) (v1244 : IVec S16 32), Decidable (k1_chk464 v1122 v1244) := fun v1122 v1244 => decidable_of_iff' _ (Iff.of_eq (k1_chk464.eq_1 v1122 v1244))
theorem k1_idx464_inb : ∀ (v1122 : IVec S16 32) (v1244 : IVec S16 32) (k1_hw464 : k1_chk464 v1122 v1244), ∀ a x, ((![v1244, v1122] : Fin 2 → IVec S16 32) a x).toNat < S64x512.size a := fun v1122 v1244 k1_hw464 => k1_hw464

def k1_chk465 (v1122 : IVec S16 32) (v1248 : IVec S16 32) : Prop :=
  (∀ a x, ((![v1122, v1248] : Fin 2 → IVec S16 32) a x).toNat < S512x128.size a)
instance k1_chk465.dec : ∀ (v1122 : IVec S16 32) (v1248 : IVec S16 32), Decidable (k1_chk465 v1122 v1248) := fun v1122 v1248 => decidable_of_iff' _ (Iff.of_eq (k1_chk465.eq_1 v1122 v1248))
theorem k1_idx465_inb : ∀ (v1122 : IVec S16 32) (v1248 : IVec S16 32) (k1_hw465 : k1_chk465 v1122 v1248), ∀ a x, ((![v1122, v1248] : Fin 2 → IVec S16 32) a x).toNat < S512x128.size a := fun v1122 v1248 k1_hw465 => k1_hw465

def k1_chk466 (v1122 : IVec S16 32) (v1247 : IVec S16 32) : Prop :=
  (∀ a x, ((![v1247, v1122] : Fin 2 → IVec S16 32) a x).toNat < S64x512.size a)
instance k1_chk466.dec : ∀ (v1122 : IVec S16 32) (v1247 : IVec S16 32), Decidable (k1_chk466 v1122 v1247) := fun v1122 v1247 => decidable_of_iff' _ (Iff.of_eq (k1_chk466.eq_1 v1122 v1247))
theorem k1_idx466_inb : ∀ (v1122 : IVec S16 32) (v1247 : IVec S16 32) (k1_hw466 : k1_chk466 v1122 v1247), ∀ a x, ((![v1247, v1122] : Fin 2 → IVec S16 32) a x).toNat < S64x512.size a := fun v1122 v1247 k1_hw466 => k1_hw466

def k1_chk467 (v1122 : IVec S16 32) (v1251 : IVec S16 32) : Prop :=
  (∀ a x, ((![v1122, v1251] : Fin 2 → IVec S16 32) a x).toNat < S512x128.size a)
instance k1_chk467.dec : ∀ (v1122 : IVec S16 32) (v1251 : IVec S16 32), Decidable (k1_chk467 v1122 v1251) := fun v1122 v1251 => decidable_of_iff' _ (Iff.of_eq (k1_chk467.eq_1 v1122 v1251))
theorem k1_idx467_inb : ∀ (v1122 : IVec S16 32) (v1251 : IVec S16 32) (k1_hw467 : k1_chk467 v1122 v1251), ∀ a x, ((![v1122, v1251] : Fin 2 → IVec S16 32) a x).toNat < S512x128.size a := fun v1122 v1251 k1_hw467 => k1_hw467

def k1_chk468 (v1122 : IVec S16 32) (v1250 : IVec S16 32) : Prop :=
  (∀ a x, ((![v1250, v1122] : Fin 2 → IVec S16 32) a x).toNat < S64x512.size a)
instance k1_chk468.dec : ∀ (v1122 : IVec S16 32) (v1250 : IVec S16 32), Decidable (k1_chk468 v1122 v1250) := fun v1122 v1250 => decidable_of_iff' _ (Iff.of_eq (k1_chk468.eq_1 v1122 v1250))
theorem k1_idx468_inb : ∀ (v1122 : IVec S16 32) (v1250 : IVec S16 32) (k1_hw468 : k1_chk468 v1122 v1250), ∀ a x, ((![v1250, v1122] : Fin 2 → IVec S16 32) a x).toNat < S64x512.size a := fun v1122 v1250 k1_hw468 => k1_hw468

def k1_chk469 (v1122 : IVec S16 32) (v1254 : IVec S16 32) : Prop :=
  (∀ a x, ((![v1122, v1254] : Fin 2 → IVec S16 32) a x).toNat < S512x128.size a)
instance k1_chk469.dec : ∀ (v1122 : IVec S16 32) (v1254 : IVec S16 32), Decidable (k1_chk469 v1122 v1254) := fun v1122 v1254 => decidable_of_iff' _ (Iff.of_eq (k1_chk469.eq_1 v1122 v1254))
theorem k1_idx469_inb : ∀ (v1122 : IVec S16 32) (v1254 : IVec S16 32) (k1_hw469 : k1_chk469 v1122 v1254), ∀ a x, ((![v1122, v1254] : Fin 2 → IVec S16 32) a x).toNat < S512x128.size a := fun v1122 v1254 k1_hw469 => k1_hw469

def k1_chk470 (v1122 : IVec S16 32) (v1253 : IVec S16 32) : Prop :=
  (∀ a x, ((![v1253, v1122] : Fin 2 → IVec S16 32) a x).toNat < S64x512.size a)
instance k1_chk470.dec : ∀ (v1122 : IVec S16 32) (v1253 : IVec S16 32), Decidable (k1_chk470 v1122 v1253) := fun v1122 v1253 => decidable_of_iff' _ (Iff.of_eq (k1_chk470.eq_1 v1122 v1253))
theorem k1_idx470_inb : ∀ (v1122 : IVec S16 32) (v1253 : IVec S16 32) (k1_hw470 : k1_chk470 v1122 v1253), ∀ a x, ((![v1253, v1122] : Fin 2 → IVec S16 32) a x).toNat < S64x512.size a := fun v1122 v1253 k1_hw470 => k1_hw470

def k1_chk471 (v1122 : IVec S16 32) (v1257 : IVec S16 32) : Prop :=
  (∀ a x, ((![v1122, v1257] : Fin 2 → IVec S16 32) a x).toNat < S512x128.size a)
instance k1_chk471.dec : ∀ (v1122 : IVec S16 32) (v1257 : IVec S16 32), Decidable (k1_chk471 v1122 v1257) := fun v1122 v1257 => decidable_of_iff' _ (Iff.of_eq (k1_chk471.eq_1 v1122 v1257))
theorem k1_idx471_inb : ∀ (v1122 : IVec S16 32) (v1257 : IVec S16 32) (k1_hw471 : k1_chk471 v1122 v1257), ∀ a x, ((![v1122, v1257] : Fin 2 → IVec S16 32) a x).toNat < S512x128.size a := fun v1122 v1257 k1_hw471 => k1_hw471

def k1_chk472 (v1122 : IVec S16 32) (v1256 : IVec S16 32) : Prop :=
  (∀ a x, ((![v1256, v1122] : Fin 2 → IVec S16 32) a x).toNat < S64x512.size a)
instance k1_chk472.dec : ∀ (v1122 : IVec S16 32) (v1256 : IVec S16 32), Decidable (k1_chk472 v1122 v1256) := fun v1122 v1256 => decidable_of_iff' _ (Iff.of_eq (k1_chk472.eq_1 v1122 v1256))
theorem k1_idx472_inb : ∀ (v1122 : IVec S16 32) (v1256 : IVec S16 32) (k1_hw472 : k1_chk472 v1122 v1256), ∀ a x, ((![v1256, v1122] : Fin 2 → IVec S16 32) a x).toNat < S64x512.size a := fun v1122 v1256 k1_hw472 => k1_hw472

def k1_chk473 (v1122 : IVec S16 32) (v1260 : IVec S16 32) : Prop :=
  (∀ a x, ((![v1122, v1260] : Fin 2 → IVec S16 32) a x).toNat < S512x128.size a)
instance k1_chk473.dec : ∀ (v1122 : IVec S16 32) (v1260 : IVec S16 32), Decidable (k1_chk473 v1122 v1260) := fun v1122 v1260 => decidable_of_iff' _ (Iff.of_eq (k1_chk473.eq_1 v1122 v1260))
theorem k1_idx473_inb : ∀ (v1122 : IVec S16 32) (v1260 : IVec S16 32) (k1_hw473 : k1_chk473 v1122 v1260), ∀ a x, ((![v1122, v1260] : Fin 2 → IVec S16 32) a x).toNat < S512x128.size a := fun v1122 v1260 k1_hw473 => k1_hw473

def k1_chk474 (v1122 : IVec S16 32) (v1259 : IVec S16 32) : Prop :=
  (∀ a x, ((![v1259, v1122] : Fin 2 → IVec S16 32) a x).toNat < S64x512.size a)
instance k1_chk474.dec : ∀ (v1122 : IVec S16 32) (v1259 : IVec S16 32), Decidable (k1_chk474 v1122 v1259) := fun v1122 v1259 => decidable_of_iff' _ (Iff.of_eq (k1_chk474.eq_1 v1122 v1259))
theorem k1_idx474_inb : ∀ (v1122 : IVec S16 32) (v1259 : IVec S16 32) (k1_hw474 : k1_chk474 v1122 v1259), ∀ a x, ((![v1259, v1122] : Fin 2 → IVec S16 32) a x).toNat < S64x512.size a := fun v1122 v1259 k1_hw474 => k1_hw474

def k1_chk475 (v1122 : IVec S16 32) (v1263 : IVec S16 32) : Prop :=
  (∀ a x, ((![v1122, v1263] : Fin 2 → IVec S16 32) a x).toNat < S512x128.size a)
instance k1_chk475.dec : ∀ (v1122 : IVec S16 32) (v1263 : IVec S16 32), Decidable (k1_chk475 v1122 v1263) := fun v1122 v1263 => decidable_of_iff' _ (Iff.of_eq (k1_chk475.eq_1 v1122 v1263))
theorem k1_idx475_inb : ∀ (v1122 : IVec S16 32) (v1263 : IVec S16 32) (k1_hw475 : k1_chk475 v1122 v1263), ∀ a x, ((![v1122, v1263] : Fin 2 → IVec S16 32) a x).toNat < S512x128.size a := fun v1122 v1263 k1_hw475 => k1_hw475

def k1_chk476 (v1122 : IVec S16 32) (v1262 : IVec S16 32) : Prop :=
  (∀ a x, ((![v1262, v1122] : Fin 2 → IVec S16 32) a x).toNat < S64x512.size a)
instance k1_chk476.dec : ∀ (v1122 : IVec S16 32) (v1262 : IVec S16 32), Decidable (k1_chk476 v1122 v1262) := fun v1122 v1262 => decidable_of_iff' _ (Iff.of_eq (k1_chk476.eq_1 v1122 v1262))
theorem k1_idx476_inb : ∀ (v1122 : IVec S16 32) (v1262 : IVec S16 32) (k1_hw476 : k1_chk476 v1122 v1262), ∀ a x, ((![v1262, v1122] : Fin 2 → IVec S16 32) a x).toNat < S64x512.size a := fun v1122 v1262 k1_hw476 => k1_hw476

def k1_chk477 (v1122 : IVec S16 32) (v1266 : IVec S16 32) : Prop :=
  (∀ a x, ((![v1122, v1266] : Fin 2 → IVec S16 32) a x).toNat < S512x128.size a)
instance k1_chk477.dec : ∀ (v1122 : IVec S16 32) (v1266 : IVec S16 32), Decidable (k1_chk477 v1122 v1266) := fun v1122 v1266 => decidable_of_iff' _ (Iff.of_eq (k1_chk477.eq_1 v1122 v1266))
theorem k1_idx477_inb : ∀ (v1122 : IVec S16 32) (v1266 : IVec S16 32) (k1_hw477 : k1_chk477 v1122 v1266), ∀ a x, ((![v1122, v1266] : Fin 2 → IVec S16 32) a x).toNat < S512x128.size a := fun v1122 v1266 k1_hw477 => k1_hw477

def k1_chk478 (v1122 : IVec S16 32) (v1265 : IVec S16 32) : Prop :=
  (∀ a x, ((![v1265, v1122] : Fin 2 → IVec S16 32) a x).toNat < S64x512.size a)
instance k1_chk478.dec : ∀ (v1122 : IVec S16 32) (v1265 : IVec S16 32), Decidable (k1_chk478 v1122 v1265) := fun v1122 v1265 => decidable_of_iff' _ (Iff.of_eq (k1_chk478.eq_1 v1122 v1265))
theorem k1_idx478_inb : ∀ (v1122 : IVec S16 32) (v1265 : IVec S16 32) (k1_hw478 : k1_chk478 v1122 v1265), ∀ a x, ((![v1265, v1122] : Fin 2 → IVec S16 32) a x).toNat < S64x512.size a := fun v1122 v1265 k1_hw478 => k1_hw478

def k1_chk479 (v1122 : IVec S16 32) (v1269 : IVec S16 32) : Prop :=
  (∀ a x, ((![v1122, v1269] : Fin 2 → IVec S16 32) a x).toNat < S512x128.size a)
instance k1_chk479.dec : ∀ (v1122 : IVec S16 32) (v1269 : IVec S16 32), Decidable (k1_chk479 v1122 v1269) := fun v1122 v1269 => decidable_of_iff' _ (Iff.of_eq (k1_chk479.eq_1 v1122 v1269))
theorem k1_idx479_inb : ∀ (v1122 : IVec S16 32) (v1269 : IVec S16 32) (k1_hw479 : k1_chk479 v1122 v1269), ∀ a x, ((![v1122, v1269] : Fin 2 → IVec S16 32) a x).toNat < S512x128.size a := fun v1122 v1269 k1_hw479 => k1_hw479

def k1_chk480 (v1122 : IVec S16 32) (v1268 : IVec S16 32) : Prop :=
  (∀ a x, ((![v1268, v1122] : Fin 2 → IVec S16 32) a x).toNat < S64x512.size a)
instance k1_chk480.dec : ∀ (v1122 : IVec S16 32) (v1268 : IVec S16 32), Decidable (k1_chk480 v1122 v1268) := fun v1122 v1268 => decidable_of_iff' _ (Iff.of_eq (k1_chk480.eq_1 v1122 v1268))
theorem k1_idx480_inb : ∀ (v1122 : IVec S16 32) (v1268 : IVec S16 32) (k1_hw480 : k1_chk480 v1122 v1268), ∀ a x, ((![v1268, v1122] : Fin 2 → IVec S16 32) a x).toNat < S64x512.size a := fun v1122 v1268 k1_hw480 => k1_hw480

def k1_chk481 (v1122 : IVec S16 32) (v1272 : IVec S16 32) : Prop :=
  (∀ a x, ((![v1122, v1272] : Fin 2 → IVec S16 32) a x).toNat < S512x128.size a)
instance k1_chk481.dec : ∀ (v1122 : IVec S16 32) (v1272 : IVec S16 32), Decidable (k1_chk481 v1122 v1272) := fun v1122 v1272 => decidable_of_iff' _ (Iff.of_eq (k1_chk481.eq_1 v1122 v1272))
theorem k1_idx481_inb : ∀ (v1122 : IVec S16 32) (v1272 : IVec S16 32) (k1_hw481 : k1_chk481 v1122 v1272), ∀ a x, ((![v1122, v1272] : Fin 2 → IVec S16 32) a x).toNat < S512x128.size a := fun v1122 v1272 k1_hw481 => k1_hw481

def k1_chk482 (v1122 : IVec S16 32) (v1271 : IVec S16 32) : Prop :=
  (∀ a x, ((![v1271, v1122] : Fin 2 → IVec S16 32) a x).toNat < S64x512.size a)
instance k1_chk482.dec : ∀ (v1122 : IVec S16 32) (v1271 : IVec S16 32), Decidable (k1_chk482 v1122 v1271) := fun v1122 v1271 => decidable_of_iff' _ (Iff.of_eq (k1_chk482.eq_1 v1122 v1271))
theorem k1_idx482_inb : ∀ (v1122 : IVec S16 32) (v1271 : IVec S16 32) (k1_hw482 : k1_chk482 v1122 v1271), ∀ a x, ((![v1271, v1122] : Fin 2 → IVec S16 32) a x).toNat < S64x512.size a := fun v1122 v1271 k1_hw482 => k1_hw482

def k1_chk483 (v1122 : IVec S16 32) (v1275 : IVec S16 32) : Prop :=
  (∀ a x, ((![v1122, v1275] : Fin 2 → IVec S16 32) a x).toNat < S512x128.size a)
instance k1_chk483.dec : ∀ (v1122 : IVec S16 32) (v1275 : IVec S16 32), Decidable (k1_chk483 v1122 v1275) := fun v1122 v1275 => decidable_of_iff' _ (Iff.of_eq (k1_chk483.eq_1 v1122 v1275))
theorem k1_idx483_inb : ∀ (v1122 : IVec S16 32) (v1275 : IVec S16 32) (k1_hw483 : k1_chk483 v1122 v1275), ∀ a x, ((![v1122, v1275] : Fin 2 → IVec S16 32) a x).toNat < S512x128.size a := fun v1122 v1275 k1_hw483 => k1_hw483

def k1_chk484 (v1122 : IVec S16 32) (v1274 : IVec S16 32) : Prop :=
  (∀ a x, ((![v1274, v1122] : Fin 2 → IVec S16 32) a x).toNat < S64x512.size a)
instance k1_chk484.dec : ∀ (v1122 : IVec S16 32) (v1274 : IVec S16 32), Decidable (k1_chk484 v1122 v1274) := fun v1122 v1274 => decidable_of_iff' _ (Iff.of_eq (k1_chk484.eq_1 v1122 v1274))
theorem k1_idx484_inb : ∀ (v1122 : IVec S16 32) (v1274 : IVec S16 32) (k1_hw484 : k1_chk484 v1122 v1274), ∀ a x, ((![v1274, v1122] : Fin 2 → IVec S16 32) a x).toNat < S64x512.size a := fun v1122 v1274 k1_hw484 => k1_hw484

def k1_chk485 (v1122 : IVec S16 32) (v1278 : IVec S16 32) : Prop :=
  (∀ a x, ((![v1122, v1278] : Fin 2 → IVec S16 32) a x).toNat < S512x128.size a)
instance k1_chk485.dec : ∀ (v1122 : IVec S16 32) (v1278 : IVec S16 32), Decidable (k1_chk485 v1122 v1278) := fun v1122 v1278 => decidable_of_iff' _ (Iff.of_eq (k1_chk485.eq_1 v1122 v1278))
theorem k1_idx485_inb : ∀ (v1122 : IVec S16 32) (v1278 : IVec S16 32) (k1_hw485 : k1_chk485 v1122 v1278), ∀ a x, ((![v1122, v1278] : Fin 2 → IVec S16 32) a x).toNat < S512x128.size a := fun v1122 v1278 k1_hw485 => k1_hw485

def k1_chk486 (v1122 : IVec S16 32) (v1277 : IVec S16 32) : Prop :=
  (∀ a x, ((![v1277, v1122] : Fin 2 → IVec S16 32) a x).toNat < S64x512.size a)
instance k1_chk486.dec : ∀ (v1122 : IVec S16 32) (v1277 : IVec S16 32), Decidable (k1_chk486 v1122 v1277) := fun v1122 v1277 => decidable_of_iff' _ (Iff.of_eq (k1_chk486.eq_1 v1122 v1277))
theorem k1_idx486_inb : ∀ (v1122 : IVec S16 32) (v1277 : IVec S16 32) (k1_hw486 : k1_chk486 v1122 v1277), ∀ a x, ((![v1277, v1122] : Fin 2 → IVec S16 32) a x).toNat < S64x512.size a := fun v1122 v1277 k1_hw486 => k1_hw486

def k1_chk487 (v1122 : IVec S16 32) (v1281 : IVec S16 32) : Prop :=
  (∀ a x, ((![v1122, v1281] : Fin 2 → IVec S16 32) a x).toNat < S512x128.size a)
instance k1_chk487.dec : ∀ (v1122 : IVec S16 32) (v1281 : IVec S16 32), Decidable (k1_chk487 v1122 v1281) := fun v1122 v1281 => decidable_of_iff' _ (Iff.of_eq (k1_chk487.eq_1 v1122 v1281))
theorem k1_idx487_inb : ∀ (v1122 : IVec S16 32) (v1281 : IVec S16 32) (k1_hw487 : k1_chk487 v1122 v1281), ∀ a x, ((![v1122, v1281] : Fin 2 → IVec S16 32) a x).toNat < S512x128.size a := fun v1122 v1281 k1_hw487 => k1_hw487

def k1_chk488 (v1122 : IVec S16 32) (v1280 : IVec S16 32) : Prop :=
  (∀ a x, ((![v1280, v1122] : Fin 2 → IVec S16 32) a x).toNat < S64x512.size a)
instance k1_chk488.dec : ∀ (v1122 : IVec S16 32) (v1280 : IVec S16 32), Decidable (k1_chk488 v1122 v1280) := fun v1122 v1280 => decidable_of_iff' _ (Iff.of_eq (k1_chk488.eq_1 v1122 v1280))
theorem k1_idx488_inb : ∀ (v1122 : IVec S16 32) (v1280 : IVec S16 32) (k1_hw488 : k1_chk488 v1122 v1280), ∀ a x, ((![v1280, v1122] : Fin 2 → IVec S16 32) a x).toNat < S64x512.size a := fun v1122 v1280 k1_hw488 => k1_hw488

def k1_chk489 (v1122 : IVec S16 32) (v1284 : IVec S16 32) : Prop :=
  (∀ a x, ((![v1122, v1284] : Fin 2 → IVec S16 32) a x).toNat < S512x128.size a)
instance k1_chk489.dec : ∀ (v1122 : IVec S16 32) (v1284 : IVec S16 32), Decidable (k1_chk489 v1122 v1284) := fun v1122 v1284 => decidable_of_iff' _ (Iff.of_eq (k1_chk489.eq_1 v1122 v1284))
theorem k1_idx489_inb : ∀ (v1122 : IVec S16 32) (v1284 : IVec S16 32) (k1_hw489 : k1_chk489 v1122 v1284), ∀ a x, ((![v1122, v1284] : Fin 2 → IVec S16 32) a x).toNat < S512x128.size a := fun v1122 v1284 k1_hw489 => k1_hw489

def k1_chk490 (v1122 : IVec S16 32) (v1283 : IVec S16 32) : Prop :=
  (∀ a x, ((![v1283, v1122] : Fin 2 → IVec S16 32) a x).toNat < S64x512.size a)
instance k1_chk490.dec : ∀ (v1122 : IVec S16 32) (v1283 : IVec S16 32), Decidable (k1_chk490 v1122 v1283) := fun v1122 v1283 => decidable_of_iff' _ (Iff.of_eq (k1_chk490.eq_1 v1122 v1283))
theorem k1_idx490_inb : ∀ (v1122 : IVec S16 32) (v1283 : IVec S16 32) (k1_hw490 : k1_chk490 v1122 v1283), ∀ a x, ((![v1283, v1122] : Fin 2 → IVec S16 32) a x).toNat < S64x512.size a := fun v1122 v1283 k1_hw490 => k1_hw490

def k1_chk491 (v1122 : IVec S16 32) (v1287 : IVec S16 32) : Prop :=
  (∀ a x, ((![v1122, v1287] : Fin 2 → IVec S16 32) a x).toNat < S512x128.size a)
instance k1_chk491.dec : ∀ (v1122 : IVec S16 32) (v1287 : IVec S16 32), Decidable (k1_chk491 v1122 v1287) := fun v1122 v1287 => decidable_of_iff' _ (Iff.of_eq (k1_chk491.eq_1 v1122 v1287))
theorem k1_idx491_inb : ∀ (v1122 : IVec S16 32) (v1287 : IVec S16 32) (k1_hw491 : k1_chk491 v1122 v1287), ∀ a x, ((![v1122, v1287] : Fin 2 → IVec S16 32) a x).toNat < S512x128.size a := fun v1122 v1287 k1_hw491 => k1_hw491

def k1_chk492 (v1122 : IVec S16 32) (v1286 : IVec S16 32) : Prop :=
  (∀ a x, ((![v1286, v1122] : Fin 2 → IVec S16 32) a x).toNat < S64x512.size a)
instance k1_chk492.dec : ∀ (v1122 : IVec S16 32) (v1286 : IVec S16 32), Decidable (k1_chk492 v1122 v1286) := fun v1122 v1286 => decidable_of_iff' _ (Iff.of_eq (k1_chk492.eq_1 v1122 v1286))
theorem k1_idx492_inb : ∀ (v1122 : IVec S16 32) (v1286 : IVec S16 32) (k1_hw492 : k1_chk492 v1122 v1286), ∀ a x, ((![v1286, v1122] : Fin 2 → IVec S16 32) a x).toNat < S64x512.size a := fun v1122 v1286 k1_hw492 => k1_hw492

def k1_chk493 (v1122 : IVec S16 32) (v1290 : IVec S16 32) : Prop :=
  (∀ a x, ((![v1122, v1290] : Fin 2 → IVec S16 32) a x).toNat < S512x128.size a)
instance k1_chk493.dec : ∀ (v1122 : IVec S16 32) (v1290 : IVec S16 32), Decidable (k1_chk493 v1122 v1290) := fun v1122 v1290 => decidable_of_iff' _ (Iff.of_eq (k1_chk493.eq_1 v1122 v1290))
theorem k1_idx493_inb : ∀ (v1122 : IVec S16 32) (v1290 : IVec S16 32) (k1_hw493 : k1_chk493 v1122 v1290), ∀ a x, ((![v1122, v1290] : Fin 2 → IVec S16 32) a x).toNat < S512x128.size a := fun v1122 v1290 k1_hw493 => k1_hw493

def k1_chk494 (v1122 : IVec S16 32) (v1289 : IVec S16 32) : Prop :=
  (∀ a x, ((![v1289, v1122] : Fin 2 → IVec S16 32) a x).toNat < S64x512.size a)
instance k1_chk494.dec : ∀ (v1122 : IVec S16 32) (v1289 : IVec S16 32), Decidable (k1_chk494 v1122 v1289) := fun v1122 v1289 => decidable_of_iff' _ (Iff.of_eq (k1_chk494.eq_1 v1122 v1289))
theorem k1_idx494_inb : ∀ (v1122 : IVec S16 32) (v1289 : IVec S16 32) (k1_hw494 : k1_chk494 v1122 v1289), ∀ a x, ((![v1289, v1122] : Fin 2 → IVec S16 32) a x).toNat < S64x512.size a := fun v1122 v1289 k1_hw494 => k1_hw494

def k1_chk495 (v1122 : IVec S16 32) (v1293 : IVec S16 32) : Prop :=
  (∀ a x, ((![v1122, v1293] : Fin 2 → IVec S16 32) a x).toNat < S512x128.size a)
instance k1_chk495.dec : ∀ (v1122 : IVec S16 32) (v1293 : IVec S16 32), Decidable (k1_chk495 v1122 v1293) := fun v1122 v1293 => decidable_of_iff' _ (Iff.of_eq (k1_chk495.eq_1 v1122 v1293))
theorem k1_idx495_inb : ∀ (v1122 : IVec S16 32) (v1293 : IVec S16 32) (k1_hw495 : k1_chk495 v1122 v1293), ∀ a x, ((![v1122, v1293] : Fin 2 → IVec S16 32) a x).toNat < S512x128.size a := fun v1122 v1293 k1_hw495 => k1_hw495

def k1_chk496 (v1122 : IVec S16 32) (v1292 : IVec S16 32) : Prop :=
  (∀ a x, ((![v1292, v1122] : Fin 2 → IVec S16 32) a x).toNat < S64x512.size a)
instance k1_chk496.dec : ∀ (v1122 : IVec S16 32) (v1292 : IVec S16 32), Decidable (k1_chk496 v1122 v1292) := fun v1122 v1292 => decidable_of_iff' _ (Iff.of_eq (k1_chk496.eq_1 v1122 v1292))
theorem k1_idx496_inb : ∀ (v1122 : IVec S16 32) (v1292 : IVec S16 32) (k1_hw496 : k1_chk496 v1122 v1292), ∀ a x, ((![v1292, v1122] : Fin 2 → IVec S16 32) a x).toNat < S64x512.size a := fun v1122 v1292 k1_hw496 => k1_hw496

def k1_chk497 (v1122 : IVec S16 32) (v1296 : IVec S16 32) : Prop :=
  (∀ a x, ((![v1122, v1296] : Fin 2 → IVec S16 32) a x).toNat < S512x128.size a)
instance k1_chk497.dec : ∀ (v1122 : IVec S16 32) (v1296 : IVec S16 32), Decidable (k1_chk497 v1122 v1296) := fun v1122 v1296 => decidable_of_iff' _ (Iff.of_eq (k1_chk497.eq_1 v1122 v1296))
theorem k1_idx497_inb : ∀ (v1122 : IVec S16 32) (v1296 : IVec S16 32) (k1_hw497 : k1_chk497 v1122 v1296), ∀ a x, ((![v1122, v1296] : Fin 2 → IVec S16 32) a x).toNat < S512x128.size a := fun v1122 v1296 k1_hw497 => k1_hw497

def k1_chk498 (v1122 : IVec S16 32) (v1295 : IVec S16 32) : Prop :=
  (∀ a x, ((![v1295, v1122] : Fin 2 → IVec S16 32) a x).toNat < S64x512.size a)
instance k1_chk498.dec : ∀ (v1122 : IVec S16 32) (v1295 : IVec S16 32), Decidable (k1_chk498 v1122 v1295) := fun v1122 v1295 => decidable_of_iff' _ (Iff.of_eq (k1_chk498.eq_1 v1122 v1295))
theorem k1_idx498_inb : ∀ (v1122 : IVec S16 32) (v1295 : IVec S16 32) (k1_hw498 : k1_chk498 v1122 v1295), ∀ a x, ((![v1295, v1122] : Fin 2 → IVec S16 32) a x).toNat < S64x512.size a := fun v1122 v1295 k1_hw498 => k1_hw498

def k1_chk499 (v1122 : IVec S16 32) (v1299 : IVec S16 32) : Prop :=
  (∀ a x, ((![v1122, v1299] : Fin 2 → IVec S16 32) a x).toNat < S512x128.size a)
instance k1_chk499.dec : ∀ (v1122 : IVec S16 32) (v1299 : IVec S16 32), Decidable (k1_chk499 v1122 v1299) := fun v1122 v1299 => decidable_of_iff' _ (Iff.of_eq (k1_chk499.eq_1 v1122 v1299))
theorem k1_idx499_inb : ∀ (v1122 : IVec S16 32) (v1299 : IVec S16 32) (k1_hw499 : k1_chk499 v1122 v1299), ∀ a x, ((![v1122, v1299] : Fin 2 → IVec S16 32) a x).toNat < S512x128.size a := fun v1122 v1299 k1_hw499 => k1_hw499

def k1_chk500 (v1122 : IVec S16 32) (v1298 : IVec S16 32) : Prop :=
  (∀ a x, ((![v1298, v1122] : Fin 2 → IVec S16 32) a x).toNat < S64x512.size a)
instance k1_chk500.dec : ∀ (v1122 : IVec S16 32) (v1298 : IVec S16 32), Decidable (k1_chk500 v1122 v1298) := fun v1122 v1298 => decidable_of_iff' _ (Iff.of_eq (k1_chk500.eq_1 v1122 v1298))
theorem k1_idx500_inb : ∀ (v1122 : IVec S16 32) (v1298 : IVec S16 32) (k1_hw500 : k1_chk500 v1122 v1298), ∀ a x, ((![v1298, v1122] : Fin 2 → IVec S16 32) a x).toNat < S64x512.size a := fun v1122 v1298 k1_hw500 => k1_hw500

def k1_chk501 (v1122 : IVec S16 32) (v1302 : IVec S16 32) : Prop :=
  (∀ a x, ((![v1122, v1302] : Fin 2 → IVec S16 32) a x).toNat < S512x128.size a)
instance k1_chk501.dec : ∀ (v1122 : IVec S16 32) (v1302 : IVec S16 32), Decidable (k1_chk501 v1122 v1302) := fun v1122 v1302 => decidable_of_iff' _ (Iff.of_eq (k1_chk501.eq_1 v1122 v1302))
theorem k1_idx501_inb : ∀ (v1122 : IVec S16 32) (v1302 : IVec S16 32) (k1_hw501 : k1_chk501 v1122 v1302), ∀ a x, ((![v1122, v1302] : Fin 2 → IVec S16 32) a x).toNat < S512x128.size a := fun v1122 v1302 k1_hw501 => k1_hw501

def k1_chk502 (v1122 : IVec S16 32) (v1301 : IVec S16 32) : Prop :=
  (∀ a x, ((![v1301, v1122] : Fin 2 → IVec S16 32) a x).toNat < S64x512.size a)
instance k1_chk502.dec : ∀ (v1122 : IVec S16 32) (v1301 : IVec S16 32), Decidable (k1_chk502 v1122 v1301) := fun v1122 v1301 => decidable_of_iff' _ (Iff.of_eq (k1_chk502.eq_1 v1122 v1301))
theorem k1_idx502_inb : ∀ (v1122 : IVec S16 32) (v1301 : IVec S16 32) (k1_hw502 : k1_chk502 v1122 v1301), ∀ a x, ((![v1301, v1122] : Fin 2 → IVec S16 32) a x).toNat < S64x512.size a := fun v1122 v1301 k1_hw502 => k1_hw502

def k1_chk503 (v1122 : IVec S16 32) (v1305 : IVec S16 32) : Prop :=
  (∀ a x, ((![v1122, v1305] : Fin 2 → IVec S16 32) a x).toNat < S512x128.size a)
instance k1_chk503.dec : ∀ (v1122 : IVec S16 32) (v1305 : IVec S16 32), Decidable (k1_chk503 v1122 v1305) := fun v1122 v1305 => decidable_of_iff' _ (Iff.of_eq (k1_chk503.eq_1 v1122 v1305))
theorem k1_idx503_inb : ∀ (v1122 : IVec S16 32) (v1305 : IVec S16 32) (k1_hw503 : k1_chk503 v1122 v1305), ∀ a x, ((![v1122, v1305] : Fin 2 → IVec S16 32) a x).toNat < S512x128.size a := fun v1122 v1305 k1_hw503 => k1_hw503

def k1_chk504 (v1122 : IVec S16 32) (v1304 : IVec S16 32) : Prop :=
  (∀ a x, ((![v1304, v1122] : Fin 2 → IVec S16 32) a x).toNat < S64x512.size a)
instance k1_chk504.dec : ∀ (v1122 : IVec S16 32) (v1304 : IVec S16 32), Decidable (k1_chk504 v1122 v1304) := fun v1122 v1304 => decidable_of_iff' _ (Iff.of_eq (k1_chk504.eq_1 v1122 v1304))
theorem k1_idx504_inb : ∀ (v1122 : IVec S16 32) (v1304 : IVec S16 32) (k1_hw504 : k1_chk504 v1122 v1304), ∀ a x, ((![v1304, v1122] : Fin 2 → IVec S16 32) a x).toNat < S64x512.size a := fun v1122 v1304 k1_hw504 => k1_hw504

def k1_chk505 (v1122 : IVec S16 32) (v1308 : IVec S16 32) : Prop :=
  (∀ a x, ((![v1122, v1308] : Fin 2 → IVec S16 32) a x).toNat < S512x128.size a)
instance k1_chk505.dec : ∀ (v1122 : IVec S16 32) (v1308 : IVec S16 32), Decidable (k1_chk505 v1122 v1308) := fun v1122 v1308 => decidable_of_iff' _ (Iff.of_eq (k1_chk505.eq_1 v1122 v1308))
theorem k1_idx505_inb : ∀ (v1122 : IVec S16 32) (v1308 : IVec S16 32) (k1_hw505 : k1_chk505 v1122 v1308), ∀ a x, ((![v1122, v1308] : Fin 2 → IVec S16 32) a x).toNat < S512x128.size a := fun v1122 v1308 k1_hw505 => k1_hw505

def k1_chk506 (v1122 : IVec S16 32) (v1307 : IVec S16 32) : Prop :=
  (∀ a x, ((![v1307, v1122] : Fin 2 → IVec S16 32) a x).toNat < S64x512.size a)
instance k1_chk506.dec : ∀ (v1122 : IVec S16 32) (v1307 : IVec S16 32), Decidable (k1_chk506 v1122 v1307) := fun v1122 v1307 => decidable_of_iff' _ (Iff.of_eq (k1_chk506.eq_1 v1122 v1307))
theorem k1_idx506_inb : ∀ (v1122 : IVec S16 32) (v1307 : IVec S16 32) (k1_hw506 : k1_chk506 v1122 v1307), ∀ a x, ((![v1307, v1122] : Fin 2 → IVec S16 32) a x).toNat < S64x512.size a := fun v1122 v1307 k1_hw506 => k1_hw506

def k1_chk507 (v1122 : IVec S16 32) (v1311 : IVec S16 32) : Prop :=
  (∀ a x, ((![v1122, v1311] : Fin 2 → IVec S16 32) a x).toNat < S512x128.size a)
instance k1_chk507.dec : ∀ (v1122 : IVec S16 32) (v1311 : IVec S16 32), Decidable (k1_chk507 v1122 v1311) := fun v1122 v1311 => decidable_of_iff' _ (Iff.of_eq (k1_chk507.eq_1 v1122 v1311))
theorem k1_idx507_inb : ∀ (v1122 : IVec S16 32) (v1311 : IVec S16 32) (k1_hw507 : k1_chk507 v1122 v1311), ∀ a x, ((![v1122, v1311] : Fin 2 → IVec S16 32) a x).toNat < S512x128.size a := fun v1122 v1311 k1_hw507 => k1_hw507

def k1_chk508 (v1122 : IVec S16 32) (v1310 : IVec S16 32) : Prop :=
  (∀ a x, ((![v1310, v1122] : Fin 2 → IVec S16 32) a x).toNat < S64x512.size a)
instance k1_chk508.dec : ∀ (v1122 : IVec S16 32) (v1310 : IVec S16 32), Decidable (k1_chk508 v1122 v1310) := fun v1122 v1310 => decidable_of_iff' _ (Iff.of_eq (k1_chk508.eq_1 v1122 v1310))
theorem k1_idx508_inb : ∀ (v1122 : IVec S16 32) (v1310 : IVec S16 32) (k1_hw508 : k1_chk508 v1122 v1310), ∀ a x, ((![v1310, v1122] : Fin 2 → IVec S16 32) a x).toNat < S64x512.size a := fun v1122 v1310 k1_hw508 => k1_hw508

def k1_chk509 (v1122 : IVec S16 32) (v1314 : IVec S16 32) : Prop :=
  (∀ a x, ((![v1122, v1314] : Fin 2 → IVec S16 32) a x).toNat < S512x128.size a)
instance k1_chk509.dec : ∀ (v1122 : IVec S16 32) (v1314 : IVec S16 32), Decidable (k1_chk509 v1122 v1314) := fun v1122 v1314 => decidable_of_iff' _ (Iff.of_eq (k1_chk509.eq_1 v1122 v1314))
theorem k1_idx509_inb : ∀ (v1122 : IVec S16 32) (v1314 : IVec S16 32) (k1_hw509 : k1_chk509 v1122 v1314), ∀ a x, ((![v1122, v1314] : Fin 2 → IVec S16 32) a x).toNat < S512x128.size a := fun v1122 v1314 k1_hw509 => k1_hw509

def k1_chk510 (v1122 : IVec S16 32) (v1313 : IVec S16 32) : Prop :=
  (∀ a x, ((![v1313, v1122] : Fin 2 → IVec S16 32) a x).toNat < S64x512.size a)
instance k1_chk510.dec : ∀ (v1122 : IVec S16 32) (v1313 : IVec S16 32), Decidable (k1_chk510 v1122 v1313) := fun v1122 v1313 => decidable_of_iff' _ (Iff.of_eq (k1_chk510.eq_1 v1122 v1313))
theorem k1_idx510_inb : ∀ (v1122 : IVec S16 32) (v1313 : IVec S16 32) (k1_hw510 : k1_chk510 v1122 v1313), ∀ a x, ((![v1313, v1122] : Fin 2 → IVec S16 32) a x).toNat < S64x512.size a := fun v1122 v1313 k1_hw510 => k1_hw510

def k1_chk511 (v1122 : IVec S16 32) (v1317 : IVec S16 32) : Prop :=
  (∀ a x, ((![v1122, v1317] : Fin 2 → IVec S16 32) a x).toNat < S512x128.size a)
instance k1_chk511.dec : ∀ (v1122 : IVec S16 32) (v1317 : IVec S16 32), Decidable (k1_chk511 v1122 v1317) := fun v1122 v1317 => decidable_of_iff' _ (Iff.of_eq (k1_chk511.eq_1 v1122 v1317))
theorem k1_idx511_inb : ∀ (v1122 : IVec S16 32) (v1317 : IVec S16 32) (k1_hw511 : k1_chk511 v1122 v1317), ∀ a x, ((![v1122, v1317] : Fin 2 → IVec S16 32) a x).toNat < S512x128.size a := fun v1122 v1317 k1_hw511 => k1_hw511

def k1_chk512 (v1122 : IVec S16 32) (v1316 : IVec S16 32) : Prop :=
  (∀ a x, ((![v1316, v1122] : Fin 2 → IVec S16 32) a x).toNat < S64x512.size a)
instance k1_chk512.dec : ∀ (v1122 : IVec S16 32) (v1316 : IVec S16 32), Decidable (k1_chk512 v1122 v1316) := fun v1122 v1316 => decidable_of_iff' _ (Iff.of_eq (k1_chk512.eq_1 v1122 v1316))
theorem k1_idx512_inb : ∀ (v1122 : IVec S16 32) (v1316 : IVec S16 32) (k1_hw512 : k1_chk512 v1122 v1316), ∀ a x, ((![v1316, v1122] : Fin 2 → IVec S16 32) a x).toNat < S64x512.size a := fun v1122 v1316 k1_hw512 => k1_hw512
def k1_off6 (k1_t1 : Fin k1_t1_loop.trips) : Fin 1 → Nat :=
  let c0_i32_254 : BitVec 32 := 0#32
  let c1_i32_255 : BitVec 32 := 1#32
  let arg11 : BitVec 32 := Scf.iv c0_i32_254 c1_i32_255 k1_t1
  let c128_i32_472 : BitVec 32 := 128#32
  let v1323 : BitVec 32 := Scalar.muli arg11 c128_i32_472
  let c64_i32_473 : BitVec 32 := 64#32
  let v1324 : BitVec 32 := Scalar.addi v1323 c64_i32_473
  let v1325 : Index := Scalar.indexCast v1324
  ![v1325.toNat]

def k1_chk513 (v1322 : IVec S16 32) (v1328 : IVec S16 32) : Prop :=
  (∀ a x, ((![v1322, v1328] : Fin 2 → IVec S16 32) a x).toNat < S512x128.size a)
instance k1_chk513.dec : ∀ (v1322 : IVec S16 32) (v1328 : IVec S16 32), Decidable (k1_chk513 v1322 v1328) := fun v1322 v1328 => decidable_of_iff' _ (Iff.of_eq (k1_chk513.eq_1 v1322 v1328))
theorem k1_idx513_inb : ∀ (v1322 : IVec S16 32) (v1328 : IVec S16 32) (k1_hw513 : k1_chk513 v1322 v1328), ∀ a x, ((![v1322, v1328] : Fin 2 → IVec S16 32) a x).toNat < S512x128.size a := fun v1322 v1328 k1_hw513 => k1_hw513

def k1_chk514 (v1322 : IVec S16 32) (v1327 : IVec S16 32) : Prop :=
  (∀ a x, ((![v1327, v1322] : Fin 2 → IVec S16 32) a x).toNat < S64x512.size a)
instance k1_chk514.dec : ∀ (v1322 : IVec S16 32) (v1327 : IVec S16 32), Decidable (k1_chk514 v1322 v1327) := fun v1322 v1327 => decidable_of_iff' _ (Iff.of_eq (k1_chk514.eq_1 v1322 v1327))
theorem k1_idx514_inb : ∀ (v1322 : IVec S16 32) (v1327 : IVec S16 32) (k1_hw514 : k1_chk514 v1322 v1327), ∀ a x, ((![v1327, v1322] : Fin 2 → IVec S16 32) a x).toNat < S64x512.size a := fun v1322 v1327 k1_hw514 => k1_hw514

def k1_chk515 (v1322 : IVec S16 32) (v1331 : IVec S16 32) : Prop :=
  (∀ a x, ((![v1322, v1331] : Fin 2 → IVec S16 32) a x).toNat < S512x128.size a)
instance k1_chk515.dec : ∀ (v1322 : IVec S16 32) (v1331 : IVec S16 32), Decidable (k1_chk515 v1322 v1331) := fun v1322 v1331 => decidable_of_iff' _ (Iff.of_eq (k1_chk515.eq_1 v1322 v1331))
theorem k1_idx515_inb : ∀ (v1322 : IVec S16 32) (v1331 : IVec S16 32) (k1_hw515 : k1_chk515 v1322 v1331), ∀ a x, ((![v1322, v1331] : Fin 2 → IVec S16 32) a x).toNat < S512x128.size a := fun v1322 v1331 k1_hw515 => k1_hw515

def k1_chk516 (v1322 : IVec S16 32) (v1330 : IVec S16 32) : Prop :=
  (∀ a x, ((![v1330, v1322] : Fin 2 → IVec S16 32) a x).toNat < S64x512.size a)
instance k1_chk516.dec : ∀ (v1322 : IVec S16 32) (v1330 : IVec S16 32), Decidable (k1_chk516 v1322 v1330) := fun v1322 v1330 => decidable_of_iff' _ (Iff.of_eq (k1_chk516.eq_1 v1322 v1330))
theorem k1_idx516_inb : ∀ (v1322 : IVec S16 32) (v1330 : IVec S16 32) (k1_hw516 : k1_chk516 v1322 v1330), ∀ a x, ((![v1330, v1322] : Fin 2 → IVec S16 32) a x).toNat < S64x512.size a := fun v1322 v1330 k1_hw516 => k1_hw516

def k1_chk517 (v1322 : IVec S16 32) (v1334 : IVec S16 32) : Prop :=
  (∀ a x, ((![v1322, v1334] : Fin 2 → IVec S16 32) a x).toNat < S512x128.size a)
instance k1_chk517.dec : ∀ (v1322 : IVec S16 32) (v1334 : IVec S16 32), Decidable (k1_chk517 v1322 v1334) := fun v1322 v1334 => decidable_of_iff' _ (Iff.of_eq (k1_chk517.eq_1 v1322 v1334))
theorem k1_idx517_inb : ∀ (v1322 : IVec S16 32) (v1334 : IVec S16 32) (k1_hw517 : k1_chk517 v1322 v1334), ∀ a x, ((![v1322, v1334] : Fin 2 → IVec S16 32) a x).toNat < S512x128.size a := fun v1322 v1334 k1_hw517 => k1_hw517

def k1_chk518 (v1322 : IVec S16 32) (v1333 : IVec S16 32) : Prop :=
  (∀ a x, ((![v1333, v1322] : Fin 2 → IVec S16 32) a x).toNat < S64x512.size a)
instance k1_chk518.dec : ∀ (v1322 : IVec S16 32) (v1333 : IVec S16 32), Decidable (k1_chk518 v1322 v1333) := fun v1322 v1333 => decidable_of_iff' _ (Iff.of_eq (k1_chk518.eq_1 v1322 v1333))
theorem k1_idx518_inb : ∀ (v1322 : IVec S16 32) (v1333 : IVec S16 32) (k1_hw518 : k1_chk518 v1322 v1333), ∀ a x, ((![v1333, v1322] : Fin 2 → IVec S16 32) a x).toNat < S64x512.size a := fun v1322 v1333 k1_hw518 => k1_hw518

def k1_chk519 (v1322 : IVec S16 32) (v1337 : IVec S16 32) : Prop :=
  (∀ a x, ((![v1322, v1337] : Fin 2 → IVec S16 32) a x).toNat < S512x128.size a)
instance k1_chk519.dec : ∀ (v1322 : IVec S16 32) (v1337 : IVec S16 32), Decidable (k1_chk519 v1322 v1337) := fun v1322 v1337 => decidable_of_iff' _ (Iff.of_eq (k1_chk519.eq_1 v1322 v1337))
theorem k1_idx519_inb : ∀ (v1322 : IVec S16 32) (v1337 : IVec S16 32) (k1_hw519 : k1_chk519 v1322 v1337), ∀ a x, ((![v1322, v1337] : Fin 2 → IVec S16 32) a x).toNat < S512x128.size a := fun v1322 v1337 k1_hw519 => k1_hw519

def k1_chk520 (v1322 : IVec S16 32) (v1336 : IVec S16 32) : Prop :=
  (∀ a x, ((![v1336, v1322] : Fin 2 → IVec S16 32) a x).toNat < S64x512.size a)
instance k1_chk520.dec : ∀ (v1322 : IVec S16 32) (v1336 : IVec S16 32), Decidable (k1_chk520 v1322 v1336) := fun v1322 v1336 => decidable_of_iff' _ (Iff.of_eq (k1_chk520.eq_1 v1322 v1336))
theorem k1_idx520_inb : ∀ (v1322 : IVec S16 32) (v1336 : IVec S16 32) (k1_hw520 : k1_chk520 v1322 v1336), ∀ a x, ((![v1336, v1322] : Fin 2 → IVec S16 32) a x).toNat < S64x512.size a := fun v1322 v1336 k1_hw520 => k1_hw520

def k1_chk521 (v1322 : IVec S16 32) (v1340 : IVec S16 32) : Prop :=
  (∀ a x, ((![v1322, v1340] : Fin 2 → IVec S16 32) a x).toNat < S512x128.size a)
instance k1_chk521.dec : ∀ (v1322 : IVec S16 32) (v1340 : IVec S16 32), Decidable (k1_chk521 v1322 v1340) := fun v1322 v1340 => decidable_of_iff' _ (Iff.of_eq (k1_chk521.eq_1 v1322 v1340))
theorem k1_idx521_inb : ∀ (v1322 : IVec S16 32) (v1340 : IVec S16 32) (k1_hw521 : k1_chk521 v1322 v1340), ∀ a x, ((![v1322, v1340] : Fin 2 → IVec S16 32) a x).toNat < S512x128.size a := fun v1322 v1340 k1_hw521 => k1_hw521

def k1_chk522 (v1322 : IVec S16 32) (v1339 : IVec S16 32) : Prop :=
  (∀ a x, ((![v1339, v1322] : Fin 2 → IVec S16 32) a x).toNat < S64x512.size a)
instance k1_chk522.dec : ∀ (v1322 : IVec S16 32) (v1339 : IVec S16 32), Decidable (k1_chk522 v1322 v1339) := fun v1322 v1339 => decidable_of_iff' _ (Iff.of_eq (k1_chk522.eq_1 v1322 v1339))
theorem k1_idx522_inb : ∀ (v1322 : IVec S16 32) (v1339 : IVec S16 32) (k1_hw522 : k1_chk522 v1322 v1339), ∀ a x, ((![v1339, v1322] : Fin 2 → IVec S16 32) a x).toNat < S64x512.size a := fun v1322 v1339 k1_hw522 => k1_hw522

def k1_chk523 (v1322 : IVec S16 32) (v1343 : IVec S16 32) : Prop :=
  (∀ a x, ((![v1322, v1343] : Fin 2 → IVec S16 32) a x).toNat < S512x128.size a)
instance k1_chk523.dec : ∀ (v1322 : IVec S16 32) (v1343 : IVec S16 32), Decidable (k1_chk523 v1322 v1343) := fun v1322 v1343 => decidable_of_iff' _ (Iff.of_eq (k1_chk523.eq_1 v1322 v1343))
theorem k1_idx523_inb : ∀ (v1322 : IVec S16 32) (v1343 : IVec S16 32) (k1_hw523 : k1_chk523 v1322 v1343), ∀ a x, ((![v1322, v1343] : Fin 2 → IVec S16 32) a x).toNat < S512x128.size a := fun v1322 v1343 k1_hw523 => k1_hw523

def k1_chk524 (v1322 : IVec S16 32) (v1342 : IVec S16 32) : Prop :=
  (∀ a x, ((![v1342, v1322] : Fin 2 → IVec S16 32) a x).toNat < S64x512.size a)
instance k1_chk524.dec : ∀ (v1322 : IVec S16 32) (v1342 : IVec S16 32), Decidable (k1_chk524 v1322 v1342) := fun v1322 v1342 => decidable_of_iff' _ (Iff.of_eq (k1_chk524.eq_1 v1322 v1342))
theorem k1_idx524_inb : ∀ (v1322 : IVec S16 32) (v1342 : IVec S16 32) (k1_hw524 : k1_chk524 v1322 v1342), ∀ a x, ((![v1342, v1322] : Fin 2 → IVec S16 32) a x).toNat < S64x512.size a := fun v1322 v1342 k1_hw524 => k1_hw524

def k1_chk525 (v1322 : IVec S16 32) (v1346 : IVec S16 32) : Prop :=
  (∀ a x, ((![v1322, v1346] : Fin 2 → IVec S16 32) a x).toNat < S512x128.size a)
instance k1_chk525.dec : ∀ (v1322 : IVec S16 32) (v1346 : IVec S16 32), Decidable (k1_chk525 v1322 v1346) := fun v1322 v1346 => decidable_of_iff' _ (Iff.of_eq (k1_chk525.eq_1 v1322 v1346))
theorem k1_idx525_inb : ∀ (v1322 : IVec S16 32) (v1346 : IVec S16 32) (k1_hw525 : k1_chk525 v1322 v1346), ∀ a x, ((![v1322, v1346] : Fin 2 → IVec S16 32) a x).toNat < S512x128.size a := fun v1322 v1346 k1_hw525 => k1_hw525

def k1_chk526 (v1322 : IVec S16 32) (v1345 : IVec S16 32) : Prop :=
  (∀ a x, ((![v1345, v1322] : Fin 2 → IVec S16 32) a x).toNat < S64x512.size a)
instance k1_chk526.dec : ∀ (v1322 : IVec S16 32) (v1345 : IVec S16 32), Decidable (k1_chk526 v1322 v1345) := fun v1322 v1345 => decidable_of_iff' _ (Iff.of_eq (k1_chk526.eq_1 v1322 v1345))
theorem k1_idx526_inb : ∀ (v1322 : IVec S16 32) (v1345 : IVec S16 32) (k1_hw526 : k1_chk526 v1322 v1345), ∀ a x, ((![v1345, v1322] : Fin 2 → IVec S16 32) a x).toNat < S64x512.size a := fun v1322 v1345 k1_hw526 => k1_hw526

def k1_chk527 (v1322 : IVec S16 32) (v1349 : IVec S16 32) : Prop :=
  (∀ a x, ((![v1322, v1349] : Fin 2 → IVec S16 32) a x).toNat < S512x128.size a)
instance k1_chk527.dec : ∀ (v1322 : IVec S16 32) (v1349 : IVec S16 32), Decidable (k1_chk527 v1322 v1349) := fun v1322 v1349 => decidable_of_iff' _ (Iff.of_eq (k1_chk527.eq_1 v1322 v1349))
theorem k1_idx527_inb : ∀ (v1322 : IVec S16 32) (v1349 : IVec S16 32) (k1_hw527 : k1_chk527 v1322 v1349), ∀ a x, ((![v1322, v1349] : Fin 2 → IVec S16 32) a x).toNat < S512x128.size a := fun v1322 v1349 k1_hw527 => k1_hw527

def k1_chk528 (v1322 : IVec S16 32) (v1348 : IVec S16 32) : Prop :=
  (∀ a x, ((![v1348, v1322] : Fin 2 → IVec S16 32) a x).toNat < S64x512.size a)
instance k1_chk528.dec : ∀ (v1322 : IVec S16 32) (v1348 : IVec S16 32), Decidable (k1_chk528 v1322 v1348) := fun v1322 v1348 => decidable_of_iff' _ (Iff.of_eq (k1_chk528.eq_1 v1322 v1348))
theorem k1_idx528_inb : ∀ (v1322 : IVec S16 32) (v1348 : IVec S16 32) (k1_hw528 : k1_chk528 v1322 v1348), ∀ a x, ((![v1348, v1322] : Fin 2 → IVec S16 32) a x).toNat < S64x512.size a := fun v1322 v1348 k1_hw528 => k1_hw528

def k1_chk529 (v1322 : IVec S16 32) (v1352 : IVec S16 32) : Prop :=
  (∀ a x, ((![v1322, v1352] : Fin 2 → IVec S16 32) a x).toNat < S512x128.size a)
instance k1_chk529.dec : ∀ (v1322 : IVec S16 32) (v1352 : IVec S16 32), Decidable (k1_chk529 v1322 v1352) := fun v1322 v1352 => decidable_of_iff' _ (Iff.of_eq (k1_chk529.eq_1 v1322 v1352))
theorem k1_idx529_inb : ∀ (v1322 : IVec S16 32) (v1352 : IVec S16 32) (k1_hw529 : k1_chk529 v1322 v1352), ∀ a x, ((![v1322, v1352] : Fin 2 → IVec S16 32) a x).toNat < S512x128.size a := fun v1322 v1352 k1_hw529 => k1_hw529

def k1_chk530 (v1322 : IVec S16 32) (v1351 : IVec S16 32) : Prop :=
  (∀ a x, ((![v1351, v1322] : Fin 2 → IVec S16 32) a x).toNat < S64x512.size a)
instance k1_chk530.dec : ∀ (v1322 : IVec S16 32) (v1351 : IVec S16 32), Decidable (k1_chk530 v1322 v1351) := fun v1322 v1351 => decidable_of_iff' _ (Iff.of_eq (k1_chk530.eq_1 v1322 v1351))
theorem k1_idx530_inb : ∀ (v1322 : IVec S16 32) (v1351 : IVec S16 32) (k1_hw530 : k1_chk530 v1322 v1351), ∀ a x, ((![v1351, v1322] : Fin 2 → IVec S16 32) a x).toNat < S64x512.size a := fun v1322 v1351 k1_hw530 => k1_hw530

def k1_chk531 (v1322 : IVec S16 32) (v1355 : IVec S16 32) : Prop :=
  (∀ a x, ((![v1322, v1355] : Fin 2 → IVec S16 32) a x).toNat < S512x128.size a)
instance k1_chk531.dec : ∀ (v1322 : IVec S16 32) (v1355 : IVec S16 32), Decidable (k1_chk531 v1322 v1355) := fun v1322 v1355 => decidable_of_iff' _ (Iff.of_eq (k1_chk531.eq_1 v1322 v1355))
theorem k1_idx531_inb : ∀ (v1322 : IVec S16 32) (v1355 : IVec S16 32) (k1_hw531 : k1_chk531 v1322 v1355), ∀ a x, ((![v1322, v1355] : Fin 2 → IVec S16 32) a x).toNat < S512x128.size a := fun v1322 v1355 k1_hw531 => k1_hw531

def k1_chk532 (v1322 : IVec S16 32) (v1354 : IVec S16 32) : Prop :=
  (∀ a x, ((![v1354, v1322] : Fin 2 → IVec S16 32) a x).toNat < S64x512.size a)
instance k1_chk532.dec : ∀ (v1322 : IVec S16 32) (v1354 : IVec S16 32), Decidable (k1_chk532 v1322 v1354) := fun v1322 v1354 => decidable_of_iff' _ (Iff.of_eq (k1_chk532.eq_1 v1322 v1354))
theorem k1_idx532_inb : ∀ (v1322 : IVec S16 32) (v1354 : IVec S16 32) (k1_hw532 : k1_chk532 v1322 v1354), ∀ a x, ((![v1354, v1322] : Fin 2 → IVec S16 32) a x).toNat < S64x512.size a := fun v1322 v1354 k1_hw532 => k1_hw532

def k1_chk533 (v1322 : IVec S16 32) (v1358 : IVec S16 32) : Prop :=
  (∀ a x, ((![v1322, v1358] : Fin 2 → IVec S16 32) a x).toNat < S512x128.size a)
instance k1_chk533.dec : ∀ (v1322 : IVec S16 32) (v1358 : IVec S16 32), Decidable (k1_chk533 v1322 v1358) := fun v1322 v1358 => decidable_of_iff' _ (Iff.of_eq (k1_chk533.eq_1 v1322 v1358))
theorem k1_idx533_inb : ∀ (v1322 : IVec S16 32) (v1358 : IVec S16 32) (k1_hw533 : k1_chk533 v1322 v1358), ∀ a x, ((![v1322, v1358] : Fin 2 → IVec S16 32) a x).toNat < S512x128.size a := fun v1322 v1358 k1_hw533 => k1_hw533

def k1_chk534 (v1322 : IVec S16 32) (v1357 : IVec S16 32) : Prop :=
  (∀ a x, ((![v1357, v1322] : Fin 2 → IVec S16 32) a x).toNat < S64x512.size a)
instance k1_chk534.dec : ∀ (v1322 : IVec S16 32) (v1357 : IVec S16 32), Decidable (k1_chk534 v1322 v1357) := fun v1322 v1357 => decidable_of_iff' _ (Iff.of_eq (k1_chk534.eq_1 v1322 v1357))
theorem k1_idx534_inb : ∀ (v1322 : IVec S16 32) (v1357 : IVec S16 32) (k1_hw534 : k1_chk534 v1322 v1357), ∀ a x, ((![v1357, v1322] : Fin 2 → IVec S16 32) a x).toNat < S64x512.size a := fun v1322 v1357 k1_hw534 => k1_hw534

def k1_chk535 (v1322 : IVec S16 32) (v1361 : IVec S16 32) : Prop :=
  (∀ a x, ((![v1322, v1361] : Fin 2 → IVec S16 32) a x).toNat < S512x128.size a)
instance k1_chk535.dec : ∀ (v1322 : IVec S16 32) (v1361 : IVec S16 32), Decidable (k1_chk535 v1322 v1361) := fun v1322 v1361 => decidable_of_iff' _ (Iff.of_eq (k1_chk535.eq_1 v1322 v1361))
theorem k1_idx535_inb : ∀ (v1322 : IVec S16 32) (v1361 : IVec S16 32) (k1_hw535 : k1_chk535 v1322 v1361), ∀ a x, ((![v1322, v1361] : Fin 2 → IVec S16 32) a x).toNat < S512x128.size a := fun v1322 v1361 k1_hw535 => k1_hw535

def k1_chk536 (v1322 : IVec S16 32) (v1360 : IVec S16 32) : Prop :=
  (∀ a x, ((![v1360, v1322] : Fin 2 → IVec S16 32) a x).toNat < S64x512.size a)
instance k1_chk536.dec : ∀ (v1322 : IVec S16 32) (v1360 : IVec S16 32), Decidable (k1_chk536 v1322 v1360) := fun v1322 v1360 => decidable_of_iff' _ (Iff.of_eq (k1_chk536.eq_1 v1322 v1360))
theorem k1_idx536_inb : ∀ (v1322 : IVec S16 32) (v1360 : IVec S16 32) (k1_hw536 : k1_chk536 v1322 v1360), ∀ a x, ((![v1360, v1322] : Fin 2 → IVec S16 32) a x).toNat < S64x512.size a := fun v1322 v1360 k1_hw536 => k1_hw536

def k1_chk537 (v1322 : IVec S16 32) (v1364 : IVec S16 32) : Prop :=
  (∀ a x, ((![v1322, v1364] : Fin 2 → IVec S16 32) a x).toNat < S512x128.size a)
instance k1_chk537.dec : ∀ (v1322 : IVec S16 32) (v1364 : IVec S16 32), Decidable (k1_chk537 v1322 v1364) := fun v1322 v1364 => decidable_of_iff' _ (Iff.of_eq (k1_chk537.eq_1 v1322 v1364))
theorem k1_idx537_inb : ∀ (v1322 : IVec S16 32) (v1364 : IVec S16 32) (k1_hw537 : k1_chk537 v1322 v1364), ∀ a x, ((![v1322, v1364] : Fin 2 → IVec S16 32) a x).toNat < S512x128.size a := fun v1322 v1364 k1_hw537 => k1_hw537

def k1_chk538 (v1322 : IVec S16 32) (v1363 : IVec S16 32) : Prop :=
  (∀ a x, ((![v1363, v1322] : Fin 2 → IVec S16 32) a x).toNat < S64x512.size a)
instance k1_chk538.dec : ∀ (v1322 : IVec S16 32) (v1363 : IVec S16 32), Decidable (k1_chk538 v1322 v1363) := fun v1322 v1363 => decidable_of_iff' _ (Iff.of_eq (k1_chk538.eq_1 v1322 v1363))
theorem k1_idx538_inb : ∀ (v1322 : IVec S16 32) (v1363 : IVec S16 32) (k1_hw538 : k1_chk538 v1322 v1363), ∀ a x, ((![v1363, v1322] : Fin 2 → IVec S16 32) a x).toNat < S64x512.size a := fun v1322 v1363 k1_hw538 => k1_hw538

def k1_chk539 (v1322 : IVec S16 32) (v1367 : IVec S16 32) : Prop :=
  (∀ a x, ((![v1322, v1367] : Fin 2 → IVec S16 32) a x).toNat < S512x128.size a)
instance k1_chk539.dec : ∀ (v1322 : IVec S16 32) (v1367 : IVec S16 32), Decidable (k1_chk539 v1322 v1367) := fun v1322 v1367 => decidable_of_iff' _ (Iff.of_eq (k1_chk539.eq_1 v1322 v1367))
theorem k1_idx539_inb : ∀ (v1322 : IVec S16 32) (v1367 : IVec S16 32) (k1_hw539 : k1_chk539 v1322 v1367), ∀ a x, ((![v1322, v1367] : Fin 2 → IVec S16 32) a x).toNat < S512x128.size a := fun v1322 v1367 k1_hw539 => k1_hw539

def k1_chk540 (v1322 : IVec S16 32) (v1366 : IVec S16 32) : Prop :=
  (∀ a x, ((![v1366, v1322] : Fin 2 → IVec S16 32) a x).toNat < S64x512.size a)
instance k1_chk540.dec : ∀ (v1322 : IVec S16 32) (v1366 : IVec S16 32), Decidable (k1_chk540 v1322 v1366) := fun v1322 v1366 => decidable_of_iff' _ (Iff.of_eq (k1_chk540.eq_1 v1322 v1366))
theorem k1_idx540_inb : ∀ (v1322 : IVec S16 32) (v1366 : IVec S16 32) (k1_hw540 : k1_chk540 v1322 v1366), ∀ a x, ((![v1366, v1322] : Fin 2 → IVec S16 32) a x).toNat < S64x512.size a := fun v1322 v1366 k1_hw540 => k1_hw540

def k1_chk541 (v1322 : IVec S16 32) (v1370 : IVec S16 32) : Prop :=
  (∀ a x, ((![v1322, v1370] : Fin 2 → IVec S16 32) a x).toNat < S512x128.size a)
instance k1_chk541.dec : ∀ (v1322 : IVec S16 32) (v1370 : IVec S16 32), Decidable (k1_chk541 v1322 v1370) := fun v1322 v1370 => decidable_of_iff' _ (Iff.of_eq (k1_chk541.eq_1 v1322 v1370))
theorem k1_idx541_inb : ∀ (v1322 : IVec S16 32) (v1370 : IVec S16 32) (k1_hw541 : k1_chk541 v1322 v1370), ∀ a x, ((![v1322, v1370] : Fin 2 → IVec S16 32) a x).toNat < S512x128.size a := fun v1322 v1370 k1_hw541 => k1_hw541

def k1_chk542 (v1322 : IVec S16 32) (v1369 : IVec S16 32) : Prop :=
  (∀ a x, ((![v1369, v1322] : Fin 2 → IVec S16 32) a x).toNat < S64x512.size a)
instance k1_chk542.dec : ∀ (v1322 : IVec S16 32) (v1369 : IVec S16 32), Decidable (k1_chk542 v1322 v1369) := fun v1322 v1369 => decidable_of_iff' _ (Iff.of_eq (k1_chk542.eq_1 v1322 v1369))
theorem k1_idx542_inb : ∀ (v1322 : IVec S16 32) (v1369 : IVec S16 32) (k1_hw542 : k1_chk542 v1322 v1369), ∀ a x, ((![v1369, v1322] : Fin 2 → IVec S16 32) a x).toNat < S64x512.size a := fun v1322 v1369 k1_hw542 => k1_hw542

def k1_chk543 (v1322 : IVec S16 32) (v1373 : IVec S16 32) : Prop :=
  (∀ a x, ((![v1322, v1373] : Fin 2 → IVec S16 32) a x).toNat < S512x128.size a)
instance k1_chk543.dec : ∀ (v1322 : IVec S16 32) (v1373 : IVec S16 32), Decidable (k1_chk543 v1322 v1373) := fun v1322 v1373 => decidable_of_iff' _ (Iff.of_eq (k1_chk543.eq_1 v1322 v1373))
theorem k1_idx543_inb : ∀ (v1322 : IVec S16 32) (v1373 : IVec S16 32) (k1_hw543 : k1_chk543 v1322 v1373), ∀ a x, ((![v1322, v1373] : Fin 2 → IVec S16 32) a x).toNat < S512x128.size a := fun v1322 v1373 k1_hw543 => k1_hw543

def k1_chk544 (v1322 : IVec S16 32) (v1372 : IVec S16 32) : Prop :=
  (∀ a x, ((![v1372, v1322] : Fin 2 → IVec S16 32) a x).toNat < S64x512.size a)
instance k1_chk544.dec : ∀ (v1322 : IVec S16 32) (v1372 : IVec S16 32), Decidable (k1_chk544 v1322 v1372) := fun v1322 v1372 => decidable_of_iff' _ (Iff.of_eq (k1_chk544.eq_1 v1322 v1372))
theorem k1_idx544_inb : ∀ (v1322 : IVec S16 32) (v1372 : IVec S16 32) (k1_hw544 : k1_chk544 v1322 v1372), ∀ a x, ((![v1372, v1322] : Fin 2 → IVec S16 32) a x).toNat < S64x512.size a := fun v1322 v1372 k1_hw544 => k1_hw544

def k1_chk545 (v1322 : IVec S16 32) (v1376 : IVec S16 32) : Prop :=
  (∀ a x, ((![v1322, v1376] : Fin 2 → IVec S16 32) a x).toNat < S512x128.size a)
instance k1_chk545.dec : ∀ (v1322 : IVec S16 32) (v1376 : IVec S16 32), Decidable (k1_chk545 v1322 v1376) := fun v1322 v1376 => decidable_of_iff' _ (Iff.of_eq (k1_chk545.eq_1 v1322 v1376))
theorem k1_idx545_inb : ∀ (v1322 : IVec S16 32) (v1376 : IVec S16 32) (k1_hw545 : k1_chk545 v1322 v1376), ∀ a x, ((![v1322, v1376] : Fin 2 → IVec S16 32) a x).toNat < S512x128.size a := fun v1322 v1376 k1_hw545 => k1_hw545

def k1_chk546 (v1322 : IVec S16 32) (v1375 : IVec S16 32) : Prop :=
  (∀ a x, ((![v1375, v1322] : Fin 2 → IVec S16 32) a x).toNat < S64x512.size a)
instance k1_chk546.dec : ∀ (v1322 : IVec S16 32) (v1375 : IVec S16 32), Decidable (k1_chk546 v1322 v1375) := fun v1322 v1375 => decidable_of_iff' _ (Iff.of_eq (k1_chk546.eq_1 v1322 v1375))
theorem k1_idx546_inb : ∀ (v1322 : IVec S16 32) (v1375 : IVec S16 32) (k1_hw546 : k1_chk546 v1322 v1375), ∀ a x, ((![v1375, v1322] : Fin 2 → IVec S16 32) a x).toNat < S64x512.size a := fun v1322 v1375 k1_hw546 => k1_hw546

def k1_chk547 (v1322 : IVec S16 32) (v1379 : IVec S16 32) : Prop :=
  (∀ a x, ((![v1322, v1379] : Fin 2 → IVec S16 32) a x).toNat < S512x128.size a)
instance k1_chk547.dec : ∀ (v1322 : IVec S16 32) (v1379 : IVec S16 32), Decidable (k1_chk547 v1322 v1379) := fun v1322 v1379 => decidable_of_iff' _ (Iff.of_eq (k1_chk547.eq_1 v1322 v1379))
theorem k1_idx547_inb : ∀ (v1322 : IVec S16 32) (v1379 : IVec S16 32) (k1_hw547 : k1_chk547 v1322 v1379), ∀ a x, ((![v1322, v1379] : Fin 2 → IVec S16 32) a x).toNat < S512x128.size a := fun v1322 v1379 k1_hw547 => k1_hw547

def k1_chk548 (v1322 : IVec S16 32) (v1378 : IVec S16 32) : Prop :=
  (∀ a x, ((![v1378, v1322] : Fin 2 → IVec S16 32) a x).toNat < S64x512.size a)
instance k1_chk548.dec : ∀ (v1322 : IVec S16 32) (v1378 : IVec S16 32), Decidable (k1_chk548 v1322 v1378) := fun v1322 v1378 => decidable_of_iff' _ (Iff.of_eq (k1_chk548.eq_1 v1322 v1378))
theorem k1_idx548_inb : ∀ (v1322 : IVec S16 32) (v1378 : IVec S16 32) (k1_hw548 : k1_chk548 v1322 v1378), ∀ a x, ((![v1378, v1322] : Fin 2 → IVec S16 32) a x).toNat < S64x512.size a := fun v1322 v1378 k1_hw548 => k1_hw548

def k1_chk549 (v1322 : IVec S16 32) (v1382 : IVec S16 32) : Prop :=
  (∀ a x, ((![v1322, v1382] : Fin 2 → IVec S16 32) a x).toNat < S512x128.size a)
instance k1_chk549.dec : ∀ (v1322 : IVec S16 32) (v1382 : IVec S16 32), Decidable (k1_chk549 v1322 v1382) := fun v1322 v1382 => decidable_of_iff' _ (Iff.of_eq (k1_chk549.eq_1 v1322 v1382))
theorem k1_idx549_inb : ∀ (v1322 : IVec S16 32) (v1382 : IVec S16 32) (k1_hw549 : k1_chk549 v1322 v1382), ∀ a x, ((![v1322, v1382] : Fin 2 → IVec S16 32) a x).toNat < S512x128.size a := fun v1322 v1382 k1_hw549 => k1_hw549

def k1_chk550 (v1322 : IVec S16 32) (v1381 : IVec S16 32) : Prop :=
  (∀ a x, ((![v1381, v1322] : Fin 2 → IVec S16 32) a x).toNat < S64x512.size a)
instance k1_chk550.dec : ∀ (v1322 : IVec S16 32) (v1381 : IVec S16 32), Decidable (k1_chk550 v1322 v1381) := fun v1322 v1381 => decidable_of_iff' _ (Iff.of_eq (k1_chk550.eq_1 v1322 v1381))
theorem k1_idx550_inb : ∀ (v1322 : IVec S16 32) (v1381 : IVec S16 32) (k1_hw550 : k1_chk550 v1322 v1381), ∀ a x, ((![v1381, v1322] : Fin 2 → IVec S16 32) a x).toNat < S64x512.size a := fun v1322 v1381 k1_hw550 => k1_hw550

def k1_chk551 (v1322 : IVec S16 32) (v1385 : IVec S16 32) : Prop :=
  (∀ a x, ((![v1322, v1385] : Fin 2 → IVec S16 32) a x).toNat < S512x128.size a)
instance k1_chk551.dec : ∀ (v1322 : IVec S16 32) (v1385 : IVec S16 32), Decidable (k1_chk551 v1322 v1385) := fun v1322 v1385 => decidable_of_iff' _ (Iff.of_eq (k1_chk551.eq_1 v1322 v1385))
theorem k1_idx551_inb : ∀ (v1322 : IVec S16 32) (v1385 : IVec S16 32) (k1_hw551 : k1_chk551 v1322 v1385), ∀ a x, ((![v1322, v1385] : Fin 2 → IVec S16 32) a x).toNat < S512x128.size a := fun v1322 v1385 k1_hw551 => k1_hw551

def k1_chk552 (v1322 : IVec S16 32) (v1384 : IVec S16 32) : Prop :=
  (∀ a x, ((![v1384, v1322] : Fin 2 → IVec S16 32) a x).toNat < S64x512.size a)
instance k1_chk552.dec : ∀ (v1322 : IVec S16 32) (v1384 : IVec S16 32), Decidable (k1_chk552 v1322 v1384) := fun v1322 v1384 => decidable_of_iff' _ (Iff.of_eq (k1_chk552.eq_1 v1322 v1384))
theorem k1_idx552_inb : ∀ (v1322 : IVec S16 32) (v1384 : IVec S16 32) (k1_hw552 : k1_chk552 v1322 v1384), ∀ a x, ((![v1384, v1322] : Fin 2 → IVec S16 32) a x).toNat < S64x512.size a := fun v1322 v1384 k1_hw552 => k1_hw552

def k1_chk553 (v1322 : IVec S16 32) (v1388 : IVec S16 32) : Prop :=
  (∀ a x, ((![v1322, v1388] : Fin 2 → IVec S16 32) a x).toNat < S512x128.size a)
instance k1_chk553.dec : ∀ (v1322 : IVec S16 32) (v1388 : IVec S16 32), Decidable (k1_chk553 v1322 v1388) := fun v1322 v1388 => decidable_of_iff' _ (Iff.of_eq (k1_chk553.eq_1 v1322 v1388))
theorem k1_idx553_inb : ∀ (v1322 : IVec S16 32) (v1388 : IVec S16 32) (k1_hw553 : k1_chk553 v1322 v1388), ∀ a x, ((![v1322, v1388] : Fin 2 → IVec S16 32) a x).toNat < S512x128.size a := fun v1322 v1388 k1_hw553 => k1_hw553

def k1_chk554 (v1322 : IVec S16 32) (v1387 : IVec S16 32) : Prop :=
  (∀ a x, ((![v1387, v1322] : Fin 2 → IVec S16 32) a x).toNat < S64x512.size a)
instance k1_chk554.dec : ∀ (v1322 : IVec S16 32) (v1387 : IVec S16 32), Decidable (k1_chk554 v1322 v1387) := fun v1322 v1387 => decidable_of_iff' _ (Iff.of_eq (k1_chk554.eq_1 v1322 v1387))
theorem k1_idx554_inb : ∀ (v1322 : IVec S16 32) (v1387 : IVec S16 32) (k1_hw554 : k1_chk554 v1322 v1387), ∀ a x, ((![v1387, v1322] : Fin 2 → IVec S16 32) a x).toNat < S64x512.size a := fun v1322 v1387 k1_hw554 => k1_hw554

def k1_chk555 (v1322 : IVec S16 32) (v1391 : IVec S16 32) : Prop :=
  (∀ a x, ((![v1322, v1391] : Fin 2 → IVec S16 32) a x).toNat < S512x128.size a)
instance k1_chk555.dec : ∀ (v1322 : IVec S16 32) (v1391 : IVec S16 32), Decidable (k1_chk555 v1322 v1391) := fun v1322 v1391 => decidable_of_iff' _ (Iff.of_eq (k1_chk555.eq_1 v1322 v1391))
theorem k1_idx555_inb : ∀ (v1322 : IVec S16 32) (v1391 : IVec S16 32) (k1_hw555 : k1_chk555 v1322 v1391), ∀ a x, ((![v1322, v1391] : Fin 2 → IVec S16 32) a x).toNat < S512x128.size a := fun v1322 v1391 k1_hw555 => k1_hw555

def k1_chk556 (v1322 : IVec S16 32) (v1390 : IVec S16 32) : Prop :=
  (∀ a x, ((![v1390, v1322] : Fin 2 → IVec S16 32) a x).toNat < S64x512.size a)
instance k1_chk556.dec : ∀ (v1322 : IVec S16 32) (v1390 : IVec S16 32), Decidable (k1_chk556 v1322 v1390) := fun v1322 v1390 => decidable_of_iff' _ (Iff.of_eq (k1_chk556.eq_1 v1322 v1390))
theorem k1_idx556_inb : ∀ (v1322 : IVec S16 32) (v1390 : IVec S16 32) (k1_hw556 : k1_chk556 v1322 v1390), ∀ a x, ((![v1390, v1322] : Fin 2 → IVec S16 32) a x).toNat < S64x512.size a := fun v1322 v1390 k1_hw556 => k1_hw556

def k1_chk557 (v1322 : IVec S16 32) (v1394 : IVec S16 32) : Prop :=
  (∀ a x, ((![v1322, v1394] : Fin 2 → IVec S16 32) a x).toNat < S512x128.size a)
instance k1_chk557.dec : ∀ (v1322 : IVec S16 32) (v1394 : IVec S16 32), Decidable (k1_chk557 v1322 v1394) := fun v1322 v1394 => decidable_of_iff' _ (Iff.of_eq (k1_chk557.eq_1 v1322 v1394))
theorem k1_idx557_inb : ∀ (v1322 : IVec S16 32) (v1394 : IVec S16 32) (k1_hw557 : k1_chk557 v1322 v1394), ∀ a x, ((![v1322, v1394] : Fin 2 → IVec S16 32) a x).toNat < S512x128.size a := fun v1322 v1394 k1_hw557 => k1_hw557

def k1_chk558 (v1322 : IVec S16 32) (v1393 : IVec S16 32) : Prop :=
  (∀ a x, ((![v1393, v1322] : Fin 2 → IVec S16 32) a x).toNat < S64x512.size a)
instance k1_chk558.dec : ∀ (v1322 : IVec S16 32) (v1393 : IVec S16 32), Decidable (k1_chk558 v1322 v1393) := fun v1322 v1393 => decidable_of_iff' _ (Iff.of_eq (k1_chk558.eq_1 v1322 v1393))
theorem k1_idx558_inb : ∀ (v1322 : IVec S16 32) (v1393 : IVec S16 32) (k1_hw558 : k1_chk558 v1322 v1393), ∀ a x, ((![v1393, v1322] : Fin 2 → IVec S16 32) a x).toNat < S64x512.size a := fun v1322 v1393 k1_hw558 => k1_hw558

def k1_chk559 (v1322 : IVec S16 32) (v1397 : IVec S16 32) : Prop :=
  (∀ a x, ((![v1322, v1397] : Fin 2 → IVec S16 32) a x).toNat < S512x128.size a)
instance k1_chk559.dec : ∀ (v1322 : IVec S16 32) (v1397 : IVec S16 32), Decidable (k1_chk559 v1322 v1397) := fun v1322 v1397 => decidable_of_iff' _ (Iff.of_eq (k1_chk559.eq_1 v1322 v1397))
theorem k1_idx559_inb : ∀ (v1322 : IVec S16 32) (v1397 : IVec S16 32) (k1_hw559 : k1_chk559 v1322 v1397), ∀ a x, ((![v1322, v1397] : Fin 2 → IVec S16 32) a x).toNat < S512x128.size a := fun v1322 v1397 k1_hw559 => k1_hw559

def k1_chk560 (v1322 : IVec S16 32) (v1396 : IVec S16 32) : Prop :=
  (∀ a x, ((![v1396, v1322] : Fin 2 → IVec S16 32) a x).toNat < S64x512.size a)
instance k1_chk560.dec : ∀ (v1322 : IVec S16 32) (v1396 : IVec S16 32), Decidable (k1_chk560 v1322 v1396) := fun v1322 v1396 => decidable_of_iff' _ (Iff.of_eq (k1_chk560.eq_1 v1322 v1396))
theorem k1_idx560_inb : ∀ (v1322 : IVec S16 32) (v1396 : IVec S16 32) (k1_hw560 : k1_chk560 v1322 v1396), ∀ a x, ((![v1396, v1322] : Fin 2 → IVec S16 32) a x).toNat < S64x512.size a := fun v1322 v1396 k1_hw560 => k1_hw560

def k1_chk561 (v1322 : IVec S16 32) (v1400 : IVec S16 32) : Prop :=
  (∀ a x, ((![v1322, v1400] : Fin 2 → IVec S16 32) a x).toNat < S512x128.size a)
instance k1_chk561.dec : ∀ (v1322 : IVec S16 32) (v1400 : IVec S16 32), Decidable (k1_chk561 v1322 v1400) := fun v1322 v1400 => decidable_of_iff' _ (Iff.of_eq (k1_chk561.eq_1 v1322 v1400))
theorem k1_idx561_inb : ∀ (v1322 : IVec S16 32) (v1400 : IVec S16 32) (k1_hw561 : k1_chk561 v1322 v1400), ∀ a x, ((![v1322, v1400] : Fin 2 → IVec S16 32) a x).toNat < S512x128.size a := fun v1322 v1400 k1_hw561 => k1_hw561

def k1_chk562 (v1322 : IVec S16 32) (v1399 : IVec S16 32) : Prop :=
  (∀ a x, ((![v1399, v1322] : Fin 2 → IVec S16 32) a x).toNat < S64x512.size a)
instance k1_chk562.dec : ∀ (v1322 : IVec S16 32) (v1399 : IVec S16 32), Decidable (k1_chk562 v1322 v1399) := fun v1322 v1399 => decidable_of_iff' _ (Iff.of_eq (k1_chk562.eq_1 v1322 v1399))
theorem k1_idx562_inb : ∀ (v1322 : IVec S16 32) (v1399 : IVec S16 32) (k1_hw562 : k1_chk562 v1322 v1399), ∀ a x, ((![v1399, v1322] : Fin 2 → IVec S16 32) a x).toNat < S64x512.size a := fun v1322 v1399 k1_hw562 => k1_hw562

def k1_chk563 (v1322 : IVec S16 32) (v1403 : IVec S16 32) : Prop :=
  (∀ a x, ((![v1322, v1403] : Fin 2 → IVec S16 32) a x).toNat < S512x128.size a)
instance k1_chk563.dec : ∀ (v1322 : IVec S16 32) (v1403 : IVec S16 32), Decidable (k1_chk563 v1322 v1403) := fun v1322 v1403 => decidable_of_iff' _ (Iff.of_eq (k1_chk563.eq_1 v1322 v1403))
theorem k1_idx563_inb : ∀ (v1322 : IVec S16 32) (v1403 : IVec S16 32) (k1_hw563 : k1_chk563 v1322 v1403), ∀ a x, ((![v1322, v1403] : Fin 2 → IVec S16 32) a x).toNat < S512x128.size a := fun v1322 v1403 k1_hw563 => k1_hw563

def k1_chk564 (v1322 : IVec S16 32) (v1402 : IVec S16 32) : Prop :=
  (∀ a x, ((![v1402, v1322] : Fin 2 → IVec S16 32) a x).toNat < S64x512.size a)
instance k1_chk564.dec : ∀ (v1322 : IVec S16 32) (v1402 : IVec S16 32), Decidable (k1_chk564 v1322 v1402) := fun v1322 v1402 => decidable_of_iff' _ (Iff.of_eq (k1_chk564.eq_1 v1322 v1402))
theorem k1_idx564_inb : ∀ (v1322 : IVec S16 32) (v1402 : IVec S16 32) (k1_hw564 : k1_chk564 v1322 v1402), ∀ a x, ((![v1402, v1322] : Fin 2 → IVec S16 32) a x).toNat < S64x512.size a := fun v1322 v1402 k1_hw564 => k1_hw564

def k1_chk565 (v1322 : IVec S16 32) (v1406 : IVec S16 32) : Prop :=
  (∀ a x, ((![v1322, v1406] : Fin 2 → IVec S16 32) a x).toNat < S512x128.size a)
instance k1_chk565.dec : ∀ (v1322 : IVec S16 32) (v1406 : IVec S16 32), Decidable (k1_chk565 v1322 v1406) := fun v1322 v1406 => decidable_of_iff' _ (Iff.of_eq (k1_chk565.eq_1 v1322 v1406))
theorem k1_idx565_inb : ∀ (v1322 : IVec S16 32) (v1406 : IVec S16 32) (k1_hw565 : k1_chk565 v1322 v1406), ∀ a x, ((![v1322, v1406] : Fin 2 → IVec S16 32) a x).toNat < S512x128.size a := fun v1322 v1406 k1_hw565 => k1_hw565

def k1_chk566 (v1322 : IVec S16 32) (v1405 : IVec S16 32) : Prop :=
  (∀ a x, ((![v1405, v1322] : Fin 2 → IVec S16 32) a x).toNat < S64x512.size a)
instance k1_chk566.dec : ∀ (v1322 : IVec S16 32) (v1405 : IVec S16 32), Decidable (k1_chk566 v1322 v1405) := fun v1322 v1405 => decidable_of_iff' _ (Iff.of_eq (k1_chk566.eq_1 v1322 v1405))
theorem k1_idx566_inb : ∀ (v1322 : IVec S16 32) (v1405 : IVec S16 32) (k1_hw566 : k1_chk566 v1322 v1405), ∀ a x, ((![v1405, v1322] : Fin 2 → IVec S16 32) a x).toNat < S64x512.size a := fun v1322 v1405 k1_hw566 => k1_hw566

def k1_chk567 (v1322 : IVec S16 32) (v1409 : IVec S16 32) : Prop :=
  (∀ a x, ((![v1322, v1409] : Fin 2 → IVec S16 32) a x).toNat < S512x128.size a)
instance k1_chk567.dec : ∀ (v1322 : IVec S16 32) (v1409 : IVec S16 32), Decidable (k1_chk567 v1322 v1409) := fun v1322 v1409 => decidable_of_iff' _ (Iff.of_eq (k1_chk567.eq_1 v1322 v1409))
theorem k1_idx567_inb : ∀ (v1322 : IVec S16 32) (v1409 : IVec S16 32) (k1_hw567 : k1_chk567 v1322 v1409), ∀ a x, ((![v1322, v1409] : Fin 2 → IVec S16 32) a x).toNat < S512x128.size a := fun v1322 v1409 k1_hw567 => k1_hw567

def k1_chk568 (v1322 : IVec S16 32) (v1408 : IVec S16 32) : Prop :=
  (∀ a x, ((![v1408, v1322] : Fin 2 → IVec S16 32) a x).toNat < S64x512.size a)
instance k1_chk568.dec : ∀ (v1322 : IVec S16 32) (v1408 : IVec S16 32), Decidable (k1_chk568 v1322 v1408) := fun v1322 v1408 => decidable_of_iff' _ (Iff.of_eq (k1_chk568.eq_1 v1322 v1408))
theorem k1_idx568_inb : ∀ (v1322 : IVec S16 32) (v1408 : IVec S16 32) (k1_hw568 : k1_chk568 v1322 v1408), ∀ a x, ((![v1408, v1322] : Fin 2 → IVec S16 32) a x).toNat < S64x512.size a := fun v1322 v1408 k1_hw568 => k1_hw568

def k1_chk569 (v1322 : IVec S16 32) (v1412 : IVec S16 32) : Prop :=
  (∀ a x, ((![v1322, v1412] : Fin 2 → IVec S16 32) a x).toNat < S512x128.size a)
instance k1_chk569.dec : ∀ (v1322 : IVec S16 32) (v1412 : IVec S16 32), Decidable (k1_chk569 v1322 v1412) := fun v1322 v1412 => decidable_of_iff' _ (Iff.of_eq (k1_chk569.eq_1 v1322 v1412))
theorem k1_idx569_inb : ∀ (v1322 : IVec S16 32) (v1412 : IVec S16 32) (k1_hw569 : k1_chk569 v1322 v1412), ∀ a x, ((![v1322, v1412] : Fin 2 → IVec S16 32) a x).toNat < S512x128.size a := fun v1322 v1412 k1_hw569 => k1_hw569

def k1_chk570 (v1322 : IVec S16 32) (v1411 : IVec S16 32) : Prop :=
  (∀ a x, ((![v1411, v1322] : Fin 2 → IVec S16 32) a x).toNat < S64x512.size a)
instance k1_chk570.dec : ∀ (v1322 : IVec S16 32) (v1411 : IVec S16 32), Decidable (k1_chk570 v1322 v1411) := fun v1322 v1411 => decidable_of_iff' _ (Iff.of_eq (k1_chk570.eq_1 v1322 v1411))
theorem k1_idx570_inb : ∀ (v1322 : IVec S16 32) (v1411 : IVec S16 32) (k1_hw570 : k1_chk570 v1322 v1411), ∀ a x, ((![v1411, v1322] : Fin 2 → IVec S16 32) a x).toNat < S64x512.size a := fun v1322 v1411 k1_hw570 => k1_hw570

def k1_chk571 (v1322 : IVec S16 32) (v1415 : IVec S16 32) : Prop :=
  (∀ a x, ((![v1322, v1415] : Fin 2 → IVec S16 32) a x).toNat < S512x128.size a)
instance k1_chk571.dec : ∀ (v1322 : IVec S16 32) (v1415 : IVec S16 32), Decidable (k1_chk571 v1322 v1415) := fun v1322 v1415 => decidable_of_iff' _ (Iff.of_eq (k1_chk571.eq_1 v1322 v1415))
theorem k1_idx571_inb : ∀ (v1322 : IVec S16 32) (v1415 : IVec S16 32) (k1_hw571 : k1_chk571 v1322 v1415), ∀ a x, ((![v1322, v1415] : Fin 2 → IVec S16 32) a x).toNat < S512x128.size a := fun v1322 v1415 k1_hw571 => k1_hw571

def k1_chk572 (v1322 : IVec S16 32) (v1414 : IVec S16 32) : Prop :=
  (∀ a x, ((![v1414, v1322] : Fin 2 → IVec S16 32) a x).toNat < S64x512.size a)
instance k1_chk572.dec : ∀ (v1322 : IVec S16 32) (v1414 : IVec S16 32), Decidable (k1_chk572 v1322 v1414) := fun v1322 v1414 => decidable_of_iff' _ (Iff.of_eq (k1_chk572.eq_1 v1322 v1414))
theorem k1_idx572_inb : ∀ (v1322 : IVec S16 32) (v1414 : IVec S16 32) (k1_hw572 : k1_chk572 v1322 v1414), ∀ a x, ((![v1414, v1322] : Fin 2 → IVec S16 32) a x).toNat < S64x512.size a := fun v1322 v1414 k1_hw572 => k1_hw572

def k1_chk573 (v1322 : IVec S16 32) (v1418 : IVec S16 32) : Prop :=
  (∀ a x, ((![v1322, v1418] : Fin 2 → IVec S16 32) a x).toNat < S512x128.size a)
instance k1_chk573.dec : ∀ (v1322 : IVec S16 32) (v1418 : IVec S16 32), Decidable (k1_chk573 v1322 v1418) := fun v1322 v1418 => decidable_of_iff' _ (Iff.of_eq (k1_chk573.eq_1 v1322 v1418))
theorem k1_idx573_inb : ∀ (v1322 : IVec S16 32) (v1418 : IVec S16 32) (k1_hw573 : k1_chk573 v1322 v1418), ∀ a x, ((![v1322, v1418] : Fin 2 → IVec S16 32) a x).toNat < S512x128.size a := fun v1322 v1418 k1_hw573 => k1_hw573

def k1_chk574 (v1322 : IVec S16 32) (v1417 : IVec S16 32) : Prop :=
  (∀ a x, ((![v1417, v1322] : Fin 2 → IVec S16 32) a x).toNat < S64x512.size a)
instance k1_chk574.dec : ∀ (v1322 : IVec S16 32) (v1417 : IVec S16 32), Decidable (k1_chk574 v1322 v1417) := fun v1322 v1417 => decidable_of_iff' _ (Iff.of_eq (k1_chk574.eq_1 v1322 v1417))
theorem k1_idx574_inb : ∀ (v1322 : IVec S16 32) (v1417 : IVec S16 32) (k1_hw574 : k1_chk574 v1322 v1417), ∀ a x, ((![v1417, v1322] : Fin 2 → IVec S16 32) a x).toNat < S64x512.size a := fun v1322 v1417 k1_hw574 => k1_hw574

def k1_chk575 (v1322 : IVec S16 32) (v1421 : IVec S16 32) : Prop :=
  (∀ a x, ((![v1322, v1421] : Fin 2 → IVec S16 32) a x).toNat < S512x128.size a)
instance k1_chk575.dec : ∀ (v1322 : IVec S16 32) (v1421 : IVec S16 32), Decidable (k1_chk575 v1322 v1421) := fun v1322 v1421 => decidable_of_iff' _ (Iff.of_eq (k1_chk575.eq_1 v1322 v1421))
theorem k1_idx575_inb : ∀ (v1322 : IVec S16 32) (v1421 : IVec S16 32) (k1_hw575 : k1_chk575 v1322 v1421), ∀ a x, ((![v1322, v1421] : Fin 2 → IVec S16 32) a x).toNat < S512x128.size a := fun v1322 v1421 k1_hw575 => k1_hw575

def k1_chk576 (v1322 : IVec S16 32) (v1420 : IVec S16 32) : Prop :=
  (∀ a x, ((![v1420, v1322] : Fin 2 → IVec S16 32) a x).toNat < S64x512.size a)
instance k1_chk576.dec : ∀ (v1322 : IVec S16 32) (v1420 : IVec S16 32), Decidable (k1_chk576 v1322 v1420) := fun v1322 v1420 => decidable_of_iff' _ (Iff.of_eq (k1_chk576.eq_1 v1322 v1420))
theorem k1_idx576_inb : ∀ (v1322 : IVec S16 32) (v1420 : IVec S16 32) (k1_hw576 : k1_chk576 v1322 v1420), ∀ a x, ((![v1420, v1322] : Fin 2 → IVec S16 32) a x).toNat < S64x512.size a := fun v1322 v1420 k1_hw576 => k1_hw576

def k1_chk577 (v1322 : IVec S16 32) (v1424 : IVec S16 32) : Prop :=
  (∀ a x, ((![v1322, v1424] : Fin 2 → IVec S16 32) a x).toNat < S512x128.size a)
instance k1_chk577.dec : ∀ (v1322 : IVec S16 32) (v1424 : IVec S16 32), Decidable (k1_chk577 v1322 v1424) := fun v1322 v1424 => decidable_of_iff' _ (Iff.of_eq (k1_chk577.eq_1 v1322 v1424))
theorem k1_idx577_inb : ∀ (v1322 : IVec S16 32) (v1424 : IVec S16 32) (k1_hw577 : k1_chk577 v1322 v1424), ∀ a x, ((![v1322, v1424] : Fin 2 → IVec S16 32) a x).toNat < S512x128.size a := fun v1322 v1424 k1_hw577 => k1_hw577

def k1_chk578 (v1322 : IVec S16 32) (v1423 : IVec S16 32) : Prop :=
  (∀ a x, ((![v1423, v1322] : Fin 2 → IVec S16 32) a x).toNat < S64x512.size a)
instance k1_chk578.dec : ∀ (v1322 : IVec S16 32) (v1423 : IVec S16 32), Decidable (k1_chk578 v1322 v1423) := fun v1322 v1423 => decidable_of_iff' _ (Iff.of_eq (k1_chk578.eq_1 v1322 v1423))
theorem k1_idx578_inb : ∀ (v1322 : IVec S16 32) (v1423 : IVec S16 32) (k1_hw578 : k1_chk578 v1322 v1423), ∀ a x, ((![v1423, v1322] : Fin 2 → IVec S16 32) a x).toNat < S64x512.size a := fun v1322 v1423 k1_hw578 => k1_hw578

def k1_chk579 (v1322 : IVec S16 32) (v1427 : IVec S16 32) : Prop :=
  (∀ a x, ((![v1322, v1427] : Fin 2 → IVec S16 32) a x).toNat < S512x128.size a)
instance k1_chk579.dec : ∀ (v1322 : IVec S16 32) (v1427 : IVec S16 32), Decidable (k1_chk579 v1322 v1427) := fun v1322 v1427 => decidable_of_iff' _ (Iff.of_eq (k1_chk579.eq_1 v1322 v1427))
theorem k1_idx579_inb : ∀ (v1322 : IVec S16 32) (v1427 : IVec S16 32) (k1_hw579 : k1_chk579 v1322 v1427), ∀ a x, ((![v1322, v1427] : Fin 2 → IVec S16 32) a x).toNat < S512x128.size a := fun v1322 v1427 k1_hw579 => k1_hw579

def k1_chk580 (v1322 : IVec S16 32) (v1426 : IVec S16 32) : Prop :=
  (∀ a x, ((![v1426, v1322] : Fin 2 → IVec S16 32) a x).toNat < S64x512.size a)
instance k1_chk580.dec : ∀ (v1322 : IVec S16 32) (v1426 : IVec S16 32), Decidable (k1_chk580 v1322 v1426) := fun v1322 v1426 => decidable_of_iff' _ (Iff.of_eq (k1_chk580.eq_1 v1322 v1426))
theorem k1_idx580_inb : ∀ (v1322 : IVec S16 32) (v1426 : IVec S16 32) (k1_hw580 : k1_chk580 v1322 v1426), ∀ a x, ((![v1426, v1322] : Fin 2 → IVec S16 32) a x).toNat < S64x512.size a := fun v1322 v1426 k1_hw580 => k1_hw580

def k1_chk581 (v1322 : IVec S16 32) (v1430 : IVec S16 32) : Prop :=
  (∀ a x, ((![v1322, v1430] : Fin 2 → IVec S16 32) a x).toNat < S512x128.size a)
instance k1_chk581.dec : ∀ (v1322 : IVec S16 32) (v1430 : IVec S16 32), Decidable (k1_chk581 v1322 v1430) := fun v1322 v1430 => decidable_of_iff' _ (Iff.of_eq (k1_chk581.eq_1 v1322 v1430))
theorem k1_idx581_inb : ∀ (v1322 : IVec S16 32) (v1430 : IVec S16 32) (k1_hw581 : k1_chk581 v1322 v1430), ∀ a x, ((![v1322, v1430] : Fin 2 → IVec S16 32) a x).toNat < S512x128.size a := fun v1322 v1430 k1_hw581 => k1_hw581

def k1_chk582 (v1322 : IVec S16 32) (v1429 : IVec S16 32) : Prop :=
  (∀ a x, ((![v1429, v1322] : Fin 2 → IVec S16 32) a x).toNat < S64x512.size a)
instance k1_chk582.dec : ∀ (v1322 : IVec S16 32) (v1429 : IVec S16 32), Decidable (k1_chk582 v1322 v1429) := fun v1322 v1429 => decidable_of_iff' _ (Iff.of_eq (k1_chk582.eq_1 v1322 v1429))
theorem k1_idx582_inb : ∀ (v1322 : IVec S16 32) (v1429 : IVec S16 32) (k1_hw582 : k1_chk582 v1322 v1429), ∀ a x, ((![v1429, v1322] : Fin 2 → IVec S16 32) a x).toNat < S64x512.size a := fun v1322 v1429 k1_hw582 => k1_hw582

def k1_chk583 (v1322 : IVec S16 32) (v1433 : IVec S16 32) : Prop :=
  (∀ a x, ((![v1322, v1433] : Fin 2 → IVec S16 32) a x).toNat < S512x128.size a)
instance k1_chk583.dec : ∀ (v1322 : IVec S16 32) (v1433 : IVec S16 32), Decidable (k1_chk583 v1322 v1433) := fun v1322 v1433 => decidable_of_iff' _ (Iff.of_eq (k1_chk583.eq_1 v1322 v1433))
theorem k1_idx583_inb : ∀ (v1322 : IVec S16 32) (v1433 : IVec S16 32) (k1_hw583 : k1_chk583 v1322 v1433), ∀ a x, ((![v1322, v1433] : Fin 2 → IVec S16 32) a x).toNat < S512x128.size a := fun v1322 v1433 k1_hw583 => k1_hw583

def k1_chk584 (v1322 : IVec S16 32) (v1432 : IVec S16 32) : Prop :=
  (∀ a x, ((![v1432, v1322] : Fin 2 → IVec S16 32) a x).toNat < S64x512.size a)
instance k1_chk584.dec : ∀ (v1322 : IVec S16 32) (v1432 : IVec S16 32), Decidable (k1_chk584 v1322 v1432) := fun v1322 v1432 => decidable_of_iff' _ (Iff.of_eq (k1_chk584.eq_1 v1322 v1432))
theorem k1_idx584_inb : ∀ (v1322 : IVec S16 32) (v1432 : IVec S16 32) (k1_hw584 : k1_chk584 v1322 v1432), ∀ a x, ((![v1432, v1322] : Fin 2 → IVec S16 32) a x).toNat < S64x512.size a := fun v1322 v1432 k1_hw584 => k1_hw584

def k1_chk585 (v1322 : IVec S16 32) (v1436 : IVec S16 32) : Prop :=
  (∀ a x, ((![v1322, v1436] : Fin 2 → IVec S16 32) a x).toNat < S512x128.size a)
instance k1_chk585.dec : ∀ (v1322 : IVec S16 32) (v1436 : IVec S16 32), Decidable (k1_chk585 v1322 v1436) := fun v1322 v1436 => decidable_of_iff' _ (Iff.of_eq (k1_chk585.eq_1 v1322 v1436))
theorem k1_idx585_inb : ∀ (v1322 : IVec S16 32) (v1436 : IVec S16 32) (k1_hw585 : k1_chk585 v1322 v1436), ∀ a x, ((![v1322, v1436] : Fin 2 → IVec S16 32) a x).toNat < S512x128.size a := fun v1322 v1436 k1_hw585 => k1_hw585

def k1_chk586 (v1322 : IVec S16 32) (v1435 : IVec S16 32) : Prop :=
  (∀ a x, ((![v1435, v1322] : Fin 2 → IVec S16 32) a x).toNat < S64x512.size a)
instance k1_chk586.dec : ∀ (v1322 : IVec S16 32) (v1435 : IVec S16 32), Decidable (k1_chk586 v1322 v1435) := fun v1322 v1435 => decidable_of_iff' _ (Iff.of_eq (k1_chk586.eq_1 v1322 v1435))
theorem k1_idx586_inb : ∀ (v1322 : IVec S16 32) (v1435 : IVec S16 32) (k1_hw586 : k1_chk586 v1322 v1435), ∀ a x, ((![v1435, v1322] : Fin 2 → IVec S16 32) a x).toNat < S64x512.size a := fun v1322 v1435 k1_hw586 => k1_hw586

def k1_chk587 (v1322 : IVec S16 32) (v1439 : IVec S16 32) : Prop :=
  (∀ a x, ((![v1322, v1439] : Fin 2 → IVec S16 32) a x).toNat < S512x128.size a)
instance k1_chk587.dec : ∀ (v1322 : IVec S16 32) (v1439 : IVec S16 32), Decidable (k1_chk587 v1322 v1439) := fun v1322 v1439 => decidable_of_iff' _ (Iff.of_eq (k1_chk587.eq_1 v1322 v1439))
theorem k1_idx587_inb : ∀ (v1322 : IVec S16 32) (v1439 : IVec S16 32) (k1_hw587 : k1_chk587 v1322 v1439), ∀ a x, ((![v1322, v1439] : Fin 2 → IVec S16 32) a x).toNat < S512x128.size a := fun v1322 v1439 k1_hw587 => k1_hw587

def k1_chk588 (v1322 : IVec S16 32) (v1438 : IVec S16 32) : Prop :=
  (∀ a x, ((![v1438, v1322] : Fin 2 → IVec S16 32) a x).toNat < S64x512.size a)
instance k1_chk588.dec : ∀ (v1322 : IVec S16 32) (v1438 : IVec S16 32), Decidable (k1_chk588 v1322 v1438) := fun v1322 v1438 => decidable_of_iff' _ (Iff.of_eq (k1_chk588.eq_1 v1322 v1438))
theorem k1_idx588_inb : ∀ (v1322 : IVec S16 32) (v1438 : IVec S16 32) (k1_hw588 : k1_chk588 v1322 v1438), ∀ a x, ((![v1438, v1322] : Fin 2 → IVec S16 32) a x).toNat < S64x512.size a := fun v1322 v1438 k1_hw588 => k1_hw588

def k1_chk589 (v1322 : IVec S16 32) (v1442 : IVec S16 32) : Prop :=
  (∀ a x, ((![v1322, v1442] : Fin 2 → IVec S16 32) a x).toNat < S512x128.size a)
instance k1_chk589.dec : ∀ (v1322 : IVec S16 32) (v1442 : IVec S16 32), Decidable (k1_chk589 v1322 v1442) := fun v1322 v1442 => decidable_of_iff' _ (Iff.of_eq (k1_chk589.eq_1 v1322 v1442))
theorem k1_idx589_inb : ∀ (v1322 : IVec S16 32) (v1442 : IVec S16 32) (k1_hw589 : k1_chk589 v1322 v1442), ∀ a x, ((![v1322, v1442] : Fin 2 → IVec S16 32) a x).toNat < S512x128.size a := fun v1322 v1442 k1_hw589 => k1_hw589

def k1_chk590 (v1322 : IVec S16 32) (v1441 : IVec S16 32) : Prop :=
  (∀ a x, ((![v1441, v1322] : Fin 2 → IVec S16 32) a x).toNat < S64x512.size a)
instance k1_chk590.dec : ∀ (v1322 : IVec S16 32) (v1441 : IVec S16 32), Decidable (k1_chk590 v1322 v1441) := fun v1322 v1441 => decidable_of_iff' _ (Iff.of_eq (k1_chk590.eq_1 v1322 v1441))
theorem k1_idx590_inb : ∀ (v1322 : IVec S16 32) (v1441 : IVec S16 32) (k1_hw590 : k1_chk590 v1322 v1441), ∀ a x, ((![v1441, v1322] : Fin 2 → IVec S16 32) a x).toNat < S64x512.size a := fun v1322 v1441 k1_hw590 => k1_hw590

def k1_chk591 (v1322 : IVec S16 32) (v1445 : IVec S16 32) : Prop :=
  (∀ a x, ((![v1322, v1445] : Fin 2 → IVec S16 32) a x).toNat < S512x128.size a)
instance k1_chk591.dec : ∀ (v1322 : IVec S16 32) (v1445 : IVec S16 32), Decidable (k1_chk591 v1322 v1445) := fun v1322 v1445 => decidable_of_iff' _ (Iff.of_eq (k1_chk591.eq_1 v1322 v1445))
theorem k1_idx591_inb : ∀ (v1322 : IVec S16 32) (v1445 : IVec S16 32) (k1_hw591 : k1_chk591 v1322 v1445), ∀ a x, ((![v1322, v1445] : Fin 2 → IVec S16 32) a x).toNat < S512x128.size a := fun v1322 v1445 k1_hw591 => k1_hw591

def k1_chk592 (v1322 : IVec S16 32) (v1444 : IVec S16 32) : Prop :=
  (∀ a x, ((![v1444, v1322] : Fin 2 → IVec S16 32) a x).toNat < S64x512.size a)
instance k1_chk592.dec : ∀ (v1322 : IVec S16 32) (v1444 : IVec S16 32), Decidable (k1_chk592 v1322 v1444) := fun v1322 v1444 => decidable_of_iff' _ (Iff.of_eq (k1_chk592.eq_1 v1322 v1444))
theorem k1_idx592_inb : ∀ (v1322 : IVec S16 32) (v1444 : IVec S16 32) (k1_hw592 : k1_chk592 v1322 v1444), ∀ a x, ((![v1444, v1322] : Fin 2 → IVec S16 32) a x).toNat < S64x512.size a := fun v1322 v1444 k1_hw592 => k1_hw592

def k1_chk593 (v1322 : IVec S16 32) (v1448 : IVec S16 32) : Prop :=
  (∀ a x, ((![v1322, v1448] : Fin 2 → IVec S16 32) a x).toNat < S512x128.size a)
instance k1_chk593.dec : ∀ (v1322 : IVec S16 32) (v1448 : IVec S16 32), Decidable (k1_chk593 v1322 v1448) := fun v1322 v1448 => decidable_of_iff' _ (Iff.of_eq (k1_chk593.eq_1 v1322 v1448))
theorem k1_idx593_inb : ∀ (v1322 : IVec S16 32) (v1448 : IVec S16 32) (k1_hw593 : k1_chk593 v1322 v1448), ∀ a x, ((![v1322, v1448] : Fin 2 → IVec S16 32) a x).toNat < S512x128.size a := fun v1322 v1448 k1_hw593 => k1_hw593

def k1_chk594 (v1322 : IVec S16 32) (v1447 : IVec S16 32) : Prop :=
  (∀ a x, ((![v1447, v1322] : Fin 2 → IVec S16 32) a x).toNat < S64x512.size a)
instance k1_chk594.dec : ∀ (v1322 : IVec S16 32) (v1447 : IVec S16 32), Decidable (k1_chk594 v1322 v1447) := fun v1322 v1447 => decidable_of_iff' _ (Iff.of_eq (k1_chk594.eq_1 v1322 v1447))
theorem k1_idx594_inb : ∀ (v1322 : IVec S16 32) (v1447 : IVec S16 32) (k1_hw594 : k1_chk594 v1322 v1447), ∀ a x, ((![v1447, v1322] : Fin 2 → IVec S16 32) a x).toNat < S64x512.size a := fun v1322 v1447 k1_hw594 => k1_hw594

def k1_chk595 (v1322 : IVec S16 32) (v1451 : IVec S16 32) : Prop :=
  (∀ a x, ((![v1322, v1451] : Fin 2 → IVec S16 32) a x).toNat < S512x128.size a)
instance k1_chk595.dec : ∀ (v1322 : IVec S16 32) (v1451 : IVec S16 32), Decidable (k1_chk595 v1322 v1451) := fun v1322 v1451 => decidable_of_iff' _ (Iff.of_eq (k1_chk595.eq_1 v1322 v1451))
theorem k1_idx595_inb : ∀ (v1322 : IVec S16 32) (v1451 : IVec S16 32) (k1_hw595 : k1_chk595 v1322 v1451), ∀ a x, ((![v1322, v1451] : Fin 2 → IVec S16 32) a x).toNat < S512x128.size a := fun v1322 v1451 k1_hw595 => k1_hw595

def k1_chk596 (v1322 : IVec S16 32) (v1450 : IVec S16 32) : Prop :=
  (∀ a x, ((![v1450, v1322] : Fin 2 → IVec S16 32) a x).toNat < S64x512.size a)
instance k1_chk596.dec : ∀ (v1322 : IVec S16 32) (v1450 : IVec S16 32), Decidable (k1_chk596 v1322 v1450) := fun v1322 v1450 => decidable_of_iff' _ (Iff.of_eq (k1_chk596.eq_1 v1322 v1450))
theorem k1_idx596_inb : ∀ (v1322 : IVec S16 32) (v1450 : IVec S16 32) (k1_hw596 : k1_chk596 v1322 v1450), ∀ a x, ((![v1450, v1322] : Fin 2 → IVec S16 32) a x).toNat < S64x512.size a := fun v1322 v1450 k1_hw596 => k1_hw596

def k1_chk597 (v1322 : IVec S16 32) (v1454 : IVec S16 32) : Prop :=
  (∀ a x, ((![v1322, v1454] : Fin 2 → IVec S16 32) a x).toNat < S512x128.size a)
instance k1_chk597.dec : ∀ (v1322 : IVec S16 32) (v1454 : IVec S16 32), Decidable (k1_chk597 v1322 v1454) := fun v1322 v1454 => decidable_of_iff' _ (Iff.of_eq (k1_chk597.eq_1 v1322 v1454))
theorem k1_idx597_inb : ∀ (v1322 : IVec S16 32) (v1454 : IVec S16 32) (k1_hw597 : k1_chk597 v1322 v1454), ∀ a x, ((![v1322, v1454] : Fin 2 → IVec S16 32) a x).toNat < S512x128.size a := fun v1322 v1454 k1_hw597 => k1_hw597

def k1_chk598 (v1322 : IVec S16 32) (v1453 : IVec S16 32) : Prop :=
  (∀ a x, ((![v1453, v1322] : Fin 2 → IVec S16 32) a x).toNat < S64x512.size a)
instance k1_chk598.dec : ∀ (v1322 : IVec S16 32) (v1453 : IVec S16 32), Decidable (k1_chk598 v1322 v1453) := fun v1322 v1453 => decidable_of_iff' _ (Iff.of_eq (k1_chk598.eq_1 v1322 v1453))
theorem k1_idx598_inb : ∀ (v1322 : IVec S16 32) (v1453 : IVec S16 32) (k1_hw598 : k1_chk598 v1322 v1453), ∀ a x, ((![v1453, v1322] : Fin 2 → IVec S16 32) a x).toNat < S64x512.size a := fun v1322 v1453 k1_hw598 => k1_hw598

def k1_chk599 (v1322 : IVec S16 32) (v1457 : IVec S16 32) : Prop :=
  (∀ a x, ((![v1322, v1457] : Fin 2 → IVec S16 32) a x).toNat < S512x128.size a)
instance k1_chk599.dec : ∀ (v1322 : IVec S16 32) (v1457 : IVec S16 32), Decidable (k1_chk599 v1322 v1457) := fun v1322 v1457 => decidable_of_iff' _ (Iff.of_eq (k1_chk599.eq_1 v1322 v1457))
theorem k1_idx599_inb : ∀ (v1322 : IVec S16 32) (v1457 : IVec S16 32) (k1_hw599 : k1_chk599 v1322 v1457), ∀ a x, ((![v1322, v1457] : Fin 2 → IVec S16 32) a x).toNat < S512x128.size a := fun v1322 v1457 k1_hw599 => k1_hw599

def k1_chk600 (v1322 : IVec S16 32) (v1456 : IVec S16 32) : Prop :=
  (∀ a x, ((![v1456, v1322] : Fin 2 → IVec S16 32) a x).toNat < S64x512.size a)
instance k1_chk600.dec : ∀ (v1322 : IVec S16 32) (v1456 : IVec S16 32), Decidable (k1_chk600 v1322 v1456) := fun v1322 v1456 => decidable_of_iff' _ (Iff.of_eq (k1_chk600.eq_1 v1322 v1456))
theorem k1_idx600_inb : ∀ (v1322 : IVec S16 32) (v1456 : IVec S16 32) (k1_hw600 : k1_chk600 v1322 v1456), ∀ a x, ((![v1456, v1322] : Fin 2 → IVec S16 32) a x).toNat < S64x512.size a := fun v1322 v1456 k1_hw600 => k1_hw600

def k1_chk601 (v1322 : IVec S16 32) (v1460 : IVec S16 32) : Prop :=
  (∀ a x, ((![v1322, v1460] : Fin 2 → IVec S16 32) a x).toNat < S512x128.size a)
instance k1_chk601.dec : ∀ (v1322 : IVec S16 32) (v1460 : IVec S16 32), Decidable (k1_chk601 v1322 v1460) := fun v1322 v1460 => decidable_of_iff' _ (Iff.of_eq (k1_chk601.eq_1 v1322 v1460))
theorem k1_idx601_inb : ∀ (v1322 : IVec S16 32) (v1460 : IVec S16 32) (k1_hw601 : k1_chk601 v1322 v1460), ∀ a x, ((![v1322, v1460] : Fin 2 → IVec S16 32) a x).toNat < S512x128.size a := fun v1322 v1460 k1_hw601 => k1_hw601

def k1_chk602 (v1322 : IVec S16 32) (v1459 : IVec S16 32) : Prop :=
  (∀ a x, ((![v1459, v1322] : Fin 2 → IVec S16 32) a x).toNat < S64x512.size a)
instance k1_chk602.dec : ∀ (v1322 : IVec S16 32) (v1459 : IVec S16 32), Decidable (k1_chk602 v1322 v1459) := fun v1322 v1459 => decidable_of_iff' _ (Iff.of_eq (k1_chk602.eq_1 v1322 v1459))
theorem k1_idx602_inb : ∀ (v1322 : IVec S16 32) (v1459 : IVec S16 32) (k1_hw602 : k1_chk602 v1322 v1459), ∀ a x, ((![v1459, v1322] : Fin 2 → IVec S16 32) a x).toNat < S64x512.size a := fun v1322 v1459 k1_hw602 => k1_hw602

def k1_chk603 (v1322 : IVec S16 32) (v1463 : IVec S16 32) : Prop :=
  (∀ a x, ((![v1322, v1463] : Fin 2 → IVec S16 32) a x).toNat < S512x128.size a)
instance k1_chk603.dec : ∀ (v1322 : IVec S16 32) (v1463 : IVec S16 32), Decidable (k1_chk603 v1322 v1463) := fun v1322 v1463 => decidable_of_iff' _ (Iff.of_eq (k1_chk603.eq_1 v1322 v1463))
theorem k1_idx603_inb : ∀ (v1322 : IVec S16 32) (v1463 : IVec S16 32) (k1_hw603 : k1_chk603 v1322 v1463), ∀ a x, ((![v1322, v1463] : Fin 2 → IVec S16 32) a x).toNat < S512x128.size a := fun v1322 v1463 k1_hw603 => k1_hw603

def k1_chk604 (v1322 : IVec S16 32) (v1462 : IVec S16 32) : Prop :=
  (∀ a x, ((![v1462, v1322] : Fin 2 → IVec S16 32) a x).toNat < S64x512.size a)
instance k1_chk604.dec : ∀ (v1322 : IVec S16 32) (v1462 : IVec S16 32), Decidable (k1_chk604 v1322 v1462) := fun v1322 v1462 => decidable_of_iff' _ (Iff.of_eq (k1_chk604.eq_1 v1322 v1462))
theorem k1_idx604_inb : ∀ (v1322 : IVec S16 32) (v1462 : IVec S16 32) (k1_hw604 : k1_chk604 v1322 v1462), ∀ a x, ((![v1462, v1322] : Fin 2 → IVec S16 32) a x).toNat < S64x512.size a := fun v1322 v1462 k1_hw604 => k1_hw604

def k1_chk605 (v1322 : IVec S16 32) (v1466 : IVec S16 32) : Prop :=
  (∀ a x, ((![v1322, v1466] : Fin 2 → IVec S16 32) a x).toNat < S512x128.size a)
instance k1_chk605.dec : ∀ (v1322 : IVec S16 32) (v1466 : IVec S16 32), Decidable (k1_chk605 v1322 v1466) := fun v1322 v1466 => decidable_of_iff' _ (Iff.of_eq (k1_chk605.eq_1 v1322 v1466))
theorem k1_idx605_inb : ∀ (v1322 : IVec S16 32) (v1466 : IVec S16 32) (k1_hw605 : k1_chk605 v1322 v1466), ∀ a x, ((![v1322, v1466] : Fin 2 → IVec S16 32) a x).toNat < S512x128.size a := fun v1322 v1466 k1_hw605 => k1_hw605

def k1_chk606 (v1322 : IVec S16 32) (v1465 : IVec S16 32) : Prop :=
  (∀ a x, ((![v1465, v1322] : Fin 2 → IVec S16 32) a x).toNat < S64x512.size a)
instance k1_chk606.dec : ∀ (v1322 : IVec S16 32) (v1465 : IVec S16 32), Decidable (k1_chk606 v1322 v1465) := fun v1322 v1465 => decidable_of_iff' _ (Iff.of_eq (k1_chk606.eq_1 v1322 v1465))
theorem k1_idx606_inb : ∀ (v1322 : IVec S16 32) (v1465 : IVec S16 32) (k1_hw606 : k1_chk606 v1322 v1465), ∀ a x, ((![v1465, v1322] : Fin 2 → IVec S16 32) a x).toNat < S64x512.size a := fun v1322 v1465 k1_hw606 => k1_hw606

def k1_chk607 (v1322 : IVec S16 32) (v1469 : IVec S16 32) : Prop :=
  (∀ a x, ((![v1322, v1469] : Fin 2 → IVec S16 32) a x).toNat < S512x128.size a)
instance k1_chk607.dec : ∀ (v1322 : IVec S16 32) (v1469 : IVec S16 32), Decidable (k1_chk607 v1322 v1469) := fun v1322 v1469 => decidable_of_iff' _ (Iff.of_eq (k1_chk607.eq_1 v1322 v1469))
theorem k1_idx607_inb : ∀ (v1322 : IVec S16 32) (v1469 : IVec S16 32) (k1_hw607 : k1_chk607 v1322 v1469), ∀ a x, ((![v1322, v1469] : Fin 2 → IVec S16 32) a x).toNat < S512x128.size a := fun v1322 v1469 k1_hw607 => k1_hw607

def k1_chk608 (v1322 : IVec S16 32) (v1468 : IVec S16 32) : Prop :=
  (∀ a x, ((![v1468, v1322] : Fin 2 → IVec S16 32) a x).toNat < S64x512.size a)
instance k1_chk608.dec : ∀ (v1322 : IVec S16 32) (v1468 : IVec S16 32), Decidable (k1_chk608 v1322 v1468) := fun v1322 v1468 => decidable_of_iff' _ (Iff.of_eq (k1_chk608.eq_1 v1322 v1468))
theorem k1_idx608_inb : ∀ (v1322 : IVec S16 32) (v1468 : IVec S16 32) (k1_hw608 : k1_chk608 v1322 v1468), ∀ a x, ((![v1468, v1322] : Fin 2 → IVec S16 32) a x).toNat < S64x512.size a := fun v1322 v1468 k1_hw608 => k1_hw608

def k1_chk609 (v1322 : IVec S16 32) (v1472 : IVec S16 32) : Prop :=
  (∀ a x, ((![v1322, v1472] : Fin 2 → IVec S16 32) a x).toNat < S512x128.size a)
instance k1_chk609.dec : ∀ (v1322 : IVec S16 32) (v1472 : IVec S16 32), Decidable (k1_chk609 v1322 v1472) := fun v1322 v1472 => decidable_of_iff' _ (Iff.of_eq (k1_chk609.eq_1 v1322 v1472))
theorem k1_idx609_inb : ∀ (v1322 : IVec S16 32) (v1472 : IVec S16 32) (k1_hw609 : k1_chk609 v1322 v1472), ∀ a x, ((![v1322, v1472] : Fin 2 → IVec S16 32) a x).toNat < S512x128.size a := fun v1322 v1472 k1_hw609 => k1_hw609

def k1_chk610 (v1322 : IVec S16 32) (v1471 : IVec S16 32) : Prop :=
  (∀ a x, ((![v1471, v1322] : Fin 2 → IVec S16 32) a x).toNat < S64x512.size a)
instance k1_chk610.dec : ∀ (v1322 : IVec S16 32) (v1471 : IVec S16 32), Decidable (k1_chk610 v1322 v1471) := fun v1322 v1471 => decidable_of_iff' _ (Iff.of_eq (k1_chk610.eq_1 v1322 v1471))
theorem k1_idx610_inb : ∀ (v1322 : IVec S16 32) (v1471 : IVec S16 32) (k1_hw610 : k1_chk610 v1322 v1471), ∀ a x, ((![v1471, v1322] : Fin 2 → IVec S16 32) a x).toNat < S64x512.size a := fun v1322 v1471 k1_hw610 => k1_hw610

def k1_chk611 (v1322 : IVec S16 32) (v1475 : IVec S16 32) : Prop :=
  (∀ a x, ((![v1322, v1475] : Fin 2 → IVec S16 32) a x).toNat < S512x128.size a)
instance k1_chk611.dec : ∀ (v1322 : IVec S16 32) (v1475 : IVec S16 32), Decidable (k1_chk611 v1322 v1475) := fun v1322 v1475 => decidable_of_iff' _ (Iff.of_eq (k1_chk611.eq_1 v1322 v1475))
theorem k1_idx611_inb : ∀ (v1322 : IVec S16 32) (v1475 : IVec S16 32) (k1_hw611 : k1_chk611 v1322 v1475), ∀ a x, ((![v1322, v1475] : Fin 2 → IVec S16 32) a x).toNat < S512x128.size a := fun v1322 v1475 k1_hw611 => k1_hw611

def k1_chk612 (v1322 : IVec S16 32) (v1474 : IVec S16 32) : Prop :=
  (∀ a x, ((![v1474, v1322] : Fin 2 → IVec S16 32) a x).toNat < S64x512.size a)
instance k1_chk612.dec : ∀ (v1322 : IVec S16 32) (v1474 : IVec S16 32), Decidable (k1_chk612 v1322 v1474) := fun v1322 v1474 => decidable_of_iff' _ (Iff.of_eq (k1_chk612.eq_1 v1322 v1474))
theorem k1_idx612_inb : ∀ (v1322 : IVec S16 32) (v1474 : IVec S16 32) (k1_hw612 : k1_chk612 v1322 v1474), ∀ a x, ((![v1474, v1322] : Fin 2 → IVec S16 32) a x).toNat < S64x512.size a := fun v1322 v1474 k1_hw612 => k1_hw612

def k1_chk613 (v1322 : IVec S16 32) (v1478 : IVec S16 32) : Prop :=
  (∀ a x, ((![v1322, v1478] : Fin 2 → IVec S16 32) a x).toNat < S512x128.size a)
instance k1_chk613.dec : ∀ (v1322 : IVec S16 32) (v1478 : IVec S16 32), Decidable (k1_chk613 v1322 v1478) := fun v1322 v1478 => decidable_of_iff' _ (Iff.of_eq (k1_chk613.eq_1 v1322 v1478))
theorem k1_idx613_inb : ∀ (v1322 : IVec S16 32) (v1478 : IVec S16 32) (k1_hw613 : k1_chk613 v1322 v1478), ∀ a x, ((![v1322, v1478] : Fin 2 → IVec S16 32) a x).toNat < S512x128.size a := fun v1322 v1478 k1_hw613 => k1_hw613

def k1_chk614 (v1322 : IVec S16 32) (v1477 : IVec S16 32) : Prop :=
  (∀ a x, ((![v1477, v1322] : Fin 2 → IVec S16 32) a x).toNat < S64x512.size a)
instance k1_chk614.dec : ∀ (v1322 : IVec S16 32) (v1477 : IVec S16 32), Decidable (k1_chk614 v1322 v1477) := fun v1322 v1477 => decidable_of_iff' _ (Iff.of_eq (k1_chk614.eq_1 v1322 v1477))
theorem k1_idx614_inb : ∀ (v1322 : IVec S16 32) (v1477 : IVec S16 32) (k1_hw614 : k1_chk614 v1322 v1477), ∀ a x, ((![v1477, v1322] : Fin 2 → IVec S16 32) a x).toNat < S64x512.size a := fun v1322 v1477 k1_hw614 => k1_hw614

def k1_chk615 (v1322 : IVec S16 32) (v1481 : IVec S16 32) : Prop :=
  (∀ a x, ((![v1322, v1481] : Fin 2 → IVec S16 32) a x).toNat < S512x128.size a)
instance k1_chk615.dec : ∀ (v1322 : IVec S16 32) (v1481 : IVec S16 32), Decidable (k1_chk615 v1322 v1481) := fun v1322 v1481 => decidable_of_iff' _ (Iff.of_eq (k1_chk615.eq_1 v1322 v1481))
theorem k1_idx615_inb : ∀ (v1322 : IVec S16 32) (v1481 : IVec S16 32) (k1_hw615 : k1_chk615 v1322 v1481), ∀ a x, ((![v1322, v1481] : Fin 2 → IVec S16 32) a x).toNat < S512x128.size a := fun v1322 v1481 k1_hw615 => k1_hw615

def k1_chk616 (v1322 : IVec S16 32) (v1480 : IVec S16 32) : Prop :=
  (∀ a x, ((![v1480, v1322] : Fin 2 → IVec S16 32) a x).toNat < S64x512.size a)
instance k1_chk616.dec : ∀ (v1322 : IVec S16 32) (v1480 : IVec S16 32), Decidable (k1_chk616 v1322 v1480) := fun v1322 v1480 => decidable_of_iff' _ (Iff.of_eq (k1_chk616.eq_1 v1322 v1480))
theorem k1_idx616_inb : ∀ (v1322 : IVec S16 32) (v1480 : IVec S16 32) (k1_hw616 : k1_chk616 v1322 v1480), ∀ a x, ((![v1480, v1322] : Fin 2 → IVec S16 32) a x).toNat < S64x512.size a := fun v1322 v1480 k1_hw616 => k1_hw616

def k1_chk617 (v1322 : IVec S16 32) (v1484 : IVec S16 32) : Prop :=
  (∀ a x, ((![v1322, v1484] : Fin 2 → IVec S16 32) a x).toNat < S512x128.size a)
instance k1_chk617.dec : ∀ (v1322 : IVec S16 32) (v1484 : IVec S16 32), Decidable (k1_chk617 v1322 v1484) := fun v1322 v1484 => decidable_of_iff' _ (Iff.of_eq (k1_chk617.eq_1 v1322 v1484))
theorem k1_idx617_inb : ∀ (v1322 : IVec S16 32) (v1484 : IVec S16 32) (k1_hw617 : k1_chk617 v1322 v1484), ∀ a x, ((![v1322, v1484] : Fin 2 → IVec S16 32) a x).toNat < S512x128.size a := fun v1322 v1484 k1_hw617 => k1_hw617

def k1_chk618 (v1322 : IVec S16 32) (v1483 : IVec S16 32) : Prop :=
  (∀ a x, ((![v1483, v1322] : Fin 2 → IVec S16 32) a x).toNat < S64x512.size a)
instance k1_chk618.dec : ∀ (v1322 : IVec S16 32) (v1483 : IVec S16 32), Decidable (k1_chk618 v1322 v1483) := fun v1322 v1483 => decidable_of_iff' _ (Iff.of_eq (k1_chk618.eq_1 v1322 v1483))
theorem k1_idx618_inb : ∀ (v1322 : IVec S16 32) (v1483 : IVec S16 32) (k1_hw618 : k1_chk618 v1322 v1483), ∀ a x, ((![v1483, v1322] : Fin 2 → IVec S16 32) a x).toNat < S64x512.size a := fun v1322 v1483 k1_hw618 => k1_hw618

def k1_chk619 (v1322 : IVec S16 32) (v1487 : IVec S16 32) : Prop :=
  (∀ a x, ((![v1322, v1487] : Fin 2 → IVec S16 32) a x).toNat < S512x128.size a)
instance k1_chk619.dec : ∀ (v1322 : IVec S16 32) (v1487 : IVec S16 32), Decidable (k1_chk619 v1322 v1487) := fun v1322 v1487 => decidable_of_iff' _ (Iff.of_eq (k1_chk619.eq_1 v1322 v1487))
theorem k1_idx619_inb : ∀ (v1322 : IVec S16 32) (v1487 : IVec S16 32) (k1_hw619 : k1_chk619 v1322 v1487), ∀ a x, ((![v1322, v1487] : Fin 2 → IVec S16 32) a x).toNat < S512x128.size a := fun v1322 v1487 k1_hw619 => k1_hw619

def k1_chk620 (v1322 : IVec S16 32) (v1486 : IVec S16 32) : Prop :=
  (∀ a x, ((![v1486, v1322] : Fin 2 → IVec S16 32) a x).toNat < S64x512.size a)
instance k1_chk620.dec : ∀ (v1322 : IVec S16 32) (v1486 : IVec S16 32), Decidable (k1_chk620 v1322 v1486) := fun v1322 v1486 => decidable_of_iff' _ (Iff.of_eq (k1_chk620.eq_1 v1322 v1486))
theorem k1_idx620_inb : ∀ (v1322 : IVec S16 32) (v1486 : IVec S16 32) (k1_hw620 : k1_chk620 v1322 v1486), ∀ a x, ((![v1486, v1322] : Fin 2 → IVec S16 32) a x).toNat < S64x512.size a := fun v1322 v1486 k1_hw620 => k1_hw620

def k1_chk621 (v1322 : IVec S16 32) (v1490 : IVec S16 32) : Prop :=
  (∀ a x, ((![v1322, v1490] : Fin 2 → IVec S16 32) a x).toNat < S512x128.size a)
instance k1_chk621.dec : ∀ (v1322 : IVec S16 32) (v1490 : IVec S16 32), Decidable (k1_chk621 v1322 v1490) := fun v1322 v1490 => decidable_of_iff' _ (Iff.of_eq (k1_chk621.eq_1 v1322 v1490))
theorem k1_idx621_inb : ∀ (v1322 : IVec S16 32) (v1490 : IVec S16 32) (k1_hw621 : k1_chk621 v1322 v1490), ∀ a x, ((![v1322, v1490] : Fin 2 → IVec S16 32) a x).toNat < S512x128.size a := fun v1322 v1490 k1_hw621 => k1_hw621

def k1_chk622 (v1322 : IVec S16 32) (v1489 : IVec S16 32) : Prop :=
  (∀ a x, ((![v1489, v1322] : Fin 2 → IVec S16 32) a x).toNat < S64x512.size a)
instance k1_chk622.dec : ∀ (v1322 : IVec S16 32) (v1489 : IVec S16 32), Decidable (k1_chk622 v1322 v1489) := fun v1322 v1489 => decidable_of_iff' _ (Iff.of_eq (k1_chk622.eq_1 v1322 v1489))
theorem k1_idx622_inb : ∀ (v1322 : IVec S16 32) (v1489 : IVec S16 32) (k1_hw622 : k1_chk622 v1322 v1489), ∀ a x, ((![v1489, v1322] : Fin 2 → IVec S16 32) a x).toNat < S64x512.size a := fun v1322 v1489 k1_hw622 => k1_hw622

def k1_chk623 (v1322 : IVec S16 32) (v1493 : IVec S16 32) : Prop :=
  (∀ a x, ((![v1322, v1493] : Fin 2 → IVec S16 32) a x).toNat < S512x128.size a)
instance k1_chk623.dec : ∀ (v1322 : IVec S16 32) (v1493 : IVec S16 32), Decidable (k1_chk623 v1322 v1493) := fun v1322 v1493 => decidable_of_iff' _ (Iff.of_eq (k1_chk623.eq_1 v1322 v1493))
theorem k1_idx623_inb : ∀ (v1322 : IVec S16 32) (v1493 : IVec S16 32) (k1_hw623 : k1_chk623 v1322 v1493), ∀ a x, ((![v1322, v1493] : Fin 2 → IVec S16 32) a x).toNat < S512x128.size a := fun v1322 v1493 k1_hw623 => k1_hw623

def k1_chk624 (v1322 : IVec S16 32) (v1492 : IVec S16 32) : Prop :=
  (∀ a x, ((![v1492, v1322] : Fin 2 → IVec S16 32) a x).toNat < S64x512.size a)
instance k1_chk624.dec : ∀ (v1322 : IVec S16 32) (v1492 : IVec S16 32), Decidable (k1_chk624 v1322 v1492) := fun v1322 v1492 => decidable_of_iff' _ (Iff.of_eq (k1_chk624.eq_1 v1322 v1492))
theorem k1_idx624_inb : ∀ (v1322 : IVec S16 32) (v1492 : IVec S16 32) (k1_hw624 : k1_chk624 v1322 v1492), ∀ a x, ((![v1492, v1322] : Fin 2 → IVec S16 32) a x).toNat < S64x512.size a := fun v1322 v1492 k1_hw624 => k1_hw624

def k1_chk625 (v1322 : IVec S16 32) (v1496 : IVec S16 32) : Prop :=
  (∀ a x, ((![v1322, v1496] : Fin 2 → IVec S16 32) a x).toNat < S512x128.size a)
instance k1_chk625.dec : ∀ (v1322 : IVec S16 32) (v1496 : IVec S16 32), Decidable (k1_chk625 v1322 v1496) := fun v1322 v1496 => decidable_of_iff' _ (Iff.of_eq (k1_chk625.eq_1 v1322 v1496))
theorem k1_idx625_inb : ∀ (v1322 : IVec S16 32) (v1496 : IVec S16 32) (k1_hw625 : k1_chk625 v1322 v1496), ∀ a x, ((![v1322, v1496] : Fin 2 → IVec S16 32) a x).toNat < S512x128.size a := fun v1322 v1496 k1_hw625 => k1_hw625

def k1_chk626 (v1322 : IVec S16 32) (v1495 : IVec S16 32) : Prop :=
  (∀ a x, ((![v1495, v1322] : Fin 2 → IVec S16 32) a x).toNat < S64x512.size a)
instance k1_chk626.dec : ∀ (v1322 : IVec S16 32) (v1495 : IVec S16 32), Decidable (k1_chk626 v1322 v1495) := fun v1322 v1495 => decidable_of_iff' _ (Iff.of_eq (k1_chk626.eq_1 v1322 v1495))
theorem k1_idx626_inb : ∀ (v1322 : IVec S16 32) (v1495 : IVec S16 32) (k1_hw626 : k1_chk626 v1322 v1495), ∀ a x, ((![v1495, v1322] : Fin 2 → IVec S16 32) a x).toNat < S64x512.size a := fun v1322 v1495 k1_hw626 => k1_hw626

def k1_chk627 (v1322 : IVec S16 32) (v1499 : IVec S16 32) : Prop :=
  (∀ a x, ((![v1322, v1499] : Fin 2 → IVec S16 32) a x).toNat < S512x128.size a)
instance k1_chk627.dec : ∀ (v1322 : IVec S16 32) (v1499 : IVec S16 32), Decidable (k1_chk627 v1322 v1499) := fun v1322 v1499 => decidable_of_iff' _ (Iff.of_eq (k1_chk627.eq_1 v1322 v1499))
theorem k1_idx627_inb : ∀ (v1322 : IVec S16 32) (v1499 : IVec S16 32) (k1_hw627 : k1_chk627 v1322 v1499), ∀ a x, ((![v1322, v1499] : Fin 2 → IVec S16 32) a x).toNat < S512x128.size a := fun v1322 v1499 k1_hw627 => k1_hw627

def k1_chk628 (v1322 : IVec S16 32) (v1498 : IVec S16 32) : Prop :=
  (∀ a x, ((![v1498, v1322] : Fin 2 → IVec S16 32) a x).toNat < S64x512.size a)
instance k1_chk628.dec : ∀ (v1322 : IVec S16 32) (v1498 : IVec S16 32), Decidable (k1_chk628 v1322 v1498) := fun v1322 v1498 => decidable_of_iff' _ (Iff.of_eq (k1_chk628.eq_1 v1322 v1498))
theorem k1_idx628_inb : ∀ (v1322 : IVec S16 32) (v1498 : IVec S16 32) (k1_hw628 : k1_chk628 v1322 v1498), ∀ a x, ((![v1498, v1322] : Fin 2 → IVec S16 32) a x).toNat < S64x512.size a := fun v1322 v1498 k1_hw628 => k1_hw628

def k1_chk629 (v1322 : IVec S16 32) (v1502 : IVec S16 32) : Prop :=
  (∀ a x, ((![v1322, v1502] : Fin 2 → IVec S16 32) a x).toNat < S512x128.size a)
instance k1_chk629.dec : ∀ (v1322 : IVec S16 32) (v1502 : IVec S16 32), Decidable (k1_chk629 v1322 v1502) := fun v1322 v1502 => decidable_of_iff' _ (Iff.of_eq (k1_chk629.eq_1 v1322 v1502))
theorem k1_idx629_inb : ∀ (v1322 : IVec S16 32) (v1502 : IVec S16 32) (k1_hw629 : k1_chk629 v1322 v1502), ∀ a x, ((![v1322, v1502] : Fin 2 → IVec S16 32) a x).toNat < S512x128.size a := fun v1322 v1502 k1_hw629 => k1_hw629

def k1_chk630 (v1322 : IVec S16 32) (v1501 : IVec S16 32) : Prop :=
  (∀ a x, ((![v1501, v1322] : Fin 2 → IVec S16 32) a x).toNat < S64x512.size a)
instance k1_chk630.dec : ∀ (v1322 : IVec S16 32) (v1501 : IVec S16 32), Decidable (k1_chk630 v1322 v1501) := fun v1322 v1501 => decidable_of_iff' _ (Iff.of_eq (k1_chk630.eq_1 v1322 v1501))
theorem k1_idx630_inb : ∀ (v1322 : IVec S16 32) (v1501 : IVec S16 32) (k1_hw630 : k1_chk630 v1322 v1501), ∀ a x, ((![v1501, v1322] : Fin 2 → IVec S16 32) a x).toNat < S64x512.size a := fun v1322 v1501 k1_hw630 => k1_hw630

def k1_chk631 (v1322 : IVec S16 32) (v1505 : IVec S16 32) : Prop :=
  (∀ a x, ((![v1322, v1505] : Fin 2 → IVec S16 32) a x).toNat < S512x128.size a)
instance k1_chk631.dec : ∀ (v1322 : IVec S16 32) (v1505 : IVec S16 32), Decidable (k1_chk631 v1322 v1505) := fun v1322 v1505 => decidable_of_iff' _ (Iff.of_eq (k1_chk631.eq_1 v1322 v1505))
theorem k1_idx631_inb : ∀ (v1322 : IVec S16 32) (v1505 : IVec S16 32) (k1_hw631 : k1_chk631 v1322 v1505), ∀ a x, ((![v1322, v1505] : Fin 2 → IVec S16 32) a x).toNat < S512x128.size a := fun v1322 v1505 k1_hw631 => k1_hw631

def k1_chk632 (v1322 : IVec S16 32) (v1504 : IVec S16 32) : Prop :=
  (∀ a x, ((![v1504, v1322] : Fin 2 → IVec S16 32) a x).toNat < S64x512.size a)
instance k1_chk632.dec : ∀ (v1322 : IVec S16 32) (v1504 : IVec S16 32), Decidable (k1_chk632 v1322 v1504) := fun v1322 v1504 => decidable_of_iff' _ (Iff.of_eq (k1_chk632.eq_1 v1322 v1504))
theorem k1_idx632_inb : ∀ (v1322 : IVec S16 32) (v1504 : IVec S16 32) (k1_hw632 : k1_chk632 v1322 v1504), ∀ a x, ((![v1504, v1322] : Fin 2 → IVec S16 32) a x).toNat < S64x512.size a := fun v1322 v1504 k1_hw632 => k1_hw632

def k1_chk633 (v1322 : IVec S16 32) (v1508 : IVec S16 32) : Prop :=
  (∀ a x, ((![v1322, v1508] : Fin 2 → IVec S16 32) a x).toNat < S512x128.size a)
instance k1_chk633.dec : ∀ (v1322 : IVec S16 32) (v1508 : IVec S16 32), Decidable (k1_chk633 v1322 v1508) := fun v1322 v1508 => decidable_of_iff' _ (Iff.of_eq (k1_chk633.eq_1 v1322 v1508))
theorem k1_idx633_inb : ∀ (v1322 : IVec S16 32) (v1508 : IVec S16 32) (k1_hw633 : k1_chk633 v1322 v1508), ∀ a x, ((![v1322, v1508] : Fin 2 → IVec S16 32) a x).toNat < S512x128.size a := fun v1322 v1508 k1_hw633 => k1_hw633

def k1_chk634 (v1322 : IVec S16 32) (v1507 : IVec S16 32) : Prop :=
  (∀ a x, ((![v1507, v1322] : Fin 2 → IVec S16 32) a x).toNat < S64x512.size a)
instance k1_chk634.dec : ∀ (v1322 : IVec S16 32) (v1507 : IVec S16 32), Decidable (k1_chk634 v1322 v1507) := fun v1322 v1507 => decidable_of_iff' _ (Iff.of_eq (k1_chk634.eq_1 v1322 v1507))
theorem k1_idx634_inb : ∀ (v1322 : IVec S16 32) (v1507 : IVec S16 32) (k1_hw634 : k1_chk634 v1322 v1507), ∀ a x, ((![v1507, v1322] : Fin 2 → IVec S16 32) a x).toNat < S64x512.size a := fun v1322 v1507 k1_hw634 => k1_hw634

def k1_chk635 (v1322 : IVec S16 32) (v1511 : IVec S16 32) : Prop :=
  (∀ a x, ((![v1322, v1511] : Fin 2 → IVec S16 32) a x).toNat < S512x128.size a)
instance k1_chk635.dec : ∀ (v1322 : IVec S16 32) (v1511 : IVec S16 32), Decidable (k1_chk635 v1322 v1511) := fun v1322 v1511 => decidable_of_iff' _ (Iff.of_eq (k1_chk635.eq_1 v1322 v1511))
theorem k1_idx635_inb : ∀ (v1322 : IVec S16 32) (v1511 : IVec S16 32) (k1_hw635 : k1_chk635 v1322 v1511), ∀ a x, ((![v1322, v1511] : Fin 2 → IVec S16 32) a x).toNat < S512x128.size a := fun v1322 v1511 k1_hw635 => k1_hw635

def k1_chk636 (v1322 : IVec S16 32) (v1510 : IVec S16 32) : Prop :=
  (∀ a x, ((![v1510, v1322] : Fin 2 → IVec S16 32) a x).toNat < S64x512.size a)
instance k1_chk636.dec : ∀ (v1322 : IVec S16 32) (v1510 : IVec S16 32), Decidable (k1_chk636 v1322 v1510) := fun v1322 v1510 => decidable_of_iff' _ (Iff.of_eq (k1_chk636.eq_1 v1322 v1510))
theorem k1_idx636_inb : ∀ (v1322 : IVec S16 32) (v1510 : IVec S16 32) (k1_hw636 : k1_chk636 v1322 v1510), ∀ a x, ((![v1510, v1322] : Fin 2 → IVec S16 32) a x).toNat < S64x512.size a := fun v1322 v1510 k1_hw636 => k1_hw636

def k1_chk637 (v1322 : IVec S16 32) (v1514 : IVec S16 32) : Prop :=
  (∀ a x, ((![v1322, v1514] : Fin 2 → IVec S16 32) a x).toNat < S512x128.size a)
instance k1_chk637.dec : ∀ (v1322 : IVec S16 32) (v1514 : IVec S16 32), Decidable (k1_chk637 v1322 v1514) := fun v1322 v1514 => decidable_of_iff' _ (Iff.of_eq (k1_chk637.eq_1 v1322 v1514))
theorem k1_idx637_inb : ∀ (v1322 : IVec S16 32) (v1514 : IVec S16 32) (k1_hw637 : k1_chk637 v1322 v1514), ∀ a x, ((![v1322, v1514] : Fin 2 → IVec S16 32) a x).toNat < S512x128.size a := fun v1322 v1514 k1_hw637 => k1_hw637

def k1_chk638 (v1322 : IVec S16 32) (v1513 : IVec S16 32) : Prop :=
  (∀ a x, ((![v1513, v1322] : Fin 2 → IVec S16 32) a x).toNat < S64x512.size a)
instance k1_chk638.dec : ∀ (v1322 : IVec S16 32) (v1513 : IVec S16 32), Decidable (k1_chk638 v1322 v1513) := fun v1322 v1513 => decidable_of_iff' _ (Iff.of_eq (k1_chk638.eq_1 v1322 v1513))
theorem k1_idx638_inb : ∀ (v1322 : IVec S16 32) (v1513 : IVec S16 32) (k1_hw638 : k1_chk638 v1322 v1513), ∀ a x, ((![v1513, v1322] : Fin 2 → IVec S16 32) a x).toNat < S64x512.size a := fun v1322 v1513 k1_hw638 => k1_hw638

def k1_chk639 (v1322 : IVec S16 32) (v1517 : IVec S16 32) : Prop :=
  (∀ a x, ((![v1322, v1517] : Fin 2 → IVec S16 32) a x).toNat < S512x128.size a)
instance k1_chk639.dec : ∀ (v1322 : IVec S16 32) (v1517 : IVec S16 32), Decidable (k1_chk639 v1322 v1517) := fun v1322 v1517 => decidable_of_iff' _ (Iff.of_eq (k1_chk639.eq_1 v1322 v1517))
theorem k1_idx639_inb : ∀ (v1322 : IVec S16 32) (v1517 : IVec S16 32) (k1_hw639 : k1_chk639 v1322 v1517), ∀ a x, ((![v1322, v1517] : Fin 2 → IVec S16 32) a x).toNat < S512x128.size a := fun v1322 v1517 k1_hw639 => k1_hw639

def k1_chk640 (v1322 : IVec S16 32) (v1516 : IVec S16 32) : Prop :=
  (∀ a x, ((![v1516, v1322] : Fin 2 → IVec S16 32) a x).toNat < S64x512.size a)
instance k1_chk640.dec : ∀ (v1322 : IVec S16 32) (v1516 : IVec S16 32), Decidable (k1_chk640 v1322 v1516) := fun v1322 v1516 => decidable_of_iff' _ (Iff.of_eq (k1_chk640.eq_1 v1322 v1516))
theorem k1_idx640_inb : ∀ (v1322 : IVec S16 32) (v1516 : IVec S16 32) (k1_hw640 : k1_chk640 v1322 v1516), ∀ a x, ((![v1516, v1322] : Fin 2 → IVec S16 32) a x).toNat < S64x512.size a := fun v1322 v1516 k1_hw640 => k1_hw640
def k1_off7 (k1_t1 : Fin k1_t1_loop.trips) : Fin 1 → Nat :=
  let c0_i32_254 : BitVec 32 := 0#32
  let c1_i32_255 : BitVec 32 := 1#32
  let arg11 : BitVec 32 := Scf.iv c0_i32_254 c1_i32_255 k1_t1
  let c128_i32_539 : BitVec 32 := 128#32
  let v1523 : BitVec 32 := Scalar.muli arg11 c128_i32_539
  let c80_i32_540 : BitVec 32 := 80#32
  let v1524 : BitVec 32 := Scalar.addi v1523 c80_i32_540
  let v1525 : Index := Scalar.indexCast v1524
  ![v1525.toNat]

def k1_chk641 (v1522 : IVec S16 32) (v1528 : IVec S16 32) : Prop :=
  (∀ a x, ((![v1522, v1528] : Fin 2 → IVec S16 32) a x).toNat < S512x128.size a)
instance k1_chk641.dec : ∀ (v1522 : IVec S16 32) (v1528 : IVec S16 32), Decidable (k1_chk641 v1522 v1528) := fun v1522 v1528 => decidable_of_iff' _ (Iff.of_eq (k1_chk641.eq_1 v1522 v1528))
theorem k1_idx641_inb : ∀ (v1522 : IVec S16 32) (v1528 : IVec S16 32) (k1_hw641 : k1_chk641 v1522 v1528), ∀ a x, ((![v1522, v1528] : Fin 2 → IVec S16 32) a x).toNat < S512x128.size a := fun v1522 v1528 k1_hw641 => k1_hw641

def k1_chk642 (v1522 : IVec S16 32) (v1527 : IVec S16 32) : Prop :=
  (∀ a x, ((![v1527, v1522] : Fin 2 → IVec S16 32) a x).toNat < S64x512.size a)
instance k1_chk642.dec : ∀ (v1522 : IVec S16 32) (v1527 : IVec S16 32), Decidable (k1_chk642 v1522 v1527) := fun v1522 v1527 => decidable_of_iff' _ (Iff.of_eq (k1_chk642.eq_1 v1522 v1527))
theorem k1_idx642_inb : ∀ (v1522 : IVec S16 32) (v1527 : IVec S16 32) (k1_hw642 : k1_chk642 v1522 v1527), ∀ a x, ((![v1527, v1522] : Fin 2 → IVec S16 32) a x).toNat < S64x512.size a := fun v1522 v1527 k1_hw642 => k1_hw642

def k1_chk643 (v1522 : IVec S16 32) (v1531 : IVec S16 32) : Prop :=
  (∀ a x, ((![v1522, v1531] : Fin 2 → IVec S16 32) a x).toNat < S512x128.size a)
instance k1_chk643.dec : ∀ (v1522 : IVec S16 32) (v1531 : IVec S16 32), Decidable (k1_chk643 v1522 v1531) := fun v1522 v1531 => decidable_of_iff' _ (Iff.of_eq (k1_chk643.eq_1 v1522 v1531))
theorem k1_idx643_inb : ∀ (v1522 : IVec S16 32) (v1531 : IVec S16 32) (k1_hw643 : k1_chk643 v1522 v1531), ∀ a x, ((![v1522, v1531] : Fin 2 → IVec S16 32) a x).toNat < S512x128.size a := fun v1522 v1531 k1_hw643 => k1_hw643

def k1_chk644 (v1522 : IVec S16 32) (v1530 : IVec S16 32) : Prop :=
  (∀ a x, ((![v1530, v1522] : Fin 2 → IVec S16 32) a x).toNat < S64x512.size a)
instance k1_chk644.dec : ∀ (v1522 : IVec S16 32) (v1530 : IVec S16 32), Decidable (k1_chk644 v1522 v1530) := fun v1522 v1530 => decidable_of_iff' _ (Iff.of_eq (k1_chk644.eq_1 v1522 v1530))
theorem k1_idx644_inb : ∀ (v1522 : IVec S16 32) (v1530 : IVec S16 32) (k1_hw644 : k1_chk644 v1522 v1530), ∀ a x, ((![v1530, v1522] : Fin 2 → IVec S16 32) a x).toNat < S64x512.size a := fun v1522 v1530 k1_hw644 => k1_hw644

def k1_chk645 (v1522 : IVec S16 32) (v1534 : IVec S16 32) : Prop :=
  (∀ a x, ((![v1522, v1534] : Fin 2 → IVec S16 32) a x).toNat < S512x128.size a)
instance k1_chk645.dec : ∀ (v1522 : IVec S16 32) (v1534 : IVec S16 32), Decidable (k1_chk645 v1522 v1534) := fun v1522 v1534 => decidable_of_iff' _ (Iff.of_eq (k1_chk645.eq_1 v1522 v1534))
theorem k1_idx645_inb : ∀ (v1522 : IVec S16 32) (v1534 : IVec S16 32) (k1_hw645 : k1_chk645 v1522 v1534), ∀ a x, ((![v1522, v1534] : Fin 2 → IVec S16 32) a x).toNat < S512x128.size a := fun v1522 v1534 k1_hw645 => k1_hw645

def k1_chk646 (v1522 : IVec S16 32) (v1533 : IVec S16 32) : Prop :=
  (∀ a x, ((![v1533, v1522] : Fin 2 → IVec S16 32) a x).toNat < S64x512.size a)
instance k1_chk646.dec : ∀ (v1522 : IVec S16 32) (v1533 : IVec S16 32), Decidable (k1_chk646 v1522 v1533) := fun v1522 v1533 => decidable_of_iff' _ (Iff.of_eq (k1_chk646.eq_1 v1522 v1533))
theorem k1_idx646_inb : ∀ (v1522 : IVec S16 32) (v1533 : IVec S16 32) (k1_hw646 : k1_chk646 v1522 v1533), ∀ a x, ((![v1533, v1522] : Fin 2 → IVec S16 32) a x).toNat < S64x512.size a := fun v1522 v1533 k1_hw646 => k1_hw646

def k1_chk647 (v1522 : IVec S16 32) (v1537 : IVec S16 32) : Prop :=
  (∀ a x, ((![v1522, v1537] : Fin 2 → IVec S16 32) a x).toNat < S512x128.size a)
instance k1_chk647.dec : ∀ (v1522 : IVec S16 32) (v1537 : IVec S16 32), Decidable (k1_chk647 v1522 v1537) := fun v1522 v1537 => decidable_of_iff' _ (Iff.of_eq (k1_chk647.eq_1 v1522 v1537))
theorem k1_idx647_inb : ∀ (v1522 : IVec S16 32) (v1537 : IVec S16 32) (k1_hw647 : k1_chk647 v1522 v1537), ∀ a x, ((![v1522, v1537] : Fin 2 → IVec S16 32) a x).toNat < S512x128.size a := fun v1522 v1537 k1_hw647 => k1_hw647

def k1_chk648 (v1522 : IVec S16 32) (v1536 : IVec S16 32) : Prop :=
  (∀ a x, ((![v1536, v1522] : Fin 2 → IVec S16 32) a x).toNat < S64x512.size a)
instance k1_chk648.dec : ∀ (v1522 : IVec S16 32) (v1536 : IVec S16 32), Decidable (k1_chk648 v1522 v1536) := fun v1522 v1536 => decidable_of_iff' _ (Iff.of_eq (k1_chk648.eq_1 v1522 v1536))
theorem k1_idx648_inb : ∀ (v1522 : IVec S16 32) (v1536 : IVec S16 32) (k1_hw648 : k1_chk648 v1522 v1536), ∀ a x, ((![v1536, v1522] : Fin 2 → IVec S16 32) a x).toNat < S64x512.size a := fun v1522 v1536 k1_hw648 => k1_hw648

def k1_chk649 (v1522 : IVec S16 32) (v1540 : IVec S16 32) : Prop :=
  (∀ a x, ((![v1522, v1540] : Fin 2 → IVec S16 32) a x).toNat < S512x128.size a)
instance k1_chk649.dec : ∀ (v1522 : IVec S16 32) (v1540 : IVec S16 32), Decidable (k1_chk649 v1522 v1540) := fun v1522 v1540 => decidable_of_iff' _ (Iff.of_eq (k1_chk649.eq_1 v1522 v1540))
theorem k1_idx649_inb : ∀ (v1522 : IVec S16 32) (v1540 : IVec S16 32) (k1_hw649 : k1_chk649 v1522 v1540), ∀ a x, ((![v1522, v1540] : Fin 2 → IVec S16 32) a x).toNat < S512x128.size a := fun v1522 v1540 k1_hw649 => k1_hw649

def k1_chk650 (v1522 : IVec S16 32) (v1539 : IVec S16 32) : Prop :=
  (∀ a x, ((![v1539, v1522] : Fin 2 → IVec S16 32) a x).toNat < S64x512.size a)
instance k1_chk650.dec : ∀ (v1522 : IVec S16 32) (v1539 : IVec S16 32), Decidable (k1_chk650 v1522 v1539) := fun v1522 v1539 => decidable_of_iff' _ (Iff.of_eq (k1_chk650.eq_1 v1522 v1539))
theorem k1_idx650_inb : ∀ (v1522 : IVec S16 32) (v1539 : IVec S16 32) (k1_hw650 : k1_chk650 v1522 v1539), ∀ a x, ((![v1539, v1522] : Fin 2 → IVec S16 32) a x).toNat < S64x512.size a := fun v1522 v1539 k1_hw650 => k1_hw650

def k1_chk651 (v1522 : IVec S16 32) (v1543 : IVec S16 32) : Prop :=
  (∀ a x, ((![v1522, v1543] : Fin 2 → IVec S16 32) a x).toNat < S512x128.size a)
instance k1_chk651.dec : ∀ (v1522 : IVec S16 32) (v1543 : IVec S16 32), Decidable (k1_chk651 v1522 v1543) := fun v1522 v1543 => decidable_of_iff' _ (Iff.of_eq (k1_chk651.eq_1 v1522 v1543))
theorem k1_idx651_inb : ∀ (v1522 : IVec S16 32) (v1543 : IVec S16 32) (k1_hw651 : k1_chk651 v1522 v1543), ∀ a x, ((![v1522, v1543] : Fin 2 → IVec S16 32) a x).toNat < S512x128.size a := fun v1522 v1543 k1_hw651 => k1_hw651

def k1_chk652 (v1522 : IVec S16 32) (v1542 : IVec S16 32) : Prop :=
  (∀ a x, ((![v1542, v1522] : Fin 2 → IVec S16 32) a x).toNat < S64x512.size a)
instance k1_chk652.dec : ∀ (v1522 : IVec S16 32) (v1542 : IVec S16 32), Decidable (k1_chk652 v1522 v1542) := fun v1522 v1542 => decidable_of_iff' _ (Iff.of_eq (k1_chk652.eq_1 v1522 v1542))
theorem k1_idx652_inb : ∀ (v1522 : IVec S16 32) (v1542 : IVec S16 32) (k1_hw652 : k1_chk652 v1522 v1542), ∀ a x, ((![v1542, v1522] : Fin 2 → IVec S16 32) a x).toNat < S64x512.size a := fun v1522 v1542 k1_hw652 => k1_hw652

def k1_chk653 (v1522 : IVec S16 32) (v1546 : IVec S16 32) : Prop :=
  (∀ a x, ((![v1522, v1546] : Fin 2 → IVec S16 32) a x).toNat < S512x128.size a)
instance k1_chk653.dec : ∀ (v1522 : IVec S16 32) (v1546 : IVec S16 32), Decidable (k1_chk653 v1522 v1546) := fun v1522 v1546 => decidable_of_iff' _ (Iff.of_eq (k1_chk653.eq_1 v1522 v1546))
theorem k1_idx653_inb : ∀ (v1522 : IVec S16 32) (v1546 : IVec S16 32) (k1_hw653 : k1_chk653 v1522 v1546), ∀ a x, ((![v1522, v1546] : Fin 2 → IVec S16 32) a x).toNat < S512x128.size a := fun v1522 v1546 k1_hw653 => k1_hw653

def k1_chk654 (v1522 : IVec S16 32) (v1545 : IVec S16 32) : Prop :=
  (∀ a x, ((![v1545, v1522] : Fin 2 → IVec S16 32) a x).toNat < S64x512.size a)
instance k1_chk654.dec : ∀ (v1522 : IVec S16 32) (v1545 : IVec S16 32), Decidable (k1_chk654 v1522 v1545) := fun v1522 v1545 => decidable_of_iff' _ (Iff.of_eq (k1_chk654.eq_1 v1522 v1545))
theorem k1_idx654_inb : ∀ (v1522 : IVec S16 32) (v1545 : IVec S16 32) (k1_hw654 : k1_chk654 v1522 v1545), ∀ a x, ((![v1545, v1522] : Fin 2 → IVec S16 32) a x).toNat < S64x512.size a := fun v1522 v1545 k1_hw654 => k1_hw654

def k1_chk655 (v1522 : IVec S16 32) (v1549 : IVec S16 32) : Prop :=
  (∀ a x, ((![v1522, v1549] : Fin 2 → IVec S16 32) a x).toNat < S512x128.size a)
instance k1_chk655.dec : ∀ (v1522 : IVec S16 32) (v1549 : IVec S16 32), Decidable (k1_chk655 v1522 v1549) := fun v1522 v1549 => decidable_of_iff' _ (Iff.of_eq (k1_chk655.eq_1 v1522 v1549))
theorem k1_idx655_inb : ∀ (v1522 : IVec S16 32) (v1549 : IVec S16 32) (k1_hw655 : k1_chk655 v1522 v1549), ∀ a x, ((![v1522, v1549] : Fin 2 → IVec S16 32) a x).toNat < S512x128.size a := fun v1522 v1549 k1_hw655 => k1_hw655

def k1_chk656 (v1522 : IVec S16 32) (v1548 : IVec S16 32) : Prop :=
  (∀ a x, ((![v1548, v1522] : Fin 2 → IVec S16 32) a x).toNat < S64x512.size a)
instance k1_chk656.dec : ∀ (v1522 : IVec S16 32) (v1548 : IVec S16 32), Decidable (k1_chk656 v1522 v1548) := fun v1522 v1548 => decidable_of_iff' _ (Iff.of_eq (k1_chk656.eq_1 v1522 v1548))
theorem k1_idx656_inb : ∀ (v1522 : IVec S16 32) (v1548 : IVec S16 32) (k1_hw656 : k1_chk656 v1522 v1548), ∀ a x, ((![v1548, v1522] : Fin 2 → IVec S16 32) a x).toNat < S64x512.size a := fun v1522 v1548 k1_hw656 => k1_hw656

def k1_chk657 (v1522 : IVec S16 32) (v1552 : IVec S16 32) : Prop :=
  (∀ a x, ((![v1522, v1552] : Fin 2 → IVec S16 32) a x).toNat < S512x128.size a)
instance k1_chk657.dec : ∀ (v1522 : IVec S16 32) (v1552 : IVec S16 32), Decidable (k1_chk657 v1522 v1552) := fun v1522 v1552 => decidable_of_iff' _ (Iff.of_eq (k1_chk657.eq_1 v1522 v1552))
theorem k1_idx657_inb : ∀ (v1522 : IVec S16 32) (v1552 : IVec S16 32) (k1_hw657 : k1_chk657 v1522 v1552), ∀ a x, ((![v1522, v1552] : Fin 2 → IVec S16 32) a x).toNat < S512x128.size a := fun v1522 v1552 k1_hw657 => k1_hw657

def k1_chk658 (v1522 : IVec S16 32) (v1551 : IVec S16 32) : Prop :=
  (∀ a x, ((![v1551, v1522] : Fin 2 → IVec S16 32) a x).toNat < S64x512.size a)
instance k1_chk658.dec : ∀ (v1522 : IVec S16 32) (v1551 : IVec S16 32), Decidable (k1_chk658 v1522 v1551) := fun v1522 v1551 => decidable_of_iff' _ (Iff.of_eq (k1_chk658.eq_1 v1522 v1551))
theorem k1_idx658_inb : ∀ (v1522 : IVec S16 32) (v1551 : IVec S16 32) (k1_hw658 : k1_chk658 v1522 v1551), ∀ a x, ((![v1551, v1522] : Fin 2 → IVec S16 32) a x).toNat < S64x512.size a := fun v1522 v1551 k1_hw658 => k1_hw658

def k1_chk659 (v1522 : IVec S16 32) (v1555 : IVec S16 32) : Prop :=
  (∀ a x, ((![v1522, v1555] : Fin 2 → IVec S16 32) a x).toNat < S512x128.size a)
instance k1_chk659.dec : ∀ (v1522 : IVec S16 32) (v1555 : IVec S16 32), Decidable (k1_chk659 v1522 v1555) := fun v1522 v1555 => decidable_of_iff' _ (Iff.of_eq (k1_chk659.eq_1 v1522 v1555))
theorem k1_idx659_inb : ∀ (v1522 : IVec S16 32) (v1555 : IVec S16 32) (k1_hw659 : k1_chk659 v1522 v1555), ∀ a x, ((![v1522, v1555] : Fin 2 → IVec S16 32) a x).toNat < S512x128.size a := fun v1522 v1555 k1_hw659 => k1_hw659

def k1_chk660 (v1522 : IVec S16 32) (v1554 : IVec S16 32) : Prop :=
  (∀ a x, ((![v1554, v1522] : Fin 2 → IVec S16 32) a x).toNat < S64x512.size a)
instance k1_chk660.dec : ∀ (v1522 : IVec S16 32) (v1554 : IVec S16 32), Decidable (k1_chk660 v1522 v1554) := fun v1522 v1554 => decidable_of_iff' _ (Iff.of_eq (k1_chk660.eq_1 v1522 v1554))
theorem k1_idx660_inb : ∀ (v1522 : IVec S16 32) (v1554 : IVec S16 32) (k1_hw660 : k1_chk660 v1522 v1554), ∀ a x, ((![v1554, v1522] : Fin 2 → IVec S16 32) a x).toNat < S64x512.size a := fun v1522 v1554 k1_hw660 => k1_hw660

def k1_chk661 (v1522 : IVec S16 32) (v1558 : IVec S16 32) : Prop :=
  (∀ a x, ((![v1522, v1558] : Fin 2 → IVec S16 32) a x).toNat < S512x128.size a)
instance k1_chk661.dec : ∀ (v1522 : IVec S16 32) (v1558 : IVec S16 32), Decidable (k1_chk661 v1522 v1558) := fun v1522 v1558 => decidable_of_iff' _ (Iff.of_eq (k1_chk661.eq_1 v1522 v1558))
theorem k1_idx661_inb : ∀ (v1522 : IVec S16 32) (v1558 : IVec S16 32) (k1_hw661 : k1_chk661 v1522 v1558), ∀ a x, ((![v1522, v1558] : Fin 2 → IVec S16 32) a x).toNat < S512x128.size a := fun v1522 v1558 k1_hw661 => k1_hw661

def k1_chk662 (v1522 : IVec S16 32) (v1557 : IVec S16 32) : Prop :=
  (∀ a x, ((![v1557, v1522] : Fin 2 → IVec S16 32) a x).toNat < S64x512.size a)
instance k1_chk662.dec : ∀ (v1522 : IVec S16 32) (v1557 : IVec S16 32), Decidable (k1_chk662 v1522 v1557) := fun v1522 v1557 => decidable_of_iff' _ (Iff.of_eq (k1_chk662.eq_1 v1522 v1557))
theorem k1_idx662_inb : ∀ (v1522 : IVec S16 32) (v1557 : IVec S16 32) (k1_hw662 : k1_chk662 v1522 v1557), ∀ a x, ((![v1557, v1522] : Fin 2 → IVec S16 32) a x).toNat < S64x512.size a := fun v1522 v1557 k1_hw662 => k1_hw662

def k1_chk663 (v1522 : IVec S16 32) (v1561 : IVec S16 32) : Prop :=
  (∀ a x, ((![v1522, v1561] : Fin 2 → IVec S16 32) a x).toNat < S512x128.size a)
instance k1_chk663.dec : ∀ (v1522 : IVec S16 32) (v1561 : IVec S16 32), Decidable (k1_chk663 v1522 v1561) := fun v1522 v1561 => decidable_of_iff' _ (Iff.of_eq (k1_chk663.eq_1 v1522 v1561))
theorem k1_idx663_inb : ∀ (v1522 : IVec S16 32) (v1561 : IVec S16 32) (k1_hw663 : k1_chk663 v1522 v1561), ∀ a x, ((![v1522, v1561] : Fin 2 → IVec S16 32) a x).toNat < S512x128.size a := fun v1522 v1561 k1_hw663 => k1_hw663

def k1_chk664 (v1522 : IVec S16 32) (v1560 : IVec S16 32) : Prop :=
  (∀ a x, ((![v1560, v1522] : Fin 2 → IVec S16 32) a x).toNat < S64x512.size a)
instance k1_chk664.dec : ∀ (v1522 : IVec S16 32) (v1560 : IVec S16 32), Decidable (k1_chk664 v1522 v1560) := fun v1522 v1560 => decidable_of_iff' _ (Iff.of_eq (k1_chk664.eq_1 v1522 v1560))
theorem k1_idx664_inb : ∀ (v1522 : IVec S16 32) (v1560 : IVec S16 32) (k1_hw664 : k1_chk664 v1522 v1560), ∀ a x, ((![v1560, v1522] : Fin 2 → IVec S16 32) a x).toNat < S64x512.size a := fun v1522 v1560 k1_hw664 => k1_hw664

def k1_chk665 (v1522 : IVec S16 32) (v1564 : IVec S16 32) : Prop :=
  (∀ a x, ((![v1522, v1564] : Fin 2 → IVec S16 32) a x).toNat < S512x128.size a)
instance k1_chk665.dec : ∀ (v1522 : IVec S16 32) (v1564 : IVec S16 32), Decidable (k1_chk665 v1522 v1564) := fun v1522 v1564 => decidable_of_iff' _ (Iff.of_eq (k1_chk665.eq_1 v1522 v1564))
theorem k1_idx665_inb : ∀ (v1522 : IVec S16 32) (v1564 : IVec S16 32) (k1_hw665 : k1_chk665 v1522 v1564), ∀ a x, ((![v1522, v1564] : Fin 2 → IVec S16 32) a x).toNat < S512x128.size a := fun v1522 v1564 k1_hw665 => k1_hw665

def k1_chk666 (v1522 : IVec S16 32) (v1563 : IVec S16 32) : Prop :=
  (∀ a x, ((![v1563, v1522] : Fin 2 → IVec S16 32) a x).toNat < S64x512.size a)
instance k1_chk666.dec : ∀ (v1522 : IVec S16 32) (v1563 : IVec S16 32), Decidable (k1_chk666 v1522 v1563) := fun v1522 v1563 => decidable_of_iff' _ (Iff.of_eq (k1_chk666.eq_1 v1522 v1563))
theorem k1_idx666_inb : ∀ (v1522 : IVec S16 32) (v1563 : IVec S16 32) (k1_hw666 : k1_chk666 v1522 v1563), ∀ a x, ((![v1563, v1522] : Fin 2 → IVec S16 32) a x).toNat < S64x512.size a := fun v1522 v1563 k1_hw666 => k1_hw666

def k1_chk667 (v1522 : IVec S16 32) (v1567 : IVec S16 32) : Prop :=
  (∀ a x, ((![v1522, v1567] : Fin 2 → IVec S16 32) a x).toNat < S512x128.size a)
instance k1_chk667.dec : ∀ (v1522 : IVec S16 32) (v1567 : IVec S16 32), Decidable (k1_chk667 v1522 v1567) := fun v1522 v1567 => decidable_of_iff' _ (Iff.of_eq (k1_chk667.eq_1 v1522 v1567))
theorem k1_idx667_inb : ∀ (v1522 : IVec S16 32) (v1567 : IVec S16 32) (k1_hw667 : k1_chk667 v1522 v1567), ∀ a x, ((![v1522, v1567] : Fin 2 → IVec S16 32) a x).toNat < S512x128.size a := fun v1522 v1567 k1_hw667 => k1_hw667

def k1_chk668 (v1522 : IVec S16 32) (v1566 : IVec S16 32) : Prop :=
  (∀ a x, ((![v1566, v1522] : Fin 2 → IVec S16 32) a x).toNat < S64x512.size a)
instance k1_chk668.dec : ∀ (v1522 : IVec S16 32) (v1566 : IVec S16 32), Decidable (k1_chk668 v1522 v1566) := fun v1522 v1566 => decidable_of_iff' _ (Iff.of_eq (k1_chk668.eq_1 v1522 v1566))
theorem k1_idx668_inb : ∀ (v1522 : IVec S16 32) (v1566 : IVec S16 32) (k1_hw668 : k1_chk668 v1522 v1566), ∀ a x, ((![v1566, v1522] : Fin 2 → IVec S16 32) a x).toNat < S64x512.size a := fun v1522 v1566 k1_hw668 => k1_hw668

def k1_chk669 (v1522 : IVec S16 32) (v1570 : IVec S16 32) : Prop :=
  (∀ a x, ((![v1522, v1570] : Fin 2 → IVec S16 32) a x).toNat < S512x128.size a)
instance k1_chk669.dec : ∀ (v1522 : IVec S16 32) (v1570 : IVec S16 32), Decidable (k1_chk669 v1522 v1570) := fun v1522 v1570 => decidable_of_iff' _ (Iff.of_eq (k1_chk669.eq_1 v1522 v1570))
theorem k1_idx669_inb : ∀ (v1522 : IVec S16 32) (v1570 : IVec S16 32) (k1_hw669 : k1_chk669 v1522 v1570), ∀ a x, ((![v1522, v1570] : Fin 2 → IVec S16 32) a x).toNat < S512x128.size a := fun v1522 v1570 k1_hw669 => k1_hw669

def k1_chk670 (v1522 : IVec S16 32) (v1569 : IVec S16 32) : Prop :=
  (∀ a x, ((![v1569, v1522] : Fin 2 → IVec S16 32) a x).toNat < S64x512.size a)
instance k1_chk670.dec : ∀ (v1522 : IVec S16 32) (v1569 : IVec S16 32), Decidable (k1_chk670 v1522 v1569) := fun v1522 v1569 => decidable_of_iff' _ (Iff.of_eq (k1_chk670.eq_1 v1522 v1569))
theorem k1_idx670_inb : ∀ (v1522 : IVec S16 32) (v1569 : IVec S16 32) (k1_hw670 : k1_chk670 v1522 v1569), ∀ a x, ((![v1569, v1522] : Fin 2 → IVec S16 32) a x).toNat < S64x512.size a := fun v1522 v1569 k1_hw670 => k1_hw670

def k1_chk671 (v1522 : IVec S16 32) (v1573 : IVec S16 32) : Prop :=
  (∀ a x, ((![v1522, v1573] : Fin 2 → IVec S16 32) a x).toNat < S512x128.size a)
instance k1_chk671.dec : ∀ (v1522 : IVec S16 32) (v1573 : IVec S16 32), Decidable (k1_chk671 v1522 v1573) := fun v1522 v1573 => decidable_of_iff' _ (Iff.of_eq (k1_chk671.eq_1 v1522 v1573))
theorem k1_idx671_inb : ∀ (v1522 : IVec S16 32) (v1573 : IVec S16 32) (k1_hw671 : k1_chk671 v1522 v1573), ∀ a x, ((![v1522, v1573] : Fin 2 → IVec S16 32) a x).toNat < S512x128.size a := fun v1522 v1573 k1_hw671 => k1_hw671

def k1_chk672 (v1522 : IVec S16 32) (v1572 : IVec S16 32) : Prop :=
  (∀ a x, ((![v1572, v1522] : Fin 2 → IVec S16 32) a x).toNat < S64x512.size a)
instance k1_chk672.dec : ∀ (v1522 : IVec S16 32) (v1572 : IVec S16 32), Decidable (k1_chk672 v1522 v1572) := fun v1522 v1572 => decidable_of_iff' _ (Iff.of_eq (k1_chk672.eq_1 v1522 v1572))
theorem k1_idx672_inb : ∀ (v1522 : IVec S16 32) (v1572 : IVec S16 32) (k1_hw672 : k1_chk672 v1522 v1572), ∀ a x, ((![v1572, v1522] : Fin 2 → IVec S16 32) a x).toNat < S64x512.size a := fun v1522 v1572 k1_hw672 => k1_hw672

def k1_chk673 (v1522 : IVec S16 32) (v1576 : IVec S16 32) : Prop :=
  (∀ a x, ((![v1522, v1576] : Fin 2 → IVec S16 32) a x).toNat < S512x128.size a)
instance k1_chk673.dec : ∀ (v1522 : IVec S16 32) (v1576 : IVec S16 32), Decidable (k1_chk673 v1522 v1576) := fun v1522 v1576 => decidable_of_iff' _ (Iff.of_eq (k1_chk673.eq_1 v1522 v1576))
theorem k1_idx673_inb : ∀ (v1522 : IVec S16 32) (v1576 : IVec S16 32) (k1_hw673 : k1_chk673 v1522 v1576), ∀ a x, ((![v1522, v1576] : Fin 2 → IVec S16 32) a x).toNat < S512x128.size a := fun v1522 v1576 k1_hw673 => k1_hw673

def k1_chk674 (v1522 : IVec S16 32) (v1575 : IVec S16 32) : Prop :=
  (∀ a x, ((![v1575, v1522] : Fin 2 → IVec S16 32) a x).toNat < S64x512.size a)
instance k1_chk674.dec : ∀ (v1522 : IVec S16 32) (v1575 : IVec S16 32), Decidable (k1_chk674 v1522 v1575) := fun v1522 v1575 => decidable_of_iff' _ (Iff.of_eq (k1_chk674.eq_1 v1522 v1575))
theorem k1_idx674_inb : ∀ (v1522 : IVec S16 32) (v1575 : IVec S16 32) (k1_hw674 : k1_chk674 v1522 v1575), ∀ a x, ((![v1575, v1522] : Fin 2 → IVec S16 32) a x).toNat < S64x512.size a := fun v1522 v1575 k1_hw674 => k1_hw674

def k1_chk675 (v1522 : IVec S16 32) (v1579 : IVec S16 32) : Prop :=
  (∀ a x, ((![v1522, v1579] : Fin 2 → IVec S16 32) a x).toNat < S512x128.size a)
instance k1_chk675.dec : ∀ (v1522 : IVec S16 32) (v1579 : IVec S16 32), Decidable (k1_chk675 v1522 v1579) := fun v1522 v1579 => decidable_of_iff' _ (Iff.of_eq (k1_chk675.eq_1 v1522 v1579))
theorem k1_idx675_inb : ∀ (v1522 : IVec S16 32) (v1579 : IVec S16 32) (k1_hw675 : k1_chk675 v1522 v1579), ∀ a x, ((![v1522, v1579] : Fin 2 → IVec S16 32) a x).toNat < S512x128.size a := fun v1522 v1579 k1_hw675 => k1_hw675

def k1_chk676 (v1522 : IVec S16 32) (v1578 : IVec S16 32) : Prop :=
  (∀ a x, ((![v1578, v1522] : Fin 2 → IVec S16 32) a x).toNat < S64x512.size a)
instance k1_chk676.dec : ∀ (v1522 : IVec S16 32) (v1578 : IVec S16 32), Decidable (k1_chk676 v1522 v1578) := fun v1522 v1578 => decidable_of_iff' _ (Iff.of_eq (k1_chk676.eq_1 v1522 v1578))
theorem k1_idx676_inb : ∀ (v1522 : IVec S16 32) (v1578 : IVec S16 32) (k1_hw676 : k1_chk676 v1522 v1578), ∀ a x, ((![v1578, v1522] : Fin 2 → IVec S16 32) a x).toNat < S64x512.size a := fun v1522 v1578 k1_hw676 => k1_hw676

def k1_chk677 (v1522 : IVec S16 32) (v1582 : IVec S16 32) : Prop :=
  (∀ a x, ((![v1522, v1582] : Fin 2 → IVec S16 32) a x).toNat < S512x128.size a)
instance k1_chk677.dec : ∀ (v1522 : IVec S16 32) (v1582 : IVec S16 32), Decidable (k1_chk677 v1522 v1582) := fun v1522 v1582 => decidable_of_iff' _ (Iff.of_eq (k1_chk677.eq_1 v1522 v1582))
theorem k1_idx677_inb : ∀ (v1522 : IVec S16 32) (v1582 : IVec S16 32) (k1_hw677 : k1_chk677 v1522 v1582), ∀ a x, ((![v1522, v1582] : Fin 2 → IVec S16 32) a x).toNat < S512x128.size a := fun v1522 v1582 k1_hw677 => k1_hw677

def k1_chk678 (v1522 : IVec S16 32) (v1581 : IVec S16 32) : Prop :=
  (∀ a x, ((![v1581, v1522] : Fin 2 → IVec S16 32) a x).toNat < S64x512.size a)
instance k1_chk678.dec : ∀ (v1522 : IVec S16 32) (v1581 : IVec S16 32), Decidable (k1_chk678 v1522 v1581) := fun v1522 v1581 => decidable_of_iff' _ (Iff.of_eq (k1_chk678.eq_1 v1522 v1581))
theorem k1_idx678_inb : ∀ (v1522 : IVec S16 32) (v1581 : IVec S16 32) (k1_hw678 : k1_chk678 v1522 v1581), ∀ a x, ((![v1581, v1522] : Fin 2 → IVec S16 32) a x).toNat < S64x512.size a := fun v1522 v1581 k1_hw678 => k1_hw678

def k1_chk679 (v1522 : IVec S16 32) (v1585 : IVec S16 32) : Prop :=
  (∀ a x, ((![v1522, v1585] : Fin 2 → IVec S16 32) a x).toNat < S512x128.size a)
instance k1_chk679.dec : ∀ (v1522 : IVec S16 32) (v1585 : IVec S16 32), Decidable (k1_chk679 v1522 v1585) := fun v1522 v1585 => decidable_of_iff' _ (Iff.of_eq (k1_chk679.eq_1 v1522 v1585))
theorem k1_idx679_inb : ∀ (v1522 : IVec S16 32) (v1585 : IVec S16 32) (k1_hw679 : k1_chk679 v1522 v1585), ∀ a x, ((![v1522, v1585] : Fin 2 → IVec S16 32) a x).toNat < S512x128.size a := fun v1522 v1585 k1_hw679 => k1_hw679

def k1_chk680 (v1522 : IVec S16 32) (v1584 : IVec S16 32) : Prop :=
  (∀ a x, ((![v1584, v1522] : Fin 2 → IVec S16 32) a x).toNat < S64x512.size a)
instance k1_chk680.dec : ∀ (v1522 : IVec S16 32) (v1584 : IVec S16 32), Decidable (k1_chk680 v1522 v1584) := fun v1522 v1584 => decidable_of_iff' _ (Iff.of_eq (k1_chk680.eq_1 v1522 v1584))
theorem k1_idx680_inb : ∀ (v1522 : IVec S16 32) (v1584 : IVec S16 32) (k1_hw680 : k1_chk680 v1522 v1584), ∀ a x, ((![v1584, v1522] : Fin 2 → IVec S16 32) a x).toNat < S64x512.size a := fun v1522 v1584 k1_hw680 => k1_hw680

def k1_chk681 (v1522 : IVec S16 32) (v1588 : IVec S16 32) : Prop :=
  (∀ a x, ((![v1522, v1588] : Fin 2 → IVec S16 32) a x).toNat < S512x128.size a)
instance k1_chk681.dec : ∀ (v1522 : IVec S16 32) (v1588 : IVec S16 32), Decidable (k1_chk681 v1522 v1588) := fun v1522 v1588 => decidable_of_iff' _ (Iff.of_eq (k1_chk681.eq_1 v1522 v1588))
theorem k1_idx681_inb : ∀ (v1522 : IVec S16 32) (v1588 : IVec S16 32) (k1_hw681 : k1_chk681 v1522 v1588), ∀ a x, ((![v1522, v1588] : Fin 2 → IVec S16 32) a x).toNat < S512x128.size a := fun v1522 v1588 k1_hw681 => k1_hw681

def k1_chk682 (v1522 : IVec S16 32) (v1587 : IVec S16 32) : Prop :=
  (∀ a x, ((![v1587, v1522] : Fin 2 → IVec S16 32) a x).toNat < S64x512.size a)
instance k1_chk682.dec : ∀ (v1522 : IVec S16 32) (v1587 : IVec S16 32), Decidable (k1_chk682 v1522 v1587) := fun v1522 v1587 => decidable_of_iff' _ (Iff.of_eq (k1_chk682.eq_1 v1522 v1587))
theorem k1_idx682_inb : ∀ (v1522 : IVec S16 32) (v1587 : IVec S16 32) (k1_hw682 : k1_chk682 v1522 v1587), ∀ a x, ((![v1587, v1522] : Fin 2 → IVec S16 32) a x).toNat < S64x512.size a := fun v1522 v1587 k1_hw682 => k1_hw682

def k1_chk683 (v1522 : IVec S16 32) (v1591 : IVec S16 32) : Prop :=
  (∀ a x, ((![v1522, v1591] : Fin 2 → IVec S16 32) a x).toNat < S512x128.size a)
instance k1_chk683.dec : ∀ (v1522 : IVec S16 32) (v1591 : IVec S16 32), Decidable (k1_chk683 v1522 v1591) := fun v1522 v1591 => decidable_of_iff' _ (Iff.of_eq (k1_chk683.eq_1 v1522 v1591))
theorem k1_idx683_inb : ∀ (v1522 : IVec S16 32) (v1591 : IVec S16 32) (k1_hw683 : k1_chk683 v1522 v1591), ∀ a x, ((![v1522, v1591] : Fin 2 → IVec S16 32) a x).toNat < S512x128.size a := fun v1522 v1591 k1_hw683 => k1_hw683

def k1_chk684 (v1522 : IVec S16 32) (v1590 : IVec S16 32) : Prop :=
  (∀ a x, ((![v1590, v1522] : Fin 2 → IVec S16 32) a x).toNat < S64x512.size a)
instance k1_chk684.dec : ∀ (v1522 : IVec S16 32) (v1590 : IVec S16 32), Decidable (k1_chk684 v1522 v1590) := fun v1522 v1590 => decidable_of_iff' _ (Iff.of_eq (k1_chk684.eq_1 v1522 v1590))
theorem k1_idx684_inb : ∀ (v1522 : IVec S16 32) (v1590 : IVec S16 32) (k1_hw684 : k1_chk684 v1522 v1590), ∀ a x, ((![v1590, v1522] : Fin 2 → IVec S16 32) a x).toNat < S64x512.size a := fun v1522 v1590 k1_hw684 => k1_hw684

def k1_chk685 (v1522 : IVec S16 32) (v1594 : IVec S16 32) : Prop :=
  (∀ a x, ((![v1522, v1594] : Fin 2 → IVec S16 32) a x).toNat < S512x128.size a)
instance k1_chk685.dec : ∀ (v1522 : IVec S16 32) (v1594 : IVec S16 32), Decidable (k1_chk685 v1522 v1594) := fun v1522 v1594 => decidable_of_iff' _ (Iff.of_eq (k1_chk685.eq_1 v1522 v1594))
theorem k1_idx685_inb : ∀ (v1522 : IVec S16 32) (v1594 : IVec S16 32) (k1_hw685 : k1_chk685 v1522 v1594), ∀ a x, ((![v1522, v1594] : Fin 2 → IVec S16 32) a x).toNat < S512x128.size a := fun v1522 v1594 k1_hw685 => k1_hw685

def k1_chk686 (v1522 : IVec S16 32) (v1593 : IVec S16 32) : Prop :=
  (∀ a x, ((![v1593, v1522] : Fin 2 → IVec S16 32) a x).toNat < S64x512.size a)
instance k1_chk686.dec : ∀ (v1522 : IVec S16 32) (v1593 : IVec S16 32), Decidable (k1_chk686 v1522 v1593) := fun v1522 v1593 => decidable_of_iff' _ (Iff.of_eq (k1_chk686.eq_1 v1522 v1593))
theorem k1_idx686_inb : ∀ (v1522 : IVec S16 32) (v1593 : IVec S16 32) (k1_hw686 : k1_chk686 v1522 v1593), ∀ a x, ((![v1593, v1522] : Fin 2 → IVec S16 32) a x).toNat < S64x512.size a := fun v1522 v1593 k1_hw686 => k1_hw686

def k1_chk687 (v1522 : IVec S16 32) (v1597 : IVec S16 32) : Prop :=
  (∀ a x, ((![v1522, v1597] : Fin 2 → IVec S16 32) a x).toNat < S512x128.size a)
instance k1_chk687.dec : ∀ (v1522 : IVec S16 32) (v1597 : IVec S16 32), Decidable (k1_chk687 v1522 v1597) := fun v1522 v1597 => decidable_of_iff' _ (Iff.of_eq (k1_chk687.eq_1 v1522 v1597))
theorem k1_idx687_inb : ∀ (v1522 : IVec S16 32) (v1597 : IVec S16 32) (k1_hw687 : k1_chk687 v1522 v1597), ∀ a x, ((![v1522, v1597] : Fin 2 → IVec S16 32) a x).toNat < S512x128.size a := fun v1522 v1597 k1_hw687 => k1_hw687

def k1_chk688 (v1522 : IVec S16 32) (v1596 : IVec S16 32) : Prop :=
  (∀ a x, ((![v1596, v1522] : Fin 2 → IVec S16 32) a x).toNat < S64x512.size a)
instance k1_chk688.dec : ∀ (v1522 : IVec S16 32) (v1596 : IVec S16 32), Decidable (k1_chk688 v1522 v1596) := fun v1522 v1596 => decidable_of_iff' _ (Iff.of_eq (k1_chk688.eq_1 v1522 v1596))
theorem k1_idx688_inb : ∀ (v1522 : IVec S16 32) (v1596 : IVec S16 32) (k1_hw688 : k1_chk688 v1522 v1596), ∀ a x, ((![v1596, v1522] : Fin 2 → IVec S16 32) a x).toNat < S64x512.size a := fun v1522 v1596 k1_hw688 => k1_hw688

def k1_chk689 (v1522 : IVec S16 32) (v1600 : IVec S16 32) : Prop :=
  (∀ a x, ((![v1522, v1600] : Fin 2 → IVec S16 32) a x).toNat < S512x128.size a)
instance k1_chk689.dec : ∀ (v1522 : IVec S16 32) (v1600 : IVec S16 32), Decidable (k1_chk689 v1522 v1600) := fun v1522 v1600 => decidable_of_iff' _ (Iff.of_eq (k1_chk689.eq_1 v1522 v1600))
theorem k1_idx689_inb : ∀ (v1522 : IVec S16 32) (v1600 : IVec S16 32) (k1_hw689 : k1_chk689 v1522 v1600), ∀ a x, ((![v1522, v1600] : Fin 2 → IVec S16 32) a x).toNat < S512x128.size a := fun v1522 v1600 k1_hw689 => k1_hw689

def k1_chk690 (v1522 : IVec S16 32) (v1599 : IVec S16 32) : Prop :=
  (∀ a x, ((![v1599, v1522] : Fin 2 → IVec S16 32) a x).toNat < S64x512.size a)
instance k1_chk690.dec : ∀ (v1522 : IVec S16 32) (v1599 : IVec S16 32), Decidable (k1_chk690 v1522 v1599) := fun v1522 v1599 => decidable_of_iff' _ (Iff.of_eq (k1_chk690.eq_1 v1522 v1599))
theorem k1_idx690_inb : ∀ (v1522 : IVec S16 32) (v1599 : IVec S16 32) (k1_hw690 : k1_chk690 v1522 v1599), ∀ a x, ((![v1599, v1522] : Fin 2 → IVec S16 32) a x).toNat < S64x512.size a := fun v1522 v1599 k1_hw690 => k1_hw690

def k1_chk691 (v1522 : IVec S16 32) (v1603 : IVec S16 32) : Prop :=
  (∀ a x, ((![v1522, v1603] : Fin 2 → IVec S16 32) a x).toNat < S512x128.size a)
instance k1_chk691.dec : ∀ (v1522 : IVec S16 32) (v1603 : IVec S16 32), Decidable (k1_chk691 v1522 v1603) := fun v1522 v1603 => decidable_of_iff' _ (Iff.of_eq (k1_chk691.eq_1 v1522 v1603))
theorem k1_idx691_inb : ∀ (v1522 : IVec S16 32) (v1603 : IVec S16 32) (k1_hw691 : k1_chk691 v1522 v1603), ∀ a x, ((![v1522, v1603] : Fin 2 → IVec S16 32) a x).toNat < S512x128.size a := fun v1522 v1603 k1_hw691 => k1_hw691

def k1_chk692 (v1522 : IVec S16 32) (v1602 : IVec S16 32) : Prop :=
  (∀ a x, ((![v1602, v1522] : Fin 2 → IVec S16 32) a x).toNat < S64x512.size a)
instance k1_chk692.dec : ∀ (v1522 : IVec S16 32) (v1602 : IVec S16 32), Decidable (k1_chk692 v1522 v1602) := fun v1522 v1602 => decidable_of_iff' _ (Iff.of_eq (k1_chk692.eq_1 v1522 v1602))
theorem k1_idx692_inb : ∀ (v1522 : IVec S16 32) (v1602 : IVec S16 32) (k1_hw692 : k1_chk692 v1522 v1602), ∀ a x, ((![v1602, v1522] : Fin 2 → IVec S16 32) a x).toNat < S64x512.size a := fun v1522 v1602 k1_hw692 => k1_hw692

def k1_chk693 (v1522 : IVec S16 32) (v1606 : IVec S16 32) : Prop :=
  (∀ a x, ((![v1522, v1606] : Fin 2 → IVec S16 32) a x).toNat < S512x128.size a)
instance k1_chk693.dec : ∀ (v1522 : IVec S16 32) (v1606 : IVec S16 32), Decidable (k1_chk693 v1522 v1606) := fun v1522 v1606 => decidable_of_iff' _ (Iff.of_eq (k1_chk693.eq_1 v1522 v1606))
theorem k1_idx693_inb : ∀ (v1522 : IVec S16 32) (v1606 : IVec S16 32) (k1_hw693 : k1_chk693 v1522 v1606), ∀ a x, ((![v1522, v1606] : Fin 2 → IVec S16 32) a x).toNat < S512x128.size a := fun v1522 v1606 k1_hw693 => k1_hw693

def k1_chk694 (v1522 : IVec S16 32) (v1605 : IVec S16 32) : Prop :=
  (∀ a x, ((![v1605, v1522] : Fin 2 → IVec S16 32) a x).toNat < S64x512.size a)
instance k1_chk694.dec : ∀ (v1522 : IVec S16 32) (v1605 : IVec S16 32), Decidable (k1_chk694 v1522 v1605) := fun v1522 v1605 => decidable_of_iff' _ (Iff.of_eq (k1_chk694.eq_1 v1522 v1605))
theorem k1_idx694_inb : ∀ (v1522 : IVec S16 32) (v1605 : IVec S16 32) (k1_hw694 : k1_chk694 v1522 v1605), ∀ a x, ((![v1605, v1522] : Fin 2 → IVec S16 32) a x).toNat < S64x512.size a := fun v1522 v1605 k1_hw694 => k1_hw694

def k1_chk695 (v1522 : IVec S16 32) (v1609 : IVec S16 32) : Prop :=
  (∀ a x, ((![v1522, v1609] : Fin 2 → IVec S16 32) a x).toNat < S512x128.size a)
instance k1_chk695.dec : ∀ (v1522 : IVec S16 32) (v1609 : IVec S16 32), Decidable (k1_chk695 v1522 v1609) := fun v1522 v1609 => decidable_of_iff' _ (Iff.of_eq (k1_chk695.eq_1 v1522 v1609))
theorem k1_idx695_inb : ∀ (v1522 : IVec S16 32) (v1609 : IVec S16 32) (k1_hw695 : k1_chk695 v1522 v1609), ∀ a x, ((![v1522, v1609] : Fin 2 → IVec S16 32) a x).toNat < S512x128.size a := fun v1522 v1609 k1_hw695 => k1_hw695

def k1_chk696 (v1522 : IVec S16 32) (v1608 : IVec S16 32) : Prop :=
  (∀ a x, ((![v1608, v1522] : Fin 2 → IVec S16 32) a x).toNat < S64x512.size a)
instance k1_chk696.dec : ∀ (v1522 : IVec S16 32) (v1608 : IVec S16 32), Decidable (k1_chk696 v1522 v1608) := fun v1522 v1608 => decidable_of_iff' _ (Iff.of_eq (k1_chk696.eq_1 v1522 v1608))
theorem k1_idx696_inb : ∀ (v1522 : IVec S16 32) (v1608 : IVec S16 32) (k1_hw696 : k1_chk696 v1522 v1608), ∀ a x, ((![v1608, v1522] : Fin 2 → IVec S16 32) a x).toNat < S64x512.size a := fun v1522 v1608 k1_hw696 => k1_hw696

def k1_chk697 (v1522 : IVec S16 32) (v1612 : IVec S16 32) : Prop :=
  (∀ a x, ((![v1522, v1612] : Fin 2 → IVec S16 32) a x).toNat < S512x128.size a)
instance k1_chk697.dec : ∀ (v1522 : IVec S16 32) (v1612 : IVec S16 32), Decidable (k1_chk697 v1522 v1612) := fun v1522 v1612 => decidable_of_iff' _ (Iff.of_eq (k1_chk697.eq_1 v1522 v1612))
theorem k1_idx697_inb : ∀ (v1522 : IVec S16 32) (v1612 : IVec S16 32) (k1_hw697 : k1_chk697 v1522 v1612), ∀ a x, ((![v1522, v1612] : Fin 2 → IVec S16 32) a x).toNat < S512x128.size a := fun v1522 v1612 k1_hw697 => k1_hw697

def k1_chk698 (v1522 : IVec S16 32) (v1611 : IVec S16 32) : Prop :=
  (∀ a x, ((![v1611, v1522] : Fin 2 → IVec S16 32) a x).toNat < S64x512.size a)
instance k1_chk698.dec : ∀ (v1522 : IVec S16 32) (v1611 : IVec S16 32), Decidable (k1_chk698 v1522 v1611) := fun v1522 v1611 => decidable_of_iff' _ (Iff.of_eq (k1_chk698.eq_1 v1522 v1611))
theorem k1_idx698_inb : ∀ (v1522 : IVec S16 32) (v1611 : IVec S16 32) (k1_hw698 : k1_chk698 v1522 v1611), ∀ a x, ((![v1611, v1522] : Fin 2 → IVec S16 32) a x).toNat < S64x512.size a := fun v1522 v1611 k1_hw698 => k1_hw698

def k1_chk699 (v1522 : IVec S16 32) (v1615 : IVec S16 32) : Prop :=
  (∀ a x, ((![v1522, v1615] : Fin 2 → IVec S16 32) a x).toNat < S512x128.size a)
instance k1_chk699.dec : ∀ (v1522 : IVec S16 32) (v1615 : IVec S16 32), Decidable (k1_chk699 v1522 v1615) := fun v1522 v1615 => decidable_of_iff' _ (Iff.of_eq (k1_chk699.eq_1 v1522 v1615))
theorem k1_idx699_inb : ∀ (v1522 : IVec S16 32) (v1615 : IVec S16 32) (k1_hw699 : k1_chk699 v1522 v1615), ∀ a x, ((![v1522, v1615] : Fin 2 → IVec S16 32) a x).toNat < S512x128.size a := fun v1522 v1615 k1_hw699 => k1_hw699

def k1_chk700 (v1522 : IVec S16 32) (v1614 : IVec S16 32) : Prop :=
  (∀ a x, ((![v1614, v1522] : Fin 2 → IVec S16 32) a x).toNat < S64x512.size a)
instance k1_chk700.dec : ∀ (v1522 : IVec S16 32) (v1614 : IVec S16 32), Decidable (k1_chk700 v1522 v1614) := fun v1522 v1614 => decidable_of_iff' _ (Iff.of_eq (k1_chk700.eq_1 v1522 v1614))
theorem k1_idx700_inb : ∀ (v1522 : IVec S16 32) (v1614 : IVec S16 32) (k1_hw700 : k1_chk700 v1522 v1614), ∀ a x, ((![v1614, v1522] : Fin 2 → IVec S16 32) a x).toNat < S64x512.size a := fun v1522 v1614 k1_hw700 => k1_hw700

def k1_chk701 (v1522 : IVec S16 32) (v1618 : IVec S16 32) : Prop :=
  (∀ a x, ((![v1522, v1618] : Fin 2 → IVec S16 32) a x).toNat < S512x128.size a)
instance k1_chk701.dec : ∀ (v1522 : IVec S16 32) (v1618 : IVec S16 32), Decidable (k1_chk701 v1522 v1618) := fun v1522 v1618 => decidable_of_iff' _ (Iff.of_eq (k1_chk701.eq_1 v1522 v1618))
theorem k1_idx701_inb : ∀ (v1522 : IVec S16 32) (v1618 : IVec S16 32) (k1_hw701 : k1_chk701 v1522 v1618), ∀ a x, ((![v1522, v1618] : Fin 2 → IVec S16 32) a x).toNat < S512x128.size a := fun v1522 v1618 k1_hw701 => k1_hw701

def k1_chk702 (v1522 : IVec S16 32) (v1617 : IVec S16 32) : Prop :=
  (∀ a x, ((![v1617, v1522] : Fin 2 → IVec S16 32) a x).toNat < S64x512.size a)
instance k1_chk702.dec : ∀ (v1522 : IVec S16 32) (v1617 : IVec S16 32), Decidable (k1_chk702 v1522 v1617) := fun v1522 v1617 => decidable_of_iff' _ (Iff.of_eq (k1_chk702.eq_1 v1522 v1617))
theorem k1_idx702_inb : ∀ (v1522 : IVec S16 32) (v1617 : IVec S16 32) (k1_hw702 : k1_chk702 v1522 v1617), ∀ a x, ((![v1617, v1522] : Fin 2 → IVec S16 32) a x).toNat < S64x512.size a := fun v1522 v1617 k1_hw702 => k1_hw702

def k1_chk703 (v1522 : IVec S16 32) (v1621 : IVec S16 32) : Prop :=
  (∀ a x, ((![v1522, v1621] : Fin 2 → IVec S16 32) a x).toNat < S512x128.size a)
instance k1_chk703.dec : ∀ (v1522 : IVec S16 32) (v1621 : IVec S16 32), Decidable (k1_chk703 v1522 v1621) := fun v1522 v1621 => decidable_of_iff' _ (Iff.of_eq (k1_chk703.eq_1 v1522 v1621))
theorem k1_idx703_inb : ∀ (v1522 : IVec S16 32) (v1621 : IVec S16 32) (k1_hw703 : k1_chk703 v1522 v1621), ∀ a x, ((![v1522, v1621] : Fin 2 → IVec S16 32) a x).toNat < S512x128.size a := fun v1522 v1621 k1_hw703 => k1_hw703

def k1_chk704 (v1522 : IVec S16 32) (v1620 : IVec S16 32) : Prop :=
  (∀ a x, ((![v1620, v1522] : Fin 2 → IVec S16 32) a x).toNat < S64x512.size a)
instance k1_chk704.dec : ∀ (v1522 : IVec S16 32) (v1620 : IVec S16 32), Decidable (k1_chk704 v1522 v1620) := fun v1522 v1620 => decidable_of_iff' _ (Iff.of_eq (k1_chk704.eq_1 v1522 v1620))
theorem k1_idx704_inb : ∀ (v1522 : IVec S16 32) (v1620 : IVec S16 32) (k1_hw704 : k1_chk704 v1522 v1620), ∀ a x, ((![v1620, v1522] : Fin 2 → IVec S16 32) a x).toNat < S64x512.size a := fun v1522 v1620 k1_hw704 => k1_hw704

def k1_chk705 (v1522 : IVec S16 32) (v1624 : IVec S16 32) : Prop :=
  (∀ a x, ((![v1522, v1624] : Fin 2 → IVec S16 32) a x).toNat < S512x128.size a)
instance k1_chk705.dec : ∀ (v1522 : IVec S16 32) (v1624 : IVec S16 32), Decidable (k1_chk705 v1522 v1624) := fun v1522 v1624 => decidable_of_iff' _ (Iff.of_eq (k1_chk705.eq_1 v1522 v1624))
theorem k1_idx705_inb : ∀ (v1522 : IVec S16 32) (v1624 : IVec S16 32) (k1_hw705 : k1_chk705 v1522 v1624), ∀ a x, ((![v1522, v1624] : Fin 2 → IVec S16 32) a x).toNat < S512x128.size a := fun v1522 v1624 k1_hw705 => k1_hw705

def k1_chk706 (v1522 : IVec S16 32) (v1623 : IVec S16 32) : Prop :=
  (∀ a x, ((![v1623, v1522] : Fin 2 → IVec S16 32) a x).toNat < S64x512.size a)
instance k1_chk706.dec : ∀ (v1522 : IVec S16 32) (v1623 : IVec S16 32), Decidable (k1_chk706 v1522 v1623) := fun v1522 v1623 => decidable_of_iff' _ (Iff.of_eq (k1_chk706.eq_1 v1522 v1623))
theorem k1_idx706_inb : ∀ (v1522 : IVec S16 32) (v1623 : IVec S16 32) (k1_hw706 : k1_chk706 v1522 v1623), ∀ a x, ((![v1623, v1522] : Fin 2 → IVec S16 32) a x).toNat < S64x512.size a := fun v1522 v1623 k1_hw706 => k1_hw706

def k1_chk707 (v1522 : IVec S16 32) (v1627 : IVec S16 32) : Prop :=
  (∀ a x, ((![v1522, v1627] : Fin 2 → IVec S16 32) a x).toNat < S512x128.size a)
instance k1_chk707.dec : ∀ (v1522 : IVec S16 32) (v1627 : IVec S16 32), Decidable (k1_chk707 v1522 v1627) := fun v1522 v1627 => decidable_of_iff' _ (Iff.of_eq (k1_chk707.eq_1 v1522 v1627))
theorem k1_idx707_inb : ∀ (v1522 : IVec S16 32) (v1627 : IVec S16 32) (k1_hw707 : k1_chk707 v1522 v1627), ∀ a x, ((![v1522, v1627] : Fin 2 → IVec S16 32) a x).toNat < S512x128.size a := fun v1522 v1627 k1_hw707 => k1_hw707

def k1_chk708 (v1522 : IVec S16 32) (v1626 : IVec S16 32) : Prop :=
  (∀ a x, ((![v1626, v1522] : Fin 2 → IVec S16 32) a x).toNat < S64x512.size a)
instance k1_chk708.dec : ∀ (v1522 : IVec S16 32) (v1626 : IVec S16 32), Decidable (k1_chk708 v1522 v1626) := fun v1522 v1626 => decidable_of_iff' _ (Iff.of_eq (k1_chk708.eq_1 v1522 v1626))
theorem k1_idx708_inb : ∀ (v1522 : IVec S16 32) (v1626 : IVec S16 32) (k1_hw708 : k1_chk708 v1522 v1626), ∀ a x, ((![v1626, v1522] : Fin 2 → IVec S16 32) a x).toNat < S64x512.size a := fun v1522 v1626 k1_hw708 => k1_hw708

def k1_chk709 (v1522 : IVec S16 32) (v1630 : IVec S16 32) : Prop :=
  (∀ a x, ((![v1522, v1630] : Fin 2 → IVec S16 32) a x).toNat < S512x128.size a)
instance k1_chk709.dec : ∀ (v1522 : IVec S16 32) (v1630 : IVec S16 32), Decidable (k1_chk709 v1522 v1630) := fun v1522 v1630 => decidable_of_iff' _ (Iff.of_eq (k1_chk709.eq_1 v1522 v1630))
theorem k1_idx709_inb : ∀ (v1522 : IVec S16 32) (v1630 : IVec S16 32) (k1_hw709 : k1_chk709 v1522 v1630), ∀ a x, ((![v1522, v1630] : Fin 2 → IVec S16 32) a x).toNat < S512x128.size a := fun v1522 v1630 k1_hw709 => k1_hw709

def k1_chk710 (v1522 : IVec S16 32) (v1629 : IVec S16 32) : Prop :=
  (∀ a x, ((![v1629, v1522] : Fin 2 → IVec S16 32) a x).toNat < S64x512.size a)
instance k1_chk710.dec : ∀ (v1522 : IVec S16 32) (v1629 : IVec S16 32), Decidable (k1_chk710 v1522 v1629) := fun v1522 v1629 => decidable_of_iff' _ (Iff.of_eq (k1_chk710.eq_1 v1522 v1629))
theorem k1_idx710_inb : ∀ (v1522 : IVec S16 32) (v1629 : IVec S16 32) (k1_hw710 : k1_chk710 v1522 v1629), ∀ a x, ((![v1629, v1522] : Fin 2 → IVec S16 32) a x).toNat < S64x512.size a := fun v1522 v1629 k1_hw710 => k1_hw710

def k1_chk711 (v1522 : IVec S16 32) (v1633 : IVec S16 32) : Prop :=
  (∀ a x, ((![v1522, v1633] : Fin 2 → IVec S16 32) a x).toNat < S512x128.size a)
instance k1_chk711.dec : ∀ (v1522 : IVec S16 32) (v1633 : IVec S16 32), Decidable (k1_chk711 v1522 v1633) := fun v1522 v1633 => decidable_of_iff' _ (Iff.of_eq (k1_chk711.eq_1 v1522 v1633))
theorem k1_idx711_inb : ∀ (v1522 : IVec S16 32) (v1633 : IVec S16 32) (k1_hw711 : k1_chk711 v1522 v1633), ∀ a x, ((![v1522, v1633] : Fin 2 → IVec S16 32) a x).toNat < S512x128.size a := fun v1522 v1633 k1_hw711 => k1_hw711

def k1_chk712 (v1522 : IVec S16 32) (v1632 : IVec S16 32) : Prop :=
  (∀ a x, ((![v1632, v1522] : Fin 2 → IVec S16 32) a x).toNat < S64x512.size a)
instance k1_chk712.dec : ∀ (v1522 : IVec S16 32) (v1632 : IVec S16 32), Decidable (k1_chk712 v1522 v1632) := fun v1522 v1632 => decidable_of_iff' _ (Iff.of_eq (k1_chk712.eq_1 v1522 v1632))
theorem k1_idx712_inb : ∀ (v1522 : IVec S16 32) (v1632 : IVec S16 32) (k1_hw712 : k1_chk712 v1522 v1632), ∀ a x, ((![v1632, v1522] : Fin 2 → IVec S16 32) a x).toNat < S64x512.size a := fun v1522 v1632 k1_hw712 => k1_hw712

def k1_chk713 (v1522 : IVec S16 32) (v1636 : IVec S16 32) : Prop :=
  (∀ a x, ((![v1522, v1636] : Fin 2 → IVec S16 32) a x).toNat < S512x128.size a)
instance k1_chk713.dec : ∀ (v1522 : IVec S16 32) (v1636 : IVec S16 32), Decidable (k1_chk713 v1522 v1636) := fun v1522 v1636 => decidable_of_iff' _ (Iff.of_eq (k1_chk713.eq_1 v1522 v1636))
theorem k1_idx713_inb : ∀ (v1522 : IVec S16 32) (v1636 : IVec S16 32) (k1_hw713 : k1_chk713 v1522 v1636), ∀ a x, ((![v1522, v1636] : Fin 2 → IVec S16 32) a x).toNat < S512x128.size a := fun v1522 v1636 k1_hw713 => k1_hw713

def k1_chk714 (v1522 : IVec S16 32) (v1635 : IVec S16 32) : Prop :=
  (∀ a x, ((![v1635, v1522] : Fin 2 → IVec S16 32) a x).toNat < S64x512.size a)
instance k1_chk714.dec : ∀ (v1522 : IVec S16 32) (v1635 : IVec S16 32), Decidable (k1_chk714 v1522 v1635) := fun v1522 v1635 => decidable_of_iff' _ (Iff.of_eq (k1_chk714.eq_1 v1522 v1635))
theorem k1_idx714_inb : ∀ (v1522 : IVec S16 32) (v1635 : IVec S16 32) (k1_hw714 : k1_chk714 v1522 v1635), ∀ a x, ((![v1635, v1522] : Fin 2 → IVec S16 32) a x).toNat < S64x512.size a := fun v1522 v1635 k1_hw714 => k1_hw714

def k1_chk715 (v1522 : IVec S16 32) (v1639 : IVec S16 32) : Prop :=
  (∀ a x, ((![v1522, v1639] : Fin 2 → IVec S16 32) a x).toNat < S512x128.size a)
instance k1_chk715.dec : ∀ (v1522 : IVec S16 32) (v1639 : IVec S16 32), Decidable (k1_chk715 v1522 v1639) := fun v1522 v1639 => decidable_of_iff' _ (Iff.of_eq (k1_chk715.eq_1 v1522 v1639))
theorem k1_idx715_inb : ∀ (v1522 : IVec S16 32) (v1639 : IVec S16 32) (k1_hw715 : k1_chk715 v1522 v1639), ∀ a x, ((![v1522, v1639] : Fin 2 → IVec S16 32) a x).toNat < S512x128.size a := fun v1522 v1639 k1_hw715 => k1_hw715

def k1_chk716 (v1522 : IVec S16 32) (v1638 : IVec S16 32) : Prop :=
  (∀ a x, ((![v1638, v1522] : Fin 2 → IVec S16 32) a x).toNat < S64x512.size a)
instance k1_chk716.dec : ∀ (v1522 : IVec S16 32) (v1638 : IVec S16 32), Decidable (k1_chk716 v1522 v1638) := fun v1522 v1638 => decidable_of_iff' _ (Iff.of_eq (k1_chk716.eq_1 v1522 v1638))
theorem k1_idx716_inb : ∀ (v1522 : IVec S16 32) (v1638 : IVec S16 32) (k1_hw716 : k1_chk716 v1522 v1638), ∀ a x, ((![v1638, v1522] : Fin 2 → IVec S16 32) a x).toNat < S64x512.size a := fun v1522 v1638 k1_hw716 => k1_hw716

def k1_chk717 (v1522 : IVec S16 32) (v1642 : IVec S16 32) : Prop :=
  (∀ a x, ((![v1522, v1642] : Fin 2 → IVec S16 32) a x).toNat < S512x128.size a)
instance k1_chk717.dec : ∀ (v1522 : IVec S16 32) (v1642 : IVec S16 32), Decidable (k1_chk717 v1522 v1642) := fun v1522 v1642 => decidable_of_iff' _ (Iff.of_eq (k1_chk717.eq_1 v1522 v1642))
theorem k1_idx717_inb : ∀ (v1522 : IVec S16 32) (v1642 : IVec S16 32) (k1_hw717 : k1_chk717 v1522 v1642), ∀ a x, ((![v1522, v1642] : Fin 2 → IVec S16 32) a x).toNat < S512x128.size a := fun v1522 v1642 k1_hw717 => k1_hw717

def k1_chk718 (v1522 : IVec S16 32) (v1641 : IVec S16 32) : Prop :=
  (∀ a x, ((![v1641, v1522] : Fin 2 → IVec S16 32) a x).toNat < S64x512.size a)
instance k1_chk718.dec : ∀ (v1522 : IVec S16 32) (v1641 : IVec S16 32), Decidable (k1_chk718 v1522 v1641) := fun v1522 v1641 => decidable_of_iff' _ (Iff.of_eq (k1_chk718.eq_1 v1522 v1641))
theorem k1_idx718_inb : ∀ (v1522 : IVec S16 32) (v1641 : IVec S16 32) (k1_hw718 : k1_chk718 v1522 v1641), ∀ a x, ((![v1641, v1522] : Fin 2 → IVec S16 32) a x).toNat < S64x512.size a := fun v1522 v1641 k1_hw718 => k1_hw718

def k1_chk719 (v1522 : IVec S16 32) (v1645 : IVec S16 32) : Prop :=
  (∀ a x, ((![v1522, v1645] : Fin 2 → IVec S16 32) a x).toNat < S512x128.size a)
instance k1_chk719.dec : ∀ (v1522 : IVec S16 32) (v1645 : IVec S16 32), Decidable (k1_chk719 v1522 v1645) := fun v1522 v1645 => decidable_of_iff' _ (Iff.of_eq (k1_chk719.eq_1 v1522 v1645))
theorem k1_idx719_inb : ∀ (v1522 : IVec S16 32) (v1645 : IVec S16 32) (k1_hw719 : k1_chk719 v1522 v1645), ∀ a x, ((![v1522, v1645] : Fin 2 → IVec S16 32) a x).toNat < S512x128.size a := fun v1522 v1645 k1_hw719 => k1_hw719

def k1_chk720 (v1522 : IVec S16 32) (v1644 : IVec S16 32) : Prop :=
  (∀ a x, ((![v1644, v1522] : Fin 2 → IVec S16 32) a x).toNat < S64x512.size a)
instance k1_chk720.dec : ∀ (v1522 : IVec S16 32) (v1644 : IVec S16 32), Decidable (k1_chk720 v1522 v1644) := fun v1522 v1644 => decidable_of_iff' _ (Iff.of_eq (k1_chk720.eq_1 v1522 v1644))
theorem k1_idx720_inb : ∀ (v1522 : IVec S16 32) (v1644 : IVec S16 32) (k1_hw720 : k1_chk720 v1522 v1644), ∀ a x, ((![v1644, v1522] : Fin 2 → IVec S16 32) a x).toNat < S64x512.size a := fun v1522 v1644 k1_hw720 => k1_hw720

def k1_chk721 (v1522 : IVec S16 32) (v1648 : IVec S16 32) : Prop :=
  (∀ a x, ((![v1522, v1648] : Fin 2 → IVec S16 32) a x).toNat < S512x128.size a)
instance k1_chk721.dec : ∀ (v1522 : IVec S16 32) (v1648 : IVec S16 32), Decidable (k1_chk721 v1522 v1648) := fun v1522 v1648 => decidable_of_iff' _ (Iff.of_eq (k1_chk721.eq_1 v1522 v1648))
theorem k1_idx721_inb : ∀ (v1522 : IVec S16 32) (v1648 : IVec S16 32) (k1_hw721 : k1_chk721 v1522 v1648), ∀ a x, ((![v1522, v1648] : Fin 2 → IVec S16 32) a x).toNat < S512x128.size a := fun v1522 v1648 k1_hw721 => k1_hw721

def k1_chk722 (v1522 : IVec S16 32) (v1647 : IVec S16 32) : Prop :=
  (∀ a x, ((![v1647, v1522] : Fin 2 → IVec S16 32) a x).toNat < S64x512.size a)
instance k1_chk722.dec : ∀ (v1522 : IVec S16 32) (v1647 : IVec S16 32), Decidable (k1_chk722 v1522 v1647) := fun v1522 v1647 => decidable_of_iff' _ (Iff.of_eq (k1_chk722.eq_1 v1522 v1647))
theorem k1_idx722_inb : ∀ (v1522 : IVec S16 32) (v1647 : IVec S16 32) (k1_hw722 : k1_chk722 v1522 v1647), ∀ a x, ((![v1647, v1522] : Fin 2 → IVec S16 32) a x).toNat < S64x512.size a := fun v1522 v1647 k1_hw722 => k1_hw722

def k1_chk723 (v1522 : IVec S16 32) (v1651 : IVec S16 32) : Prop :=
  (∀ a x, ((![v1522, v1651] : Fin 2 → IVec S16 32) a x).toNat < S512x128.size a)
instance k1_chk723.dec : ∀ (v1522 : IVec S16 32) (v1651 : IVec S16 32), Decidable (k1_chk723 v1522 v1651) := fun v1522 v1651 => decidable_of_iff' _ (Iff.of_eq (k1_chk723.eq_1 v1522 v1651))
theorem k1_idx723_inb : ∀ (v1522 : IVec S16 32) (v1651 : IVec S16 32) (k1_hw723 : k1_chk723 v1522 v1651), ∀ a x, ((![v1522, v1651] : Fin 2 → IVec S16 32) a x).toNat < S512x128.size a := fun v1522 v1651 k1_hw723 => k1_hw723

def k1_chk724 (v1522 : IVec S16 32) (v1650 : IVec S16 32) : Prop :=
  (∀ a x, ((![v1650, v1522] : Fin 2 → IVec S16 32) a x).toNat < S64x512.size a)
instance k1_chk724.dec : ∀ (v1522 : IVec S16 32) (v1650 : IVec S16 32), Decidable (k1_chk724 v1522 v1650) := fun v1522 v1650 => decidable_of_iff' _ (Iff.of_eq (k1_chk724.eq_1 v1522 v1650))
theorem k1_idx724_inb : ∀ (v1522 : IVec S16 32) (v1650 : IVec S16 32) (k1_hw724 : k1_chk724 v1522 v1650), ∀ a x, ((![v1650, v1522] : Fin 2 → IVec S16 32) a x).toNat < S64x512.size a := fun v1522 v1650 k1_hw724 => k1_hw724

def k1_chk725 (v1522 : IVec S16 32) (v1654 : IVec S16 32) : Prop :=
  (∀ a x, ((![v1522, v1654] : Fin 2 → IVec S16 32) a x).toNat < S512x128.size a)
instance k1_chk725.dec : ∀ (v1522 : IVec S16 32) (v1654 : IVec S16 32), Decidable (k1_chk725 v1522 v1654) := fun v1522 v1654 => decidable_of_iff' _ (Iff.of_eq (k1_chk725.eq_1 v1522 v1654))
theorem k1_idx725_inb : ∀ (v1522 : IVec S16 32) (v1654 : IVec S16 32) (k1_hw725 : k1_chk725 v1522 v1654), ∀ a x, ((![v1522, v1654] : Fin 2 → IVec S16 32) a x).toNat < S512x128.size a := fun v1522 v1654 k1_hw725 => k1_hw725

def k1_chk726 (v1522 : IVec S16 32) (v1653 : IVec S16 32) : Prop :=
  (∀ a x, ((![v1653, v1522] : Fin 2 → IVec S16 32) a x).toNat < S64x512.size a)
instance k1_chk726.dec : ∀ (v1522 : IVec S16 32) (v1653 : IVec S16 32), Decidable (k1_chk726 v1522 v1653) := fun v1522 v1653 => decidable_of_iff' _ (Iff.of_eq (k1_chk726.eq_1 v1522 v1653))
theorem k1_idx726_inb : ∀ (v1522 : IVec S16 32) (v1653 : IVec S16 32) (k1_hw726 : k1_chk726 v1522 v1653), ∀ a x, ((![v1653, v1522] : Fin 2 → IVec S16 32) a x).toNat < S64x512.size a := fun v1522 v1653 k1_hw726 => k1_hw726

def k1_chk727 (v1522 : IVec S16 32) (v1657 : IVec S16 32) : Prop :=
  (∀ a x, ((![v1522, v1657] : Fin 2 → IVec S16 32) a x).toNat < S512x128.size a)
instance k1_chk727.dec : ∀ (v1522 : IVec S16 32) (v1657 : IVec S16 32), Decidable (k1_chk727 v1522 v1657) := fun v1522 v1657 => decidable_of_iff' _ (Iff.of_eq (k1_chk727.eq_1 v1522 v1657))
theorem k1_idx727_inb : ∀ (v1522 : IVec S16 32) (v1657 : IVec S16 32) (k1_hw727 : k1_chk727 v1522 v1657), ∀ a x, ((![v1522, v1657] : Fin 2 → IVec S16 32) a x).toNat < S512x128.size a := fun v1522 v1657 k1_hw727 => k1_hw727

def k1_chk728 (v1522 : IVec S16 32) (v1656 : IVec S16 32) : Prop :=
  (∀ a x, ((![v1656, v1522] : Fin 2 → IVec S16 32) a x).toNat < S64x512.size a)
instance k1_chk728.dec : ∀ (v1522 : IVec S16 32) (v1656 : IVec S16 32), Decidable (k1_chk728 v1522 v1656) := fun v1522 v1656 => decidable_of_iff' _ (Iff.of_eq (k1_chk728.eq_1 v1522 v1656))
theorem k1_idx728_inb : ∀ (v1522 : IVec S16 32) (v1656 : IVec S16 32) (k1_hw728 : k1_chk728 v1522 v1656), ∀ a x, ((![v1656, v1522] : Fin 2 → IVec S16 32) a x).toNat < S64x512.size a := fun v1522 v1656 k1_hw728 => k1_hw728

def k1_chk729 (v1522 : IVec S16 32) (v1660 : IVec S16 32) : Prop :=
  (∀ a x, ((![v1522, v1660] : Fin 2 → IVec S16 32) a x).toNat < S512x128.size a)
instance k1_chk729.dec : ∀ (v1522 : IVec S16 32) (v1660 : IVec S16 32), Decidable (k1_chk729 v1522 v1660) := fun v1522 v1660 => decidable_of_iff' _ (Iff.of_eq (k1_chk729.eq_1 v1522 v1660))
theorem k1_idx729_inb : ∀ (v1522 : IVec S16 32) (v1660 : IVec S16 32) (k1_hw729 : k1_chk729 v1522 v1660), ∀ a x, ((![v1522, v1660] : Fin 2 → IVec S16 32) a x).toNat < S512x128.size a := fun v1522 v1660 k1_hw729 => k1_hw729

def k1_chk730 (v1522 : IVec S16 32) (v1659 : IVec S16 32) : Prop :=
  (∀ a x, ((![v1659, v1522] : Fin 2 → IVec S16 32) a x).toNat < S64x512.size a)
instance k1_chk730.dec : ∀ (v1522 : IVec S16 32) (v1659 : IVec S16 32), Decidable (k1_chk730 v1522 v1659) := fun v1522 v1659 => decidable_of_iff' _ (Iff.of_eq (k1_chk730.eq_1 v1522 v1659))
theorem k1_idx730_inb : ∀ (v1522 : IVec S16 32) (v1659 : IVec S16 32) (k1_hw730 : k1_chk730 v1522 v1659), ∀ a x, ((![v1659, v1522] : Fin 2 → IVec S16 32) a x).toNat < S64x512.size a := fun v1522 v1659 k1_hw730 => k1_hw730

def k1_chk731 (v1522 : IVec S16 32) (v1663 : IVec S16 32) : Prop :=
  (∀ a x, ((![v1522, v1663] : Fin 2 → IVec S16 32) a x).toNat < S512x128.size a)
instance k1_chk731.dec : ∀ (v1522 : IVec S16 32) (v1663 : IVec S16 32), Decidable (k1_chk731 v1522 v1663) := fun v1522 v1663 => decidable_of_iff' _ (Iff.of_eq (k1_chk731.eq_1 v1522 v1663))
theorem k1_idx731_inb : ∀ (v1522 : IVec S16 32) (v1663 : IVec S16 32) (k1_hw731 : k1_chk731 v1522 v1663), ∀ a x, ((![v1522, v1663] : Fin 2 → IVec S16 32) a x).toNat < S512x128.size a := fun v1522 v1663 k1_hw731 => k1_hw731

def k1_chk732 (v1522 : IVec S16 32) (v1662 : IVec S16 32) : Prop :=
  (∀ a x, ((![v1662, v1522] : Fin 2 → IVec S16 32) a x).toNat < S64x512.size a)
instance k1_chk732.dec : ∀ (v1522 : IVec S16 32) (v1662 : IVec S16 32), Decidable (k1_chk732 v1522 v1662) := fun v1522 v1662 => decidable_of_iff' _ (Iff.of_eq (k1_chk732.eq_1 v1522 v1662))
theorem k1_idx732_inb : ∀ (v1522 : IVec S16 32) (v1662 : IVec S16 32) (k1_hw732 : k1_chk732 v1522 v1662), ∀ a x, ((![v1662, v1522] : Fin 2 → IVec S16 32) a x).toNat < S64x512.size a := fun v1522 v1662 k1_hw732 => k1_hw732

def k1_chk733 (v1522 : IVec S16 32) (v1666 : IVec S16 32) : Prop :=
  (∀ a x, ((![v1522, v1666] : Fin 2 → IVec S16 32) a x).toNat < S512x128.size a)
instance k1_chk733.dec : ∀ (v1522 : IVec S16 32) (v1666 : IVec S16 32), Decidable (k1_chk733 v1522 v1666) := fun v1522 v1666 => decidable_of_iff' _ (Iff.of_eq (k1_chk733.eq_1 v1522 v1666))
theorem k1_idx733_inb : ∀ (v1522 : IVec S16 32) (v1666 : IVec S16 32) (k1_hw733 : k1_chk733 v1522 v1666), ∀ a x, ((![v1522, v1666] : Fin 2 → IVec S16 32) a x).toNat < S512x128.size a := fun v1522 v1666 k1_hw733 => k1_hw733

def k1_chk734 (v1522 : IVec S16 32) (v1665 : IVec S16 32) : Prop :=
  (∀ a x, ((![v1665, v1522] : Fin 2 → IVec S16 32) a x).toNat < S64x512.size a)
instance k1_chk734.dec : ∀ (v1522 : IVec S16 32) (v1665 : IVec S16 32), Decidable (k1_chk734 v1522 v1665) := fun v1522 v1665 => decidable_of_iff' _ (Iff.of_eq (k1_chk734.eq_1 v1522 v1665))
theorem k1_idx734_inb : ∀ (v1522 : IVec S16 32) (v1665 : IVec S16 32) (k1_hw734 : k1_chk734 v1522 v1665), ∀ a x, ((![v1665, v1522] : Fin 2 → IVec S16 32) a x).toNat < S64x512.size a := fun v1522 v1665 k1_hw734 => k1_hw734

def k1_chk735 (v1522 : IVec S16 32) (v1669 : IVec S16 32) : Prop :=
  (∀ a x, ((![v1522, v1669] : Fin 2 → IVec S16 32) a x).toNat < S512x128.size a)
instance k1_chk735.dec : ∀ (v1522 : IVec S16 32) (v1669 : IVec S16 32), Decidable (k1_chk735 v1522 v1669) := fun v1522 v1669 => decidable_of_iff' _ (Iff.of_eq (k1_chk735.eq_1 v1522 v1669))
theorem k1_idx735_inb : ∀ (v1522 : IVec S16 32) (v1669 : IVec S16 32) (k1_hw735 : k1_chk735 v1522 v1669), ∀ a x, ((![v1522, v1669] : Fin 2 → IVec S16 32) a x).toNat < S512x128.size a := fun v1522 v1669 k1_hw735 => k1_hw735

def k1_chk736 (v1522 : IVec S16 32) (v1668 : IVec S16 32) : Prop :=
  (∀ a x, ((![v1668, v1522] : Fin 2 → IVec S16 32) a x).toNat < S64x512.size a)
instance k1_chk736.dec : ∀ (v1522 : IVec S16 32) (v1668 : IVec S16 32), Decidable (k1_chk736 v1522 v1668) := fun v1522 v1668 => decidable_of_iff' _ (Iff.of_eq (k1_chk736.eq_1 v1522 v1668))
theorem k1_idx736_inb : ∀ (v1522 : IVec S16 32) (v1668 : IVec S16 32) (k1_hw736 : k1_chk736 v1522 v1668), ∀ a x, ((![v1668, v1522] : Fin 2 → IVec S16 32) a x).toNat < S64x512.size a := fun v1522 v1668 k1_hw736 => k1_hw736

def k1_chk737 (v1522 : IVec S16 32) (v1672 : IVec S16 32) : Prop :=
  (∀ a x, ((![v1522, v1672] : Fin 2 → IVec S16 32) a x).toNat < S512x128.size a)
instance k1_chk737.dec : ∀ (v1522 : IVec S16 32) (v1672 : IVec S16 32), Decidable (k1_chk737 v1522 v1672) := fun v1522 v1672 => decidable_of_iff' _ (Iff.of_eq (k1_chk737.eq_1 v1522 v1672))
theorem k1_idx737_inb : ∀ (v1522 : IVec S16 32) (v1672 : IVec S16 32) (k1_hw737 : k1_chk737 v1522 v1672), ∀ a x, ((![v1522, v1672] : Fin 2 → IVec S16 32) a x).toNat < S512x128.size a := fun v1522 v1672 k1_hw737 => k1_hw737

def k1_chk738 (v1522 : IVec S16 32) (v1671 : IVec S16 32) : Prop :=
  (∀ a x, ((![v1671, v1522] : Fin 2 → IVec S16 32) a x).toNat < S64x512.size a)
instance k1_chk738.dec : ∀ (v1522 : IVec S16 32) (v1671 : IVec S16 32), Decidable (k1_chk738 v1522 v1671) := fun v1522 v1671 => decidable_of_iff' _ (Iff.of_eq (k1_chk738.eq_1 v1522 v1671))
theorem k1_idx738_inb : ∀ (v1522 : IVec S16 32) (v1671 : IVec S16 32) (k1_hw738 : k1_chk738 v1522 v1671), ∀ a x, ((![v1671, v1522] : Fin 2 → IVec S16 32) a x).toNat < S64x512.size a := fun v1522 v1671 k1_hw738 => k1_hw738

def k1_chk739 (v1522 : IVec S16 32) (v1675 : IVec S16 32) : Prop :=
  (∀ a x, ((![v1522, v1675] : Fin 2 → IVec S16 32) a x).toNat < S512x128.size a)
instance k1_chk739.dec : ∀ (v1522 : IVec S16 32) (v1675 : IVec S16 32), Decidable (k1_chk739 v1522 v1675) := fun v1522 v1675 => decidable_of_iff' _ (Iff.of_eq (k1_chk739.eq_1 v1522 v1675))
theorem k1_idx739_inb : ∀ (v1522 : IVec S16 32) (v1675 : IVec S16 32) (k1_hw739 : k1_chk739 v1522 v1675), ∀ a x, ((![v1522, v1675] : Fin 2 → IVec S16 32) a x).toNat < S512x128.size a := fun v1522 v1675 k1_hw739 => k1_hw739

def k1_chk740 (v1522 : IVec S16 32) (v1674 : IVec S16 32) : Prop :=
  (∀ a x, ((![v1674, v1522] : Fin 2 → IVec S16 32) a x).toNat < S64x512.size a)
instance k1_chk740.dec : ∀ (v1522 : IVec S16 32) (v1674 : IVec S16 32), Decidable (k1_chk740 v1522 v1674) := fun v1522 v1674 => decidable_of_iff' _ (Iff.of_eq (k1_chk740.eq_1 v1522 v1674))
theorem k1_idx740_inb : ∀ (v1522 : IVec S16 32) (v1674 : IVec S16 32) (k1_hw740 : k1_chk740 v1522 v1674), ∀ a x, ((![v1674, v1522] : Fin 2 → IVec S16 32) a x).toNat < S64x512.size a := fun v1522 v1674 k1_hw740 => k1_hw740

def k1_chk741 (v1522 : IVec S16 32) (v1678 : IVec S16 32) : Prop :=
  (∀ a x, ((![v1522, v1678] : Fin 2 → IVec S16 32) a x).toNat < S512x128.size a)
instance k1_chk741.dec : ∀ (v1522 : IVec S16 32) (v1678 : IVec S16 32), Decidable (k1_chk741 v1522 v1678) := fun v1522 v1678 => decidable_of_iff' _ (Iff.of_eq (k1_chk741.eq_1 v1522 v1678))
theorem k1_idx741_inb : ∀ (v1522 : IVec S16 32) (v1678 : IVec S16 32) (k1_hw741 : k1_chk741 v1522 v1678), ∀ a x, ((![v1522, v1678] : Fin 2 → IVec S16 32) a x).toNat < S512x128.size a := fun v1522 v1678 k1_hw741 => k1_hw741

def k1_chk742 (v1522 : IVec S16 32) (v1677 : IVec S16 32) : Prop :=
  (∀ a x, ((![v1677, v1522] : Fin 2 → IVec S16 32) a x).toNat < S64x512.size a)
instance k1_chk742.dec : ∀ (v1522 : IVec S16 32) (v1677 : IVec S16 32), Decidable (k1_chk742 v1522 v1677) := fun v1522 v1677 => decidable_of_iff' _ (Iff.of_eq (k1_chk742.eq_1 v1522 v1677))
theorem k1_idx742_inb : ∀ (v1522 : IVec S16 32) (v1677 : IVec S16 32) (k1_hw742 : k1_chk742 v1522 v1677), ∀ a x, ((![v1677, v1522] : Fin 2 → IVec S16 32) a x).toNat < S64x512.size a := fun v1522 v1677 k1_hw742 => k1_hw742

def k1_chk743 (v1522 : IVec S16 32) (v1681 : IVec S16 32) : Prop :=
  (∀ a x, ((![v1522, v1681] : Fin 2 → IVec S16 32) a x).toNat < S512x128.size a)
instance k1_chk743.dec : ∀ (v1522 : IVec S16 32) (v1681 : IVec S16 32), Decidable (k1_chk743 v1522 v1681) := fun v1522 v1681 => decidable_of_iff' _ (Iff.of_eq (k1_chk743.eq_1 v1522 v1681))
theorem k1_idx743_inb : ∀ (v1522 : IVec S16 32) (v1681 : IVec S16 32) (k1_hw743 : k1_chk743 v1522 v1681), ∀ a x, ((![v1522, v1681] : Fin 2 → IVec S16 32) a x).toNat < S512x128.size a := fun v1522 v1681 k1_hw743 => k1_hw743

def k1_chk744 (v1522 : IVec S16 32) (v1680 : IVec S16 32) : Prop :=
  (∀ a x, ((![v1680, v1522] : Fin 2 → IVec S16 32) a x).toNat < S64x512.size a)
instance k1_chk744.dec : ∀ (v1522 : IVec S16 32) (v1680 : IVec S16 32), Decidable (k1_chk744 v1522 v1680) := fun v1522 v1680 => decidable_of_iff' _ (Iff.of_eq (k1_chk744.eq_1 v1522 v1680))
theorem k1_idx744_inb : ∀ (v1522 : IVec S16 32) (v1680 : IVec S16 32) (k1_hw744 : k1_chk744 v1522 v1680), ∀ a x, ((![v1680, v1522] : Fin 2 → IVec S16 32) a x).toNat < S64x512.size a := fun v1522 v1680 k1_hw744 => k1_hw744

def k1_chk745 (v1522 : IVec S16 32) (v1684 : IVec S16 32) : Prop :=
  (∀ a x, ((![v1522, v1684] : Fin 2 → IVec S16 32) a x).toNat < S512x128.size a)
instance k1_chk745.dec : ∀ (v1522 : IVec S16 32) (v1684 : IVec S16 32), Decidable (k1_chk745 v1522 v1684) := fun v1522 v1684 => decidable_of_iff' _ (Iff.of_eq (k1_chk745.eq_1 v1522 v1684))
theorem k1_idx745_inb : ∀ (v1522 : IVec S16 32) (v1684 : IVec S16 32) (k1_hw745 : k1_chk745 v1522 v1684), ∀ a x, ((![v1522, v1684] : Fin 2 → IVec S16 32) a x).toNat < S512x128.size a := fun v1522 v1684 k1_hw745 => k1_hw745

def k1_chk746 (v1522 : IVec S16 32) (v1683 : IVec S16 32) : Prop :=
  (∀ a x, ((![v1683, v1522] : Fin 2 → IVec S16 32) a x).toNat < S64x512.size a)
instance k1_chk746.dec : ∀ (v1522 : IVec S16 32) (v1683 : IVec S16 32), Decidable (k1_chk746 v1522 v1683) := fun v1522 v1683 => decidable_of_iff' _ (Iff.of_eq (k1_chk746.eq_1 v1522 v1683))
theorem k1_idx746_inb : ∀ (v1522 : IVec S16 32) (v1683 : IVec S16 32) (k1_hw746 : k1_chk746 v1522 v1683), ∀ a x, ((![v1683, v1522] : Fin 2 → IVec S16 32) a x).toNat < S64x512.size a := fun v1522 v1683 k1_hw746 => k1_hw746

def k1_chk747 (v1522 : IVec S16 32) (v1687 : IVec S16 32) : Prop :=
  (∀ a x, ((![v1522, v1687] : Fin 2 → IVec S16 32) a x).toNat < S512x128.size a)
instance k1_chk747.dec : ∀ (v1522 : IVec S16 32) (v1687 : IVec S16 32), Decidable (k1_chk747 v1522 v1687) := fun v1522 v1687 => decidable_of_iff' _ (Iff.of_eq (k1_chk747.eq_1 v1522 v1687))
theorem k1_idx747_inb : ∀ (v1522 : IVec S16 32) (v1687 : IVec S16 32) (k1_hw747 : k1_chk747 v1522 v1687), ∀ a x, ((![v1522, v1687] : Fin 2 → IVec S16 32) a x).toNat < S512x128.size a := fun v1522 v1687 k1_hw747 => k1_hw747

def k1_chk748 (v1522 : IVec S16 32) (v1686 : IVec S16 32) : Prop :=
  (∀ a x, ((![v1686, v1522] : Fin 2 → IVec S16 32) a x).toNat < S64x512.size a)
instance k1_chk748.dec : ∀ (v1522 : IVec S16 32) (v1686 : IVec S16 32), Decidable (k1_chk748 v1522 v1686) := fun v1522 v1686 => decidable_of_iff' _ (Iff.of_eq (k1_chk748.eq_1 v1522 v1686))
theorem k1_idx748_inb : ∀ (v1522 : IVec S16 32) (v1686 : IVec S16 32) (k1_hw748 : k1_chk748 v1522 v1686), ∀ a x, ((![v1686, v1522] : Fin 2 → IVec S16 32) a x).toNat < S64x512.size a := fun v1522 v1686 k1_hw748 => k1_hw748

def k1_chk749 (v1522 : IVec S16 32) (v1690 : IVec S16 32) : Prop :=
  (∀ a x, ((![v1522, v1690] : Fin 2 → IVec S16 32) a x).toNat < S512x128.size a)
instance k1_chk749.dec : ∀ (v1522 : IVec S16 32) (v1690 : IVec S16 32), Decidable (k1_chk749 v1522 v1690) := fun v1522 v1690 => decidable_of_iff' _ (Iff.of_eq (k1_chk749.eq_1 v1522 v1690))
theorem k1_idx749_inb : ∀ (v1522 : IVec S16 32) (v1690 : IVec S16 32) (k1_hw749 : k1_chk749 v1522 v1690), ∀ a x, ((![v1522, v1690] : Fin 2 → IVec S16 32) a x).toNat < S512x128.size a := fun v1522 v1690 k1_hw749 => k1_hw749

def k1_chk750 (v1522 : IVec S16 32) (v1689 : IVec S16 32) : Prop :=
  (∀ a x, ((![v1689, v1522] : Fin 2 → IVec S16 32) a x).toNat < S64x512.size a)
instance k1_chk750.dec : ∀ (v1522 : IVec S16 32) (v1689 : IVec S16 32), Decidable (k1_chk750 v1522 v1689) := fun v1522 v1689 => decidable_of_iff' _ (Iff.of_eq (k1_chk750.eq_1 v1522 v1689))
theorem k1_idx750_inb : ∀ (v1522 : IVec S16 32) (v1689 : IVec S16 32) (k1_hw750 : k1_chk750 v1522 v1689), ∀ a x, ((![v1689, v1522] : Fin 2 → IVec S16 32) a x).toNat < S64x512.size a := fun v1522 v1689 k1_hw750 => k1_hw750

def k1_chk751 (v1522 : IVec S16 32) (v1693 : IVec S16 32) : Prop :=
  (∀ a x, ((![v1522, v1693] : Fin 2 → IVec S16 32) a x).toNat < S512x128.size a)
instance k1_chk751.dec : ∀ (v1522 : IVec S16 32) (v1693 : IVec S16 32), Decidable (k1_chk751 v1522 v1693) := fun v1522 v1693 => decidable_of_iff' _ (Iff.of_eq (k1_chk751.eq_1 v1522 v1693))
theorem k1_idx751_inb : ∀ (v1522 : IVec S16 32) (v1693 : IVec S16 32) (k1_hw751 : k1_chk751 v1522 v1693), ∀ a x, ((![v1522, v1693] : Fin 2 → IVec S16 32) a x).toNat < S512x128.size a := fun v1522 v1693 k1_hw751 => k1_hw751

def k1_chk752 (v1522 : IVec S16 32) (v1692 : IVec S16 32) : Prop :=
  (∀ a x, ((![v1692, v1522] : Fin 2 → IVec S16 32) a x).toNat < S64x512.size a)
instance k1_chk752.dec : ∀ (v1522 : IVec S16 32) (v1692 : IVec S16 32), Decidable (k1_chk752 v1522 v1692) := fun v1522 v1692 => decidable_of_iff' _ (Iff.of_eq (k1_chk752.eq_1 v1522 v1692))
theorem k1_idx752_inb : ∀ (v1522 : IVec S16 32) (v1692 : IVec S16 32) (k1_hw752 : k1_chk752 v1522 v1692), ∀ a x, ((![v1692, v1522] : Fin 2 → IVec S16 32) a x).toNat < S64x512.size a := fun v1522 v1692 k1_hw752 => k1_hw752

def k1_chk753 (v1522 : IVec S16 32) (v1696 : IVec S16 32) : Prop :=
  (∀ a x, ((![v1522, v1696] : Fin 2 → IVec S16 32) a x).toNat < S512x128.size a)
instance k1_chk753.dec : ∀ (v1522 : IVec S16 32) (v1696 : IVec S16 32), Decidable (k1_chk753 v1522 v1696) := fun v1522 v1696 => decidable_of_iff' _ (Iff.of_eq (k1_chk753.eq_1 v1522 v1696))
theorem k1_idx753_inb : ∀ (v1522 : IVec S16 32) (v1696 : IVec S16 32) (k1_hw753 : k1_chk753 v1522 v1696), ∀ a x, ((![v1522, v1696] : Fin 2 → IVec S16 32) a x).toNat < S512x128.size a := fun v1522 v1696 k1_hw753 => k1_hw753

def k1_chk754 (v1522 : IVec S16 32) (v1695 : IVec S16 32) : Prop :=
  (∀ a x, ((![v1695, v1522] : Fin 2 → IVec S16 32) a x).toNat < S64x512.size a)
instance k1_chk754.dec : ∀ (v1522 : IVec S16 32) (v1695 : IVec S16 32), Decidable (k1_chk754 v1522 v1695) := fun v1522 v1695 => decidable_of_iff' _ (Iff.of_eq (k1_chk754.eq_1 v1522 v1695))
theorem k1_idx754_inb : ∀ (v1522 : IVec S16 32) (v1695 : IVec S16 32) (k1_hw754 : k1_chk754 v1522 v1695), ∀ a x, ((![v1695, v1522] : Fin 2 → IVec S16 32) a x).toNat < S64x512.size a := fun v1522 v1695 k1_hw754 => k1_hw754

def k1_chk755 (v1522 : IVec S16 32) (v1699 : IVec S16 32) : Prop :=
  (∀ a x, ((![v1522, v1699] : Fin 2 → IVec S16 32) a x).toNat < S512x128.size a)
instance k1_chk755.dec : ∀ (v1522 : IVec S16 32) (v1699 : IVec S16 32), Decidable (k1_chk755 v1522 v1699) := fun v1522 v1699 => decidable_of_iff' _ (Iff.of_eq (k1_chk755.eq_1 v1522 v1699))
theorem k1_idx755_inb : ∀ (v1522 : IVec S16 32) (v1699 : IVec S16 32) (k1_hw755 : k1_chk755 v1522 v1699), ∀ a x, ((![v1522, v1699] : Fin 2 → IVec S16 32) a x).toNat < S512x128.size a := fun v1522 v1699 k1_hw755 => k1_hw755

def k1_chk756 (v1522 : IVec S16 32) (v1698 : IVec S16 32) : Prop :=
  (∀ a x, ((![v1698, v1522] : Fin 2 → IVec S16 32) a x).toNat < S64x512.size a)
instance k1_chk756.dec : ∀ (v1522 : IVec S16 32) (v1698 : IVec S16 32), Decidable (k1_chk756 v1522 v1698) := fun v1522 v1698 => decidable_of_iff' _ (Iff.of_eq (k1_chk756.eq_1 v1522 v1698))
theorem k1_idx756_inb : ∀ (v1522 : IVec S16 32) (v1698 : IVec S16 32) (k1_hw756 : k1_chk756 v1522 v1698), ∀ a x, ((![v1698, v1522] : Fin 2 → IVec S16 32) a x).toNat < S64x512.size a := fun v1522 v1698 k1_hw756 => k1_hw756

def k1_chk757 (v1522 : IVec S16 32) (v1702 : IVec S16 32) : Prop :=
  (∀ a x, ((![v1522, v1702] : Fin 2 → IVec S16 32) a x).toNat < S512x128.size a)
instance k1_chk757.dec : ∀ (v1522 : IVec S16 32) (v1702 : IVec S16 32), Decidable (k1_chk757 v1522 v1702) := fun v1522 v1702 => decidable_of_iff' _ (Iff.of_eq (k1_chk757.eq_1 v1522 v1702))
theorem k1_idx757_inb : ∀ (v1522 : IVec S16 32) (v1702 : IVec S16 32) (k1_hw757 : k1_chk757 v1522 v1702), ∀ a x, ((![v1522, v1702] : Fin 2 → IVec S16 32) a x).toNat < S512x128.size a := fun v1522 v1702 k1_hw757 => k1_hw757

def k1_chk758 (v1522 : IVec S16 32) (v1701 : IVec S16 32) : Prop :=
  (∀ a x, ((![v1701, v1522] : Fin 2 → IVec S16 32) a x).toNat < S64x512.size a)
instance k1_chk758.dec : ∀ (v1522 : IVec S16 32) (v1701 : IVec S16 32), Decidable (k1_chk758 v1522 v1701) := fun v1522 v1701 => decidable_of_iff' _ (Iff.of_eq (k1_chk758.eq_1 v1522 v1701))
theorem k1_idx758_inb : ∀ (v1522 : IVec S16 32) (v1701 : IVec S16 32) (k1_hw758 : k1_chk758 v1522 v1701), ∀ a x, ((![v1701, v1522] : Fin 2 → IVec S16 32) a x).toNat < S64x512.size a := fun v1522 v1701 k1_hw758 => k1_hw758

def k1_chk759 (v1522 : IVec S16 32) (v1705 : IVec S16 32) : Prop :=
  (∀ a x, ((![v1522, v1705] : Fin 2 → IVec S16 32) a x).toNat < S512x128.size a)
instance k1_chk759.dec : ∀ (v1522 : IVec S16 32) (v1705 : IVec S16 32), Decidable (k1_chk759 v1522 v1705) := fun v1522 v1705 => decidable_of_iff' _ (Iff.of_eq (k1_chk759.eq_1 v1522 v1705))
theorem k1_idx759_inb : ∀ (v1522 : IVec S16 32) (v1705 : IVec S16 32) (k1_hw759 : k1_chk759 v1522 v1705), ∀ a x, ((![v1522, v1705] : Fin 2 → IVec S16 32) a x).toNat < S512x128.size a := fun v1522 v1705 k1_hw759 => k1_hw759

def k1_chk760 (v1522 : IVec S16 32) (v1704 : IVec S16 32) : Prop :=
  (∀ a x, ((![v1704, v1522] : Fin 2 → IVec S16 32) a x).toNat < S64x512.size a)
instance k1_chk760.dec : ∀ (v1522 : IVec S16 32) (v1704 : IVec S16 32), Decidable (k1_chk760 v1522 v1704) := fun v1522 v1704 => decidable_of_iff' _ (Iff.of_eq (k1_chk760.eq_1 v1522 v1704))
theorem k1_idx760_inb : ∀ (v1522 : IVec S16 32) (v1704 : IVec S16 32) (k1_hw760 : k1_chk760 v1522 v1704), ∀ a x, ((![v1704, v1522] : Fin 2 → IVec S16 32) a x).toNat < S64x512.size a := fun v1522 v1704 k1_hw760 => k1_hw760

def k1_chk761 (v1522 : IVec S16 32) (v1708 : IVec S16 32) : Prop :=
  (∀ a x, ((![v1522, v1708] : Fin 2 → IVec S16 32) a x).toNat < S512x128.size a)
instance k1_chk761.dec : ∀ (v1522 : IVec S16 32) (v1708 : IVec S16 32), Decidable (k1_chk761 v1522 v1708) := fun v1522 v1708 => decidable_of_iff' _ (Iff.of_eq (k1_chk761.eq_1 v1522 v1708))
theorem k1_idx761_inb : ∀ (v1522 : IVec S16 32) (v1708 : IVec S16 32) (k1_hw761 : k1_chk761 v1522 v1708), ∀ a x, ((![v1522, v1708] : Fin 2 → IVec S16 32) a x).toNat < S512x128.size a := fun v1522 v1708 k1_hw761 => k1_hw761

def k1_chk762 (v1522 : IVec S16 32) (v1707 : IVec S16 32) : Prop :=
  (∀ a x, ((![v1707, v1522] : Fin 2 → IVec S16 32) a x).toNat < S64x512.size a)
instance k1_chk762.dec : ∀ (v1522 : IVec S16 32) (v1707 : IVec S16 32), Decidable (k1_chk762 v1522 v1707) := fun v1522 v1707 => decidable_of_iff' _ (Iff.of_eq (k1_chk762.eq_1 v1522 v1707))
theorem k1_idx762_inb : ∀ (v1522 : IVec S16 32) (v1707 : IVec S16 32) (k1_hw762 : k1_chk762 v1522 v1707), ∀ a x, ((![v1707, v1522] : Fin 2 → IVec S16 32) a x).toNat < S64x512.size a := fun v1522 v1707 k1_hw762 => k1_hw762

def k1_chk763 (v1522 : IVec S16 32) (v1711 : IVec S16 32) : Prop :=
  (∀ a x, ((![v1522, v1711] : Fin 2 → IVec S16 32) a x).toNat < S512x128.size a)
instance k1_chk763.dec : ∀ (v1522 : IVec S16 32) (v1711 : IVec S16 32), Decidable (k1_chk763 v1522 v1711) := fun v1522 v1711 => decidable_of_iff' _ (Iff.of_eq (k1_chk763.eq_1 v1522 v1711))
theorem k1_idx763_inb : ∀ (v1522 : IVec S16 32) (v1711 : IVec S16 32) (k1_hw763 : k1_chk763 v1522 v1711), ∀ a x, ((![v1522, v1711] : Fin 2 → IVec S16 32) a x).toNat < S512x128.size a := fun v1522 v1711 k1_hw763 => k1_hw763

def k1_chk764 (v1522 : IVec S16 32) (v1710 : IVec S16 32) : Prop :=
  (∀ a x, ((![v1710, v1522] : Fin 2 → IVec S16 32) a x).toNat < S64x512.size a)
instance k1_chk764.dec : ∀ (v1522 : IVec S16 32) (v1710 : IVec S16 32), Decidable (k1_chk764 v1522 v1710) := fun v1522 v1710 => decidable_of_iff' _ (Iff.of_eq (k1_chk764.eq_1 v1522 v1710))
theorem k1_idx764_inb : ∀ (v1522 : IVec S16 32) (v1710 : IVec S16 32) (k1_hw764 : k1_chk764 v1522 v1710), ∀ a x, ((![v1710, v1522] : Fin 2 → IVec S16 32) a x).toNat < S64x512.size a := fun v1522 v1710 k1_hw764 => k1_hw764

def k1_chk765 (v1522 : IVec S16 32) (v1714 : IVec S16 32) : Prop :=
  (∀ a x, ((![v1522, v1714] : Fin 2 → IVec S16 32) a x).toNat < S512x128.size a)
instance k1_chk765.dec : ∀ (v1522 : IVec S16 32) (v1714 : IVec S16 32), Decidable (k1_chk765 v1522 v1714) := fun v1522 v1714 => decidable_of_iff' _ (Iff.of_eq (k1_chk765.eq_1 v1522 v1714))
theorem k1_idx765_inb : ∀ (v1522 : IVec S16 32) (v1714 : IVec S16 32) (k1_hw765 : k1_chk765 v1522 v1714), ∀ a x, ((![v1522, v1714] : Fin 2 → IVec S16 32) a x).toNat < S512x128.size a := fun v1522 v1714 k1_hw765 => k1_hw765

def k1_chk766 (v1522 : IVec S16 32) (v1713 : IVec S16 32) : Prop :=
  (∀ a x, ((![v1713, v1522] : Fin 2 → IVec S16 32) a x).toNat < S64x512.size a)
instance k1_chk766.dec : ∀ (v1522 : IVec S16 32) (v1713 : IVec S16 32), Decidable (k1_chk766 v1522 v1713) := fun v1522 v1713 => decidable_of_iff' _ (Iff.of_eq (k1_chk766.eq_1 v1522 v1713))
theorem k1_idx766_inb : ∀ (v1522 : IVec S16 32) (v1713 : IVec S16 32) (k1_hw766 : k1_chk766 v1522 v1713), ∀ a x, ((![v1713, v1522] : Fin 2 → IVec S16 32) a x).toNat < S64x512.size a := fun v1522 v1713 k1_hw766 => k1_hw766

def k1_chk767 (v1522 : IVec S16 32) (v1717 : IVec S16 32) : Prop :=
  (∀ a x, ((![v1522, v1717] : Fin 2 → IVec S16 32) a x).toNat < S512x128.size a)
instance k1_chk767.dec : ∀ (v1522 : IVec S16 32) (v1717 : IVec S16 32), Decidable (k1_chk767 v1522 v1717) := fun v1522 v1717 => decidable_of_iff' _ (Iff.of_eq (k1_chk767.eq_1 v1522 v1717))
theorem k1_idx767_inb : ∀ (v1522 : IVec S16 32) (v1717 : IVec S16 32) (k1_hw767 : k1_chk767 v1522 v1717), ∀ a x, ((![v1522, v1717] : Fin 2 → IVec S16 32) a x).toNat < S512x128.size a := fun v1522 v1717 k1_hw767 => k1_hw767

def k1_chk768 (v1522 : IVec S16 32) (v1716 : IVec S16 32) : Prop :=
  (∀ a x, ((![v1716, v1522] : Fin 2 → IVec S16 32) a x).toNat < S64x512.size a)
instance k1_chk768.dec : ∀ (v1522 : IVec S16 32) (v1716 : IVec S16 32), Decidable (k1_chk768 v1522 v1716) := fun v1522 v1716 => decidable_of_iff' _ (Iff.of_eq (k1_chk768.eq_1 v1522 v1716))
theorem k1_idx768_inb : ∀ (v1522 : IVec S16 32) (v1716 : IVec S16 32) (k1_hw768 : k1_chk768 v1522 v1716), ∀ a x, ((![v1716, v1522] : Fin 2 → IVec S16 32) a x).toNat < S64x512.size a := fun v1522 v1716 k1_hw768 => k1_hw768
def k1_off8 (k1_t1 : Fin k1_t1_loop.trips) : Fin 1 → Nat :=
  let c0_i32_254 : BitVec 32 := 0#32
  let c1_i32_255 : BitVec 32 := 1#32
  let arg11 : BitVec 32 := Scf.iv c0_i32_254 c1_i32_255 k1_t1
  let c128_i32_606 : BitVec 32 := 128#32
  let v1723 : BitVec 32 := Scalar.muli arg11 c128_i32_606
  let c96_i32_607 : BitVec 32 := 96#32
  let v1724 : BitVec 32 := Scalar.addi v1723 c96_i32_607
  let v1725 : Index := Scalar.indexCast v1724
  ![v1725.toNat]

def k1_chk769 (v1722 : IVec S16 32) (v1728 : IVec S16 32) : Prop :=
  (∀ a x, ((![v1722, v1728] : Fin 2 → IVec S16 32) a x).toNat < S512x128.size a)
instance k1_chk769.dec : ∀ (v1722 : IVec S16 32) (v1728 : IVec S16 32), Decidable (k1_chk769 v1722 v1728) := fun v1722 v1728 => decidable_of_iff' _ (Iff.of_eq (k1_chk769.eq_1 v1722 v1728))
theorem k1_idx769_inb : ∀ (v1722 : IVec S16 32) (v1728 : IVec S16 32) (k1_hw769 : k1_chk769 v1722 v1728), ∀ a x, ((![v1722, v1728] : Fin 2 → IVec S16 32) a x).toNat < S512x128.size a := fun v1722 v1728 k1_hw769 => k1_hw769

def k1_chk770 (v1722 : IVec S16 32) (v1727 : IVec S16 32) : Prop :=
  (∀ a x, ((![v1727, v1722] : Fin 2 → IVec S16 32) a x).toNat < S64x512.size a)
instance k1_chk770.dec : ∀ (v1722 : IVec S16 32) (v1727 : IVec S16 32), Decidable (k1_chk770 v1722 v1727) := fun v1722 v1727 => decidable_of_iff' _ (Iff.of_eq (k1_chk770.eq_1 v1722 v1727))
theorem k1_idx770_inb : ∀ (v1722 : IVec S16 32) (v1727 : IVec S16 32) (k1_hw770 : k1_chk770 v1722 v1727), ∀ a x, ((![v1727, v1722] : Fin 2 → IVec S16 32) a x).toNat < S64x512.size a := fun v1722 v1727 k1_hw770 => k1_hw770

def k1_chk771 (v1722 : IVec S16 32) (v1731 : IVec S16 32) : Prop :=
  (∀ a x, ((![v1722, v1731] : Fin 2 → IVec S16 32) a x).toNat < S512x128.size a)
instance k1_chk771.dec : ∀ (v1722 : IVec S16 32) (v1731 : IVec S16 32), Decidable (k1_chk771 v1722 v1731) := fun v1722 v1731 => decidable_of_iff' _ (Iff.of_eq (k1_chk771.eq_1 v1722 v1731))
theorem k1_idx771_inb : ∀ (v1722 : IVec S16 32) (v1731 : IVec S16 32) (k1_hw771 : k1_chk771 v1722 v1731), ∀ a x, ((![v1722, v1731] : Fin 2 → IVec S16 32) a x).toNat < S512x128.size a := fun v1722 v1731 k1_hw771 => k1_hw771

def k1_chk772 (v1722 : IVec S16 32) (v1730 : IVec S16 32) : Prop :=
  (∀ a x, ((![v1730, v1722] : Fin 2 → IVec S16 32) a x).toNat < S64x512.size a)
instance k1_chk772.dec : ∀ (v1722 : IVec S16 32) (v1730 : IVec S16 32), Decidable (k1_chk772 v1722 v1730) := fun v1722 v1730 => decidable_of_iff' _ (Iff.of_eq (k1_chk772.eq_1 v1722 v1730))
theorem k1_idx772_inb : ∀ (v1722 : IVec S16 32) (v1730 : IVec S16 32) (k1_hw772 : k1_chk772 v1722 v1730), ∀ a x, ((![v1730, v1722] : Fin 2 → IVec S16 32) a x).toNat < S64x512.size a := fun v1722 v1730 k1_hw772 => k1_hw772

def k1_chk773 (v1722 : IVec S16 32) (v1734 : IVec S16 32) : Prop :=
  (∀ a x, ((![v1722, v1734] : Fin 2 → IVec S16 32) a x).toNat < S512x128.size a)
instance k1_chk773.dec : ∀ (v1722 : IVec S16 32) (v1734 : IVec S16 32), Decidable (k1_chk773 v1722 v1734) := fun v1722 v1734 => decidable_of_iff' _ (Iff.of_eq (k1_chk773.eq_1 v1722 v1734))
theorem k1_idx773_inb : ∀ (v1722 : IVec S16 32) (v1734 : IVec S16 32) (k1_hw773 : k1_chk773 v1722 v1734), ∀ a x, ((![v1722, v1734] : Fin 2 → IVec S16 32) a x).toNat < S512x128.size a := fun v1722 v1734 k1_hw773 => k1_hw773

def k1_chk774 (v1722 : IVec S16 32) (v1733 : IVec S16 32) : Prop :=
  (∀ a x, ((![v1733, v1722] : Fin 2 → IVec S16 32) a x).toNat < S64x512.size a)
instance k1_chk774.dec : ∀ (v1722 : IVec S16 32) (v1733 : IVec S16 32), Decidable (k1_chk774 v1722 v1733) := fun v1722 v1733 => decidable_of_iff' _ (Iff.of_eq (k1_chk774.eq_1 v1722 v1733))
theorem k1_idx774_inb : ∀ (v1722 : IVec S16 32) (v1733 : IVec S16 32) (k1_hw774 : k1_chk774 v1722 v1733), ∀ a x, ((![v1733, v1722] : Fin 2 → IVec S16 32) a x).toNat < S64x512.size a := fun v1722 v1733 k1_hw774 => k1_hw774

def k1_chk775 (v1722 : IVec S16 32) (v1737 : IVec S16 32) : Prop :=
  (∀ a x, ((![v1722, v1737] : Fin 2 → IVec S16 32) a x).toNat < S512x128.size a)
instance k1_chk775.dec : ∀ (v1722 : IVec S16 32) (v1737 : IVec S16 32), Decidable (k1_chk775 v1722 v1737) := fun v1722 v1737 => decidable_of_iff' _ (Iff.of_eq (k1_chk775.eq_1 v1722 v1737))
theorem k1_idx775_inb : ∀ (v1722 : IVec S16 32) (v1737 : IVec S16 32) (k1_hw775 : k1_chk775 v1722 v1737), ∀ a x, ((![v1722, v1737] : Fin 2 → IVec S16 32) a x).toNat < S512x128.size a := fun v1722 v1737 k1_hw775 => k1_hw775

def k1_chk776 (v1722 : IVec S16 32) (v1736 : IVec S16 32) : Prop :=
  (∀ a x, ((![v1736, v1722] : Fin 2 → IVec S16 32) a x).toNat < S64x512.size a)
instance k1_chk776.dec : ∀ (v1722 : IVec S16 32) (v1736 : IVec S16 32), Decidable (k1_chk776 v1722 v1736) := fun v1722 v1736 => decidable_of_iff' _ (Iff.of_eq (k1_chk776.eq_1 v1722 v1736))
theorem k1_idx776_inb : ∀ (v1722 : IVec S16 32) (v1736 : IVec S16 32) (k1_hw776 : k1_chk776 v1722 v1736), ∀ a x, ((![v1736, v1722] : Fin 2 → IVec S16 32) a x).toNat < S64x512.size a := fun v1722 v1736 k1_hw776 => k1_hw776

def k1_chk777 (v1722 : IVec S16 32) (v1740 : IVec S16 32) : Prop :=
  (∀ a x, ((![v1722, v1740] : Fin 2 → IVec S16 32) a x).toNat < S512x128.size a)
instance k1_chk777.dec : ∀ (v1722 : IVec S16 32) (v1740 : IVec S16 32), Decidable (k1_chk777 v1722 v1740) := fun v1722 v1740 => decidable_of_iff' _ (Iff.of_eq (k1_chk777.eq_1 v1722 v1740))
theorem k1_idx777_inb : ∀ (v1722 : IVec S16 32) (v1740 : IVec S16 32) (k1_hw777 : k1_chk777 v1722 v1740), ∀ a x, ((![v1722, v1740] : Fin 2 → IVec S16 32) a x).toNat < S512x128.size a := fun v1722 v1740 k1_hw777 => k1_hw777

def k1_chk778 (v1722 : IVec S16 32) (v1739 : IVec S16 32) : Prop :=
  (∀ a x, ((![v1739, v1722] : Fin 2 → IVec S16 32) a x).toNat < S64x512.size a)
instance k1_chk778.dec : ∀ (v1722 : IVec S16 32) (v1739 : IVec S16 32), Decidable (k1_chk778 v1722 v1739) := fun v1722 v1739 => decidable_of_iff' _ (Iff.of_eq (k1_chk778.eq_1 v1722 v1739))
theorem k1_idx778_inb : ∀ (v1722 : IVec S16 32) (v1739 : IVec S16 32) (k1_hw778 : k1_chk778 v1722 v1739), ∀ a x, ((![v1739, v1722] : Fin 2 → IVec S16 32) a x).toNat < S64x512.size a := fun v1722 v1739 k1_hw778 => k1_hw778

def k1_chk779 (v1722 : IVec S16 32) (v1743 : IVec S16 32) : Prop :=
  (∀ a x, ((![v1722, v1743] : Fin 2 → IVec S16 32) a x).toNat < S512x128.size a)
instance k1_chk779.dec : ∀ (v1722 : IVec S16 32) (v1743 : IVec S16 32), Decidable (k1_chk779 v1722 v1743) := fun v1722 v1743 => decidable_of_iff' _ (Iff.of_eq (k1_chk779.eq_1 v1722 v1743))
theorem k1_idx779_inb : ∀ (v1722 : IVec S16 32) (v1743 : IVec S16 32) (k1_hw779 : k1_chk779 v1722 v1743), ∀ a x, ((![v1722, v1743] : Fin 2 → IVec S16 32) a x).toNat < S512x128.size a := fun v1722 v1743 k1_hw779 => k1_hw779

def k1_chk780 (v1722 : IVec S16 32) (v1742 : IVec S16 32) : Prop :=
  (∀ a x, ((![v1742, v1722] : Fin 2 → IVec S16 32) a x).toNat < S64x512.size a)
instance k1_chk780.dec : ∀ (v1722 : IVec S16 32) (v1742 : IVec S16 32), Decidable (k1_chk780 v1722 v1742) := fun v1722 v1742 => decidable_of_iff' _ (Iff.of_eq (k1_chk780.eq_1 v1722 v1742))
theorem k1_idx780_inb : ∀ (v1722 : IVec S16 32) (v1742 : IVec S16 32) (k1_hw780 : k1_chk780 v1722 v1742), ∀ a x, ((![v1742, v1722] : Fin 2 → IVec S16 32) a x).toNat < S64x512.size a := fun v1722 v1742 k1_hw780 => k1_hw780

def k1_chk781 (v1722 : IVec S16 32) (v1746 : IVec S16 32) : Prop :=
  (∀ a x, ((![v1722, v1746] : Fin 2 → IVec S16 32) a x).toNat < S512x128.size a)
instance k1_chk781.dec : ∀ (v1722 : IVec S16 32) (v1746 : IVec S16 32), Decidable (k1_chk781 v1722 v1746) := fun v1722 v1746 => decidable_of_iff' _ (Iff.of_eq (k1_chk781.eq_1 v1722 v1746))
theorem k1_idx781_inb : ∀ (v1722 : IVec S16 32) (v1746 : IVec S16 32) (k1_hw781 : k1_chk781 v1722 v1746), ∀ a x, ((![v1722, v1746] : Fin 2 → IVec S16 32) a x).toNat < S512x128.size a := fun v1722 v1746 k1_hw781 => k1_hw781

def k1_chk782 (v1722 : IVec S16 32) (v1745 : IVec S16 32) : Prop :=
  (∀ a x, ((![v1745, v1722] : Fin 2 → IVec S16 32) a x).toNat < S64x512.size a)
instance k1_chk782.dec : ∀ (v1722 : IVec S16 32) (v1745 : IVec S16 32), Decidable (k1_chk782 v1722 v1745) := fun v1722 v1745 => decidable_of_iff' _ (Iff.of_eq (k1_chk782.eq_1 v1722 v1745))
theorem k1_idx782_inb : ∀ (v1722 : IVec S16 32) (v1745 : IVec S16 32) (k1_hw782 : k1_chk782 v1722 v1745), ∀ a x, ((![v1745, v1722] : Fin 2 → IVec S16 32) a x).toNat < S64x512.size a := fun v1722 v1745 k1_hw782 => k1_hw782

def k1_chk783 (v1722 : IVec S16 32) (v1749 : IVec S16 32) : Prop :=
  (∀ a x, ((![v1722, v1749] : Fin 2 → IVec S16 32) a x).toNat < S512x128.size a)
instance k1_chk783.dec : ∀ (v1722 : IVec S16 32) (v1749 : IVec S16 32), Decidable (k1_chk783 v1722 v1749) := fun v1722 v1749 => decidable_of_iff' _ (Iff.of_eq (k1_chk783.eq_1 v1722 v1749))
theorem k1_idx783_inb : ∀ (v1722 : IVec S16 32) (v1749 : IVec S16 32) (k1_hw783 : k1_chk783 v1722 v1749), ∀ a x, ((![v1722, v1749] : Fin 2 → IVec S16 32) a x).toNat < S512x128.size a := fun v1722 v1749 k1_hw783 => k1_hw783

def k1_chk784 (v1722 : IVec S16 32) (v1748 : IVec S16 32) : Prop :=
  (∀ a x, ((![v1748, v1722] : Fin 2 → IVec S16 32) a x).toNat < S64x512.size a)
instance k1_chk784.dec : ∀ (v1722 : IVec S16 32) (v1748 : IVec S16 32), Decidable (k1_chk784 v1722 v1748) := fun v1722 v1748 => decidable_of_iff' _ (Iff.of_eq (k1_chk784.eq_1 v1722 v1748))
theorem k1_idx784_inb : ∀ (v1722 : IVec S16 32) (v1748 : IVec S16 32) (k1_hw784 : k1_chk784 v1722 v1748), ∀ a x, ((![v1748, v1722] : Fin 2 → IVec S16 32) a x).toNat < S64x512.size a := fun v1722 v1748 k1_hw784 => k1_hw784

def k1_chk785 (v1722 : IVec S16 32) (v1752 : IVec S16 32) : Prop :=
  (∀ a x, ((![v1722, v1752] : Fin 2 → IVec S16 32) a x).toNat < S512x128.size a)
instance k1_chk785.dec : ∀ (v1722 : IVec S16 32) (v1752 : IVec S16 32), Decidable (k1_chk785 v1722 v1752) := fun v1722 v1752 => decidable_of_iff' _ (Iff.of_eq (k1_chk785.eq_1 v1722 v1752))
theorem k1_idx785_inb : ∀ (v1722 : IVec S16 32) (v1752 : IVec S16 32) (k1_hw785 : k1_chk785 v1722 v1752), ∀ a x, ((![v1722, v1752] : Fin 2 → IVec S16 32) a x).toNat < S512x128.size a := fun v1722 v1752 k1_hw785 => k1_hw785

def k1_chk786 (v1722 : IVec S16 32) (v1751 : IVec S16 32) : Prop :=
  (∀ a x, ((![v1751, v1722] : Fin 2 → IVec S16 32) a x).toNat < S64x512.size a)
instance k1_chk786.dec : ∀ (v1722 : IVec S16 32) (v1751 : IVec S16 32), Decidable (k1_chk786 v1722 v1751) := fun v1722 v1751 => decidable_of_iff' _ (Iff.of_eq (k1_chk786.eq_1 v1722 v1751))
theorem k1_idx786_inb : ∀ (v1722 : IVec S16 32) (v1751 : IVec S16 32) (k1_hw786 : k1_chk786 v1722 v1751), ∀ a x, ((![v1751, v1722] : Fin 2 → IVec S16 32) a x).toNat < S64x512.size a := fun v1722 v1751 k1_hw786 => k1_hw786

def k1_chk787 (v1722 : IVec S16 32) (v1755 : IVec S16 32) : Prop :=
  (∀ a x, ((![v1722, v1755] : Fin 2 → IVec S16 32) a x).toNat < S512x128.size a)
instance k1_chk787.dec : ∀ (v1722 : IVec S16 32) (v1755 : IVec S16 32), Decidable (k1_chk787 v1722 v1755) := fun v1722 v1755 => decidable_of_iff' _ (Iff.of_eq (k1_chk787.eq_1 v1722 v1755))
theorem k1_idx787_inb : ∀ (v1722 : IVec S16 32) (v1755 : IVec S16 32) (k1_hw787 : k1_chk787 v1722 v1755), ∀ a x, ((![v1722, v1755] : Fin 2 → IVec S16 32) a x).toNat < S512x128.size a := fun v1722 v1755 k1_hw787 => k1_hw787

def k1_chk788 (v1722 : IVec S16 32) (v1754 : IVec S16 32) : Prop :=
  (∀ a x, ((![v1754, v1722] : Fin 2 → IVec S16 32) a x).toNat < S64x512.size a)
instance k1_chk788.dec : ∀ (v1722 : IVec S16 32) (v1754 : IVec S16 32), Decidable (k1_chk788 v1722 v1754) := fun v1722 v1754 => decidable_of_iff' _ (Iff.of_eq (k1_chk788.eq_1 v1722 v1754))
theorem k1_idx788_inb : ∀ (v1722 : IVec S16 32) (v1754 : IVec S16 32) (k1_hw788 : k1_chk788 v1722 v1754), ∀ a x, ((![v1754, v1722] : Fin 2 → IVec S16 32) a x).toNat < S64x512.size a := fun v1722 v1754 k1_hw788 => k1_hw788

def k1_chk789 (v1722 : IVec S16 32) (v1758 : IVec S16 32) : Prop :=
  (∀ a x, ((![v1722, v1758] : Fin 2 → IVec S16 32) a x).toNat < S512x128.size a)
instance k1_chk789.dec : ∀ (v1722 : IVec S16 32) (v1758 : IVec S16 32), Decidable (k1_chk789 v1722 v1758) := fun v1722 v1758 => decidable_of_iff' _ (Iff.of_eq (k1_chk789.eq_1 v1722 v1758))
theorem k1_idx789_inb : ∀ (v1722 : IVec S16 32) (v1758 : IVec S16 32) (k1_hw789 : k1_chk789 v1722 v1758), ∀ a x, ((![v1722, v1758] : Fin 2 → IVec S16 32) a x).toNat < S512x128.size a := fun v1722 v1758 k1_hw789 => k1_hw789

def k1_chk790 (v1722 : IVec S16 32) (v1757 : IVec S16 32) : Prop :=
  (∀ a x, ((![v1757, v1722] : Fin 2 → IVec S16 32) a x).toNat < S64x512.size a)
instance k1_chk790.dec : ∀ (v1722 : IVec S16 32) (v1757 : IVec S16 32), Decidable (k1_chk790 v1722 v1757) := fun v1722 v1757 => decidable_of_iff' _ (Iff.of_eq (k1_chk790.eq_1 v1722 v1757))
theorem k1_idx790_inb : ∀ (v1722 : IVec S16 32) (v1757 : IVec S16 32) (k1_hw790 : k1_chk790 v1722 v1757), ∀ a x, ((![v1757, v1722] : Fin 2 → IVec S16 32) a x).toNat < S64x512.size a := fun v1722 v1757 k1_hw790 => k1_hw790

def k1_chk791 (v1722 : IVec S16 32) (v1761 : IVec S16 32) : Prop :=
  (∀ a x, ((![v1722, v1761] : Fin 2 → IVec S16 32) a x).toNat < S512x128.size a)
instance k1_chk791.dec : ∀ (v1722 : IVec S16 32) (v1761 : IVec S16 32), Decidable (k1_chk791 v1722 v1761) := fun v1722 v1761 => decidable_of_iff' _ (Iff.of_eq (k1_chk791.eq_1 v1722 v1761))
theorem k1_idx791_inb : ∀ (v1722 : IVec S16 32) (v1761 : IVec S16 32) (k1_hw791 : k1_chk791 v1722 v1761), ∀ a x, ((![v1722, v1761] : Fin 2 → IVec S16 32) a x).toNat < S512x128.size a := fun v1722 v1761 k1_hw791 => k1_hw791

def k1_chk792 (v1722 : IVec S16 32) (v1760 : IVec S16 32) : Prop :=
  (∀ a x, ((![v1760, v1722] : Fin 2 → IVec S16 32) a x).toNat < S64x512.size a)
instance k1_chk792.dec : ∀ (v1722 : IVec S16 32) (v1760 : IVec S16 32), Decidable (k1_chk792 v1722 v1760) := fun v1722 v1760 => decidable_of_iff' _ (Iff.of_eq (k1_chk792.eq_1 v1722 v1760))
theorem k1_idx792_inb : ∀ (v1722 : IVec S16 32) (v1760 : IVec S16 32) (k1_hw792 : k1_chk792 v1722 v1760), ∀ a x, ((![v1760, v1722] : Fin 2 → IVec S16 32) a x).toNat < S64x512.size a := fun v1722 v1760 k1_hw792 => k1_hw792

def k1_chk793 (v1722 : IVec S16 32) (v1764 : IVec S16 32) : Prop :=
  (∀ a x, ((![v1722, v1764] : Fin 2 → IVec S16 32) a x).toNat < S512x128.size a)
instance k1_chk793.dec : ∀ (v1722 : IVec S16 32) (v1764 : IVec S16 32), Decidable (k1_chk793 v1722 v1764) := fun v1722 v1764 => decidable_of_iff' _ (Iff.of_eq (k1_chk793.eq_1 v1722 v1764))
theorem k1_idx793_inb : ∀ (v1722 : IVec S16 32) (v1764 : IVec S16 32) (k1_hw793 : k1_chk793 v1722 v1764), ∀ a x, ((![v1722, v1764] : Fin 2 → IVec S16 32) a x).toNat < S512x128.size a := fun v1722 v1764 k1_hw793 => k1_hw793

def k1_chk794 (v1722 : IVec S16 32) (v1763 : IVec S16 32) : Prop :=
  (∀ a x, ((![v1763, v1722] : Fin 2 → IVec S16 32) a x).toNat < S64x512.size a)
instance k1_chk794.dec : ∀ (v1722 : IVec S16 32) (v1763 : IVec S16 32), Decidable (k1_chk794 v1722 v1763) := fun v1722 v1763 => decidable_of_iff' _ (Iff.of_eq (k1_chk794.eq_1 v1722 v1763))
theorem k1_idx794_inb : ∀ (v1722 : IVec S16 32) (v1763 : IVec S16 32) (k1_hw794 : k1_chk794 v1722 v1763), ∀ a x, ((![v1763, v1722] : Fin 2 → IVec S16 32) a x).toNat < S64x512.size a := fun v1722 v1763 k1_hw794 => k1_hw794

def k1_chk795 (v1722 : IVec S16 32) (v1767 : IVec S16 32) : Prop :=
  (∀ a x, ((![v1722, v1767] : Fin 2 → IVec S16 32) a x).toNat < S512x128.size a)
instance k1_chk795.dec : ∀ (v1722 : IVec S16 32) (v1767 : IVec S16 32), Decidable (k1_chk795 v1722 v1767) := fun v1722 v1767 => decidable_of_iff' _ (Iff.of_eq (k1_chk795.eq_1 v1722 v1767))
theorem k1_idx795_inb : ∀ (v1722 : IVec S16 32) (v1767 : IVec S16 32) (k1_hw795 : k1_chk795 v1722 v1767), ∀ a x, ((![v1722, v1767] : Fin 2 → IVec S16 32) a x).toNat < S512x128.size a := fun v1722 v1767 k1_hw795 => k1_hw795

def k1_chk796 (v1722 : IVec S16 32) (v1766 : IVec S16 32) : Prop :=
  (∀ a x, ((![v1766, v1722] : Fin 2 → IVec S16 32) a x).toNat < S64x512.size a)
instance k1_chk796.dec : ∀ (v1722 : IVec S16 32) (v1766 : IVec S16 32), Decidable (k1_chk796 v1722 v1766) := fun v1722 v1766 => decidable_of_iff' _ (Iff.of_eq (k1_chk796.eq_1 v1722 v1766))
theorem k1_idx796_inb : ∀ (v1722 : IVec S16 32) (v1766 : IVec S16 32) (k1_hw796 : k1_chk796 v1722 v1766), ∀ a x, ((![v1766, v1722] : Fin 2 → IVec S16 32) a x).toNat < S64x512.size a := fun v1722 v1766 k1_hw796 => k1_hw796

def k1_chk797 (v1722 : IVec S16 32) (v1770 : IVec S16 32) : Prop :=
  (∀ a x, ((![v1722, v1770] : Fin 2 → IVec S16 32) a x).toNat < S512x128.size a)
instance k1_chk797.dec : ∀ (v1722 : IVec S16 32) (v1770 : IVec S16 32), Decidable (k1_chk797 v1722 v1770) := fun v1722 v1770 => decidable_of_iff' _ (Iff.of_eq (k1_chk797.eq_1 v1722 v1770))
theorem k1_idx797_inb : ∀ (v1722 : IVec S16 32) (v1770 : IVec S16 32) (k1_hw797 : k1_chk797 v1722 v1770), ∀ a x, ((![v1722, v1770] : Fin 2 → IVec S16 32) a x).toNat < S512x128.size a := fun v1722 v1770 k1_hw797 => k1_hw797

def k1_chk798 (v1722 : IVec S16 32) (v1769 : IVec S16 32) : Prop :=
  (∀ a x, ((![v1769, v1722] : Fin 2 → IVec S16 32) a x).toNat < S64x512.size a)
instance k1_chk798.dec : ∀ (v1722 : IVec S16 32) (v1769 : IVec S16 32), Decidable (k1_chk798 v1722 v1769) := fun v1722 v1769 => decidable_of_iff' _ (Iff.of_eq (k1_chk798.eq_1 v1722 v1769))
theorem k1_idx798_inb : ∀ (v1722 : IVec S16 32) (v1769 : IVec S16 32) (k1_hw798 : k1_chk798 v1722 v1769), ∀ a x, ((![v1769, v1722] : Fin 2 → IVec S16 32) a x).toNat < S64x512.size a := fun v1722 v1769 k1_hw798 => k1_hw798

def k1_chk799 (v1722 : IVec S16 32) (v1773 : IVec S16 32) : Prop :=
  (∀ a x, ((![v1722, v1773] : Fin 2 → IVec S16 32) a x).toNat < S512x128.size a)
instance k1_chk799.dec : ∀ (v1722 : IVec S16 32) (v1773 : IVec S16 32), Decidable (k1_chk799 v1722 v1773) := fun v1722 v1773 => decidable_of_iff' _ (Iff.of_eq (k1_chk799.eq_1 v1722 v1773))
theorem k1_idx799_inb : ∀ (v1722 : IVec S16 32) (v1773 : IVec S16 32) (k1_hw799 : k1_chk799 v1722 v1773), ∀ a x, ((![v1722, v1773] : Fin 2 → IVec S16 32) a x).toNat < S512x128.size a := fun v1722 v1773 k1_hw799 => k1_hw799

def k1_chk800 (v1722 : IVec S16 32) (v1772 : IVec S16 32) : Prop :=
  (∀ a x, ((![v1772, v1722] : Fin 2 → IVec S16 32) a x).toNat < S64x512.size a)
instance k1_chk800.dec : ∀ (v1722 : IVec S16 32) (v1772 : IVec S16 32), Decidable (k1_chk800 v1722 v1772) := fun v1722 v1772 => decidable_of_iff' _ (Iff.of_eq (k1_chk800.eq_1 v1722 v1772))
theorem k1_idx800_inb : ∀ (v1722 : IVec S16 32) (v1772 : IVec S16 32) (k1_hw800 : k1_chk800 v1722 v1772), ∀ a x, ((![v1772, v1722] : Fin 2 → IVec S16 32) a x).toNat < S64x512.size a := fun v1722 v1772 k1_hw800 => k1_hw800

def k1_chk801 (v1722 : IVec S16 32) (v1776 : IVec S16 32) : Prop :=
  (∀ a x, ((![v1722, v1776] : Fin 2 → IVec S16 32) a x).toNat < S512x128.size a)
instance k1_chk801.dec : ∀ (v1722 : IVec S16 32) (v1776 : IVec S16 32), Decidable (k1_chk801 v1722 v1776) := fun v1722 v1776 => decidable_of_iff' _ (Iff.of_eq (k1_chk801.eq_1 v1722 v1776))
theorem k1_idx801_inb : ∀ (v1722 : IVec S16 32) (v1776 : IVec S16 32) (k1_hw801 : k1_chk801 v1722 v1776), ∀ a x, ((![v1722, v1776] : Fin 2 → IVec S16 32) a x).toNat < S512x128.size a := fun v1722 v1776 k1_hw801 => k1_hw801

def k1_chk802 (v1722 : IVec S16 32) (v1775 : IVec S16 32) : Prop :=
  (∀ a x, ((![v1775, v1722] : Fin 2 → IVec S16 32) a x).toNat < S64x512.size a)
instance k1_chk802.dec : ∀ (v1722 : IVec S16 32) (v1775 : IVec S16 32), Decidable (k1_chk802 v1722 v1775) := fun v1722 v1775 => decidable_of_iff' _ (Iff.of_eq (k1_chk802.eq_1 v1722 v1775))
theorem k1_idx802_inb : ∀ (v1722 : IVec S16 32) (v1775 : IVec S16 32) (k1_hw802 : k1_chk802 v1722 v1775), ∀ a x, ((![v1775, v1722] : Fin 2 → IVec S16 32) a x).toNat < S64x512.size a := fun v1722 v1775 k1_hw802 => k1_hw802

def k1_chk803 (v1722 : IVec S16 32) (v1779 : IVec S16 32) : Prop :=
  (∀ a x, ((![v1722, v1779] : Fin 2 → IVec S16 32) a x).toNat < S512x128.size a)
instance k1_chk803.dec : ∀ (v1722 : IVec S16 32) (v1779 : IVec S16 32), Decidable (k1_chk803 v1722 v1779) := fun v1722 v1779 => decidable_of_iff' _ (Iff.of_eq (k1_chk803.eq_1 v1722 v1779))
theorem k1_idx803_inb : ∀ (v1722 : IVec S16 32) (v1779 : IVec S16 32) (k1_hw803 : k1_chk803 v1722 v1779), ∀ a x, ((![v1722, v1779] : Fin 2 → IVec S16 32) a x).toNat < S512x128.size a := fun v1722 v1779 k1_hw803 => k1_hw803

def k1_chk804 (v1722 : IVec S16 32) (v1778 : IVec S16 32) : Prop :=
  (∀ a x, ((![v1778, v1722] : Fin 2 → IVec S16 32) a x).toNat < S64x512.size a)
instance k1_chk804.dec : ∀ (v1722 : IVec S16 32) (v1778 : IVec S16 32), Decidable (k1_chk804 v1722 v1778) := fun v1722 v1778 => decidable_of_iff' _ (Iff.of_eq (k1_chk804.eq_1 v1722 v1778))
theorem k1_idx804_inb : ∀ (v1722 : IVec S16 32) (v1778 : IVec S16 32) (k1_hw804 : k1_chk804 v1722 v1778), ∀ a x, ((![v1778, v1722] : Fin 2 → IVec S16 32) a x).toNat < S64x512.size a := fun v1722 v1778 k1_hw804 => k1_hw804

def k1_chk805 (v1722 : IVec S16 32) (v1782 : IVec S16 32) : Prop :=
  (∀ a x, ((![v1722, v1782] : Fin 2 → IVec S16 32) a x).toNat < S512x128.size a)
instance k1_chk805.dec : ∀ (v1722 : IVec S16 32) (v1782 : IVec S16 32), Decidable (k1_chk805 v1722 v1782) := fun v1722 v1782 => decidable_of_iff' _ (Iff.of_eq (k1_chk805.eq_1 v1722 v1782))
theorem k1_idx805_inb : ∀ (v1722 : IVec S16 32) (v1782 : IVec S16 32) (k1_hw805 : k1_chk805 v1722 v1782), ∀ a x, ((![v1722, v1782] : Fin 2 → IVec S16 32) a x).toNat < S512x128.size a := fun v1722 v1782 k1_hw805 => k1_hw805

def k1_chk806 (v1722 : IVec S16 32) (v1781 : IVec S16 32) : Prop :=
  (∀ a x, ((![v1781, v1722] : Fin 2 → IVec S16 32) a x).toNat < S64x512.size a)
instance k1_chk806.dec : ∀ (v1722 : IVec S16 32) (v1781 : IVec S16 32), Decidable (k1_chk806 v1722 v1781) := fun v1722 v1781 => decidable_of_iff' _ (Iff.of_eq (k1_chk806.eq_1 v1722 v1781))
theorem k1_idx806_inb : ∀ (v1722 : IVec S16 32) (v1781 : IVec S16 32) (k1_hw806 : k1_chk806 v1722 v1781), ∀ a x, ((![v1781, v1722] : Fin 2 → IVec S16 32) a x).toNat < S64x512.size a := fun v1722 v1781 k1_hw806 => k1_hw806

def k1_chk807 (v1722 : IVec S16 32) (v1785 : IVec S16 32) : Prop :=
  (∀ a x, ((![v1722, v1785] : Fin 2 → IVec S16 32) a x).toNat < S512x128.size a)
instance k1_chk807.dec : ∀ (v1722 : IVec S16 32) (v1785 : IVec S16 32), Decidable (k1_chk807 v1722 v1785) := fun v1722 v1785 => decidable_of_iff' _ (Iff.of_eq (k1_chk807.eq_1 v1722 v1785))
theorem k1_idx807_inb : ∀ (v1722 : IVec S16 32) (v1785 : IVec S16 32) (k1_hw807 : k1_chk807 v1722 v1785), ∀ a x, ((![v1722, v1785] : Fin 2 → IVec S16 32) a x).toNat < S512x128.size a := fun v1722 v1785 k1_hw807 => k1_hw807

def k1_chk808 (v1722 : IVec S16 32) (v1784 : IVec S16 32) : Prop :=
  (∀ a x, ((![v1784, v1722] : Fin 2 → IVec S16 32) a x).toNat < S64x512.size a)
instance k1_chk808.dec : ∀ (v1722 : IVec S16 32) (v1784 : IVec S16 32), Decidable (k1_chk808 v1722 v1784) := fun v1722 v1784 => decidable_of_iff' _ (Iff.of_eq (k1_chk808.eq_1 v1722 v1784))
theorem k1_idx808_inb : ∀ (v1722 : IVec S16 32) (v1784 : IVec S16 32) (k1_hw808 : k1_chk808 v1722 v1784), ∀ a x, ((![v1784, v1722] : Fin 2 → IVec S16 32) a x).toNat < S64x512.size a := fun v1722 v1784 k1_hw808 => k1_hw808

def k1_chk809 (v1722 : IVec S16 32) (v1788 : IVec S16 32) : Prop :=
  (∀ a x, ((![v1722, v1788] : Fin 2 → IVec S16 32) a x).toNat < S512x128.size a)
instance k1_chk809.dec : ∀ (v1722 : IVec S16 32) (v1788 : IVec S16 32), Decidable (k1_chk809 v1722 v1788) := fun v1722 v1788 => decidable_of_iff' _ (Iff.of_eq (k1_chk809.eq_1 v1722 v1788))
theorem k1_idx809_inb : ∀ (v1722 : IVec S16 32) (v1788 : IVec S16 32) (k1_hw809 : k1_chk809 v1722 v1788), ∀ a x, ((![v1722, v1788] : Fin 2 → IVec S16 32) a x).toNat < S512x128.size a := fun v1722 v1788 k1_hw809 => k1_hw809

def k1_chk810 (v1722 : IVec S16 32) (v1787 : IVec S16 32) : Prop :=
  (∀ a x, ((![v1787, v1722] : Fin 2 → IVec S16 32) a x).toNat < S64x512.size a)
instance k1_chk810.dec : ∀ (v1722 : IVec S16 32) (v1787 : IVec S16 32), Decidable (k1_chk810 v1722 v1787) := fun v1722 v1787 => decidable_of_iff' _ (Iff.of_eq (k1_chk810.eq_1 v1722 v1787))
theorem k1_idx810_inb : ∀ (v1722 : IVec S16 32) (v1787 : IVec S16 32) (k1_hw810 : k1_chk810 v1722 v1787), ∀ a x, ((![v1787, v1722] : Fin 2 → IVec S16 32) a x).toNat < S64x512.size a := fun v1722 v1787 k1_hw810 => k1_hw810

def k1_chk811 (v1722 : IVec S16 32) (v1791 : IVec S16 32) : Prop :=
  (∀ a x, ((![v1722, v1791] : Fin 2 → IVec S16 32) a x).toNat < S512x128.size a)
instance k1_chk811.dec : ∀ (v1722 : IVec S16 32) (v1791 : IVec S16 32), Decidable (k1_chk811 v1722 v1791) := fun v1722 v1791 => decidable_of_iff' _ (Iff.of_eq (k1_chk811.eq_1 v1722 v1791))
theorem k1_idx811_inb : ∀ (v1722 : IVec S16 32) (v1791 : IVec S16 32) (k1_hw811 : k1_chk811 v1722 v1791), ∀ a x, ((![v1722, v1791] : Fin 2 → IVec S16 32) a x).toNat < S512x128.size a := fun v1722 v1791 k1_hw811 => k1_hw811

def k1_chk812 (v1722 : IVec S16 32) (v1790 : IVec S16 32) : Prop :=
  (∀ a x, ((![v1790, v1722] : Fin 2 → IVec S16 32) a x).toNat < S64x512.size a)
instance k1_chk812.dec : ∀ (v1722 : IVec S16 32) (v1790 : IVec S16 32), Decidable (k1_chk812 v1722 v1790) := fun v1722 v1790 => decidable_of_iff' _ (Iff.of_eq (k1_chk812.eq_1 v1722 v1790))
theorem k1_idx812_inb : ∀ (v1722 : IVec S16 32) (v1790 : IVec S16 32) (k1_hw812 : k1_chk812 v1722 v1790), ∀ a x, ((![v1790, v1722] : Fin 2 → IVec S16 32) a x).toNat < S64x512.size a := fun v1722 v1790 k1_hw812 => k1_hw812

def k1_chk813 (v1722 : IVec S16 32) (v1794 : IVec S16 32) : Prop :=
  (∀ a x, ((![v1722, v1794] : Fin 2 → IVec S16 32) a x).toNat < S512x128.size a)
instance k1_chk813.dec : ∀ (v1722 : IVec S16 32) (v1794 : IVec S16 32), Decidable (k1_chk813 v1722 v1794) := fun v1722 v1794 => decidable_of_iff' _ (Iff.of_eq (k1_chk813.eq_1 v1722 v1794))
theorem k1_idx813_inb : ∀ (v1722 : IVec S16 32) (v1794 : IVec S16 32) (k1_hw813 : k1_chk813 v1722 v1794), ∀ a x, ((![v1722, v1794] : Fin 2 → IVec S16 32) a x).toNat < S512x128.size a := fun v1722 v1794 k1_hw813 => k1_hw813

def k1_chk814 (v1722 : IVec S16 32) (v1793 : IVec S16 32) : Prop :=
  (∀ a x, ((![v1793, v1722] : Fin 2 → IVec S16 32) a x).toNat < S64x512.size a)
instance k1_chk814.dec : ∀ (v1722 : IVec S16 32) (v1793 : IVec S16 32), Decidable (k1_chk814 v1722 v1793) := fun v1722 v1793 => decidable_of_iff' _ (Iff.of_eq (k1_chk814.eq_1 v1722 v1793))
theorem k1_idx814_inb : ∀ (v1722 : IVec S16 32) (v1793 : IVec S16 32) (k1_hw814 : k1_chk814 v1722 v1793), ∀ a x, ((![v1793, v1722] : Fin 2 → IVec S16 32) a x).toNat < S64x512.size a := fun v1722 v1793 k1_hw814 => k1_hw814

def k1_chk815 (v1722 : IVec S16 32) (v1797 : IVec S16 32) : Prop :=
  (∀ a x, ((![v1722, v1797] : Fin 2 → IVec S16 32) a x).toNat < S512x128.size a)
instance k1_chk815.dec : ∀ (v1722 : IVec S16 32) (v1797 : IVec S16 32), Decidable (k1_chk815 v1722 v1797) := fun v1722 v1797 => decidable_of_iff' _ (Iff.of_eq (k1_chk815.eq_1 v1722 v1797))
theorem k1_idx815_inb : ∀ (v1722 : IVec S16 32) (v1797 : IVec S16 32) (k1_hw815 : k1_chk815 v1722 v1797), ∀ a x, ((![v1722, v1797] : Fin 2 → IVec S16 32) a x).toNat < S512x128.size a := fun v1722 v1797 k1_hw815 => k1_hw815

def k1_chk816 (v1722 : IVec S16 32) (v1796 : IVec S16 32) : Prop :=
  (∀ a x, ((![v1796, v1722] : Fin 2 → IVec S16 32) a x).toNat < S64x512.size a)
instance k1_chk816.dec : ∀ (v1722 : IVec S16 32) (v1796 : IVec S16 32), Decidable (k1_chk816 v1722 v1796) := fun v1722 v1796 => decidable_of_iff' _ (Iff.of_eq (k1_chk816.eq_1 v1722 v1796))
theorem k1_idx816_inb : ∀ (v1722 : IVec S16 32) (v1796 : IVec S16 32) (k1_hw816 : k1_chk816 v1722 v1796), ∀ a x, ((![v1796, v1722] : Fin 2 → IVec S16 32) a x).toNat < S64x512.size a := fun v1722 v1796 k1_hw816 => k1_hw816

def k1_chk817 (v1722 : IVec S16 32) (v1800 : IVec S16 32) : Prop :=
  (∀ a x, ((![v1722, v1800] : Fin 2 → IVec S16 32) a x).toNat < S512x128.size a)
instance k1_chk817.dec : ∀ (v1722 : IVec S16 32) (v1800 : IVec S16 32), Decidable (k1_chk817 v1722 v1800) := fun v1722 v1800 => decidable_of_iff' _ (Iff.of_eq (k1_chk817.eq_1 v1722 v1800))
theorem k1_idx817_inb : ∀ (v1722 : IVec S16 32) (v1800 : IVec S16 32) (k1_hw817 : k1_chk817 v1722 v1800), ∀ a x, ((![v1722, v1800] : Fin 2 → IVec S16 32) a x).toNat < S512x128.size a := fun v1722 v1800 k1_hw817 => k1_hw817

def k1_chk818 (v1722 : IVec S16 32) (v1799 : IVec S16 32) : Prop :=
  (∀ a x, ((![v1799, v1722] : Fin 2 → IVec S16 32) a x).toNat < S64x512.size a)
instance k1_chk818.dec : ∀ (v1722 : IVec S16 32) (v1799 : IVec S16 32), Decidable (k1_chk818 v1722 v1799) := fun v1722 v1799 => decidable_of_iff' _ (Iff.of_eq (k1_chk818.eq_1 v1722 v1799))
theorem k1_idx818_inb : ∀ (v1722 : IVec S16 32) (v1799 : IVec S16 32) (k1_hw818 : k1_chk818 v1722 v1799), ∀ a x, ((![v1799, v1722] : Fin 2 → IVec S16 32) a x).toNat < S64x512.size a := fun v1722 v1799 k1_hw818 => k1_hw818

def k1_chk819 (v1722 : IVec S16 32) (v1803 : IVec S16 32) : Prop :=
  (∀ a x, ((![v1722, v1803] : Fin 2 → IVec S16 32) a x).toNat < S512x128.size a)
instance k1_chk819.dec : ∀ (v1722 : IVec S16 32) (v1803 : IVec S16 32), Decidable (k1_chk819 v1722 v1803) := fun v1722 v1803 => decidable_of_iff' _ (Iff.of_eq (k1_chk819.eq_1 v1722 v1803))
theorem k1_idx819_inb : ∀ (v1722 : IVec S16 32) (v1803 : IVec S16 32) (k1_hw819 : k1_chk819 v1722 v1803), ∀ a x, ((![v1722, v1803] : Fin 2 → IVec S16 32) a x).toNat < S512x128.size a := fun v1722 v1803 k1_hw819 => k1_hw819

def k1_chk820 (v1722 : IVec S16 32) (v1802 : IVec S16 32) : Prop :=
  (∀ a x, ((![v1802, v1722] : Fin 2 → IVec S16 32) a x).toNat < S64x512.size a)
instance k1_chk820.dec : ∀ (v1722 : IVec S16 32) (v1802 : IVec S16 32), Decidable (k1_chk820 v1722 v1802) := fun v1722 v1802 => decidable_of_iff' _ (Iff.of_eq (k1_chk820.eq_1 v1722 v1802))
theorem k1_idx820_inb : ∀ (v1722 : IVec S16 32) (v1802 : IVec S16 32) (k1_hw820 : k1_chk820 v1722 v1802), ∀ a x, ((![v1802, v1722] : Fin 2 → IVec S16 32) a x).toNat < S64x512.size a := fun v1722 v1802 k1_hw820 => k1_hw820

def k1_chk821 (v1722 : IVec S16 32) (v1806 : IVec S16 32) : Prop :=
  (∀ a x, ((![v1722, v1806] : Fin 2 → IVec S16 32) a x).toNat < S512x128.size a)
instance k1_chk821.dec : ∀ (v1722 : IVec S16 32) (v1806 : IVec S16 32), Decidable (k1_chk821 v1722 v1806) := fun v1722 v1806 => decidable_of_iff' _ (Iff.of_eq (k1_chk821.eq_1 v1722 v1806))
theorem k1_idx821_inb : ∀ (v1722 : IVec S16 32) (v1806 : IVec S16 32) (k1_hw821 : k1_chk821 v1722 v1806), ∀ a x, ((![v1722, v1806] : Fin 2 → IVec S16 32) a x).toNat < S512x128.size a := fun v1722 v1806 k1_hw821 => k1_hw821

def k1_chk822 (v1722 : IVec S16 32) (v1805 : IVec S16 32) : Prop :=
  (∀ a x, ((![v1805, v1722] : Fin 2 → IVec S16 32) a x).toNat < S64x512.size a)
instance k1_chk822.dec : ∀ (v1722 : IVec S16 32) (v1805 : IVec S16 32), Decidable (k1_chk822 v1722 v1805) := fun v1722 v1805 => decidable_of_iff' _ (Iff.of_eq (k1_chk822.eq_1 v1722 v1805))
theorem k1_idx822_inb : ∀ (v1722 : IVec S16 32) (v1805 : IVec S16 32) (k1_hw822 : k1_chk822 v1722 v1805), ∀ a x, ((![v1805, v1722] : Fin 2 → IVec S16 32) a x).toNat < S64x512.size a := fun v1722 v1805 k1_hw822 => k1_hw822

def k1_chk823 (v1722 : IVec S16 32) (v1809 : IVec S16 32) : Prop :=
  (∀ a x, ((![v1722, v1809] : Fin 2 → IVec S16 32) a x).toNat < S512x128.size a)
instance k1_chk823.dec : ∀ (v1722 : IVec S16 32) (v1809 : IVec S16 32), Decidable (k1_chk823 v1722 v1809) := fun v1722 v1809 => decidable_of_iff' _ (Iff.of_eq (k1_chk823.eq_1 v1722 v1809))
theorem k1_idx823_inb : ∀ (v1722 : IVec S16 32) (v1809 : IVec S16 32) (k1_hw823 : k1_chk823 v1722 v1809), ∀ a x, ((![v1722, v1809] : Fin 2 → IVec S16 32) a x).toNat < S512x128.size a := fun v1722 v1809 k1_hw823 => k1_hw823

def k1_chk824 (v1722 : IVec S16 32) (v1808 : IVec S16 32) : Prop :=
  (∀ a x, ((![v1808, v1722] : Fin 2 → IVec S16 32) a x).toNat < S64x512.size a)
instance k1_chk824.dec : ∀ (v1722 : IVec S16 32) (v1808 : IVec S16 32), Decidable (k1_chk824 v1722 v1808) := fun v1722 v1808 => decidable_of_iff' _ (Iff.of_eq (k1_chk824.eq_1 v1722 v1808))
theorem k1_idx824_inb : ∀ (v1722 : IVec S16 32) (v1808 : IVec S16 32) (k1_hw824 : k1_chk824 v1722 v1808), ∀ a x, ((![v1808, v1722] : Fin 2 → IVec S16 32) a x).toNat < S64x512.size a := fun v1722 v1808 k1_hw824 => k1_hw824

def k1_chk825 (v1722 : IVec S16 32) (v1812 : IVec S16 32) : Prop :=
  (∀ a x, ((![v1722, v1812] : Fin 2 → IVec S16 32) a x).toNat < S512x128.size a)
instance k1_chk825.dec : ∀ (v1722 : IVec S16 32) (v1812 : IVec S16 32), Decidable (k1_chk825 v1722 v1812) := fun v1722 v1812 => decidable_of_iff' _ (Iff.of_eq (k1_chk825.eq_1 v1722 v1812))
theorem k1_idx825_inb : ∀ (v1722 : IVec S16 32) (v1812 : IVec S16 32) (k1_hw825 : k1_chk825 v1722 v1812), ∀ a x, ((![v1722, v1812] : Fin 2 → IVec S16 32) a x).toNat < S512x128.size a := fun v1722 v1812 k1_hw825 => k1_hw825

def k1_chk826 (v1722 : IVec S16 32) (v1811 : IVec S16 32) : Prop :=
  (∀ a x, ((![v1811, v1722] : Fin 2 → IVec S16 32) a x).toNat < S64x512.size a)
instance k1_chk826.dec : ∀ (v1722 : IVec S16 32) (v1811 : IVec S16 32), Decidable (k1_chk826 v1722 v1811) := fun v1722 v1811 => decidable_of_iff' _ (Iff.of_eq (k1_chk826.eq_1 v1722 v1811))
theorem k1_idx826_inb : ∀ (v1722 : IVec S16 32) (v1811 : IVec S16 32) (k1_hw826 : k1_chk826 v1722 v1811), ∀ a x, ((![v1811, v1722] : Fin 2 → IVec S16 32) a x).toNat < S64x512.size a := fun v1722 v1811 k1_hw826 => k1_hw826

def k1_chk827 (v1722 : IVec S16 32) (v1815 : IVec S16 32) : Prop :=
  (∀ a x, ((![v1722, v1815] : Fin 2 → IVec S16 32) a x).toNat < S512x128.size a)
instance k1_chk827.dec : ∀ (v1722 : IVec S16 32) (v1815 : IVec S16 32), Decidable (k1_chk827 v1722 v1815) := fun v1722 v1815 => decidable_of_iff' _ (Iff.of_eq (k1_chk827.eq_1 v1722 v1815))
theorem k1_idx827_inb : ∀ (v1722 : IVec S16 32) (v1815 : IVec S16 32) (k1_hw827 : k1_chk827 v1722 v1815), ∀ a x, ((![v1722, v1815] : Fin 2 → IVec S16 32) a x).toNat < S512x128.size a := fun v1722 v1815 k1_hw827 => k1_hw827

def k1_chk828 (v1722 : IVec S16 32) (v1814 : IVec S16 32) : Prop :=
  (∀ a x, ((![v1814, v1722] : Fin 2 → IVec S16 32) a x).toNat < S64x512.size a)
instance k1_chk828.dec : ∀ (v1722 : IVec S16 32) (v1814 : IVec S16 32), Decidable (k1_chk828 v1722 v1814) := fun v1722 v1814 => decidable_of_iff' _ (Iff.of_eq (k1_chk828.eq_1 v1722 v1814))
theorem k1_idx828_inb : ∀ (v1722 : IVec S16 32) (v1814 : IVec S16 32) (k1_hw828 : k1_chk828 v1722 v1814), ∀ a x, ((![v1814, v1722] : Fin 2 → IVec S16 32) a x).toNat < S64x512.size a := fun v1722 v1814 k1_hw828 => k1_hw828

def k1_chk829 (v1722 : IVec S16 32) (v1818 : IVec S16 32) : Prop :=
  (∀ a x, ((![v1722, v1818] : Fin 2 → IVec S16 32) a x).toNat < S512x128.size a)
instance k1_chk829.dec : ∀ (v1722 : IVec S16 32) (v1818 : IVec S16 32), Decidable (k1_chk829 v1722 v1818) := fun v1722 v1818 => decidable_of_iff' _ (Iff.of_eq (k1_chk829.eq_1 v1722 v1818))
theorem k1_idx829_inb : ∀ (v1722 : IVec S16 32) (v1818 : IVec S16 32) (k1_hw829 : k1_chk829 v1722 v1818), ∀ a x, ((![v1722, v1818] : Fin 2 → IVec S16 32) a x).toNat < S512x128.size a := fun v1722 v1818 k1_hw829 => k1_hw829

def k1_chk830 (v1722 : IVec S16 32) (v1817 : IVec S16 32) : Prop :=
  (∀ a x, ((![v1817, v1722] : Fin 2 → IVec S16 32) a x).toNat < S64x512.size a)
instance k1_chk830.dec : ∀ (v1722 : IVec S16 32) (v1817 : IVec S16 32), Decidable (k1_chk830 v1722 v1817) := fun v1722 v1817 => decidable_of_iff' _ (Iff.of_eq (k1_chk830.eq_1 v1722 v1817))
theorem k1_idx830_inb : ∀ (v1722 : IVec S16 32) (v1817 : IVec S16 32) (k1_hw830 : k1_chk830 v1722 v1817), ∀ a x, ((![v1817, v1722] : Fin 2 → IVec S16 32) a x).toNat < S64x512.size a := fun v1722 v1817 k1_hw830 => k1_hw830

def k1_chk831 (v1722 : IVec S16 32) (v1821 : IVec S16 32) : Prop :=
  (∀ a x, ((![v1722, v1821] : Fin 2 → IVec S16 32) a x).toNat < S512x128.size a)
instance k1_chk831.dec : ∀ (v1722 : IVec S16 32) (v1821 : IVec S16 32), Decidable (k1_chk831 v1722 v1821) := fun v1722 v1821 => decidable_of_iff' _ (Iff.of_eq (k1_chk831.eq_1 v1722 v1821))
theorem k1_idx831_inb : ∀ (v1722 : IVec S16 32) (v1821 : IVec S16 32) (k1_hw831 : k1_chk831 v1722 v1821), ∀ a x, ((![v1722, v1821] : Fin 2 → IVec S16 32) a x).toNat < S512x128.size a := fun v1722 v1821 k1_hw831 => k1_hw831

def k1_chk832 (v1722 : IVec S16 32) (v1820 : IVec S16 32) : Prop :=
  (∀ a x, ((![v1820, v1722] : Fin 2 → IVec S16 32) a x).toNat < S64x512.size a)
instance k1_chk832.dec : ∀ (v1722 : IVec S16 32) (v1820 : IVec S16 32), Decidable (k1_chk832 v1722 v1820) := fun v1722 v1820 => decidable_of_iff' _ (Iff.of_eq (k1_chk832.eq_1 v1722 v1820))
theorem k1_idx832_inb : ∀ (v1722 : IVec S16 32) (v1820 : IVec S16 32) (k1_hw832 : k1_chk832 v1722 v1820), ∀ a x, ((![v1820, v1722] : Fin 2 → IVec S16 32) a x).toNat < S64x512.size a := fun v1722 v1820 k1_hw832 => k1_hw832

def k1_chk833 (v1722 : IVec S16 32) (v1824 : IVec S16 32) : Prop :=
  (∀ a x, ((![v1722, v1824] : Fin 2 → IVec S16 32) a x).toNat < S512x128.size a)
instance k1_chk833.dec : ∀ (v1722 : IVec S16 32) (v1824 : IVec S16 32), Decidable (k1_chk833 v1722 v1824) := fun v1722 v1824 => decidable_of_iff' _ (Iff.of_eq (k1_chk833.eq_1 v1722 v1824))
theorem k1_idx833_inb : ∀ (v1722 : IVec S16 32) (v1824 : IVec S16 32) (k1_hw833 : k1_chk833 v1722 v1824), ∀ a x, ((![v1722, v1824] : Fin 2 → IVec S16 32) a x).toNat < S512x128.size a := fun v1722 v1824 k1_hw833 => k1_hw833

def k1_chk834 (v1722 : IVec S16 32) (v1823 : IVec S16 32) : Prop :=
  (∀ a x, ((![v1823, v1722] : Fin 2 → IVec S16 32) a x).toNat < S64x512.size a)
instance k1_chk834.dec : ∀ (v1722 : IVec S16 32) (v1823 : IVec S16 32), Decidable (k1_chk834 v1722 v1823) := fun v1722 v1823 => decidable_of_iff' _ (Iff.of_eq (k1_chk834.eq_1 v1722 v1823))
theorem k1_idx834_inb : ∀ (v1722 : IVec S16 32) (v1823 : IVec S16 32) (k1_hw834 : k1_chk834 v1722 v1823), ∀ a x, ((![v1823, v1722] : Fin 2 → IVec S16 32) a x).toNat < S64x512.size a := fun v1722 v1823 k1_hw834 => k1_hw834

def k1_chk835 (v1722 : IVec S16 32) (v1827 : IVec S16 32) : Prop :=
  (∀ a x, ((![v1722, v1827] : Fin 2 → IVec S16 32) a x).toNat < S512x128.size a)
instance k1_chk835.dec : ∀ (v1722 : IVec S16 32) (v1827 : IVec S16 32), Decidable (k1_chk835 v1722 v1827) := fun v1722 v1827 => decidable_of_iff' _ (Iff.of_eq (k1_chk835.eq_1 v1722 v1827))
theorem k1_idx835_inb : ∀ (v1722 : IVec S16 32) (v1827 : IVec S16 32) (k1_hw835 : k1_chk835 v1722 v1827), ∀ a x, ((![v1722, v1827] : Fin 2 → IVec S16 32) a x).toNat < S512x128.size a := fun v1722 v1827 k1_hw835 => k1_hw835

def k1_chk836 (v1722 : IVec S16 32) (v1826 : IVec S16 32) : Prop :=
  (∀ a x, ((![v1826, v1722] : Fin 2 → IVec S16 32) a x).toNat < S64x512.size a)
instance k1_chk836.dec : ∀ (v1722 : IVec S16 32) (v1826 : IVec S16 32), Decidable (k1_chk836 v1722 v1826) := fun v1722 v1826 => decidable_of_iff' _ (Iff.of_eq (k1_chk836.eq_1 v1722 v1826))
theorem k1_idx836_inb : ∀ (v1722 : IVec S16 32) (v1826 : IVec S16 32) (k1_hw836 : k1_chk836 v1722 v1826), ∀ a x, ((![v1826, v1722] : Fin 2 → IVec S16 32) a x).toNat < S64x512.size a := fun v1722 v1826 k1_hw836 => k1_hw836

def k1_chk837 (v1722 : IVec S16 32) (v1830 : IVec S16 32) : Prop :=
  (∀ a x, ((![v1722, v1830] : Fin 2 → IVec S16 32) a x).toNat < S512x128.size a)
instance k1_chk837.dec : ∀ (v1722 : IVec S16 32) (v1830 : IVec S16 32), Decidable (k1_chk837 v1722 v1830) := fun v1722 v1830 => decidable_of_iff' _ (Iff.of_eq (k1_chk837.eq_1 v1722 v1830))
theorem k1_idx837_inb : ∀ (v1722 : IVec S16 32) (v1830 : IVec S16 32) (k1_hw837 : k1_chk837 v1722 v1830), ∀ a x, ((![v1722, v1830] : Fin 2 → IVec S16 32) a x).toNat < S512x128.size a := fun v1722 v1830 k1_hw837 => k1_hw837

def k1_chk838 (v1722 : IVec S16 32) (v1829 : IVec S16 32) : Prop :=
  (∀ a x, ((![v1829, v1722] : Fin 2 → IVec S16 32) a x).toNat < S64x512.size a)
instance k1_chk838.dec : ∀ (v1722 : IVec S16 32) (v1829 : IVec S16 32), Decidable (k1_chk838 v1722 v1829) := fun v1722 v1829 => decidable_of_iff' _ (Iff.of_eq (k1_chk838.eq_1 v1722 v1829))
theorem k1_idx838_inb : ∀ (v1722 : IVec S16 32) (v1829 : IVec S16 32) (k1_hw838 : k1_chk838 v1722 v1829), ∀ a x, ((![v1829, v1722] : Fin 2 → IVec S16 32) a x).toNat < S64x512.size a := fun v1722 v1829 k1_hw838 => k1_hw838

def k1_chk839 (v1722 : IVec S16 32) (v1833 : IVec S16 32) : Prop :=
  (∀ a x, ((![v1722, v1833] : Fin 2 → IVec S16 32) a x).toNat < S512x128.size a)
instance k1_chk839.dec : ∀ (v1722 : IVec S16 32) (v1833 : IVec S16 32), Decidable (k1_chk839 v1722 v1833) := fun v1722 v1833 => decidable_of_iff' _ (Iff.of_eq (k1_chk839.eq_1 v1722 v1833))
theorem k1_idx839_inb : ∀ (v1722 : IVec S16 32) (v1833 : IVec S16 32) (k1_hw839 : k1_chk839 v1722 v1833), ∀ a x, ((![v1722, v1833] : Fin 2 → IVec S16 32) a x).toNat < S512x128.size a := fun v1722 v1833 k1_hw839 => k1_hw839

def k1_chk840 (v1722 : IVec S16 32) (v1832 : IVec S16 32) : Prop :=
  (∀ a x, ((![v1832, v1722] : Fin 2 → IVec S16 32) a x).toNat < S64x512.size a)
instance k1_chk840.dec : ∀ (v1722 : IVec S16 32) (v1832 : IVec S16 32), Decidable (k1_chk840 v1722 v1832) := fun v1722 v1832 => decidable_of_iff' _ (Iff.of_eq (k1_chk840.eq_1 v1722 v1832))
theorem k1_idx840_inb : ∀ (v1722 : IVec S16 32) (v1832 : IVec S16 32) (k1_hw840 : k1_chk840 v1722 v1832), ∀ a x, ((![v1832, v1722] : Fin 2 → IVec S16 32) a x).toNat < S64x512.size a := fun v1722 v1832 k1_hw840 => k1_hw840

def k1_chk841 (v1722 : IVec S16 32) (v1836 : IVec S16 32) : Prop :=
  (∀ a x, ((![v1722, v1836] : Fin 2 → IVec S16 32) a x).toNat < S512x128.size a)
instance k1_chk841.dec : ∀ (v1722 : IVec S16 32) (v1836 : IVec S16 32), Decidable (k1_chk841 v1722 v1836) := fun v1722 v1836 => decidable_of_iff' _ (Iff.of_eq (k1_chk841.eq_1 v1722 v1836))
theorem k1_idx841_inb : ∀ (v1722 : IVec S16 32) (v1836 : IVec S16 32) (k1_hw841 : k1_chk841 v1722 v1836), ∀ a x, ((![v1722, v1836] : Fin 2 → IVec S16 32) a x).toNat < S512x128.size a := fun v1722 v1836 k1_hw841 => k1_hw841

def k1_chk842 (v1722 : IVec S16 32) (v1835 : IVec S16 32) : Prop :=
  (∀ a x, ((![v1835, v1722] : Fin 2 → IVec S16 32) a x).toNat < S64x512.size a)
instance k1_chk842.dec : ∀ (v1722 : IVec S16 32) (v1835 : IVec S16 32), Decidable (k1_chk842 v1722 v1835) := fun v1722 v1835 => decidable_of_iff' _ (Iff.of_eq (k1_chk842.eq_1 v1722 v1835))
theorem k1_idx842_inb : ∀ (v1722 : IVec S16 32) (v1835 : IVec S16 32) (k1_hw842 : k1_chk842 v1722 v1835), ∀ a x, ((![v1835, v1722] : Fin 2 → IVec S16 32) a x).toNat < S64x512.size a := fun v1722 v1835 k1_hw842 => k1_hw842

def k1_chk843 (v1722 : IVec S16 32) (v1839 : IVec S16 32) : Prop :=
  (∀ a x, ((![v1722, v1839] : Fin 2 → IVec S16 32) a x).toNat < S512x128.size a)
instance k1_chk843.dec : ∀ (v1722 : IVec S16 32) (v1839 : IVec S16 32), Decidable (k1_chk843 v1722 v1839) := fun v1722 v1839 => decidable_of_iff' _ (Iff.of_eq (k1_chk843.eq_1 v1722 v1839))
theorem k1_idx843_inb : ∀ (v1722 : IVec S16 32) (v1839 : IVec S16 32) (k1_hw843 : k1_chk843 v1722 v1839), ∀ a x, ((![v1722, v1839] : Fin 2 → IVec S16 32) a x).toNat < S512x128.size a := fun v1722 v1839 k1_hw843 => k1_hw843

def k1_chk844 (v1722 : IVec S16 32) (v1838 : IVec S16 32) : Prop :=
  (∀ a x, ((![v1838, v1722] : Fin 2 → IVec S16 32) a x).toNat < S64x512.size a)
instance k1_chk844.dec : ∀ (v1722 : IVec S16 32) (v1838 : IVec S16 32), Decidable (k1_chk844 v1722 v1838) := fun v1722 v1838 => decidable_of_iff' _ (Iff.of_eq (k1_chk844.eq_1 v1722 v1838))
theorem k1_idx844_inb : ∀ (v1722 : IVec S16 32) (v1838 : IVec S16 32) (k1_hw844 : k1_chk844 v1722 v1838), ∀ a x, ((![v1838, v1722] : Fin 2 → IVec S16 32) a x).toNat < S64x512.size a := fun v1722 v1838 k1_hw844 => k1_hw844

def k1_chk845 (v1722 : IVec S16 32) (v1842 : IVec S16 32) : Prop :=
  (∀ a x, ((![v1722, v1842] : Fin 2 → IVec S16 32) a x).toNat < S512x128.size a)
instance k1_chk845.dec : ∀ (v1722 : IVec S16 32) (v1842 : IVec S16 32), Decidable (k1_chk845 v1722 v1842) := fun v1722 v1842 => decidable_of_iff' _ (Iff.of_eq (k1_chk845.eq_1 v1722 v1842))
theorem k1_idx845_inb : ∀ (v1722 : IVec S16 32) (v1842 : IVec S16 32) (k1_hw845 : k1_chk845 v1722 v1842), ∀ a x, ((![v1722, v1842] : Fin 2 → IVec S16 32) a x).toNat < S512x128.size a := fun v1722 v1842 k1_hw845 => k1_hw845

def k1_chk846 (v1722 : IVec S16 32) (v1841 : IVec S16 32) : Prop :=
  (∀ a x, ((![v1841, v1722] : Fin 2 → IVec S16 32) a x).toNat < S64x512.size a)
instance k1_chk846.dec : ∀ (v1722 : IVec S16 32) (v1841 : IVec S16 32), Decidable (k1_chk846 v1722 v1841) := fun v1722 v1841 => decidable_of_iff' _ (Iff.of_eq (k1_chk846.eq_1 v1722 v1841))
theorem k1_idx846_inb : ∀ (v1722 : IVec S16 32) (v1841 : IVec S16 32) (k1_hw846 : k1_chk846 v1722 v1841), ∀ a x, ((![v1841, v1722] : Fin 2 → IVec S16 32) a x).toNat < S64x512.size a := fun v1722 v1841 k1_hw846 => k1_hw846

def k1_chk847 (v1722 : IVec S16 32) (v1845 : IVec S16 32) : Prop :=
  (∀ a x, ((![v1722, v1845] : Fin 2 → IVec S16 32) a x).toNat < S512x128.size a)
instance k1_chk847.dec : ∀ (v1722 : IVec S16 32) (v1845 : IVec S16 32), Decidable (k1_chk847 v1722 v1845) := fun v1722 v1845 => decidable_of_iff' _ (Iff.of_eq (k1_chk847.eq_1 v1722 v1845))
theorem k1_idx847_inb : ∀ (v1722 : IVec S16 32) (v1845 : IVec S16 32) (k1_hw847 : k1_chk847 v1722 v1845), ∀ a x, ((![v1722, v1845] : Fin 2 → IVec S16 32) a x).toNat < S512x128.size a := fun v1722 v1845 k1_hw847 => k1_hw847

def k1_chk848 (v1722 : IVec S16 32) (v1844 : IVec S16 32) : Prop :=
  (∀ a x, ((![v1844, v1722] : Fin 2 → IVec S16 32) a x).toNat < S64x512.size a)
instance k1_chk848.dec : ∀ (v1722 : IVec S16 32) (v1844 : IVec S16 32), Decidable (k1_chk848 v1722 v1844) := fun v1722 v1844 => decidable_of_iff' _ (Iff.of_eq (k1_chk848.eq_1 v1722 v1844))
theorem k1_idx848_inb : ∀ (v1722 : IVec S16 32) (v1844 : IVec S16 32) (k1_hw848 : k1_chk848 v1722 v1844), ∀ a x, ((![v1844, v1722] : Fin 2 → IVec S16 32) a x).toNat < S64x512.size a := fun v1722 v1844 k1_hw848 => k1_hw848

def k1_chk849 (v1722 : IVec S16 32) (v1848 : IVec S16 32) : Prop :=
  (∀ a x, ((![v1722, v1848] : Fin 2 → IVec S16 32) a x).toNat < S512x128.size a)
instance k1_chk849.dec : ∀ (v1722 : IVec S16 32) (v1848 : IVec S16 32), Decidable (k1_chk849 v1722 v1848) := fun v1722 v1848 => decidable_of_iff' _ (Iff.of_eq (k1_chk849.eq_1 v1722 v1848))
theorem k1_idx849_inb : ∀ (v1722 : IVec S16 32) (v1848 : IVec S16 32) (k1_hw849 : k1_chk849 v1722 v1848), ∀ a x, ((![v1722, v1848] : Fin 2 → IVec S16 32) a x).toNat < S512x128.size a := fun v1722 v1848 k1_hw849 => k1_hw849

def k1_chk850 (v1722 : IVec S16 32) (v1847 : IVec S16 32) : Prop :=
  (∀ a x, ((![v1847, v1722] : Fin 2 → IVec S16 32) a x).toNat < S64x512.size a)
instance k1_chk850.dec : ∀ (v1722 : IVec S16 32) (v1847 : IVec S16 32), Decidable (k1_chk850 v1722 v1847) := fun v1722 v1847 => decidable_of_iff' _ (Iff.of_eq (k1_chk850.eq_1 v1722 v1847))
theorem k1_idx850_inb : ∀ (v1722 : IVec S16 32) (v1847 : IVec S16 32) (k1_hw850 : k1_chk850 v1722 v1847), ∀ a x, ((![v1847, v1722] : Fin 2 → IVec S16 32) a x).toNat < S64x512.size a := fun v1722 v1847 k1_hw850 => k1_hw850

def k1_chk851 (v1722 : IVec S16 32) (v1851 : IVec S16 32) : Prop :=
  (∀ a x, ((![v1722, v1851] : Fin 2 → IVec S16 32) a x).toNat < S512x128.size a)
instance k1_chk851.dec : ∀ (v1722 : IVec S16 32) (v1851 : IVec S16 32), Decidable (k1_chk851 v1722 v1851) := fun v1722 v1851 => decidable_of_iff' _ (Iff.of_eq (k1_chk851.eq_1 v1722 v1851))
theorem k1_idx851_inb : ∀ (v1722 : IVec S16 32) (v1851 : IVec S16 32) (k1_hw851 : k1_chk851 v1722 v1851), ∀ a x, ((![v1722, v1851] : Fin 2 → IVec S16 32) a x).toNat < S512x128.size a := fun v1722 v1851 k1_hw851 => k1_hw851

def k1_chk852 (v1722 : IVec S16 32) (v1850 : IVec S16 32) : Prop :=
  (∀ a x, ((![v1850, v1722] : Fin 2 → IVec S16 32) a x).toNat < S64x512.size a)
instance k1_chk852.dec : ∀ (v1722 : IVec S16 32) (v1850 : IVec S16 32), Decidable (k1_chk852 v1722 v1850) := fun v1722 v1850 => decidable_of_iff' _ (Iff.of_eq (k1_chk852.eq_1 v1722 v1850))
theorem k1_idx852_inb : ∀ (v1722 : IVec S16 32) (v1850 : IVec S16 32) (k1_hw852 : k1_chk852 v1722 v1850), ∀ a x, ((![v1850, v1722] : Fin 2 → IVec S16 32) a x).toNat < S64x512.size a := fun v1722 v1850 k1_hw852 => k1_hw852

def k1_chk853 (v1722 : IVec S16 32) (v1854 : IVec S16 32) : Prop :=
  (∀ a x, ((![v1722, v1854] : Fin 2 → IVec S16 32) a x).toNat < S512x128.size a)
instance k1_chk853.dec : ∀ (v1722 : IVec S16 32) (v1854 : IVec S16 32), Decidable (k1_chk853 v1722 v1854) := fun v1722 v1854 => decidable_of_iff' _ (Iff.of_eq (k1_chk853.eq_1 v1722 v1854))
theorem k1_idx853_inb : ∀ (v1722 : IVec S16 32) (v1854 : IVec S16 32) (k1_hw853 : k1_chk853 v1722 v1854), ∀ a x, ((![v1722, v1854] : Fin 2 → IVec S16 32) a x).toNat < S512x128.size a := fun v1722 v1854 k1_hw853 => k1_hw853

def k1_chk854 (v1722 : IVec S16 32) (v1853 : IVec S16 32) : Prop :=
  (∀ a x, ((![v1853, v1722] : Fin 2 → IVec S16 32) a x).toNat < S64x512.size a)
instance k1_chk854.dec : ∀ (v1722 : IVec S16 32) (v1853 : IVec S16 32), Decidable (k1_chk854 v1722 v1853) := fun v1722 v1853 => decidable_of_iff' _ (Iff.of_eq (k1_chk854.eq_1 v1722 v1853))
theorem k1_idx854_inb : ∀ (v1722 : IVec S16 32) (v1853 : IVec S16 32) (k1_hw854 : k1_chk854 v1722 v1853), ∀ a x, ((![v1853, v1722] : Fin 2 → IVec S16 32) a x).toNat < S64x512.size a := fun v1722 v1853 k1_hw854 => k1_hw854

def k1_chk855 (v1722 : IVec S16 32) (v1857 : IVec S16 32) : Prop :=
  (∀ a x, ((![v1722, v1857] : Fin 2 → IVec S16 32) a x).toNat < S512x128.size a)
instance k1_chk855.dec : ∀ (v1722 : IVec S16 32) (v1857 : IVec S16 32), Decidable (k1_chk855 v1722 v1857) := fun v1722 v1857 => decidable_of_iff' _ (Iff.of_eq (k1_chk855.eq_1 v1722 v1857))
theorem k1_idx855_inb : ∀ (v1722 : IVec S16 32) (v1857 : IVec S16 32) (k1_hw855 : k1_chk855 v1722 v1857), ∀ a x, ((![v1722, v1857] : Fin 2 → IVec S16 32) a x).toNat < S512x128.size a := fun v1722 v1857 k1_hw855 => k1_hw855

def k1_chk856 (v1722 : IVec S16 32) (v1856 : IVec S16 32) : Prop :=
  (∀ a x, ((![v1856, v1722] : Fin 2 → IVec S16 32) a x).toNat < S64x512.size a)
instance k1_chk856.dec : ∀ (v1722 : IVec S16 32) (v1856 : IVec S16 32), Decidable (k1_chk856 v1722 v1856) := fun v1722 v1856 => decidable_of_iff' _ (Iff.of_eq (k1_chk856.eq_1 v1722 v1856))
theorem k1_idx856_inb : ∀ (v1722 : IVec S16 32) (v1856 : IVec S16 32) (k1_hw856 : k1_chk856 v1722 v1856), ∀ a x, ((![v1856, v1722] : Fin 2 → IVec S16 32) a x).toNat < S64x512.size a := fun v1722 v1856 k1_hw856 => k1_hw856

def k1_chk857 (v1722 : IVec S16 32) (v1860 : IVec S16 32) : Prop :=
  (∀ a x, ((![v1722, v1860] : Fin 2 → IVec S16 32) a x).toNat < S512x128.size a)
instance k1_chk857.dec : ∀ (v1722 : IVec S16 32) (v1860 : IVec S16 32), Decidable (k1_chk857 v1722 v1860) := fun v1722 v1860 => decidable_of_iff' _ (Iff.of_eq (k1_chk857.eq_1 v1722 v1860))
theorem k1_idx857_inb : ∀ (v1722 : IVec S16 32) (v1860 : IVec S16 32) (k1_hw857 : k1_chk857 v1722 v1860), ∀ a x, ((![v1722, v1860] : Fin 2 → IVec S16 32) a x).toNat < S512x128.size a := fun v1722 v1860 k1_hw857 => k1_hw857

def k1_chk858 (v1722 : IVec S16 32) (v1859 : IVec S16 32) : Prop :=
  (∀ a x, ((![v1859, v1722] : Fin 2 → IVec S16 32) a x).toNat < S64x512.size a)
instance k1_chk858.dec : ∀ (v1722 : IVec S16 32) (v1859 : IVec S16 32), Decidable (k1_chk858 v1722 v1859) := fun v1722 v1859 => decidable_of_iff' _ (Iff.of_eq (k1_chk858.eq_1 v1722 v1859))
theorem k1_idx858_inb : ∀ (v1722 : IVec S16 32) (v1859 : IVec S16 32) (k1_hw858 : k1_chk858 v1722 v1859), ∀ a x, ((![v1859, v1722] : Fin 2 → IVec S16 32) a x).toNat < S64x512.size a := fun v1722 v1859 k1_hw858 => k1_hw858

def k1_chk859 (v1722 : IVec S16 32) (v1863 : IVec S16 32) : Prop :=
  (∀ a x, ((![v1722, v1863] : Fin 2 → IVec S16 32) a x).toNat < S512x128.size a)
instance k1_chk859.dec : ∀ (v1722 : IVec S16 32) (v1863 : IVec S16 32), Decidable (k1_chk859 v1722 v1863) := fun v1722 v1863 => decidable_of_iff' _ (Iff.of_eq (k1_chk859.eq_1 v1722 v1863))
theorem k1_idx859_inb : ∀ (v1722 : IVec S16 32) (v1863 : IVec S16 32) (k1_hw859 : k1_chk859 v1722 v1863), ∀ a x, ((![v1722, v1863] : Fin 2 → IVec S16 32) a x).toNat < S512x128.size a := fun v1722 v1863 k1_hw859 => k1_hw859

def k1_chk860 (v1722 : IVec S16 32) (v1862 : IVec S16 32) : Prop :=
  (∀ a x, ((![v1862, v1722] : Fin 2 → IVec S16 32) a x).toNat < S64x512.size a)
instance k1_chk860.dec : ∀ (v1722 : IVec S16 32) (v1862 : IVec S16 32), Decidable (k1_chk860 v1722 v1862) := fun v1722 v1862 => decidable_of_iff' _ (Iff.of_eq (k1_chk860.eq_1 v1722 v1862))
theorem k1_idx860_inb : ∀ (v1722 : IVec S16 32) (v1862 : IVec S16 32) (k1_hw860 : k1_chk860 v1722 v1862), ∀ a x, ((![v1862, v1722] : Fin 2 → IVec S16 32) a x).toNat < S64x512.size a := fun v1722 v1862 k1_hw860 => k1_hw860

def k1_chk861 (v1722 : IVec S16 32) (v1866 : IVec S16 32) : Prop :=
  (∀ a x, ((![v1722, v1866] : Fin 2 → IVec S16 32) a x).toNat < S512x128.size a)
instance k1_chk861.dec : ∀ (v1722 : IVec S16 32) (v1866 : IVec S16 32), Decidable (k1_chk861 v1722 v1866) := fun v1722 v1866 => decidable_of_iff' _ (Iff.of_eq (k1_chk861.eq_1 v1722 v1866))
theorem k1_idx861_inb : ∀ (v1722 : IVec S16 32) (v1866 : IVec S16 32) (k1_hw861 : k1_chk861 v1722 v1866), ∀ a x, ((![v1722, v1866] : Fin 2 → IVec S16 32) a x).toNat < S512x128.size a := fun v1722 v1866 k1_hw861 => k1_hw861

def k1_chk862 (v1722 : IVec S16 32) (v1865 : IVec S16 32) : Prop :=
  (∀ a x, ((![v1865, v1722] : Fin 2 → IVec S16 32) a x).toNat < S64x512.size a)
instance k1_chk862.dec : ∀ (v1722 : IVec S16 32) (v1865 : IVec S16 32), Decidable (k1_chk862 v1722 v1865) := fun v1722 v1865 => decidable_of_iff' _ (Iff.of_eq (k1_chk862.eq_1 v1722 v1865))
theorem k1_idx862_inb : ∀ (v1722 : IVec S16 32) (v1865 : IVec S16 32) (k1_hw862 : k1_chk862 v1722 v1865), ∀ a x, ((![v1865, v1722] : Fin 2 → IVec S16 32) a x).toNat < S64x512.size a := fun v1722 v1865 k1_hw862 => k1_hw862

def k1_chk863 (v1722 : IVec S16 32) (v1869 : IVec S16 32) : Prop :=
  (∀ a x, ((![v1722, v1869] : Fin 2 → IVec S16 32) a x).toNat < S512x128.size a)
instance k1_chk863.dec : ∀ (v1722 : IVec S16 32) (v1869 : IVec S16 32), Decidable (k1_chk863 v1722 v1869) := fun v1722 v1869 => decidable_of_iff' _ (Iff.of_eq (k1_chk863.eq_1 v1722 v1869))
theorem k1_idx863_inb : ∀ (v1722 : IVec S16 32) (v1869 : IVec S16 32) (k1_hw863 : k1_chk863 v1722 v1869), ∀ a x, ((![v1722, v1869] : Fin 2 → IVec S16 32) a x).toNat < S512x128.size a := fun v1722 v1869 k1_hw863 => k1_hw863

def k1_chk864 (v1722 : IVec S16 32) (v1868 : IVec S16 32) : Prop :=
  (∀ a x, ((![v1868, v1722] : Fin 2 → IVec S16 32) a x).toNat < S64x512.size a)
instance k1_chk864.dec : ∀ (v1722 : IVec S16 32) (v1868 : IVec S16 32), Decidable (k1_chk864 v1722 v1868) := fun v1722 v1868 => decidable_of_iff' _ (Iff.of_eq (k1_chk864.eq_1 v1722 v1868))
theorem k1_idx864_inb : ∀ (v1722 : IVec S16 32) (v1868 : IVec S16 32) (k1_hw864 : k1_chk864 v1722 v1868), ∀ a x, ((![v1868, v1722] : Fin 2 → IVec S16 32) a x).toNat < S64x512.size a := fun v1722 v1868 k1_hw864 => k1_hw864

def k1_chk865 (v1722 : IVec S16 32) (v1872 : IVec S16 32) : Prop :=
  (∀ a x, ((![v1722, v1872] : Fin 2 → IVec S16 32) a x).toNat < S512x128.size a)
instance k1_chk865.dec : ∀ (v1722 : IVec S16 32) (v1872 : IVec S16 32), Decidable (k1_chk865 v1722 v1872) := fun v1722 v1872 => decidable_of_iff' _ (Iff.of_eq (k1_chk865.eq_1 v1722 v1872))
theorem k1_idx865_inb : ∀ (v1722 : IVec S16 32) (v1872 : IVec S16 32) (k1_hw865 : k1_chk865 v1722 v1872), ∀ a x, ((![v1722, v1872] : Fin 2 → IVec S16 32) a x).toNat < S512x128.size a := fun v1722 v1872 k1_hw865 => k1_hw865

def k1_chk866 (v1722 : IVec S16 32) (v1871 : IVec S16 32) : Prop :=
  (∀ a x, ((![v1871, v1722] : Fin 2 → IVec S16 32) a x).toNat < S64x512.size a)
instance k1_chk866.dec : ∀ (v1722 : IVec S16 32) (v1871 : IVec S16 32), Decidable (k1_chk866 v1722 v1871) := fun v1722 v1871 => decidable_of_iff' _ (Iff.of_eq (k1_chk866.eq_1 v1722 v1871))
theorem k1_idx866_inb : ∀ (v1722 : IVec S16 32) (v1871 : IVec S16 32) (k1_hw866 : k1_chk866 v1722 v1871), ∀ a x, ((![v1871, v1722] : Fin 2 → IVec S16 32) a x).toNat < S64x512.size a := fun v1722 v1871 k1_hw866 => k1_hw866

def k1_chk867 (v1722 : IVec S16 32) (v1875 : IVec S16 32) : Prop :=
  (∀ a x, ((![v1722, v1875] : Fin 2 → IVec S16 32) a x).toNat < S512x128.size a)
instance k1_chk867.dec : ∀ (v1722 : IVec S16 32) (v1875 : IVec S16 32), Decidable (k1_chk867 v1722 v1875) := fun v1722 v1875 => decidable_of_iff' _ (Iff.of_eq (k1_chk867.eq_1 v1722 v1875))
theorem k1_idx867_inb : ∀ (v1722 : IVec S16 32) (v1875 : IVec S16 32) (k1_hw867 : k1_chk867 v1722 v1875), ∀ a x, ((![v1722, v1875] : Fin 2 → IVec S16 32) a x).toNat < S512x128.size a := fun v1722 v1875 k1_hw867 => k1_hw867

def k1_chk868 (v1722 : IVec S16 32) (v1874 : IVec S16 32) : Prop :=
  (∀ a x, ((![v1874, v1722] : Fin 2 → IVec S16 32) a x).toNat < S64x512.size a)
instance k1_chk868.dec : ∀ (v1722 : IVec S16 32) (v1874 : IVec S16 32), Decidable (k1_chk868 v1722 v1874) := fun v1722 v1874 => decidable_of_iff' _ (Iff.of_eq (k1_chk868.eq_1 v1722 v1874))
theorem k1_idx868_inb : ∀ (v1722 : IVec S16 32) (v1874 : IVec S16 32) (k1_hw868 : k1_chk868 v1722 v1874), ∀ a x, ((![v1874, v1722] : Fin 2 → IVec S16 32) a x).toNat < S64x512.size a := fun v1722 v1874 k1_hw868 => k1_hw868

def k1_chk869 (v1722 : IVec S16 32) (v1878 : IVec S16 32) : Prop :=
  (∀ a x, ((![v1722, v1878] : Fin 2 → IVec S16 32) a x).toNat < S512x128.size a)
instance k1_chk869.dec : ∀ (v1722 : IVec S16 32) (v1878 : IVec S16 32), Decidable (k1_chk869 v1722 v1878) := fun v1722 v1878 => decidable_of_iff' _ (Iff.of_eq (k1_chk869.eq_1 v1722 v1878))
theorem k1_idx869_inb : ∀ (v1722 : IVec S16 32) (v1878 : IVec S16 32) (k1_hw869 : k1_chk869 v1722 v1878), ∀ a x, ((![v1722, v1878] : Fin 2 → IVec S16 32) a x).toNat < S512x128.size a := fun v1722 v1878 k1_hw869 => k1_hw869

def k1_chk870 (v1722 : IVec S16 32) (v1877 : IVec S16 32) : Prop :=
  (∀ a x, ((![v1877, v1722] : Fin 2 → IVec S16 32) a x).toNat < S64x512.size a)
instance k1_chk870.dec : ∀ (v1722 : IVec S16 32) (v1877 : IVec S16 32), Decidable (k1_chk870 v1722 v1877) := fun v1722 v1877 => decidable_of_iff' _ (Iff.of_eq (k1_chk870.eq_1 v1722 v1877))
theorem k1_idx870_inb : ∀ (v1722 : IVec S16 32) (v1877 : IVec S16 32) (k1_hw870 : k1_chk870 v1722 v1877), ∀ a x, ((![v1877, v1722] : Fin 2 → IVec S16 32) a x).toNat < S64x512.size a := fun v1722 v1877 k1_hw870 => k1_hw870

def k1_chk871 (v1722 : IVec S16 32) (v1881 : IVec S16 32) : Prop :=
  (∀ a x, ((![v1722, v1881] : Fin 2 → IVec S16 32) a x).toNat < S512x128.size a)
instance k1_chk871.dec : ∀ (v1722 : IVec S16 32) (v1881 : IVec S16 32), Decidable (k1_chk871 v1722 v1881) := fun v1722 v1881 => decidable_of_iff' _ (Iff.of_eq (k1_chk871.eq_1 v1722 v1881))
theorem k1_idx871_inb : ∀ (v1722 : IVec S16 32) (v1881 : IVec S16 32) (k1_hw871 : k1_chk871 v1722 v1881), ∀ a x, ((![v1722, v1881] : Fin 2 → IVec S16 32) a x).toNat < S512x128.size a := fun v1722 v1881 k1_hw871 => k1_hw871

def k1_chk872 (v1722 : IVec S16 32) (v1880 : IVec S16 32) : Prop :=
  (∀ a x, ((![v1880, v1722] : Fin 2 → IVec S16 32) a x).toNat < S64x512.size a)
instance k1_chk872.dec : ∀ (v1722 : IVec S16 32) (v1880 : IVec S16 32), Decidable (k1_chk872 v1722 v1880) := fun v1722 v1880 => decidable_of_iff' _ (Iff.of_eq (k1_chk872.eq_1 v1722 v1880))
theorem k1_idx872_inb : ∀ (v1722 : IVec S16 32) (v1880 : IVec S16 32) (k1_hw872 : k1_chk872 v1722 v1880), ∀ a x, ((![v1880, v1722] : Fin 2 → IVec S16 32) a x).toNat < S64x512.size a := fun v1722 v1880 k1_hw872 => k1_hw872

def k1_chk873 (v1722 : IVec S16 32) (v1884 : IVec S16 32) : Prop :=
  (∀ a x, ((![v1722, v1884] : Fin 2 → IVec S16 32) a x).toNat < S512x128.size a)
instance k1_chk873.dec : ∀ (v1722 : IVec S16 32) (v1884 : IVec S16 32), Decidable (k1_chk873 v1722 v1884) := fun v1722 v1884 => decidable_of_iff' _ (Iff.of_eq (k1_chk873.eq_1 v1722 v1884))
theorem k1_idx873_inb : ∀ (v1722 : IVec S16 32) (v1884 : IVec S16 32) (k1_hw873 : k1_chk873 v1722 v1884), ∀ a x, ((![v1722, v1884] : Fin 2 → IVec S16 32) a x).toNat < S512x128.size a := fun v1722 v1884 k1_hw873 => k1_hw873

def k1_chk874 (v1722 : IVec S16 32) (v1883 : IVec S16 32) : Prop :=
  (∀ a x, ((![v1883, v1722] : Fin 2 → IVec S16 32) a x).toNat < S64x512.size a)
instance k1_chk874.dec : ∀ (v1722 : IVec S16 32) (v1883 : IVec S16 32), Decidable (k1_chk874 v1722 v1883) := fun v1722 v1883 => decidable_of_iff' _ (Iff.of_eq (k1_chk874.eq_1 v1722 v1883))
theorem k1_idx874_inb : ∀ (v1722 : IVec S16 32) (v1883 : IVec S16 32) (k1_hw874 : k1_chk874 v1722 v1883), ∀ a x, ((![v1883, v1722] : Fin 2 → IVec S16 32) a x).toNat < S64x512.size a := fun v1722 v1883 k1_hw874 => k1_hw874

def k1_chk875 (v1722 : IVec S16 32) (v1887 : IVec S16 32) : Prop :=
  (∀ a x, ((![v1722, v1887] : Fin 2 → IVec S16 32) a x).toNat < S512x128.size a)
instance k1_chk875.dec : ∀ (v1722 : IVec S16 32) (v1887 : IVec S16 32), Decidable (k1_chk875 v1722 v1887) := fun v1722 v1887 => decidable_of_iff' _ (Iff.of_eq (k1_chk875.eq_1 v1722 v1887))
theorem k1_idx875_inb : ∀ (v1722 : IVec S16 32) (v1887 : IVec S16 32) (k1_hw875 : k1_chk875 v1722 v1887), ∀ a x, ((![v1722, v1887] : Fin 2 → IVec S16 32) a x).toNat < S512x128.size a := fun v1722 v1887 k1_hw875 => k1_hw875

def k1_chk876 (v1722 : IVec S16 32) (v1886 : IVec S16 32) : Prop :=
  (∀ a x, ((![v1886, v1722] : Fin 2 → IVec S16 32) a x).toNat < S64x512.size a)
instance k1_chk876.dec : ∀ (v1722 : IVec S16 32) (v1886 : IVec S16 32), Decidable (k1_chk876 v1722 v1886) := fun v1722 v1886 => decidable_of_iff' _ (Iff.of_eq (k1_chk876.eq_1 v1722 v1886))
theorem k1_idx876_inb : ∀ (v1722 : IVec S16 32) (v1886 : IVec S16 32) (k1_hw876 : k1_chk876 v1722 v1886), ∀ a x, ((![v1886, v1722] : Fin 2 → IVec S16 32) a x).toNat < S64x512.size a := fun v1722 v1886 k1_hw876 => k1_hw876

def k1_chk877 (v1722 : IVec S16 32) (v1890 : IVec S16 32) : Prop :=
  (∀ a x, ((![v1722, v1890] : Fin 2 → IVec S16 32) a x).toNat < S512x128.size a)
instance k1_chk877.dec : ∀ (v1722 : IVec S16 32) (v1890 : IVec S16 32), Decidable (k1_chk877 v1722 v1890) := fun v1722 v1890 => decidable_of_iff' _ (Iff.of_eq (k1_chk877.eq_1 v1722 v1890))
theorem k1_idx877_inb : ∀ (v1722 : IVec S16 32) (v1890 : IVec S16 32) (k1_hw877 : k1_chk877 v1722 v1890), ∀ a x, ((![v1722, v1890] : Fin 2 → IVec S16 32) a x).toNat < S512x128.size a := fun v1722 v1890 k1_hw877 => k1_hw877

def k1_chk878 (v1722 : IVec S16 32) (v1889 : IVec S16 32) : Prop :=
  (∀ a x, ((![v1889, v1722] : Fin 2 → IVec S16 32) a x).toNat < S64x512.size a)
instance k1_chk878.dec : ∀ (v1722 : IVec S16 32) (v1889 : IVec S16 32), Decidable (k1_chk878 v1722 v1889) := fun v1722 v1889 => decidable_of_iff' _ (Iff.of_eq (k1_chk878.eq_1 v1722 v1889))
theorem k1_idx878_inb : ∀ (v1722 : IVec S16 32) (v1889 : IVec S16 32) (k1_hw878 : k1_chk878 v1722 v1889), ∀ a x, ((![v1889, v1722] : Fin 2 → IVec S16 32) a x).toNat < S64x512.size a := fun v1722 v1889 k1_hw878 => k1_hw878

def k1_chk879 (v1722 : IVec S16 32) (v1893 : IVec S16 32) : Prop :=
  (∀ a x, ((![v1722, v1893] : Fin 2 → IVec S16 32) a x).toNat < S512x128.size a)
instance k1_chk879.dec : ∀ (v1722 : IVec S16 32) (v1893 : IVec S16 32), Decidable (k1_chk879 v1722 v1893) := fun v1722 v1893 => decidable_of_iff' _ (Iff.of_eq (k1_chk879.eq_1 v1722 v1893))
theorem k1_idx879_inb : ∀ (v1722 : IVec S16 32) (v1893 : IVec S16 32) (k1_hw879 : k1_chk879 v1722 v1893), ∀ a x, ((![v1722, v1893] : Fin 2 → IVec S16 32) a x).toNat < S512x128.size a := fun v1722 v1893 k1_hw879 => k1_hw879

def k1_chk880 (v1722 : IVec S16 32) (v1892 : IVec S16 32) : Prop :=
  (∀ a x, ((![v1892, v1722] : Fin 2 → IVec S16 32) a x).toNat < S64x512.size a)
instance k1_chk880.dec : ∀ (v1722 : IVec S16 32) (v1892 : IVec S16 32), Decidable (k1_chk880 v1722 v1892) := fun v1722 v1892 => decidable_of_iff' _ (Iff.of_eq (k1_chk880.eq_1 v1722 v1892))
theorem k1_idx880_inb : ∀ (v1722 : IVec S16 32) (v1892 : IVec S16 32) (k1_hw880 : k1_chk880 v1722 v1892), ∀ a x, ((![v1892, v1722] : Fin 2 → IVec S16 32) a x).toNat < S64x512.size a := fun v1722 v1892 k1_hw880 => k1_hw880

def k1_chk881 (v1722 : IVec S16 32) (v1896 : IVec S16 32) : Prop :=
  (∀ a x, ((![v1722, v1896] : Fin 2 → IVec S16 32) a x).toNat < S512x128.size a)
instance k1_chk881.dec : ∀ (v1722 : IVec S16 32) (v1896 : IVec S16 32), Decidable (k1_chk881 v1722 v1896) := fun v1722 v1896 => decidable_of_iff' _ (Iff.of_eq (k1_chk881.eq_1 v1722 v1896))
theorem k1_idx881_inb : ∀ (v1722 : IVec S16 32) (v1896 : IVec S16 32) (k1_hw881 : k1_chk881 v1722 v1896), ∀ a x, ((![v1722, v1896] : Fin 2 → IVec S16 32) a x).toNat < S512x128.size a := fun v1722 v1896 k1_hw881 => k1_hw881

def k1_chk882 (v1722 : IVec S16 32) (v1895 : IVec S16 32) : Prop :=
  (∀ a x, ((![v1895, v1722] : Fin 2 → IVec S16 32) a x).toNat < S64x512.size a)
instance k1_chk882.dec : ∀ (v1722 : IVec S16 32) (v1895 : IVec S16 32), Decidable (k1_chk882 v1722 v1895) := fun v1722 v1895 => decidable_of_iff' _ (Iff.of_eq (k1_chk882.eq_1 v1722 v1895))
theorem k1_idx882_inb : ∀ (v1722 : IVec S16 32) (v1895 : IVec S16 32) (k1_hw882 : k1_chk882 v1722 v1895), ∀ a x, ((![v1895, v1722] : Fin 2 → IVec S16 32) a x).toNat < S64x512.size a := fun v1722 v1895 k1_hw882 => k1_hw882

def k1_chk883 (v1722 : IVec S16 32) (v1899 : IVec S16 32) : Prop :=
  (∀ a x, ((![v1722, v1899] : Fin 2 → IVec S16 32) a x).toNat < S512x128.size a)
instance k1_chk883.dec : ∀ (v1722 : IVec S16 32) (v1899 : IVec S16 32), Decidable (k1_chk883 v1722 v1899) := fun v1722 v1899 => decidable_of_iff' _ (Iff.of_eq (k1_chk883.eq_1 v1722 v1899))
theorem k1_idx883_inb : ∀ (v1722 : IVec S16 32) (v1899 : IVec S16 32) (k1_hw883 : k1_chk883 v1722 v1899), ∀ a x, ((![v1722, v1899] : Fin 2 → IVec S16 32) a x).toNat < S512x128.size a := fun v1722 v1899 k1_hw883 => k1_hw883

def k1_chk884 (v1722 : IVec S16 32) (v1898 : IVec S16 32) : Prop :=
  (∀ a x, ((![v1898, v1722] : Fin 2 → IVec S16 32) a x).toNat < S64x512.size a)
instance k1_chk884.dec : ∀ (v1722 : IVec S16 32) (v1898 : IVec S16 32), Decidable (k1_chk884 v1722 v1898) := fun v1722 v1898 => decidable_of_iff' _ (Iff.of_eq (k1_chk884.eq_1 v1722 v1898))
theorem k1_idx884_inb : ∀ (v1722 : IVec S16 32) (v1898 : IVec S16 32) (k1_hw884 : k1_chk884 v1722 v1898), ∀ a x, ((![v1898, v1722] : Fin 2 → IVec S16 32) a x).toNat < S64x512.size a := fun v1722 v1898 k1_hw884 => k1_hw884

def k1_chk885 (v1722 : IVec S16 32) (v1902 : IVec S16 32) : Prop :=
  (∀ a x, ((![v1722, v1902] : Fin 2 → IVec S16 32) a x).toNat < S512x128.size a)
instance k1_chk885.dec : ∀ (v1722 : IVec S16 32) (v1902 : IVec S16 32), Decidable (k1_chk885 v1722 v1902) := fun v1722 v1902 => decidable_of_iff' _ (Iff.of_eq (k1_chk885.eq_1 v1722 v1902))
theorem k1_idx885_inb : ∀ (v1722 : IVec S16 32) (v1902 : IVec S16 32) (k1_hw885 : k1_chk885 v1722 v1902), ∀ a x, ((![v1722, v1902] : Fin 2 → IVec S16 32) a x).toNat < S512x128.size a := fun v1722 v1902 k1_hw885 => k1_hw885

def k1_chk886 (v1722 : IVec S16 32) (v1901 : IVec S16 32) : Prop :=
  (∀ a x, ((![v1901, v1722] : Fin 2 → IVec S16 32) a x).toNat < S64x512.size a)
instance k1_chk886.dec : ∀ (v1722 : IVec S16 32) (v1901 : IVec S16 32), Decidable (k1_chk886 v1722 v1901) := fun v1722 v1901 => decidable_of_iff' _ (Iff.of_eq (k1_chk886.eq_1 v1722 v1901))
theorem k1_idx886_inb : ∀ (v1722 : IVec S16 32) (v1901 : IVec S16 32) (k1_hw886 : k1_chk886 v1722 v1901), ∀ a x, ((![v1901, v1722] : Fin 2 → IVec S16 32) a x).toNat < S64x512.size a := fun v1722 v1901 k1_hw886 => k1_hw886

def k1_chk887 (v1722 : IVec S16 32) (v1905 : IVec S16 32) : Prop :=
  (∀ a x, ((![v1722, v1905] : Fin 2 → IVec S16 32) a x).toNat < S512x128.size a)
instance k1_chk887.dec : ∀ (v1722 : IVec S16 32) (v1905 : IVec S16 32), Decidable (k1_chk887 v1722 v1905) := fun v1722 v1905 => decidable_of_iff' _ (Iff.of_eq (k1_chk887.eq_1 v1722 v1905))
theorem k1_idx887_inb : ∀ (v1722 : IVec S16 32) (v1905 : IVec S16 32) (k1_hw887 : k1_chk887 v1722 v1905), ∀ a x, ((![v1722, v1905] : Fin 2 → IVec S16 32) a x).toNat < S512x128.size a := fun v1722 v1905 k1_hw887 => k1_hw887

def k1_chk888 (v1722 : IVec S16 32) (v1904 : IVec S16 32) : Prop :=
  (∀ a x, ((![v1904, v1722] : Fin 2 → IVec S16 32) a x).toNat < S64x512.size a)
instance k1_chk888.dec : ∀ (v1722 : IVec S16 32) (v1904 : IVec S16 32), Decidable (k1_chk888 v1722 v1904) := fun v1722 v1904 => decidable_of_iff' _ (Iff.of_eq (k1_chk888.eq_1 v1722 v1904))
theorem k1_idx888_inb : ∀ (v1722 : IVec S16 32) (v1904 : IVec S16 32) (k1_hw888 : k1_chk888 v1722 v1904), ∀ a x, ((![v1904, v1722] : Fin 2 → IVec S16 32) a x).toNat < S64x512.size a := fun v1722 v1904 k1_hw888 => k1_hw888

def k1_chk889 (v1722 : IVec S16 32) (v1908 : IVec S16 32) : Prop :=
  (∀ a x, ((![v1722, v1908] : Fin 2 → IVec S16 32) a x).toNat < S512x128.size a)
instance k1_chk889.dec : ∀ (v1722 : IVec S16 32) (v1908 : IVec S16 32), Decidable (k1_chk889 v1722 v1908) := fun v1722 v1908 => decidable_of_iff' _ (Iff.of_eq (k1_chk889.eq_1 v1722 v1908))
theorem k1_idx889_inb : ∀ (v1722 : IVec S16 32) (v1908 : IVec S16 32) (k1_hw889 : k1_chk889 v1722 v1908), ∀ a x, ((![v1722, v1908] : Fin 2 → IVec S16 32) a x).toNat < S512x128.size a := fun v1722 v1908 k1_hw889 => k1_hw889

def k1_chk890 (v1722 : IVec S16 32) (v1907 : IVec S16 32) : Prop :=
  (∀ a x, ((![v1907, v1722] : Fin 2 → IVec S16 32) a x).toNat < S64x512.size a)
instance k1_chk890.dec : ∀ (v1722 : IVec S16 32) (v1907 : IVec S16 32), Decidable (k1_chk890 v1722 v1907) := fun v1722 v1907 => decidable_of_iff' _ (Iff.of_eq (k1_chk890.eq_1 v1722 v1907))
theorem k1_idx890_inb : ∀ (v1722 : IVec S16 32) (v1907 : IVec S16 32) (k1_hw890 : k1_chk890 v1722 v1907), ∀ a x, ((![v1907, v1722] : Fin 2 → IVec S16 32) a x).toNat < S64x512.size a := fun v1722 v1907 k1_hw890 => k1_hw890

def k1_chk891 (v1722 : IVec S16 32) (v1911 : IVec S16 32) : Prop :=
  (∀ a x, ((![v1722, v1911] : Fin 2 → IVec S16 32) a x).toNat < S512x128.size a)
instance k1_chk891.dec : ∀ (v1722 : IVec S16 32) (v1911 : IVec S16 32), Decidable (k1_chk891 v1722 v1911) := fun v1722 v1911 => decidable_of_iff' _ (Iff.of_eq (k1_chk891.eq_1 v1722 v1911))
theorem k1_idx891_inb : ∀ (v1722 : IVec S16 32) (v1911 : IVec S16 32) (k1_hw891 : k1_chk891 v1722 v1911), ∀ a x, ((![v1722, v1911] : Fin 2 → IVec S16 32) a x).toNat < S512x128.size a := fun v1722 v1911 k1_hw891 => k1_hw891

def k1_chk892 (v1722 : IVec S16 32) (v1910 : IVec S16 32) : Prop :=
  (∀ a x, ((![v1910, v1722] : Fin 2 → IVec S16 32) a x).toNat < S64x512.size a)
instance k1_chk892.dec : ∀ (v1722 : IVec S16 32) (v1910 : IVec S16 32), Decidable (k1_chk892 v1722 v1910) := fun v1722 v1910 => decidable_of_iff' _ (Iff.of_eq (k1_chk892.eq_1 v1722 v1910))
theorem k1_idx892_inb : ∀ (v1722 : IVec S16 32) (v1910 : IVec S16 32) (k1_hw892 : k1_chk892 v1722 v1910), ∀ a x, ((![v1910, v1722] : Fin 2 → IVec S16 32) a x).toNat < S64x512.size a := fun v1722 v1910 k1_hw892 => k1_hw892

def k1_chk893 (v1722 : IVec S16 32) (v1914 : IVec S16 32) : Prop :=
  (∀ a x, ((![v1722, v1914] : Fin 2 → IVec S16 32) a x).toNat < S512x128.size a)
instance k1_chk893.dec : ∀ (v1722 : IVec S16 32) (v1914 : IVec S16 32), Decidable (k1_chk893 v1722 v1914) := fun v1722 v1914 => decidable_of_iff' _ (Iff.of_eq (k1_chk893.eq_1 v1722 v1914))
theorem k1_idx893_inb : ∀ (v1722 : IVec S16 32) (v1914 : IVec S16 32) (k1_hw893 : k1_chk893 v1722 v1914), ∀ a x, ((![v1722, v1914] : Fin 2 → IVec S16 32) a x).toNat < S512x128.size a := fun v1722 v1914 k1_hw893 => k1_hw893

def k1_chk894 (v1722 : IVec S16 32) (v1913 : IVec S16 32) : Prop :=
  (∀ a x, ((![v1913, v1722] : Fin 2 → IVec S16 32) a x).toNat < S64x512.size a)
instance k1_chk894.dec : ∀ (v1722 : IVec S16 32) (v1913 : IVec S16 32), Decidable (k1_chk894 v1722 v1913) := fun v1722 v1913 => decidable_of_iff' _ (Iff.of_eq (k1_chk894.eq_1 v1722 v1913))
theorem k1_idx894_inb : ∀ (v1722 : IVec S16 32) (v1913 : IVec S16 32) (k1_hw894 : k1_chk894 v1722 v1913), ∀ a x, ((![v1913, v1722] : Fin 2 → IVec S16 32) a x).toNat < S64x512.size a := fun v1722 v1913 k1_hw894 => k1_hw894

def k1_chk895 (v1722 : IVec S16 32) (v1917 : IVec S16 32) : Prop :=
  (∀ a x, ((![v1722, v1917] : Fin 2 → IVec S16 32) a x).toNat < S512x128.size a)
instance k1_chk895.dec : ∀ (v1722 : IVec S16 32) (v1917 : IVec S16 32), Decidable (k1_chk895 v1722 v1917) := fun v1722 v1917 => decidable_of_iff' _ (Iff.of_eq (k1_chk895.eq_1 v1722 v1917))
theorem k1_idx895_inb : ∀ (v1722 : IVec S16 32) (v1917 : IVec S16 32) (k1_hw895 : k1_chk895 v1722 v1917), ∀ a x, ((![v1722, v1917] : Fin 2 → IVec S16 32) a x).toNat < S512x128.size a := fun v1722 v1917 k1_hw895 => k1_hw895

def k1_chk896 (v1722 : IVec S16 32) (v1916 : IVec S16 32) : Prop :=
  (∀ a x, ((![v1916, v1722] : Fin 2 → IVec S16 32) a x).toNat < S64x512.size a)
instance k1_chk896.dec : ∀ (v1722 : IVec S16 32) (v1916 : IVec S16 32), Decidable (k1_chk896 v1722 v1916) := fun v1722 v1916 => decidable_of_iff' _ (Iff.of_eq (k1_chk896.eq_1 v1722 v1916))
theorem k1_idx896_inb : ∀ (v1722 : IVec S16 32) (v1916 : IVec S16 32) (k1_hw896 : k1_chk896 v1722 v1916), ∀ a x, ((![v1916, v1722] : Fin 2 → IVec S16 32) a x).toNat < S64x512.size a := fun v1722 v1916 k1_hw896 => k1_hw896
def k1_off9 (k1_t1 : Fin k1_t1_loop.trips) : Fin 1 → Nat :=
  let c0_i32_254 : BitVec 32 := 0#32
  let c1_i32_255 : BitVec 32 := 1#32
  let arg11 : BitVec 32 := Scf.iv c0_i32_254 c1_i32_255 k1_t1
  let c128_i32_673 : BitVec 32 := 128#32
  let v1923 : BitVec 32 := Scalar.muli arg11 c128_i32_673
  let c112_i32_674 : BitVec 32 := 112#32
  let v1924 : BitVec 32 := Scalar.addi v1923 c112_i32_674
  let v1925 : Index := Scalar.indexCast v1924
  ![v1925.toNat]

def k1_chk897 (v1922 : IVec S16 32) (v1928 : IVec S16 32) : Prop :=
  (∀ a x, ((![v1922, v1928] : Fin 2 → IVec S16 32) a x).toNat < S512x128.size a)
instance k1_chk897.dec : ∀ (v1922 : IVec S16 32) (v1928 : IVec S16 32), Decidable (k1_chk897 v1922 v1928) := fun v1922 v1928 => decidable_of_iff' _ (Iff.of_eq (k1_chk897.eq_1 v1922 v1928))
theorem k1_idx897_inb : ∀ (v1922 : IVec S16 32) (v1928 : IVec S16 32) (k1_hw897 : k1_chk897 v1922 v1928), ∀ a x, ((![v1922, v1928] : Fin 2 → IVec S16 32) a x).toNat < S512x128.size a := fun v1922 v1928 k1_hw897 => k1_hw897

def k1_chk898 (v1922 : IVec S16 32) (v1927 : IVec S16 32) : Prop :=
  (∀ a x, ((![v1927, v1922] : Fin 2 → IVec S16 32) a x).toNat < S64x512.size a)
instance k1_chk898.dec : ∀ (v1922 : IVec S16 32) (v1927 : IVec S16 32), Decidable (k1_chk898 v1922 v1927) := fun v1922 v1927 => decidable_of_iff' _ (Iff.of_eq (k1_chk898.eq_1 v1922 v1927))
theorem k1_idx898_inb : ∀ (v1922 : IVec S16 32) (v1927 : IVec S16 32) (k1_hw898 : k1_chk898 v1922 v1927), ∀ a x, ((![v1927, v1922] : Fin 2 → IVec S16 32) a x).toNat < S64x512.size a := fun v1922 v1927 k1_hw898 => k1_hw898

def k1_chk899 (v1922 : IVec S16 32) (v1931 : IVec S16 32) : Prop :=
  (∀ a x, ((![v1922, v1931] : Fin 2 → IVec S16 32) a x).toNat < S512x128.size a)
instance k1_chk899.dec : ∀ (v1922 : IVec S16 32) (v1931 : IVec S16 32), Decidable (k1_chk899 v1922 v1931) := fun v1922 v1931 => decidable_of_iff' _ (Iff.of_eq (k1_chk899.eq_1 v1922 v1931))
theorem k1_idx899_inb : ∀ (v1922 : IVec S16 32) (v1931 : IVec S16 32) (k1_hw899 : k1_chk899 v1922 v1931), ∀ a x, ((![v1922, v1931] : Fin 2 → IVec S16 32) a x).toNat < S512x128.size a := fun v1922 v1931 k1_hw899 => k1_hw899

def k1_chk900 (v1922 : IVec S16 32) (v1930 : IVec S16 32) : Prop :=
  (∀ a x, ((![v1930, v1922] : Fin 2 → IVec S16 32) a x).toNat < S64x512.size a)
instance k1_chk900.dec : ∀ (v1922 : IVec S16 32) (v1930 : IVec S16 32), Decidable (k1_chk900 v1922 v1930) := fun v1922 v1930 => decidable_of_iff' _ (Iff.of_eq (k1_chk900.eq_1 v1922 v1930))
theorem k1_idx900_inb : ∀ (v1922 : IVec S16 32) (v1930 : IVec S16 32) (k1_hw900 : k1_chk900 v1922 v1930), ∀ a x, ((![v1930, v1922] : Fin 2 → IVec S16 32) a x).toNat < S64x512.size a := fun v1922 v1930 k1_hw900 => k1_hw900

def k1_chk901 (v1922 : IVec S16 32) (v1934 : IVec S16 32) : Prop :=
  (∀ a x, ((![v1922, v1934] : Fin 2 → IVec S16 32) a x).toNat < S512x128.size a)
instance k1_chk901.dec : ∀ (v1922 : IVec S16 32) (v1934 : IVec S16 32), Decidable (k1_chk901 v1922 v1934) := fun v1922 v1934 => decidable_of_iff' _ (Iff.of_eq (k1_chk901.eq_1 v1922 v1934))
theorem k1_idx901_inb : ∀ (v1922 : IVec S16 32) (v1934 : IVec S16 32) (k1_hw901 : k1_chk901 v1922 v1934), ∀ a x, ((![v1922, v1934] : Fin 2 → IVec S16 32) a x).toNat < S512x128.size a := fun v1922 v1934 k1_hw901 => k1_hw901

def k1_chk902 (v1922 : IVec S16 32) (v1933 : IVec S16 32) : Prop :=
  (∀ a x, ((![v1933, v1922] : Fin 2 → IVec S16 32) a x).toNat < S64x512.size a)
instance k1_chk902.dec : ∀ (v1922 : IVec S16 32) (v1933 : IVec S16 32), Decidable (k1_chk902 v1922 v1933) := fun v1922 v1933 => decidable_of_iff' _ (Iff.of_eq (k1_chk902.eq_1 v1922 v1933))
theorem k1_idx902_inb : ∀ (v1922 : IVec S16 32) (v1933 : IVec S16 32) (k1_hw902 : k1_chk902 v1922 v1933), ∀ a x, ((![v1933, v1922] : Fin 2 → IVec S16 32) a x).toNat < S64x512.size a := fun v1922 v1933 k1_hw902 => k1_hw902

def k1_chk903 (v1922 : IVec S16 32) (v1937 : IVec S16 32) : Prop :=
  (∀ a x, ((![v1922, v1937] : Fin 2 → IVec S16 32) a x).toNat < S512x128.size a)
instance k1_chk903.dec : ∀ (v1922 : IVec S16 32) (v1937 : IVec S16 32), Decidable (k1_chk903 v1922 v1937) := fun v1922 v1937 => decidable_of_iff' _ (Iff.of_eq (k1_chk903.eq_1 v1922 v1937))
theorem k1_idx903_inb : ∀ (v1922 : IVec S16 32) (v1937 : IVec S16 32) (k1_hw903 : k1_chk903 v1922 v1937), ∀ a x, ((![v1922, v1937] : Fin 2 → IVec S16 32) a x).toNat < S512x128.size a := fun v1922 v1937 k1_hw903 => k1_hw903

def k1_chk904 (v1922 : IVec S16 32) (v1936 : IVec S16 32) : Prop :=
  (∀ a x, ((![v1936, v1922] : Fin 2 → IVec S16 32) a x).toNat < S64x512.size a)
instance k1_chk904.dec : ∀ (v1922 : IVec S16 32) (v1936 : IVec S16 32), Decidable (k1_chk904 v1922 v1936) := fun v1922 v1936 => decidable_of_iff' _ (Iff.of_eq (k1_chk904.eq_1 v1922 v1936))
theorem k1_idx904_inb : ∀ (v1922 : IVec S16 32) (v1936 : IVec S16 32) (k1_hw904 : k1_chk904 v1922 v1936), ∀ a x, ((![v1936, v1922] : Fin 2 → IVec S16 32) a x).toNat < S64x512.size a := fun v1922 v1936 k1_hw904 => k1_hw904

def k1_chk905 (v1922 : IVec S16 32) (v1940 : IVec S16 32) : Prop :=
  (∀ a x, ((![v1922, v1940] : Fin 2 → IVec S16 32) a x).toNat < S512x128.size a)
instance k1_chk905.dec : ∀ (v1922 : IVec S16 32) (v1940 : IVec S16 32), Decidable (k1_chk905 v1922 v1940) := fun v1922 v1940 => decidable_of_iff' _ (Iff.of_eq (k1_chk905.eq_1 v1922 v1940))
theorem k1_idx905_inb : ∀ (v1922 : IVec S16 32) (v1940 : IVec S16 32) (k1_hw905 : k1_chk905 v1922 v1940), ∀ a x, ((![v1922, v1940] : Fin 2 → IVec S16 32) a x).toNat < S512x128.size a := fun v1922 v1940 k1_hw905 => k1_hw905

def k1_chk906 (v1922 : IVec S16 32) (v1939 : IVec S16 32) : Prop :=
  (∀ a x, ((![v1939, v1922] : Fin 2 → IVec S16 32) a x).toNat < S64x512.size a)
instance k1_chk906.dec : ∀ (v1922 : IVec S16 32) (v1939 : IVec S16 32), Decidable (k1_chk906 v1922 v1939) := fun v1922 v1939 => decidable_of_iff' _ (Iff.of_eq (k1_chk906.eq_1 v1922 v1939))
theorem k1_idx906_inb : ∀ (v1922 : IVec S16 32) (v1939 : IVec S16 32) (k1_hw906 : k1_chk906 v1922 v1939), ∀ a x, ((![v1939, v1922] : Fin 2 → IVec S16 32) a x).toNat < S64x512.size a := fun v1922 v1939 k1_hw906 => k1_hw906

def k1_chk907 (v1922 : IVec S16 32) (v1943 : IVec S16 32) : Prop :=
  (∀ a x, ((![v1922, v1943] : Fin 2 → IVec S16 32) a x).toNat < S512x128.size a)
instance k1_chk907.dec : ∀ (v1922 : IVec S16 32) (v1943 : IVec S16 32), Decidable (k1_chk907 v1922 v1943) := fun v1922 v1943 => decidable_of_iff' _ (Iff.of_eq (k1_chk907.eq_1 v1922 v1943))
theorem k1_idx907_inb : ∀ (v1922 : IVec S16 32) (v1943 : IVec S16 32) (k1_hw907 : k1_chk907 v1922 v1943), ∀ a x, ((![v1922, v1943] : Fin 2 → IVec S16 32) a x).toNat < S512x128.size a := fun v1922 v1943 k1_hw907 => k1_hw907

def k1_chk908 (v1922 : IVec S16 32) (v1942 : IVec S16 32) : Prop :=
  (∀ a x, ((![v1942, v1922] : Fin 2 → IVec S16 32) a x).toNat < S64x512.size a)
instance k1_chk908.dec : ∀ (v1922 : IVec S16 32) (v1942 : IVec S16 32), Decidable (k1_chk908 v1922 v1942) := fun v1922 v1942 => decidable_of_iff' _ (Iff.of_eq (k1_chk908.eq_1 v1922 v1942))
theorem k1_idx908_inb : ∀ (v1922 : IVec S16 32) (v1942 : IVec S16 32) (k1_hw908 : k1_chk908 v1922 v1942), ∀ a x, ((![v1942, v1922] : Fin 2 → IVec S16 32) a x).toNat < S64x512.size a := fun v1922 v1942 k1_hw908 => k1_hw908

def k1_chk909 (v1922 : IVec S16 32) (v1946 : IVec S16 32) : Prop :=
  (∀ a x, ((![v1922, v1946] : Fin 2 → IVec S16 32) a x).toNat < S512x128.size a)
instance k1_chk909.dec : ∀ (v1922 : IVec S16 32) (v1946 : IVec S16 32), Decidable (k1_chk909 v1922 v1946) := fun v1922 v1946 => decidable_of_iff' _ (Iff.of_eq (k1_chk909.eq_1 v1922 v1946))
theorem k1_idx909_inb : ∀ (v1922 : IVec S16 32) (v1946 : IVec S16 32) (k1_hw909 : k1_chk909 v1922 v1946), ∀ a x, ((![v1922, v1946] : Fin 2 → IVec S16 32) a x).toNat < S512x128.size a := fun v1922 v1946 k1_hw909 => k1_hw909

def k1_chk910 (v1922 : IVec S16 32) (v1945 : IVec S16 32) : Prop :=
  (∀ a x, ((![v1945, v1922] : Fin 2 → IVec S16 32) a x).toNat < S64x512.size a)
instance k1_chk910.dec : ∀ (v1922 : IVec S16 32) (v1945 : IVec S16 32), Decidable (k1_chk910 v1922 v1945) := fun v1922 v1945 => decidable_of_iff' _ (Iff.of_eq (k1_chk910.eq_1 v1922 v1945))
theorem k1_idx910_inb : ∀ (v1922 : IVec S16 32) (v1945 : IVec S16 32) (k1_hw910 : k1_chk910 v1922 v1945), ∀ a x, ((![v1945, v1922] : Fin 2 → IVec S16 32) a x).toNat < S64x512.size a := fun v1922 v1945 k1_hw910 => k1_hw910

def k1_chk911 (v1922 : IVec S16 32) (v1949 : IVec S16 32) : Prop :=
  (∀ a x, ((![v1922, v1949] : Fin 2 → IVec S16 32) a x).toNat < S512x128.size a)
instance k1_chk911.dec : ∀ (v1922 : IVec S16 32) (v1949 : IVec S16 32), Decidable (k1_chk911 v1922 v1949) := fun v1922 v1949 => decidable_of_iff' _ (Iff.of_eq (k1_chk911.eq_1 v1922 v1949))
theorem k1_idx911_inb : ∀ (v1922 : IVec S16 32) (v1949 : IVec S16 32) (k1_hw911 : k1_chk911 v1922 v1949), ∀ a x, ((![v1922, v1949] : Fin 2 → IVec S16 32) a x).toNat < S512x128.size a := fun v1922 v1949 k1_hw911 => k1_hw911

def k1_chk912 (v1922 : IVec S16 32) (v1948 : IVec S16 32) : Prop :=
  (∀ a x, ((![v1948, v1922] : Fin 2 → IVec S16 32) a x).toNat < S64x512.size a)
instance k1_chk912.dec : ∀ (v1922 : IVec S16 32) (v1948 : IVec S16 32), Decidable (k1_chk912 v1922 v1948) := fun v1922 v1948 => decidable_of_iff' _ (Iff.of_eq (k1_chk912.eq_1 v1922 v1948))
theorem k1_idx912_inb : ∀ (v1922 : IVec S16 32) (v1948 : IVec S16 32) (k1_hw912 : k1_chk912 v1922 v1948), ∀ a x, ((![v1948, v1922] : Fin 2 → IVec S16 32) a x).toNat < S64x512.size a := fun v1922 v1948 k1_hw912 => k1_hw912

def k1_chk913 (v1922 : IVec S16 32) (v1952 : IVec S16 32) : Prop :=
  (∀ a x, ((![v1922, v1952] : Fin 2 → IVec S16 32) a x).toNat < S512x128.size a)
instance k1_chk913.dec : ∀ (v1922 : IVec S16 32) (v1952 : IVec S16 32), Decidable (k1_chk913 v1922 v1952) := fun v1922 v1952 => decidable_of_iff' _ (Iff.of_eq (k1_chk913.eq_1 v1922 v1952))
theorem k1_idx913_inb : ∀ (v1922 : IVec S16 32) (v1952 : IVec S16 32) (k1_hw913 : k1_chk913 v1922 v1952), ∀ a x, ((![v1922, v1952] : Fin 2 → IVec S16 32) a x).toNat < S512x128.size a := fun v1922 v1952 k1_hw913 => k1_hw913

def k1_chk914 (v1922 : IVec S16 32) (v1951 : IVec S16 32) : Prop :=
  (∀ a x, ((![v1951, v1922] : Fin 2 → IVec S16 32) a x).toNat < S64x512.size a)
instance k1_chk914.dec : ∀ (v1922 : IVec S16 32) (v1951 : IVec S16 32), Decidable (k1_chk914 v1922 v1951) := fun v1922 v1951 => decidable_of_iff' _ (Iff.of_eq (k1_chk914.eq_1 v1922 v1951))
theorem k1_idx914_inb : ∀ (v1922 : IVec S16 32) (v1951 : IVec S16 32) (k1_hw914 : k1_chk914 v1922 v1951), ∀ a x, ((![v1951, v1922] : Fin 2 → IVec S16 32) a x).toNat < S64x512.size a := fun v1922 v1951 k1_hw914 => k1_hw914

def k1_chk915 (v1922 : IVec S16 32) (v1955 : IVec S16 32) : Prop :=
  (∀ a x, ((![v1922, v1955] : Fin 2 → IVec S16 32) a x).toNat < S512x128.size a)
instance k1_chk915.dec : ∀ (v1922 : IVec S16 32) (v1955 : IVec S16 32), Decidable (k1_chk915 v1922 v1955) := fun v1922 v1955 => decidable_of_iff' _ (Iff.of_eq (k1_chk915.eq_1 v1922 v1955))
theorem k1_idx915_inb : ∀ (v1922 : IVec S16 32) (v1955 : IVec S16 32) (k1_hw915 : k1_chk915 v1922 v1955), ∀ a x, ((![v1922, v1955] : Fin 2 → IVec S16 32) a x).toNat < S512x128.size a := fun v1922 v1955 k1_hw915 => k1_hw915

def k1_chk916 (v1922 : IVec S16 32) (v1954 : IVec S16 32) : Prop :=
  (∀ a x, ((![v1954, v1922] : Fin 2 → IVec S16 32) a x).toNat < S64x512.size a)
instance k1_chk916.dec : ∀ (v1922 : IVec S16 32) (v1954 : IVec S16 32), Decidable (k1_chk916 v1922 v1954) := fun v1922 v1954 => decidable_of_iff' _ (Iff.of_eq (k1_chk916.eq_1 v1922 v1954))
theorem k1_idx916_inb : ∀ (v1922 : IVec S16 32) (v1954 : IVec S16 32) (k1_hw916 : k1_chk916 v1922 v1954), ∀ a x, ((![v1954, v1922] : Fin 2 → IVec S16 32) a x).toNat < S64x512.size a := fun v1922 v1954 k1_hw916 => k1_hw916

def k1_chk917 (v1922 : IVec S16 32) (v1958 : IVec S16 32) : Prop :=
  (∀ a x, ((![v1922, v1958] : Fin 2 → IVec S16 32) a x).toNat < S512x128.size a)
instance k1_chk917.dec : ∀ (v1922 : IVec S16 32) (v1958 : IVec S16 32), Decidable (k1_chk917 v1922 v1958) := fun v1922 v1958 => decidable_of_iff' _ (Iff.of_eq (k1_chk917.eq_1 v1922 v1958))
theorem k1_idx917_inb : ∀ (v1922 : IVec S16 32) (v1958 : IVec S16 32) (k1_hw917 : k1_chk917 v1922 v1958), ∀ a x, ((![v1922, v1958] : Fin 2 → IVec S16 32) a x).toNat < S512x128.size a := fun v1922 v1958 k1_hw917 => k1_hw917

def k1_chk918 (v1922 : IVec S16 32) (v1957 : IVec S16 32) : Prop :=
  (∀ a x, ((![v1957, v1922] : Fin 2 → IVec S16 32) a x).toNat < S64x512.size a)
instance k1_chk918.dec : ∀ (v1922 : IVec S16 32) (v1957 : IVec S16 32), Decidable (k1_chk918 v1922 v1957) := fun v1922 v1957 => decidable_of_iff' _ (Iff.of_eq (k1_chk918.eq_1 v1922 v1957))
theorem k1_idx918_inb : ∀ (v1922 : IVec S16 32) (v1957 : IVec S16 32) (k1_hw918 : k1_chk918 v1922 v1957), ∀ a x, ((![v1957, v1922] : Fin 2 → IVec S16 32) a x).toNat < S64x512.size a := fun v1922 v1957 k1_hw918 => k1_hw918

def k1_chk919 (v1922 : IVec S16 32) (v1961 : IVec S16 32) : Prop :=
  (∀ a x, ((![v1922, v1961] : Fin 2 → IVec S16 32) a x).toNat < S512x128.size a)
instance k1_chk919.dec : ∀ (v1922 : IVec S16 32) (v1961 : IVec S16 32), Decidable (k1_chk919 v1922 v1961) := fun v1922 v1961 => decidable_of_iff' _ (Iff.of_eq (k1_chk919.eq_1 v1922 v1961))
theorem k1_idx919_inb : ∀ (v1922 : IVec S16 32) (v1961 : IVec S16 32) (k1_hw919 : k1_chk919 v1922 v1961), ∀ a x, ((![v1922, v1961] : Fin 2 → IVec S16 32) a x).toNat < S512x128.size a := fun v1922 v1961 k1_hw919 => k1_hw919

def k1_chk920 (v1922 : IVec S16 32) (v1960 : IVec S16 32) : Prop :=
  (∀ a x, ((![v1960, v1922] : Fin 2 → IVec S16 32) a x).toNat < S64x512.size a)
instance k1_chk920.dec : ∀ (v1922 : IVec S16 32) (v1960 : IVec S16 32), Decidable (k1_chk920 v1922 v1960) := fun v1922 v1960 => decidable_of_iff' _ (Iff.of_eq (k1_chk920.eq_1 v1922 v1960))
theorem k1_idx920_inb : ∀ (v1922 : IVec S16 32) (v1960 : IVec S16 32) (k1_hw920 : k1_chk920 v1922 v1960), ∀ a x, ((![v1960, v1922] : Fin 2 → IVec S16 32) a x).toNat < S64x512.size a := fun v1922 v1960 k1_hw920 => k1_hw920

def k1_chk921 (v1922 : IVec S16 32) (v1964 : IVec S16 32) : Prop :=
  (∀ a x, ((![v1922, v1964] : Fin 2 → IVec S16 32) a x).toNat < S512x128.size a)
instance k1_chk921.dec : ∀ (v1922 : IVec S16 32) (v1964 : IVec S16 32), Decidable (k1_chk921 v1922 v1964) := fun v1922 v1964 => decidable_of_iff' _ (Iff.of_eq (k1_chk921.eq_1 v1922 v1964))
theorem k1_idx921_inb : ∀ (v1922 : IVec S16 32) (v1964 : IVec S16 32) (k1_hw921 : k1_chk921 v1922 v1964), ∀ a x, ((![v1922, v1964] : Fin 2 → IVec S16 32) a x).toNat < S512x128.size a := fun v1922 v1964 k1_hw921 => k1_hw921

def k1_chk922 (v1922 : IVec S16 32) (v1963 : IVec S16 32) : Prop :=
  (∀ a x, ((![v1963, v1922] : Fin 2 → IVec S16 32) a x).toNat < S64x512.size a)
instance k1_chk922.dec : ∀ (v1922 : IVec S16 32) (v1963 : IVec S16 32), Decidable (k1_chk922 v1922 v1963) := fun v1922 v1963 => decidable_of_iff' _ (Iff.of_eq (k1_chk922.eq_1 v1922 v1963))
theorem k1_idx922_inb : ∀ (v1922 : IVec S16 32) (v1963 : IVec S16 32) (k1_hw922 : k1_chk922 v1922 v1963), ∀ a x, ((![v1963, v1922] : Fin 2 → IVec S16 32) a x).toNat < S64x512.size a := fun v1922 v1963 k1_hw922 => k1_hw922

def k1_chk923 (v1922 : IVec S16 32) (v1967 : IVec S16 32) : Prop :=
  (∀ a x, ((![v1922, v1967] : Fin 2 → IVec S16 32) a x).toNat < S512x128.size a)
instance k1_chk923.dec : ∀ (v1922 : IVec S16 32) (v1967 : IVec S16 32), Decidable (k1_chk923 v1922 v1967) := fun v1922 v1967 => decidable_of_iff' _ (Iff.of_eq (k1_chk923.eq_1 v1922 v1967))
theorem k1_idx923_inb : ∀ (v1922 : IVec S16 32) (v1967 : IVec S16 32) (k1_hw923 : k1_chk923 v1922 v1967), ∀ a x, ((![v1922, v1967] : Fin 2 → IVec S16 32) a x).toNat < S512x128.size a := fun v1922 v1967 k1_hw923 => k1_hw923

def k1_chk924 (v1922 : IVec S16 32) (v1966 : IVec S16 32) : Prop :=
  (∀ a x, ((![v1966, v1922] : Fin 2 → IVec S16 32) a x).toNat < S64x512.size a)
instance k1_chk924.dec : ∀ (v1922 : IVec S16 32) (v1966 : IVec S16 32), Decidable (k1_chk924 v1922 v1966) := fun v1922 v1966 => decidable_of_iff' _ (Iff.of_eq (k1_chk924.eq_1 v1922 v1966))
theorem k1_idx924_inb : ∀ (v1922 : IVec S16 32) (v1966 : IVec S16 32) (k1_hw924 : k1_chk924 v1922 v1966), ∀ a x, ((![v1966, v1922] : Fin 2 → IVec S16 32) a x).toNat < S64x512.size a := fun v1922 v1966 k1_hw924 => k1_hw924

def k1_chk925 (v1922 : IVec S16 32) (v1970 : IVec S16 32) : Prop :=
  (∀ a x, ((![v1922, v1970] : Fin 2 → IVec S16 32) a x).toNat < S512x128.size a)
instance k1_chk925.dec : ∀ (v1922 : IVec S16 32) (v1970 : IVec S16 32), Decidable (k1_chk925 v1922 v1970) := fun v1922 v1970 => decidable_of_iff' _ (Iff.of_eq (k1_chk925.eq_1 v1922 v1970))
theorem k1_idx925_inb : ∀ (v1922 : IVec S16 32) (v1970 : IVec S16 32) (k1_hw925 : k1_chk925 v1922 v1970), ∀ a x, ((![v1922, v1970] : Fin 2 → IVec S16 32) a x).toNat < S512x128.size a := fun v1922 v1970 k1_hw925 => k1_hw925

def k1_chk926 (v1922 : IVec S16 32) (v1969 : IVec S16 32) : Prop :=
  (∀ a x, ((![v1969, v1922] : Fin 2 → IVec S16 32) a x).toNat < S64x512.size a)
instance k1_chk926.dec : ∀ (v1922 : IVec S16 32) (v1969 : IVec S16 32), Decidable (k1_chk926 v1922 v1969) := fun v1922 v1969 => decidable_of_iff' _ (Iff.of_eq (k1_chk926.eq_1 v1922 v1969))
theorem k1_idx926_inb : ∀ (v1922 : IVec S16 32) (v1969 : IVec S16 32) (k1_hw926 : k1_chk926 v1922 v1969), ∀ a x, ((![v1969, v1922] : Fin 2 → IVec S16 32) a x).toNat < S64x512.size a := fun v1922 v1969 k1_hw926 => k1_hw926

def k1_chk927 (v1922 : IVec S16 32) (v1973 : IVec S16 32) : Prop :=
  (∀ a x, ((![v1922, v1973] : Fin 2 → IVec S16 32) a x).toNat < S512x128.size a)
instance k1_chk927.dec : ∀ (v1922 : IVec S16 32) (v1973 : IVec S16 32), Decidable (k1_chk927 v1922 v1973) := fun v1922 v1973 => decidable_of_iff' _ (Iff.of_eq (k1_chk927.eq_1 v1922 v1973))
theorem k1_idx927_inb : ∀ (v1922 : IVec S16 32) (v1973 : IVec S16 32) (k1_hw927 : k1_chk927 v1922 v1973), ∀ a x, ((![v1922, v1973] : Fin 2 → IVec S16 32) a x).toNat < S512x128.size a := fun v1922 v1973 k1_hw927 => k1_hw927

def k1_chk928 (v1922 : IVec S16 32) (v1972 : IVec S16 32) : Prop :=
  (∀ a x, ((![v1972, v1922] : Fin 2 → IVec S16 32) a x).toNat < S64x512.size a)
instance k1_chk928.dec : ∀ (v1922 : IVec S16 32) (v1972 : IVec S16 32), Decidable (k1_chk928 v1922 v1972) := fun v1922 v1972 => decidable_of_iff' _ (Iff.of_eq (k1_chk928.eq_1 v1922 v1972))
theorem k1_idx928_inb : ∀ (v1922 : IVec S16 32) (v1972 : IVec S16 32) (k1_hw928 : k1_chk928 v1922 v1972), ∀ a x, ((![v1972, v1922] : Fin 2 → IVec S16 32) a x).toNat < S64x512.size a := fun v1922 v1972 k1_hw928 => k1_hw928

def k1_chk929 (v1922 : IVec S16 32) (v1976 : IVec S16 32) : Prop :=
  (∀ a x, ((![v1922, v1976] : Fin 2 → IVec S16 32) a x).toNat < S512x128.size a)
instance k1_chk929.dec : ∀ (v1922 : IVec S16 32) (v1976 : IVec S16 32), Decidable (k1_chk929 v1922 v1976) := fun v1922 v1976 => decidable_of_iff' _ (Iff.of_eq (k1_chk929.eq_1 v1922 v1976))
theorem k1_idx929_inb : ∀ (v1922 : IVec S16 32) (v1976 : IVec S16 32) (k1_hw929 : k1_chk929 v1922 v1976), ∀ a x, ((![v1922, v1976] : Fin 2 → IVec S16 32) a x).toNat < S512x128.size a := fun v1922 v1976 k1_hw929 => k1_hw929

def k1_chk930 (v1922 : IVec S16 32) (v1975 : IVec S16 32) : Prop :=
  (∀ a x, ((![v1975, v1922] : Fin 2 → IVec S16 32) a x).toNat < S64x512.size a)
instance k1_chk930.dec : ∀ (v1922 : IVec S16 32) (v1975 : IVec S16 32), Decidable (k1_chk930 v1922 v1975) := fun v1922 v1975 => decidable_of_iff' _ (Iff.of_eq (k1_chk930.eq_1 v1922 v1975))
theorem k1_idx930_inb : ∀ (v1922 : IVec S16 32) (v1975 : IVec S16 32) (k1_hw930 : k1_chk930 v1922 v1975), ∀ a x, ((![v1975, v1922] : Fin 2 → IVec S16 32) a x).toNat < S64x512.size a := fun v1922 v1975 k1_hw930 => k1_hw930

def k1_chk931 (v1922 : IVec S16 32) (v1979 : IVec S16 32) : Prop :=
  (∀ a x, ((![v1922, v1979] : Fin 2 → IVec S16 32) a x).toNat < S512x128.size a)
instance k1_chk931.dec : ∀ (v1922 : IVec S16 32) (v1979 : IVec S16 32), Decidable (k1_chk931 v1922 v1979) := fun v1922 v1979 => decidable_of_iff' _ (Iff.of_eq (k1_chk931.eq_1 v1922 v1979))
theorem k1_idx931_inb : ∀ (v1922 : IVec S16 32) (v1979 : IVec S16 32) (k1_hw931 : k1_chk931 v1922 v1979), ∀ a x, ((![v1922, v1979] : Fin 2 → IVec S16 32) a x).toNat < S512x128.size a := fun v1922 v1979 k1_hw931 => k1_hw931

def k1_chk932 (v1922 : IVec S16 32) (v1978 : IVec S16 32) : Prop :=
  (∀ a x, ((![v1978, v1922] : Fin 2 → IVec S16 32) a x).toNat < S64x512.size a)
instance k1_chk932.dec : ∀ (v1922 : IVec S16 32) (v1978 : IVec S16 32), Decidable (k1_chk932 v1922 v1978) := fun v1922 v1978 => decidable_of_iff' _ (Iff.of_eq (k1_chk932.eq_1 v1922 v1978))
theorem k1_idx932_inb : ∀ (v1922 : IVec S16 32) (v1978 : IVec S16 32) (k1_hw932 : k1_chk932 v1922 v1978), ∀ a x, ((![v1978, v1922] : Fin 2 → IVec S16 32) a x).toNat < S64x512.size a := fun v1922 v1978 k1_hw932 => k1_hw932

def k1_chk933 (v1922 : IVec S16 32) (v1982 : IVec S16 32) : Prop :=
  (∀ a x, ((![v1922, v1982] : Fin 2 → IVec S16 32) a x).toNat < S512x128.size a)
instance k1_chk933.dec : ∀ (v1922 : IVec S16 32) (v1982 : IVec S16 32), Decidable (k1_chk933 v1922 v1982) := fun v1922 v1982 => decidable_of_iff' _ (Iff.of_eq (k1_chk933.eq_1 v1922 v1982))
theorem k1_idx933_inb : ∀ (v1922 : IVec S16 32) (v1982 : IVec S16 32) (k1_hw933 : k1_chk933 v1922 v1982), ∀ a x, ((![v1922, v1982] : Fin 2 → IVec S16 32) a x).toNat < S512x128.size a := fun v1922 v1982 k1_hw933 => k1_hw933

def k1_chk934 (v1922 : IVec S16 32) (v1981 : IVec S16 32) : Prop :=
  (∀ a x, ((![v1981, v1922] : Fin 2 → IVec S16 32) a x).toNat < S64x512.size a)
instance k1_chk934.dec : ∀ (v1922 : IVec S16 32) (v1981 : IVec S16 32), Decidable (k1_chk934 v1922 v1981) := fun v1922 v1981 => decidable_of_iff' _ (Iff.of_eq (k1_chk934.eq_1 v1922 v1981))
theorem k1_idx934_inb : ∀ (v1922 : IVec S16 32) (v1981 : IVec S16 32) (k1_hw934 : k1_chk934 v1922 v1981), ∀ a x, ((![v1981, v1922] : Fin 2 → IVec S16 32) a x).toNat < S64x512.size a := fun v1922 v1981 k1_hw934 => k1_hw934

def k1_chk935 (v1922 : IVec S16 32) (v1985 : IVec S16 32) : Prop :=
  (∀ a x, ((![v1922, v1985] : Fin 2 → IVec S16 32) a x).toNat < S512x128.size a)
instance k1_chk935.dec : ∀ (v1922 : IVec S16 32) (v1985 : IVec S16 32), Decidable (k1_chk935 v1922 v1985) := fun v1922 v1985 => decidable_of_iff' _ (Iff.of_eq (k1_chk935.eq_1 v1922 v1985))
theorem k1_idx935_inb : ∀ (v1922 : IVec S16 32) (v1985 : IVec S16 32) (k1_hw935 : k1_chk935 v1922 v1985), ∀ a x, ((![v1922, v1985] : Fin 2 → IVec S16 32) a x).toNat < S512x128.size a := fun v1922 v1985 k1_hw935 => k1_hw935

def k1_chk936 (v1922 : IVec S16 32) (v1984 : IVec S16 32) : Prop :=
  (∀ a x, ((![v1984, v1922] : Fin 2 → IVec S16 32) a x).toNat < S64x512.size a)
instance k1_chk936.dec : ∀ (v1922 : IVec S16 32) (v1984 : IVec S16 32), Decidable (k1_chk936 v1922 v1984) := fun v1922 v1984 => decidable_of_iff' _ (Iff.of_eq (k1_chk936.eq_1 v1922 v1984))
theorem k1_idx936_inb : ∀ (v1922 : IVec S16 32) (v1984 : IVec S16 32) (k1_hw936 : k1_chk936 v1922 v1984), ∀ a x, ((![v1984, v1922] : Fin 2 → IVec S16 32) a x).toNat < S64x512.size a := fun v1922 v1984 k1_hw936 => k1_hw936

def k1_chk937 (v1922 : IVec S16 32) (v1988 : IVec S16 32) : Prop :=
  (∀ a x, ((![v1922, v1988] : Fin 2 → IVec S16 32) a x).toNat < S512x128.size a)
instance k1_chk937.dec : ∀ (v1922 : IVec S16 32) (v1988 : IVec S16 32), Decidable (k1_chk937 v1922 v1988) := fun v1922 v1988 => decidable_of_iff' _ (Iff.of_eq (k1_chk937.eq_1 v1922 v1988))
theorem k1_idx937_inb : ∀ (v1922 : IVec S16 32) (v1988 : IVec S16 32) (k1_hw937 : k1_chk937 v1922 v1988), ∀ a x, ((![v1922, v1988] : Fin 2 → IVec S16 32) a x).toNat < S512x128.size a := fun v1922 v1988 k1_hw937 => k1_hw937

def k1_chk938 (v1922 : IVec S16 32) (v1987 : IVec S16 32) : Prop :=
  (∀ a x, ((![v1987, v1922] : Fin 2 → IVec S16 32) a x).toNat < S64x512.size a)
instance k1_chk938.dec : ∀ (v1922 : IVec S16 32) (v1987 : IVec S16 32), Decidable (k1_chk938 v1922 v1987) := fun v1922 v1987 => decidable_of_iff' _ (Iff.of_eq (k1_chk938.eq_1 v1922 v1987))
theorem k1_idx938_inb : ∀ (v1922 : IVec S16 32) (v1987 : IVec S16 32) (k1_hw938 : k1_chk938 v1922 v1987), ∀ a x, ((![v1987, v1922] : Fin 2 → IVec S16 32) a x).toNat < S64x512.size a := fun v1922 v1987 k1_hw938 => k1_hw938

def k1_chk939 (v1922 : IVec S16 32) (v1991 : IVec S16 32) : Prop :=
  (∀ a x, ((![v1922, v1991] : Fin 2 → IVec S16 32) a x).toNat < S512x128.size a)
instance k1_chk939.dec : ∀ (v1922 : IVec S16 32) (v1991 : IVec S16 32), Decidable (k1_chk939 v1922 v1991) := fun v1922 v1991 => decidable_of_iff' _ (Iff.of_eq (k1_chk939.eq_1 v1922 v1991))
theorem k1_idx939_inb : ∀ (v1922 : IVec S16 32) (v1991 : IVec S16 32) (k1_hw939 : k1_chk939 v1922 v1991), ∀ a x, ((![v1922, v1991] : Fin 2 → IVec S16 32) a x).toNat < S512x128.size a := fun v1922 v1991 k1_hw939 => k1_hw939

def k1_chk940 (v1922 : IVec S16 32) (v1990 : IVec S16 32) : Prop :=
  (∀ a x, ((![v1990, v1922] : Fin 2 → IVec S16 32) a x).toNat < S64x512.size a)
instance k1_chk940.dec : ∀ (v1922 : IVec S16 32) (v1990 : IVec S16 32), Decidable (k1_chk940 v1922 v1990) := fun v1922 v1990 => decidable_of_iff' _ (Iff.of_eq (k1_chk940.eq_1 v1922 v1990))
theorem k1_idx940_inb : ∀ (v1922 : IVec S16 32) (v1990 : IVec S16 32) (k1_hw940 : k1_chk940 v1922 v1990), ∀ a x, ((![v1990, v1922] : Fin 2 → IVec S16 32) a x).toNat < S64x512.size a := fun v1922 v1990 k1_hw940 => k1_hw940

def k1_chk941 (v1922 : IVec S16 32) (v1994 : IVec S16 32) : Prop :=
  (∀ a x, ((![v1922, v1994] : Fin 2 → IVec S16 32) a x).toNat < S512x128.size a)
instance k1_chk941.dec : ∀ (v1922 : IVec S16 32) (v1994 : IVec S16 32), Decidable (k1_chk941 v1922 v1994) := fun v1922 v1994 => decidable_of_iff' _ (Iff.of_eq (k1_chk941.eq_1 v1922 v1994))
theorem k1_idx941_inb : ∀ (v1922 : IVec S16 32) (v1994 : IVec S16 32) (k1_hw941 : k1_chk941 v1922 v1994), ∀ a x, ((![v1922, v1994] : Fin 2 → IVec S16 32) a x).toNat < S512x128.size a := fun v1922 v1994 k1_hw941 => k1_hw941

def k1_chk942 (v1922 : IVec S16 32) (v1993 : IVec S16 32) : Prop :=
  (∀ a x, ((![v1993, v1922] : Fin 2 → IVec S16 32) a x).toNat < S64x512.size a)
instance k1_chk942.dec : ∀ (v1922 : IVec S16 32) (v1993 : IVec S16 32), Decidable (k1_chk942 v1922 v1993) := fun v1922 v1993 => decidable_of_iff' _ (Iff.of_eq (k1_chk942.eq_1 v1922 v1993))
theorem k1_idx942_inb : ∀ (v1922 : IVec S16 32) (v1993 : IVec S16 32) (k1_hw942 : k1_chk942 v1922 v1993), ∀ a x, ((![v1993, v1922] : Fin 2 → IVec S16 32) a x).toNat < S64x512.size a := fun v1922 v1993 k1_hw942 => k1_hw942

def k1_chk943 (v1922 : IVec S16 32) (v1997 : IVec S16 32) : Prop :=
  (∀ a x, ((![v1922, v1997] : Fin 2 → IVec S16 32) a x).toNat < S512x128.size a)
instance k1_chk943.dec : ∀ (v1922 : IVec S16 32) (v1997 : IVec S16 32), Decidable (k1_chk943 v1922 v1997) := fun v1922 v1997 => decidable_of_iff' _ (Iff.of_eq (k1_chk943.eq_1 v1922 v1997))
theorem k1_idx943_inb : ∀ (v1922 : IVec S16 32) (v1997 : IVec S16 32) (k1_hw943 : k1_chk943 v1922 v1997), ∀ a x, ((![v1922, v1997] : Fin 2 → IVec S16 32) a x).toNat < S512x128.size a := fun v1922 v1997 k1_hw943 => k1_hw943

def k1_chk944 (v1922 : IVec S16 32) (v1996 : IVec S16 32) : Prop :=
  (∀ a x, ((![v1996, v1922] : Fin 2 → IVec S16 32) a x).toNat < S64x512.size a)
instance k1_chk944.dec : ∀ (v1922 : IVec S16 32) (v1996 : IVec S16 32), Decidable (k1_chk944 v1922 v1996) := fun v1922 v1996 => decidable_of_iff' _ (Iff.of_eq (k1_chk944.eq_1 v1922 v1996))
theorem k1_idx944_inb : ∀ (v1922 : IVec S16 32) (v1996 : IVec S16 32) (k1_hw944 : k1_chk944 v1922 v1996), ∀ a x, ((![v1996, v1922] : Fin 2 → IVec S16 32) a x).toNat < S64x512.size a := fun v1922 v1996 k1_hw944 => k1_hw944

def k1_chk945 (v1922 : IVec S16 32) (v2000 : IVec S16 32) : Prop :=
  (∀ a x, ((![v1922, v2000] : Fin 2 → IVec S16 32) a x).toNat < S512x128.size a)
instance k1_chk945.dec : ∀ (v1922 : IVec S16 32) (v2000 : IVec S16 32), Decidable (k1_chk945 v1922 v2000) := fun v1922 v2000 => decidable_of_iff' _ (Iff.of_eq (k1_chk945.eq_1 v1922 v2000))
theorem k1_idx945_inb : ∀ (v1922 : IVec S16 32) (v2000 : IVec S16 32) (k1_hw945 : k1_chk945 v1922 v2000), ∀ a x, ((![v1922, v2000] : Fin 2 → IVec S16 32) a x).toNat < S512x128.size a := fun v1922 v2000 k1_hw945 => k1_hw945

def k1_chk946 (v1922 : IVec S16 32) (v1999 : IVec S16 32) : Prop :=
  (∀ a x, ((![v1999, v1922] : Fin 2 → IVec S16 32) a x).toNat < S64x512.size a)
instance k1_chk946.dec : ∀ (v1922 : IVec S16 32) (v1999 : IVec S16 32), Decidable (k1_chk946 v1922 v1999) := fun v1922 v1999 => decidable_of_iff' _ (Iff.of_eq (k1_chk946.eq_1 v1922 v1999))
theorem k1_idx946_inb : ∀ (v1922 : IVec S16 32) (v1999 : IVec S16 32) (k1_hw946 : k1_chk946 v1922 v1999), ∀ a x, ((![v1999, v1922] : Fin 2 → IVec S16 32) a x).toNat < S64x512.size a := fun v1922 v1999 k1_hw946 => k1_hw946

def k1_chk947 (v1922 : IVec S16 32) (v2003 : IVec S16 32) : Prop :=
  (∀ a x, ((![v1922, v2003] : Fin 2 → IVec S16 32) a x).toNat < S512x128.size a)
instance k1_chk947.dec : ∀ (v1922 : IVec S16 32) (v2003 : IVec S16 32), Decidable (k1_chk947 v1922 v2003) := fun v1922 v2003 => decidable_of_iff' _ (Iff.of_eq (k1_chk947.eq_1 v1922 v2003))
theorem k1_idx947_inb : ∀ (v1922 : IVec S16 32) (v2003 : IVec S16 32) (k1_hw947 : k1_chk947 v1922 v2003), ∀ a x, ((![v1922, v2003] : Fin 2 → IVec S16 32) a x).toNat < S512x128.size a := fun v1922 v2003 k1_hw947 => k1_hw947

def k1_chk948 (v1922 : IVec S16 32) (v2002 : IVec S16 32) : Prop :=
  (∀ a x, ((![v2002, v1922] : Fin 2 → IVec S16 32) a x).toNat < S64x512.size a)
instance k1_chk948.dec : ∀ (v1922 : IVec S16 32) (v2002 : IVec S16 32), Decidable (k1_chk948 v1922 v2002) := fun v1922 v2002 => decidable_of_iff' _ (Iff.of_eq (k1_chk948.eq_1 v1922 v2002))
theorem k1_idx948_inb : ∀ (v1922 : IVec S16 32) (v2002 : IVec S16 32) (k1_hw948 : k1_chk948 v1922 v2002), ∀ a x, ((![v2002, v1922] : Fin 2 → IVec S16 32) a x).toNat < S64x512.size a := fun v1922 v2002 k1_hw948 => k1_hw948

def k1_chk949 (v1922 : IVec S16 32) (v2006 : IVec S16 32) : Prop :=
  (∀ a x, ((![v1922, v2006] : Fin 2 → IVec S16 32) a x).toNat < S512x128.size a)
instance k1_chk949.dec : ∀ (v1922 : IVec S16 32) (v2006 : IVec S16 32), Decidable (k1_chk949 v1922 v2006) := fun v1922 v2006 => decidable_of_iff' _ (Iff.of_eq (k1_chk949.eq_1 v1922 v2006))
theorem k1_idx949_inb : ∀ (v1922 : IVec S16 32) (v2006 : IVec S16 32) (k1_hw949 : k1_chk949 v1922 v2006), ∀ a x, ((![v1922, v2006] : Fin 2 → IVec S16 32) a x).toNat < S512x128.size a := fun v1922 v2006 k1_hw949 => k1_hw949

def k1_chk950 (v1922 : IVec S16 32) (v2005 : IVec S16 32) : Prop :=
  (∀ a x, ((![v2005, v1922] : Fin 2 → IVec S16 32) a x).toNat < S64x512.size a)
instance k1_chk950.dec : ∀ (v1922 : IVec S16 32) (v2005 : IVec S16 32), Decidable (k1_chk950 v1922 v2005) := fun v1922 v2005 => decidable_of_iff' _ (Iff.of_eq (k1_chk950.eq_1 v1922 v2005))
theorem k1_idx950_inb : ∀ (v1922 : IVec S16 32) (v2005 : IVec S16 32) (k1_hw950 : k1_chk950 v1922 v2005), ∀ a x, ((![v2005, v1922] : Fin 2 → IVec S16 32) a x).toNat < S64x512.size a := fun v1922 v2005 k1_hw950 => k1_hw950

def k1_chk951 (v1922 : IVec S16 32) (v2009 : IVec S16 32) : Prop :=
  (∀ a x, ((![v1922, v2009] : Fin 2 → IVec S16 32) a x).toNat < S512x128.size a)
instance k1_chk951.dec : ∀ (v1922 : IVec S16 32) (v2009 : IVec S16 32), Decidable (k1_chk951 v1922 v2009) := fun v1922 v2009 => decidable_of_iff' _ (Iff.of_eq (k1_chk951.eq_1 v1922 v2009))
theorem k1_idx951_inb : ∀ (v1922 : IVec S16 32) (v2009 : IVec S16 32) (k1_hw951 : k1_chk951 v1922 v2009), ∀ a x, ((![v1922, v2009] : Fin 2 → IVec S16 32) a x).toNat < S512x128.size a := fun v1922 v2009 k1_hw951 => k1_hw951

def k1_chk952 (v1922 : IVec S16 32) (v2008 : IVec S16 32) : Prop :=
  (∀ a x, ((![v2008, v1922] : Fin 2 → IVec S16 32) a x).toNat < S64x512.size a)
instance k1_chk952.dec : ∀ (v1922 : IVec S16 32) (v2008 : IVec S16 32), Decidable (k1_chk952 v1922 v2008) := fun v1922 v2008 => decidable_of_iff' _ (Iff.of_eq (k1_chk952.eq_1 v1922 v2008))
theorem k1_idx952_inb : ∀ (v1922 : IVec S16 32) (v2008 : IVec S16 32) (k1_hw952 : k1_chk952 v1922 v2008), ∀ a x, ((![v2008, v1922] : Fin 2 → IVec S16 32) a x).toNat < S64x512.size a := fun v1922 v2008 k1_hw952 => k1_hw952

def k1_chk953 (v1922 : IVec S16 32) (v2012 : IVec S16 32) : Prop :=
  (∀ a x, ((![v1922, v2012] : Fin 2 → IVec S16 32) a x).toNat < S512x128.size a)
instance k1_chk953.dec : ∀ (v1922 : IVec S16 32) (v2012 : IVec S16 32), Decidable (k1_chk953 v1922 v2012) := fun v1922 v2012 => decidable_of_iff' _ (Iff.of_eq (k1_chk953.eq_1 v1922 v2012))
theorem k1_idx953_inb : ∀ (v1922 : IVec S16 32) (v2012 : IVec S16 32) (k1_hw953 : k1_chk953 v1922 v2012), ∀ a x, ((![v1922, v2012] : Fin 2 → IVec S16 32) a x).toNat < S512x128.size a := fun v1922 v2012 k1_hw953 => k1_hw953

def k1_chk954 (v1922 : IVec S16 32) (v2011 : IVec S16 32) : Prop :=
  (∀ a x, ((![v2011, v1922] : Fin 2 → IVec S16 32) a x).toNat < S64x512.size a)
instance k1_chk954.dec : ∀ (v1922 : IVec S16 32) (v2011 : IVec S16 32), Decidable (k1_chk954 v1922 v2011) := fun v1922 v2011 => decidable_of_iff' _ (Iff.of_eq (k1_chk954.eq_1 v1922 v2011))
theorem k1_idx954_inb : ∀ (v1922 : IVec S16 32) (v2011 : IVec S16 32) (k1_hw954 : k1_chk954 v1922 v2011), ∀ a x, ((![v2011, v1922] : Fin 2 → IVec S16 32) a x).toNat < S64x512.size a := fun v1922 v2011 k1_hw954 => k1_hw954

def k1_chk955 (v1922 : IVec S16 32) (v2015 : IVec S16 32) : Prop :=
  (∀ a x, ((![v1922, v2015] : Fin 2 → IVec S16 32) a x).toNat < S512x128.size a)
instance k1_chk955.dec : ∀ (v1922 : IVec S16 32) (v2015 : IVec S16 32), Decidable (k1_chk955 v1922 v2015) := fun v1922 v2015 => decidable_of_iff' _ (Iff.of_eq (k1_chk955.eq_1 v1922 v2015))
theorem k1_idx955_inb : ∀ (v1922 : IVec S16 32) (v2015 : IVec S16 32) (k1_hw955 : k1_chk955 v1922 v2015), ∀ a x, ((![v1922, v2015] : Fin 2 → IVec S16 32) a x).toNat < S512x128.size a := fun v1922 v2015 k1_hw955 => k1_hw955

def k1_chk956 (v1922 : IVec S16 32) (v2014 : IVec S16 32) : Prop :=
  (∀ a x, ((![v2014, v1922] : Fin 2 → IVec S16 32) a x).toNat < S64x512.size a)
instance k1_chk956.dec : ∀ (v1922 : IVec S16 32) (v2014 : IVec S16 32), Decidable (k1_chk956 v1922 v2014) := fun v1922 v2014 => decidable_of_iff' _ (Iff.of_eq (k1_chk956.eq_1 v1922 v2014))
theorem k1_idx956_inb : ∀ (v1922 : IVec S16 32) (v2014 : IVec S16 32) (k1_hw956 : k1_chk956 v1922 v2014), ∀ a x, ((![v2014, v1922] : Fin 2 → IVec S16 32) a x).toNat < S64x512.size a := fun v1922 v2014 k1_hw956 => k1_hw956

def k1_chk957 (v1922 : IVec S16 32) (v2018 : IVec S16 32) : Prop :=
  (∀ a x, ((![v1922, v2018] : Fin 2 → IVec S16 32) a x).toNat < S512x128.size a)
instance k1_chk957.dec : ∀ (v1922 : IVec S16 32) (v2018 : IVec S16 32), Decidable (k1_chk957 v1922 v2018) := fun v1922 v2018 => decidable_of_iff' _ (Iff.of_eq (k1_chk957.eq_1 v1922 v2018))
theorem k1_idx957_inb : ∀ (v1922 : IVec S16 32) (v2018 : IVec S16 32) (k1_hw957 : k1_chk957 v1922 v2018), ∀ a x, ((![v1922, v2018] : Fin 2 → IVec S16 32) a x).toNat < S512x128.size a := fun v1922 v2018 k1_hw957 => k1_hw957

def k1_chk958 (v1922 : IVec S16 32) (v2017 : IVec S16 32) : Prop :=
  (∀ a x, ((![v2017, v1922] : Fin 2 → IVec S16 32) a x).toNat < S64x512.size a)
instance k1_chk958.dec : ∀ (v1922 : IVec S16 32) (v2017 : IVec S16 32), Decidable (k1_chk958 v1922 v2017) := fun v1922 v2017 => decidable_of_iff' _ (Iff.of_eq (k1_chk958.eq_1 v1922 v2017))
theorem k1_idx958_inb : ∀ (v1922 : IVec S16 32) (v2017 : IVec S16 32) (k1_hw958 : k1_chk958 v1922 v2017), ∀ a x, ((![v2017, v1922] : Fin 2 → IVec S16 32) a x).toNat < S64x512.size a := fun v1922 v2017 k1_hw958 => k1_hw958

def k1_chk959 (v1922 : IVec S16 32) (v2021 : IVec S16 32) : Prop :=
  (∀ a x, ((![v1922, v2021] : Fin 2 → IVec S16 32) a x).toNat < S512x128.size a)
instance k1_chk959.dec : ∀ (v1922 : IVec S16 32) (v2021 : IVec S16 32), Decidable (k1_chk959 v1922 v2021) := fun v1922 v2021 => decidable_of_iff' _ (Iff.of_eq (k1_chk959.eq_1 v1922 v2021))
theorem k1_idx959_inb : ∀ (v1922 : IVec S16 32) (v2021 : IVec S16 32) (k1_hw959 : k1_chk959 v1922 v2021), ∀ a x, ((![v1922, v2021] : Fin 2 → IVec S16 32) a x).toNat < S512x128.size a := fun v1922 v2021 k1_hw959 => k1_hw959

def k1_chk960 (v1922 : IVec S16 32) (v2020 : IVec S16 32) : Prop :=
  (∀ a x, ((![v2020, v1922] : Fin 2 → IVec S16 32) a x).toNat < S64x512.size a)
instance k1_chk960.dec : ∀ (v1922 : IVec S16 32) (v2020 : IVec S16 32), Decidable (k1_chk960 v1922 v2020) := fun v1922 v2020 => decidable_of_iff' _ (Iff.of_eq (k1_chk960.eq_1 v1922 v2020))
theorem k1_idx960_inb : ∀ (v1922 : IVec S16 32) (v2020 : IVec S16 32) (k1_hw960 : k1_chk960 v1922 v2020), ∀ a x, ((![v2020, v1922] : Fin 2 → IVec S16 32) a x).toNat < S64x512.size a := fun v1922 v2020 k1_hw960 => k1_hw960

def k1_chk961 (v1922 : IVec S16 32) (v2024 : IVec S16 32) : Prop :=
  (∀ a x, ((![v1922, v2024] : Fin 2 → IVec S16 32) a x).toNat < S512x128.size a)
instance k1_chk961.dec : ∀ (v1922 : IVec S16 32) (v2024 : IVec S16 32), Decidable (k1_chk961 v1922 v2024) := fun v1922 v2024 => decidable_of_iff' _ (Iff.of_eq (k1_chk961.eq_1 v1922 v2024))
theorem k1_idx961_inb : ∀ (v1922 : IVec S16 32) (v2024 : IVec S16 32) (k1_hw961 : k1_chk961 v1922 v2024), ∀ a x, ((![v1922, v2024] : Fin 2 → IVec S16 32) a x).toNat < S512x128.size a := fun v1922 v2024 k1_hw961 => k1_hw961

def k1_chk962 (v1922 : IVec S16 32) (v2023 : IVec S16 32) : Prop :=
  (∀ a x, ((![v2023, v1922] : Fin 2 → IVec S16 32) a x).toNat < S64x512.size a)
instance k1_chk962.dec : ∀ (v1922 : IVec S16 32) (v2023 : IVec S16 32), Decidable (k1_chk962 v1922 v2023) := fun v1922 v2023 => decidable_of_iff' _ (Iff.of_eq (k1_chk962.eq_1 v1922 v2023))
theorem k1_idx962_inb : ∀ (v1922 : IVec S16 32) (v2023 : IVec S16 32) (k1_hw962 : k1_chk962 v1922 v2023), ∀ a x, ((![v2023, v1922] : Fin 2 → IVec S16 32) a x).toNat < S64x512.size a := fun v1922 v2023 k1_hw962 => k1_hw962

def k1_chk963 (v1922 : IVec S16 32) (v2027 : IVec S16 32) : Prop :=
  (∀ a x, ((![v1922, v2027] : Fin 2 → IVec S16 32) a x).toNat < S512x128.size a)
instance k1_chk963.dec : ∀ (v1922 : IVec S16 32) (v2027 : IVec S16 32), Decidable (k1_chk963 v1922 v2027) := fun v1922 v2027 => decidable_of_iff' _ (Iff.of_eq (k1_chk963.eq_1 v1922 v2027))
theorem k1_idx963_inb : ∀ (v1922 : IVec S16 32) (v2027 : IVec S16 32) (k1_hw963 : k1_chk963 v1922 v2027), ∀ a x, ((![v1922, v2027] : Fin 2 → IVec S16 32) a x).toNat < S512x128.size a := fun v1922 v2027 k1_hw963 => k1_hw963

def k1_chk964 (v1922 : IVec S16 32) (v2026 : IVec S16 32) : Prop :=
  (∀ a x, ((![v2026, v1922] : Fin 2 → IVec S16 32) a x).toNat < S64x512.size a)
instance k1_chk964.dec : ∀ (v1922 : IVec S16 32) (v2026 : IVec S16 32), Decidable (k1_chk964 v1922 v2026) := fun v1922 v2026 => decidable_of_iff' _ (Iff.of_eq (k1_chk964.eq_1 v1922 v2026))
theorem k1_idx964_inb : ∀ (v1922 : IVec S16 32) (v2026 : IVec S16 32) (k1_hw964 : k1_chk964 v1922 v2026), ∀ a x, ((![v2026, v1922] : Fin 2 → IVec S16 32) a x).toNat < S64x512.size a := fun v1922 v2026 k1_hw964 => k1_hw964

def k1_chk965 (v1922 : IVec S16 32) (v2030 : IVec S16 32) : Prop :=
  (∀ a x, ((![v1922, v2030] : Fin 2 → IVec S16 32) a x).toNat < S512x128.size a)
instance k1_chk965.dec : ∀ (v1922 : IVec S16 32) (v2030 : IVec S16 32), Decidable (k1_chk965 v1922 v2030) := fun v1922 v2030 => decidable_of_iff' _ (Iff.of_eq (k1_chk965.eq_1 v1922 v2030))
theorem k1_idx965_inb : ∀ (v1922 : IVec S16 32) (v2030 : IVec S16 32) (k1_hw965 : k1_chk965 v1922 v2030), ∀ a x, ((![v1922, v2030] : Fin 2 → IVec S16 32) a x).toNat < S512x128.size a := fun v1922 v2030 k1_hw965 => k1_hw965

def k1_chk966 (v1922 : IVec S16 32) (v2029 : IVec S16 32) : Prop :=
  (∀ a x, ((![v2029, v1922] : Fin 2 → IVec S16 32) a x).toNat < S64x512.size a)
instance k1_chk966.dec : ∀ (v1922 : IVec S16 32) (v2029 : IVec S16 32), Decidable (k1_chk966 v1922 v2029) := fun v1922 v2029 => decidable_of_iff' _ (Iff.of_eq (k1_chk966.eq_1 v1922 v2029))
theorem k1_idx966_inb : ∀ (v1922 : IVec S16 32) (v2029 : IVec S16 32) (k1_hw966 : k1_chk966 v1922 v2029), ∀ a x, ((![v2029, v1922] : Fin 2 → IVec S16 32) a x).toNat < S64x512.size a := fun v1922 v2029 k1_hw966 => k1_hw966

def k1_chk967 (v1922 : IVec S16 32) (v2033 : IVec S16 32) : Prop :=
  (∀ a x, ((![v1922, v2033] : Fin 2 → IVec S16 32) a x).toNat < S512x128.size a)
instance k1_chk967.dec : ∀ (v1922 : IVec S16 32) (v2033 : IVec S16 32), Decidable (k1_chk967 v1922 v2033) := fun v1922 v2033 => decidable_of_iff' _ (Iff.of_eq (k1_chk967.eq_1 v1922 v2033))
theorem k1_idx967_inb : ∀ (v1922 : IVec S16 32) (v2033 : IVec S16 32) (k1_hw967 : k1_chk967 v1922 v2033), ∀ a x, ((![v1922, v2033] : Fin 2 → IVec S16 32) a x).toNat < S512x128.size a := fun v1922 v2033 k1_hw967 => k1_hw967

def k1_chk968 (v1922 : IVec S16 32) (v2032 : IVec S16 32) : Prop :=
  (∀ a x, ((![v2032, v1922] : Fin 2 → IVec S16 32) a x).toNat < S64x512.size a)
instance k1_chk968.dec : ∀ (v1922 : IVec S16 32) (v2032 : IVec S16 32), Decidable (k1_chk968 v1922 v2032) := fun v1922 v2032 => decidable_of_iff' _ (Iff.of_eq (k1_chk968.eq_1 v1922 v2032))
theorem k1_idx968_inb : ∀ (v1922 : IVec S16 32) (v2032 : IVec S16 32) (k1_hw968 : k1_chk968 v1922 v2032), ∀ a x, ((![v2032, v1922] : Fin 2 → IVec S16 32) a x).toNat < S64x512.size a := fun v1922 v2032 k1_hw968 => k1_hw968

def k1_chk969 (v1922 : IVec S16 32) (v2036 : IVec S16 32) : Prop :=
  (∀ a x, ((![v1922, v2036] : Fin 2 → IVec S16 32) a x).toNat < S512x128.size a)
instance k1_chk969.dec : ∀ (v1922 : IVec S16 32) (v2036 : IVec S16 32), Decidable (k1_chk969 v1922 v2036) := fun v1922 v2036 => decidable_of_iff' _ (Iff.of_eq (k1_chk969.eq_1 v1922 v2036))
theorem k1_idx969_inb : ∀ (v1922 : IVec S16 32) (v2036 : IVec S16 32) (k1_hw969 : k1_chk969 v1922 v2036), ∀ a x, ((![v1922, v2036] : Fin 2 → IVec S16 32) a x).toNat < S512x128.size a := fun v1922 v2036 k1_hw969 => k1_hw969

def k1_chk970 (v1922 : IVec S16 32) (v2035 : IVec S16 32) : Prop :=
  (∀ a x, ((![v2035, v1922] : Fin 2 → IVec S16 32) a x).toNat < S64x512.size a)
instance k1_chk970.dec : ∀ (v1922 : IVec S16 32) (v2035 : IVec S16 32), Decidable (k1_chk970 v1922 v2035) := fun v1922 v2035 => decidable_of_iff' _ (Iff.of_eq (k1_chk970.eq_1 v1922 v2035))
theorem k1_idx970_inb : ∀ (v1922 : IVec S16 32) (v2035 : IVec S16 32) (k1_hw970 : k1_chk970 v1922 v2035), ∀ a x, ((![v2035, v1922] : Fin 2 → IVec S16 32) a x).toNat < S64x512.size a := fun v1922 v2035 k1_hw970 => k1_hw970

def k1_chk971 (v1922 : IVec S16 32) (v2039 : IVec S16 32) : Prop :=
  (∀ a x, ((![v1922, v2039] : Fin 2 → IVec S16 32) a x).toNat < S512x128.size a)
instance k1_chk971.dec : ∀ (v1922 : IVec S16 32) (v2039 : IVec S16 32), Decidable (k1_chk971 v1922 v2039) := fun v1922 v2039 => decidable_of_iff' _ (Iff.of_eq (k1_chk971.eq_1 v1922 v2039))
theorem k1_idx971_inb : ∀ (v1922 : IVec S16 32) (v2039 : IVec S16 32) (k1_hw971 : k1_chk971 v1922 v2039), ∀ a x, ((![v1922, v2039] : Fin 2 → IVec S16 32) a x).toNat < S512x128.size a := fun v1922 v2039 k1_hw971 => k1_hw971

def k1_chk972 (v1922 : IVec S16 32) (v2038 : IVec S16 32) : Prop :=
  (∀ a x, ((![v2038, v1922] : Fin 2 → IVec S16 32) a x).toNat < S64x512.size a)
instance k1_chk972.dec : ∀ (v1922 : IVec S16 32) (v2038 : IVec S16 32), Decidable (k1_chk972 v1922 v2038) := fun v1922 v2038 => decidable_of_iff' _ (Iff.of_eq (k1_chk972.eq_1 v1922 v2038))
theorem k1_idx972_inb : ∀ (v1922 : IVec S16 32) (v2038 : IVec S16 32) (k1_hw972 : k1_chk972 v1922 v2038), ∀ a x, ((![v2038, v1922] : Fin 2 → IVec S16 32) a x).toNat < S64x512.size a := fun v1922 v2038 k1_hw972 => k1_hw972

def k1_chk973 (v1922 : IVec S16 32) (v2042 : IVec S16 32) : Prop :=
  (∀ a x, ((![v1922, v2042] : Fin 2 → IVec S16 32) a x).toNat < S512x128.size a)
instance k1_chk973.dec : ∀ (v1922 : IVec S16 32) (v2042 : IVec S16 32), Decidable (k1_chk973 v1922 v2042) := fun v1922 v2042 => decidable_of_iff' _ (Iff.of_eq (k1_chk973.eq_1 v1922 v2042))
theorem k1_idx973_inb : ∀ (v1922 : IVec S16 32) (v2042 : IVec S16 32) (k1_hw973 : k1_chk973 v1922 v2042), ∀ a x, ((![v1922, v2042] : Fin 2 → IVec S16 32) a x).toNat < S512x128.size a := fun v1922 v2042 k1_hw973 => k1_hw973

def k1_chk974 (v1922 : IVec S16 32) (v2041 : IVec S16 32) : Prop :=
  (∀ a x, ((![v2041, v1922] : Fin 2 → IVec S16 32) a x).toNat < S64x512.size a)
instance k1_chk974.dec : ∀ (v1922 : IVec S16 32) (v2041 : IVec S16 32), Decidable (k1_chk974 v1922 v2041) := fun v1922 v2041 => decidable_of_iff' _ (Iff.of_eq (k1_chk974.eq_1 v1922 v2041))
theorem k1_idx974_inb : ∀ (v1922 : IVec S16 32) (v2041 : IVec S16 32) (k1_hw974 : k1_chk974 v1922 v2041), ∀ a x, ((![v2041, v1922] : Fin 2 → IVec S16 32) a x).toNat < S64x512.size a := fun v1922 v2041 k1_hw974 => k1_hw974

def k1_chk975 (v1922 : IVec S16 32) (v2045 : IVec S16 32) : Prop :=
  (∀ a x, ((![v1922, v2045] : Fin 2 → IVec S16 32) a x).toNat < S512x128.size a)
instance k1_chk975.dec : ∀ (v1922 : IVec S16 32) (v2045 : IVec S16 32), Decidable (k1_chk975 v1922 v2045) := fun v1922 v2045 => decidable_of_iff' _ (Iff.of_eq (k1_chk975.eq_1 v1922 v2045))
theorem k1_idx975_inb : ∀ (v1922 : IVec S16 32) (v2045 : IVec S16 32) (k1_hw975 : k1_chk975 v1922 v2045), ∀ a x, ((![v1922, v2045] : Fin 2 → IVec S16 32) a x).toNat < S512x128.size a := fun v1922 v2045 k1_hw975 => k1_hw975

def k1_chk976 (v1922 : IVec S16 32) (v2044 : IVec S16 32) : Prop :=
  (∀ a x, ((![v2044, v1922] : Fin 2 → IVec S16 32) a x).toNat < S64x512.size a)
instance k1_chk976.dec : ∀ (v1922 : IVec S16 32) (v2044 : IVec S16 32), Decidable (k1_chk976 v1922 v2044) := fun v1922 v2044 => decidable_of_iff' _ (Iff.of_eq (k1_chk976.eq_1 v1922 v2044))
theorem k1_idx976_inb : ∀ (v1922 : IVec S16 32) (v2044 : IVec S16 32) (k1_hw976 : k1_chk976 v1922 v2044), ∀ a x, ((![v2044, v1922] : Fin 2 → IVec S16 32) a x).toNat < S64x512.size a := fun v1922 v2044 k1_hw976 => k1_hw976

def k1_chk977 (v1922 : IVec S16 32) (v2048 : IVec S16 32) : Prop :=
  (∀ a x, ((![v1922, v2048] : Fin 2 → IVec S16 32) a x).toNat < S512x128.size a)
instance k1_chk977.dec : ∀ (v1922 : IVec S16 32) (v2048 : IVec S16 32), Decidable (k1_chk977 v1922 v2048) := fun v1922 v2048 => decidable_of_iff' _ (Iff.of_eq (k1_chk977.eq_1 v1922 v2048))
theorem k1_idx977_inb : ∀ (v1922 : IVec S16 32) (v2048 : IVec S16 32) (k1_hw977 : k1_chk977 v1922 v2048), ∀ a x, ((![v1922, v2048] : Fin 2 → IVec S16 32) a x).toNat < S512x128.size a := fun v1922 v2048 k1_hw977 => k1_hw977

def k1_chk978 (v1922 : IVec S16 32) (v2047 : IVec S16 32) : Prop :=
  (∀ a x, ((![v2047, v1922] : Fin 2 → IVec S16 32) a x).toNat < S64x512.size a)
instance k1_chk978.dec : ∀ (v1922 : IVec S16 32) (v2047 : IVec S16 32), Decidable (k1_chk978 v1922 v2047) := fun v1922 v2047 => decidable_of_iff' _ (Iff.of_eq (k1_chk978.eq_1 v1922 v2047))
theorem k1_idx978_inb : ∀ (v1922 : IVec S16 32) (v2047 : IVec S16 32) (k1_hw978 : k1_chk978 v1922 v2047), ∀ a x, ((![v2047, v1922] : Fin 2 → IVec S16 32) a x).toNat < S64x512.size a := fun v1922 v2047 k1_hw978 => k1_hw978

def k1_chk979 (v1922 : IVec S16 32) (v2051 : IVec S16 32) : Prop :=
  (∀ a x, ((![v1922, v2051] : Fin 2 → IVec S16 32) a x).toNat < S512x128.size a)
instance k1_chk979.dec : ∀ (v1922 : IVec S16 32) (v2051 : IVec S16 32), Decidable (k1_chk979 v1922 v2051) := fun v1922 v2051 => decidable_of_iff' _ (Iff.of_eq (k1_chk979.eq_1 v1922 v2051))
theorem k1_idx979_inb : ∀ (v1922 : IVec S16 32) (v2051 : IVec S16 32) (k1_hw979 : k1_chk979 v1922 v2051), ∀ a x, ((![v1922, v2051] : Fin 2 → IVec S16 32) a x).toNat < S512x128.size a := fun v1922 v2051 k1_hw979 => k1_hw979

def k1_chk980 (v1922 : IVec S16 32) (v2050 : IVec S16 32) : Prop :=
  (∀ a x, ((![v2050, v1922] : Fin 2 → IVec S16 32) a x).toNat < S64x512.size a)
instance k1_chk980.dec : ∀ (v1922 : IVec S16 32) (v2050 : IVec S16 32), Decidable (k1_chk980 v1922 v2050) := fun v1922 v2050 => decidable_of_iff' _ (Iff.of_eq (k1_chk980.eq_1 v1922 v2050))
theorem k1_idx980_inb : ∀ (v1922 : IVec S16 32) (v2050 : IVec S16 32) (k1_hw980 : k1_chk980 v1922 v2050), ∀ a x, ((![v2050, v1922] : Fin 2 → IVec S16 32) a x).toNat < S64x512.size a := fun v1922 v2050 k1_hw980 => k1_hw980

def k1_chk981 (v1922 : IVec S16 32) (v2054 : IVec S16 32) : Prop :=
  (∀ a x, ((![v1922, v2054] : Fin 2 → IVec S16 32) a x).toNat < S512x128.size a)
instance k1_chk981.dec : ∀ (v1922 : IVec S16 32) (v2054 : IVec S16 32), Decidable (k1_chk981 v1922 v2054) := fun v1922 v2054 => decidable_of_iff' _ (Iff.of_eq (k1_chk981.eq_1 v1922 v2054))
theorem k1_idx981_inb : ∀ (v1922 : IVec S16 32) (v2054 : IVec S16 32) (k1_hw981 : k1_chk981 v1922 v2054), ∀ a x, ((![v1922, v2054] : Fin 2 → IVec S16 32) a x).toNat < S512x128.size a := fun v1922 v2054 k1_hw981 => k1_hw981

def k1_chk982 (v1922 : IVec S16 32) (v2053 : IVec S16 32) : Prop :=
  (∀ a x, ((![v2053, v1922] : Fin 2 → IVec S16 32) a x).toNat < S64x512.size a)
instance k1_chk982.dec : ∀ (v1922 : IVec S16 32) (v2053 : IVec S16 32), Decidable (k1_chk982 v1922 v2053) := fun v1922 v2053 => decidable_of_iff' _ (Iff.of_eq (k1_chk982.eq_1 v1922 v2053))
theorem k1_idx982_inb : ∀ (v1922 : IVec S16 32) (v2053 : IVec S16 32) (k1_hw982 : k1_chk982 v1922 v2053), ∀ a x, ((![v2053, v1922] : Fin 2 → IVec S16 32) a x).toNat < S64x512.size a := fun v1922 v2053 k1_hw982 => k1_hw982

def k1_chk983 (v1922 : IVec S16 32) (v2057 : IVec S16 32) : Prop :=
  (∀ a x, ((![v1922, v2057] : Fin 2 → IVec S16 32) a x).toNat < S512x128.size a)
instance k1_chk983.dec : ∀ (v1922 : IVec S16 32) (v2057 : IVec S16 32), Decidable (k1_chk983 v1922 v2057) := fun v1922 v2057 => decidable_of_iff' _ (Iff.of_eq (k1_chk983.eq_1 v1922 v2057))
theorem k1_idx983_inb : ∀ (v1922 : IVec S16 32) (v2057 : IVec S16 32) (k1_hw983 : k1_chk983 v1922 v2057), ∀ a x, ((![v1922, v2057] : Fin 2 → IVec S16 32) a x).toNat < S512x128.size a := fun v1922 v2057 k1_hw983 => k1_hw983

def k1_chk984 (v1922 : IVec S16 32) (v2056 : IVec S16 32) : Prop :=
  (∀ a x, ((![v2056, v1922] : Fin 2 → IVec S16 32) a x).toNat < S64x512.size a)
instance k1_chk984.dec : ∀ (v1922 : IVec S16 32) (v2056 : IVec S16 32), Decidable (k1_chk984 v1922 v2056) := fun v1922 v2056 => decidable_of_iff' _ (Iff.of_eq (k1_chk984.eq_1 v1922 v2056))
theorem k1_idx984_inb : ∀ (v1922 : IVec S16 32) (v2056 : IVec S16 32) (k1_hw984 : k1_chk984 v1922 v2056), ∀ a x, ((![v2056, v1922] : Fin 2 → IVec S16 32) a x).toNat < S64x512.size a := fun v1922 v2056 k1_hw984 => k1_hw984

def k1_chk985 (v1922 : IVec S16 32) (v2060 : IVec S16 32) : Prop :=
  (∀ a x, ((![v1922, v2060] : Fin 2 → IVec S16 32) a x).toNat < S512x128.size a)
instance k1_chk985.dec : ∀ (v1922 : IVec S16 32) (v2060 : IVec S16 32), Decidable (k1_chk985 v1922 v2060) := fun v1922 v2060 => decidable_of_iff' _ (Iff.of_eq (k1_chk985.eq_1 v1922 v2060))
theorem k1_idx985_inb : ∀ (v1922 : IVec S16 32) (v2060 : IVec S16 32) (k1_hw985 : k1_chk985 v1922 v2060), ∀ a x, ((![v1922, v2060] : Fin 2 → IVec S16 32) a x).toNat < S512x128.size a := fun v1922 v2060 k1_hw985 => k1_hw985

def k1_chk986 (v1922 : IVec S16 32) (v2059 : IVec S16 32) : Prop :=
  (∀ a x, ((![v2059, v1922] : Fin 2 → IVec S16 32) a x).toNat < S64x512.size a)
instance k1_chk986.dec : ∀ (v1922 : IVec S16 32) (v2059 : IVec S16 32), Decidable (k1_chk986 v1922 v2059) := fun v1922 v2059 => decidable_of_iff' _ (Iff.of_eq (k1_chk986.eq_1 v1922 v2059))
theorem k1_idx986_inb : ∀ (v1922 : IVec S16 32) (v2059 : IVec S16 32) (k1_hw986 : k1_chk986 v1922 v2059), ∀ a x, ((![v2059, v1922] : Fin 2 → IVec S16 32) a x).toNat < S64x512.size a := fun v1922 v2059 k1_hw986 => k1_hw986

def k1_chk987 (v1922 : IVec S16 32) (v2063 : IVec S16 32) : Prop :=
  (∀ a x, ((![v1922, v2063] : Fin 2 → IVec S16 32) a x).toNat < S512x128.size a)
instance k1_chk987.dec : ∀ (v1922 : IVec S16 32) (v2063 : IVec S16 32), Decidable (k1_chk987 v1922 v2063) := fun v1922 v2063 => decidable_of_iff' _ (Iff.of_eq (k1_chk987.eq_1 v1922 v2063))
theorem k1_idx987_inb : ∀ (v1922 : IVec S16 32) (v2063 : IVec S16 32) (k1_hw987 : k1_chk987 v1922 v2063), ∀ a x, ((![v1922, v2063] : Fin 2 → IVec S16 32) a x).toNat < S512x128.size a := fun v1922 v2063 k1_hw987 => k1_hw987

def k1_chk988 (v1922 : IVec S16 32) (v2062 : IVec S16 32) : Prop :=
  (∀ a x, ((![v2062, v1922] : Fin 2 → IVec S16 32) a x).toNat < S64x512.size a)
instance k1_chk988.dec : ∀ (v1922 : IVec S16 32) (v2062 : IVec S16 32), Decidable (k1_chk988 v1922 v2062) := fun v1922 v2062 => decidable_of_iff' _ (Iff.of_eq (k1_chk988.eq_1 v1922 v2062))
theorem k1_idx988_inb : ∀ (v1922 : IVec S16 32) (v2062 : IVec S16 32) (k1_hw988 : k1_chk988 v1922 v2062), ∀ a x, ((![v2062, v1922] : Fin 2 → IVec S16 32) a x).toNat < S64x512.size a := fun v1922 v2062 k1_hw988 => k1_hw988

def k1_chk989 (v1922 : IVec S16 32) (v2066 : IVec S16 32) : Prop :=
  (∀ a x, ((![v1922, v2066] : Fin 2 → IVec S16 32) a x).toNat < S512x128.size a)
instance k1_chk989.dec : ∀ (v1922 : IVec S16 32) (v2066 : IVec S16 32), Decidable (k1_chk989 v1922 v2066) := fun v1922 v2066 => decidable_of_iff' _ (Iff.of_eq (k1_chk989.eq_1 v1922 v2066))
theorem k1_idx989_inb : ∀ (v1922 : IVec S16 32) (v2066 : IVec S16 32) (k1_hw989 : k1_chk989 v1922 v2066), ∀ a x, ((![v1922, v2066] : Fin 2 → IVec S16 32) a x).toNat < S512x128.size a := fun v1922 v2066 k1_hw989 => k1_hw989

def k1_chk990 (v1922 : IVec S16 32) (v2065 : IVec S16 32) : Prop :=
  (∀ a x, ((![v2065, v1922] : Fin 2 → IVec S16 32) a x).toNat < S64x512.size a)
instance k1_chk990.dec : ∀ (v1922 : IVec S16 32) (v2065 : IVec S16 32), Decidable (k1_chk990 v1922 v2065) := fun v1922 v2065 => decidable_of_iff' _ (Iff.of_eq (k1_chk990.eq_1 v1922 v2065))
theorem k1_idx990_inb : ∀ (v1922 : IVec S16 32) (v2065 : IVec S16 32) (k1_hw990 : k1_chk990 v1922 v2065), ∀ a x, ((![v2065, v1922] : Fin 2 → IVec S16 32) a x).toNat < S64x512.size a := fun v1922 v2065 k1_hw990 => k1_hw990

def k1_chk991 (v1922 : IVec S16 32) (v2069 : IVec S16 32) : Prop :=
  (∀ a x, ((![v1922, v2069] : Fin 2 → IVec S16 32) a x).toNat < S512x128.size a)
instance k1_chk991.dec : ∀ (v1922 : IVec S16 32) (v2069 : IVec S16 32), Decidable (k1_chk991 v1922 v2069) := fun v1922 v2069 => decidable_of_iff' _ (Iff.of_eq (k1_chk991.eq_1 v1922 v2069))
theorem k1_idx991_inb : ∀ (v1922 : IVec S16 32) (v2069 : IVec S16 32) (k1_hw991 : k1_chk991 v1922 v2069), ∀ a x, ((![v1922, v2069] : Fin 2 → IVec S16 32) a x).toNat < S512x128.size a := fun v1922 v2069 k1_hw991 => k1_hw991

def k1_chk992 (v1922 : IVec S16 32) (v2068 : IVec S16 32) : Prop :=
  (∀ a x, ((![v2068, v1922] : Fin 2 → IVec S16 32) a x).toNat < S64x512.size a)
instance k1_chk992.dec : ∀ (v1922 : IVec S16 32) (v2068 : IVec S16 32), Decidable (k1_chk992 v1922 v2068) := fun v1922 v2068 => decidable_of_iff' _ (Iff.of_eq (k1_chk992.eq_1 v1922 v2068))
theorem k1_idx992_inb : ∀ (v1922 : IVec S16 32) (v2068 : IVec S16 32) (k1_hw992 : k1_chk992 v1922 v2068), ∀ a x, ((![v2068, v1922] : Fin 2 → IVec S16 32) a x).toNat < S64x512.size a := fun v1922 v2068 k1_hw992 => k1_hw992

def k1_chk993 (v1922 : IVec S16 32) (v2072 : IVec S16 32) : Prop :=
  (∀ a x, ((![v1922, v2072] : Fin 2 → IVec S16 32) a x).toNat < S512x128.size a)
instance k1_chk993.dec : ∀ (v1922 : IVec S16 32) (v2072 : IVec S16 32), Decidable (k1_chk993 v1922 v2072) := fun v1922 v2072 => decidable_of_iff' _ (Iff.of_eq (k1_chk993.eq_1 v1922 v2072))
theorem k1_idx993_inb : ∀ (v1922 : IVec S16 32) (v2072 : IVec S16 32) (k1_hw993 : k1_chk993 v1922 v2072), ∀ a x, ((![v1922, v2072] : Fin 2 → IVec S16 32) a x).toNat < S512x128.size a := fun v1922 v2072 k1_hw993 => k1_hw993

def k1_chk994 (v1922 : IVec S16 32) (v2071 : IVec S16 32) : Prop :=
  (∀ a x, ((![v2071, v1922] : Fin 2 → IVec S16 32) a x).toNat < S64x512.size a)
instance k1_chk994.dec : ∀ (v1922 : IVec S16 32) (v2071 : IVec S16 32), Decidable (k1_chk994 v1922 v2071) := fun v1922 v2071 => decidable_of_iff' _ (Iff.of_eq (k1_chk994.eq_1 v1922 v2071))
theorem k1_idx994_inb : ∀ (v1922 : IVec S16 32) (v2071 : IVec S16 32) (k1_hw994 : k1_chk994 v1922 v2071), ∀ a x, ((![v2071, v1922] : Fin 2 → IVec S16 32) a x).toNat < S64x512.size a := fun v1922 v2071 k1_hw994 => k1_hw994

def k1_chk995 (v1922 : IVec S16 32) (v2075 : IVec S16 32) : Prop :=
  (∀ a x, ((![v1922, v2075] : Fin 2 → IVec S16 32) a x).toNat < S512x128.size a)
instance k1_chk995.dec : ∀ (v1922 : IVec S16 32) (v2075 : IVec S16 32), Decidable (k1_chk995 v1922 v2075) := fun v1922 v2075 => decidable_of_iff' _ (Iff.of_eq (k1_chk995.eq_1 v1922 v2075))
theorem k1_idx995_inb : ∀ (v1922 : IVec S16 32) (v2075 : IVec S16 32) (k1_hw995 : k1_chk995 v1922 v2075), ∀ a x, ((![v1922, v2075] : Fin 2 → IVec S16 32) a x).toNat < S512x128.size a := fun v1922 v2075 k1_hw995 => k1_hw995

def k1_chk996 (v1922 : IVec S16 32) (v2074 : IVec S16 32) : Prop :=
  (∀ a x, ((![v2074, v1922] : Fin 2 → IVec S16 32) a x).toNat < S64x512.size a)
instance k1_chk996.dec : ∀ (v1922 : IVec S16 32) (v2074 : IVec S16 32), Decidable (k1_chk996 v1922 v2074) := fun v1922 v2074 => decidable_of_iff' _ (Iff.of_eq (k1_chk996.eq_1 v1922 v2074))
theorem k1_idx996_inb : ∀ (v1922 : IVec S16 32) (v2074 : IVec S16 32) (k1_hw996 : k1_chk996 v1922 v2074), ∀ a x, ((![v2074, v1922] : Fin 2 → IVec S16 32) a x).toNat < S64x512.size a := fun v1922 v2074 k1_hw996 => k1_hw996

def k1_chk997 (v1922 : IVec S16 32) (v2078 : IVec S16 32) : Prop :=
  (∀ a x, ((![v1922, v2078] : Fin 2 → IVec S16 32) a x).toNat < S512x128.size a)
instance k1_chk997.dec : ∀ (v1922 : IVec S16 32) (v2078 : IVec S16 32), Decidable (k1_chk997 v1922 v2078) := fun v1922 v2078 => decidable_of_iff' _ (Iff.of_eq (k1_chk997.eq_1 v1922 v2078))
theorem k1_idx997_inb : ∀ (v1922 : IVec S16 32) (v2078 : IVec S16 32) (k1_hw997 : k1_chk997 v1922 v2078), ∀ a x, ((![v1922, v2078] : Fin 2 → IVec S16 32) a x).toNat < S512x128.size a := fun v1922 v2078 k1_hw997 => k1_hw997

def k1_chk998 (v1922 : IVec S16 32) (v2077 : IVec S16 32) : Prop :=
  (∀ a x, ((![v2077, v1922] : Fin 2 → IVec S16 32) a x).toNat < S64x512.size a)
instance k1_chk998.dec : ∀ (v1922 : IVec S16 32) (v2077 : IVec S16 32), Decidable (k1_chk998 v1922 v2077) := fun v1922 v2077 => decidable_of_iff' _ (Iff.of_eq (k1_chk998.eq_1 v1922 v2077))
theorem k1_idx998_inb : ∀ (v1922 : IVec S16 32) (v2077 : IVec S16 32) (k1_hw998 : k1_chk998 v1922 v2077), ∀ a x, ((![v2077, v1922] : Fin 2 → IVec S16 32) a x).toNat < S64x512.size a := fun v1922 v2077 k1_hw998 => k1_hw998

def k1_chk999 (v1922 : IVec S16 32) (v2081 : IVec S16 32) : Prop :=
  (∀ a x, ((![v1922, v2081] : Fin 2 → IVec S16 32) a x).toNat < S512x128.size a)
instance k1_chk999.dec : ∀ (v1922 : IVec S16 32) (v2081 : IVec S16 32), Decidable (k1_chk999 v1922 v2081) := fun v1922 v2081 => decidable_of_iff' _ (Iff.of_eq (k1_chk999.eq_1 v1922 v2081))
theorem k1_idx999_inb : ∀ (v1922 : IVec S16 32) (v2081 : IVec S16 32) (k1_hw999 : k1_chk999 v1922 v2081), ∀ a x, ((![v1922, v2081] : Fin 2 → IVec S16 32) a x).toNat < S512x128.size a := fun v1922 v2081 k1_hw999 => k1_hw999

def k1_chk1000 (v1922 : IVec S16 32) (v2080 : IVec S16 32) : Prop :=
  (∀ a x, ((![v2080, v1922] : Fin 2 → IVec S16 32) a x).toNat < S64x512.size a)
instance k1_chk1000.dec : ∀ (v1922 : IVec S16 32) (v2080 : IVec S16 32), Decidable (k1_chk1000 v1922 v2080) := fun v1922 v2080 => decidable_of_iff' _ (Iff.of_eq (k1_chk1000.eq_1 v1922 v2080))
theorem k1_idx1000_inb : ∀ (v1922 : IVec S16 32) (v2080 : IVec S16 32) (k1_hw1000 : k1_chk1000 v1922 v2080), ∀ a x, ((![v2080, v1922] : Fin 2 → IVec S16 32) a x).toNat < S64x512.size a := fun v1922 v2080 k1_hw1000 => k1_hw1000

def k1_chk1001 (v1922 : IVec S16 32) (v2084 : IVec S16 32) : Prop :=
  (∀ a x, ((![v1922, v2084] : Fin 2 → IVec S16 32) a x).toNat < S512x128.size a)
instance k1_chk1001.dec : ∀ (v1922 : IVec S16 32) (v2084 : IVec S16 32), Decidable (k1_chk1001 v1922 v2084) := fun v1922 v2084 => decidable_of_iff' _ (Iff.of_eq (k1_chk1001.eq_1 v1922 v2084))
theorem k1_idx1001_inb : ∀ (v1922 : IVec S16 32) (v2084 : IVec S16 32) (k1_hw1001 : k1_chk1001 v1922 v2084), ∀ a x, ((![v1922, v2084] : Fin 2 → IVec S16 32) a x).toNat < S512x128.size a := fun v1922 v2084 k1_hw1001 => k1_hw1001

def k1_chk1002 (v1922 : IVec S16 32) (v2083 : IVec S16 32) : Prop :=
  (∀ a x, ((![v2083, v1922] : Fin 2 → IVec S16 32) a x).toNat < S64x512.size a)
instance k1_chk1002.dec : ∀ (v1922 : IVec S16 32) (v2083 : IVec S16 32), Decidable (k1_chk1002 v1922 v2083) := fun v1922 v2083 => decidable_of_iff' _ (Iff.of_eq (k1_chk1002.eq_1 v1922 v2083))
theorem k1_idx1002_inb : ∀ (v1922 : IVec S16 32) (v2083 : IVec S16 32) (k1_hw1002 : k1_chk1002 v1922 v2083), ∀ a x, ((![v2083, v1922] : Fin 2 → IVec S16 32) a x).toNat < S64x512.size a := fun v1922 v2083 k1_hw1002 => k1_hw1002

def k1_chk1003 (v1922 : IVec S16 32) (v2087 : IVec S16 32) : Prop :=
  (∀ a x, ((![v1922, v2087] : Fin 2 → IVec S16 32) a x).toNat < S512x128.size a)
instance k1_chk1003.dec : ∀ (v1922 : IVec S16 32) (v2087 : IVec S16 32), Decidable (k1_chk1003 v1922 v2087) := fun v1922 v2087 => decidable_of_iff' _ (Iff.of_eq (k1_chk1003.eq_1 v1922 v2087))
theorem k1_idx1003_inb : ∀ (v1922 : IVec S16 32) (v2087 : IVec S16 32) (k1_hw1003 : k1_chk1003 v1922 v2087), ∀ a x, ((![v1922, v2087] : Fin 2 → IVec S16 32) a x).toNat < S512x128.size a := fun v1922 v2087 k1_hw1003 => k1_hw1003

def k1_chk1004 (v1922 : IVec S16 32) (v2086 : IVec S16 32) : Prop :=
  (∀ a x, ((![v2086, v1922] : Fin 2 → IVec S16 32) a x).toNat < S64x512.size a)
instance k1_chk1004.dec : ∀ (v1922 : IVec S16 32) (v2086 : IVec S16 32), Decidable (k1_chk1004 v1922 v2086) := fun v1922 v2086 => decidable_of_iff' _ (Iff.of_eq (k1_chk1004.eq_1 v1922 v2086))
theorem k1_idx1004_inb : ∀ (v1922 : IVec S16 32) (v2086 : IVec S16 32) (k1_hw1004 : k1_chk1004 v1922 v2086), ∀ a x, ((![v2086, v1922] : Fin 2 → IVec S16 32) a x).toNat < S64x512.size a := fun v1922 v2086 k1_hw1004 => k1_hw1004

def k1_chk1005 (v1922 : IVec S16 32) (v2090 : IVec S16 32) : Prop :=
  (∀ a x, ((![v1922, v2090] : Fin 2 → IVec S16 32) a x).toNat < S512x128.size a)
instance k1_chk1005.dec : ∀ (v1922 : IVec S16 32) (v2090 : IVec S16 32), Decidable (k1_chk1005 v1922 v2090) := fun v1922 v2090 => decidable_of_iff' _ (Iff.of_eq (k1_chk1005.eq_1 v1922 v2090))
theorem k1_idx1005_inb : ∀ (v1922 : IVec S16 32) (v2090 : IVec S16 32) (k1_hw1005 : k1_chk1005 v1922 v2090), ∀ a x, ((![v1922, v2090] : Fin 2 → IVec S16 32) a x).toNat < S512x128.size a := fun v1922 v2090 k1_hw1005 => k1_hw1005

def k1_chk1006 (v1922 : IVec S16 32) (v2089 : IVec S16 32) : Prop :=
  (∀ a x, ((![v2089, v1922] : Fin 2 → IVec S16 32) a x).toNat < S64x512.size a)
instance k1_chk1006.dec : ∀ (v1922 : IVec S16 32) (v2089 : IVec S16 32), Decidable (k1_chk1006 v1922 v2089) := fun v1922 v2089 => decidable_of_iff' _ (Iff.of_eq (k1_chk1006.eq_1 v1922 v2089))
theorem k1_idx1006_inb : ∀ (v1922 : IVec S16 32) (v2089 : IVec S16 32) (k1_hw1006 : k1_chk1006 v1922 v2089), ∀ a x, ((![v2089, v1922] : Fin 2 → IVec S16 32) a x).toNat < S64x512.size a := fun v1922 v2089 k1_hw1006 => k1_hw1006

def k1_chk1007 (v1922 : IVec S16 32) (v2093 : IVec S16 32) : Prop :=
  (∀ a x, ((![v1922, v2093] : Fin 2 → IVec S16 32) a x).toNat < S512x128.size a)
instance k1_chk1007.dec : ∀ (v1922 : IVec S16 32) (v2093 : IVec S16 32), Decidable (k1_chk1007 v1922 v2093) := fun v1922 v2093 => decidable_of_iff' _ (Iff.of_eq (k1_chk1007.eq_1 v1922 v2093))
theorem k1_idx1007_inb : ∀ (v1922 : IVec S16 32) (v2093 : IVec S16 32) (k1_hw1007 : k1_chk1007 v1922 v2093), ∀ a x, ((![v1922, v2093] : Fin 2 → IVec S16 32) a x).toNat < S512x128.size a := fun v1922 v2093 k1_hw1007 => k1_hw1007

def k1_chk1008 (v1922 : IVec S16 32) (v2092 : IVec S16 32) : Prop :=
  (∀ a x, ((![v2092, v1922] : Fin 2 → IVec S16 32) a x).toNat < S64x512.size a)
instance k1_chk1008.dec : ∀ (v1922 : IVec S16 32) (v2092 : IVec S16 32), Decidable (k1_chk1008 v1922 v2092) := fun v1922 v2092 => decidable_of_iff' _ (Iff.of_eq (k1_chk1008.eq_1 v1922 v2092))
theorem k1_idx1008_inb : ∀ (v1922 : IVec S16 32) (v2092 : IVec S16 32) (k1_hw1008 : k1_chk1008 v1922 v2092), ∀ a x, ((![v2092, v1922] : Fin 2 → IVec S16 32) a x).toNat < S64x512.size a := fun v1922 v2092 k1_hw1008 => k1_hw1008

def k1_chk1009 (v1922 : IVec S16 32) (v2096 : IVec S16 32) : Prop :=
  (∀ a x, ((![v1922, v2096] : Fin 2 → IVec S16 32) a x).toNat < S512x128.size a)
instance k1_chk1009.dec : ∀ (v1922 : IVec S16 32) (v2096 : IVec S16 32), Decidable (k1_chk1009 v1922 v2096) := fun v1922 v2096 => decidable_of_iff' _ (Iff.of_eq (k1_chk1009.eq_1 v1922 v2096))
theorem k1_idx1009_inb : ∀ (v1922 : IVec S16 32) (v2096 : IVec S16 32) (k1_hw1009 : k1_chk1009 v1922 v2096), ∀ a x, ((![v1922, v2096] : Fin 2 → IVec S16 32) a x).toNat < S512x128.size a := fun v1922 v2096 k1_hw1009 => k1_hw1009

def k1_chk1010 (v1922 : IVec S16 32) (v2095 : IVec S16 32) : Prop :=
  (∀ a x, ((![v2095, v1922] : Fin 2 → IVec S16 32) a x).toNat < S64x512.size a)
instance k1_chk1010.dec : ∀ (v1922 : IVec S16 32) (v2095 : IVec S16 32), Decidable (k1_chk1010 v1922 v2095) := fun v1922 v2095 => decidable_of_iff' _ (Iff.of_eq (k1_chk1010.eq_1 v1922 v2095))
theorem k1_idx1010_inb : ∀ (v1922 : IVec S16 32) (v2095 : IVec S16 32) (k1_hw1010 : k1_chk1010 v1922 v2095), ∀ a x, ((![v2095, v1922] : Fin 2 → IVec S16 32) a x).toNat < S64x512.size a := fun v1922 v2095 k1_hw1010 => k1_hw1010

def k1_chk1011 (v1922 : IVec S16 32) (v2099 : IVec S16 32) : Prop :=
  (∀ a x, ((![v1922, v2099] : Fin 2 → IVec S16 32) a x).toNat < S512x128.size a)
instance k1_chk1011.dec : ∀ (v1922 : IVec S16 32) (v2099 : IVec S16 32), Decidable (k1_chk1011 v1922 v2099) := fun v1922 v2099 => decidable_of_iff' _ (Iff.of_eq (k1_chk1011.eq_1 v1922 v2099))
theorem k1_idx1011_inb : ∀ (v1922 : IVec S16 32) (v2099 : IVec S16 32) (k1_hw1011 : k1_chk1011 v1922 v2099), ∀ a x, ((![v1922, v2099] : Fin 2 → IVec S16 32) a x).toNat < S512x128.size a := fun v1922 v2099 k1_hw1011 => k1_hw1011

def k1_chk1012 (v1922 : IVec S16 32) (v2098 : IVec S16 32) : Prop :=
  (∀ a x, ((![v2098, v1922] : Fin 2 → IVec S16 32) a x).toNat < S64x512.size a)
instance k1_chk1012.dec : ∀ (v1922 : IVec S16 32) (v2098 : IVec S16 32), Decidable (k1_chk1012 v1922 v2098) := fun v1922 v2098 => decidable_of_iff' _ (Iff.of_eq (k1_chk1012.eq_1 v1922 v2098))
theorem k1_idx1012_inb : ∀ (v1922 : IVec S16 32) (v2098 : IVec S16 32) (k1_hw1012 : k1_chk1012 v1922 v2098), ∀ a x, ((![v2098, v1922] : Fin 2 → IVec S16 32) a x).toNat < S64x512.size a := fun v1922 v2098 k1_hw1012 => k1_hw1012

def k1_chk1013 (v1922 : IVec S16 32) (v2102 : IVec S16 32) : Prop :=
  (∀ a x, ((![v1922, v2102] : Fin 2 → IVec S16 32) a x).toNat < S512x128.size a)
instance k1_chk1013.dec : ∀ (v1922 : IVec S16 32) (v2102 : IVec S16 32), Decidable (k1_chk1013 v1922 v2102) := fun v1922 v2102 => decidable_of_iff' _ (Iff.of_eq (k1_chk1013.eq_1 v1922 v2102))
theorem k1_idx1013_inb : ∀ (v1922 : IVec S16 32) (v2102 : IVec S16 32) (k1_hw1013 : k1_chk1013 v1922 v2102), ∀ a x, ((![v1922, v2102] : Fin 2 → IVec S16 32) a x).toNat < S512x128.size a := fun v1922 v2102 k1_hw1013 => k1_hw1013

def k1_chk1014 (v1922 : IVec S16 32) (v2101 : IVec S16 32) : Prop :=
  (∀ a x, ((![v2101, v1922] : Fin 2 → IVec S16 32) a x).toNat < S64x512.size a)
instance k1_chk1014.dec : ∀ (v1922 : IVec S16 32) (v2101 : IVec S16 32), Decidable (k1_chk1014 v1922 v2101) := fun v1922 v2101 => decidable_of_iff' _ (Iff.of_eq (k1_chk1014.eq_1 v1922 v2101))
theorem k1_idx1014_inb : ∀ (v1922 : IVec S16 32) (v2101 : IVec S16 32) (k1_hw1014 : k1_chk1014 v1922 v2101), ∀ a x, ((![v2101, v1922] : Fin 2 → IVec S16 32) a x).toNat < S64x512.size a := fun v1922 v2101 k1_hw1014 => k1_hw1014

def k1_chk1015 (v1922 : IVec S16 32) (v2105 : IVec S16 32) : Prop :=
  (∀ a x, ((![v1922, v2105] : Fin 2 → IVec S16 32) a x).toNat < S512x128.size a)
instance k1_chk1015.dec : ∀ (v1922 : IVec S16 32) (v2105 : IVec S16 32), Decidable (k1_chk1015 v1922 v2105) := fun v1922 v2105 => decidable_of_iff' _ (Iff.of_eq (k1_chk1015.eq_1 v1922 v2105))
theorem k1_idx1015_inb : ∀ (v1922 : IVec S16 32) (v2105 : IVec S16 32) (k1_hw1015 : k1_chk1015 v1922 v2105), ∀ a x, ((![v1922, v2105] : Fin 2 → IVec S16 32) a x).toNat < S512x128.size a := fun v1922 v2105 k1_hw1015 => k1_hw1015

def k1_chk1016 (v1922 : IVec S16 32) (v2104 : IVec S16 32) : Prop :=
  (∀ a x, ((![v2104, v1922] : Fin 2 → IVec S16 32) a x).toNat < S64x512.size a)
instance k1_chk1016.dec : ∀ (v1922 : IVec S16 32) (v2104 : IVec S16 32), Decidable (k1_chk1016 v1922 v2104) := fun v1922 v2104 => decidable_of_iff' _ (Iff.of_eq (k1_chk1016.eq_1 v1922 v2104))
theorem k1_idx1016_inb : ∀ (v1922 : IVec S16 32) (v2104 : IVec S16 32) (k1_hw1016 : k1_chk1016 v1922 v2104), ∀ a x, ((![v2104, v1922] : Fin 2 → IVec S16 32) a x).toNat < S64x512.size a := fun v1922 v2104 k1_hw1016 => k1_hw1016

def k1_chk1017 (v1922 : IVec S16 32) (v2108 : IVec S16 32) : Prop :=
  (∀ a x, ((![v1922, v2108] : Fin 2 → IVec S16 32) a x).toNat < S512x128.size a)
instance k1_chk1017.dec : ∀ (v1922 : IVec S16 32) (v2108 : IVec S16 32), Decidable (k1_chk1017 v1922 v2108) := fun v1922 v2108 => decidable_of_iff' _ (Iff.of_eq (k1_chk1017.eq_1 v1922 v2108))
theorem k1_idx1017_inb : ∀ (v1922 : IVec S16 32) (v2108 : IVec S16 32) (k1_hw1017 : k1_chk1017 v1922 v2108), ∀ a x, ((![v1922, v2108] : Fin 2 → IVec S16 32) a x).toNat < S512x128.size a := fun v1922 v2108 k1_hw1017 => k1_hw1017

def k1_chk1018 (v1922 : IVec S16 32) (v2107 : IVec S16 32) : Prop :=
  (∀ a x, ((![v2107, v1922] : Fin 2 → IVec S16 32) a x).toNat < S64x512.size a)
instance k1_chk1018.dec : ∀ (v1922 : IVec S16 32) (v2107 : IVec S16 32), Decidable (k1_chk1018 v1922 v2107) := fun v1922 v2107 => decidable_of_iff' _ (Iff.of_eq (k1_chk1018.eq_1 v1922 v2107))
theorem k1_idx1018_inb : ∀ (v1922 : IVec S16 32) (v2107 : IVec S16 32) (k1_hw1018 : k1_chk1018 v1922 v2107), ∀ a x, ((![v2107, v1922] : Fin 2 → IVec S16 32) a x).toNat < S64x512.size a := fun v1922 v2107 k1_hw1018 => k1_hw1018

def k1_chk1019 (v1922 : IVec S16 32) (v2111 : IVec S16 32) : Prop :=
  (∀ a x, ((![v1922, v2111] : Fin 2 → IVec S16 32) a x).toNat < S512x128.size a)
instance k1_chk1019.dec : ∀ (v1922 : IVec S16 32) (v2111 : IVec S16 32), Decidable (k1_chk1019 v1922 v2111) := fun v1922 v2111 => decidable_of_iff' _ (Iff.of_eq (k1_chk1019.eq_1 v1922 v2111))
theorem k1_idx1019_inb : ∀ (v1922 : IVec S16 32) (v2111 : IVec S16 32) (k1_hw1019 : k1_chk1019 v1922 v2111), ∀ a x, ((![v1922, v2111] : Fin 2 → IVec S16 32) a x).toNat < S512x128.size a := fun v1922 v2111 k1_hw1019 => k1_hw1019

def k1_chk1020 (v1922 : IVec S16 32) (v2110 : IVec S16 32) : Prop :=
  (∀ a x, ((![v2110, v1922] : Fin 2 → IVec S16 32) a x).toNat < S64x512.size a)
instance k1_chk1020.dec : ∀ (v1922 : IVec S16 32) (v2110 : IVec S16 32), Decidable (k1_chk1020 v1922 v2110) := fun v1922 v2110 => decidable_of_iff' _ (Iff.of_eq (k1_chk1020.eq_1 v1922 v2110))
theorem k1_idx1020_inb : ∀ (v1922 : IVec S16 32) (v2110 : IVec S16 32) (k1_hw1020 : k1_chk1020 v1922 v2110), ∀ a x, ((![v2110, v1922] : Fin 2 → IVec S16 32) a x).toNat < S64x512.size a := fun v1922 v2110 k1_hw1020 => k1_hw1020

def k1_chk1021 (v1922 : IVec S16 32) (v2114 : IVec S16 32) : Prop :=
  (∀ a x, ((![v1922, v2114] : Fin 2 → IVec S16 32) a x).toNat < S512x128.size a)
instance k1_chk1021.dec : ∀ (v1922 : IVec S16 32) (v2114 : IVec S16 32), Decidable (k1_chk1021 v1922 v2114) := fun v1922 v2114 => decidable_of_iff' _ (Iff.of_eq (k1_chk1021.eq_1 v1922 v2114))
theorem k1_idx1021_inb : ∀ (v1922 : IVec S16 32) (v2114 : IVec S16 32) (k1_hw1021 : k1_chk1021 v1922 v2114), ∀ a x, ((![v1922, v2114] : Fin 2 → IVec S16 32) a x).toNat < S512x128.size a := fun v1922 v2114 k1_hw1021 => k1_hw1021

def k1_chk1022 (v1922 : IVec S16 32) (v2113 : IVec S16 32) : Prop :=
  (∀ a x, ((![v2113, v1922] : Fin 2 → IVec S16 32) a x).toNat < S64x512.size a)
instance k1_chk1022.dec : ∀ (v1922 : IVec S16 32) (v2113 : IVec S16 32), Decidable (k1_chk1022 v1922 v2113) := fun v1922 v2113 => decidable_of_iff' _ (Iff.of_eq (k1_chk1022.eq_1 v1922 v2113))
theorem k1_idx1022_inb : ∀ (v1922 : IVec S16 32) (v2113 : IVec S16 32) (k1_hw1022 : k1_chk1022 v1922 v2113), ∀ a x, ((![v2113, v1922] : Fin 2 → IVec S16 32) a x).toNat < S64x512.size a := fun v1922 v2113 k1_hw1022 => k1_hw1022

def k1_chk1023 (v1922 : IVec S16 32) (v2117 : IVec S16 32) : Prop :=
  (∀ a x, ((![v1922, v2117] : Fin 2 → IVec S16 32) a x).toNat < S512x128.size a)
instance k1_chk1023.dec : ∀ (v1922 : IVec S16 32) (v2117 : IVec S16 32), Decidable (k1_chk1023 v1922 v2117) := fun v1922 v2117 => decidable_of_iff' _ (Iff.of_eq (k1_chk1023.eq_1 v1922 v2117))
theorem k1_idx1023_inb : ∀ (v1922 : IVec S16 32) (v2117 : IVec S16 32) (k1_hw1023 : k1_chk1023 v1922 v2117), ∀ a x, ((![v1922, v2117] : Fin 2 → IVec S16 32) a x).toNat < S512x128.size a := fun v1922 v2117 k1_hw1023 => k1_hw1023

def k1_chk1024 (v1922 : IVec S16 32) (v2116 : IVec S16 32) : Prop :=
  (∀ a x, ((![v2116, v1922] : Fin 2 → IVec S16 32) a x).toNat < S64x512.size a)
instance k1_chk1024.dec : ∀ (v1922 : IVec S16 32) (v2116 : IVec S16 32), Decidable (k1_chk1024 v1922 v2116) := fun v1922 v2116 => decidable_of_iff' _ (Iff.of_eq (k1_chk1024.eq_1 v1922 v2116))
theorem k1_idx1024_inb : ∀ (v1922 : IVec S16 32) (v2116 : IVec S16 32) (k1_hw1024 : k1_chk1024 v1922 v2116), ∀ a x, ((![v2116, v1922] : Fin 2 → IVec S16 32) a x).toNat < S64x512.size a := fun v1922 v2116 k1_hw1024 => k1_hw1024
def k1_off10 (i : grid1.Coords) : Fin 2 → Nat :=
  let c0_i32_257_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x64_S64x1000000_1_0 : S1000000x64.Transposes [1, 0] S64x1000000
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  slices_S64x32768_o0_0_S64x16384 : S64x32768.Slices ![0, 0] S64x16384
  slices_S64x32768_o0_16384_S64x16384 : S64x32768.Slices ![0, 16384] S64x16384
  concatenates_S64x16384_S64x16384_S128x16384_d0 : Shape.Concatenates [S64x16384, S64x16384] S128x16384 0
  transposes_S128x16384_p1_0_S16384x128 : S128x16384.Transposes [1, 0] S16384x128
  inb_S16384x128_S16384x128_0_0 : ∀ a, (![0, 0] : Fin 2 → Nat) a + S16384x128.size a ≤ S16384x128.size a
  h_S16384x128 : 0 < S16384x128.numel
  inb_S512_S16_0 : ∀ a, (![0] : Fin 1 → Nat) a + S16.size a ≤ S512.size a
  h_S16 : 0 < S16.numel
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  iota_S16_d0_w32_scVector : S16.Iotas .scVector 32 [0]
  inb_S507904x128_S507904x128_0_0 : ∀ a, (![0, 0] : Fin 2 → Nat) a + S507904x128.size a ≤ S507904x128.size a
  gathers_S507904x128_S512x128 : S507904x128.Gathers 0 S512x128
  h_S512x128 : 0 < S512x128.numel
  h_S64x512 : 0 < S64x512.numel
  transposes_S64x16384_S16384x64_1_0 : S64x16384.Transposes [1, 0] S16384x64
  hcc1_scratch5 : 4 + S_.numel ≤ 7
  hcc1_scoped0 : 5 + S_.numel ≤ 7
  hcc1_scoped1 : 6 + S_.numel ≤ 7
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x32768.size a < S64x1000000.size a
  hwx0_0 : ∀ i : grid0.Coords, EltTy.bits .f32 = 32 ∨ (Rect.unit (s := S64x1000000) (fun a => cc0_transform_0 i a * S64x32768.size a) (fun a => (Pipeline.Clip.of (cc0_transform_0 i a) (S64x32768.size a) (S64x1000000.size a)).extent (S64x32768.size a)) fun a => Pipeline.Clip.inb (Pipeline.Clip.ok_of (hstart0_0 i a))).WholeWords (EltTy.packing .f32)
  hwxs0_0 : ∀ i : grid0.Coords, EltTy.bits .f32 = 32 ∨ (Rect.unit (s := S64x32768) (fun _ => 0) (fun a => (Pipeline.Clip.of (cc0_transform_0 i a) (S64x32768.size a) (S64x1000000.size a)).extent (S64x32768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S507904x128.size a
  hwx0_1 : ∀ i : grid0.Coords, EltTy.bits .f32 = 32 ∨ (Rect.block (s := S507904x128) S16384x128.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ a, (k1_off1 i) a + S512.size a ≤ S16384.size a
  k1_t1_ok : k1_t1_loop.OK
  k1_off2_inb : ∀ k1_t1 : Fin k1_t1_loop.trips, ∀ a, (k1_off2 k1_t1) a + S16.size a ≤ S512.size a
  k1_off3_inb : ∀ k1_t1 : Fin k1_t1_loop.trips, ∀ a, (k1_off3 k1_t1) a + S16.size a ≤ S512.size a
  k1_off4_inb : ∀ k1_t1 : Fin k1_t1_loop.trips, ∀ a, (k1_off4 k1_t1) a + S16.size a ≤ S512.size a
  k1_off5_inb : ∀ k1_t1 : Fin k1_t1_loop.trips, ∀ a, (k1_off5 k1_t1) a + S16.size a ≤ S512.size a
  k1_off6_inb : ∀ k1_t1 : Fin k1_t1_loop.trips, ∀ a, (k1_off6 k1_t1) a + S16.size a ≤ S512.size a
  k1_off7_inb : ∀ k1_t1 : Fin k1_t1_loop.trips, ∀ a, (k1_off7 k1_t1) a + S16.size a ≤ S512.size a
  k1_off8_inb : ∀ k1_t1 : Fin k1_t1_loop.trips, ∀ a, (k1_off8 k1_t1) a + S16.size a ≤ S512.size a
  k1_off9_inb : ∀ k1_t1 : Fin k1_t1_loop.trips, ∀ a, (k1_off9 k1_t1) a + S16.size a ≤ S512.size a
  k1_off10_inb : ∀ i : grid1.Coords, ∀ a, (k1_off10 i) a + S64x512.size a ≤ S64x16384.size a

variable [Facts₀]

abbrev cc1_scratch5 : DmaSems sig S_ := SemArray.consecutive 4 S_ hcc1_scratch5
abbrev cc1_scoped0 : DmaSems sig S_ := SemArray.consecutive 5 S_ hcc1_scoped0
abbrev cc1_scoped1 : DmaSems sig S_ := SemArray.consecutive 6 S_ hcc1_scoped1

abbrev win0_0 : Pipeline.Window sig grid0 :=
  Pipeline.Window.ofSpecClip (Memref.whole main_v0) S64x32768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S16384x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x64, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x64, .f32⟩
  | .hbm, ⟨21, _⟩ => ⟨S16384x64, .i1⟩
  | .hbm, ⟨22, _⟩ => ⟨S_, .f32⟩
  | .hbm, ⟨23, _⟩ => ⟨S16384x64, .f32⟩
  | .hbm, ⟨24, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  gather_S1000000x64_S16384x1_S16384x64_1_0_n_n_0_1_164_wf : GatherDims.WF S1000000x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf

class Facts : Prop extends Facts₀ where

variable [Facts]
-- ==== Proof.RefRun.lean ====
/-
  The reference's run. Its @main is one call of jnp.take's outlined function: twenty-three host operations
  (the callee's own select among them), listed here in program order over the call's buffers. Every weakly
  fair execution ends with each buffer at the fold of those operations over the launch contents; the result
  buffer is then read as ONE pure function of the two arguments, `takeRows`, and both arguments are unchanged.
-/
import proofs.«202062_g26379689132623_cont_9to1_709_23_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The wrapped index list: a negative index has the table's height added (jnp's normalisation). -/
def wrapped (idx : IVec S16384 32) : IVec S16384 32 :=
  select (cmpi .slt idx (broadcastInDim S16384 ![] bcast_S_S16384 (constantI S_ 32 0#32)))
    (addi idx (broadcastInDim S16384 ![] bcast_S_S16384 (constantI S_ 32 1000000#32))) idx

/-- The wrapped indices as a column [16384, 1], the form the gather takes them in. -/
def column (idx : IVec S16384 32) : IVec S16384x1 32 :=
  broadcastInDim S16384x1 ![0] bcast_S16384_S16384x1_0 (wrapped idx)

/-- Per row, whether the wrapped index names a row of the table: 0 ≤ · ≤ 999999. -/
def inTable (idx : IVec S16384 32) : IVec S16384 1 :=
  Host.reduce IntOp.andi
    (andi (cmpi .sge (column idx) (broadcastInDim S16384x1 ![] bcast_S_S16384x1 (constantI S_ 32 0#32)))
      (cmpi .sle (column idx) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- jnp.take in its default (fill) mode as the reference prints it: the gathered rows where the wrapped
    index names a row of the table, the fill pattern elsewhere. -/
def takeRows (idx : IVec S16384 32) (table : FVec F S1000000x64 .f32) : FVec F S16384x64 .f32 :=
  select (broadcastInDim S16384x64 ![0] bcast_S16384_S16384x64_0 (inTable idx))
    (Host.gather gather_S1000000x64_S16384x1_S16384x64_1_0_n_n_0_1_164 table (column idx))
    (broadcastInDim S16384x64 ![] bcast_S_S16384x64 (constant S_ .f32 0x7FC00000#32))

/-- @main's operations in order: the callee's, with its own call of the select inlined where it stands. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select ]

set_option maxRecDepth 1024 in
/-- @main is that straight line: the two functions unfolded at their calls, the sequencing reassociated. -/
theorem main_eq (c : Dev nD) : main (F := F) c = seq ops := by
  simp only [main, fn_take.body, fn_where.body, seq, bind_assoc, pure_bind]

set_option maxHeartbeats 2000000 in
set_option maxRecDepth 65536 in
/-- The fold at the result buffer is `takeRows` of the two arguments: each operation's result is its function of
    its operands' contents at its own buffer and leaves every other buffer as it was. -/
theorem out_eq (V : Valuation τ sig (Elt F)) :
    after ops V (main_v0 : DevRef τ sig)
      = takeRows (F := F) (V (main_arg0 : DevRef τ sig)) (V (main_arg1 : DevRef τ sig)) := by
  unfold takeRows inTable column wrapped
  after_results_simp <;> rfl

set_option maxHeartbeats 2000000 in
theorem arg0_eq (V : Valuation τ sig (Elt F)) :
    after ops V (main_arg0 : DevRef τ sig) = V (main_arg0 : DevRef τ sig) := by
  after_results_simp

set_option maxHeartbeats 2000000 in
theorem arg1_eq (V : Valuation τ sig (Elt F)) :
    after ops V (main_arg1 : DevRef τ sig) = V (main_arg1 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every weakly fair execution of the reference terminates with the result buffer at `takeRows` of the
    arguments' launch contents and both arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
        = takeRows (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.RefRun

end
-- ==== Proof.LibGatherRows.lean ====
/-
  A gather whose every result row is addressed by ONE signed index word (start indices `[E, 1]`, the index vector on
  axis 1, its one component the start on operand axis 0, that axis collapsed, slice size 1 along it), read at one
  element. Two shapes of it: elements of a vector `[N]` gathered into `[E]`, and rows of a matrix `[N, M]` gathered into
  `[E, M]` (axis 1 of the result is the offset axis, the slice the whole row). Result row `e` is the operand's row at
  the index word read signed and clamped into `[0, N - 1]`. Stated over variable extents and any element type.
-/
import Idealize.ShloMosaic.PureOps.ShapeOps
import Idealize.ShloMosaic.Lib.ValueIdx

namespace Cert.GatherRows

open Idealize.ShloMosaic Idealize.ShloMosaic.ValueIdx

/-! ## Elements of a vector -/

/-- The dimension numbers of a gather of elements of `[N]` into `[E]` by index words `[E, 1]`: no offset axes, the
    operand's one axis collapsed, the one index component its start, index vector on axis 1, slice size 1. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of `vecDims` read at `e`: on the one operand axis there is no batching and no offset coordinate, and the
    start is the index word of `e` read signed and clamped into `[0, N - 1]`. -/
theorem gather_vec_apply {N E w : Nat} {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) =
      x (ix1 ⟨min (idx (ix2 e (0 : Fin 1))).toInt.toNat (N - 1), by omega⟩) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Elements of a vector, read at `e`. -/
theorem gather_vec_apply_of_fields {N E w : Nat} {α : Type} (hN : 0 < N)
    (d : GatherDims ⟨1, ![N]⟩ ⟨2, ![E, 1]⟩ ⟨1, ![E]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 ⟨min (idx (ix2 e (0 : Fin 1))).toInt.toNat (N - 1), by omega⟩) := by
  obtain ⟨od, cs, ob, sb, sm, iv, ss, wf⟩ := d
  dsimp only at hod hcs hob hsb hsm hiv hss
  subst hod hcs hob hsb hsm hiv hss
  exact gather_vec_apply hN wf x idx e

/-! ## Rows of a matrix -/

/-- The dimension numbers of a gather of rows of `[N, M]` into `[E, M]` by index words `[E, 1]`: axis 1 of the result
    the one offset axis, operand axis 0 collapsed, the one index component its start, index vector on axis 1, the slice
    one whole row. -/
abbrev rowDims (N M E : Nat) (wf : GatherDims.WF ⟨2, ![N, M]⟩ ⟨2, ![E, 1]⟩ ⟨2, ![E, M]⟩ [1] [0] [] [0] [] 1 ![1, M]) :
    GatherDims ⟨2, ![N, M]⟩ ⟨2, ![E, 1]⟩ ⟨2, ![E, M]⟩ where
  offsetDims := [1]
  collapsedSliceDims := [0]
  operandBatchingDims := []
  startIndicesBatchingDims := []
  startIndexMap := [0]
  indexVectorDim := 1
  sliceSizes := ![1, M]
  wf := wf

/-- The gather of `rowDims` read at `(e, k)`: on the row axis the start is the index word of `e` read signed and clamped
    into `[0, N - 1]`, with no offset; on the column axis the start is 0 and the offset coordinate is `k`. -/
theorem gather_rows_apply {N M E w : Nat} {α : Type} (hN : 0 < N)
    (wf : GatherDims.WF ⟨2, ![N, M]⟩ ⟨2, ![E, 1]⟩ ⟨2, ![E, M]⟩ [1] [0] [] [0] [] 1 ![1, M])
    (x : (⟨2, ![N, M]⟩ : Shape).Idx → α) (idx : IVec ⟨2, ![E, 1]⟩ w) (e : Fin E) (k : Fin M) :
    Host.gather (rowDims N M E wf) x idx (ix2 e k) =
      x (ix2 ⟨min (idx (ix2 e (0 : Fin 1))).toInt.toNat (N - 1), by omega⟩ k) := by
  unfold Host.gather
  congr 1
  funext a
  refine Fin.ext ?_
  match a with
  | ⟨0, _⟩ =>
    show (rowDims N M E wf).start (ix2 e k) idx 0 + (rowDims N M E wf).batchCoord (ix2 e k) 0
      + (rowDims N M E wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M E wf).startIndexMap from List.mem_singleton.mpr rfl)]
    have hsi : (rowDims N M E wf).siIdx (ix2 e k) ⟨List.idxOf (0 : Fin 2) (rowDims N M E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N M E wf).start (ix2 e k) idx 1 + (rowDims N M E wf).batchCoord (ix2 e k) 1
      + (rowDims N M E wf).offCoord (ix2 e k) 1 = k.val
    have hs : (rowDims N M E wf).start (ix2 e k) idx 1 = 0 := by
      unfold GatherDims.start
      refine dif_neg ?_
      show ¬ (1 : Fin 2) ∈ ([0] : List (Fin 2))
      decide
    have ho : (rowDims N M E wf).offCoord (ix2 e k) 1 = k.val := by
      unfold GatherDims.offCoord
      have h : (1 : Fin 2) ∈ (rowDims N M E wf).sKept := by
        refine (GatherDims.mem_sKept (rowDims N M E wf) 1).2 ⟨?_, List.not_mem_nil⟩
        show ¬ (1 : Fin 2) ∈ ([0] : List (Fin 2))
        decide
      rw [dif_pos h]
      rfl
    rw [GatherDims.batchCoord_eq_zero _ _ _ List.not_mem_nil, hs, ho]
    omega

/-- Rows of a matrix, read at `(e, k)`. -/
theorem gather_rows_apply_of_fields {N M E w : Nat} {α : Type} (hN : 0 < N)
    (d : GatherDims ⟨2, ![N, M]⟩ ⟨2, ![E, 1]⟩ ⟨2, ![E, M]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, M])
    (x : (⟨2, ![N, M]⟩ : Shape).Idx → α) (idx : IVec ⟨2, ![E, 1]⟩ w) (e : Fin E) (k : Fin M) :
    Host.gather d x idx (ix2 e k) = x (ix2 ⟨min (idx (ix2 e (0 : Fin 1))).toInt.toNat (N - 1), by omega⟩ k) := by
  obtain ⟨od, cs, ob, sb, sm, iv, ss, wf⟩ := d
  dsimp only at hod hcs hob hsb hsm hiv hss
  subst hod hcs hob hsb hsm hiv hss
  exact gather_rows_apply hN wf x idx e k

end Cert.GatherRows
-- ==== Proof.RefValue.lean ====
/-
  The reference's result read at one element. Where every index lies in [0, 999999] the wrapped index is the
  index itself (nothing is negative), the per-row mask is 1 (the index names a row of the table) and the
  gather's clamp into [0, 999999] does nothing: element (b, j) of the result is the table's element
  (idx b, j). No arithmetic on the table's entries is involved, so nothing is asked of them.
-/
import proofs.«202062_g26379689132623_cont_9to1_709_23_alg».proof.Proof.RefRun
import proofs.«202062_g26379689132623_cont_9to1_709_23_alg».proof.Proof.LibGatherRows
import Idealize.ShloMosaic.Lib.ValueIdx
import Idealize.ShloMosaic.Lib.IdealHost
import Idealize.ShloMosaic.Lib.Pipeline.Value
import Idealize.ShloMosaic.Lib.Affine

noncomputable section

namespace Cert.ReferenceIdeal.RefValue

open Cert.ReferenceIdeal Cert.ReferenceIdeal.Gen Cert.ReferenceIdeal.RefRun Idealize.ShloMosaic Idealize.ShloMosaic.ValueIdx

variable {F : FTy → Type} [FloatOps F]

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- Every index word, read signed, lies in [0, 999999]: the table's rows. -/
def InRange (idx : IVec S16384 32) : Prop :=
  ∀ b : Fin 16384, 0 ≤ (idx (ix1 b)).toInt ∧ (idx (ix1 b)).toInt ≤ 999999

/-- A nonnegative index is not wrapped. -/
theorem wrapped_apply (idx : IVec S16384 32) (b : Fin 16384) (h0 : 0 ≤ (idx (ix1 b)).toInt) :
    wrapped idx (ix1 b) = idx (ix1 b) := by
  unfold wrapped
  rw [select_apply]
  have hc : cmpi .slt idx (broadcastInDim S16384 ![] bcast_S_S16384 (constantI S_ 32 0#32)) (ix1 b) = 0#1 := by
    refine eq_zero_of_ne_one fun h => ?_
    have h' : (idx (ix1 b)).toInt < (0#32 : BitVec 32).toInt := IntOp.cmpi_slt.1 h
    have hz : (0#32 : BitVec 32).toInt = 0 := by decide
    omega
  rw [hc, select_zero]

/-- The index column at row `b` is the wrapped index of `b`. -/
theorem column_apply (idx : IVec S16384 32) (b : Fin 16384) (q : Fin 1) :
    column idx (ix2 b q) = wrapped idx (ix1 b) := by
  unfold column
  refine broadcastInDim_apply _ _ _ _ (ix1 b) fun a => ?_
  match a with
  | ⟨0, _⟩ => rfl

/-- In range, every row's mask bit is 1. -/
theorem inTable_apply (idx : IVec S16384 32) (hr : InRange idx) (b : Fin 16384) : inTable idx (ix1 b) = 1#1 := by
  unfold inTable
  rw [Host.reduce_eq_foldl]
  refine foldl_andi_ones _ (fun i => ?_) _
  obtain ⟨p, q, rfl⟩ : ∃ (p : Fin 16384) (q : Fin 1), i = ix2 p q := ⟨i 0, i 1, eq_ix2 i⟩
  have h0 : (0#32 : BitVec 32).toInt = 0 := by decide
  have h9 : (999999#32 : BitVec 32).toInt = 999999 := by decide
  refine IntOp.andi_eq_one.2 ⟨IntOp.cmpi_sge.2 ?_, IntOp.cmpi_sle.2 ?_⟩
  · rw [column_apply, wrapped_apply idx p (hr p).1]
    show (0#32 : BitVec 32).toInt ≤ _
    rw [h0]; exact (hr p).1
  · rw [column_apply, wrapped_apply idx p (hr p).1]
    show _ ≤ (999999#32 : BitVec 32).toInt
    rw [h9]; exact (hr p).2

/-- The table's row an in-range index names. -/
def rowOf (idx : IVec S16384 32) (hr : InRange idx) (b : Fin 16384) : Fin 1000000 :=
  ⟨(idx (ix1 b)).toInt.toNat, by have := hr b; omega⟩

/-- In range, the reference's element (b, j) is the table's element (idx b, j). -/
theorem takeRows_apply (idx : IVec S16384 32) (table : FVec F S1000000x64 .f32) (hr : InRange idx)
    (b : Fin 16384) (j : Fin 64) :
    takeRows (F := F) idx table (ix2 b j) = table (ix2 (rowOf idx hr b) j) := by
  unfold takeRows
  rw [select_apply]
  have hm : broadcastInDim S16384x64 ![0] bcast_S16384_S16384x64_0 (inTable idx) (ix2 b j) = 1#1 := by
    rw [broadcastInDim_apply _ _ _ _ (ix1 b) (fun a => by match a with | ⟨0, _⟩ => rfl)]
    exact inTable_apply idx hr b
  rw [hm, select_one,
    Cert.GatherRows.gather_rows_apply_of_fields (by decide : 0 < 1000000) _ rfl rfl rfl rfl rfl rfl rfl]
  refine congrArg table (congrArg (fun r : Fin 1000000 => ix2 r j) (Fin.ext ?_))
  show min (column idx (ix2 b (0 : Fin 1))).toInt.toNat (1000000 - 1) = (idx (ix1 b)).toInt.toNat
  rw [column_apply, wrapped_apply idx b (hr b).1]
  have := (hr b).2
  omega

end Cert.ReferenceIdeal.RefValue

end
-- ==== Proof.PreRange.lean ====
/-
  The stated input domain, opened. The precondition is the conjunction of two tests reduced by `and` to one
  bit: every table entry has finite magnitude, and every index word, read signed, lies in [0, 999999]. Here
  the second: if the bit is 1, every index is in that range.
-/
import proofs.«202062_g26379689132623_cont_9to1_709_23_alg».proof.Proof.Gen.Pre_input_domain
import Idealize.ShloMosaic.Lib.ReduceAll
import Idealize.ShloMosaic.Lib.ValueIdx
import Idealize.ShloMosaic.Lib.IdealHost

noncomputable section

namespace Cert.Pre_input_domain.Range

open Cert.Pre_input_domain Cert.Pre_input_domain.Gen Idealize.ShloMosaic Idealize.ShloMosaic.ValueIdx

variable {F : FTy → Type} [FloatOps F]

instance : Subsingleton S_.Idx := ⟨fun a b => funext fun d => d.elim0⟩

/-- Where the input-domain bit is 1, every index word read signed lies in [0, 999999]. -/
theorem index_range (idx : IVec S16384 32) (table : FVec F S1000000x64 .f32)
    (h : fn (F := F) idx table = fun _ => 1#1) (b : Fin 16384) :
    0 ≤ (idx (ix1 b)).toInt ∧ (idx (ix1 b)).toInt ≤ 999999 := by
  have h1 := congrFun h ix0
  dsimp only [fn] at h1
  obtain ⟨-, h9⟩ := IntOp.andi_eq_one.1 h1
  have hb := Host.reduce_andi_all _ _ _ _ ix0 h9 (ix1 b)
  obtain ⟨hge, hle⟩ := IntOp.andi_eq_one.1 hb
  have h0 : (0#32 : BitVec 32).toInt = 0 := by decide
  have h99 : (999999#32 : BitVec 32).toInt = 999999 := by decide
  have hge' : (0#32 : BitVec 32).toInt ≤ (idx (ix1 b)).toInt := IntOp.cmpi_sge.1 hge
  have hle' : (idx (ix1 b)).toInt ≤ (999999#32 : BitVec 32).toInt := IntOp.cmpi_sle.1 hle
  omega

end Cert.Pre_input_domain.Range

end
-- ==== Proof.Lookup.lean ====
/-
  The specification. Both programs compute, for every position b of the index list and every column j, the table's
  element at row idx b, column j: a lookup of 16384 rows of 64 numbers in a table of 1000000 rows. Stated as one total
  function of the two arguments (the index word read signed and clamped into the table, so that the definition asks
  nothing of the indices); where every index is in [0, 999999] it is what the reference's jnp.take returns.
-/
import proofs.«202062_g26379689132623_cont_9to1_709_23_alg».proof.Proof.RefValue

noncomputable section

namespace Cert.Lookup

open Idealize.ShloMosaic Idealize.ShloMosaic.ValueIdx

/-- Row `idx b` of the table at position `b`, column by column. -/
def rows {α : Type} (idx : IVec ⟨1, ![16384]⟩ 32) (table : (⟨2, ![1000000, 64]⟩ : Shape).Idx → α) :
    (⟨2, ![16384, 64]⟩ : Shape).Idx → α :=
  fun i =>
    let b : Fin 16384 := i 0
    let j : Fin 64 := i 1
    table (ix2 (⟨min (idx (ix1 b)).toInt.toNat 999999, by omega⟩ : Fin 1000000) j)

/-- In range, the reference's result is the lookup. -/
theorem takeRows_eq_rows {F : FTy → Type} [FloatOps F] (idx : IVec Cert.ReferenceIdeal.S16384 32)
    (table : FVec F Cert.ReferenceIdeal.S1000000x64 .f32) (hr : Cert.ReferenceIdeal.RefValue.InRange idx) :
    Cert.ReferenceIdeal.RefRun.takeRows (F := F) idx table = rows idx table := by
  funext i
  obtain ⟨b, j, rfl⟩ : ∃ (b : Fin 16384) (j : Fin 64), i = ix2 b j := ⟨i 0, i 1, eq_ix2 i⟩
  rw [Cert.ReferenceIdeal.RefValue.takeRows_apply idx table hr b j]
  refine congrArg table (congrArg (fun r : Fin 1000000 => ix2 r j) (Fin.ext ?_))
  show (idx (ix1 b)).toInt.toNat = min (idx (ix1 b)).toInt.toNat 999999
  have := (hr b).2
  omega

end Cert.Lookup

end
-- ==== Proof.LibPairSplit.lean ====
/-
  Splitting a row number into a pair row and a half. A table of rows is repacked in slabs of 32768 rows: slab w's
  first 16384 rows fill the left 64 columns of pair rows w·16384 … w·16384 + 16383 and its last 16384 rows fill
  the right 64 columns of the same pair rows. A row number n therefore lives in pair row
  (n / 32768)·16384 + n mod 16384, in the half (n / 16384) mod 2. Here the two words a 32-bit machine computes
  for them by shifts and masks — (v >> 15) << 14 | (v & 16383) and ((v >> 14) & 1) << 6 — are read as those numbers
  (for n below 2^20, so that no shift overflows), on any arithmetic unit; and n is recovered from the two.
-/
import Idealize.ShloMosaic.PureOps.Float

namespace Cert.PairSplit

open Idealize.ShloMosaic

/-- The pair row's word: (v >> 15) << 14 | (v & 16383). -/
def pairWord (u : ArithUnit) (v : BitVec 32) : BitVec 32 :=
  IntOp.ori (IntOp.shli u (IntOp.shrui u v 15#32) 14#32) (IntOp.andi v 16383#32)

/-- The half's column offset as a word: ((v >> 14) & 1) << 6, that is 0 or 64. -/
def halfWord (u : ArithUnit) (v : BitVec 32) : BitVec 32 :=
  IntOp.shli u (IntOp.andi (IntOp.shrui u v 14#32) 1#32) 6#32

/-- A logical shift right by a literal amount below the width divides by the power of two. -/
theorem shrui_toNat (u : ArithUnit) (v k : BitVec 32) (hk : k.toNat < 32) :
    (IntOp.shrui u v k).toNat = v.toNat / 2 ^ k.toNat := by
  unfold IntOp.shrui
  rw [if_pos hk, BitVec.ushiftRight_eq', BitVec.toNat_ushiftRight, Nat.shiftRight_eq_div_pow]

/-- A shift left by a literal amount below the width multiplies by the power of two when nothing is shifted out. -/
theorem shli_toNat (u : ArithUnit) (v k : BitVec 32) (hk : k.toNat < 32) (hv : v.toNat * 2 ^ k.toNat < 2 ^ 32) :
    (IntOp.shli u v k).toNat = v.toNat * 2 ^ k.toNat := by
  unfold IntOp.shli
  rw [if_pos hk, BitVec.shiftLeft_eq', BitVec.toNat_shiftLeft, Nat.shiftLeft_eq, Nat.mod_eq_of_lt hv]

/-- The pair row's word is (n / 32768)·16384 + n mod 16384. -/
theorem pairWord_toNat (u : ArithUnit) (v : BitVec 32) (hv : v.toNat < 2 ^ 20) :
    (pairWord u v).toNat = v.toNat / 32768 * 16384 + v.toNat % 16384 := by
  have hs : (IntOp.shrui u v 15#32).toNat = v.toNat / 32768 := shrui_toNat u v 15#32 (by decide)
  have hsl : (IntOp.shli u (IntOp.shrui u v 15#32) 14#32).toNat = (v.toNat / 32768) <<< 14 := by
    rw [shli_toNat u _ 14#32 (by decide) ?_, hs, Nat.shiftLeft_eq]
    · rfl
    · rw [hs]
      show v.toNat / 32768 * 16384 < 4294967296
      have : v.toNat < 1048576 := hv
      omega
  have hand : (IntOp.andi v 16383#32).toNat = v.toNat % 16384 := by
    unfold IntOp.andi
    rw [BitVec.toNat_and]
    exact Nat.and_two_pow_sub_one_eq_mod v.toNat 14
  unfold pairWord IntOp.ori
  rw [BitVec.toNat_or, hsl, hand,
    ← Nat.shiftLeft_add_eq_or_of_lt (show v.toNat % 16384 < 2 ^ 14 from Nat.mod_lt _ (by decide)), Nat.shiftLeft_eq]

/-- The half's word is ((n / 16384) mod 2)·64. -/
theorem halfWord_toNat (u : ArithUnit) (v : BitVec 32) :
    (halfWord u v).toNat = v.toNat / 16384 % 2 * 64 := by
  have hs : (IntOp.shrui u v 14#32).toNat = v.toNat / 16384 := shrui_toNat u v 14#32 (by decide)
  have hand : (IntOp.andi (IntOp.shrui u v 14#32) 1#32).toNat = v.toNat / 16384 % 2 := by
    unfold IntOp.andi
    rw [BitVec.toNat_and, hs]
    exact Nat.and_two_pow_sub_one_eq_mod (v.toNat / 16384) 1
  unfold halfWord
  rw [shli_toNat u _ 6#32 (by decide) ?_, hand]
  · rfl
  · rw [hand]
    show v.toNat / 16384 % 2 * 64 < 4294967296
    omega

/-- The row number from its pair row and half: slab·32768 + half·16384 + the row inside the half. -/
theorem row_of_pair_half (n : Nat) :
    (n / 32768 * 16384 + n % 16384) / 16384 * 32768 + n / 16384 % 2 * 16384 + (n / 32768 * 16384 + n % 16384) % 16384 = n := by
  omega

/-- Below a table of 1000000 rows the pair row is below 31 slabs of 16384. -/
theorem pair_lt (n : Nat) (hn : n < 1000000) : n / 32768 * 16384 + n % 16384 < 507904 := by
  omega

/-- The half's offset plus a column below 64 is a column below 128. -/
theorem half_col_lt (n j : Nat) (hj : j < 64) : n / 16384 % 2 * 64 + j < 128 := by
  omega

end Cert.PairSplit
-- ==== Proof.KISetup.lean ====
/-
  The program as the launch of its SparseCore call sees it, and what the call's threads exchange. @main hands each
  SparseCore, and each SparseCore hands each of its sixteen vector subcores: a read share of the repacked table (whole:
  a subcore's 512 indices may name any pair row), a read share of the index list, and the 512 columns of the transposed
  result that are the subcore's own — subcore s of SparseCore c works on positions (2 s + c)·512 … + 511. What comes
  back is the same with those columns filled: column p of the transposed result holds row idx p of the table.
  The repacked table's contents are not a function of the table alone (its last slab overhangs the table's 1000000
  rows), so they travel as some contents `pc` together with what is known of them: for every row number n below
  1000000 and column j below 64, pc (pair row of n, half of n · 64 + j) = table (n, j).
-/
import proofs.«202062_g26379689132623_cont_9to1_709_23_alg».proof.Defs
import proofs.«202062_g26379689132623_cont_9to1_709_23_alg».proof.Proof.Lookup
import proofs.«202062_g26379689132623_cont_9to1_709_23_alg».proof.Proof.LibPairSplit
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202062_g26379689132623_cont_9to1_709_23_alg».proof.Proof.Gen.KernelIdeal
import proofs.«202062_g26379689132623_cont_9to1_709_23_alg».proof.Proof.Gen.KernelIdeal.Skeleton

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipeline's rounds library: the left part of the right factor. -/
def ER : Emb UP (MT nD τ sig (HIx 1) (Elt F) ℕ UU ℕ) := (Emb.inl : Emb UP (UP × Counters)).trans embR

instance ER_landsIn : (ER : Emb UP (MT nD τ sig (HIx 1) (Elt F) ℕ UU ℕ)).LandsIn (upEmb : UEmb _ (MT nD τ sig (HIx 1) (Elt F) ℕ UU ℕ)) := by
  unfold ER; infer_instance

/-! ## The arrays -/

variable (m : (ℓ : Loc nD τ sig) → Buf (Elt F) ℓ) (ρ : Dev nD → PrngReg)

abbrev iLoc (d : Dev nD) : Loc nD τ sig := (SparseCore.T d).loc main_arg0
abbrev tLoc (d : Dev nD) : Loc nD τ sig := (SparseCore.T d).loc main_arg1
abbrev pLoc (d : Dev nD) : Loc nD τ sig := (SparseCore.T d).loc main_v1
abbrev oLoc (d : Dev nD) : Loc nD τ sig := (SparseCore.T d).loc main_v2

/-- The pair row of row number `n`, and its half's column offset. -/
def pairRow (n : Nat) : Nat := n / 32768 * 16384 + n % 16384
def halfOff (n : Nat) : Nat := n / 16384 % 2 * 64

/-- What is known of the repacked table's contents `pc`: each of the table's rows sits in its pair row's half. -/
def PairedOK (table : S1000000x64.Idx → Elt F .f32) (pc : S507904x128.Idx → Elt F .f32) : Prop :=
  ∀ (n : Fin 1000000) (j : Fin 64),
    pc (ix2 (⟨pairRow n.val, Cert.PairSplit.pair_lt n.val n.isLt⟩ : Fin 507904)
        (⟨halfOff n.val + j.val, Cert.PairSplit.half_col_lt n.val j.val j.isLt⟩ : Fin 128)) = table (ix2 n j)

/-- The transposed result: column `p` holds row `idx p` of the table. -/
def rowsT (idx : S16384.Idx → BitVec 32) (table : S1000000x64.Idx → Elt F .f32) : S64x16384.Idx → Elt F .f32 :=
  fun i => Cert.Lookup.rows idx table (ix2 (i 1 : Fin 16384) (i 0 : Fin 64))

/-- The first of the 512 positions vector subcore `s` of SparseCore `c` works on. -/
def base (c : Fin 2) (s : Fin 16) : Nat := (s.val * 2 + c.val) * 512

end Cert.KernelIdeal.Tile

end
-- ==== Proof.KIPay.lean ====
/-
  What the launch's handshakes carry for the lookup's SparseCore call. @main hands each SparseCore a read share of the
  repacked table (whole, at whatever contents it has), a read share of the index list, and the columns of the
  transposed result its sixteen vector subcores fill; the sequencer hands each vector subcore a share of its two
  shares and the subcore's own 512 columns. The shares are the read tokens of Lib/Transfers.lean: SparseCore `c`'s is
  token `c` of two of the full share, vector subcore `i`'s token `i` of sixteen of that. The columns are stated as a
  unit-stride rectangle of the result's shape — all 64 rows, the 512 columns from `base c i` — and are the elements
  the program's own slice of the result addresses (`set_oSlice`).
-/
import proofs.«202062_g26379689132623_cont_9to1_709_23_alg».proof.Proof.KISetup

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The shares -/

abbrev qCore (c : Fin 2) : PosShare TreeShare := Transfers.shareTok fullShare 2 c
abbrev qTile (c : Fin 2) (i : Fin 16) : PosShare TreeShare := Transfers.shareTok (qCore c) 16 i

/-! ## The columns -/

theorem base_le (c : Fin 2) (i : Fin 16) : base c i + 512 ≤ 16384 := by
  unfold base; have := c.isLt; have := i.isLt; omega

theorem cols_inb (c : Fin 2) (i : Fin 16) : ∀ a, (![0, base c i] : Fin 2 → Nat) a + S64x512.size a ≤ S64x16384.size a :=
  Rect.inb₂ (Nat.le_refl _) (base_le c i)

/-- The columns `base c i … base c i + 511` of the transposed result, all 64 rows. -/
def cols (c : Fin 2) (i : Fin 16) : Finset S64x16384.Idx := (Rect.unit (s := S64x16384) ![0, base c i] S64x512.size (cols_inb c i)).set

/-- A SparseCore's columns: its sixteen vector subcores'. -/
def colsCore (c : Fin 2) : Finset S64x16384.Idx := (Finset.univ : Finset (Fin 16)).biUnion (cols c)

theorem mem_cols {c : Fin 2} {i : Fin 16} {x : S64x16384.Idx} : x ∈ cols c i ↔ base c i ≤ (x 1 : Nat) ∧ (x 1 : Nat) < base c i + 512 := by
  unfold cols
  rw [Rect.mem_set_unit, Fin.forall_fin_two]
  constructor
  · rintro ⟨-, h1⟩; exact h1
  · intro h; exact ⟨⟨Nat.zero_le _, by have := (x 0).isLt; simpa using this⟩, h⟩

/-! ## The place of a vector subcore in the kernel's grid -/

theorem bound_zero : grid1.bound 0 = 2 := rfl
theorem bound_one : grid1.bound 1 = 16 := rfl
abbrev cL (L : grid1.Coords) : Fin 2 := Fin.cast bound_zero (L 0)
abbrev sL (L : grid1.Coords) : Fin 16 := Fin.cast bound_one (L 1)
abbrev thrOf (d : Dev nD) (L : grid1.Coords) : Thread nD τ := V d ((L 0).castLE hcore1) ((L 1).castLE hsub1)

/-- The program's slice of the transposed result at grid point `L`. -/
abbrev oSlice (L : grid1.Coords) := (Memref.whole main_v2_scv).slice (Rect.unit (s := S64x16384) (k1_off10 L) S64x512.size (k1_off10_inb L)) (fun _ => rfl)

theorem k1_off10_base (L : grid1.Coords) : k1_off10 L = ![0, base (cL L) (sL L)] := by
  rw [k1_off10_eq]; unfold base
  funext a
  match a with
  | 0 => rfl
  | 1 => show 1024 * (L 1).val + 512 * (L 0).val = ((L 1).val * 2 + (L 0).val) * 512; omega

/-- The elements the program's slice addresses are the subcore's columns. -/
theorem unit_set_cols (L : grid1.Coords) :
    (Rect.unit (s := S64x16384) (k1_off10 L) S64x512.size (k1_off10_inb L)).set = cols (cL L) (sL L) := by
  ext x
  rw [mem_cols, Rect.mem_set_unit, Fin.forall_fin_two, k1_off10_base]
  constructor
  · rintro ⟨-, h1⟩; exact h1
  · intro h
    refine ⟨⟨Nat.zero_le _, ?_⟩, h⟩
    show (x 0 : Nat) < 0 + 64
    have h0 : (x 0 : Nat) < 64 := (x 0).isLt
    omega

theorem set_oSlice (L : grid1.Coords) : (oSlice L).view.set = cols (cL L) (sL L) :=
  (View.set_slice_whole main_v2_scv _).trans (unit_set_cols L)

/-! ## The payloads -/

variable (m : (ℓ : Loc nD τ sig) → Buf (Elt F) ℓ)

/-- The indices name rows of the table. -/
def PreOK : Prop := ∀ (d : Dev nD) (b : Fin 16384), 0 ≤ (m (iLoc d) (ix1 b)).toInt ∧ (m (iLoc d) (ix1 b)).toInt ≤ 999999

/-- What a vector subcore's task is handed: a read share of the repacked table at some contents, a read share of the
    index list, its own columns of the transposed result at some contents; -/
def goRes (d : Dev nD) (c : Fin 2) (i : Fin 16) : sProp 𝕄 :=
  iprop((∃ pc, pLoc d ↦{qTile c i} pc) ∗ (iLoc d ↦{qTile c i} m (iLoc d)) ∗ ∃ f, oLoc d ↦[cols c i]{fullShare} f)
/-- and what it hands back: the same. -/
def tdRes (d : Dev nD) (c : Fin 2) (i : Fin 16) : sProp 𝕄 :=
  iprop((∃ pc, pLoc d ↦{qTile c i} pc) ∗ (iLoc d ↦{qTile c i} m (iLoc d)) ∗ ∃ f, oLoc d ↦[cols c i]{fullShare} f)

/-- What a SparseCore is handed, and hands back: the same three at its own share, over its subcores' columns. -/
def stRes (d : Dev nD) (c : Fin 2) : sProp 𝕄 :=
  iprop((∃ pc, pLoc d ↦{qCore c} pc) ∗ (iLoc d ↦{qCore c} m (iLoc d)) ∗ ∃ f, oLoc d ↦[colsCore c]{fullShare} f)
def dnRes (d : Dev nD) (c : Fin 2) : sProp 𝕄 :=
  iprop((∃ pc, pLoc d ↦{qCore c} pc) ∗ (iLoc d ↦{qCore c} m (iLoc d)) ∗ ∃ f, oLoc d ↦[colsCore c]{fullShare} f)

instance goRes_storable (d : Dev nD) (c : Fin 2) (i : Fin 16) : BI.Storable (upEmb : UEmb _ 𝕄) (goRes m d c i) := by
  unfold goRes; infer_instance
instance tdRes_storable (d : Dev nD) (c : Fin 2) (i : Fin 16) : BI.Storable (upEmb : UEmb _ 𝕄) (tdRes m d c i) := by
  unfold tdRes; infer_instance
instance stRes_storable (d : Dev nD) (c : Fin 2) : BI.Storable (upEmb : UEmb _ 𝕄) (stRes m d c) := by
  unfold stRes; infer_instance
instance dnRes_storable (d : Dev nD) (c : Fin 2) : BI.Storable (upEmb : UEmb _ 𝕄) (dnRes m d c) := by
  unfold dnRes; infer_instance

/-- The one call's payloads; the kernel's proof consumes nothing of the launch's. -/
def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

theorem P_st (d : Dev nD) (c : Fin ((K (F := F)).nCore 0)) : (P m).st 0 d c = stRes m d (Fin.cast nCore_zero c) := rfl
theorem P_dn (d : Dev nD) (c : Fin ((K (F := F)).nCore 0)) : (P m).dn 0 d c = dnRes m d (Fin.cast nCore_zero c) := rfl
theorem P_go (d : Dev nD) (c : Fin ((K (F := F)).nCore 0)) (i : Fin ((K (F := F)).nSub 0)) :
    (P m).go 0 d c i = goRes m d (Fin.cast nCore_zero c) (Fin.cast nSub_zero i) := rfl
theorem P_td (d : Dev nD) (c : Fin ((K (F := F)).nCore 0)) (i : Fin ((K (F := F)).nSub 0)) :
    (P m).td 0 d c i = tdRes m d (Fin.cast nCore_zero c) (Fin.cast nSub_zero i) := rfl
theorem P_x (q : Fin 1) (thr : Thread nD τ) : (P m).x q thr = iprop(emp) := rfl

instance P_storable : (P (F := F) m).IsStorable where
  st q d c := match q with | 0 => (inferInstance : BI.Storable (upEmb : UEmb _ 𝕄) (stRes m d (Fin.cast nCore_zero c)))
  dn q d c := match q with | 0 => (inferInstance : BI.Storable (upEmb : UEmb _ 𝕄) (dnRes m d (Fin.cast nCore_zero c)))
  go q d c i := match q with | 0 => (inferInstance : BI.Storable (upEmb : UEmb _ 𝕄) (goRes m d (Fin.cast nCore_zero c) (Fin.cast nSub_zero i)))
  td q d c i := match q with | 0 => (inferInstance : BI.Storable (upEmb : UEmb _ 𝕄) (tdRes m d (Fin.cast nCore_zero c) (Fin.cast nSub_zero i)))

end Cert.KernelIdeal.Tile

end
-- ==== Proof.KISplit.lean ====
/-
  How a SparseCore's operands split among its sixteen vector subcores, and its results gather from theirs. The two
  read shares split into a read token per subcore and a remainder, which stays with the split until the tasks are back
  and is joined with their tokens then; the SparseCore's columns of the transposed result are its subcores' columns,
  pairwise disjoint. The repacked table comes back from each task at SOME contents: every share of one array is at the
  same contents as the remainder kept here (two points-tos agree on their common elements), so the tokens join.
-/
import proofs.«202062_g26379689132623_cont_9to1_709_23_alg».proof.Proof.KISetup
import proofs.«202062_g26379689132623_cont_9to1_709_23_alg».proof.Proof.KIPay

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The subcores' columns -/

theorem cols_disjoint (c : Fin 2) :
    ∀ i ∈ (Finset.univ : Finset (Fin 16)), ∀ j ∈ (Finset.univ : Finset (Fin 16)), i ≠ j → Disjoint (cols c i) (cols c j) := by
  intro i _ j _ hij
  refine Finset.disjoint_left.mpr fun x hi hj => ?_
  have hv : i.val ≠ j.val := fun e => hij (Fin.ext e)
  obtain ⟨h1, h2⟩ := mem_cols.mp hi
  obtain ⟨h3, h4⟩ := mem_cols.mp hj
  unfold base at h1 h2 h3 h4
  omega

/-- A SparseCore's columns at one contents are its subcores' columns at that contents. -/
theorem oCols_split (d : Dev nD) (c : Fin 2) (f : Buf (Elt F) (oLoc d)) :
    (oLoc d ↦[colsCore c]{fullShare} f : sProp 𝕄) = bigSep Finset.univ fun i : Fin 16 => oLoc d ↦[cols c i]{fullShare} f := by
  unfold colsCore
  exact pointsTo_biUnion Finset.univ (ℓ := oLoc d) (cols c) (cols_disjoint c)

/-- The subcores' columns, each at some contents, are the SparseCore's at some contents. -/
theorem oCols_join [∀ e, Nonempty (Elt F e)] (d : Dev nD) (c : Fin 2) :
    (bigSep Finset.univ fun i : Fin 16 => iprop(∃ f, oLoc d ↦[cols c i]{fullShare} f)) ⊢ (iprop(∃ f, oLoc d ↦[colsCore c]{fullShare} f) : sProp 𝕄) := by
  refine (bigSep_exists_pi Finset.univ (fun i (f : Buf (Elt F) (oLoc d)) => (oLoc d ↦[cols c i]{fullShare} f : sProp 𝕄))).trans ?_
  iintro ⟨%fs, H⟩
  ihave H' := (pointsTo_biUnion_join Finset.univ (ℓ := oLoc d) (cols c) fs (fs 0) (cols_disjoint c)) $$ H
  icases H' with ⟨%g, -, Hg⟩
  iexists g; iexact Hg

/-! ## Shares of one array are at one contents -/

/-- With a share of an array at `f` in hand, shares of it each at some contents are shares of it at `f`. -/
theorem toks_agree {ℓ : Loc nD τ sig} {r : PosShare TreeShare} (f : Buf (Elt F) ℓ) {I : Type} [DecidableEq I] (s : Finset I) (q : I → PosShare TreeShare) :
    iprop((ℓ ↦{r} f) ∗ bigSep s fun i => iprop(∃ g, ℓ ↦{q i} g)) ⊢ (iprop((ℓ ↦{r} f) ∗ bigSep s fun i => ℓ ↦{q i} f) : sProp 𝕄) := by
  induction s using Finset.induction_on with
  | empty => rw [bigSep_empty, bigSep_empty]
  | insert a s ha ih =>
    rw [SparseCore.bigSep_insert' ha, SparseCore.bigSep_insert' ha]
    iintro ⟨Hr, ⟨%g, Ha⟩, Hs⟩
    ihave Hag := (persistent_entails_right pointsTo_agree) $$ [Hr Ha]
    · isplitl [Hr]; · iexact Hr
      iexact Ha
    icases Hag with ⟨%hag, Hr, Ha⟩
    ihave Ha' := (Entails.of_eq (pointsTo_congr (f := g) (g := f) fun i hi => (hag i (Finset.mem_inter.mpr ⟨hi, hi⟩)).1.symm)) $$ Ha
    ihave H := ih $$ [Hr Hs]
    · isplitl [Hr]; · iexact Hr
      iexact Hs
    icases H with ⟨Hr, Hs⟩
    isplitl [Hr]; · iexact Hr
    isplitl [Ha']; · iexact Ha'
    iexact Hs

theorem tok_exists {ℓ : Loc nD τ sig} (S : Finset (Idx ℓ)) (q : PosShare TreeShare) (f : Buf (Elt F) ℓ) :
    (ℓ ↦[S]{q} f : sProp 𝕄) ⊢ iprop(∃ g, ℓ ↦[S]{q} g) := by
  iintro H; iexists f; iexact H

/-- Shares of an array at one contents are shares of it each at some contents. -/
theorem toks_exists {ℓ : Loc nD τ sig} {I : Type} (s : Finset I) (q : I → PosShare TreeShare) (S : I → Finset (Idx ℓ)) (f : Buf (Elt F) ℓ) :
    (bigSep s fun i => (ℓ ↦[S i]{q i} f : sProp 𝕄)) ⊢ bigSep s fun i => iprop(∃ g, ℓ ↦[S i]{q i} g) :=
  bigSep_mono fun i _ => tok_exists (S i) (q i) f

/-! ## The split -/

variable (m : (ℓ : Loc nD τ sig) → Buf (Elt F) ℓ)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- SparseCore `c`'s operands to its sixteen subcores' and back. -/
theorem split16 [∀ e, Nonempty (Elt F e)] (d : Dev nD) (c : Fin 2) :
    stRes m d c ⊢ |={Set.univ}=> iprop((bigSep Finset.univ fun i : Fin 16 => goRes m d c i)
      ∗ ((bigSep Finset.univ fun i : Fin 16 => tdRes m d c i) -∗ dnRes m d c)) := by
  unfold stRes dnRes goRes tdRes
  rw [bigSep_sep', bigSep_sep']
  iintro ⟨⟨%pc, Hp⟩, Hi, ⟨%f, Ho⟩⟩
  imodintro
  ihave Hp' := (Transfers.pointsTo_toks_split (qCore c) 16) $$ Hp
  icases Hp' with ⟨Hpd, Hpt⟩
  ihave Hi' := (Transfers.pointsTo_toks_split (qCore c) 16) $$ Hi
  icases Hi' with ⟨Hid, Hit⟩
  ihave Ho' := (Entails.of_eq (oCols_split d c f)) $$ Ho
  isplitl [Hpt Hit Ho']
  · isplitl [Hpt]
    · iapply (toks_exists (ℓ := pLoc d) Finset.univ (fun i : Fin 16 => qTile c i) (fun _ => Finset.univ) pc)
      iexact Hpt
    isplitl [Hit]; · iexact Hit
    iapply (toks_exists (ℓ := oLoc d) Finset.univ (fun _ : Fin 16 => fullShare) (fun i => cols c i) f)
    iexact Ho'
  iintro ⟨Htp, Hti, Hto⟩
  ihave Hp2 := (toks_agree pc Finset.univ (fun i : Fin 16 => qTile c i)) $$ [Hpd Htp]
  · isplitl [Hpd]; · iexact Hpd
    iexact Htp
  isplitl [Hp2]
  · iexists pc
    iapply (Transfers.pointsTo_toks_join (qCore c) 16); iexact Hp2
  isplitl [Hid Hti]
  · iapply (Transfers.pointsTo_toks_join (qCore c) 16)
    isplitl [Hid]; · iexact Hid
    iexact Hti
  iapply (oCols_join d c); iexact Hto

theorem vecSplit [∀ e, Nonempty (Elt F e)] : (K (F := F)).VecSplit' (P m) 0 := by
  intro d c
  show stRes m d (Fin.cast nCore_zero c) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ dnRes m d (Fin.cast nCore_zero c)))
  rw [bigSep_tasks (F := F) (fun i => goRes m d (Fin.cast nCore_zero c) i), bigSep_tasks (F := F) (fun i => tdRes m d (Fin.cast nCore_zero c) i)]
  exact split16 m d (Fin.cast nCore_zero c)

end Cert.KernelIdeal.Tile

end
-- ==== Proof.KIObl.lean ====
/-
  The launch theorem's obligation for the lookup kernel as a vector subcore's task, from the proof of the kernel's
  body at a symbolic grid point: the obligation's program is the body table's row for the subcore, the kernel at the
  subcore's own coordinates when the grid holds it (it does: the call's grid is the kernel's); what the task is handed
  and hands back are the payloads of KIPay.lean at those coordinates.
-/
import proofs.«202062_g26379689132623_cont_9to1_709_23_alg».proof.Proof.KISetup
import proofs.«202062_g26379689132623_cont_9to1_709_23_alg».proof.Proof.KIPay

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

variable [FloatOps F]

/-- The grid point of vector subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_lookup (coordsV c s)
          (Memref.whole main_v1_scv) (Memref.isWhole_whole _) (Memref.whole main_arg0_scv) (Memref.isWhole_whole _) (Memref.whole main_v2_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _) cc1_scratch5 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The kernel's body at a symbolic grid point: from the task's operands and the subcore's scoped storage, owing `O`
    with nothing at index `none`, to the task's results and the storage back, owing `O` still and having recorded
    waits at index `none` only. -/
abbrev TileBody : Prop :=
  ∀ (d : Dev nD) (L : grid1.Coords) (O : CellTallies nD τ sig (HIx 1)) (W : Waits sig (HIx 1)), (∀ g, O g none = 0) →
    iprop(levAts (K (F := F)).L (K (F := F)).lev ∗ emp ∗ goRes m d (cL L) (sL L) ∗ scopedBufs (thrOf d L) ∗ scopedSems0 (thrOf d L) ∗ owes (thrOf d L) O W)
      ⊢ wp frame (wpE (defs₀ (F := F)) 𝒱₀ (thrOf d L) none) Set.univ
          (cc1_lookup L (Memref.whole main_v1_scv) (Memref.isWhole_whole _) (Memref.whole main_arg0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scoped0 cc1_scoped1)
          fun _ => iprop(tdRes m d (cL L) (sL L) ∗ scopedBufs (thrOf d L) ∗ scopedSems0 (thrOf d L) ∗ ∃ W', ⌜∀ p ∈ W', p ∈ W ∨ p.2 = none⌝ ∗ owes (thrOf d L) O W')

/-- `TileObl` at call 0: every vector subcore of the call's grid runs the body at its own grid point. -/
theorem tileObl (hbody : TileBody (F := F) m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.KernelIdeal.Tile

end
-- ==== Proof.KIMainRepack.lean ====
/-
  The TensorCore call of @main that repacks the transposed table: run to its end, inside the program the SparseCore
  launch sees. The table's transpose [64, 1000000] is read in 31 slabs of 32768 columns — the last overhanging the array —
  and slab w's first 16384 columns become columns 0‥63 of pair rows w·16384‥, its last 16384 columns columns 64‥127.
  What the call leaves in the repacked table on a pair row whose source column lies past the table's end depends on
  what the staging buffer held there, so the proof's data constrains what the body leaves (a relation) and does not name it.
-/
import proofs.«202062_g26379689132623_cont_9to1_709_23_alg».proof.Proof.KISetup
import proofs.«202062_g26379689132623_cont_9to1_709_23_alg».proof.Proof.Gen.KernelIdeal.Launch
import proofs.«202062_g26379689132623_cont_9to1_709_23_alg».proof.Proof.Gen.KernelIdeal.Points
import Idealize.ShloMosaic.Lib.Pipeline.Kit
import Idealize.ShloMosaic.Lib.Pipeline.Sound
import Idealize.ShloMosaic.Lib.SparseCore.Threads
import Idealize.ShloMosaic.Lib.Tactic

noncomputable section

namespace Cert.KernelIdeal.MainRepack

open Cert.KernelIdeal Cert.KernelIdeal.Gen Cert.KernelIdeal.Tile

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Cfg Window cellOf kernel pipe)

variable {F : FTy → Type} [FloatOps F]
variable {U : Type} [URA U]

local notation "𝕄" => MT nD τ sig (HIx 1) (Elt F) ℕ U ℕ

/-! ## The kernel body -/

/-- The body on staging buffer `s0` of the table's window and `s1` of the result's: the whole load of the first, the dead
    load of the second, the whole store of the repacked slab — the result's buffer ends holding `k0_pay1` of what the
    table's holds, that one unchanged. -/
theorem sound_body (c : Dev nD) (E : Set ℕ) (i : grid0.Coords) (s0 s1 : Fin 2)
    (X0 : S64x32768.Idx → Elt F .f32) (X1 : S16384x128.Idx → Elt F .f32) (K : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0 ∗ owns (c : Thread nD τ) (stage0_1 s1) fullShare (k0_pay1 X0)) -∗ K ⟨⟩))
      ⊢ wp frame (wpE (defs₀ (F := F)) 𝒱₀ c none) E
          (cc0__repack_body i (stage0_0 s0) (hstage0_0 s0) (stage0_1 s1) (hstage0_1 s1)) K := by
  -- the accesses are at offsets zero and the buffers' own sizes, the whole buffers: the load reads the contents, the
  -- unmasked store writes the payload, at whichever of its window's two buffers each memref is
  have hz : (![0, 0] : Fin 2 → Nat) = fun _ => 0 := funext fun a => by fin_cases a <;> rfl
  fin_cases s0 <;> fin_cases s1
  · -- the table's buffer `cc0_stg0_0`, the result's `cc0_stg1_0`
    have hr0 : (Memref.whole cc0_stg0_0 : Memref sig .tc _ _ _).view.readAt (Elt F) (Rect.unit (s := S64x32768) ![0, 0] S64x32768.size
        inb_S64x32768_S64x32768_0_0).toLoadRect = id := funext (Memref.readAt_unit_zero (Elt F) cc0_stg0_0 hz _)
    have hw1 : ∀ f w, (((Memref.whole cc0_stg1_0).access (Rect.unit (s := S16384x128) ![0, 0] S16384x128.size inb_S16384x128_S16384x128_0_0)) :
        View sig .tc _ _ _).write (Elt F) f w Finset.univ = w := Memref.write_access_unit_zero_univ (Elt F) cc0_stg1_0 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the table's buffer `cc0_stg0_0`, the result's `cc0_stg1_1`
    have hr0 : (Memref.whole cc0_stg0_0 : Memref sig .tc _ _ _).view.readAt (Elt F) (Rect.unit (s := S64x32768) ![0, 0] S64x32768.size
        inb_S64x32768_S64x32768_0_0).toLoadRect = id := funext (Memref.readAt_unit_zero (Elt F) cc0_stg0_0 hz _)
    have hw1 : ∀ f w, (((Memref.whole cc0_stg1_1).access (Rect.unit (s := S16384x128) ![0, 0] S16384x128.size inb_S16384x128_S16384x128_0_0)) :
        View sig .tc _ _ _).write (Elt F) f w Finset.univ = w := Memref.write_access_unit_zero_univ (Elt F) cc0_stg1_1 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the table's buffer `cc0_stg0_1`, the result's `cc0_stg1_0`
    have hr0 : (Memref.whole cc0_stg0_1 : Memref sig .tc _ _ _).view.readAt (Elt F) (Rect.unit (s := S64x32768) ![0, 0] S64x32768.size
        inb_S64x32768_S64x32768_0_0).toLoadRect = id := funext (Memref.readAt_unit_zero (Elt F) cc0_stg0_1 hz _)
    have hw1 : ∀ f w, (((Memref.whole cc0_stg1_0).access (Rect.unit (s := S16384x128) ![0, 0] S16384x128.size inb_S16384x128_S16384x128_0_0)) :
        View sig .tc _ _ _).write (Elt F) f w Finset.univ = w := Memref.write_access_unit_zero_univ (Elt F) cc0_stg1_0 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the table's buffer `cc0_stg0_1`, the result's `cc0_stg1_1`
    have hr0 : (Memref.whole cc0_stg0_1 : Memref sig .tc _ _ _).view.readAt (Elt F) (Rect.unit (s := S64x32768) ![0, 0] S64x32768.size
        inb_S64x32768_S64x32768_0_0).toLoadRect = id := funext (Memref.readAt_unit_zero (Elt F) cc0_stg0_1 hz _)
    have hw1 : ∀ f w, (((Memref.whole cc0_stg1_1).access (Rect.unit (s := S16384x128) ![0, 0] S16384x128.size inb_S16384x128_S16384x128_0_0)) :
        View sig .tc _ _ _).write (Elt F) f w Finset.univ = w := Memref.write_access_unit_zero_univ (Elt F) cc0_stg1_1 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1

/-! ## The proof's data -/

/-- The proof data of the repack pipeline on device `d`'s TensorCore, over what the two arrays hold at entry (`tT` the
    transposed table, `f1` the repacked table's buffer), what the TensorCore owes throughout (`O`) and what is asked of
    the result's staging buffer after the body at each point (`R`): the table's buffer is left as found; no invariant;
    full shares. -/
def rdat (d : Dev nD) (tT : Buf (Elt F) ((SparseCore.T (τ := τ) d).loc main_v0)) (f1 : Buf (Elt F) ((SparseCore.T (τ := τ) d).loc main_v1))
    (O : CellTallies nD τ sig (HIx 1)) (B : Set (SemLoc sig × HIx 1)) (R : Fin cfg0.N → (S16384x128.Idx → Elt F .f32) → Prop) :
    RDat τ (Elt F) (HIx 1) ℕ U ℕ cfg0 d where
  A := fun | ⟨0, _⟩ => tT | ⟨1, _⟩ => f1 | ⟨_ + 2, h⟩ => absurd h (Nat.not_lt.2 (Nat.le_add_left _ _))
  after := fun
    | ⟨0, _⟩ => fun _ Y X => X = Y
    | ⟨1, _⟩ => fun t _ X => R t X
    | ⟨_ + 2, h⟩ => absurd h (Nat.not_lt.2 (Nat.le_add_left _ _))
  Φ _ := iprop(emp)
  q _ := fullShare
  owed _ := O
  recorded _ := B

variable (d : Dev nD) (tT : Buf (Elt F) ((SparseCore.T (τ := τ) d).loc main_v0)) (f1 : Buf (Elt F) ((SparseCore.T (τ := τ) d).loc main_v1))
  (O : CellTallies nD τ sig (HIx 1)) (B : Set (SemLoc sig × HIx 1)) (R : Fin cfg0.N → (S16384x128.Idx → Elt F .f32) → Prop)

/-- The library's body obligation for that data, from `sound_body` at the point's staging buffers, given that `R` holds of
    the repacked slab of whatever the fetch at the point may have left in the table's buffer. -/
theorem body_obligation
    (hR : ∀ (t : Fin cfg0.N) (dd : S64x32768.Idx → Elt F .f32), R t (k0_pay1 ((rdat (U := U) d tT f1 O B R).fetched (0 : Fin 2) t dd))) :
    (rdat (U := U) d tT f1 O B R).BodyObligation (defs₀ (F := F)) 𝒱₀ (none : HIx 1) Set.univ := fun t Y hY => by
  rw [bigSep_W0, bigSep_W0]
  obtain ⟨dd, hdd⟩ := ((rdat (U := U) d tT f1 O B R).finds_of_fetch (fetch0_0 t) (Y 0)).mp (hY 0)
  rw [show (rdat (U := U) d tT f1 O B R).Φ t.succ = (rdat (U := U) d tT f1 O B R).Φ t.castSucc from rfl,
    show (rdat (U := U) d tT f1 O B R).owesAt none t.succ = (rdat (U := U) d tT f1 O B R).owesAt none t.castSucc from rfl]
  iintro ⟨HΦ, Ho, H0, H1⟩
  iapply (sound_body (F := F) (U := U) d Set.univ (grid0.coords t) (cfg0.slots t 0) (cfg0.slots t 1) (Y 0) (Y 1) _)
  isplitl [H0 H1]
  · isplitl [H0]; · iexact H0
    iexact H1
  iintro ⟨H0, H1⟩
  isplitl [HΦ]; · iexact HΦ
  isplitl [Ho]; · iexact Ho
  isplitl [H0]
  · iexists (Y 0); isplitr; · ipureintro; exact rfl
    iexact H0
  · iexists k0_pay1 (Y 0); isplitr
    · ipureintro; show R t (k0_pay1 (Y 0)); rw [hdd]; exact hR t dd
    iexact H1

/-! ## The call -/

set_option maxHeartbeats 400000 in
/-- The call as @main spells it is the pipeline's entry, lifted to the signature with the SparseCore dispatch labels. -/
theorem call_eq_lift :
    (Prog.lift (.customCall (SparseCore.inner (Pipeline.entry (0 : Fin 1))) ()) :
        Prog (TpuEff nD τ sig (Elt F) (SparseCore.Sig (ΛP (F := F)) 1) .tc) PUnit)
      = SparseCore.liftProg (.op (.customCall (Pipeline.entry (0 : Fin 1)) ()) fun _ => .ret PUnit.unit) := rfl

/-- The pipeline has no prefetched table: its one admissible contents. -/
abbrev adm : (p : Fin 1) → (pcfgs (F := F) p).Adm := fun p => (cfgs p).toPCfg_adm

variable (tTs : (c : Dev nD) → Buf (Elt F) ((SparseCore.T (τ := τ) c).loc main_v0))
  (f1s : (c : Dev nD) → Buf (Elt F) ((SparseCore.T (τ := τ) c).loc main_v1))
  (Os : Dev nD → CellTallies nD τ sig (HIx 1))

/-- The proof data on every device. -/
abbrev rdats : (p : Fin 1) → (c : Dev nD) → RDat τ (Elt F) (HIx 1) ℕ U ℕ (cfgs p) c :=
  fun _ c => rdat c (tTs c) (f1s c) (Os c) B R

/-- Window `w`'s array as the proof data holds it is the buffer whole at the full share. -/
theorem arr_pointsTo (c : Dev nD) (w : Fin 2) (G : Buf (Elt F) ((cfg0.win w).arr.view.loc (c.tc : Thread nD τ))) :
    (((cfg0.win w).arr.view.loc (c.tc : Thread nD τ)) ↦[(cfg0.win w).arr.view.set]{(rdat (U := U) c (tTs c) (f1s c) (Os c) B R).share w} G : sProp 𝕄)
      = (((cfg0.win w).arr.view.loc (c.tc : Thread nD τ)) ↦{fullShare} G) := by
  rw [(arr_whole0 w).set_eq_univ, (rdat (U := U) c (tTs c) (f1s c) (Os c) B R).share_full (fun _ => rfl) w]

/-- The two arrays as the proof data holds them are the two buffers whole at the full share. -/
theorem arrays_eq2 (c : Dev nD) (G : (w : Fin 2) → Buf (Elt F) ((cfg0.win w).arr.view.loc (c.tc : Thread nD τ))) :
    ((rdat (U := U) c (tTs c) (f1s c) (Os c) B R).arrays G : sProp 𝕄)
      = iprop((((cfg0.win 0).arr.view.loc (c.tc : Thread nD τ)) ↦{fullShare} G 0) ∗ (((cfg0.win 1).arr.view.loc (c.tc : Thread nD τ)) ↦{fullShare} G 1)) := by
  unfold RDat.arrays
  rw [bigSep_W0, arr_pointsTo, arr_pointsTo]

/-- What the two arrays may hold after the write-backs below `n`, one by one. -/
theorem arraysAt_eq2 (c : Dev nD) (n : Nat) :
    ((rdat (U := U) c (tTs c) (f1s c) (Os c) B R).arraysAt n : sProp 𝕄)
      = iprop((∃ G, ⌜(rdat (U := U) c (tTs c) (f1s c) (Os c) B R).ArrAt 0 n G⌝ ∗ (((cfg0.win 0).arr.view.loc (c.tc : Thread nD τ)) ↦{fullShare} G))
          ∗ (∃ G, ⌜(rdat (U := U) c (tTs c) (f1s c) (Os c) B R).ArrAt 1 n G⌝ ∗ (((cfg0.win 1).arr.view.loc (c.tc : Thread nD τ)) ↦{fullShare} G))) := by
  have h0 := (rdat (U := U) c (tTs c) (f1s c) (Os c) B R).share_full (fun _ => rfl) (0 : Fin 2)
  have h1 := (rdat (U := U) c (tTs c) (f1s c) (Os c) B R).share_full (fun _ => rfl) (1 : Fin 2)
  unfold RDat.arraysAt
  rw [bigSep_W0]
  simp only [h0, h1, View.set_whole]

/-- The pipeline prefetches no table: it holds none. -/
theorem prefHeld_none (c : Dev nD) (q : Fin (pcfgs (F := F) 0).pre.K → PosShare TreeShare) :
    (BI.emp : sProp 𝕄) ⊢ Pipeline.prefHeld (pcfgs (F := F) 0).pre c q (adm (F := F) 0).1 := by
  unfold Pipeline.prefHeld
  show (BI.emp : sProp 𝕄) ⊢ bigSep (Finset.univ : Finset (Fin 0)) _
  rw [Finset.univ_eq_empty, BI.bigSep_empty]
/-- The call at the pipeline's own level, under the certificate's body table. -/
theorem repack_call_pipe [∀ e, Nonempty (Elt F e)] (ER : Emb (URounds (GSem nD τ sig) Unit) 𝕄) [ER.LandsIn (upEmb : UEmb _ 𝕄)]
    (d : Dev nD) (hO : ∀ g, Os d g none = 0)
    (hR : ∀ (t : Fin cfg0.N) (dd : S64x32768.Idx → Elt F .f32),
      R t (k0_pay1 ((rdat (U := U) d (tTs d) (f1s d) (Os d) B R).fetched (0 : Fin 2) t dd))) :
    iprop(levAts (K (F := F)).L (K (F := F)).lev
        ∗ Pipeline.cellsGhost cfgs ER (0 : Fin 1) d ∗ Pipeline.toksInit cfgs ER (0 : Fin 1) d
        ∗ (∃ W, ⌜↑W ⊆ B⌝ ∗ owes (SparseCore.T d) (Os d) W)
        ∗ scopedBufs (SparseCore.T d) ∗ scopedSems0 (SparseCore.T d)
        ∗ ((SparseCore.T d).loc main_v0 ↦{fullShare} tTs d) ∗ ((SparseCore.T d).loc main_v1 ↦{fullShare} f1s d))
      ⊢ wp frame (wpE (D (F := F)) 𝒱 (SparseCore.T d) none) Set.univ
          (.op (.customCall (Pipeline.entry (0 : Fin 1)) ()) fun _ => .ret PUnit.unit) fun _ =>
          (iprop((∃ W, ⌜↑W ⊆ B ∪ cfg0.waitPairs (none : HIx 1)⌝ ∗ owes (SparseCore.T d) (Os d) W) ∗ scopedBufs (SparseCore.T d) ∗ scopedSems0 (SparseCore.T d)
            ∗ ((SparseCore.T d).loc main_v0 ↦{fullShare} tTs d)
            ∗ ∃ pc, ⌜(rdat (U := U) d (tTs d) (f1s d) (Os d) B R).ArrAt (1 : Fin 2) cfg0.N pc⌝
                ∗ ((SparseCore.T d).loc main_v1 ↦{fullShare} pc)) : sProp 𝕄) := by
  classical
  have hss := Pipeline.scopedSems0_split (Ix := HIx 1) (Val := Elt F) (Name := ℕ) (U := U) (Lvl := ℕ) cfgs cellOf_inj (0 : Fin 1)
    winFacts0.to₀ (Pipeline.OwnSemFacts.none _) d
  have hsb := Pipeline.scopedBufs_split (nD := nD) (τ := τ) (Ix := HIx 1) (Val := Elt F) (Name := ℕ) (U := U) (Lvl := ℕ) cfgs (0 : Fin 1)
    winFacts0.stage_scoped winFacts0.stage_inj stage_whole0 d
  -- the region's boundary obligations: nothing goes into the invariant and nothing comes out of it; the scoped
  -- semaphores are the pipeline's cells and the idle rest, the scoped buffers the staging buffers and nothing else
  have hin : iprop((iprop(emp) : sProp 𝕄) ∗ Pipeline.prefHeld (pcfgs (F := F) 0).pre d (fun k => k.elim0) (adm (F := F) 0).1
        ∗ Pipeline.scopedRest spec0 d) ⊢ (rdats (U := U) B R tTs f1s Os 0 d).Φ 0 := by
    iintro -; iempintro
  have hout : iprop((rdats (U := U) B R tTs f1s Os 0 d).Φ (Fin.last (Pipeline.pin (pcfgs (F := F)) adm 0).N)
        ∗ Pipeline.cellsSems0 (Pipeline.pin (pcfgs (F := F)) adm) 0 d ∗ Pipeline.Dat.staging (Pipeline.pin (pcfgs (F := F)) adm 0) d
        ∗ iprop(Pipeline.ownSems0 (fun k : PEmpty => k.elim) d ∗ Pipeline.idleSems0 cfgs cellOf_inj (0 : Fin 1) (Pipeline.OwnSemFacts.none _) d))
      ⊢ iprop((iprop(emp) : sProp 𝕄) ∗ scopedSems0 (d.tc : Thread nD τ) ∗ scopedBufs (d.tc : Thread nD τ)) := by
    rw [hss, hsb, scopedRest0_eq]
    iintro ⟨-, Hcells, Hst, Hos, Hidle⟩
    isplitr; · iempintro
    isplitl [Hcells Hos Hidle]
    · isplitl [Hcells Hos]; · isplitl [Hcells] <;> iassumption
      iexact Hidle
    isplitl [Hst]; · iexact Hst
    iempintro
  iintro ⟨#Hlev, Hg, Ht, ⟨%W, %hW, HO⟩, Hsb, Hss, Hv0, Hv1⟩
  ihave Hss' := (Entails.of_eq hss) $$ Hss
  icases Hss' with ⟨⟨Hcells, Hos⟩, Hidle⟩
  iapply (fupd_wp frame (wpE (D (F := F)) 𝒱 (SparseCore.T d) none) Set.univ _ _)
  imod (Pipeline.RDat.cellsInit_alloc cfgs (rdats (U := U) B R tTs f1s Os) ER cellOf_inj (0 : Fin 1) d) $$ [Hcells Hg] with ⟨%κ, -, Hinit⟩
  · isplitl [Hcells] <;> iassumption
  imodintro
  iapply (Pipeline.RDat.wp_customCall_entry_frame (pcfgs (F := F)) adm (rdats (U := U) B R tTs f1s Os) (none : HIx 1) ER κ cellOf_inj (0 : Fin 1)
      defs₀ 𝒱₀ (fun k => k.elim0) d Set.univ (fun _ _ => Set.mem_univ _)
      (body_obligation d (tTs d) (f1s d) (Os d) B R hR) block_pos0 none (fun u h => nomatch h)
      (X := iprop(emp)) (Y := iprop(emp)) (R := Pipeline.scopedRest spec0 d)
      (I := iprop(Pipeline.ownSems0 (fun k : PEmpty => k.elim) d ∗ Pipeline.idleSems0 cfgs cellOf_inj (0 : Fin 1) (Pipeline.OwnSemFacts.none _) d))
      (Entails.of_eq hsb) hin hout (k := fun _ => .ret PUnit.unit)) $$ [Hv0 Hv1 HO Hinit Ht Hos Hidle Hsb]
  · isplitl [Hv0 Hv1 HO Hinit Ht]
    · unfold Pipeline.RDat.EntryPre Pipeline.PerCore.RDat.EntryPre
      isplitl [Hv0 Hv1]
      · iapply (Entails.of_eq (arrays_eq2 (U := U) B R tTs f1s Os d _).symm)
        isplitl [Hv0]; · iexact Hv0
        iexact Hv1
      isplitl [HO]
      · iexists W; isplitr; · ipureintro; exact fun _ hx => Or.inl (hW hx)
        iexact HO
      isplitr
      · iapply (Pipeline.RDat.cellsWaits_intro (Pipeline.pin (pcfgs (F := F)) adm) (rdats (U := U) B R tTs f1s Os) (none : HIx 1) (0 : Fin 1) d
          (R := levAts (K (F := F)).L (K (F := F)).lev)
          (fun w s t => (K (F := F)).mayWait_none (thr := SparseCore.T d) _ hO))
        iexact Hlev
      isplitl [Hinit]; · iexact Hinit
      iexact Ht
    isplitr; · iapply (prefHeld_none (U := U) d _); iempintro
    isplitr; · iempintro
    isplitl [Hos Hidle]; · isplitl [Hos] <;> iassumption
    iexact Hsb
  -- the call has returned: the boundary reassembled, the transposed table as at entry (never written), the
  -- repacked table at some contents the write-backs may have left
  iintro ⟨Hpost, -, Hss2, Hsb2⟩
  iapply (le_wp_ret _ _)
  unfold Pipeline.RDat.EntryPost Pipeline.PerCore.RDat.EntryPost
  icases Hpost with ⟨Harr, ⟨%W', %hW', HO'⟩⟩
  ihave Harr' := (Entails.of_eq (arraysAt_eq2 (U := U) B R tTs f1s Os d cfg0.N)) $$ Harr
  icases Harr' with ⟨⟨%F0, %hF0, H0⟩, ⟨%F1, %hF1, H1⟩⟩
  have e0 : F0 = tTs d := by
    rw [(rdat (U := U) d (tTs d) (f1s d) (Os d) B R).ArrAt_in (0 : Fin 2) rfl] at hF0; exact hF0
  isplitl [HO']
  · iexists W'; isplitr; · ipureintro; exact hW'
    iexact HO'
  isplitl [Hsb2]; · iexact Hsb2
  isplitl [Hss2]; · iexact Hss2
  isplitl [H0]; · rw [← e0]; iexact H0
  iexists F1; isplitr; · ipureintro; exact hF1
  iexact H1

/-- **The repack call.** From the pipeline's cells as the launch deals them (their ghost state and the transfers' duty
    tokens), the TensorCore's region boundary (its scoped buffers at some contents, its scoped semaphores at zero), what
    it owes — nothing at the index of a kernel's own waits —, its recorded pairs within \`B\`, the level facts, and the two arrays whole: the call runs
    to its end and gives back the boundary, what is owed, the transposed table unchanged, and the repacked table at
    contents the 31 write-backs may have left, each of a slab `R` holds of. -/
theorem repack_call [∀ e, Nonempty (Elt F e)] (ER : Emb (URounds (GSem nD τ sig) Unit) 𝕄) [ER.LandsIn (upEmb : UEmb _ 𝕄)]
    (d : Dev nD) (hO : ∀ g, Os d g none = 0)
    (hR : ∀ (t : Fin cfg0.N) (dd : S64x32768.Idx → Elt F .f32),
      R t (k0_pay1 ((rdat (U := U) d (tTs d) (f1s d) (Os d) B R).fetched (0 : Fin 2) t dd))) :
    iprop(levAts (K (F := F)).L (K (F := F)).lev
        ∗ Pipeline.cellsGhost cfgs ER (0 : Fin 1) d ∗ Pipeline.toksInit cfgs ER (0 : Fin 1) d
        ∗ (∃ W, ⌜↑W ⊆ B⌝ ∗ owes (SparseCore.T d) (Os d) W)
        ∗ scopedBufs (SparseCore.T d) ∗ scopedSems0 (SparseCore.T d)
        ∗ ((SparseCore.T d).loc main_v0 ↦{fullShare} tTs d) ∗ ((SparseCore.T d).loc main_v1 ↦{fullShare} f1s d))
      ⊢ wp frame (wpE ((K (F := F)).defs (D (F := F))) 𝒱 (SparseCore.T d) none) Set.univ
          (Prog.lift (.customCall (SparseCore.inner (Pipeline.entry (0 : Fin 1))) ())) fun _ =>
          (iprop((∃ W, ⌜↑W ⊆ B ∪ cfg0.waitPairs (none : HIx 1)⌝ ∗ owes (SparseCore.T d) (Os d) W) ∗ scopedBufs (SparseCore.T d) ∗ scopedSems0 (SparseCore.T d)
            ∗ ((SparseCore.T d).loc main_v0 ↦{fullShare} tTs d)
            ∗ ∃ pc, ⌜(rdat (U := U) d (tTs d) (f1s d) (Os d) B R).ArrAt (1 : Fin 2) cfg0.N pc⌝
                ∗ ((SparseCore.T d).loc main_v1 ↦{fullShare} pc)) : sProp 𝕄) := by
  rw [call_eq_lift]
  exact (repack_call_pipe B R tTs f1s Os ER d hO hR).trans
    (SparseCore.Cfg.wp_liftProg (K (F := F)) (D (F := F)) 𝒱 (SparseCore.T d) Set.univ none _ _)

/-! ## The call as @main's proof takes it -/

/-- What the TensorCore owes before any call it owes at a call's index, never at a kernel's own. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

/-- What the launch must deal the TensorCore of `d` for the call: the ghost state of the pipeline's four staging cells and
    the duty tokens of its 62 transfers. -/
abbrev G (ER : Emb (URounds (GSem nD τ sig) Unit) 𝕄) (d : Dev nD) : sProp 𝕄 :=
  iprop(Pipeline.cellsGhost cfgs ER (0 : Fin 1) d ∗ Pipeline.toksInit cfgs ER (0 : Fin 1) d)

/-- The launch element's part for the pipeline — the rounds library's launch state over the pipeline's cells and its
    transfers' tokens — deals every TensorCore its `G`. -/
theorem deal_G (ER : Emb (URounds (GSem nD τ sig) Unit) 𝕄) :
    BI.own (ER (initOf (Pipeline.cells (nD := nD) (τ := τ) cfgs cellOf_inj) (Pipeline.launchToks (nD := nD) (τ := τ) cfgs cellOf_inj)))
      ⊢ iprop(|==> bigSep Finset.univ fun d : Dev nD => (G (F := F) (U := U) ER d)) := by
  refine (Pipeline.fund_ghost (nD := nD) (τ := τ) cfgs ER cellOf_inj).trans (BI.bupd_mono ?_)
  rw [← bigSep_sep']
  refine bigSep_mono fun d _ => ?_
  rw [show (Finset.univ : Finset (Fin 1)) = {0} from rfl, bigSep_singleton, bigSep_singleton]
  exact BI.Entails.refl _

/-- **The call, in the shape @main's proof asks.** From the handshakes' context, the TensorCore's state before the
    SparseCore call, `G d`, the region boundary, the TensorCore's own semaphores, the transposed table and the repacked
    table's buffer: the call runs to its end, and the continuation is owed the state and the boundary back and the
    repacked table whole at some contents. -/
theorem repack_callStmt [∀ e, Nonempty (Elt F e)] (EH : Emb (URounds (GSem nD τ sig) ℕ) 𝕄)
    (P : (K (F := F)).Pay (nD := nD) (Val := Elt F) (Name := ℕ) (U := U))
    (ER : Emb (URounds (GSem nD τ sig) Unit) 𝕄) [ER.LandsIn (upEmb : UEmb _ 𝕄)]
    (κ : GSem nD τ sig → ℕ) (d : Dev nD) (tT : Buf (Elt F) ((SparseCore.T (τ := τ) d).loc main_v0))
    (f1 : Buf (Elt F) ((SparseCore.T (τ := τ) d).loc main_v1)) (Φ : PUnit → sProp 𝕄) :
    iprop((K (F := F)).ctx EH P κ ∗ (K (F := F)).tcSt EH d 0 ∗ G ER d ∗ boundary (SparseCore.T d) ∗ (K (F := F)).tcSems0 d
        ∗ ((SparseCore.T d).loc main_v0 ↦{fullShare} tT) ∗ ((SparseCore.T d).loc main_v1 ↦{fullShare} f1)
        ∗ (((K (F := F)).tcSt EH d 0 ∗ boundary (SparseCore.T d) ∗ ∃ pc, (SparseCore.T d).loc main_v1 ↦{fullShare} pc) -∗ Φ ⟨⟩))
      ⊢ wp frame (wpE ((K (F := F)).defs (D (F := F))) 𝒱 (SparseCore.T d) none) Set.univ
          (Prog.lift (.customCall (SparseCore.inner (Pipeline.entry (0 : Fin 1))) ())) Φ := by
  classical
  -- the contents on the other devices do not matter: any
  let tTs : (c : Dev nD) → Buf (Elt F) ((SparseCore.T (τ := τ) c).loc main_v0) :=
    Function.update (fun c => show Buf (Elt F) ((SparseCore.T (τ := τ) c).loc main_v0) from fun _ => Classical.arbitrary _) d tT
  let f1s : (c : Dev nD) → Buf (Elt F) ((SparseCore.T (τ := τ) c).loc main_v1) :=
    Function.update (fun c => show Buf (Elt F) ((SparseCore.T (τ := τ) c).loc main_v1) from fun _ => Classical.arbitrary _) d f1
  have etT : tTs d = tT := Function.update_self _ _ _
  have ef1 : f1s d = f1 := Function.update_self _ _ _
  have hcall := repack_call (U := U) {p : SemLoc sig × HIx 1 | p.2 = none} (fun _ _ => True) tTs f1s (fun c => (K (F := F)).Otc c 0) ER d
    (fun g => Otc_none d 0 g) (fun _ _ => trivial)
  rw [etT, ef1] at hcall
  unfold SparseCore.Cfg.tcSt SparseCore.Cfg.ctx boundary
  iintro ⟨⟨#Hlev, -⟩, ⟨⟨%W, %hW, HO⟩, Hrest⟩, ⟨Hg, Ht⟩, ⟨Hsb, Hss, Hidl⟩, -, Hv0, Hv1, Hk⟩
  iapply (wp_wand_r frame _ Set.univ)
  isplitl [HO Hg Ht Hsb Hss Hv0 Hv1]
  · iapply hcall
    isplitr; · iexact Hlev
    isplitl [Hg]; · iexact Hg
    isplitl [Ht]; · iexact Ht
    isplitl [HO]
    · iexists W; isplitr
      · ipureintro; intro p hp
        have h := hW p (Finset.mem_coe.mp hp)
        cases hp2 : p.2 with
        | none => exact hp2
        | some q => rw [hp2] at h; have := (K (F := F)).lev_some_pos (SparseCore.T d, p.1) q; omega
      iexact HO
    isplitl [Hsb]; · iexact Hsb
    isplitl [Hss]; · iexact Hss
    isplitl [Hv0]; · iexact Hv0
    iexact Hv1
  iintro %_ ⟨⟨%W', %hW', HO'⟩, Hsb, Hss, -, ⟨%pc, -, Hpc⟩⟩
  iapply Hk
  isplitl [HO' Hrest]
  · isplitl [HO']
    · iexists W'; isplitr
      · ipureintro; intro p hp
        rcases hW' (Finset.mem_coe.mpr hp) with h | ⟨w, s, h⟩
        · rw [show p.2 = none from h, SparseCore.Cfg.lev_none]
        · rw [h, SparseCore.Cfg.lev_none]
      iexact HO'
    iexact Hrest
  isplitl [Hsb Hss Hidl]
  · isplitl [Hsb]; · iexact Hsb
    isplitl [Hss]; · iexact Hss
    iexact Hidl
  iexists pc; iexact Hpc

end Cert.KernelIdeal.MainRepack

end
-- ==== Proof.KIElem.lean ====
/-
  The launch element of the ghost state: the handshakes' rounds, the TensorCore pipeline's rounds over its staging
  cells and its transfers' tokens, and the transfers' counters at their unit. The launch keeps the handshakes' rounds;
  the pipeline's part deals every TensorCore the ghost state and the tokens its repacking call's proof consumes; the
  lookup kernel's transfers need no schedule, so nothing of the counters is dealt and no SparseCore thread is handed
  anything for its kernel's proof.
-/
import proofs.«202062_g26379689132623_cont_9to1_709_23_alg».proof.Proof.KISetup
import proofs.«202062_g26379689132623_cont_9to1_709_23_alg».proof.Proof.KIPay
import proofs.«202062_g26379689132623_cont_9to1_709_23_alg».proof.Proof.KIMainRepack

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem bigSep_emp' {I : Type} (s : Finset I) : (bigSep s fun _ => iprop(emp)) = (iprop(emp) : sProp 𝕄) := bigSep_emp_const s

/-- The launch element is the handshakes' part and the pipeline's, each owned through its embedding (the counters let go). -/
theorem ownU_split (a : UH) (b : UP) (c : Counters) :
    (ownU ((a, (b, c)) : UU) : sProp 𝕄) ⊢ iprop(BI.own (EH a) ∗ BI.own (ER (F := F) b)) := by
  unfold ER
  iintro Hu
  ihave H := (ownU_pair _ _) $$ Hu
  icases H with ⟨HH, HR⟩
  ihave HR' := (own_pair_emb _ _ _) $$ HR
  icases HR' with ⟨HP, -⟩
  isplitl [HH]; · iexact HH
  iexact HP

variable [FloatOps F]

theorem hu₀ : (ownU (u₀ (F := F)) : sProp 𝕄)
    ⊢ |={Set.univ}=> iprop(BI.own (EH (initOf (K (F := F)).hsCells (K (F := F)).hsToks))
        ∗ (bigSep Finset.univ fun d : Dev nD => Cert.KernelIdeal.MainRepack.G (F := F) (U := UU) ER d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (Cert.KernelIdeal.MainRepack.deal_G (F := F) (U := UU) ER) $$ HP with HG
  imodintro
  isplitl [HH]; · iexact HH
  isplitl [HG]; · iexact HG
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Tile

end
-- ==== Proof.KIMain.lean ====
/-
  @main on the TensorCore, and the program's run. @main transposes the table on the host, repacks the transpose in a
  TensorCore call, starts the lookup on the two SparseCores and waits for it, and transposes the result on the host.
  The repacking call is taken as a hypothesis here (`CallStmt`): from the TensorCore's state before the SparseCore
  call, its region boundary, the transposed table and the repacked table's buffer, it runs to the state and the
  boundary back and the repacked table at SOME contents. Around the SparseCore call, the repacked table and the index
  list go out as the two SparseCores' read tokens, the remainders kept here, and the transposed result as the two
  SparseCores' columns, which cover it; all come back and are joined, the index list at its launch contents (shares of
  one array are at one contents). What @main leaves the claim: the index list and the table at their launch contents.
-/
import proofs.«202062_g26379689132623_cont_9to1_709_23_alg».proof.Proof.KISetup
import proofs.«202062_g26379689132623_cont_9to1_709_23_alg».proof.Proof.KIPay
import proofs.«202062_g26379689132623_cont_9to1_709_23_alg».proof.Proof.KISplit
import proofs.«202062_g26379689132623_cont_9to1_709_23_alg».proof.Proof.KIObl
import proofs.«202062_g26379689132623_cont_9to1_709_23_alg».proof.Proof.KIElem

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## A SparseCore's columns: those whose block of 512 has the SparseCore's parity -/

theorem mem_colsCore {c : Fin 2} {x : S64x16384.Idx} : x ∈ colsCore c ↔ (x 1 : Nat) / 512 % 2 = c.val := by
  unfold colsCore
  rw [Finset.mem_biUnion]
  have hx : (x 1 : Nat) < 16384 := (x 1).isLt
  have hc := c.isLt
  constructor
  · rintro ⟨i, -, hi⟩
    obtain ⟨h1, h2⟩ := mem_cols.mp hi
    unfold base at h1 h2
    have hi' := i.isLt
    omega
  · intro h
    refine ⟨⟨(x 1 : Nat) / 512 / 2, by omega⟩, Finset.mem_univ _, mem_cols.mpr ?_⟩
    unfold base
    show ((x 1 : Nat) / 512 / 2 * 2 + c.val) * 512 ≤ (x 1 : Nat) ∧ (x 1 : Nat) < ((x 1 : Nat) / 512 / 2 * 2 + c.val) * 512 + 512
    omega

theorem colsCore_disjoint :
    ∀ c ∈ (Finset.univ : Finset (Fin 2)), ∀ c' ∈ (Finset.univ : Finset (Fin 2)), c ≠ c' → Disjoint (colsCore c) (colsCore c') := by
  intro c _ c' _ hcc
  refine Finset.disjoint_left.mpr fun x h h' => hcc (Fin.ext ?_)
  rw [← mem_colsCore.mp h, ← mem_colsCore.mp h']

theorem colsCore_cover : (Finset.univ : Finset (Fin 2)).biUnion colsCore = Finset.univ := by
  ext x
  simp only [Finset.mem_biUnion, Finset.mem_univ, true_and, iff_true]
  exact ⟨⟨(x 1 : Nat) / 512 % 2, Nat.mod_lt _ (by decide)⟩, mem_colsCore.mpr rfl⟩

/-- The transposed result whole is the two SparseCores' columns. -/
theorem oCores_split (d : Dev nD) (f : Buf (Elt F) (oLoc d)) :
    (oLoc d ↦{fullShare} f : sProp 𝕄) = bigSep Finset.univ fun c : Fin 2 => oLoc d ↦[colsCore c]{fullShare} f := by
  rw [← pointsTo_biUnion Finset.univ (ℓ := oLoc d) colsCore colsCore_disjoint, colsCore_cover]

theorem oCores_join [∀ e, Nonempty (Elt F e)] (d : Dev nD) :
    (bigSep Finset.univ fun c : Fin 2 => iprop(∃ f, oLoc d ↦[colsCore c]{fullShare} f)) ⊢ (iprop(∃ f, oLoc d ↦{fullShare} f) : sProp 𝕄) := by
  refine (bigSep_exists_pi Finset.univ (fun c (f : Buf (Elt F) (oLoc d)) => (oLoc d ↦[colsCore c]{fullShare} f : sProp 𝕄))).trans ?_
  iintro ⟨%fs, H⟩
  ihave H' := (pointsTo_biUnion_join Finset.univ (ℓ := oLoc d) colsCore fs (fs 0) colsCore_disjoint) $$ H
  icases H' with ⟨%g, -, Hg⟩
  rw [colsCore_cover]
  iexists g; iexact Hg

/-! ## The split among the SparseCores -/

/-- What @main holds of the three arrays around the SparseCore call. -/
abbrev mainRes (d : Dev nD) : sProp 𝕄 :=
  iprop((∃ pc, pLoc d ↦{fullShare} pc) ∗ (iLoc d ↦{fullShare} m (iLoc d)) ∗ ∃ f, oLoc d ↦{fullShare} f)

theorem split2 [∀ e, Nonempty (Elt F e)] (d : Dev nD) :
    mainRes m d ⊢ iprop((bigSep Finset.univ fun c : Fin 2 => stRes m d c)
      ∗ ((bigSep Finset.univ fun c : Fin 2 => dnRes m d c) -∗ mainRes m d)) := by
  unfold mainRes stRes dnRes
  rw [bigSep_sep', bigSep_sep']
  iintro ⟨⟨%pc, Hp⟩, Hi, ⟨%f, Ho⟩⟩
  ihave Hp' := (Transfers.pointsTo_toks_split fullShare 2) $$ Hp
  icases Hp' with ⟨Hpd, Hpt⟩
  ihave Hi' := (Transfers.pointsTo_toks_split fullShare 2) $$ Hi
  icases Hi' with ⟨Hid, Hit⟩
  ihave Ho' := (Entails.of_eq (oCores_split d f)) $$ Ho
  isplitl [Hpt Hit Ho']
  · isplitl [Hpt]
    · iapply (toks_exists (ℓ := pLoc d) Finset.univ (fun c : Fin 2 => qCore c) (fun _ => Finset.univ) pc)
      iexact Hpt
    isplitl [Hit]; · iexact Hit
    iapply (toks_exists (ℓ := oLoc d) Finset.univ (fun _ : Fin 2 => fullShare) (fun c => colsCore c) f)
    iexact Ho'
  iintro ⟨Htp, Hti, Hto⟩
  ihave Hp2 := (toks_agree pc Finset.univ (fun c : Fin 2 => qCore c)) $$ [Hpd Htp]
  · isplitl [Hpd]; · iexact Hpd
    iexact Htp
  isplitl [Hp2]
  · iexists pc
    iapply (Transfers.pointsTo_toks_join fullShare 2); iexact Hp2
  isplitl [Hid Hti]
  · iapply (Transfers.pointsTo_toks_join fullShare 2)
    isplitl [Hid]; · iexact Hid
    iexact Hti
  iapply (oCores_join d); iexact Hto

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c) = bigSep Finset.univ fun c : Fin 2 => stRes m d c :=
  bigSep_cores (F := F) (fun c => stRes m d c)
theorem dn0_eq (d : Dev nD) : (bigSep Finset.univ fun c : Fin ((K (F := F)).nCore 0) => (P m).dn 0 d c) = bigSep Finset.univ fun c : Fin 2 => dnRes m d c :=
  bigSep_cores (F := F) (fun c => dnRes m d c)

/-! ## @main's arrays -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev ttLoc (d : Dev nD) : Loc nD τ sig := (SparseCore.T d).loc main_v0
abbrev rLoc (d : Dev nD) : Loc nD τ sig := (SparseCore.T d).loc main_v3

theorem unscopedBufs_eq (d : Dev nD) (W : (b : Ref sig .tc) → Buf (Elt F) ((d.tc : Thread nD τ).loc b)) :
    (unscopedBufs d W : sProp 𝕄) = iprop((iLoc d ↦{fullShare} W main_arg0) ∗ (tLoc d ↦{fullShare} W main_arg1) ∗ (ttLoc d ↦{fullShare} W main_v0)
      ∗ (pLoc d ↦{fullShare} W main_v1) ∗ (oLoc d ↦{fullShare} W main_v2) ∗ (rLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The two arrays of each host transpose. -/
abbrev S1 : Finset (DevRef τ sig) := {a1', v0'}
abbrev S2 : Finset (DevRef τ sig) := {v2', v3'}

theorem held_S1 (d : Dev nD) (W : Valuation τ sig (Elt F)) :
    (held (T d) S1 W : sProp 𝕄) = iprop((tLoc d ↦{fullShare} W a1') ∗ (ttLoc d ↦{fullShare} W v0')) := by
  unfold held S1
  rw [SparseCore.bigSep_insert' (by decide), bigSep_singleton]
theorem held_S2 (d : Dev nD) (W : Valuation τ sig (Elt F)) :
    (held (T d) S2 W : sProp 𝕄) = iprop((oLoc d ↦{fullShare} W v2') ∗ (rLoc d ↦{fullShare} W v3')) := by
  unfold held S2
  rw [SparseCore.bigSep_insert' (by decide), bigSep_singleton]

/-- The launch valuation; with the transposed result at `f`. -/
def V0 (d : Dev nD) : Valuation τ sig (Elt F) := fun b => m (d, b)
def V2 (d : Dev nD) (f : Buf (Elt F) (oLoc d)) : Valuation τ sig (Elt F) := Function.update (V0 m d) v2' f
theorem V2_v2 (d : Dev nD) (f : Buf (Elt F) (oLoc d)) : V2 m d f v2' = f := Function.update_self _ _ _
theorem V2_v3 (d : Dev nD) (f : Buf (Elt F) (oLoc d)) : V2 m d f v3' = V0 m d v3' := Function.update_of_ne (show v3' ≠ v2' by decide) _ _

variable [FloatOps F]

abbrev opT1 : HloOp τ sig (Elt F) :=
  StableHlo.unary main_arg1 main_v0 ((transpose S64x1000000 [1, 0] · transposes_S1000000x64_S64x1000000_1_0) : (⟨S1000000x64, .f32⟩ : BufTy).Contents (Elt F) → (⟨S64x1000000, .f32⟩ : BufTy).Contents (Elt F))
abbrev opT2 : HloOp τ sig (Elt F) :=
  StableHlo.unary main_v2 main_v3 ((transpose S16384x64 [1, 0] · transposes_S64x16384_S16384x64_1_0) : (⟨S64x16384, .f32⟩ : BufTy).Contents (Elt F) → (⟨S16384x64, .f32⟩ : BufTy).Contents (Elt F))

theorem hT1 : (opT1 (F := F)).bufs ⊆ S1 := show ({a1', v0'} : Finset (DevRef τ sig)) ⊆ S1 from Finset.Subset.refl _
theorem hT2 : (opT2 (F := F)).bufs ⊆ S2 := show ({v2', v3'} : Finset (DevRef τ sig)) ⊆ S2 from Finset.Subset.refl _

/-! ## @main on the TensorCore -/

/-- What @main leaves the claim: the index list and the table at their launch contents. -/
abbrev FIN (d : Dev nD) : sProp 𝕄 := iprop((iLoc d ↦{fullShare} m (iLoc d)) ∗ (tLoc d ↦{fullShare} m (tLoc d)))

/-- The repacking call, as @main needs it: handed the cells' invariants and the level facts, the TensorCore's state before
    the SparseCore call, what the launch dealt it for this call's proof (`G d`), its region boundary, its own protocol's
    semaphores at zero, the transposed table and the repacked table's buffer whole, it runs to a state from which the
    continuation is owed the TensorCore's state and the boundary back and the repacked table whole at some contents. -/
abbrev CallStmt (G : Dev nD → sProp 𝕄) : Prop :=
  ∀ (κ : GSem nD τ sig → ℕ) (d : Dev nD) (tT : Buf (Elt F) (ttLoc d)) (f1 : Buf (Elt F) (pLoc d)) (Φ : PUnit → sProp 𝕄),
    iprop((K (F := F)).ctx EH (P m) κ ∗ (K (F := F)).tcSt EH d 0 ∗ G d ∗ boundary (SparseCore.T d) ∗ (K (F := F)).tcSems0 d
        ∗ (ttLoc d ↦{fullShare} tT) ∗ (pLoc d ↦{fullShare} f1)
        ∗ (((K (F := F)).tcSt EH d 0 ∗ boundary (SparseCore.T d) ∗ ∃ pc, pLoc d ↦{fullShare} pc) -∗ Φ ⟨⟩))
      ⊢ wp frame (wpE ((K (F := F)).defs (D (F := F))) 𝒱 (SparseCore.T d) none) Set.univ
          (Prog.lift (.customCall (SparseCore.inner (Pipeline.entry 0)) ())) Φ

theorem hmain [∀ e, Nonempty (Elt F e)] (G : Dev nD → sProp 𝕄) (hcall : CallStmt (F := F) m G) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2, Hv3⟩, Hsems, -⟩, HG⟩
  -- the table's transpose, on the host
  iapply (wp_hlo_within 𝒱 (SparseCore.T d) none Set.univ (op := opT1) (S := S1) hT1 (V := V0 m d)) $$ [Hb Ha1 Hv0]
  · isplitl [Hb]; · iexact Hb
    rw [held_S1]
    isplitl [Ha1]; · iexact Ha1
    iexact Hv0
  iintro ⟨Hb, Hheld⟩
  ihave Hh := (Entails.of_eq (held_S1 (F := F) d _)) $$ Hheld
  icases Hh with ⟨Ha1, Hv0⟩
  rw [wp_ret]; imodintro
  -- the repacking call
  iapply (hcall κ d _ _ _) $$ [Hst HG Hb Hsems Hv0 Hv1 Ha0 Hv2 Ha1 Hv3]
  isplitr; · iexact Hctx
  isplitl [Hst]; · iexact Hst
  isplitl [HG]; · iexact HG
  isplitl [Hb]; · iexact Hb
  isplitl [Hsems]; · iexact Hsems
  isplitl [Hv0]; · iexact Hv0
  isplitl [Hv1]; · iexact Hv1
  iintro ⟨Hst, Hb, ⟨%pc, Hv1⟩⟩
  -- the SparseCore call: the three arrays out to the two SparseCores and back
  ihave Hsp := (split2 m d) $$ [Hv1 Ha0 Hv2]
  · isplitl [Hv1]; · iexists pc; iexact Hv1
    isplitl [Ha0]; · iexact Ha0
    iexists _; iexact Hv2
  icases Hsp with ⟨Hsts, Hjoin⟩
  iapply ((K (F := F)).wp_run (D (F := F)) 𝒱 (EH := EH) (P := P m) κ d 0) $$ [Hst Hsts Hjoin Hb Ha1 Hv3]
  isplitr; · iexact Hctx
  isplitl [Hst]; · iexact Hst
  isplitl [Hsts]; · rw [st0_eq]; iexact Hsts
  iintro ⟨Hst, Hdn⟩
  ihave Hdn' := (Entails.of_eq (dn0_eq m d)) $$ Hdn
  ispecialize Hjoin $$ Hdn'
  icases Hjoin with ⟨-, Ha0, ⟨%f, Hv2⟩⟩
  -- the result's transpose, on the host
  iapply (wp_hlo_within 𝒱 (SparseCore.T d) none Set.univ (op := opT2) (S := S2) hT2 (V := V2 m d f)) $$ [Hb Hv2 Hv3]
  · isplitl [Hb]; · iexact Hb
    rw [held_S2, V2_v2, V2_v3]
    isplitl [Hv2]; · iexact Hv2
    iexact Hv3
  iintro ⟨Hb, Hheld⟩
  rw [wp_ret]; imodintro; imodintro
  isplitl [Hst]; · iexact Hst
  isplitl [Ha0]; · iexact Ha0
  iexact Ha1

/-! ## The final memory -/

def fq (d : Dev nD) (s' : Phys nD τ sig (Elt F)) : Prop := s'.mem.mem (iLoc d) = m (iLoc d) ∧ s'.mem.mem (tLoc d) = m (tLoc d)

omit [FloatOps F] in
theorem hfin (d : Dev nD) (s' : Phys nD τ sig (Elt F)) : iprop(FIN m d ∗ SI s') ⊢ (⌜fq m d s'⌝ : sProp 𝕄) := by
  iintro ⟨⟨Hi, Hx⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (SI_pointsTo_agree (st := s') (ℓ := tLoc d) (I := Finset.univ) (q := fullShare) (f := m (tLoc d))) $$ [HSI Hx]
  · isplitl [HSI] <;> iassumption
  icases H with %h2
  ipureintro; exact ⟨funext fun i => h1 i (Finset.mem_univ i), funext fun i => h2 i (Finset.mem_univ i)⟩

/-! ## The program's run -/

/-- The run from any launch element that funds the handshakes and deals the TensorCores `G`. -/
theorem run_frame_of [∀ e, Nonempty (Elt F e)] (hbody : TileBody (F := F) m) (G : Dev nD → sProp 𝕄) (hcall : CallStmt (F := F) m G) (u : UU)
    (hu : (ownU u : sProp 𝕄) ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P m).x q thr)) :
    θ_run (defs (F := F)) (threads (F := F)) ⟨m, fun _ => 0, ρ⟩
      (fun r => ∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main G (FIN m) u (sep_elim_left.trans hu) (hmain m ρ G hcall) (fq m) (hfin m) _ (fun _ h => h)

/-- The run, all in: the repacking call from its own proof, at the launch element of KIElem.lean, which deals each TensorCore
    what that proof consumes. -/
theorem run_frame_all [∀ e, Nonempty (Elt F e)] (hbody : TileBody (F := F) m) :
    θ_run (defs (F := F)) (threads (F := F)) ⟨m, fun _ => 0, ρ⟩
      (fun r => ∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) :=
  run_frame_of m ρ hbody (Cert.KernelIdeal.MainRepack.G (F := F) (U := UU) ER)
    (fun κ d tT f1 Φ => Cert.KernelIdeal.MainRepack.repack_callStmt EH (P m) ER κ d tT f1 Φ) (u₀ (F := F)) (hu₀ m)

end Cert.KernelIdeal.Tile

end
-- ==== Proof.KIScratch.lean ====
/-
  A vector subcore's scoped storage, with the lookup kernel's own scratch named: of its scoped semaphores at zero, the
  three DMA semaphores the kernel names (its scratch operand's and its two scoped regions'); of its scoped buffers at
  some contents, the kernel's five scratch buffers. Every DMA semaphore of a vector subcore is scoped in this
  program's signature, the scratch operand's with the regions'.
-/
import proofs.«202062_g26379689132623_cont_9to1_709_23_alg».proof.Proof.KISetup
import proofs.«202062_g26379689132623_cont_9to1_709_23_alg».proof.Proof.KIPay

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Scratch

variable (d : Dev nD) (c : Fin τ.nSC) (i : Fin τ.nSub)

/-- The kernel's three semaphores on vector subcore `(c, i)`. -/
abbrev c5cell : GSem nD τ sig := (V d c i, .dma cc1_scratch5.sem)
abbrev r0cell : GSem nD τ sig := (V d c i, .dma cc1_scoped0.sem)
abbrev r1cell : GSem nD τ sig := (V d c i, .dma cc1_scoped1.sem)

theorem scratch5_scoped : (SemLoc.dma cc1_scratch5.sem : SemLoc sig).isScoped .scVector = true := by decide
theorem scoped0_scoped : (SemLoc.dma cc1_scoped0.sem : SemLoc sig).isScoped .scVector = true := by decide
theorem scoped1_scoped : (SemLoc.dma cc1_scoped1.sem : SemLoc sig).isScoped .scVector = true := by decide

/-- The subcore's own scoped semaphores at zero are the kernel's three and the rest. -/
theorem ownSems0_V :
    (ownSems0 (V d c i) : sProp 𝕄)
      = iprop(semVal (c5cell d c i) 0 ∗ semVal (r0cell d c i) 0 ∗ semVal (r1cell d c i) 0
          ∗ bigSep ((((ownCells (V d c i)).erase (c5cell d c i)).erase (r0cell d c i)).erase (r1cell d c i)) fun g => semVal g 0) := by
  unfold SparseCore.Cfg.ownSems0
  rw [SparseCore.bigSep_erase' ((mem_ownCells (g := c5cell d c i)).mpr ⟨rfl, scratch5_scoped⟩),
    SparseCore.bigSep_erase' (Finset.mem_erase.mpr ⟨by simp [c5cell, r0cell]; decide, (mem_ownCells (g := r0cell d c i)).mpr ⟨rfl, scoped0_scoped⟩⟩),
    SparseCore.bigSep_erase' (Finset.mem_erase.mpr ⟨by simp [r0cell, r1cell]; decide, Finset.mem_erase.mpr ⟨by simp [c5cell, r1cell]; decide,
      (mem_ownCells (g := r1cell d c i)).mpr ⟨rfl, scoped1_scoped⟩⟩⟩)]

/-- So are its scoped semaphores at zero. -/
theorem scopedSems0_V :
    (scopedSems0 (V d c i) : sProp 𝕄)
      = iprop(semVal (c5cell d c i) 0 ∗ semVal (r0cell d c i) 0 ∗ semVal (r1cell d c i) 0
          ∗ bigSep ((((ownCells (V d c i)).erase (c5cell d c i)).erase (r0cell d c i)).erase (r1cell d c i)) fun g => semVal g 0) := by
  rw [SparseCore.Cfg.scopedSems0_V, ownSems0_V]

/-- The subcore's own buffers, each whole at some contents, are the kernel's five scratch buffers and the rest. -/
theorem ownBufs_V :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f) ∗ (∃ f, (V d c i).loc cc1_scratch3 ↦{fullShare} f)
          ∗ (∃ f, (V d c i).loc cc1_scratch4 ↦{fullShare} f)
          ∗ bigSep ((((((ownRefs (τ := τ) (.scVector c i)).erase ((Proc.scVector c i).devRef cc1_scratch0)).erase
              ((Proc.scVector c i).devRef cc1_scratch1)).erase ((Proc.scVector c i).devRef cc1_scratch2)).erase
              ((Proc.scVector c i).devRef cc1_scratch3)).erase ((Proc.scVector c i).devRef cc1_scratch4))
              fun b => iprop(∃ f, ((d, b) : Loc nD τ sig) ↦{fullShare} f)) := by
  unfold SparseCore.Cfg.ownBufs
  have h0 : (Proc.scVector c i).devRef cc1_scratch0 ∈ ownRefs (τ := τ) (sig := sig) (.scVector c i) :=
    SparseCore.Cfg.mem_ownRefs_of_owner (p := Proc.scVector c i) (b := (Proc.scVector c i).devRef cc1_scratch0) rfl
  have h1 : (Proc.scVector c i).devRef cc1_scratch1 ∈ ownRefs (τ := τ) (sig := sig) (.scVector c i) :=
    SparseCore.Cfg.mem_ownRefs_of_owner (p := Proc.scVector c i) (b := (Proc.scVector c i).devRef cc1_scratch1) rfl
  have h2 : (Proc.scVector c i).devRef cc1_scratch2 ∈ ownRefs (τ := τ) (sig := sig) (.scVector c i) :=
    SparseCore.Cfg.mem_ownRefs_of_owner (p := Proc.scVector c i) (b := (Proc.scVector c i).devRef cc1_scratch2) rfl
  have h3 : (Proc.scVector c i).devRef cc1_scratch3 ∈ ownRefs (τ := τ) (sig := sig) (.scVector c i) :=
    SparseCore.Cfg.mem_ownRefs_of_owner (p := Proc.scVector c i) (b := (Proc.scVector c i).devRef cc1_scratch3) rfl
  have h4 : (Proc.scVector c i).devRef cc1_scratch4 ∈ ownRefs (τ := τ) (sig := sig) (.scVector c i) :=
    SparseCore.Cfg.mem_ownRefs_of_owner (p := Proc.scVector c i) (b := (Proc.scVector c i).devRef cc1_scratch4) rfl
  have hne {a b : Ref sig .scVector} (h : a ≠ b) : (Proc.scVector c i).devRef (τ := τ) a ≠ (Proc.scVector c i).devRef b :=
    fun e => h (Proc.devRef_injective _ e)
  refine (SparseCore.bigSep_erase' h0).trans ?_
  rw [SparseCore.bigSep_erase' (Finset.mem_erase.mpr ⟨hne (show (cc1_scratch1 : Ref sig .scVector) ≠ cc1_scratch0 by decide), h1⟩),
    SparseCore.bigSep_erase' (Finset.mem_erase.mpr ⟨hne (show (cc1_scratch2 : Ref sig .scVector) ≠ cc1_scratch1 by decide),
      Finset.mem_erase.mpr ⟨hne (show (cc1_scratch2 : Ref sig .scVector) ≠ cc1_scratch0 by decide), h2⟩⟩),
    SparseCore.bigSep_erase' (Finset.mem_erase.mpr ⟨hne (show (cc1_scratch3 : Ref sig .scVector) ≠ cc1_scratch2 by decide),
      Finset.mem_erase.mpr ⟨hne (show (cc1_scratch3 : Ref sig .scVector) ≠ cc1_scratch1 by decide),
      Finset.mem_erase.mpr ⟨hne (show (cc1_scratch3 : Ref sig .scVector) ≠ cc1_scratch0 by decide), h3⟩⟩⟩),
    SparseCore.bigSep_erase' (Finset.mem_erase.mpr ⟨hne (show (cc1_scratch4 : Ref sig .scVector) ≠ cc1_scratch3 by decide),
      Finset.mem_erase.mpr ⟨hne (show (cc1_scratch4 : Ref sig .scVector) ≠ cc1_scratch2 by decide),
      Finset.mem_erase.mpr ⟨hne (show (cc1_scratch4 : Ref sig .scVector) ≠ cc1_scratch1 by decide),
      Finset.mem_erase.mpr ⟨hne (show (cc1_scratch4 : Ref sig .scVector) ≠ cc1_scratch0 by decide), h4⟩⟩⟩⟩)]

/-- So are its scoped buffers. -/
theorem scopedBufs_V :
    (scopedBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f) ∗ (∃ f, (V d c i).loc cc1_scratch3 ↦{fullShare} f)
          ∗ (∃ f, (V d c i).loc cc1_scratch4 ↦{fullShare} f)
          ∗ bigSep ((((((ownRefs (τ := τ) (.scVector c i)).erase ((Proc.scVector c i).devRef cc1_scratch0)).erase
              ((Proc.scVector c i).devRef cc1_scratch1)).erase ((Proc.scVector c i).devRef cc1_scratch2)).erase
              ((Proc.scVector c i).devRef cc1_scratch3)).erase ((Proc.scVector c i).devRef cc1_scratch4))
              fun b => iprop(∃ f, ((d, b) : Loc nD τ sig) ↦{fullShare} f)) := by
  rw [(K (F := F)).scopedBufs_V facts, ownBufs_V]

end Scratch

end Cert.KernelIdeal.Tile

end
-- ==== Proof.KIWrap.lean ====
/-
  From the kernel's body over its operands as the subcore's memrefs address them to the body as the launch theorem's
  obligation states it. The obligation hands the task its operands as the TensorCore names the arrays and the subcore's
  scoped storage as one conjunction; the body's proof wants each buffer under the memref the program passes — the
  repacked table and the index list whole at the task's share, the task's own columns of the transposed result under
  the program's slice of it, the five scratch buffers whole, the three semaphores at zero — and gives them back so.
  The two spellings name the same locations and element sets (the columns: `set_oSlice`); the rest of the scoped storage
  is set aside and returned untouched.
-/
import proofs.«202062_g26379689132623_cont_9to1_709_23_alg».proof.Proof.KISetup
import proofs.«202062_g26379689132623_cont_9to1_709_23_alg».proof.Proof.KIPay
import proofs.«202062_g26379689132623_cont_9to1_709_23_alg».proof.Proof.KIScratch
import proofs.«202062_g26379689132623_cont_9to1_709_23_alg».proof.Proof.KIObl

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "pW" => (Memref.whole Cert.KernelIdeal.main_v1_scv : Memref Cert.KernelIdeal.sig Kind.scVector Space.hbm Cert.KernelIdeal.S507904x128 EltTy.f32)
local notation "iW" => (Memref.whole Cert.KernelIdeal.main_arg0_scv : Memref Cert.KernelIdeal.sig Kind.scVector Space.hbm Cert.KernelIdeal.S16384 EltTy.i32)
local notation "oW" => (Memref.whole Cert.KernelIdeal.main_v2_scv : Memref Cert.KernelIdeal.sig Kind.scVector Space.hbm Cert.KernelIdeal.S64x16384 EltTy.f32)
local notation "sI" => (Memref.whole Cert.KernelIdeal.cc1_scratch0 : Memref Cert.KernelIdeal.sig Kind.scVector Space.vmem Cert.KernelIdeal.S512 EltTy.i32)
local notation "sP" => (Memref.whole Cert.KernelIdeal.cc1_scratch1 : Memref Cert.KernelIdeal.sig Kind.scVector Space.vmem Cert.KernelIdeal.S512 EltTy.i32)
local notation "sH" => (Memref.whole Cert.KernelIdeal.cc1_scratch2 : Memref Cert.KernelIdeal.sig Kind.scVector Space.vmem Cert.KernelIdeal.S512 EltTy.i32)
local notation "sG" => (Memref.whole Cert.KernelIdeal.cc1_scratch3 : Memref Cert.KernelIdeal.sig Kind.scVector Space.vmem Cert.KernelIdeal.S512x128 EltTy.f32)
local notation "sB" => (Memref.whole Cert.KernelIdeal.cc1_scratch4 : Memref Cert.KernelIdeal.sig Kind.scVector Space.vmem Cert.KernelIdeal.S64x512 EltTy.f32)

variable (m : (ℓ : Loc nD τ sig) → Buf (Elt F) ℓ)

/-! ## The operands as the subcore's memrefs address them -/

section Pts

variable (d : Dev nD) (L : grid1.Coords)

theorem pts_pW (q : PosShare TreeShare) (f : Buf (Elt F) (pLoc d)) :
    ((pW).view.loc (thrOf d L) ↦{q} f : sProp 𝕄) = pLoc d ↦{q} f := rfl
theorem pts_iW (q : PosShare TreeShare) (f : Buf (Elt F) (iLoc d)) :
    ((iW).view.loc (thrOf d L) ↦{q} f : sProp 𝕄) = iLoc d ↦{q} f := rfl
/-- The program's slice of the transposed result addresses the task's columns. -/
theorem pts_oSlice (f : Buf (Elt F) (oLoc d)) :
    ((oSlice L).view.loc (thrOf d L) ↦[(oSlice L).view.set]{fullShare} f : sProp 𝕄) = oLoc d ↦[cols (cL L) (sL L)]{fullShare} f := by
  rw [set_oSlice]
theorem pts_sI (f : Buf (Elt F) ((thrOf d L).loc cc1_scratch0)) :
    ((sI).view.loc (thrOf d L) ↦{fullShare} f : sProp 𝕄) = (thrOf d L).loc cc1_scratch0 ↦{fullShare} f := rfl
theorem pts_sP (f : Buf (Elt F) ((thrOf d L).loc cc1_scratch1)) :
    ((sP).view.loc (thrOf d L) ↦{fullShare} f : sProp 𝕄) = (thrOf d L).loc cc1_scratch1 ↦{fullShare} f := rfl
theorem pts_sH (f : Buf (Elt F) ((thrOf d L).loc cc1_scratch2)) :
    ((sH).view.loc (thrOf d L) ↦{fullShare} f : sProp 𝕄) = (thrOf d L).loc cc1_scratch2 ↦{fullShare} f := rfl
theorem pts_sG (f : Buf (Elt F) ((thrOf d L).loc cc1_scratch3)) :
    ((sG).view.loc (thrOf d L) ↦{fullShare} f : sProp 𝕄) = (thrOf d L).loc cc1_scratch3 ↦{fullShare} f := rfl
theorem pts_sB (f : Buf (Elt F) ((thrOf d L).loc cc1_scratch4)) :
    ((sB).view.loc (thrOf d L) ↦{fullShare} f : sProp 𝕄) = (thrOf d L).loc cc1_scratch4 ↦{fullShare} f := rfl

end Pts

variable [FloatOps F]

/-- The kernel's body over its operands as the program passes them: from the repacked table and the index list whole at
    a share `q`, the task's columns under the program's slice, the five scratch buffers, the three semaphores at zero and
    what the subcore owes, to the same with the columns and the scratch at some contents — the continuation's. -/
abbrev CoreStmt : Prop := ∀ (d : Dev nD) (L : grid1.Coords) (q : PosShare TreeShare) (O : CellTallies nD τ sig (HIx 1)) (W : Waits sig (HIx 1)), (∀ g, O g none = 0) →
    ∀ (pc : Buf (Elt F) ((pW).view.loc (thrOf d L))) (oc : Buf (Elt F) ((oW).view.loc (thrOf d L)))
      (f0 : Buf (Elt F) ((sI).view.loc (thrOf d L))) (f1 : Buf (Elt F) ((sP).view.loc (thrOf d L))) (f2 : Buf (Elt F) ((sH).view.loc (thrOf d L)))
      (f3 : Buf (Elt F) ((sG).view.loc (thrOf d L))) (f4 : Buf (Elt F) ((sB).view.loc (thrOf d L))) (Q : PUnit → sProp 𝕄),
    iprop(levAts (K (F := F)).L (K (F := F)).lev
        ∗ ((pW).view.loc (thrOf d L) ↦{q} pc) ∗ ((iW).view.loc (thrOf d L) ↦{q} m (iLoc d))
        ∗ ((oSlice L).view.loc (thrOf d L) ↦[(oSlice L).view.set]{fullShare} oc)
        ∗ ((sI).view.loc (thrOf d L) ↦{fullShare} f0) ∗ ((sP).view.loc (thrOf d L) ↦{fullShare} f1) ∗ ((sH).view.loc (thrOf d L) ↦{fullShare} f2)
        ∗ ((sG).view.loc (thrOf d L) ↦{fullShare} f3) ∗ ((sB).view.loc (thrOf d L) ↦{fullShare} f4)
        ∗ semVal (thrOf d L, SemLoc.dma cc1_scratch5.sem) 0 ∗ semVal (thrOf d L, SemLoc.dma cc1_scoped0.sem) 0 ∗ semVal (thrOf d L, SemLoc.dma cc1_scoped1.sem) 0
        ∗ owes (thrOf d L) O W
        ∗ (iprop(((pW).view.loc (thrOf d L) ↦{q} pc) ∗ ((iW).view.loc (thrOf d L) ↦{q} m (iLoc d))
              ∗ (∃ oc', (oSlice L).view.loc (thrOf d L) ↦[(oSlice L).view.set]{fullShare} oc')
              ∗ (∃ f, (sI).view.loc (thrOf d L) ↦{fullShare} f) ∗ (∃ f, (sP).view.loc (thrOf d L) ↦{fullShare} f) ∗ (∃ f, (sH).view.loc (thrOf d L) ↦{fullShare} f)
              ∗ (∃ f, (sG).view.loc (thrOf d L) ↦{fullShare} f) ∗ (∃ f, (sB).view.loc (thrOf d L) ↦{fullShare} f)
              ∗ semVal (thrOf d L, SemLoc.dma cc1_scratch5.sem) 0 ∗ semVal (thrOf d L, SemLoc.dma cc1_scoped0.sem) 0 ∗ semVal (thrOf d L, SemLoc.dma cc1_scoped1.sem) 0
              ∗ ∃ W', ⌜∀ p ∈ W', p ∈ W ∨ p.2 = none⌝ ∗ owes (thrOf d L) O W') -∗ Q ⟨⟩))
      ⊢ wp frame (wpE (defs₀ (F := F)) 𝒱₀ (thrOf d L) none) Set.univ
          (cc1_lookup L pW (Memref.isWhole_whole _) iW (Memref.isWhole_whole _) oW (Memref.isWhole_whole _) sI (Memref.isWhole_whole _) sP (Memref.isWhole_whole _) sH (Memref.isWhole_whole _) sG (Memref.isWhole_whole _) sB (Memref.isWhole_whole _) cc1_scratch5 cc1_scoped0 cc1_scoped1) Q

/-- The body as the launch theorem's obligation states it, from the body over the program's memrefs. -/
theorem tileBody_of_core (hcore : CoreStmt (F := F) m) : TileBody (F := F) m := by
  intro d L O W hO
  rw [scopedBufs_V (F := F) d _ _, scopedSems0_V (F := F) d _ _]
  unfold goRes tdRes
  iintro ⟨#Hlv, -, ⟨⟨%pc, Hp⟩, Hi, ⟨%oc, Ho⟩⟩, ⟨⟨%f0, H0⟩, ⟨%f1, H1⟩, ⟨%f2, H2⟩, ⟨%f3, H3⟩, ⟨%f4, H4⟩, Hbrest⟩, ⟨Hc5, Hr0, Hr1, Hsrest⟩, HO⟩
  ihave Hp' := (Entails.of_eq (pts_pW (F := F) d L _ pc).symm) $$ Hp
  ihave Hi' := (Entails.of_eq (pts_iW (F := F) d L _ (m (iLoc d))).symm) $$ Hi
  ihave Ho' := (Entails.of_eq (pts_oSlice (F := F) d L oc).symm) $$ Ho
  ihave H0' := (Entails.of_eq (pts_sI (F := F) d L f0).symm) $$ H0
  ihave H1' := (Entails.of_eq (pts_sP (F := F) d L f1).symm) $$ H1
  ihave H2' := (Entails.of_eq (pts_sH (F := F) d L f2).symm) $$ H2
  ihave H3' := (Entails.of_eq (pts_sG (F := F) d L f3).symm) $$ H3
  ihave H4' := (Entails.of_eq (pts_sB (F := F) d L f4).symm) $$ H4
  iapply (hcore d L (qTile (cL L) (sL L)) O W hO pc oc f0 f1 f2 f3 f4 _) $$ [Hp' Hi' Ho' H0' H1' H2' H3' H4' Hc5 Hr0 Hr1 HO Hbrest Hsrest]
  isplitr; · iexact Hlv
  isplitl [Hp']; · iexact Hp'
  isplitl [Hi']; · iexact Hi'
  isplitl [Ho']; · iexact Ho'
  isplitl [H0']; · iexact H0'
  isplitl [H1']; · iexact H1'
  isplitl [H2']; · iexact H2'
  isplitl [H3']; · iexact H3'
  isplitl [H4']; · iexact H4'
  isplitl [Hc5]; · iexact Hc5
  isplitl [Hr0]; · iexact Hr0
  isplitl [Hr1]; · iexact Hr1
  isplitl [HO]; · iexact HO
  iintro ⟨Hp, Hi, ⟨%oc', Ho⟩, ⟨%g0, H0⟩, ⟨%g1, H1⟩, ⟨%g2, H2⟩, ⟨%g3, H3⟩, ⟨%g4, H4⟩, Hc5, Hr0, Hr1, ⟨%W', %hW', HO⟩⟩
  -- the task's results
  isplitl [Hp Hi Ho]
  · isplitl [Hp]
    · iexists pc; iapply (Entails.of_eq (pts_pW (F := F) d L _ pc)); iexact Hp
    isplitl [Hi]
    · iapply (Entails.of_eq (pts_iW (F := F) d L _ (m (iLoc d)))); iexact Hi
    iexists oc'; iapply (Entails.of_eq (pts_oSlice (F := F) d L oc')); iexact Ho
  -- the scoped buffers
  isplitl [H0 H1 H2 H3 H4 Hbrest]
  · isplitl [H0]; · iexists g0; iapply (Entails.of_eq (pts_sI (F := F) d L g0)); iexact H0
    isplitl [H1]; · iexists g1; iapply (Entails.of_eq (pts_sP (F := F) d L g1)); iexact H1
    isplitl [H2]; · iexists g2; iapply (Entails.of_eq (pts_sH (F := F) d L g2)); iexact H2
    isplitl [H3]; · iexists g3; iapply (Entails.of_eq (pts_sG (F := F) d L g3)); iexact H3
    isplitl [H4]; · iexists g4; iapply (Entails.of_eq (pts_sB (F := F) d L g4)); iexact H4
    iexact Hbrest
  -- the scoped semaphores
  isplitl [Hc5 Hr0 Hr1 Hsrest]
  · isplitl [Hc5]; · iexact Hc5
    isplitl [Hr0]; · iexact Hr0
    isplitl [Hr1]; · iexact Hr1
    iexact Hsrest
  iexists W'; isplitr
  · ipureintro; exact hW'
  · iexact HO

end Cert.KernelIdeal.Tile

end
-- ==== Proof.KICanon.lean ====
/-
  A scratch buffer written by slice stores, read back under a predicate. If every store's payload satisfies a
  predicate `P` at each of its elements, then so does the buffer at every index some store covers — however many
  stores, in whatever order. Used twice for a subcore's index scratch: the 32 sixteen-lane stores of pair rows (each
  word below the repacked table's 507904 rows, so the indexed copy addresses rows that exist) and the 32 stores of
  halves (each word 0 or 64, so half + column stays below 128).
-/
import Idealize.ShloMosaic.Lib.Pipeline.Value
import Idealize.ShloMosaic.Lib.Pipeline.FrameBody
import proofs.«202062_g26379689132623_cont_9to1_709_23_alg».proof.Proof.KISetup

noncomputable section

namespace Cert.KernelIdeal.Tile

open Cert.KernelIdeal Idealize.ShloMosaic Idealize.ShloMosaic.View

variable {Val : EltTy → Type} {S : Shape} {e : EltTy}

/-- The canonical function of a list of pieces satisfies `P` wherever some piece covers, if every payload does. -/
theorem canon_all [∀ e, Nonempty (Val e)] (P : Val e → Prop) :
    ∀ (L : List (Piece Val S e)) (_ : ∀ p ∈ L, ∀ x : p.1.shape.Idx, P (p.2 x)) (y : S.Idx)
      (_ : ∃ p ∈ L, y ∈ p.1.set), P (canon L y)
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, canon_cons_emb]
      exact hL p (by simp) x
    · rw [canon_cons_of_not_mem _ _ hm]
      refine canon_all P L (fun q hq => hL q (by simp [hq])) y ?_
      obtain ⟨q, hq, hyq⟩ := hy
      rcases List.mem_cons.mp hq with rfl | hq'
      · exact absurd hyq hm
      · exact ⟨q, hq', hyq⟩

/-- Read back through the view: the writes over any start contents, where the pieces cover every index. -/
theorem read_writes_all [∀ e, Nonempty (Val e)] {sig : RefSig} {κ : Kind} {sp : Space} (v : View sig κ sp S e)
    (f : v.ty.Contents Val) (L : List (Piece Val S e)) (hc : ∀ y, ∃ p ∈ L, y ∈ p.1.set) (P : Val e → Prop)
    (hL : ∀ p ∈ L, ∀ x : p.1.shape.Idx, P (p.2 x)) (y : S.Idx) : P (v.read Val (v.writes Val f L) y) := by
  rw [read_writes_eq_canon v f L hc]
  exact canon_all P L hL y (hc y)

variable {F : FTy → Type} [FloatOps F]

/-- The pair-row word of sixteen row numbers below 1000000 is below 507904, lane by lane. -/
theorem pair_lanes_lt (v : IVec S16 32) (hv : ∀ x, (v x).toNat < 1000000) :
    ∀ x, (ori (shli (shrui v (broadcast S16 15#32)) (broadcast S16 14#32)) (andi v (broadcast S16 16383#32)) x).toNat < 507904 := by
  intro x
  have h := Cert.PairSplit.pairWord_toNat ArithUnit.vector (v x) (by have := hv x; omega)
  show (Cert.PairSplit.pairWord ArithUnit.vector (v x)).toNat < 507904
  rw [h]
  exact Cert.PairSplit.pair_lt _ (hv x)

/-- The half word is 0 or 64: at most 64, lane by lane. -/
theorem half_lanes_le (v : IVec S16 32) :
    ∀ x, (shli (andi (shrui v (broadcast S16 14#32)) (broadcast S16 1#32)) (broadcast S16 6#32) x).toNat ≤ 64 := by
  intro x
  have h := Cert.PairSplit.halfWord_toNat ArithUnit.vector (v x)
  show (Cert.PairSplit.halfWord ArithUnit.vector (v x)).toNat ≤ 64
  rw [h]
  omega

end Cert.KernelIdeal.Tile

end
-- ==== Proof.KIChk.lean ====
/-
  The side conditions of the subcore's indexed loads and stores. Every indexed load reads the staged rows at
  (row, half + j) and every indexed store writes the transposed block at (j, row), for sixteen lanes at a time:
  row = lane + 128·k + c with lane < 16, trip k < 4 and c a multiple of 16 up to 112, so row < 512; j is a literal
  below 64; half is 0 or 64, so half + j < 128.
-/
import proofs.«202062_g26379689132623_cont_9to1_709_23_alg».proof.Proof.KISetup

noncomputable section

namespace Cert.KernelIdeal.Tile

open Cert.KernelIdeal Idealize.ShloMosaic

/-- Rows: sixteen consecutive rows starting at 128·k + c, inside the 512 staged rows. -/
theorem rrel_lt (v : IVec S16 32) (hv : ∀ x, (v x).toNat < 16) (k c : BitVec 32) (hk : k.toNat < 4) (hc : c.toNat ≤ 112) :
    ∀ x, (addi v (broadcast S16 (Scalar.addi (Scalar.muli k 128#32) c)) x).toNat < 512 := by
  intro x
  show (v x + (k * 128#32 + c)).toNat < 512
  have h128 : (128#32 : BitVec 32).toNat = 128 := by decide
  have := hv x
  rw [BitVec.toNat_add, BitVec.toNat_add, BitVec.toNat_mul, h128]
  omega

/-- An indexed store's indices (column literal, rows) lie inside the transposed block [64, 512]. -/
theorem chk_scatter (r : IVec S16 32) (j : BitVec 32) (hj : j.toNat < 64) (hr : ∀ x, (r x).toNat < 512) :
    ∀ a x, ((![broadcast S16 j, r] : Fin 2 → IVec S16 32) a x).toNat < S64x512.size a := by
  intro a x
  match a with
  | ⟨0, _⟩ => exact hj
  | ⟨1, _⟩ => exact hr x

/-- An indexed load's indices (rows, half + column literal) lie inside the staged rows [512, 128]. -/
theorem chk_gather (r h : IVec S16 32) (j : BitVec 32) (hj : j.toNat < 64) (hr : ∀ x, (r x).toNat < 512)
    (hh : ∀ x, (h x).toNat ≤ 64) :
    ∀ a x, ((![r, addi h (broadcast S16 j)] : Fin 2 → IVec S16 32) a x).toNat < S512x128.size a := by
  intro a x
  match a with
  | ⟨0, _⟩ => exact hr x
  | ⟨1, _⟩ =>
    show (h x + j).toNat < 128
    have := hh x
    rw [BitVec.toNat_add]
    omega

/-- A sixteen-lane load, at any offset, from a buffer whose every word is at most 64 reads lanes at most 64. -/
theorem readAt_le {κ : Kind} {sp : Space} {F : FTy → Type} (v : View sig κ sp S512 .i32) (off : Fin S512.rank → Nat)
    (inb : ∀ a, off a + S16.size a ≤ S512.size a) (hc : v.ty.Contents (Elt F)) (hh : ∀ y, (v.read (Elt F) hc y).toNat ≤ 64) :
    ∀ x : S16.Idx, (v.readAt (Elt F) (Rect.unit (s := S512) off S16.size inb).toLoadRect hc x).toNat ≤ 64 :=
  fun _ => hh _

/-- A 32-bit word that read signed lies in [0, 999999] is, read unsigned, below 1000000. -/
theorem toNat_lt_of_range (w : BitVec 32) (h0 : 0 ≤ w.toInt) (h1 : w.toInt ≤ 999999) : w.toNat < 1000000 := by
  have hw : w.toNat < 2 ^ 32 := w.isLt
  by_cases h : 2 * w.toNat < 2 ^ 32
  · rw [BitVec.toInt_eq_toNat_cond, if_pos h] at h1; omega
  · rw [BitVec.toInt_eq_toNat_cond, if_neg h] at h0; omega

/-- Lane `x` of the sixteen-lane iota holds `x`: below 16. -/
theorem iota_lt (h : S16.Iotas Kind.scVector 32 [0]) : ∀ x, ((iota Kind.scVector S16 32 [0] h) x).toNat < 16 := by
  intro x
  show (BitVec.ofNat 32 (0 * S16.size 0 + (x 0).val)).toNat < 16
  have hx : (x 0).val < 16 := (x 0).isLt
  rw [BitVec.toNat_ofNat]
  show (0 * 16 + (x 0).val) % 2 ^ 32 < 16
  omega

/-- The loop's four trips: its induction word at trip `k` is `k`, below 4. -/
theorem iv_lt (k : Fin k1_t1_loop.trips) : (Scf.iv (0#32 : BitVec 32) 1#32 k.val).toNat < 4 := by
  have hk : k.val < 4 := k.isLt
  show ((0#32 : BitVec 32) + BitVec.ofNat 32 k.val * 1#32).toNat < 4
  simp only [BitVec.toNat_add, BitVec.toNat_mul, BitVec.toNat_ofNat]
  omega

end Cert.KernelIdeal.Tile

end
-- ==== Proof.KITile.lean ====
/-
  One vector subcore's task, run once at a symbolic place. The subcore copies its 512 indices in and waits; splits each
  index, sixteen lanes at a time, into a pair row and a half (thirty-two groups of two stores); gathers the 512 pair
  rows of the repacked table by one indexed copy and waits; in four trips moves, for each of its rows and each column
  j < 64, the staged row's element at half + j into the transposed block at (j, row) — an indexed load and an indexed
  store of sixteen lanes, 512 pairs a trip, each of which is a load (and store) of the whole buffer around a pure
  gather (scatter) of lanes —; and copies the block out and waits. It needs of its memory only that every index is a
  row number of the table (0 ≤ idx ≤ 999999): then every pair row is a row of the repacked table (the indexed copy's
  side condition), every half is at most 64 and every row below 512 (the indexed loads' and stores'). The arrays and
  scratch buffers come back, the written columns and the scratch at some contents, every semaphore at zero.
-/
import proofs.«202062_g26379689132623_cont_9to1_709_23_alg».proof.Proof.KIWrap
import proofs.«202062_g26379689132623_cont_9to1_709_23_alg».proof.Proof.KICanon
import proofs.«202062_g26379689132623_cont_9to1_709_23_alg».proof.Proof.KIChk
import Idealize.ShloMosaic.Lib.Ring

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "pW" => (Memref.whole Cert.KernelIdeal.main_v1_scv : Memref Cert.KernelIdeal.sig Kind.scVector Space.hbm Cert.KernelIdeal.S507904x128 EltTy.f32)
local notation "iW" => (Memref.whole Cert.KernelIdeal.main_arg0_scv : Memref Cert.KernelIdeal.sig Kind.scVector Space.hbm Cert.KernelIdeal.S16384 EltTy.i32)
local notation "oW" => (Memref.whole Cert.KernelIdeal.main_v2_scv : Memref Cert.KernelIdeal.sig Kind.scVector Space.hbm Cert.KernelIdeal.S64x16384 EltTy.f32)
local notation "sI" => (Memref.whole Cert.KernelIdeal.cc1_scratch0 : Memref Cert.KernelIdeal.sig Kind.scVector Space.vmem Cert.KernelIdeal.S512 EltTy.i32)
local notation "sP" => (Memref.whole Cert.KernelIdeal.cc1_scratch1 : Memref Cert.KernelIdeal.sig Kind.scVector Space.vmem Cert.KernelIdeal.S512 EltTy.i32)
local notation "sH" => (Memref.whole Cert.KernelIdeal.cc1_scratch2 : Memref Cert.KernelIdeal.sig Kind.scVector Space.vmem Cert.KernelIdeal.S512 EltTy.i32)
local notation "sG" => (Memref.whole Cert.KernelIdeal.cc1_scratch3 : Memref Cert.KernelIdeal.sig Kind.scVector Space.vmem Cert.KernelIdeal.S512x128 EltTy.f32)
local notation "sB" => (Memref.whole Cert.KernelIdeal.cc1_scratch4 : Memref Cert.KernelIdeal.sig Kind.scVector Space.vmem Cert.KernelIdeal.S64x512 EltTy.f32)

/-- The indexed load is a load of the whole buffer followed by the pure gather of its lanes. -/
@[sl_canon] theorem vli_eq {p : Proc τ} {s t : Shape} {e : EltTy} (base : Memref sig p.kind .vmem s e) (idxs : Fin s.rank → IVec t 32)
    (h : ∀ a x, (idxs a x).toNat < s.size a) (hl : base.view.Loads) :
    (SparseCore.vectorLoadIdx (nD := nD) (τ := τ) (F := F) (Λ := Λ₀) base idxs h hl)
      = Prog.op (.load base (.whole s) (View.loadsAt_whole hl)) fun f => .ret (Idealize.ShloMosaic.loadIdx f idxs h) := rfl

/-- The indexed store is a load of the whole buffer and a store of the whole buffer with the lanes scattered in. -/
@[sl_canon] theorem vsi_eq {p : Proc τ} {s : Shape} {e : EltTy} {dd : Fin 1 → Nat} (base : Memref sig p.kind .vmem s e) (idxs : Fin s.rank → IVec ⟨1, dd⟩ 32) (v : Vec F ⟨1, dd⟩ e)
    (mask : IVec ⟨1, dd⟩ 1) (add : Bool) (h : ∀ a x, (idxs a x).toNat < s.size a) (hs : (base.access (.whole s)).Stores Finset.univ) :
    (SparseCore.vectorStoreIdx (nD := nD) (τ := τ) (F := F) (Λ := Λ₀) base idxs v mask add h hs)
      = Prog.op (.load base (.whole s) (View.loadsAt_rect hs.loads)) fun f =>
        Prog.op (.store base (.whole s) (Idealize.ShloMosaic.storeIdx f idxs v mask add h) Finset.univ hs (.inl rfl)) fun _ => .ret ⟨⟩ := rfl

/-- What the loop keeps: the halves (every word at most 64) and the staged rows as they are, the transposed block at
    anything. -/
def loopInv (d : Dev nD) (L : grid1.Coords) (_ : Nat) (_ : PUnit) : sProp 𝕄 :=
  iprop(∃ (hc : Buf (Elt F) ((sH).view.loc (thrOf d L))) (gc : Buf (Elt F) ((sG).view.loc (thrOf d L))),
    ((sH).view.loc (thrOf d L) ↦{fullShare} hc) ∗ ((sG).view.loc (thrOf d L) ↦{fullShare} gc)
    ∗ (∃ f, (sB).view.loc (thrOf d L) ↦{fullShare} f) ∗ ⌜∀ y, ((sH).view.read (Elt F) hc y).toNat ≤ 64⌝)

set_option maxHeartbeats 8000000 in
theorem core (m : (ℓ : Loc nD τ sig) → Buf (Elt F) ℓ) (hpre : PreOK m)
    (d : Dev nD) (L : grid1.Coords) (q : PosShare TreeShare) (O : CellTallies nD τ sig (HIx 1)) (W : Waits sig (HIx 1))
    (hO : ∀ g, O g none = 0)
    (pc : Buf (Elt F) ((pW).view.loc (thrOf d L))) (oc : Buf (Elt F) ((oW).view.loc (thrOf d L)))
    (f0 : Buf (Elt F) ((sI).view.loc (thrOf d L))) (f1 : Buf (Elt F) ((sP).view.loc (thrOf d L))) (f2 : Buf (Elt F) ((sH).view.loc (thrOf d L)))
    (f3 : Buf (Elt F) ((sG).view.loc (thrOf d L))) (f4 : Buf (Elt F) ((sB).view.loc (thrOf d L))) (Q : PUnit → sProp 𝕄) :
    iprop(levAts (K (F := F)).L (K (F := F)).lev
        ∗ ((pW).view.loc (thrOf d L) ↦{q} pc) ∗ ((iW).view.loc (thrOf d L) ↦{q} m (iLoc d))
        ∗ ((oSlice L).view.loc (thrOf d L) ↦[(oSlice L).view.set]{fullShare} oc)
        ∗ ((sI).view.loc (thrOf d L) ↦{fullShare} f0) ∗ ((sP).view.loc (thrOf d L) ↦{fullShare} f1) ∗ ((sH).view.loc (thrOf d L) ↦{fullShare} f2)
        ∗ ((sG).view.loc (thrOf d L) ↦{fullShare} f3) ∗ ((sB).view.loc (thrOf d L) ↦{fullShare} f4)
        ∗ semVal (thrOf d L, SemLoc.dma cc1_scratch5.sem) 0 ∗ semVal (thrOf d L, SemLoc.dma cc1_scoped0.sem) 0 ∗ semVal (thrOf d L, SemLoc.dma cc1_scoped1.sem) 0
        ∗ owes (thrOf d L) O W
        ∗ (iprop(((pW).view.loc (thrOf d L) ↦{q} pc) ∗ ((iW).view.loc (thrOf d L) ↦{q} m (iLoc d))
              ∗ (∃ oc', (oSlice L).view.loc (thrOf d L) ↦[(oSlice L).view.set]{fullShare} oc')
              ∗ (∃ f, (sI).view.loc (thrOf d L) ↦{fullShare} f) ∗ (∃ f, (sP).view.loc (thrOf d L) ↦{fullShare} f) ∗ (∃ f, (sH).view.loc (thrOf d L) ↦{fullShare} f)
              ∗ (∃ f, (sG).view.loc (thrOf d L) ↦{fullShare} f) ∗ (∃ f, (sB).view.loc (thrOf d L) ↦{fullShare} f)
              ∗ semVal (thrOf d L, SemLoc.dma cc1_scratch5.sem) 0 ∗ semVal (thrOf d L, SemLoc.dma cc1_scoped0.sem) 0 ∗ semVal (thrOf d L, SemLoc.dma cc1_scoped1.sem) 0
              ∗ ∃ W', ⌜∀ p ∈ W', p ∈ W ∨ p.2 = none⌝ ∗ owes (thrOf d L) O W') -∗ Q ⟨⟩))
      ⊢ wp frame (wpE (defs₀ (F := F)) 𝒱₀ (thrOf d L) none) Set.univ
          (cc1_lookup L pW (Memref.isWhole_whole _) iW (Memref.isWhole_whole _) oW (Memref.isWhole_whole _)
            sI (Memref.isWhole_whole _) sP (Memref.isWhole_whole _) sH (Memref.isWhole_whole _) sG (Memref.isWhole_whole _) sB (Memref.isWhole_whole _)
            cc1_scratch5 cc1_scoped0 cc1_scoped1) Q := by
  rw [cc1_lookup_eq_skeleton]; unfold cc1_lookup_skel
  iintro ⟨#Hlv, Hp, Hi, Ho, H0, H1, H2, H3, H4, Hs5, Hsa, Hsb, HO, HQ⟩
  ihave Hmw := ((K (F := F)).mayWaits_none (thr := thrOf d L) hO) $$ Hlv
  -- the indices in, and the thirty-two groups of pair rows and halves
  set_option sl_exec.maxSteps 205 in sl_exec_parts
  generalize hio : iota Kind.scVector S16 32 [0] iota_S16_d0_w32_scVector = vio
  have hvio : ∀ x, (vio x).toNat < 16 := by rw [← hio]; exact iota_lt _
  -- every index word is a row number of the table; so is every lane the subcore loads from its copy of them
  have hic : ∀ y : S16384.Idx, (m (iLoc d) y).toNat < 1000000 := by
    intro y
    obtain ⟨b, rfl⟩ : ∃ b : Fin 16384, y = ix1 b := ⟨y 0, eq_ix1 y⟩
    exact toNat_lt_of_range _ (hpre d b).1 (hpre d b).2
  have hidx : ∀ (off : Fin S512.rank → ℕ) (inb : ∀ a, off a + S16.size a ≤ S512.size a) (x : S16.Idx),
      (View.readAt (Elt F) (sI).view (Rect.unit (s := S512) off S16.size inb).toLoadRect
        (View.write (Elt F) (sI).view f0 (core.sl.dma0 m d L) Finset.univ) x).toNat < 1000000 := by
    intro off inb x
    rw [View.readAt_apply]
    show ((View.whole cc1_scratch0).read (Elt F) ((View.whole cc1_scratch0).write (Elt F) f0 (core.sl.dma0 m d L) Finset.univ) _).toNat < 1000000
    rw [View.write_whole_univ, View.read_whole]
    sl_unfold_run_names
    first
      | exact hic _
      | (rw [View.read_apply]; exact hic _)
      | (show (View.read _ _ _ _).toNat < _; rw [View.read_apply]; exact hic _)
      | (show (View.read _ _ _ _).toNat < _; rw [View.read_apply, cast_eq]; exact hic _)
  -- the pair rows name rows of the repacked table
  have hin : ∀ x : S512.Idx, (View.read (Elt F) (sP).view ((sP).view.writes (Elt F) (sP).view.junk
      (⟨Rect.unit (s := S512) ![496] S16.size inb_S512_S16_496,
          k1_pay102 (View.readAt (Elt F) (sI).view (Rect.unit (s := S512) ![496] S16.size inb_S512_S16_496).toLoadRect
            (View.write (Elt F) (sI).view f0 (core.sl.dma0 m d L) Finset.univ))⟩ :: core.sl.H1_31 m d L f0)) x).toNat
        < S507904x128.size gathers_S507904x128_S512x128.axis := by
    intro x
    refine read_writes_all (Val := Elt F) (sP).view _ _ ?hc (fun w : Elt F .i32 => w.toNat < 507904) ?hL x
    case hc =>
      sl_unfold_run_names
      exact View.cover_of_tiledL _ S16.size (by sl_kernel_rfl)
    case hL =>
      sl_unfold_run_names
      simp only [List.forall_mem_cons]
      and_intros
      all_goals first
        | exact pair_lanes_lt _ (hidx _ _)
        | exact fun _ h => nomatch h
  -- the indexed copy and its wait
  sl_exec
  -- the four trips
  sl_for (loopInv (F := F) d L) $$ [H2 H3 H4]
  case region =>
    intro k _
    unfold loopInv
    iintro ⟨%hc, %gc, H2, H3, ⟨%fb, H4⟩, %hh⟩
    sl_exec_parts (disch := (sl_unfold_run_names; first
      | exact chk_scatter _ _ (by decide) (rrel_lt _ hvio _ _ (iv_lt _) (by decide))
      | exact chk_gather _ _ _ (by decide) (rrel_lt _ hvio _ _ (iv_lt _) (by decide)) (readAt_le _ _ _ _ hh)))
    sl_step
    iexists hc, gc
    isplitl [H2]; · iexact H2
    isplitl [H3]; · iexact H3
    isplitl [H4]; · iexists _; iexact H4
    ipureintro; exact hh
  · unfold loopInv
    iexists _, _
    isplitl [H2]; · iexact H2
    isplitl [H3]; · iexact H3
    isplitl [H4]; · iexists _; iexact H4
    ipureintro
    intro y
    refine read_writes_all (Val := Elt F) (sH).view _ _ ?hc (fun w : Elt F .i32 => w.toNat ≤ 64) ?hL y
    case hc =>
      sl_unfold_run_names
      exact View.cover_of_tiledL _ S16.size (by sl_kernel_rfl)
    case hL =>
      sl_unfold_run_names
      simp only [List.forall_mem_cons]
      and_intros
      all_goals first
        | exact half_lanes_le _
        | exact fun _ h => nomatch h
  -- the block out, and its wait
  iintro %_ HI
  unfold loopInv
  icases HI with ⟨%hc, %gc, H2, H3, ⟨%fb, H4⟩, -⟩
  sl_exec
  sl_step
  iapply HQ
  isplitl [Hp]; · iexact Hp
  isplitl [Hi]; · iexact Hi
  isplitl [Ho]; · iexists _; iexact Ho
  isplitl [H0]; · iexists _; iexact H0
  isplitl [H1]; · iexists _; iexact H1
  isplitl [H2]; · iexists _; iexact H2
  isplitl [H3]; · iexists _; iexact H3
  isplitl [H4]; · iexists _; iexact H4
  isplitl [Hs5]; · iexact Hs5
  isplitl [Hsa]; · iexact Hsa
  isplitl [Hsb]; · iexact Hsb
  iexists _
  isplitr
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    exact .inl hp

/-- The task in the form the launch's wrapper takes. -/
theorem core_stmt (m : (ℓ : Loc nD τ sig) → Buf (Elt F) ℓ) (hpre : PreOK m) : CoreStmt (F := F) m :=
  fun d L q O W hO pc oc f0 f1 f2 f3 f4 Q => core m hpre d L q O W hO pc oc f0 f1 f2 f3 f4 Q

/-- The body obligation of the launch theorem, for every vector subcore. -/
theorem tile_body (m : (ℓ : Loc nD τ sig) → Buf (Elt F) ℓ) (hpre : PreOK m) : TileBody (F := F) m :=
  tileBody_of_core m (core_stmt m hpre)

end Cert.KernelIdeal.Tile

end
-- ==== Proof.KBSetup.lean ====
/-
  The program as the launch of its SparseCore call sees it, and what the call's threads exchange. @main hands each
  SparseCore, and each SparseCore hands each of its sixteen vector subcores: a read share of the repacked table (whole:
  a subcore's 512 indices may name any pair row), a read share of the index list, and the 512 columns of the transposed
  result that are the subcore's own — subcore s of SparseCore c works on positions (2 s + c)·512 … + 511. What comes
  back is the same with those columns filled: column p of the transposed result holds row idx p of the table.
  The repacked table's contents are not a function of the table alone (its last slab overhangs the table's 1000000
  rows), so they travel as some contents `pc` together with what is known of them: for every row number n below
  1000000 and column j below 64, pc (pair row of n, half of n · 64 + j) = table (n, j).
-/
import proofs.«202062_g26379689132623_cont_9to1_709_23_alg».proof.Defs
import proofs.«202062_g26379689132623_cont_9to1_709_23_alg».proof.Proof.Lookup
import proofs.«202062_g26379689132623_cont_9to1_709_23_alg».proof.Proof.LibPairSplit
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202062_g26379689132623_cont_9to1_709_23_alg».proof.Proof.Gen.Kernel
import proofs.«202062_g26379689132623_cont_9to1_709_23_alg».proof.Proof.Gen.Kernel.Skeleton

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipeline's rounds library: the left part of the right factor. -/
def ER : Emb UP (MT nD τ sig (HIx 1) (Elt F) ℕ UU ℕ) := (Emb.inl : Emb UP (UP × Counters)).trans embR

instance ER_landsIn : (ER : Emb UP (MT nD τ sig (HIx 1) (Elt F) ℕ UU ℕ)).LandsIn (upEmb : UEmb _ (MT nD τ sig (HIx 1) (Elt F) ℕ UU ℕ)) := by
  unfold ER; infer_instance

/-! ## The arrays -/

variable (m : (ℓ : Loc nD τ sig) → Buf (Elt F) ℓ) (ρ : Dev nD → PrngReg)

abbrev iLoc (d : Dev nD) : Loc nD τ sig := (SparseCore.T d).loc main_arg0
abbrev tLoc (d : Dev nD) : Loc nD τ sig := (SparseCore.T d).loc main_arg1
abbrev pLoc (d : Dev nD) : Loc nD τ sig := (SparseCore.T d).loc main_v1
abbrev oLoc (d : Dev nD) : Loc nD τ sig := (SparseCore.T d).loc main_v2

/-- The pair row of row number `n`, and its half's column offset. -/
def pairRow (n : Nat) : Nat := n / 32768 * 16384 + n % 16384
def halfOff (n : Nat) : Nat := n / 16384 % 2 * 64

/-- What is known of the repacked table's contents `pc`: each of the table's rows sits in its pair row's half. -/
def PairedOK (table : S1000000x64.Idx → Elt F .f32) (pc : S507904x128.Idx → Elt F .f32) : Prop :=
  ∀ (n : Fin 1000000) (j : Fin 64),
    pc (ix2 (⟨pairRow n.val, Cert.PairSplit.pair_lt n.val n.isLt⟩ : Fin 507904)
        (⟨halfOff n.val + j.val, Cert.PairSplit.half_col_lt n.val j.val j.isLt⟩ : Fin 128)) = table (ix2 n j)

/-- The transposed result: column `p` holds row `idx p` of the table. -/
def rowsT (idx : S16384.Idx → BitVec 32) (table : S1000000x64.Idx → Elt F .f32) : S64x16384.Idx → Elt F .f32 :=
  fun i => Cert.Lookup.rows idx table (ix2 (i 1 : Fin 16384) (i 0 : Fin 64))

/-- The first of the 512 positions vector subcore `s` of SparseCore `c` works on. -/
def base (c : Fin 2) (s : Fin 16) : Nat := (s.val * 2 + c.val) * 512

end Cert.Kernel.Tile

end
-- ==== Proof.KBPay.lean ====
/-
  What the launch's handshakes carry for the lookup's SparseCore call. @main hands each SparseCore a read share of the
  repacked table (whole, at whatever contents it has), a read share of the index list, and the columns of the
  transposed result its sixteen vector subcores fill; the sequencer hands each vector subcore a share of its two
  shares and the subcore's own 512 columns. The shares are the read tokens of Lib/Transfers.lean: SparseCore `c`'s is
  token `c` of two of the full share, vector subcore `i`'s token `i` of sixteen of that. The columns are stated as a
  unit-stride rectangle of the result's shape — all 64 rows, the 512 columns from `base c i` — and are the elements
  the program's own slice of the result addresses (`set_oSlice`).
-/
import proofs.«202062_g26379689132623_cont_9to1_709_23_alg».proof.Proof.KBSetup

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The shares -/

abbrev qCore (c : Fin 2) : PosShare TreeShare := Transfers.shareTok fullShare 2 c
abbrev qTile (c : Fin 2) (i : Fin 16) : PosShare TreeShare := Transfers.shareTok (qCore c) 16 i

/-! ## The columns -/

theorem base_le (c : Fin 2) (i : Fin 16) : base c i + 512 ≤ 16384 := by
  unfold base; have := c.isLt; have := i.isLt; omega

theorem cols_inb (c : Fin 2) (i : Fin 16) : ∀ a, (![0, base c i] : Fin 2 → Nat) a + S64x512.size a ≤ S64x16384.size a :=
  Rect.inb₂ (Nat.le_refl _) (base_le c i)

/-- The columns `base c i … base c i + 511` of the transposed result, all 64 rows. -/
def cols (c : Fin 2) (i : Fin 16) : Finset S64x16384.Idx := (Rect.unit (s := S64x16384) ![0, base c i] S64x512.size (cols_inb c i)).set

/-- A SparseCore's columns: its sixteen vector subcores'. -/
def colsCore (c : Fin 2) : Finset S64x16384.Idx := (Finset.univ : Finset (Fin 16)).biUnion (cols c)

theorem mem_cols {c : Fin 2} {i : Fin 16} {x : S64x16384.Idx} : x ∈ cols c i ↔ base c i ≤ (x 1 : Nat) ∧ (x 1 : Nat) < base c i + 512 := by
  unfold cols
  rw [Rect.mem_set_unit, Fin.forall_fin_two]
  constructor
  · rintro ⟨-, h1⟩; exact h1
  · intro h; exact ⟨⟨Nat.zero_le _, by have := (x 0).isLt; simpa using this⟩, h⟩

/-! ## The place of a vector subcore in the kernel's grid -/

theorem bound_zero : grid1.bound 0 = 2 := rfl
theorem bound_one : grid1.bound 1 = 16 := rfl
abbrev cL (L : grid1.Coords) : Fin 2 := Fin.cast bound_zero (L 0)
abbrev sL (L : grid1.Coords) : Fin 16 := Fin.cast bound_one (L 1)
abbrev thrOf (d : Dev nD) (L : grid1.Coords) : Thread nD τ := V d ((L 0).castLE hcore1) ((L 1).castLE hsub1)

/-- The program's slice of the transposed result at grid point `L`. -/
abbrev oSlice (L : grid1.Coords) := (Memref.whole main_v2_scv).slice (Rect.unit (s := S64x16384) (k1_off10 L) S64x512.size (k1_off10_inb L)) (fun _ => rfl)

theorem k1_off10_base (L : grid1.Coords) : k1_off10 L = ![0, base (cL L) (sL L)] := by
  rw [k1_off10_eq]; unfold base
  funext a
  match a with
  | 0 => rfl
  | 1 => show 1024 * (L 1).val + 512 * (L 0).val = ((L 1).val * 2 + (L 0).val) * 512; omega

/-- The elements the program's slice addresses are the subcore's columns. -/
theorem unit_set_cols (L : grid1.Coords) :
    (Rect.unit (s := S64x16384) (k1_off10 L) S64x512.size (k1_off10_inb L)).set = cols (cL L) (sL L) := by
  ext x
  rw [mem_cols, Rect.mem_set_unit, Fin.forall_fin_two, k1_off10_base]
  constructor
  · rintro ⟨-, h1⟩; exact h1
  · intro h
    refine ⟨⟨Nat.zero_le _, ?_⟩, h⟩
    show (x 0 : Nat) < 0 + 64
    have h0 : (x 0 : Nat) < 64 := (x 0).isLt
    omega

theorem set_oSlice (L : grid1.Coords) : (oSlice L).view.set = cols (cL L) (sL L) :=
  (View.set_slice_whole main_v2_scv _).trans (unit_set_cols L)

/-! ## The payloads -/

variable (m : (ℓ : Loc nD τ sig) → Buf (Elt F) ℓ)

/-- The indices name rows of the table. -/
def PreOK : Prop := ∀ (d : Dev nD) (b : Fin 16384), 0 ≤ (m (iLoc d) (ix1 b)).toInt ∧ (m (iLoc d) (ix1 b)).toInt ≤ 999999

/-- What a vector subcore's task is handed: a read share of the repacked table at some contents, a read share of the
    index list, its own columns of the transposed result at some contents; -/
def goRes (d : Dev nD) (c : Fin 2) (i : Fin 16) : sProp 𝕄 :=
  iprop((∃ pc, pLoc d ↦{qTile c i} pc) ∗ (iLoc d ↦{qTile c i} m (iLoc d)) ∗ ∃ f, oLoc d ↦[cols c i]{fullShare} f)
/-- and what it hands back: the same. -/
def tdRes (d : Dev nD) (c : Fin 2) (i : Fin 16) : sProp 𝕄 :=
  iprop((∃ pc, pLoc d ↦{qTile c i} pc) ∗ (iLoc d ↦{qTile c i} m (iLoc d)) ∗ ∃ f, oLoc d ↦[cols c i]{fullShare} f)

/-- What a SparseCore is handed, and hands back: the same three at its own share, over its subcores' columns. -/
def stRes (d : Dev nD) (c : Fin 2) : sProp 𝕄 :=
  iprop((∃ pc, pLoc d ↦{qCore c} pc) ∗ (iLoc d ↦{qCore c} m (iLoc d)) ∗ ∃ f, oLoc d ↦[colsCore c]{fullShare} f)
def dnRes (d : Dev nD) (c : Fin 2) : sProp 𝕄 :=
  iprop((∃ pc, pLoc d ↦{qCore c} pc) ∗ (iLoc d ↦{qCore c} m (iLoc d)) ∗ ∃ f, oLoc d ↦[colsCore c]{fullShare} f)

instance goRes_storable (d : Dev nD) (c : Fin 2) (i : Fin 16) : BI.Storable (upEmb : UEmb _ 𝕄) (goRes m d c i) := by
  unfold goRes; infer_instance
instance tdRes_storable (d : Dev nD) (c : Fin 2) (i : Fin 16) : BI.Storable (upEmb : UEmb _ 𝕄) (tdRes m d c i) := by
  unfold tdRes; infer_instance
instance stRes_storable (d : Dev nD) (c : Fin 2) : BI.Storable (upEmb : UEmb _ 𝕄) (stRes m d c) := by
  unfold stRes; infer_instance
instance dnRes_storable (d : Dev nD) (c : Fin 2) : BI.Storable (upEmb : UEmb _ 𝕄) (dnRes m d c) := by
  unfold dnRes; infer_instance

/-- The one call's payloads; the kernel's proof consumes nothing of the launch's. -/
def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

theorem P_st (d : Dev nD) (c : Fin ((K (F := F)).nCore 0)) : (P m).st 0 d c = stRes m d (Fin.cast nCore_zero c) := rfl
theorem P_dn (d : Dev nD) (c : Fin ((K (F := F)).nCore 0)) : (P m).dn 0 d c = dnRes m d (Fin.cast nCore_zero c) := rfl
theorem P_go (d : Dev nD) (c : Fin ((K (F := F)).nCore 0)) (i : Fin ((K (F := F)).nSub 0)) :
    (P m).go 0 d c i = goRes m d (Fin.cast nCore_zero c) (Fin.cast nSub_zero i) := rfl
theorem P_td (d : Dev nD) (c : Fin ((K (F := F)).nCore 0)) (i : Fin ((K (F := F)).nSub 0)) :
    (P m).td 0 d c i = tdRes m d (Fin.cast nCore_zero c) (Fin.cast nSub_zero i) := rfl
theorem P_x (q : Fin 1) (thr : Thread nD τ) : (P m).x q thr = iprop(emp) := rfl

instance P_storable : (P (F := F) m).IsStorable where
  st q d c := match q with | 0 => (inferInstance : BI.Storable (upEmb : UEmb _ 𝕄) (stRes m d (Fin.cast nCore_zero c)))
  dn q d c := match q with | 0 => (inferInstance : BI.Storable (upEmb : UEmb _ 𝕄) (dnRes m d (Fin.cast nCore_zero c)))
  go q d c i := match q with | 0 => (inferInstance : BI.Storable (upEmb : UEmb _ 𝕄) (goRes m d (Fin.cast nCore_zero c) (Fin.cast nSub_zero i)))
  td q d c i := match q with | 0 => (inferInstance : BI.Storable (upEmb : UEmb _ 𝕄) (tdRes m d (Fin.cast nCore_zero c) (Fin.cast nSub_zero i)))

end Cert.Kernel.Tile

end
-- ==== Proof.KBSplit.lean ====
/-
  How a SparseCore's operands split among its sixteen vector subcores, and its results gather from theirs. The two
  read shares split into a read token per subcore and a remainder, which stays with the split until the tasks are back
  and is joined with their tokens then; the SparseCore's columns of the transposed result are its subcores' columns,
  pairwise disjoint. The repacked table comes back from each task at SOME contents: every share of one array is at the
  same contents as the remainder kept here (two points-tos agree on their common elements), so the tokens join.
-/
import proofs.«202062_g26379689132623_cont_9to1_709_23_alg».proof.Proof.KBSetup
import proofs.«202062_g26379689132623_cont_9to1_709_23_alg».proof.Proof.KBPay

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The subcores' columns -/

theorem cols_disjoint (c : Fin 2) :
    ∀ i ∈ (Finset.univ : Finset (Fin 16)), ∀ j ∈ (Finset.univ : Finset (Fin 16)), i ≠ j → Disjoint (cols c i) (cols c j) := by
  intro i _ j _ hij
  refine Finset.disjoint_left.mpr fun x hi hj => ?_
  have hv : i.val ≠ j.val := fun e => hij (Fin.ext e)
  obtain ⟨h1, h2⟩ := mem_cols.mp hi
  obtain ⟨h3, h4⟩ := mem_cols.mp hj
  unfold base at h1 h2 h3 h4
  omega

/-- A SparseCore's columns at one contents are its subcores' columns at that contents. -/
theorem oCols_split (d : Dev nD) (c : Fin 2) (f : Buf (Elt F) (oLoc d)) :
    (oLoc d ↦[colsCore c]{fullShare} f : sProp 𝕄) = bigSep Finset.univ fun i : Fin 16 => oLoc d ↦[cols c i]{fullShare} f := by
  unfold colsCore
  exact pointsTo_biUnion Finset.univ (ℓ := oLoc d) (cols c) (cols_disjoint c)

/-- The subcores' columns, each at some contents, are the SparseCore's at some contents. -/
theorem oCols_join [∀ e, Nonempty (Elt F e)] (d : Dev nD) (c : Fin 2) :
    (bigSep Finset.univ fun i : Fin 16 => iprop(∃ f, oLoc d ↦[cols c i]{fullShare} f)) ⊢ (iprop(∃ f, oLoc d ↦[colsCore c]{fullShare} f) : sProp 𝕄) := by
  refine (bigSep_exists_pi Finset.univ (fun i (f : Buf (Elt F) (oLoc d)) => (oLoc d ↦[cols c i]{fullShare} f : sProp 𝕄))).trans ?_
  iintro ⟨%fs, H⟩
  ihave H' := (pointsTo_biUnion_join Finset.univ (ℓ := oLoc d) (cols c) fs (fs 0) (cols_disjoint c)) $$ H
  icases H' with ⟨%g, -, Hg⟩
  iexists g; iexact Hg

/-! ## Shares of one array are at one contents -/

/-- With a share of an array at `f` in hand, shares of it each at some contents are shares of it at `f`. -/
theorem toks_agree {ℓ : Loc nD τ sig} {r : PosShare TreeShare} (f : Buf (Elt F) ℓ) {I : Type} [DecidableEq I] (s : Finset I) (q : I → PosShare TreeShare) :
    iprop((ℓ ↦{r} f) ∗ bigSep s fun i => iprop(∃ g, ℓ ↦{q i} g)) ⊢ (iprop((ℓ ↦{r} f) ∗ bigSep s fun i => ℓ ↦{q i} f) : sProp 𝕄) := by
  induction s using Finset.induction_on with
  | empty => rw [bigSep_empty, bigSep_empty]
  | insert a s ha ih =>
    rw [SparseCore.bigSep_insert' ha, SparseCore.bigSep_insert' ha]
    iintro ⟨Hr, ⟨%g, Ha⟩, Hs⟩
    ihave Hag := (persistent_entails_right pointsTo_agree) $$ [Hr Ha]
    · isplitl [Hr]; · iexact Hr
      iexact Ha
    icases Hag with ⟨%hag, Hr, Ha⟩
    ihave Ha' := (Entails.of_eq (pointsTo_congr (f := g) (g := f) fun i hi => (hag i (Finset.mem_inter.mpr ⟨hi, hi⟩)).1.symm)) $$ Ha
    ihave H := ih $$ [Hr Hs]
    · isplitl [Hr]; · iexact Hr
      iexact Hs
    icases H with ⟨Hr, Hs⟩
    isplitl [Hr]; · iexact Hr
    isplitl [Ha']; · iexact Ha'
    iexact Hs

theorem tok_exists {ℓ : Loc nD τ sig} (S : Finset (Idx ℓ)) (q : PosShare TreeShare) (f : Buf (Elt F) ℓ) :
    (ℓ ↦[S]{q} f : sProp 𝕄) ⊢ iprop(∃ g, ℓ ↦[S]{q} g) := by
  iintro H; iexists f; iexact H

/-- Shares of an array at one contents are shares of it each at some contents. -/
theorem toks_exists {ℓ : Loc nD τ sig} {I : Type} (s : Finset I) (q : I → PosShare TreeShare) (S : I → Finset (Idx ℓ)) (f : Buf (Elt F) ℓ) :
    (bigSep s fun i => (ℓ ↦[S i]{q i} f : sProp 𝕄)) ⊢ bigSep s fun i => iprop(∃ g, ℓ ↦[S i]{q i} g) :=
  bigSep_mono fun i _ => tok_exists (S i) (q i) f

/-! ## The split -/

variable (m : (ℓ : Loc nD τ sig) → Buf (Elt F) ℓ)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- SparseCore `c`'s operands to its sixteen subcores' and back. -/
theorem split16 [∀ e, Nonempty (Elt F e)] (d : Dev nD) (c : Fin 2) :
    stRes m d c ⊢ |={Set.univ}=> iprop((bigSep Finset.univ fun i : Fin 16 => goRes m d c i)
      ∗ ((bigSep Finset.univ fun i : Fin 16 => tdRes m d c i) -∗ dnRes m d c)) := by
  unfold stRes dnRes goRes tdRes
  rw [bigSep_sep', bigSep_sep']
  iintro ⟨⟨%pc, Hp⟩, Hi, ⟨%f, Ho⟩⟩
  imodintro
  ihave Hp' := (Transfers.pointsTo_toks_split (qCore c) 16) $$ Hp
  icases Hp' with ⟨Hpd, Hpt⟩
  ihave Hi' := (Transfers.pointsTo_toks_split (qCore c) 16) $$ Hi
  icases Hi' with ⟨Hid, Hit⟩
  ihave Ho' := (Entails.of_eq (oCols_split d c f)) $$ Ho
  isplitl [Hpt Hit Ho']
  · isplitl [Hpt]
    · iapply (toks_exists (ℓ := pLoc d) Finset.univ (fun i : Fin 16 => qTile c i) (fun _ => Finset.univ) pc)
      iexact Hpt
    isplitl [Hit]; · iexact Hit
    iapply (toks_exists (ℓ := oLoc d) Finset.univ (fun _ : Fin 16 => fullShare) (fun i => cols c i) f)
    iexact Ho'
  iintro ⟨Htp, Hti, Hto⟩
  ihave Hp2 := (toks_agree pc Finset.univ (fun i : Fin 16 => qTile c i)) $$ [Hpd Htp]
  · isplitl [Hpd]; · iexact Hpd
    iexact Htp
  isplitl [Hp2]
  · iexists pc
    iapply (Transfers.pointsTo_toks_join (qCore c) 16); iexact Hp2
  isplitl [Hid Hti]
  · iapply (Transfers.pointsTo_toks_join (qCore c) 16)
    isplitl [Hid]; · iexact Hid
    iexact Hti
  iapply (oCols_join d c); iexact Hto

theorem vecSplit [∀ e, Nonempty (Elt F e)] : (K (F := F)).VecSplit' (P m) 0 := by
  intro d c
  show stRes m d (Fin.cast nCore_zero c) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ dnRes m d (Fin.cast nCore_zero c)))
  rw [bigSep_tasks (F := F) (fun i => goRes m d (Fin.cast nCore_zero c) i), bigSep_tasks (F := F) (fun i => tdRes m d (Fin.cast nCore_zero c) i)]
  exact split16 m d (Fin.cast nCore_zero c)

end Cert.Kernel.Tile

end
-- ==== Proof.KBObl.lean ====
/-
  The launch theorem's obligation for the lookup kernel as a vector subcore's task, from the proof of the kernel's
  body at a symbolic grid point: the obligation's program is the body table's row for the subcore, the kernel at the
  subcore's own coordinates when the grid holds it (it does: the call's grid is the kernel's); what the task is handed
  and hands back are the payloads of KBPay.lean at those coordinates.
-/
import proofs.«202062_g26379689132623_cont_9to1_709_23_alg».proof.Proof.KBSetup
import proofs.«202062_g26379689132623_cont_9to1_709_23_alg».proof.Proof.KBPay

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

variable [FloatOps F]

/-- The grid point of vector subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_lookup (coordsV c s)
          (Memref.whole main_v1_scv) (Memref.isWhole_whole _) (Memref.whole main_arg0_scv) (Memref.isWhole_whole _) (Memref.whole main_v2_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _) cc1_scratch5 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The kernel's body at a symbolic grid point: from the task's operands and the subcore's scoped storage, owing `O`
    with nothing at index `none`, to the task's results and the storage back, owing `O` still and having recorded
    waits at index `none` only. -/
abbrev TileBody : Prop :=
  ∀ (d : Dev nD) (L : grid1.Coords) (O : CellTallies nD τ sig (HIx 1)) (W : Waits sig (HIx 1)), (∀ g, O g none = 0) →
    iprop(levAts (K (F := F)).L (K (F := F)).lev ∗ emp ∗ goRes m d (cL L) (sL L) ∗ scopedBufs (thrOf d L) ∗ scopedSems0 (thrOf d L) ∗ owes (thrOf d L) O W)
      ⊢ wp frame (wpE (defs₀ (F := F)) 𝒱₀ (thrOf d L) none) Set.univ
          (cc1_lookup L (Memref.whole main_v1_scv) (Memref.isWhole_whole _) (Memref.whole main_arg0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scoped0 cc1_scoped1)
          fun _ => iprop(tdRes m d (cL L) (sL L) ∗ scopedBufs (thrOf d L) ∗ scopedSems0 (thrOf d L) ∗ ∃ W', ⌜∀ p ∈ W', p ∈ W ∨ p.2 = none⌝ ∗ owes (thrOf d L) O W')

/-- `TileObl` at call 0: every vector subcore of the call's grid runs the body at its own grid point. -/
theorem tileObl (hbody : TileBody (F := F) m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.Kernel.Tile

end
-- ==== Proof.KBMainRepack.lean ====
/-
  The TensorCore call of @main that repacks the transposed table: run to its end, inside the program the SparseCore
  launch sees. The table's transpose [64, 1000000] is read in 31 slabs of 32768 columns — the last overhanging the array —
  and slab w's first 16384 columns become columns 0‥63 of pair rows w·16384‥, its last 16384 columns columns 64‥127.
  What the call leaves in the repacked table on a pair row whose source column lies past the table's end depends on
  what the staging buffer held there, so the proof's data constrains what the body leaves (a relation) and does not name it.
-/
import proofs.«202062_g26379689132623_cont_9to1_709_23_alg».proof.Proof.KBSetup
import proofs.«202062_g26379689132623_cont_9to1_709_23_alg».proof.Proof.Gen.Kernel.Launch
import proofs.«202062_g26379689132623_cont_9to1_709_23_alg».proof.Proof.Gen.Kernel.Points
import Idealize.ShloMosaic.Lib.Pipeline.Kit
import Idealize.ShloMosaic.Lib.Pipeline.Sound
import Idealize.ShloMosaic.Lib.SparseCore.Threads
import Idealize.ShloMosaic.Lib.Tactic

noncomputable section

namespace Cert.Kernel.MainRepack

open Cert.Kernel Cert.Kernel.Gen Cert.Kernel.Tile

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Cfg Window cellOf kernel pipe)

variable {F : FTy → Type} [FloatOps F]
variable {U : Type} [URA U]

local notation "𝕄" => MT nD τ sig (HIx 1) (Elt F) ℕ U ℕ

/-! ## The kernel body -/

/-- The body on staging buffer `s0` of the table's window and `s1` of the result's: the whole load of the first, the dead
    load of the second, the whole store of the repacked slab — the result's buffer ends holding `k0_pay1` of what the
    table's holds, that one unchanged. -/
theorem sound_body (c : Dev nD) (E : Set ℕ) (i : grid0.Coords) (s0 s1 : Fin 2)
    (X0 : S64x32768.Idx → Elt F .f32) (X1 : S16384x128.Idx → Elt F .f32) (K : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0 ∗ owns (c : Thread nD τ) (stage0_1 s1) fullShare (k0_pay1 X0)) -∗ K ⟨⟩))
      ⊢ wp frame (wpE (defs₀ (F := F)) 𝒱₀ c none) E
          (cc0__repack_body i (stage0_0 s0) (hstage0_0 s0) (stage0_1 s1) (hstage0_1 s1)) K := by
  -- the accesses are at offsets zero and the buffers' own sizes, the whole buffers: the load reads the contents, the
  -- unmasked store writes the payload, at whichever of its window's two buffers each memref is
  have hz : (![0, 0] : Fin 2 → Nat) = fun _ => 0 := funext fun a => by fin_cases a <;> rfl
  fin_cases s0 <;> fin_cases s1
  · -- the table's buffer `cc0_stg0_0`, the result's `cc0_stg1_0`
    have hr0 : (Memref.whole cc0_stg0_0 : Memref sig .tc _ _ _).view.readAt (Elt F) (Rect.unit (s := S64x32768) ![0, 0] S64x32768.size
        inb_S64x32768_S64x32768_0_0).toLoadRect = id := funext (Memref.readAt_unit_zero (Elt F) cc0_stg0_0 hz _)
    have hw1 : ∀ f w, (((Memref.whole cc0_stg1_0).access (Rect.unit (s := S16384x128) ![0, 0] S16384x128.size inb_S16384x128_S16384x128_0_0)) :
        View sig .tc _ _ _).write (Elt F) f w Finset.univ = w := Memref.write_access_unit_zero_univ (Elt F) cc0_stg1_0 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the table's buffer `cc0_stg0_0`, the result's `cc0_stg1_1`
    have hr0 : (Memref.whole cc0_stg0_0 : Memref sig .tc _ _ _).view.readAt (Elt F) (Rect.unit (s := S64x32768) ![0, 0] S64x32768.size
        inb_S64x32768_S64x32768_0_0).toLoadRect = id := funext (Memref.readAt_unit_zero (Elt F) cc0_stg0_0 hz _)
    have hw1 : ∀ f w, (((Memref.whole cc0_stg1_1).access (Rect.unit (s := S16384x128) ![0, 0] S16384x128.size inb_S16384x128_S16384x128_0_0)) :
        View sig .tc _ _ _).write (Elt F) f w Finset.univ = w := Memref.write_access_unit_zero_univ (Elt F) cc0_stg1_1 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the table's buffer `cc0_stg0_1`, the result's `cc0_stg1_0`
    have hr0 : (Memref.whole cc0_stg0_1 : Memref sig .tc _ _ _).view.readAt (Elt F) (Rect.unit (s := S64x32768) ![0, 0] S64x32768.size
        inb_S64x32768_S64x32768_0_0).toLoadRect = id := funext (Memref.readAt_unit_zero (Elt F) cc0_stg0_1 hz _)
    have hw1 : ∀ f w, (((Memref.whole cc0_stg1_0).access (Rect.unit (s := S16384x128) ![0, 0] S16384x128.size inb_S16384x128_S16384x128_0_0)) :
        View sig .tc _ _ _).write (Elt F) f w Finset.univ = w := Memref.write_access_unit_zero_univ (Elt F) cc0_stg1_0 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the table's buffer `cc0_stg0_1`, the result's `cc0_stg1_1`
    have hr0 : (Memref.whole cc0_stg0_1 : Memref sig .tc _ _ _).view.readAt (Elt F) (Rect.unit (s := S64x32768) ![0, 0] S64x32768.size
        inb_S64x32768_S64x32768_0_0).toLoadRect = id := funext (Memref.readAt_unit_zero (Elt F) cc0_stg0_1 hz _)
    have hw1 : ∀ f w, (((Memref.whole cc0_stg1_1).access (Rect.unit (s := S16384x128) ![0, 0] S16384x128.size inb_S16384x128_S16384x128_0_0)) :
        View sig .tc _ _ _).write (Elt F) f w Finset.univ = w := Memref.write_access_unit_zero_univ (Elt F) cc0_stg1_1 hz _
    simp only [owns_whole_eq, cc0__repack_body_eq_skeleton]; unfold cc0__repack_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1

/-! ## The proof's data -/

/-- The proof data of the repack pipeline on device `d`'s TensorCore, over what the two arrays hold at entry (`tT` the
    transposed table, `f1` the repacked table's buffer), what the TensorCore owes throughout (`O`) and what is asked of
    the result's staging buffer after the body at each point (`R`): the table's buffer is left as found; no invariant;
    full shares. -/
def rdat (d : Dev nD) (tT : Buf (Elt F) ((SparseCore.T (τ := τ) d).loc main_v0)) (f1 : Buf (Elt F) ((SparseCore.T (τ := τ) d).loc main_v1))
    (O : CellTallies nD τ sig (HIx 1)) (B : Set (SemLoc sig × HIx 1)) (R : Fin cfg0.N → (S16384x128.Idx → Elt F .f32) → Prop) :
    RDat τ (Elt F) (HIx 1) ℕ U ℕ cfg0 d where
  A := fun | ⟨0, _⟩ => tT | ⟨1, _⟩ => f1 | ⟨_ + 2, h⟩ => absurd h (Nat.not_lt.2 (Nat.le_add_left _ _))
  after := fun
    | ⟨0, _⟩ => fun _ Y X => X = Y
    | ⟨1, _⟩ => fun t _ X => R t X
    | ⟨_ + 2, h⟩ => absurd h (Nat.not_lt.2 (Nat.le_add_left _ _))
  Φ _ := iprop(emp)
  q _ := fullShare
  owed _ := O
  recorded _ := B

variable (d : Dev nD) (tT : Buf (Elt F) ((SparseCore.T (τ := τ) d).loc main_v0)) (f1 : Buf (Elt F) ((SparseCore.T (τ := τ) d).loc main_v1))
  (O : CellTallies nD τ sig (HIx 1)) (B : Set (SemLoc sig × HIx 1)) (R : Fin cfg0.N → (S16384x128.Idx → Elt F .f32) → Prop)

/-- The library's body obligation for that data, from `sound_body` at the point's staging buffers, given that `R` holds of
    the repacked slab of whatever the fetch at the point may have left in the table's buffer. -/
theorem body_obligation
    (hR : ∀ (t : Fin cfg0.N) (dd : S64x32768.Idx → Elt F .f32), R t (k0_pay1 ((rdat (U := U) d tT f1 O B R).fetched (0 : Fin 2) t dd))) :
    (rdat (U := U) d tT f1 O B R).BodyObligation (defs₀ (F := F)) 𝒱₀ (none : HIx 1) Set.univ := fun t Y hY => by
  rw [bigSep_W0, bigSep_W0]
  obtain ⟨dd, hdd⟩ := ((rdat (U := U) d tT f1 O B R).finds_of_fetch (fetch0_0 t) (Y 0)).mp (hY 0)
  rw [show (rdat (U := U) d tT f1 O B R).Φ t.succ = (rdat (U := U) d tT f1 O B R).Φ t.castSucc from rfl,
    show (rdat (U := U) d tT f1 O B R).owesAt none t.succ = (rdat (U := U) d tT f1 O B R).owesAt none t.castSucc from rfl]
  iintro ⟨HΦ, Ho, H0, H1⟩
  iapply (sound_body (F := F) (U := U) d Set.univ (grid0.coords t) (cfg0.slots t 0) (cfg0.slots t 1) (Y 0) (Y 1) _)
  isplitl [H0 H1]
  · isplitl [H0]; · iexact H0
    iexact H1
  iintro ⟨H0, H1⟩
  isplitl [HΦ]; · iexact HΦ
  isplitl [Ho]; · iexact Ho
  isplitl [H0]
  · iexists (Y 0); isplitr; · ipureintro; exact rfl
    iexact H0
  · iexists k0_pay1 (Y 0); isplitr
    · ipureintro; show R t (k0_pay1 (Y 0)); rw [hdd]; exact hR t dd
    iexact H1

/-! ## The call -/

set_option maxHeartbeats 400000 in
/-- The call as @main spells it is the pipeline's entry, lifted to the signature with the SparseCore dispatch labels. -/
theorem call_eq_lift :
    (Prog.lift (.customCall (SparseCore.inner (Pipeline.entry (0 : Fin 1))) ()) :
        Prog (TpuEff nD τ sig (Elt F) (SparseCore.Sig (ΛP (F := F)) 1) .tc) PUnit)
      = SparseCore.liftProg (.op (.customCall (Pipeline.entry (0 : Fin 1)) ()) fun _ => .ret PUnit.unit) := rfl

/-- The pipeline has no prefetched table: its one admissible contents. -/
abbrev adm : (p : Fin 1) → (pcfgs (F := F) p).Adm := fun p => (cfgs p).toPCfg_adm

variable (tTs : (c : Dev nD) → Buf (Elt F) ((SparseCore.T (τ := τ) c).loc main_v0))
  (f1s : (c : Dev nD) → Buf (Elt F) ((SparseCore.T (τ := τ) c).loc main_v1))
  (Os : Dev nD → CellTallies nD τ sig (HIx 1))

/-- The proof data on every device. -/
abbrev rdats : (p : Fin 1) → (c : Dev nD) → RDat τ (Elt F) (HIx 1) ℕ U ℕ (cfgs p) c :=
  fun _ c => rdat c (tTs c) (f1s c) (Os c) B R

/-- Window `w`'s array as the proof data holds it is the buffer whole at the full share. -/
theorem arr_pointsTo (c : Dev nD) (w : Fin 2) (G : Buf (Elt F) ((cfg0.win w).arr.view.loc (c.tc : Thread nD τ))) :
    (((cfg0.win w).arr.view.loc (c.tc : Thread nD τ)) ↦[(cfg0.win w).arr.view.set]{(rdat (U := U) c (tTs c) (f1s c) (Os c) B R).share w} G : sProp 𝕄)
      = (((cfg0.win w).arr.view.loc (c.tc : Thread nD τ)) ↦{fullShare} G) := by
  rw [(arr_whole0 w).set_eq_univ, (rdat (U := U) c (tTs c) (f1s c) (Os c) B R).share_full (fun _ => rfl) w]

/-- The two arrays as the proof data holds them are the two buffers whole at the full share. -/
theorem arrays_eq2 (c : Dev nD) (G : (w : Fin 2) → Buf (Elt F) ((cfg0.win w).arr.view.loc (c.tc : Thread nD τ))) :
    ((rdat (U := U) c (tTs c) (f1s c) (Os c) B R).arrays G : sProp 𝕄)
      = iprop((((cfg0.win 0).arr.view.loc (c.tc : Thread nD τ)) ↦{fullShare} G 0) ∗ (((cfg0.win 1).arr.view.loc (c.tc : Thread nD τ)) ↦{fullShare} G 1)) := by
  unfold RDat.arrays
  rw [bigSep_W0, arr_pointsTo, arr_pointsTo]

/-- What the two arrays may hold after the write-backs below `n`, one by one. -/
theorem arraysAt_eq2 (c : Dev nD) (n : Nat) :
    ((rdat (U := U) c (tTs c) (f1s c) (Os c) B R).arraysAt n : sProp 𝕄)
      = iprop((∃ G, ⌜(rdat (U := U) c (tTs c) (f1s c) (Os c) B R).ArrAt 0 n G⌝ ∗ (((cfg0.win 0).arr.view.loc (c.tc : Thread nD τ)) ↦{fullShare} G))
          ∗ (∃ G, ⌜(rdat (U := U) c (tTs c) (f1s c) (Os c) B R).ArrAt 1 n G⌝ ∗ (((cfg0.win 1).arr.view.loc (c.tc : Thread nD τ)) ↦{fullShare} G))) := by
  have h0 := (rdat (U := U) c (tTs c) (f1s c) (Os c) B R).share_full (fun _ => rfl) (0 : Fin 2)
  have h1 := (rdat (U := U) c (tTs c) (f1s c) (Os c) B R).share_full (fun _ => rfl) (1 : Fin 2)
  unfold RDat.arraysAt
  rw [bigSep_W0]
  simp only [h0, h1, View.set_whole]

/-- The pipeline prefetches no table: it holds none. -/
theorem prefHeld_none (c : Dev nD) (q : Fin (pcfgs (F := F) 0).pre.K → PosShare TreeShare) :
    (BI.emp : sProp 𝕄) ⊢ Pipeline.prefHeld (pcfgs (F := F) 0).pre c q (adm (F := F) 0).1 := by
  unfold Pipeline.prefHeld
  show (BI.emp : sProp 𝕄) ⊢ bigSep (Finset.univ : Finset (Fin 0)) _
  rw [Finset.univ_eq_empty, BI.bigSep_empty]
/-- The call at the pipeline's own level, under the certificate's body table. -/
theorem repack_call_pipe [∀ e, Nonempty (Elt F e)] (ER : Emb (URounds (GSem nD τ sig) Unit) 𝕄) [ER.LandsIn (upEmb : UEmb _ 𝕄)]
    (d : Dev nD) (hO : ∀ g, Os d g none = 0)
    (hR : ∀ (t : Fin cfg0.N) (dd : S64x32768.Idx → Elt F .f32),
      R t (k0_pay1 ((rdat (U := U) d (tTs d) (f1s d) (Os d) B R).fetched (0 : Fin 2) t dd))) :
    iprop(levAts (K (F := F)).L (K (F := F)).lev
        ∗ Pipeline.cellsGhost cfgs ER (0 : Fin 1) d ∗ Pipeline.toksInit cfgs ER (0 : Fin 1) d
        ∗ (∃ W, ⌜↑W ⊆ B⌝ ∗ owes (SparseCore.T d) (Os d) W)
        ∗ scopedBufs (SparseCore.T d) ∗ scopedSems0 (SparseCore.T d)
        ∗ ((SparseCore.T d).loc main_v0 ↦{fullShare} tTs d) ∗ ((SparseCore.T d).loc main_v1 ↦{fullShare} f1s d))
      ⊢ wp frame (wpE (D (F := F)) 𝒱 (SparseCore.T d) none) Set.univ
          (.op (.customCall (Pipeline.entry (0 : Fin 1)) ()) fun _ => .ret PUnit.unit) fun _ =>
          (iprop((∃ W, ⌜↑W ⊆ B ∪ cfg0.waitPairs (none : HIx 1)⌝ ∗ owes (SparseCore.T d) (Os d) W) ∗ scopedBufs (SparseCore.T d) ∗ scopedSems0 (SparseCore.T d)
            ∗ ((SparseCore.T d).loc main_v0 ↦{fullShare} tTs d)
            ∗ ∃ pc, ⌜(rdat (U := U) d (tTs d) (f1s d) (Os d) B R).ArrAt (1 : Fin 2) cfg0.N pc⌝
                ∗ ((SparseCore.T d).loc main_v1 ↦{fullShare} pc)) : sProp 𝕄) := by
  classical
  have hss := Pipeline.scopedSems0_split (Ix := HIx 1) (Val := Elt F) (Name := ℕ) (U := U) (Lvl := ℕ) cfgs cellOf_inj (0 : Fin 1)
    winFacts0.to₀ (Pipeline.OwnSemFacts.none _) d
  have hsb := Pipeline.scopedBufs_split (nD := nD) (τ := τ) (Ix := HIx 1) (Val := Elt F) (Name := ℕ) (U := U) (Lvl := ℕ) cfgs (0 : Fin 1)
    winFacts0.stage_scoped winFacts0.stage_inj stage_whole0 d
  -- the region's boundary obligations: nothing goes into the invariant and nothing comes out of it; the scoped
  -- semaphores are the pipeline's cells and the idle rest, the scoped buffers the staging buffers and nothing else
  have hin : iprop((iprop(emp) : sProp 𝕄) ∗ Pipeline.prefHeld (pcfgs (F := F) 0).pre d (fun k => k.elim0) (adm (F := F) 0).1
        ∗ Pipeline.scopedRest spec0 d) ⊢ (rdats (U := U) B R tTs f1s Os 0 d).Φ 0 := by
    iintro -; iempintro
  have hout : iprop((rdats (U := U) B R tTs f1s Os 0 d).Φ (Fin.last (Pipeline.pin (pcfgs (F := F)) adm 0).N)
        ∗ Pipeline.cellsSems0 (Pipeline.pin (pcfgs (F := F)) adm) 0 d ∗ Pipeline.Dat.staging (Pipeline.pin (pcfgs (F := F)) adm 0) d
        ∗ iprop(Pipeline.ownSems0 (fun k : PEmpty => k.elim) d ∗ Pipeline.idleSems0 cfgs cellOf_inj (0 : Fin 1) (Pipeline.OwnSemFacts.none _) d))
      ⊢ iprop((iprop(emp) : sProp 𝕄) ∗ scopedSems0 (d.tc : Thread nD τ) ∗ scopedBufs (d.tc : Thread nD τ)) := by
    rw [hss, hsb, scopedRest0_eq]
    iintro ⟨-, Hcells, Hst, Hos, Hidle⟩
    isplitr; · iempintro
    isplitl [Hcells Hos Hidle]
    · isplitl [Hcells Hos]; · isplitl [Hcells] <;> iassumption
      iexact Hidle
    isplitl [Hst]; · iexact Hst
    iempintro
  iintro ⟨#Hlev, Hg, Ht, ⟨%W, %hW, HO⟩, Hsb, Hss, Hv0, Hv1⟩
  ihave Hss' := (Entails.of_eq hss) $$ Hss
  icases Hss' with ⟨⟨Hcells, Hos⟩, Hidle⟩
  iapply (fupd_wp frame (wpE (D (F := F)) 𝒱 (SparseCore.T d) none) Set.univ _ _)
  imod (Pipeline.RDat.cellsInit_alloc cfgs (rdats (U := U) B R tTs f1s Os) ER cellOf_inj (0 : Fin 1) d) $$ [Hcells Hg] with ⟨%κ, -, Hinit⟩
  · isplitl [Hcells] <;> iassumption
  imodintro
  iapply (Pipeline.RDat.wp_customCall_entry_frame (pcfgs (F := F)) adm (rdats (U := U) B R tTs f1s Os) (none : HIx 1) ER κ cellOf_inj (0 : Fin 1)
      defs₀ 𝒱₀ (fun k => k.elim0) d Set.univ (fun _ _ => Set.mem_univ _)
      (body_obligation d (tTs d) (f1s d) (Os d) B R hR) block_pos0 none (fun u h => nomatch h)
      (X := iprop(emp)) (Y := iprop(emp)) (R := Pipeline.scopedRest spec0 d)
      (I := iprop(Pipeline.ownSems0 (fun k : PEmpty => k.elim) d ∗ Pipeline.idleSems0 cfgs cellOf_inj (0 : Fin 1) (Pipeline.OwnSemFacts.none _) d))
      (Entails.of_eq hsb) hin hout (k := fun _ => .ret PUnit.unit)) $$ [Hv0 Hv1 HO Hinit Ht Hos Hidle Hsb]
  · isplitl [Hv0 Hv1 HO Hinit Ht]
    · unfold Pipeline.RDat.EntryPre Pipeline.PerCore.RDat.EntryPre
      isplitl [Hv0 Hv1]
      · iapply (Entails.of_eq (arrays_eq2 (U := U) B R tTs f1s Os d _).symm)
        isplitl [Hv0]; · iexact Hv0
        iexact Hv1
      isplitl [HO]
      · iexists W; isplitr; · ipureintro; exact fun _ hx => Or.inl (hW hx)
        iexact HO
      isplitr
      · iapply (Pipeline.RDat.cellsWaits_intro (Pipeline.pin (pcfgs (F := F)) adm) (rdats (U := U) B R tTs f1s Os) (none : HIx 1) (0 : Fin 1) d
          (R := levAts (K (F := F)).L (K (F := F)).lev)
          (fun w s t => (K (F := F)).mayWait_none (thr := SparseCore.T d) _ hO))
        iexact Hlev
      isplitl [Hinit]; · iexact Hinit
      iexact Ht
    isplitr; · iapply (prefHeld_none (U := U) d _); iempintro
    isplitr; · iempintro
    isplitl [Hos Hidle]; · isplitl [Hos] <;> iassumption
    iexact Hsb
  -- the call has returned: the boundary reassembled, the transposed table as at entry (never written), the
  -- repacked table at some contents the write-backs may have left
  iintro ⟨Hpost, -, Hss2, Hsb2⟩
  iapply (le_wp_ret _ _)
  unfold Pipeline.RDat.EntryPost Pipeline.PerCore.RDat.EntryPost
  icases Hpost with ⟨Harr, ⟨%W', %hW', HO'⟩⟩
  ihave Harr' := (Entails.of_eq (arraysAt_eq2 (U := U) B R tTs f1s Os d cfg0.N)) $$ Harr
  icases Harr' with ⟨⟨%F0, %hF0, H0⟩, ⟨%F1, %hF1, H1⟩⟩
  have e0 : F0 = tTs d := by
    rw [(rdat (U := U) d (tTs d) (f1s d) (Os d) B R).ArrAt_in (0 : Fin 2) rfl] at hF0; exact hF0
  isplitl [HO']
  · iexists W'; isplitr; · ipureintro; exact hW'
    iexact HO'
  isplitl [Hsb2]; · iexact Hsb2
  isplitl [Hss2]; · iexact Hss2
  isplitl [H0]; · rw [← e0]; iexact H0
  iexists F1; isplitr; · ipureintro; exact hF1
  iexact H1

/-- **The repack call.** From the pipeline's cells as the launch deals them (their ghost state and the transfers' duty
    tokens), the TensorCore's region boundary (its scoped buffers at some contents, its scoped semaphores at zero), what
    it owes — nothing at the index of a kernel's own waits —, its recorded pairs within \`B\`, the level facts, and the two arrays whole: the call runs
    to its end and gives back the boundary, what is owed, the transposed table unchanged, and the repacked table at
    contents the 31 write-backs may have left, each of a slab `R` holds of. -/
theorem repack_call [∀ e, Nonempty (Elt F e)] (ER : Emb (URounds (GSem nD τ sig) Unit) 𝕄) [ER.LandsIn (upEmb : UEmb _ 𝕄)]
    (d : Dev nD) (hO : ∀ g, Os d g none = 0)
    (hR : ∀ (t : Fin cfg0.N) (dd : S64x32768.Idx → Elt F .f32),
      R t (k0_pay1 ((rdat (U := U) d (tTs d) (f1s d) (Os d) B R).fetched (0 : Fin 2) t dd))) :
    iprop(levAts (K (F := F)).L (K (F := F)).lev
        ∗ Pipeline.cellsGhost cfgs ER (0 : Fin 1) d ∗ Pipeline.toksInit cfgs ER (0 : Fin 1) d
        ∗ (∃ W, ⌜↑W ⊆ B⌝ ∗ owes (SparseCore.T d) (Os d) W)
        ∗ scopedBufs (SparseCore.T d) ∗ scopedSems0 (SparseCore.T d)
        ∗ ((SparseCore.T d).loc main_v0 ↦{fullShare} tTs d) ∗ ((SparseCore.T d).loc main_v1 ↦{fullShare} f1s d))
      ⊢ wp frame (wpE ((K (F := F)).defs (D (F := F))) 𝒱 (SparseCore.T d) none) Set.univ
          (Prog.lift (.customCall (SparseCore.inner (Pipeline.entry (0 : Fin 1))) ())) fun _ =>
          (iprop((∃ W, ⌜↑W ⊆ B ∪ cfg0.waitPairs (none : HIx 1)⌝ ∗ owes (SparseCore.T d) (Os d) W) ∗ scopedBufs (SparseCore.T d) ∗ scopedSems0 (SparseCore.T d)
            ∗ ((SparseCore.T d).loc main_v0 ↦{fullShare} tTs d)
            ∗ ∃ pc, ⌜(rdat (U := U) d (tTs d) (f1s d) (Os d) B R).ArrAt (1 : Fin 2) cfg0.N pc⌝
                ∗ ((SparseCore.T d).loc main_v1 ↦{fullShare} pc)) : sProp 𝕄) := by
  rw [call_eq_lift]
  exact (repack_call_pipe B R tTs f1s Os ER d hO hR).trans
    (SparseCore.Cfg.wp_liftProg (K (F := F)) (D (F := F)) 𝒱 (SparseCore.T d) Set.univ none _ _)

/-! ## The call as @main's proof takes it -/

/-- What the TensorCore owes before any call it owes at a call's index, never at a kernel's own. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

/-- What the launch must deal the TensorCore of `d` for the call: the ghost state of the pipeline's four staging cells and
    the duty tokens of its 62 transfers. -/
abbrev G (ER : Emb (URounds (GSem nD τ sig) Unit) 𝕄) (d : Dev nD) : sProp 𝕄 :=
  iprop(Pipeline.cellsGhost cfgs ER (0 : Fin 1) d ∗ Pipeline.toksInit cfgs ER (0 : Fin 1) d)

/-- The launch element's part for the pipeline — the rounds library's launch state over the pipeline's cells and its
    transfers' tokens — deals every TensorCore its `G`. -/
theorem deal_G (ER : Emb (URounds (GSem nD τ sig) Unit) 𝕄) :
    BI.own (ER (initOf (Pipeline.cells (nD := nD) (τ := τ) cfgs cellOf_inj) (Pipeline.launchToks (nD := nD) (τ := τ) cfgs cellOf_inj)))
      ⊢ iprop(|==> bigSep Finset.univ fun d : Dev nD => (G (F := F) (U := U) ER d)) := by
  refine (Pipeline.fund_ghost (nD := nD) (τ := τ) cfgs ER cellOf_inj).trans (BI.bupd_mono ?_)
  rw [← bigSep_sep']
  refine bigSep_mono fun d _ => ?_
  rw [show (Finset.univ : Finset (Fin 1)) = {0} from rfl, bigSep_singleton, bigSep_singleton]
  exact BI.Entails.refl _

/-- **The call, in the shape @main's proof asks.** From the handshakes' context, the TensorCore's state before the
    SparseCore call, `G d`, the region boundary, the TensorCore's own semaphores, the transposed table and the repacked
    table's buffer: the call runs to its end, and the continuation is owed the state and the boundary back and the
    repacked table whole at some contents. -/
theorem repack_callStmt [∀ e, Nonempty (Elt F e)] (EH : Emb (URounds (GSem nD τ sig) ℕ) 𝕄)
    (P : (K (F := F)).Pay (nD := nD) (Val := Elt F) (Name := ℕ) (U := U))
    (ER : Emb (URounds (GSem nD τ sig) Unit) 𝕄) [ER.LandsIn (upEmb : UEmb _ 𝕄)]
    (κ : GSem nD τ sig → ℕ) (d : Dev nD) (tT : Buf (Elt F) ((SparseCore.T (τ := τ) d).loc main_v0))
    (f1 : Buf (Elt F) ((SparseCore.T (τ := τ) d).loc main_v1)) (Φ : PUnit → sProp 𝕄) :
    iprop((K (F := F)).ctx EH P κ ∗ (K (F := F)).tcSt EH d 0 ∗ G ER d ∗ boundary (SparseCore.T d) ∗ (K (F := F)).tcSems0 d
        ∗ ((SparseCore.T d).loc main_v0 ↦{fullShare} tT) ∗ ((SparseCore.T d).loc main_v1 ↦{fullShare} f1)
        ∗ (((K (F := F)).tcSt EH d 0 ∗ boundary (SparseCore.T d) ∗ ∃ pc, (SparseCore.T d).loc main_v1 ↦{fullShare} pc) -∗ Φ ⟨⟩))
      ⊢ wp frame (wpE ((K (F := F)).defs (D (F := F))) 𝒱 (SparseCore.T d) none) Set.univ
          (Prog.lift (.customCall (SparseCore.inner (Pipeline.entry (0 : Fin 1))) ())) Φ := by
  classical
  -- the contents on the other devices do not matter: any
  let tTs : (c : Dev nD) → Buf (Elt F) ((SparseCore.T (τ := τ) c).loc main_v0) :=
    Function.update (fun c => show Buf (Elt F) ((SparseCore.T (τ := τ) c).loc main_v0) from fun _ => Classical.arbitrary _) d tT
  let f1s : (c : Dev nD) → Buf (Elt F) ((SparseCore.T (τ := τ) c).loc main_v1) :=
    Function.update (fun c => show Buf (Elt F) ((SparseCore.T (τ := τ) c).loc main_v1) from fun _ => Classical.arbitrary _) d f1
  have etT : tTs d = tT := Function.update_self _ _ _
  have ef1 : f1s d = f1 := Function.update_self _ _ _
  have hcall := repack_call (U := U) {p : SemLoc sig × HIx 1 | p.2 = none} (fun _ _ => True) tTs f1s (fun c => (K (F := F)).Otc c 0) ER d
    (fun g => Otc_none d 0 g) (fun _ _ => trivial)
  rw [etT, ef1] at hcall
  unfold SparseCore.Cfg.tcSt SparseCore.Cfg.ctx boundary
  iintro ⟨⟨#Hlev, -⟩, ⟨⟨%W, %hW, HO⟩, Hrest⟩, ⟨Hg, Ht⟩, ⟨Hsb, Hss, Hidl⟩, -, Hv0, Hv1, Hk⟩
  iapply (wp_wand_r frame _ Set.univ)
  isplitl [HO Hg Ht Hsb Hss Hv0 Hv1]
  · iapply hcall
    isplitr; · iexact Hlev
    isplitl [Hg]; · iexact Hg
    isplitl [Ht]; · iexact Ht
    isplitl [HO]
    · iexists W; isplitr
      · ipureintro; intro p hp
        have h := hW p (Finset.mem_coe.mp hp)
        cases hp2 : p.2 with
        | none => exact hp2
        | some q => rw [hp2] at h; have := (K (F := F)).lev_some_pos (SparseCore.T d, p.1) q; omega
      iexact HO
    isplitl [Hsb]; · iexact Hsb
    isplitl [Hss]; · iexact Hss
    isplitl [Hv0]; · iexact Hv0
    iexact Hv1
  iintro %_ ⟨⟨%W', %hW', HO'⟩, Hsb, Hss, -, ⟨%pc, -, Hpc⟩⟩
  iapply Hk
  isplitl [HO' Hrest]
  · isplitl [HO']
    · iexists W'; isplitr
      · ipureintro; intro p hp
        rcases hW' (Finset.mem_coe.mpr hp) with h | ⟨w, s, h⟩
        · rw [show p.2 = none from h, SparseCore.Cfg.lev_none]
        · rw [h, SparseCore.Cfg.lev_none]
      iexact HO'
    iexact Hrest
  isplitl [Hsb Hss Hidl]
  · isplitl [Hsb]; · iexact Hsb
    isplitl [Hss]; · iexact Hss
    iexact Hidl
  iexists pc; iexact Hpc

end Cert.Kernel.MainRepack

end
-- ==== Proof.KBElem.lean ====
/-
  The launch element of the ghost state: the handshakes' rounds, the TensorCore pipeline's rounds over its staging
  cells and its transfers' tokens, and the transfers' counters at their unit. The launch keeps the handshakes' rounds;
  the pipeline's part deals every TensorCore the ghost state and the tokens its repacking call's proof consumes; the
  lookup kernel's transfers need no schedule, so nothing of the counters is dealt and no SparseCore thread is handed
  anything for its kernel's proof.
-/
import proofs.«202062_g26379689132623_cont_9to1_709_23_alg».proof.Proof.KBSetup
import proofs.«202062_g26379689132623_cont_9to1_709_23_alg».proof.Proof.KBPay
import proofs.«202062_g26379689132623_cont_9to1_709_23_alg».proof.Proof.KBMainRepack

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem bigSep_emp' {I : Type} (s : Finset I) : (bigSep s fun _ => iprop(emp)) = (iprop(emp) : sProp 𝕄) := bigSep_emp_const s

/-- The launch element is the handshakes' part and the pipeline's, each owned through its embedding (the counters let go). -/
theorem ownU_split (a : UH) (b : UP) (c : Counters) :
    (ownU ((a, (b, c)) : UU) : sProp 𝕄) ⊢ iprop(BI.own (EH a) ∗ BI.own (ER (F := F) b)) := by
  unfold ER
  iintro Hu
  ihave H := (ownU_pair _ _) $$ Hu
  icases H with ⟨HH, HR⟩
  ihave HR' := (own_pair_emb _ _ _) $$ HR
  icases HR' with ⟨HP, -⟩
  isplitl [HH]; · iexact HH
  iexact HP

variable [FloatOps F]

theorem hu₀ : (ownU (u₀ (F := F)) : sProp 𝕄)
    ⊢ |={Set.univ}=> iprop(BI.own (EH (initOf (K (F := F)).hsCells (K (F := F)).hsToks))
        ∗ (bigSep Finset.univ fun d : Dev nD => Cert.Kernel.MainRepack.G (F := F) (U := UU) ER d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (Cert.Kernel.MainRepack.deal_G (F := F) (U := UU) ER) $$ HP with HG
  imodintro
  isplitl [HH]; · iexact HH
  isplitl [HG]; · iexact HG
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Tile

end
-- ==== Proof.KBMain.lean ====
/-
  @main on the TensorCore, and the program's run. @main transposes the table on the host, repacks the transpose in a
  TensorCore call, starts the lookup on the two SparseCores and waits for it, and transposes the result on the host.
  The repacking call is taken as a hypothesis here (`CallStmt`): from the TensorCore's state before the SparseCore
  call, its region boundary, the transposed table and the repacked table's buffer, it runs to the state and the
  boundary back and the repacked table at SOME contents. Around the SparseCore call, the repacked table and the index
  list go out as the two SparseCores' read tokens, the remainders kept here, and the transposed result as the two
  SparseCores' columns, which cover it; all come back and are joined, the index list at its launch contents (shares of
  one array are at one contents). What @main leaves the claim: the index list and the table at their launch contents.
-/
import proofs.«202062_g26379689132623_cont_9to1_709_23_alg».proof.Proof.KBSetup
import proofs.«202062_g26379689132623_cont_9to1_709_23_alg».proof.Proof.KBPay
import proofs.«202062_g26379689132623_cont_9to1_709_23_alg».proof.Proof.KBSplit
import proofs.«202062_g26379689132623_cont_9to1_709_23_alg».proof.Proof.KBObl
import proofs.«202062_g26379689132623_cont_9to1_709_23_alg».proof.Proof.KBElem

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## A SparseCore's columns: those whose block of 512 has the SparseCore's parity -/

theorem mem_colsCore {c : Fin 2} {x : S64x16384.Idx} : x ∈ colsCore c ↔ (x 1 : Nat) / 512 % 2 = c.val := by
  unfold colsCore
  rw [Finset.mem_biUnion]
  have hx : (x 1 : Nat) < 16384 := (x 1).isLt
  have hc := c.isLt
  constructor
  · rintro ⟨i, -, hi⟩
    obtain ⟨h1, h2⟩ := mem_cols.mp hi
    unfold base at h1 h2
    have hi' := i.isLt
    omega
  · intro h
    refine ⟨⟨(x 1 : Nat) / 512 / 2, by omega⟩, Finset.mem_univ _, mem_cols.mpr ?_⟩
    unfold base
    show ((x 1 : Nat) / 512 / 2 * 2 + c.val) * 512 ≤ (x 1 : Nat) ∧ (x 1 : Nat) < ((x 1 : Nat) / 512 / 2 * 2 + c.val) * 512 + 512
    omega

theorem colsCore_disjoint :
    ∀ c ∈ (Finset.univ : Finset (Fin 2)), ∀ c' ∈ (Finset.univ : Finset (Fin 2)), c ≠ c' → Disjoint (colsCore c) (colsCore c') := by
  intro c _ c' _ hcc
  refine Finset.disjoint_left.mpr fun x h h' => hcc (Fin.ext ?_)
  rw [← mem_colsCore.mp h, ← mem_colsCore.mp h']

theorem colsCore_cover : (Finset.univ : Finset (Fin 2)).biUnion colsCore = Finset.univ := by
  ext x
  simp only [Finset.mem_biUnion, Finset.mem_univ, true_and, iff_true]
  exact ⟨⟨(x 1 : Nat) / 512 % 2, Nat.mod_lt _ (by decide)⟩, mem_colsCore.mpr rfl⟩

/-- The transposed result whole is the two SparseCores' columns. -/
theorem oCores_split (d : Dev nD) (f : Buf (Elt F) (oLoc d)) :
    (oLoc d ↦{fullShare} f : sProp 𝕄) = bigSep Finset.univ fun c : Fin 2 => oLoc d ↦[colsCore c]{fullShare} f := by
  rw [← pointsTo_biUnion Finset.univ (ℓ := oLoc d) colsCore colsCore_disjoint, colsCore_cover]

theorem oCores_join [∀ e, Nonempty (Elt F e)] (d : Dev nD) :
    (bigSep Finset.univ fun c : Fin 2 => iprop(∃ f, oLoc d ↦[colsCore c]{fullShare} f)) ⊢ (iprop(∃ f, oLoc d ↦{fullShare} f) : sProp 𝕄) := by
  refine (bigSep_exists_pi Finset.univ (fun c (f : Buf (Elt F) (oLoc d)) => (oLoc d ↦[colsCore c]{fullShare} f : sProp 𝕄))).trans ?_
  iintro ⟨%fs, H⟩
  ihave H' := (pointsTo_biUnion_join Finset.univ (ℓ := oLoc d) colsCore fs (fs 0) colsCore_disjoint) $$ H
  icases H' with ⟨%g, -, Hg⟩
  rw [colsCore_cover]
  iexists g; iexact Hg

/-! ## The split among the SparseCores -/

/-- What @main holds of the three arrays around the SparseCore call. -/
abbrev mainRes (d : Dev nD) : sProp 𝕄 :=
  iprop((∃ pc, pLoc d ↦{fullShare} pc) ∗ (iLoc d ↦{fullShare} m (iLoc d)) ∗ ∃ f, oLoc d ↦{fullShare} f)

theorem split2 [∀ e, Nonempty (Elt F e)] (d : Dev nD) :
    mainRes m d ⊢ iprop((bigSep Finset.univ fun c : Fin 2 => stRes m d c)
      ∗ ((bigSep Finset.univ fun c : Fin 2 => dnRes m d c) -∗ mainRes m d)) := by
  unfold mainRes stRes dnRes
  rw [bigSep_sep', bigSep_sep']
  iintro ⟨⟨%pc, Hp⟩, Hi, ⟨%f, Ho⟩⟩
  ihave Hp' := (Transfers.pointsTo_toks_split fullShare 2) $$ Hp
  icases Hp' with ⟨Hpd, Hpt⟩
  ihave Hi' := (Transfers.pointsTo_toks_split fullShare 2) $$ Hi
  icases Hi' with ⟨Hid, Hit⟩
  ihave Ho' := (Entails.of_eq (oCores_split d f)) $$ Ho
  isplitl [Hpt Hit Ho']
  · isplitl [Hpt]
    · iapply (toks_exists (ℓ := pLoc d) Finset.univ (fun c : Fin 2 => qCore c) (fun _ => Finset.univ) pc)
      iexact Hpt
    isplitl [Hit]; · iexact Hit
    iapply (toks_exists (ℓ := oLoc d) Finset.univ (fun _ : Fin 2 => fullShare) (fun c => colsCore c) f)
    iexact Ho'
  iintro ⟨Htp, Hti, Hto⟩
  ihave Hp2 := (toks_agree pc Finset.univ (fun c : Fin 2 => qCore c)) $$ [Hpd Htp]
  · isplitl [Hpd]; · iexact Hpd
    iexact Htp
  isplitl [Hp2]
  · iexists pc
    iapply (Transfers.pointsTo_toks_join fullShare 2); iexact Hp2
  isplitl [Hid Hti]
  · iapply (Transfers.pointsTo_toks_join fullShare 2)
    isplitl [Hid]; · iexact Hid
    iexact Hti
  iapply (oCores_join d); iexact Hto

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c) = bigSep Finset.univ fun c : Fin 2 => stRes m d c :=
  bigSep_cores (F := F) (fun c => stRes m d c)
theorem dn0_eq (d : Dev nD) : (bigSep Finset.univ fun c : Fin ((K (F := F)).nCore 0) => (P m).dn 0 d c) = bigSep Finset.univ fun c : Fin 2 => dnRes m d c :=
  bigSep_cores (F := F) (fun c => dnRes m d c)

/-! ## @main's arrays -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev ttLoc (d : Dev nD) : Loc nD τ sig := (SparseCore.T d).loc main_v0
abbrev rLoc (d : Dev nD) : Loc nD τ sig := (SparseCore.T d).loc main_v3

theorem unscopedBufs_eq (d : Dev nD) (W : (b : Ref sig .tc) → Buf (Elt F) ((d.tc : Thread nD τ).loc b)) :
    (unscopedBufs d W : sProp 𝕄) = iprop((iLoc d ↦{fullShare} W main_arg0) ∗ (tLoc d ↦{fullShare} W main_arg1) ∗ (ttLoc d ↦{fullShare} W main_v0)
      ∗ (pLoc d ↦{fullShare} W main_v1) ∗ (oLoc d ↦{fullShare} W main_v2) ∗ (rLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The two arrays of each host transpose. -/
abbrev S1 : Finset (DevRef τ sig) := {a1', v0'}
abbrev S2 : Finset (DevRef τ sig) := {v2', v3'}

theorem held_S1 (d : Dev nD) (W : Valuation τ sig (Elt F)) :
    (held (T d) S1 W : sProp 𝕄) = iprop((tLoc d ↦{fullShare} W a1') ∗ (ttLoc d ↦{fullShare} W v0')) := by
  unfold held S1
  rw [SparseCore.bigSep_insert' (by decide), bigSep_singleton]
theorem held_S2 (d : Dev nD) (W : Valuation τ sig (Elt F)) :
    (held (T d) S2 W : sProp 𝕄) = iprop((oLoc d ↦{fullShare} W v2') ∗ (rLoc d ↦{fullShare} W v3')) := by
  unfold held S2
  rw [SparseCore.bigSep_insert' (by decide), bigSep_singleton]

/-- The launch valuation; with the transposed result at `f`. -/
def V0 (d : Dev nD) : Valuation τ sig (Elt F) := fun b => m (d, b)
def V2 (d : Dev nD) (f : Buf (Elt F) (oLoc d)) : Valuation τ sig (Elt F) := Function.update (V0 m d) v2' f
theorem V2_v2 (d : Dev nD) (f : Buf (Elt F) (oLoc d)) : V2 m d f v2' = f := Function.update_self _ _ _
theorem V2_v3 (d : Dev nD) (f : Buf (Elt F) (oLoc d)) : V2 m d f v3' = V0 m d v3' := Function.update_of_ne (show v3' ≠ v2' by decide) _ _

variable [FloatOps F]

abbrev opT1 : HloOp τ sig (Elt F) :=
  StableHlo.unary main_arg1 main_v0 ((transpose S64x1000000 [1, 0] · transposes_S1000000x64_S64x1000000_1_0) : (⟨S1000000x64, .f32⟩ : BufTy).Contents (Elt F) → (⟨S64x1000000, .f32⟩ : BufTy).Contents (Elt F))
abbrev opT2 : HloOp τ sig (Elt F) :=
  StableHlo.unary main_v2 main_v3 ((transpose S16384x64 [1, 0] · transposes_S64x16384_S16384x64_1_0) : (⟨S64x16384, .f32⟩ : BufTy).Contents (Elt F) → (⟨S16384x64, .f32⟩ : BufTy).Contents (Elt F))

theorem hT1 : (opT1 (F := F)).bufs ⊆ S1 := show ({a1', v0'} : Finset (DevRef τ sig)) ⊆ S1 from Finset.Subset.refl _
theorem hT2 : (opT2 (F := F)).bufs ⊆ S2 := show ({v2', v3'} : Finset (DevRef τ sig)) ⊆ S2 from Finset.Subset.refl _

/-! ## @main on the TensorCore -/

/-- What @main leaves the claim: the index list and the table at their launch contents. -/
abbrev FIN (d : Dev nD) : sProp 𝕄 := iprop((iLoc d ↦{fullShare} m (iLoc d)) ∗ (tLoc d ↦{fullShare} m (tLoc d)))

/-- The repacking call, as @main needs it: handed the cells' invariants and the level facts, the TensorCore's state before
    the SparseCore call, what the launch dealt it for this call's proof (`G d`), its region boundary, its own protocol's
    semaphores at zero, the transposed table and the repacked table's buffer whole, it runs to a state from which the
    continuation is owed the TensorCore's state and the boundary back and the repacked table whole at some contents. -/
abbrev CallStmt (G : Dev nD → sProp 𝕄) : Prop :=
  ∀ (κ : GSem nD τ sig → ℕ) (d : Dev nD) (tT : Buf (Elt F) (ttLoc d)) (f1 : Buf (Elt F) (pLoc d)) (Φ : PUnit → sProp 𝕄),
    iprop((K (F := F)).ctx EH (P m) κ ∗ (K (F := F)).tcSt EH d 0 ∗ G d ∗ boundary (SparseCore.T d) ∗ (K (F := F)).tcSems0 d
        ∗ (ttLoc d ↦{fullShare} tT) ∗ (pLoc d ↦{fullShare} f1)
        ∗ (((K (F := F)).tcSt EH d 0 ∗ boundary (SparseCore.T d) ∗ ∃ pc, pLoc d ↦{fullShare} pc) -∗ Φ ⟨⟩))
      ⊢ wp frame (wpE ((K (F := F)).defs (D (F := F))) 𝒱 (SparseCore.T d) none) Set.univ
          (Prog.lift (.customCall (SparseCore.inner (Pipeline.entry 0)) ())) Φ

theorem hmain [∀ e, Nonempty (Elt F e)] (G : Dev nD → sProp 𝕄) (hcall : CallStmt (F := F) m G) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2, Hv3⟩, Hsems, -⟩, HG⟩
  -- the table's transpose, on the host
  iapply (wp_hlo_within 𝒱 (SparseCore.T d) none Set.univ (op := opT1) (S := S1) hT1 (V := V0 m d)) $$ [Hb Ha1 Hv0]
  · isplitl [Hb]; · iexact Hb
    rw [held_S1]
    isplitl [Ha1]; · iexact Ha1
    iexact Hv0
  iintro ⟨Hb, Hheld⟩
  ihave Hh := (Entails.of_eq (held_S1 (F := F) d _)) $$ Hheld
  icases Hh with ⟨Ha1, Hv0⟩
  rw [wp_ret]; imodintro
  -- the repacking call
  iapply (hcall κ d _ _ _) $$ [Hst HG Hb Hsems Hv0 Hv1 Ha0 Hv2 Ha1 Hv3]
  isplitr; · iexact Hctx
  isplitl [Hst]; · iexact Hst
  isplitl [HG]; · iexact HG
  isplitl [Hb]; · iexact Hb
  isplitl [Hsems]; · iexact Hsems
  isplitl [Hv0]; · iexact Hv0
  isplitl [Hv1]; · iexact Hv1
  iintro ⟨Hst, Hb, ⟨%pc, Hv1⟩⟩
  -- the SparseCore call: the three arrays out to the two SparseCores and back
  ihave Hsp := (split2 m d) $$ [Hv1 Ha0 Hv2]
  · isplitl [Hv1]; · iexists pc; iexact Hv1
    isplitl [Ha0]; · iexact Ha0
    iexists _; iexact Hv2
  icases Hsp with ⟨Hsts, Hjoin⟩
  iapply ((K (F := F)).wp_run (D (F := F)) 𝒱 (EH := EH) (P := P m) κ d 0) $$ [Hst Hsts Hjoin Hb Ha1 Hv3]
  isplitr; · iexact Hctx
  isplitl [Hst]; · iexact Hst
  isplitl [Hsts]; · rw [st0_eq]; iexact Hsts
  iintro ⟨Hst, Hdn⟩
  ihave Hdn' := (Entails.of_eq (dn0_eq m d)) $$ Hdn
  ispecialize Hjoin $$ Hdn'
  icases Hjoin with ⟨-, Ha0, ⟨%f, Hv2⟩⟩
  -- the result's transpose, on the host
  iapply (wp_hlo_within 𝒱 (SparseCore.T d) none Set.univ (op := opT2) (S := S2) hT2 (V := V2 m d f)) $$ [Hb Hv2 Hv3]
  · isplitl [Hb]; · iexact Hb
    rw [held_S2, V2_v2, V2_v3]
    isplitl [Hv2]; · iexact Hv2
    iexact Hv3
  iintro ⟨Hb, Hheld⟩
  rw [wp_ret]; imodintro; imodintro
  isplitl [Hst]; · iexact Hst
  isplitl [Ha0]; · iexact Ha0
  iexact Ha1

/-! ## The final memory -/

def fq (d : Dev nD) (s' : Phys nD τ sig (Elt F)) : Prop := s'.mem.mem (iLoc d) = m (iLoc d) ∧ s'.mem.mem (tLoc d) = m (tLoc d)

omit [FloatOps F] in
theorem hfin (d : Dev nD) (s' : Phys nD τ sig (Elt F)) : iprop(FIN m d ∗ SI s') ⊢ (⌜fq m d s'⌝ : sProp 𝕄) := by
  iintro ⟨⟨Hi, Hx⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (SI_pointsTo_agree (st := s') (ℓ := tLoc d) (I := Finset.univ) (q := fullShare) (f := m (tLoc d))) $$ [HSI Hx]
  · isplitl [HSI] <;> iassumption
  icases H with %h2
  ipureintro; exact ⟨funext fun i => h1 i (Finset.mem_univ i), funext fun i => h2 i (Finset.mem_univ i)⟩

/-! ## The program's run -/

/-- The run from any launch element that funds the handshakes and deals the TensorCores `G`. -/
theorem run_frame_of [∀ e, Nonempty (Elt F e)] (hbody : TileBody (F := F) m) (G : Dev nD → sProp 𝕄) (hcall : CallStmt (F := F) m G) (u : UU)
    (hu : (ownU u : sProp 𝕄) ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P m).x q thr)) :
    θ_run (defs (F := F)) (threads (F := F)) ⟨m, fun _ => 0, ρ⟩
      (fun r => ∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main G (FIN m) u (sep_elim_left.trans hu) (hmain m ρ G hcall) (fq m) (hfin m) _ (fun _ h => h)

/-- The run, all in: the repacking call from its own proof, at the launch element of KBElem.lean, which deals each TensorCore
    what that proof consumes. -/
theorem run_frame_all [∀ e, Nonempty (Elt F e)] (hbody : TileBody (F := F) m) :
    θ_run (defs (F := F)) (threads (F := F)) ⟨m, fun _ => 0, ρ⟩
      (fun r => ∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) :=
  run_frame_of m ρ hbody (Cert.Kernel.MainRepack.G (F := F) (U := UU) ER)
    (fun κ d tT f1 Φ => Cert.Kernel.MainRepack.repack_callStmt EH (P m) ER κ d tT f1 Φ) (u₀ (F := F)) (hu₀ m)

end Cert.Kernel.Tile

end
-- ==== Proof.KBScratch.lean ====
/-
  A vector subcore's scoped storage, with the lookup kernel's own scratch named: of its scoped semaphores at zero, the
  three DMA semaphores the kernel names (its scratch operand's and its two scoped regions'); of its scoped buffers at
  some contents, the kernel's five scratch buffers. Every DMA semaphore of a vector subcore is scoped in this
  program's signature, the scratch operand's with the regions'.
-/
import proofs.«202062_g26379689132623_cont_9to1_709_23_alg».proof.Proof.KBSetup
import proofs.«202062_g26379689132623_cont_9to1_709_23_alg».proof.Proof.KBPay

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Scratch

variable (d : Dev nD) (c : Fin τ.nSC) (i : Fin τ.nSub)

/-- The kernel's three semaphores on vector subcore `(c, i)`. -/
abbrev c5cell : GSem nD τ sig := (V d c i, .dma cc1_scratch5.sem)
abbrev r0cell : GSem nD τ sig := (V d c i, .dma cc1_scoped0.sem)
abbrev r1cell : GSem nD τ sig := (V d c i, .dma cc1_scoped1.sem)

theorem scratch5_scoped : (SemLoc.dma cc1_scratch5.sem : SemLoc sig).isScoped .scVector = true := by decide
theorem scoped0_scoped : (SemLoc.dma cc1_scoped0.sem : SemLoc sig).isScoped .scVector = true := by decide
theorem scoped1_scoped : (SemLoc.dma cc1_scoped1.sem : SemLoc sig).isScoped .scVector = true := by decide

/-- The subcore's own scoped semaphores at zero are the kernel's three and the rest. -/
theorem ownSems0_V :
    (ownSems0 (V d c i) : sProp 𝕄)
      = iprop(semVal (c5cell d c i) 0 ∗ semVal (r0cell d c i) 0 ∗ semVal (r1cell d c i) 0
          ∗ bigSep ((((ownCells (V d c i)).erase (c5cell d c i)).erase (r0cell d c i)).erase (r1cell d c i)) fun g => semVal g 0) := by
  unfold SparseCore.Cfg.ownSems0
  rw [SparseCore.bigSep_erase' ((mem_ownCells (g := c5cell d c i)).mpr ⟨rfl, scratch5_scoped⟩),
    SparseCore.bigSep_erase' (Finset.mem_erase.mpr ⟨by simp [c5cell, r0cell]; decide, (mem_ownCells (g := r0cell d c i)).mpr ⟨rfl, scoped0_scoped⟩⟩),
    SparseCore.bigSep_erase' (Finset.mem_erase.mpr ⟨by simp [r0cell, r1cell]; decide, Finset.mem_erase.mpr ⟨by simp [c5cell, r1cell]; decide,
      (mem_ownCells (g := r1cell d c i)).mpr ⟨rfl, scoped1_scoped⟩⟩⟩)]

/-- So are its scoped semaphores at zero. -/
theorem scopedSems0_V :
    (scopedSems0 (V d c i) : sProp 𝕄)
      = iprop(semVal (c5cell d c i) 0 ∗ semVal (r0cell d c i) 0 ∗ semVal (r1cell d c i) 0
          ∗ bigSep ((((ownCells (V d c i)).erase (c5cell d c i)).erase (r0cell d c i)).erase (r1cell d c i)) fun g => semVal g 0) := by
  rw [SparseCore.Cfg.scopedSems0_V, ownSems0_V]

/-- The subcore's own buffers, each whole at some contents, are the kernel's five scratch buffers and the rest. -/
theorem ownBufs_V :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f) ∗ (∃ f, (V d c i).loc cc1_scratch3 ↦{fullShare} f)
          ∗ (∃ f, (V d c i).loc cc1_scratch4 ↦{fullShare} f)
          ∗ bigSep ((((((ownRefs (τ := τ) (.scVector c i)).erase ((Proc.scVector c i).devRef cc1_scratch0)).erase
              ((Proc.scVector c i).devRef cc1_scratch1)).erase ((Proc.scVector c i).devRef cc1_scratch2)).erase
              ((Proc.scVector c i).devRef cc1_scratch3)).erase ((Proc.scVector c i).devRef cc1_scratch4))
              fun b => iprop(∃ f, ((d, b) : Loc nD τ sig) ↦{fullShare} f)) := by
  unfold SparseCore.Cfg.ownBufs
  have h0 : (Proc.scVector c i).devRef cc1_scratch0 ∈ ownRefs (τ := τ) (sig := sig) (.scVector c i) :=
    SparseCore.Cfg.mem_ownRefs_of_owner (p := Proc.scVector c i) (b := (Proc.scVector c i).devRef cc1_scratch0) rfl
  have h1 : (Proc.scVector c i).devRef cc1_scratch1 ∈ ownRefs (τ := τ) (sig := sig) (.scVector c i) :=
    SparseCore.Cfg.mem_ownRefs_of_owner (p := Proc.scVector c i) (b := (Proc.scVector c i).devRef cc1_scratch1) rfl
  have h2 : (Proc.scVector c i).devRef cc1_scratch2 ∈ ownRefs (τ := τ) (sig := sig) (.scVector c i) :=
    SparseCore.Cfg.mem_ownRefs_of_owner (p := Proc.scVector c i) (b := (Proc.scVector c i).devRef cc1_scratch2) rfl
  have h3 : (Proc.scVector c i).devRef cc1_scratch3 ∈ ownRefs (τ := τ) (sig := sig) (.scVector c i) :=
    SparseCore.Cfg.mem_ownRefs_of_owner (p := Proc.scVector c i) (b := (Proc.scVector c i).devRef cc1_scratch3) rfl
  have h4 : (Proc.scVector c i).devRef cc1_scratch4 ∈ ownRefs (τ := τ) (sig := sig) (.scVector c i) :=
    SparseCore.Cfg.mem_ownRefs_of_owner (p := Proc.scVector c i) (b := (Proc.scVector c i).devRef cc1_scratch4) rfl
  have hne {a b : Ref sig .scVector} (h : a ≠ b) : (Proc.scVector c i).devRef (τ := τ) a ≠ (Proc.scVector c i).devRef b :=
    fun e => h (Proc.devRef_injective _ e)
  refine (SparseCore.bigSep_erase' h0).trans ?_
  rw [SparseCore.bigSep_erase' (Finset.mem_erase.mpr ⟨hne (show (cc1_scratch1 : Ref sig .scVector) ≠ cc1_scratch0 by decide), h1⟩),
    SparseCore.bigSep_erase' (Finset.mem_erase.mpr ⟨hne (show (cc1_scratch2 : Ref sig .scVector) ≠ cc1_scratch1 by decide),
      Finset.mem_erase.mpr ⟨hne (show (cc1_scratch2 : Ref sig .scVector) ≠ cc1_scratch0 by decide), h2⟩⟩),
    SparseCore.bigSep_erase' (Finset.mem_erase.mpr ⟨hne (show (cc1_scratch3 : Ref sig .scVector) ≠ cc1_scratch2 by decide),
      Finset.mem_erase.mpr ⟨hne (show (cc1_scratch3 : Ref sig .scVector) ≠ cc1_scratch1 by decide),
      Finset.mem_erase.mpr ⟨hne (show (cc1_scratch3 : Ref sig .scVector) ≠ cc1_scratch0 by decide), h3⟩⟩⟩),
    SparseCore.bigSep_erase' (Finset.mem_erase.mpr ⟨hne (show (cc1_scratch4 : Ref sig .scVector) ≠ cc1_scratch3 by decide),
      Finset.mem_erase.mpr ⟨hne (show (cc1_scratch4 : Ref sig .scVector) ≠ cc1_scratch2 by decide),
      Finset.mem_erase.mpr ⟨hne (show (cc1_scratch4 : Ref sig .scVector) ≠ cc1_scratch1 by decide),
      Finset.mem_erase.mpr ⟨hne (show (cc1_scratch4 : Ref sig .scVector) ≠ cc1_scratch0 by decide), h4⟩⟩⟩⟩)]

/-- So are its scoped buffers. -/
theorem scopedBufs_V :
    (scopedBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f) ∗ (∃ f, (V d c i).loc cc1_scratch3 ↦{fullShare} f)
          ∗ (∃ f, (V d c i).loc cc1_scratch4 ↦{fullShare} f)
          ∗ bigSep ((((((ownRefs (τ := τ) (.scVector c i)).erase ((Proc.scVector c i).devRef cc1_scratch0)).erase
              ((Proc.scVector c i).devRef cc1_scratch1)).erase ((Proc.scVector c i).devRef cc1_scratch2)).erase
              ((Proc.scVector c i).devRef cc1_scratch3)).erase ((Proc.scVector c i).devRef cc1_scratch4))
              fun b => iprop(∃ f, ((d, b) : Loc nD τ sig) ↦{fullShare} f)) := by
  rw [(K (F := F)).scopedBufs_V facts, ownBufs_V]

end Scratch

end Cert.Kernel.Tile

end
-- ==== Proof.KBWrap.lean ====
/-
  From the kernel's body over its operands as the subcore's memrefs address them to the body as the launch theorem's
  obligation states it. The obligation hands the task its operands as the TensorCore names the arrays and the subcore's
  scoped storage as one conjunction; the body's proof wants each buffer under the memref the program passes — the
  repacked table and the index list whole at the task's share, the task's own columns of the transposed result under
  the program's slice of it, the five scratch buffers whole, the three semaphores at zero — and gives them back so.
  The two spellings name the same locations and element sets (the columns: `set_oSlice`); the rest of the scoped storage
  is set aside and returned untouched.
-/
import proofs.«202062_g26379689132623_cont_9to1_709_23_alg».proof.Proof.KBSetup
import proofs.«202062_g26379689132623_cont_9to1_709_23_alg».proof.Proof.KBPay
import proofs.«202062_g26379689132623_cont_9to1_709_23_alg».proof.Proof.KBScratch
import proofs.«202062_g26379689132623_cont_9to1_709_23_alg».proof.Proof.KBObl

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "pW" => (Memref.whole Cert.Kernel.main_v1_scv : Memref Cert.Kernel.sig Kind.scVector Space.hbm Cert.Kernel.S507904x128 EltTy.f32)
local notation "iW" => (Memref.whole Cert.Kernel.main_arg0_scv : Memref Cert.Kernel.sig Kind.scVector Space.hbm Cert.Kernel.S16384 EltTy.i32)
local notation "oW" => (Memref.whole Cert.Kernel.main_v2_scv : Memref Cert.Kernel.sig Kind.scVector Space.hbm Cert.Kernel.S64x16384 EltTy.f32)
local notation "sI" => (Memref.whole Cert.Kernel.cc1_scratch0 : Memref Cert.Kernel.sig Kind.scVector Space.vmem Cert.Kernel.S512 EltTy.i32)
local notation "sP" => (Memref.whole Cert.Kernel.cc1_scratch1 : Memref Cert.Kernel.sig Kind.scVector Space.vmem Cert.Kernel.S512 EltTy.i32)
local notation "sH" => (Memref.whole Cert.Kernel.cc1_scratch2 : Memref Cert.Kernel.sig Kind.scVector Space.vmem Cert.Kernel.S512 EltTy.i32)
local notation "sG" => (Memref.whole Cert.Kernel.cc1_scratch3 : Memref Cert.Kernel.sig Kind.scVector Space.vmem Cert.Kernel.S512x128 EltTy.f32)
local notation "sB" => (Memref.whole Cert.Kernel.cc1_scratch4 : Memref Cert.Kernel.sig Kind.scVector Space.vmem Cert.Kernel.S64x512 EltTy.f32)

variable (m : (ℓ : Loc nD τ sig) → Buf (Elt F) ℓ)

/-! ## The operands as the subcore's memrefs address them -/

section Pts

variable (d : Dev nD) (L : grid1.Coords)

theorem pts_pW (q : PosShare TreeShare) (f : Buf (Elt F) (pLoc d)) :
    ((pW).view.loc (thrOf d L) ↦{q} f : sProp 𝕄) = pLoc d ↦{q} f := rfl
theorem pts_iW (q : PosShare TreeShare) (f : Buf (Elt F) (iLoc d)) :
    ((iW).view.loc (thrOf d L) ↦{q} f : sProp 𝕄) = iLoc d ↦{q} f := rfl
/-- The program's slice of the transposed result addresses the task's columns. -/
theorem pts_oSlice (f : Buf (Elt F) (oLoc d)) :
    ((oSlice L).view.loc (thrOf d L) ↦[(oSlice L).view.set]{fullShare} f : sProp 𝕄) = oLoc d ↦[cols (cL L) (sL L)]{fullShare} f := by
  rw [set_oSlice]
theorem pts_sI (f : Buf (Elt F) ((thrOf d L).loc cc1_scratch0)) :
    ((sI).view.loc (thrOf d L) ↦{fullShare} f : sProp 𝕄) = (thrOf d L).loc cc1_scratch0 ↦{fullShare} f := rfl
theorem pts_sP (f : Buf (Elt F) ((thrOf d L).loc cc1_scratch1)) :
    ((sP).view.loc (thrOf d L) ↦{fullShare} f : sProp 𝕄) = (thrOf d L).loc cc1_scratch1 ↦{fullShare} f := rfl
theorem pts_sH (f : Buf (Elt F) ((thrOf d L).loc cc1_scratch2)) :
    ((sH).view.loc (thrOf d L) ↦{fullShare} f : sProp 𝕄) = (thrOf d L).loc cc1_scratch2 ↦{fullShare} f := rfl
theorem pts_sG (f : Buf (Elt F) ((thrOf d L).loc cc1_scratch3)) :
    ((sG).view.loc (thrOf d L) ↦{fullShare} f : sProp 𝕄) = (thrOf d L).loc cc1_scratch3 ↦{fullShare} f := rfl
theorem pts_sB (f : Buf (Elt F) ((thrOf d L).loc cc1_scratch4)) :
    ((sB).view.loc (thrOf d L) ↦{fullShare} f : sProp 𝕄) = (thrOf d L).loc cc1_scratch4 ↦{fullShare} f := rfl

end Pts

variable [FloatOps F]

/-- The kernel's body over its operands as the program passes them: from the repacked table and the index list whole at
    a share `q`, the task's columns under the program's slice, the five scratch buffers, the three semaphores at zero and
    what the subcore owes, to the same with the columns and the scratch at some contents — the continuation's. -/
abbrev CoreStmt : Prop := ∀ (d : Dev nD) (L : grid1.Coords) (q : PosShare TreeShare) (O : CellTallies nD τ sig (HIx 1)) (W : Waits sig (HIx 1)), (∀ g, O g none = 0) →
    ∀ (pc : Buf (Elt F) ((pW).view.loc (thrOf d L))) (oc : Buf (Elt F) ((oW).view.loc (thrOf d L)))
      (f0 : Buf (Elt F) ((sI).view.loc (thrOf d L))) (f1 : Buf (Elt F) ((sP).view.loc (thrOf d L))) (f2 : Buf (Elt F) ((sH).view.loc (thrOf d L)))
      (f3 : Buf (Elt F) ((sG).view.loc (thrOf d L))) (f4 : Buf (Elt F) ((sB).view.loc (thrOf d L))) (Q : PUnit → sProp 𝕄),
    iprop(levAts (K (F := F)).L (K (F := F)).lev
        ∗ ((pW).view.loc (thrOf d L) ↦{q} pc) ∗ ((iW).view.loc (thrOf d L) ↦{q} m (iLoc d))
        ∗ ((oSlice L).view.loc (thrOf d L) ↦[(oSlice L).view.set]{fullShare} oc)
        ∗ ((sI).view.loc (thrOf d L) ↦{fullShare} f0) ∗ ((sP).view.loc (thrOf d L) ↦{fullShare} f1) ∗ ((sH).view.loc (thrOf d L) ↦{fullShare} f2)
        ∗ ((sG).view.loc (thrOf d L) ↦{fullShare} f3) ∗ ((sB).view.loc (thrOf d L) ↦{fullShare} f4)
        ∗ semVal (thrOf d L, SemLoc.dma cc1_scratch5.sem) 0 ∗ semVal (thrOf d L, SemLoc.dma cc1_scoped0.sem) 0 ∗ semVal (thrOf d L, SemLoc.dma cc1_scoped1.sem) 0
        ∗ owes (thrOf d L) O W
        ∗ (iprop(((pW).view.loc (thrOf d L) ↦{q} pc) ∗ ((iW).view.loc (thrOf d L) ↦{q} m (iLoc d))
              ∗ (∃ oc', (oSlice L).view.loc (thrOf d L) ↦[(oSlice L).view.set]{fullShare} oc')
              ∗ (∃ f, (sI).view.loc (thrOf d L) ↦{fullShare} f) ∗ (∃ f, (sP).view.loc (thrOf d L) ↦{fullShare} f) ∗ (∃ f, (sH).view.loc (thrOf d L) ↦{fullShare} f)
              ∗ (∃ f, (sG).view.loc (thrOf d L) ↦{fullShare} f) ∗ (∃ f, (sB).view.loc (thrOf d L) ↦{fullShare} f)
              ∗ semVal (thrOf d L, SemLoc.dma cc1_scratch5.sem) 0 ∗ semVal (thrOf d L, SemLoc.dma cc1_scoped0.sem) 0 ∗ semVal (thrOf d L, SemLoc.dma cc1_scoped1.sem) 0
              ∗ ∃ W', ⌜∀ p ∈ W', p ∈ W ∨ p.2 = none⌝ ∗ owes (thrOf d L) O W') -∗ Q ⟨⟩))
      ⊢ wp frame (wpE (defs₀ (F := F)) 𝒱₀ (thrOf d L) none) Set.univ
          (cc1_lookup L pW (Memref.isWhole_whole _) iW (Memref.isWhole_whole _) oW (Memref.isWhole_whole _) sI (Memref.isWhole_whole _) sP (Memref.isWhole_whole _) sH (Memref.isWhole_whole _) sG (Memref.isWhole_whole _) sB (Memref.isWhole_whole _) cc1_scratch5 cc1_scoped0 cc1_scoped1) Q

/-- The body as the launch theorem's obligation states it, from the body over the program's memrefs. -/
theorem tileBody_of_core (hcore : CoreStmt (F := F) m) : TileBody (F := F) m := by
  intro d L O W hO
  rw [scopedBufs_V (F := F) d _ _, scopedSems0_V (F := F) d _ _]
  unfold goRes tdRes
  iintro ⟨#Hlv, -, ⟨⟨%pc, Hp⟩, Hi, ⟨%oc, Ho⟩⟩, ⟨⟨%f0, H0⟩, ⟨%f1, H1⟩, ⟨%f2, H2⟩, ⟨%f3, H3⟩, ⟨%f4, H4⟩, Hbrest⟩, ⟨Hc5, Hr0, Hr1, Hsrest⟩, HO⟩
  ihave Hp' := (Entails.of_eq (pts_pW (F := F) d L _ pc).symm) $$ Hp
  ihave Hi' := (Entails.of_eq (pts_iW (F := F) d L _ (m (iLoc d))).symm) $$ Hi
  ihave Ho' := (Entails.of_eq (pts_oSlice (F := F) d L oc).symm) $$ Ho
  ihave H0' := (Entails.of_eq (pts_sI (F := F) d L f0).symm) $$ H0
  ihave H1' := (Entails.of_eq (pts_sP (F := F) d L f1).symm) $$ H1
  ihave H2' := (Entails.of_eq (pts_sH (F := F) d L f2).symm) $$ H2
  ihave H3' := (Entails.of_eq (pts_sG (F := F) d L f3).symm) $$ H3
  ihave H4' := (Entails.of_eq (pts_sB (F := F) d L f4).symm) $$ H4
  iapply (hcore d L (qTile (cL L) (sL L)) O W hO pc oc f0 f1 f2 f3 f4 _) $$ [Hp' Hi' Ho' H0' H1' H2' H3' H4' Hc5 Hr0 Hr1 HO Hbrest Hsrest]
  isplitr; · iexact Hlv
  isplitl [Hp']; · iexact Hp'
  isplitl [Hi']; · iexact Hi'
  isplitl [Ho']; · iexact Ho'
  isplitl [H0']; · iexact H0'
  isplitl [H1']; · iexact H1'
  isplitl [H2']; · iexact H2'
  isplitl [H3']; · iexact H3'
  isplitl [H4']; · iexact H4'
  isplitl [Hc5]; · iexact Hc5
  isplitl [Hr0]; · iexact Hr0
  isplitl [Hr1]; · iexact Hr1
  isplitl [HO]; · iexact HO
  iintro ⟨Hp, Hi, ⟨%oc', Ho⟩, ⟨%g0, H0⟩, ⟨%g1, H1⟩, ⟨%g2, H2⟩, ⟨%g3, H3⟩, ⟨%g4, H4⟩, Hc5, Hr0, Hr1, ⟨%W', %hW', HO⟩⟩
  -- the task's results
  isplitl [Hp Hi Ho]
  · isplitl [Hp]
    · iexists pc; iapply (Entails.of_eq (pts_pW (F := F) d L _ pc)); iexact Hp
    isplitl [Hi]
    · iapply (Entails.of_eq (pts_iW (F := F) d L _ (m (iLoc d)))); iexact Hi
    iexists oc'; iapply (Entails.of_eq (pts_oSlice (F := F) d L oc')); iexact Ho
  -- the scoped buffers
  isplitl [H0 H1 H2 H3 H4 Hbrest]
  · isplitl [H0]; · iexists g0; iapply (Entails.of_eq (pts_sI (F := F) d L g0)); iexact H0
    isplitl [H1]; · iexists g1; iapply (Entails.of_eq (pts_sP (F := F) d L g1)); iexact H1
    isplitl [H2]; · iexists g2; iapply (Entails.of_eq (pts_sH (F := F) d L g2)); iexact H2
    isplitl [H3]; · iexists g3; iapply (Entails.of_eq (pts_sG (F := F) d L g3)); iexact H3
    isplitl [H4]; · iexists g4; iapply (Entails.of_eq (pts_sB (F := F) d L g4)); iexact H4
    iexact Hbrest
  -- the scoped semaphores
  isplitl [Hc5 Hr0 Hr1 Hsrest]
  · isplitl [Hc5]; · iexact Hc5
    isplitl [Hr0]; · iexact Hr0
    isplitl [Hr1]; · iexact Hr1
    iexact Hsrest
  iexists W'; isplitr
  · ipureintro; exact hW'
  · iexact HO

end Cert.Kernel.Tile

end
-- ==== Proof.KBCanon.lean ====
/-
  A scratch buffer written by slice stores, read back under a predicate. If every store's payload satisfies a
  predicate `P` at each of its elements, then so does the buffer at every index some store covers — however many
  stores, in whatever order. Used twice for a subcore's index scratch: the 32 sixteen-lane stores of pair rows (each
  word below the repacked table's 507904 rows, so the indexed copy addresses rows that exist) and the 32 stores of
  halves (each word 0 or 64, so half + column stays below 128).
-/
import Idealize.ShloMosaic.Lib.Pipeline.Value
import Idealize.ShloMosaic.Lib.Pipeline.FrameBody
import proofs.«202062_g26379689132623_cont_9to1_709_23_alg».proof.Proof.KBSetup

noncomputable section

namespace Cert.Kernel.Tile

open Cert.Kernel Idealize.ShloMosaic Idealize.ShloMosaic.View

variable {Val : EltTy → Type} {S : Shape} {e : EltTy}

/-- The canonical function of a list of pieces satisfies `P` wherever some piece covers, if every payload does. -/
theorem canon_all [∀ e, Nonempty (Val e)] (P : Val e → Prop) :
    ∀ (L : List (Piece Val S e)) (_ : ∀ p ∈ L, ∀ x : p.1.shape.Idx, P (p.2 x)) (y : S.Idx)
      (_ : ∃ p ∈ L, y ∈ p.1.set), P (canon L y)
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, canon_cons_emb]
      exact hL p (by simp) x
    · rw [canon_cons_of_not_mem _ _ hm]
      refine canon_all P L (fun q hq => hL q (by simp [hq])) y ?_
      obtain ⟨q, hq, hyq⟩ := hy
      rcases List.mem_cons.mp hq with rfl | hq'
      · exact absurd hyq hm
      · exact ⟨q, hq', hyq⟩

/-- Read back through the view: the writes over any start contents, where the pieces cover every index. -/
theorem read_writes_all [∀ e, Nonempty (Val e)] {sig : RefSig} {κ : Kind} {sp : Space} (v : View sig κ sp S e)
    (f : v.ty.Contents Val) (L : List (Piece Val S e)) (hc : ∀ y, ∃ p ∈ L, y ∈ p.1.set) (P : Val e → Prop)
    (hL : ∀ p ∈ L, ∀ x : p.1.shape.Idx, P (p.2 x)) (y : S.Idx) : P (v.read Val (v.writes Val f L) y) := by
  rw [read_writes_eq_canon v f L hc]
  exact canon_all P L hL y (hc y)

variable {F : FTy → Type} [FloatOps F]

/-- The pair-row word of sixteen row numbers below 1000000 is below 507904, lane by lane. -/
theorem pair_lanes_lt (v : IVec S16 32) (hv : ∀ x, (v x).toNat < 1000000) :
    ∀ x, (ori (shli (shrui v (broadcast S16 15#32)) (broadcast S16 14#32)) (andi v (broadcast S16 16383#32)) x).toNat < 507904 := by
  intro x
  have h := Cert.PairSplit.pairWord_toNat ArithUnit.vector (v x) (by have := hv x; omega)
  show (Cert.PairSplit.pairWord ArithUnit.vector (v x)).toNat < 507904
  rw [h]
  exact Cert.PairSplit.pair_lt _ (hv x)

/-- The half word is 0 or 64: at most 64, lane by lane. -/
theorem half_lanes_le (v : IVec S16 32) :
    ∀ x, (shli (andi (shrui v (broadcast S16 14#32)) (broadcast S16 1#32)) (broadcast S16 6#32) x).toNat ≤ 64 := by
  intro x
  have h := Cert.PairSplit.halfWord_toNat ArithUnit.vector (v x)
  show (Cert.PairSplit.halfWord ArithUnit.vector (v x)).toNat ≤ 64
  rw [h]
  omega

end Cert.Kernel.Tile

end
-- ==== Proof.KBChk.lean ====
/-
  The side conditions of the subcore's indexed loads and stores. Every indexed load reads the staged rows at
  (row, half + j) and every indexed store writes the transposed block at (j, row), for sixteen lanes at a time:
  row = lane + 128·k + c with lane < 16, trip k < 4 and c a multiple of 16 up to 112, so row < 512; j is a literal
  below 64; half is 0 or 64, so half + j < 128.
-/
import proofs.«202062_g26379689132623_cont_9to1_709_23_alg».proof.Proof.KBSetup

noncomputable section

namespace Cert.Kernel.Tile

open Cert.Kernel Idealize.ShloMosaic

/-- Rows: sixteen consecutive rows starting at 128·k + c, inside the 512 staged rows. -/
theorem rrel_lt (v : IVec S16 32) (hv : ∀ x, (v x).toNat < 16) (k c : BitVec 32) (hk : k.toNat < 4) (hc : c.toNat ≤ 112) :
    ∀ x, (addi v (broadcast S16 (Scalar.addi (Scalar.muli k 128#32) c)) x).toNat < 512 := by
  intro x
  show (v x + (k * 128#32 + c)).toNat < 512
  have h128 : (128#32 : BitVec 32).toNat = 128 := by decide
  have := hv x
  rw [BitVec.toNat_add, BitVec.toNat_add, BitVec.toNat_mul, h128]
  omega

/-- An indexed store's indices (column literal, rows) lie inside the transposed block [64, 512]. -/
theorem chk_scatter (r : IVec S16 32) (j : BitVec 32) (hj : j.toNat < 64) (hr : ∀ x, (r x).toNat < 512) :
    ∀ a x, ((![broadcast S16 j, r] : Fin 2 → IVec S16 32) a x).toNat < S64x512.size a := by
  intro a x
  match a with
  | ⟨0, _⟩ => exact hj
  | ⟨1, _⟩ => exact hr x

/-- An indexed load's indices (rows, half + column literal) lie inside the staged rows [512, 128]. -/
theorem chk_gather (r h : IVec S16 32) (j : BitVec 32) (hj : j.toNat < 64) (hr : ∀ x, (r x).toNat < 512)
    (hh : ∀ x, (h x).toNat ≤ 64) :
    ∀ a x, ((![r, addi h (broadcast S16 j)] : Fin 2 → IVec S16 32) a x).toNat < S512x128.size a := by
  intro a x
  match a with
  | ⟨0, _⟩ => exact hr x
  | ⟨1, _⟩ =>
    show (h x + j).toNat < 128
    have := hh x
    rw [BitVec.toNat_add]
    omega

/-- A sixteen-lane load, at any offset, from a buffer whose every word is at most 64 reads lanes at most 64. -/
theorem readAt_le {κ : Kind} {sp : Space} {F : FTy → Type} (v : View sig κ sp S512 .i32) (off : Fin S512.rank → Nat)
    (inb : ∀ a, off a + S16.size a ≤ S512.size a) (hc : v.ty.Contents (Elt F)) (hh : ∀ y, (v.read (Elt F) hc y).toNat ≤ 64) :
    ∀ x : S16.Idx, (v.readAt (Elt F) (Rect.unit (s := S512) off S16.size inb).toLoadRect hc x).toNat ≤ 64 :=
  fun _ => hh _

/-- A 32-bit word that read signed lies in [0, 999999] is, read unsigned, below 1000000. -/
theorem toNat_lt_of_range (w : BitVec 32) (h0 : 0 ≤ w.toInt) (h1 : w.toInt ≤ 999999) : w.toNat < 1000000 := by
  have hw : w.toNat < 2 ^ 32 := w.isLt
  by_cases h : 2 * w.toNat < 2 ^ 32
  · rw [BitVec.toInt_eq_toNat_cond, if_pos h] at h1; omega
  · rw [BitVec.toInt_eq_toNat_cond, if_neg h] at h0; omega

/-- Lane `x` of the sixteen-lane iota holds `x`: below 16. -/
theorem iota_lt (h : S16.Iotas Kind.scVector 32 [0]) : ∀ x, ((iota Kind.scVector S16 32 [0] h) x).toNat < 16 := by
  intro x
  show (BitVec.ofNat 32 (0 * S16.size 0 + (x 0).val)).toNat < 16
  have hx : (x 0).val < 16 := (x 0).isLt
  rw [BitVec.toNat_ofNat]
  show (0 * 16 + (x 0).val) % 2 ^ 32 < 16
  omega

/-- The loop's four trips: its induction word at trip `k` is `k`, below 4. -/
theorem iv_lt (k : Fin k1_t1_loop.trips) : (Scf.iv (0#32 : BitVec 32) 1#32 k.val).toNat < 4 := by
  have hk : k.val < 4 := k.isLt
  show ((0#32 : BitVec 32) + BitVec.ofNat 32 k.val * 1#32).toNat < 4
  simp only [BitVec.toNat_add, BitVec.toNat_mul, BitVec.toNat_ofNat]
  omega

end Cert.Kernel.Tile

end
-- ==== Proof.KBTile.lean ====
/-
  One vector subcore's task, run once at a symbolic place. The subcore copies its 512 indices in and waits; splits each
  index, sixteen lanes at a time, into a pair row and a half (thirty-two groups of two stores); gathers the 512 pair
  rows of the repacked table by one indexed copy and waits; in four trips moves, for each of its rows and each column
  j < 64, the staged row's element at half + j into the transposed block at (j, row) — an indexed load and an indexed
  store of sixteen lanes, 512 pairs a trip, each of which is a load (and store) of the whole buffer around a pure
  gather (scatter) of lanes —; and copies the block out and waits. It needs of its memory only that every index is a
  row number of the table (0 ≤ idx ≤ 999999): then every pair row is a row of the repacked table (the indexed copy's
  side condition), every half is at most 64 and every row below 512 (the indexed loads' and stores'). The arrays and
  scratch buffers come back, the written columns and the scratch at some contents, every semaphore at zero.
-/
import proofs.«202062_g26379689132623_cont_9to1_709_23_alg».proof.Proof.KBWrap
import proofs.«202062_g26379689132623_cont_9to1_709_23_alg».proof.Proof.KBCanon
import proofs.«202062_g26379689132623_cont_9to1_709_23_alg».proof.Proof.KBChk
import Idealize.ShloMosaic.Lib.Ring

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "pW" => (Memref.whole Cert.Kernel.main_v1_scv : Memref Cert.Kernel.sig Kind.scVector Space.hbm Cert.Kernel.S507904x128 EltTy.f32)
local notation "iW" => (Memref.whole Cert.Kernel.main_arg0_scv : Memref Cert.Kernel.sig Kind.scVector Space.hbm Cert.Kernel.S16384 EltTy.i32)
local notation "oW" => (Memref.whole Cert.Kernel.main_v2_scv : Memref Cert.Kernel.sig Kind.scVector Space.hbm Cert.Kernel.S64x16384 EltTy.f32)
local notation "sI" => (Memref.whole Cert.Kernel.cc1_scratch0 : Memref Cert.Kernel.sig Kind.scVector Space.vmem Cert.Kernel.S512 EltTy.i32)
local notation "sP" => (Memref.whole Cert.Kernel.cc1_scratch1 : Memref Cert.Kernel.sig Kind.scVector Space.vmem Cert.Kernel.S512 EltTy.i32)
local notation "sH" => (Memref.whole Cert.Kernel.cc1_scratch2 : Memref Cert.Kernel.sig Kind.scVector Space.vmem Cert.Kernel.S512 EltTy.i32)
local notation "sG" => (Memref.whole Cert.Kernel.cc1_scratch3 : Memref Cert.Kernel.sig Kind.scVector Space.vmem Cert.Kernel.S512x128 EltTy.f32)
local notation "sB" => (Memref.whole Cert.Kernel.cc1_scratch4 : Memref Cert.Kernel.sig Kind.scVector Space.vmem Cert.Kernel.S64x512 EltTy.f32)

/-- The indexed load is a load of the whole buffer followed by the pure gather of its lanes. -/
@[sl_canon] theorem vli_eq {p : Proc τ} {s t : Shape} {e : EltTy} (base : Memref sig p.kind .vmem s e) (idxs : Fin s.rank → IVec t 32)
    (h : ∀ a x, (idxs a x).toNat < s.size a) (hl : base.view.Loads) :
    (SparseCore.vectorLoadIdx (nD := nD) (τ := τ) (F := F) (Λ := Λ₀) base idxs h hl)
      = Prog.op (.load base (.whole s) (View.loadsAt_whole hl)) fun f => .ret (Idealize.ShloMosaic.loadIdx f idxs h) := rfl

/-- The indexed store is a load of the whole buffer and a store of the whole buffer with the lanes scattered in. -/
@[sl_canon] theorem vsi_eq {p : Proc τ} {s : Shape} {e : EltTy} {dd : Fin 1 → Nat} (base : Memref sig p.kind .vmem s e) (idxs : Fin s.rank → IVec ⟨1, dd⟩ 32) (v : Vec F ⟨1, dd⟩ e)
    (mask : IVec ⟨1, dd⟩ 1) (add : Bool) (h : ∀ a x, (idxs a x).toNat < s.size a) (hs : (base.access (.whole s)).Stores Finset.univ) :
    (SparseCore.vectorStoreIdx (nD := nD) (τ := τ) (F := F) (Λ := Λ₀) base idxs v mask add h hs)
      = Prog.op (.load base (.whole s) (View.loadsAt_rect hs.loads)) fun f =>
        Prog.op (.store base (.whole s) (Idealize.ShloMosaic.storeIdx f idxs v mask add h) Finset.univ hs (.inl rfl)) fun _ => .ret ⟨⟩ := rfl

/-- What the loop keeps: the halves (every word at most 64) and the staged rows as they are, the transposed block at
    anything. -/
def loopInv (d : Dev nD) (L : grid1.Coords) (_ : Nat) (_ : PUnit) : sProp 𝕄 :=
  iprop(∃ (hc : Buf (Elt F) ((sH).view.loc (thrOf d L))) (gc : Buf (Elt F) ((sG).view.loc (thrOf d L))),
    ((sH).view.loc (thrOf d L) ↦{fullShare} hc) ∗ ((sG).view.loc (thrOf d L) ↦{fullShare} gc)
    ∗ (∃ f, (sB).view.loc (thrOf d L) ↦{fullShare} f) ∗ ⌜∀ y, ((sH).view.read (Elt F) hc y).toNat ≤ 64⌝)

set_option maxHeartbeats 8000000 in
theorem core (m : (ℓ : Loc nD τ sig) → Buf (Elt F) ℓ) (hpre : PreOK m)
    (d : Dev nD) (L : grid1.Coords) (q : PosShare TreeShare) (O : CellTallies nD τ sig (HIx 1)) (W : Waits sig (HIx 1))
    (hO : ∀ g, O g none = 0)
    (pc : Buf (Elt F) ((pW).view.loc (thrOf d L))) (oc : Buf (Elt F) ((oW).view.loc (thrOf d L)))
    (f0 : Buf (Elt F) ((sI).view.loc (thrOf d L))) (f1 : Buf (Elt F) ((sP).view.loc (thrOf d L))) (f2 : Buf (Elt F) ((sH).view.loc (thrOf d L)))
    (f3 : Buf (Elt F) ((sG).view.loc (thrOf d L))) (f4 : Buf (Elt F) ((sB).view.loc (thrOf d L))) (Q : PUnit → sProp 𝕄) :
    iprop(levAts (K (F := F)).L (K (F := F)).lev
        ∗ ((pW).view.loc (thrOf d L) ↦{q} pc) ∗ ((iW).view.loc (thrOf d L) ↦{q} m (iLoc d))
        ∗ ((oSlice L).view.loc (thrOf d L) ↦[(oSlice L).view.set]{fullShare} oc)
        ∗ ((sI).view.loc (thrOf d L) ↦{fullShare} f0) ∗ ((sP).view.loc (thrOf d L) ↦{fullShare} f1) ∗ ((sH).view.loc (thrOf d L) ↦{fullShare} f2)
        ∗ ((sG).view.loc (thrOf d L) ↦{fullShare} f3) ∗ ((sB).view.loc (thrOf d L) ↦{fullShare} f4)
        ∗ semVal (thrOf d L, SemLoc.dma cc1_scratch5.sem) 0 ∗ semVal (thrOf d L, SemLoc.dma cc1_scoped0.sem) 0 ∗ semVal (thrOf d L, SemLoc.dma cc1_scoped1.sem) 0
        ∗ owes (thrOf d L) O W
        ∗ (iprop(((pW).view.loc (thrOf d L) ↦{q} pc) ∗ ((iW).view.loc (thrOf d L) ↦{q} m (iLoc d))
              ∗ (∃ oc', (oSlice L).view.loc (thrOf d L) ↦[(oSlice L).view.set]{fullShare} oc')
              ∗ (∃ f, (sI).view.loc (thrOf d L) ↦{fullShare} f) ∗ (∃ f, (sP).view.loc (thrOf d L) ↦{fullShare} f) ∗ (∃ f, (sH).view.loc (thrOf d L) ↦{fullShare} f)
              ∗ (∃ f, (sG).view.loc (thrOf d L) ↦{fullShare} f) ∗ (∃ f, (sB).view.loc (thrOf d L) ↦{fullShare} f)
              ∗ semVal (thrOf d L, SemLoc.dma cc1_scratch5.sem) 0 ∗ semVal (thrOf d L, SemLoc.dma cc1_scoped0.sem) 0 ∗ semVal (thrOf d L, SemLoc.dma cc1_scoped1.sem) 0
              ∗ ∃ W', ⌜∀ p ∈ W', p ∈ W ∨ p.2 = none⌝ ∗ owes (thrOf d L) O W') -∗ Q ⟨⟩))
      ⊢ wp frame (wpE (defs₀ (F := F)) 𝒱₀ (thrOf d L) none) Set.univ
          (cc1_lookup L pW (Memref.isWhole_whole _) iW (Memref.isWhole_whole _) oW (Memref.isWhole_whole _)
            sI (Memref.isWhole_whole _) sP (Memref.isWhole_whole _) sH (Memref.isWhole_whole _) sG (Memref.isWhole_whole _) sB (Memref.isWhole_whole _)
            cc1_scratch5 cc1_scoped0 cc1_scoped1) Q := by
  rw [cc1_lookup_eq_skeleton]; unfold cc1_lookup_skel
  iintro ⟨#Hlv, Hp, Hi, Ho, H0, H1, H2, H3, H4, Hs5, Hsa, Hsb, HO, HQ⟩
  ihave Hmw := ((K (F := F)).mayWaits_none (thr := thrOf d L) hO) $$ Hlv
  -- the indices in, and the thirty-two groups of pair rows and halves
  set_option sl_exec.maxSteps 205 in sl_exec_parts
  generalize hio : iota Kind.scVector S16 32 [0] iota_S16_d0_w32_scVector = vio
  have hvio : ∀ x, (vio x).toNat < 16 := by rw [← hio]; exact iota_lt _
  -- every index word is a row number of the table; so is every lane the subcore loads from its copy of them
  have hic : ∀ y : S16384.Idx, (m (iLoc d) y).toNat < 1000000 := by
    intro y
    obtain ⟨b, rfl⟩ : ∃ b : Fin 16384, y = ix1 b := ⟨y 0, eq_ix1 y⟩
    exact toNat_lt_of_range _ (hpre d b).1 (hpre d b).2
  have hidx : ∀ (off : Fin S512.rank → ℕ) (inb : ∀ a, off a + S16.size a ≤ S512.size a) (x : S16.Idx),
      (View.readAt (Elt F) (sI).view (Rect.unit (s := S512) off S16.size inb).toLoadRect
        (View.write (Elt F) (sI).view f0 (core.sl.dma0 m d L) Finset.univ) x).toNat < 1000000 := by
    intro off inb x
    rw [View.readAt_apply]
    show ((View.whole cc1_scratch0).read (Elt F) ((View.whole cc1_scratch0).write (Elt F) f0 (core.sl.dma0 m d L) Finset.univ) _).toNat < 1000000
    rw [View.write_whole_univ, View.read_whole]
    sl_unfold_run_names
    first
      | exact hic _
      | (rw [View.read_apply]; exact hic _)
      | (show (View.read _ _ _ _).toNat < _; rw [View.read_apply]; exact hic _)
      | (show (View.read _ _ _ _).toNat < _; rw [View.read_apply, cast_eq]; exact hic _)
  -- the pair rows name rows of the repacked table
  have hin : ∀ x : S512.Idx, (View.read (Elt F) (sP).view ((sP).view.writes (Elt F) (sP).view.junk
      (⟨Rect.unit (s := S512) ![496] S16.size inb_S512_S16_496,
          k1_pay102 (View.readAt (Elt F) (sI).view (Rect.unit (s := S512) ![496] S16.size inb_S512_S16_496).toLoadRect
            (View.write (Elt F) (sI).view f0 (core.sl.dma0 m d L) Finset.univ))⟩ :: core.sl.H1_31 m d L f0)) x).toNat
        < S507904x128.size gathers_S507904x128_S512x128.axis := by
    intro x
    refine read_writes_all (Val := Elt F) (sP).view _ _ ?hc (fun w : Elt F .i32 => w.toNat < 507904) ?hL x
    case hc =>
      sl_unfold_run_names
      exact View.cover_of_tiledL _ S16.size (by sl_kernel_rfl)
    case hL =>
      sl_unfold_run_names
      simp only [List.forall_mem_cons]
      and_intros
      all_goals first
        | exact pair_lanes_lt _ (hidx _ _)
        | exact fun _ h => nomatch h
  -- the indexed copy and its wait
  sl_exec
  -- the four trips
  sl_for (loopInv (F := F) d L) $$ [H2 H3 H4]
  case region =>
    intro k _
    unfold loopInv
    iintro ⟨%hc, %gc, H2, H3, ⟨%fb, H4⟩, %hh⟩
    sl_exec_parts (disch := (sl_unfold_run_names; first
      | exact chk_scatter _ _ (by decide) (rrel_lt _ hvio _ _ (iv_lt _) (by decide))
      | exact chk_gather _ _ _ (by decide) (rrel_lt _ hvio _ _ (iv_lt _) (by decide)) (readAt_le _ _ _ _ hh)))
    sl_step
    iexists hc, gc
    isplitl [H2]; · iexact H2
    isplitl [H3]; · iexact H3
    isplitl [H4]; · iexists _; iexact H4
    ipureintro; exact hh
  · unfold loopInv
    iexists _, _
    isplitl [H2]; · iexact H2
    isplitl [H3]; · iexact H3
    isplitl [H4]; · iexists _; iexact H4
    ipureintro
    intro y
    refine read_writes_all (Val := Elt F) (sH).view _ _ ?hc (fun w : Elt F .i32 => w.toNat ≤ 64) ?hL y
    case hc =>
      sl_unfold_run_names
      exact View.cover_of_tiledL _ S16.size (by sl_kernel_rfl)
    case hL =>
      sl_unfold_run_names
      simp only [List.forall_mem_cons]
      and_intros
      all_goals first
        | exact half_lanes_le _
        | exact fun _ h => nomatch h
  -- the block out, and its wait
  iintro %_ HI
  unfold loopInv
  icases HI with ⟨%hc, %gc, H2, H3, ⟨%fb, H4⟩, -⟩
  sl_exec
  sl_step
  iapply HQ
  isplitl [Hp]; · iexact Hp
  isplitl [Hi]; · iexact Hi
  isplitl [Ho]; · iexists _; iexact Ho
  isplitl [H0]; · iexists _; iexact H0
  isplitl [H1]; · iexists _; iexact H1
  isplitl [H2]; · iexists _; iexact H2
  isplitl [H3]; · iexists _; iexact H3
  isplitl [H4]; · iexists _; iexact H4
  isplitl [Hs5]; · iexact Hs5
  isplitl [Hsa]; · iexact Hsa
  isplitl [Hsb]; · iexact Hsb
  iexists _
  isplitr
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    exact .inl hp

/-- The task in the form the launch's wrapper takes. -/
theorem core_stmt (m : (ℓ : Loc nD τ sig) → Buf (Elt F) ℓ) (hpre : PreOK m) : CoreStmt (F := F) m :=
  fun d L q O W hO pc oc f0 f1 f2 f3 f4 Q => core m hpre d L q O W hO pc oc f0 f1 f2 f3 f4 Q

/-- The body obligation of the launch theorem, for every vector subcore. -/
theorem tile_body (m : (ℓ : Loc nD τ sig) → Buf (Elt F) ℓ) (hpre : PreOK m) : TileBody (F := F) m :=
  tileBody_of_core m (core_stmt m hpre)

end Cert.Kernel.Tile

end
-- ==== Proof.KVPay.lean ====
/-
  What the launch's handshakes carry for the lookup's SparseCore call, with the contents: as the frame's payloads, and
  going out the repacked table is known to hold every row of the table in its pair row's half; coming back each vector
  subcore's columns of the transposed result hold, at column p, row idx p of the table.
-/
import proofs.«202062_g26379689132623_cont_9to1_709_23_alg».proof.Proof.KIPay

noncomputable section

namespace Cert.KernelIdeal.TileV

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ)

/-- The transposed result the program is to leave: column `p` holds row `idx p` of the table. -/
abbrev RT (d : Dev nD) : Buf (Elt F) (oLoc d) := rowsT (m (iLoc d)) (m (tLoc d))

/-- What a vector subcore's task is handed, -/
def goResV (d : Dev nD) (c : Fin 2) (i : Fin 16) : sProp 𝕄 :=
  iprop((∃ pc, ⌜PairedOK (m (tLoc d)) pc⌝ ∗ pLoc d ↦{qTile c i} pc) ∗ (iLoc d ↦{qTile c i} m (iLoc d)) ∗ ∃ f, oLoc d ↦[cols c i]{fullShare} f)
/-- and what it hands back: its columns at the lookup's. -/
def tdResV (d : Dev nD) (c : Fin 2) (i : Fin 16) : sProp 𝕄 :=
  iprop((∃ pc, pLoc d ↦{qTile c i} pc) ∗ (iLoc d ↦{qTile c i} m (iLoc d))
    ∗ ∃ f, ⌜∀ y ∈ cols c i, f y = rowsT (m (iLoc d)) (m (tLoc d)) y⌝ ∗ oLoc d ↦[cols c i]{fullShare} f)

/-- The same for a SparseCore, at its own share over its subcores' columns. -/
def stResV (d : Dev nD) (c : Fin 2) : sProp 𝕄 :=
  iprop((∃ pc, ⌜PairedOK (m (tLoc d)) pc⌝ ∗ pLoc d ↦{qCore c} pc) ∗ (iLoc d ↦{qCore c} m (iLoc d)) ∗ ∃ f, oLoc d ↦[colsCore c]{fullShare} f)
def dnResV (d : Dev nD) (c : Fin 2) : sProp 𝕄 :=
  iprop((∃ pc, pLoc d ↦{qCore c} pc) ∗ (iLoc d ↦{qCore c} m (iLoc d))
    ∗ ∃ f, ⌜∀ y ∈ colsCore c, f y = rowsT (m (iLoc d)) (m (tLoc d)) y⌝ ∗ oLoc d ↦[colsCore c]{fullShare} f)

instance goResV_storable (d : Dev nD) (c : Fin 2) (i : Fin 16) : BI.Storable (upEmb : UEmb _ 𝕄) (goResV m d c i) := by
  unfold goResV; infer_instance
instance tdResV_storable (d : Dev nD) (c : Fin 2) (i : Fin 16) : BI.Storable (upEmb : UEmb _ 𝕄) (tdResV m d c i) := by
  unfold tdResV; infer_instance
instance stResV_storable (d : Dev nD) (c : Fin 2) : BI.Storable (upEmb : UEmb _ 𝕄) (stResV m d c) := by
  unfold stResV; infer_instance
instance dnResV_storable (d : Dev nD) (c : Fin 2) : BI.Storable (upEmb : UEmb _ 𝕄) (dnResV m d c) := by
  unfold dnResV; infer_instance

/-- The one call's payloads, with the contents; the kernel's proof consumes nothing of the launch's. -/
def PV : (K (F := F)).Pay (nD := nD) (Val := Elt F) (Name := ℕ) (U := UU) where
  st := fun q d c => match q with | 0 => stResV m d (Fin.cast nCore_zero c)
  dn := fun q d c => match q with | 0 => dnResV m d (Fin.cast nCore_zero c)
  go := fun q d c i => match q with | 0 => goResV m d (Fin.cast nCore_zero c) (Fin.cast nSub_zero i)
  td := fun q d c i => match q with | 0 => tdResV m d (Fin.cast nCore_zero c) (Fin.cast nSub_zero i)
  x := fun _ _ => iprop(emp)

theorem PV_x (q : Fin 1) (thr : Thread nD τ) : (PV m).x q thr = iprop(emp) := rfl

instance PV_storable : (PV (F := F) m).IsStorable where
  st q d c := match q with | 0 => (inferInstance : BI.Storable (upEmb : UEmb _ 𝕄) (stResV m d (Fin.cast nCore_zero c)))
  dn q d c := match q with | 0 => (inferInstance : BI.Storable (upEmb : UEmb _ 𝕄) (dnResV m d (Fin.cast nCore_zero c)))
  go q d c i := match q with | 0 => (inferInstance : BI.Storable (upEmb : UEmb _ 𝕄) (goResV m d (Fin.cast nCore_zero c) (Fin.cast nSub_zero i)))
  td q d c i := match q with | 0 => (inferInstance : BI.Storable (upEmb : UEmb _ 𝕄) (tdResV m d (Fin.cast nCore_zero c) (Fin.cast nSub_zero i)))

/-! ## An array at known contents, under an existential -/

section Facts

variable {ℓ : Loc nD τ sig} {I : Finset (Idx ℓ)} {q : PosShare TreeShare}

/-- Elements held at some contents that agree with `R` there are held at `R`; -/
theorem factPts_elim (R : Buf (Elt F) ℓ) :
    (iprop(∃ f, ⌜∀ y ∈ I, f y = R y⌝ ∗ ℓ ↦[I]{q} f) : sProp 𝕄) ⊢ ℓ ↦[I]{q} R := by
  iintro ⟨%f, %hf, H⟩
  iapply (Entails.of_eq (pointsTo_congr (f := f) (g := R) hf)); iexact H
/-- and conversely. -/
theorem factPts_intro (R : Buf (Elt F) ℓ) :
    (ℓ ↦[I]{q} R : sProp 𝕄) ⊢ iprop(∃ f, ⌜∀ y ∈ I, f y = R y⌝ ∗ ℓ ↦[I]{q} f) := by
  iintro H; iexists R; isplitr
  · ipureintro; exact fun _ _ => rfl
  · iexact H

end Facts

end Cert.KernelIdeal.TileV

end
-- ==== Proof.KVSplit.lean ====
/-
  How a SparseCore's operands split among its sixteen vector subcores and its results gather from theirs, with the
  contents: what is known of the repacked table is a fact about its contents, so it goes with every subcore's share;
  each subcore's columns come back at the lookup's values there, and the SparseCore's columns, their disjoint union,
  are then at the lookup's values.
-/
import proofs.«202062_g26379689132623_cont_9to1_709_23_alg».proof.Proof.KVPay
import proofs.«202062_g26379689132623_cont_9to1_709_23_alg».proof.Proof.KISplit

noncomputable section

namespace Cert.KernelIdeal.TileV

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ)

theorem tok_exists_fact {ℓ : Loc nD τ sig} (q : PosShare TreeShare) (φ : Buf (Elt F) ℓ → Prop) (f : Buf (Elt F) ℓ) (hf : φ f) :
    (ℓ ↦{q} f : sProp 𝕄) ⊢ iprop(∃ g, ⌜φ g⌝ ∗ ℓ ↦{q} g) := by
  iintro H; iexists f; isplitr
  · ipureintro; exact hf
  · iexact H

/-- Shares of an array at one contents of which a fact holds are shares of it each at some contents of which it holds. -/
theorem toks_exists_fact {ℓ : Loc nD τ sig} {I : Type} (s : Finset I) (q : I → PosShare TreeShare) (φ : Buf (Elt F) ℓ → Prop)
    (f : Buf (Elt F) ℓ) (hf : φ f) :
    (bigSep s fun i => (ℓ ↦{q i} f : sProp 𝕄)) ⊢ bigSep s fun i => iprop(∃ g, ⌜φ g⌝ ∗ ℓ ↦{q i} g) :=
  bigSep_mono fun i _ => tok_exists_fact (q i) φ f hf

/-- The subcores' columns, each at the lookup's values, are the SparseCore's at the lookup's values. -/
theorem oColsV_join (d : Dev nD) (c : Fin 2) :
    (bigSep Finset.univ fun i : Fin 16 => iprop(∃ f, ⌜∀ y ∈ cols c i, f y = rowsT (m (iLoc d)) (m (tLoc d)) y⌝ ∗ oLoc d ↦[cols c i]{fullShare} f))
      ⊢ (iprop(∃ f, ⌜∀ y ∈ colsCore c, f y = rowsT (m (iLoc d)) (m (tLoc d)) y⌝ ∗ oLoc d ↦[colsCore c]{fullShare} f) : sProp 𝕄) := by
  refine (bigSep_mono fun i _ => factPts_elim (ℓ := oLoc d) (I := cols c i) (q := fullShare) (RT m d)).trans ?_
  rw [← oCols_split d c (RT m d)]
  exact factPts_intro (ℓ := oLoc d) (RT m d)

/-- SparseCore `c`'s operands to its sixteen subcores' and back, with the contents. -/
theorem split16V [∀ e, Nonempty (Elt F e)] (d : Dev nD) (c : Fin 2) :
    stResV m d c ⊢ |={Set.univ}=> iprop((bigSep Finset.univ fun i : Fin 16 => goResV m d c i)
      ∗ ((bigSep Finset.univ fun i : Fin 16 => tdResV m d c i) -∗ dnResV m d c)) := by
  unfold stResV dnResV goResV tdResV
  rw [bigSep_sep', bigSep_sep', bigSep_sep', bigSep_sep']
  iintro ⟨⟨%pc, %hpc, Hp⟩, Hi, ⟨%f, Ho⟩⟩
  imodintro
  ihave Hp' := (Transfers.pointsTo_toks_split (qCore c) 16) $$ Hp
  icases Hp' with ⟨Hpd, Hpt⟩
  ihave Hi' := (Transfers.pointsTo_toks_split (qCore c) 16) $$ Hi
  icases Hi' with ⟨Hid, Hit⟩
  ihave Ho' := (Entails.of_eq (oCols_split d c f)) $$ Ho
  isplitl [Hpt Hit Ho']
  · isplitl [Hpt]
    · iapply (toks_exists_fact (ℓ := pLoc d) Finset.univ (fun i : Fin 16 => qTile c i) (fun g => PairedOK (m (tLoc d)) g) pc hpc)
      iexact Hpt
    isplitl [Hit]; · iexact Hit
    iapply (toks_exists (ℓ := oLoc d) Finset.univ (fun _ : Fin 16 => fullShare) (fun i => cols c i) f)
    iexact Ho'
  iintro ⟨Htp, Hti, Hto⟩
  ihave Hp2 := (toks_agree (ℓ := pLoc d) pc Finset.univ (fun i : Fin 16 => qTile c i)) $$ [Hpd Htp]
  · isplitl [Hpd]; · iexact Hpd
    iexact Htp
  isplitl [Hp2]
  · iexists pc
    iapply (Transfers.pointsTo_toks_join (qCore c) 16); iexact Hp2
  isplitl [Hid Hti]
  · iapply (Transfers.pointsTo_toks_join (qCore c) 16)
    isplitl [Hid]; · iexact Hid
    iexact Hti
  iapply (oColsV_join m d c); iexact Hto

theorem vecSplitV [∀ e, Nonempty (Elt F e)] : (K (F := F)).VecSplit' (PV m) 0 := by
  intro d c
  show stResV m d (Fin.cast nCore_zero c) ⊢ |={Set.univ}=> iprop(
      (bigSep Finset.univ fun i : Fin ((K (F := F)).nSub 0) => goResV m d (Fin.cast nCore_zero c) (Fin.cast nSub_zero i))
      ∗ ((bigSep Finset.univ fun i : Fin ((K (F := F)).nSub 0) => tdResV m d (Fin.cast nCore_zero c) (Fin.cast nSub_zero i))
          -∗ dnResV m d (Fin.cast nCore_zero c)))
  rw [bigSep_tasks (F := F) (fun i => goResV m d (Fin.cast nCore_zero c) i), bigSep_tasks (F := F) (fun i => tdResV m d (Fin.cast nCore_zero c) i)]
  exact split16V m d (Fin.cast nCore_zero c)

end Cert.KernelIdeal.TileV

end
-- ==== Proof.KVObl.lean ====
/-
  The launch theorem's obligation for the lookup kernel as a vector subcore's task, with the contents: from the
  kernel's body at a symbolic grid point, handed the repacked table known to hold the table's rows and handing back its
  columns at the lookup's values.
-/
import proofs.«202062_g26379689132623_cont_9to1_709_23_alg».proof.Proof.KVPay
import proofs.«202062_g26379689132623_cont_9to1_709_23_alg».proof.Proof.KIObl

noncomputable section

namespace Cert.KernelIdeal.TileV

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ)

variable [FloatOps F]

/-- The kernel's body at a symbolic grid point, with the contents. -/
abbrev TileBodyV : Prop :=
  ∀ (d : Dev nD) (L : grid1.Coords) (O : CellTallies nD τ sig (HIx 1)) (W : Waits sig (HIx 1)), (∀ g, O g none = 0) →
    iprop(levAts (K (F := F)).L (K (F := F)).lev ∗ emp ∗ goResV m d (cL L) (sL L) ∗ scopedBufs (thrOf d L) ∗ scopedSems0 (thrOf d L) ∗ owes (thrOf d L) O W)
      ⊢ wp frame (wpE (defs₀ (F := F)) 𝒱₀ (thrOf d L) none) Set.univ
          (cc1_lookup L (Memref.whole main_v1_scv) (Memref.isWhole_whole _) (Memref.whole main_arg0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scoped0 cc1_scoped1)
          fun _ => iprop(tdResV m d (cL L) (sL L) ∗ scopedBufs (thrOf d L) ∗ scopedSems0 (thrOf d L) ∗ ∃ W', ⌜∀ p ∈ W', p ∈ W ∨ p.2 = none⌝ ∗ owes (thrOf d L) O W')

/-- `TileObl` at call 0 over the payloads with the contents. -/
theorem tileOblV (hbody : TileBodyV (F := F) m) : (K (F := F)).TileObl (D (F := F)) 𝒱 (PV m) v₀ 0 := by
  intro d c i O W hO _ _
  simp only [show (PV m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.KernelIdeal.TileV

end
-- ==== Proof.KVWrap.lean ====
/-
  From the kernel's body over its operands as the subcore's memrefs address them, with the contents, to the body as the
  launch theorem's obligation states it: as the frame's wrapper; the fact about the repacked table's contents is passed
  on as a hypothesis, and the fact about the task's columns comes back over the program's slice's element set, which is
  the task's columns.
-/
import proofs.«202062_g26379689132623_cont_9to1_709_23_alg».proof.Proof.KVPay
import proofs.«202062_g26379689132623_cont_9to1_709_23_alg».proof.Proof.KVObl
import proofs.«202062_g26379689132623_cont_9to1_709_23_alg».proof.Proof.KIWrap

noncomputable section

namespace Cert.KernelIdeal.TileV

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

local notation "pW" => (Memref.whole Cert.KernelIdeal.main_v1_scv : Memref Cert.KernelIdeal.sig Kind.scVector Space.hbm Cert.KernelIdeal.S507904x128 EltTy.f32)
local notation "iW" => (Memref.whole Cert.KernelIdeal.main_arg0_scv : Memref Cert.KernelIdeal.sig Kind.scVector Space.hbm Cert.KernelIdeal.S16384 EltTy.i32)
local notation "oW" => (Memref.whole Cert.KernelIdeal.main_v2_scv : Memref Cert.KernelIdeal.sig Kind.scVector Space.hbm Cert.KernelIdeal.S64x16384 EltTy.f32)
local notation "sI" => (Memref.whole Cert.KernelIdeal.cc1_scratch0 : Memref Cert.KernelIdeal.sig Kind.scVector Space.vmem Cert.KernelIdeal.S512 EltTy.i32)
local notation "sP" => (Memref.whole Cert.KernelIdeal.cc1_scratch1 : Memref Cert.KernelIdeal.sig Kind.scVector Space.vmem Cert.KernelIdeal.S512 EltTy.i32)
local notation "sH" => (Memref.whole Cert.KernelIdeal.cc1_scratch2 : Memref Cert.KernelIdeal.sig Kind.scVector Space.vmem Cert.KernelIdeal.S512 EltTy.i32)
local notation "sG" => (Memref.whole Cert.KernelIdeal.cc1_scratch3 : Memref Cert.KernelIdeal.sig Kind.scVector Space.vmem Cert.KernelIdeal.S512x128 EltTy.f32)
local notation "sB" => (Memref.whole Cert.KernelIdeal.cc1_scratch4 : Memref Cert.KernelIdeal.sig Kind.scVector Space.vmem Cert.KernelIdeal.S64x512 EltTy.f32)

variable (m : (ℓ : Loc nD τ sig) → Buf (Elt F) ℓ)

/-- The program's slice at the lookup's values is the task's columns at the lookup's values. -/
theorem pts_oSliceV (d : Dev nD) (L : grid1.Coords) (R : Buf (Elt F) (oLoc d)) :
    (iprop(∃ oc', ⌜∀ y ∈ (oSlice L).view.set, oc' y = R y⌝ ∗ (oSlice L).view.loc (thrOf d L) ↦[(oSlice L).view.set]{fullShare} oc') : sProp 𝕄)
      = iprop(∃ f, ⌜∀ y ∈ cols (cL L) (sL L), f y = R y⌝ ∗ oLoc d ↦[cols (cL L) (sL L)]{fullShare} f) := by
  rw [set_oSlice]
  rfl

variable [FloatOps F]

/-- The kernel's body over its operands as the program passes them, with the contents: the repacked table holds the table's
    rows in their pair rows' halves; the task's columns end at the lookup's values. -/
abbrev CoreStmtV : Prop := ∀ (d : Dev nD) (L : grid1.Coords) (q : PosShare TreeShare) (O : CellTallies nD τ sig (HIx 1)) (W : Waits sig (HIx 1)), (∀ g, O g none = 0) →
    ∀ (pc : Buf (Elt F) ((pW).view.loc (thrOf d L))) (oc : Buf (Elt F) ((oW).view.loc (thrOf d L)))
      (f0 : Buf (Elt F) ((sI).view.loc (thrOf d L))) (f1 : Buf (Elt F) ((sP).view.loc (thrOf d L))) (f2 : Buf (Elt F) ((sH).view.loc (thrOf d L)))
      (f3 : Buf (Elt F) ((sG).view.loc (thrOf d L))) (f4 : Buf (Elt F) ((sB).view.loc (thrOf d L))) (Q : PUnit → sProp 𝕄),
    PairedOK (m (tLoc d)) pc →
    iprop(levAts (K (F := F)).L (K (F := F)).lev
        ∗ ((pW).view.loc (thrOf d L) ↦{q} pc) ∗ ((iW).view.loc (thrOf d L) ↦{q} m (iLoc d))
        ∗ ((oSlice L).view.loc (thrOf d L) ↦[(oSlice L).view.set]{fullShare} oc)
        ∗ ((sI).view.loc (thrOf d L) ↦{fullShare} f0) ∗ ((sP).view.loc (thrOf d L) ↦{fullShare} f1) ∗ ((sH).view.loc (thrOf d L) ↦{fullShare} f2)
        ∗ ((sG).view.loc (thrOf d L) ↦{fullShare} f3) ∗ ((sB).view.loc (thrOf d L) ↦{fullShare} f4)
        ∗ semVal (thrOf d L, SemLoc.dma cc1_scratch5.sem) 0 ∗ semVal (thrOf d L, SemLoc.dma cc1_scoped0.sem) 0 ∗ semVal (thrOf d L, SemLoc.dma cc1_scoped1.sem) 0
        ∗ owes (thrOf d L) O W
        ∗ (iprop(((pW).view.loc (thrOf d L) ↦{q} pc) ∗ ((iW).view.loc (thrOf d L) ↦{q} m (iLoc d))
              ∗ (∃ oc', ⌜∀ y ∈ (oSlice L).view.set, oc' y = rowsT (m (iLoc d)) (m (tLoc d)) y⌝ ∗ (oSlice L).view.loc (thrOf d L) ↦[(oSlice L).view.set]{fullShare} oc')
              ∗ (∃ f, (sI).view.loc (thrOf d L) ↦{fullShare} f) ∗ (∃ f, (sP).view.loc (thrOf d L) ↦{fullShare} f) ∗ (∃ f, (sH).view.loc (thrOf d L) ↦{fullShare} f)
              ∗ (∃ f, (sG).view.loc (thrOf d L) ↦{fullShare} f) ∗ (∃ f, (sB).view.loc (thrOf d L) ↦{fullShare} f)
              ∗ semVal (thrOf d L, SemLoc.dma cc1_scratch5.sem) 0 ∗ semVal (thrOf d L, SemLoc.dma cc1_scoped0.sem) 0 ∗ semVal (thrOf d L, SemLoc.dma cc1_scoped1.sem) 0
              ∗ ∃ W', ⌜∀ p ∈ W', p ∈ W ∨ p.2 = none⌝ ∗ owes (thrOf d L) O W') -∗ Q ⟨⟩))
      ⊢ wp frame (wpE (defs₀ (F := F)) 𝒱₀ (thrOf d L) none) Set.univ
          (cc1_lookup L pW (Memref.isWhole_whole _) iW (Memref.isWhole_whole _) oW (Memref.isWhole_whole _) sI (Memref.isWhole_whole _) sP (Memref.isWhole_whole _) sH (Memref.isWhole_whole _) sG (Memref.isWhole_whole _) sB (Memref.isWhole_whole _) cc1_scratch5 cc1_scoped0 cc1_scoped1) Q

/-- The body as the launch theorem's obligation states it, with the contents, from the body over the program's memrefs. -/
theorem tileBodyV_of_core (hcore : CoreStmtV (F := F) m) : TileBodyV (F := F) m := by
  intro d L O W hO
  rw [scopedBufs_V (F := F) d _ _, scopedSems0_V (F := F) d _ _]
  unfold goResV tdResV
  iintro ⟨#Hlv, -, ⟨⟨%pc, %hpc, Hp⟩, Hi, ⟨%oc, Ho⟩⟩, ⟨⟨%f0, H0⟩, ⟨%f1, H1⟩, ⟨%f2, H2⟩, ⟨%f3, H3⟩, ⟨%f4, H4⟩, Hbrest⟩, ⟨Hc5, Hr0, Hr1, Hsrest⟩, HO⟩
  ihave Hp' := (Entails.of_eq (pts_pW (F := F) d L _ pc).symm) $$ Hp
  ihave Hi' := (Entails.of_eq (pts_iW (F := F) d L _ (m (iLoc d))).symm) $$ Hi
  ihave Ho' := (Entails.of_eq (pts_oSlice (F := F) d L oc).symm) $$ Ho
  ihave H0' := (Entails.of_eq (pts_sI (F := F) d L f0).symm) $$ H0
  ihave H1' := (Entails.of_eq (pts_sP (F := F) d L f1).symm) $$ H1
  ihave H2' := (Entails.of_eq (pts_sH (F := F) d L f2).symm) $$ H2
  ihave H3' := (Entails.of_eq (pts_sG (F := F) d L f3).symm) $$ H3
  ihave H4' := (Entails.of_eq (pts_sB (F := F) d L f4).symm) $$ H4
  iapply (hcore d L (qTile (cL L) (sL L)) O W hO pc oc f0 f1 f2 f3 f4 _ hpc) $$ [Hp' Hi' Ho' H0' H1' H2' H3' H4' Hc5 Hr0 Hr1 HO Hbrest Hsrest]
  isplitr; · iexact Hlv
  isplitl [Hp']; · iexact Hp'
  isplitl [Hi']; · iexact Hi'
  isplitl [Ho']; · iexact Ho'
  isplitl [H0']; · iexact H0'
  isplitl [H1']; · iexact H1'
  isplitl [H2']; · iexact H2'
  isplitl [H3']; · iexact H3'
  isplitl [H4']; · iexact H4'
  isplitl [Hc5]; · iexact Hc5
  isplitl [Hr0]; · iexact Hr0
  isplitl [Hr1]; · iexact Hr1
  isplitl [HO]; · iexact HO
  iintro ⟨Hp, Hi, Ho, ⟨%g0, H0⟩, ⟨%g1, H1⟩, ⟨%g2, H2⟩, ⟨%g3, H3⟩, ⟨%g4, H4⟩, Hc5, Hr0, Hr1, ⟨%W', %hW', HO⟩⟩
  -- the task's results
  isplitl [Hp Hi Ho]
  · isplitl [Hp]
    · iexists pc; iapply (Entails.of_eq (pts_pW (F := F) d L _ pc)); iexact Hp
    isplitl [Hi]
    · iapply (Entails.of_eq (pts_iW (F := F) d L _ (m (iLoc d)))); iexact Hi
    iapply (Entails.of_eq (pts_oSliceV (F := F) d L (rowsT (m (iLoc d)) (m (tLoc d))))); iexact Ho
  -- the scoped buffers
  isplitl [H0 H1 H2 H3 H4 Hbrest]
  · isplitl [H0]; · iexists g0; iapply (Entails.of_eq (pts_sI (F := F) d L g0)); iexact H0
    isplitl [H1]; · iexists g1; iapply (Entails.of_eq (pts_sP (F := F) d L g1)); iexact H1
    isplitl [H2]; · iexists g2; iapply (Entails.of_eq (pts_sH (F := F) d L g2)); iexact H2
    isplitl [H3]; · iexists g3; iapply (Entails.of_eq (pts_sG (F := F) d L g3)); iexact H3
    isplitl [H4]; · iexists g4; iapply (Entails.of_eq (pts_sB (F := F) d L g4)); iexact H4
    iexact Hbrest
  -- the scoped semaphores
  isplitl [Hc5 Hr0 Hr1 Hsrest]
  · isplitl [Hc5]; · iexact Hc5
    isplitl [Hr0]; · iexact Hr0
    isplitl [Hr1]; · iexact Hr1
    iexact Hsrest
  iexists W'; isplitr
  · ipureintro; exact hW'
  · iexact HO

end Cert.KernelIdeal.TileV

end
-- ==== Proof.KIMainRepackValue.lean ====
/-
  What the repack call leaves in the repacked table. Slab w of the transposed table (columns w·32768 ‥) is stored with
  its first 16384 columns as columns 0‥63 of pair rows w·16384 ‥ and its last 16384 columns as columns 64‥127: row n of
  the table, column j, ends at pair row (n / 32768)·16384 + n % 16384, column (n / 16384 % 2)·64 + j. The last slab
  overhangs the table; what is stored from past its end is not stated.
-/
import proofs.«202062_g26379689132623_cont_9to1_709_23_alg».proof.Proof.KIMainRepack
import Idealize.ShloMosaic.Lib.Pipeline.Value

noncomputable section

namespace Cert.KernelIdeal.MainRepack

open Cert.KernelIdeal Cert.KernelIdeal.Gen Cert.KernelIdeal.Tile

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (RDat Cfg Window cellOf kernel pipe)

variable {F : FTy → Type} [FloatOps F]
variable {U : Type} [URA U]

local notation "𝕄" => MT nD τ sig (HIx 1) (Elt F) ℕ U ℕ

/-! ## Index bounds -/

theorem col_lt (h : Fin 2) (j : Fin 64) : h.val * 64 + j.val < 128 := by omega
theorem src_lt (h : Fin 2) (r : Fin 16384) : h.val * 16384 + r.val < 32768 := by omega
theorem row_lt (t : Fin 31) (r : Fin 16384) : t.val * 16384 + r.val < 507904 := by omega

/-! ## What the body computes -/

/-- The repacked slab read at pair row `r`, half `h`, column `j`: the slab's row `j` at column `h · 16384 + r`. -/
theorem k0_pay1_apply (X : S64x32768.Idx → Elt F .f32) (r : Fin 16384) (h : Fin 2) (j : Fin 64) :
    k0_pay1 X (ix2 r (⟨h.val * 64 + j.val, col_lt h j⟩ : Fin 128))
      = X (ix2 j (⟨h.val * 16384 + r.val, src_lt h r⟩ : Fin 32768)) := by
  unfold k0_pay1
  -- the transpose reads the concatenation at (column, pair row)
  rw [transpose_apply [1, 0] _ transposes_S128x16384_p1_0_S16384x128 (ix2 r (⟨h.val * 64 + j.val, col_lt h j⟩ : Fin 128))
    (ix2 (⟨h.val * 64 + j.val, col_lt h j⟩ : Fin 128) r) (fun b => by fin_cases b <;> rfl)]
  rw [shapeCast_self]
  match h with
  | ⟨0, _⟩ =>
    -- the first half: the slab's first 16384 columns
    refine Eq.trans (concatenate_apply_piece (t := S128x16384) (0 : Fin 2)
      [⟨S64x16384, extractStridedSlice S64x16384 ![0, 0] X slices_S64x32768_o0_0_S64x16384⟩, ⟨S64x16384, extractStridedSlice S64x16384 ![0, 16384] X slices_S64x32768_o0_16384_S64x16384⟩]
      concatenates_S64x16384_S64x16384_S128x16384_d0 _ 0 ?_ S64x16384 _ rfl rfl 0 rfl
      (ix2 j r) (fun b hb => ?_) ?_) ?_
    · exact Nat.zero_lt_succ _
    · match b with
      | ⟨0, _⟩ => exact absurd rfl hb
      | ⟨1, _⟩ => rfl
    · show 0 + j.val = 0 * 64 + j.val; omega
    · exact extractStridedSlice_apply _ _ slices_S64x32768_o0_0_S64x16384 (ix2 j r) (ix2 j (⟨0 * 16384 + r.val, src_lt 0 r⟩ : Fin 32768))
        (fun a => by match a with
                     | ⟨0, _⟩ => show j.val = 0 + j.val; omega
                     | ⟨1, _⟩ => show 0 * 16384 + r.val = 0 + r.val; omega)
  | ⟨1, _⟩ =>
    -- the second half: its last 16384 columns
    refine Eq.trans (concatenate_apply_piece (t := S128x16384) (0 : Fin 2)
      [⟨S64x16384, extractStridedSlice S64x16384 ![0, 0] X slices_S64x32768_o0_0_S64x16384⟩, ⟨S64x16384, extractStridedSlice S64x16384 ![0, 16384] X slices_S64x32768_o0_16384_S64x16384⟩]
      concatenates_S64x16384_S64x16384_S128x16384_d0 _ 1 ?_ S64x16384 _ rfl rfl 64 rfl
      (ix2 j r) (fun b hb => ?_) ?_) ?_
    · exact Nat.succ_lt_succ (Nat.zero_lt_succ _)
    · match b with
      | ⟨0, _⟩ => exact absurd rfl hb
      | ⟨1, _⟩ => rfl
    · show 64 + j.val = 1 * 64 + j.val; omega
    · exact extractStridedSlice_apply _ _ slices_S64x32768_o0_16384_S64x16384 (ix2 j r) (ix2 j (⟨1 * 16384 + r.val, src_lt 1 r⟩ : Fin 32768))
        (fun a => by match a with
                     | ⟨0, _⟩ => show j.val = 0 + j.val; omega
                     | ⟨1, _⟩ => show 1 * 16384 + r.val = 16384 + r.val; omega)

/-! ## The windows' index maps and cuts, decided over the grid -/

/-- The table's window at point `t` is column block `t`; -/
theorem index0 : ∀ t : Fin cfg0.N, (cfg0.win 0).index t 0 = 0 ∧ (cfg0.win 0).index t 1 = t.val :=
  (by decide +kernel : ∀ t : Fin grid0.N, win0_0.index t 0 = 0 ∧ win0_0.index t 1 = t.val)
/-- its transfer moves all 64 rows and the columns inside the table; -/
theorem xsize0 : ∀ t : Fin cfg0.N, (cfg0.win 0).xsize (cfg0.grid.coords t) 0 = 64
    ∧ (cfg0.win 0).xsize (cfg0.grid.coords t) 1 = min 32768 (1000000 - t.val * 32768) :=
  (by decide +kernel : ∀ t : Fin grid0.N, win0_0.xsize (grid0.coords t) 0 = 64
    ∧ win0_0.xsize (grid0.coords t) 1 = min 32768 (1000000 - t.val * 32768))
/-- the result's window at point `t` is row block `t`. -/
theorem index1 : ∀ t : Fin cfg0.N, (cfg0.win 1).index t 0 = t.val ∧ (cfg0.win 1).index t 1 = 0 :=
  (by decide +kernel : ∀ t : Fin grid0.N, win0_1.index t 0 = t.val ∧ win0_1.index t 1 = 0)

/-! ## The fetched slab, the stored slab, the repacked table -/

variable (d : Dev nD) (tT : Buf (Elt F) ((SparseCore.T (τ := τ) d).loc main_v0)) (f1 : Buf (Elt F) ((SparseCore.T (τ := τ) d).loc main_v1))
  (O : CellTallies nD τ sig (HIx 1)) (B : Set (SemLoc sig × HIx 1)) (R : Fin cfg0.N → (S16384x128.Idx → Elt F .f32) → Prop)

/-- What the table's staging buffer holds after the fetch at point `t`, at row `j` and a column `c` whose source column
    `t · 32768 + c` is inside the table: the transposed table there. -/
theorem fetched_apply (t : Fin cfg0.N) (dd : S64x32768.Idx → Elt F .f32) (j : Fin 64) (c : Fin 32768)
    (hc : t.val * 32768 + c.val < 1000000) :
    (rdat (U := U) d tT f1 O B R).fetched (0 : Fin 2) t dd (ix2 j c) = tT (ix2 j (⟨t.val * 32768 + c.val, hc⟩ : Fin 1000000)) := by
  obtain ⟨hx0, hx1⟩ := xsize0 t
  obtain ⟨hi0, hi1⟩ := index0 t
  have hcl := c.isLt
  have hm : (cfg0.win 0).moved (cfg0.grid.coords t) (ix2 j c) = true :=
    ((cfg0.win 0).moved_iff _ _).mpr fun a => by
      match a with
      | ⟨0, _⟩ => show j.val < (cfg0.win 0).xsize (cfg0.grid.coords t) 0; rw [hx0]; exact j.isLt
      | ⟨1, _⟩ =>
        show c.val < (cfg0.win 0).xsize (cfg0.grid.coords t) 1; rw [hx1]
        exact lt_min hcl (by clear hx0 hx1 hi0 hi1; omega)
  unfold RDat.fetched Window.fill
  rw [dif_pos hm]
  unfold RDat.blockOf
  show tT _ = tT _
  congr 1
  funext a
  apply Fin.ext
  match a with
  | ⟨0, _⟩ => show (cfg0.win 0).index t 0 * 64 + 1 * j.val = j.val; rw [hi0]; omega
  | ⟨1, _⟩ => show (cfg0.win 0).index t 1 * 32768 + 1 * c.val = t.val * 32768 + c.val; rw [hi1]; omega

/-- What is asked of the result's staging buffer after the body at point `t`: pair row `r`'s half `h` holds column
    `t · 32768 + h · 16384 + r` of the transposed table, where that column is inside the table. -/
def SlabOK (tT : S64x1000000.Idx → Elt F .f32) (t : Fin cfg0.N) (X : S16384x128.Idx → Elt F .f32) : Prop :=
  ∀ (r : Fin 16384) (h : Fin 2) (j : Fin 64) (hn : t.val * 32768 + h.val * 16384 + r.val < 1000000),
    X (ix2 r (⟨h.val * 64 + j.val, col_lt h j⟩ : Fin 128)) = tT (ix2 j (⟨t.val * 32768 + h.val * 16384 + r.val, hn⟩ : Fin 1000000))

/-- The body's store meets it, whatever the fetch left past the table's end. -/
theorem slabOK_fetched (t : Fin cfg0.N) (dd : S64x32768.Idx → Elt F .f32) :
    SlabOK tT t (k0_pay1 ((rdat (U := U) d tT f1 O B R).fetched (0 : Fin 2) t dd)) := by
  intro r h j hn
  rw [k0_pay1_apply]
  have hc : t.val * 32768 + (h.val * 16384 + r.val) < 1000000 := by rw [← Nat.add_assoc]; exact hn
  rw [fetched_apply (U := U) d tT f1 O B R t dd j (⟨h.val * 16384 + r.val, src_lt h r⟩ : Fin 32768) hc]
  exact congrArg tT (congrArg (ix2 j) (Fin.ext (Nat.add_assoc _ _ _).symm))

/-- After the write-backs of the points below `n`, the repacked table holds, in every pair row of a slab below `n`, the
    transposed table's column where it is inside the table. -/
theorem arrAt_rows (n : Nat) (hn : n ≤ cfg0.N) :
    ∀ pc, (rdat (U := U) d tT f1 O B (SlabOK tT)).ArrAt (1 : Fin 2) n pc →
      ∀ (t : Fin 31) (_ : t.val < n) (r : Fin 16384) (h : Fin 2) (j : Fin 64) (hlt : t.val * 32768 + h.val * 16384 + r.val < 1000000),
        pc (ix2 (⟨t.val * 16384 + r.val, row_lt t r⟩ : Fin 507904) (⟨h.val * 64 + j.val, col_lt h j⟩ : Fin 128))
          = tT (ix2 j (⟨t.val * 32768 + h.val * 16384 + r.val, hlt⟩ : Fin 1000000)) := by
  induction n with
  | zero => intro pc _ t ht; exact absurd ht (Nat.not_lt_zero _)
  | succ n ih =>
    intro pc hpc t ht r h j hlt
    have hnN : n < cfg0.N := hn
    rw [(rdat (U := U) d tT f1 O B (SlabOK tT)).ArrAt_succ (1 : Fin 2) ⟨n, hnN⟩, if_pos (flush0_1 ⟨n, hnN⟩)] at hpc
    obtain ⟨G₀, X, hG₀, ⟨Y, -, hXR⟩, rfl⟩ := hpc
    have hX : SlabOK tT ⟨n, hnN⟩ X := hXR
    obtain ⟨hi0, hi1⟩ := index1 ⟨n, hnN⟩
    have hrl := r.isLt
    by_cases htn : n = t.val
    · -- a pair row of slab `n`: what the write-back at point `n` wrote
      subst htn
      have hi : (ix2 (⟨t.val * 16384 + r.val, row_lt t r⟩ : Fin 507904) (⟨h.val * 64 + j.val, col_lt h j⟩ : Fin 128) : S507904x128.Idx)
          = ((cfg0.win 1).blk ⟨t.val, hnN⟩).view.emb (ix2 r (⟨h.val * 64 + j.val, col_lt h j⟩ : Fin 128)) := by
        funext a; apply Fin.ext
        match a with
        | ⟨0, _⟩ => show t.val * 16384 + r.val = (cfg0.win 1).index ⟨t.val, hnN⟩ 0 * 16384 + 1 * r.val; rw [hi0]; show _ = t.val * 16384 + _; omega
        | ⟨1, _⟩ => show h.val * 64 + j.val = (cfg0.win 1).index ⟨t.val, hnN⟩ 1 * 128 + 1 * (h.val * 64 + j.val); rw [hi1]; omega
      rw [hi, View.write_emb_of_mem _ _ (Finset.mem_univ _)]
      show X _ = _
      rw [show ((cfg0.win 1).xinj (cfg0.grid.coords ⟨t.val, hnN⟩) (ix2 r (⟨h.val * 64 + j.val, col_lt h j⟩ : Fin 128))) = ix2 r (⟨h.val * 64 + j.val, col_lt h j⟩ : Fin 128) from
        funext fun a => by match a with | ⟨0, _⟩ => rfl | ⟨1, _⟩ => rfl]
      exact hX r h j hlt
    · -- a pair row of an earlier slab: untouched by the write-back at point `n`
      have ht' : t.val < n := by omega
      rw [View.write_of_not_mem]
      · exact ih (Nat.le_of_lt hnN) G₀ hG₀ t ht' r h j hlt
      · rw [View.setOn_univ]
        show _ ∉ ((View.whole main_v1).slice ((cfg0.win 1).rect ⟨n, hnN⟩)).set
        rw [View.set_slice_whole, Rect.mem_set_unit]
        intro hmem
        have h0 := (hmem 0).1
        change (cfg0.win 1).index ⟨n, hnN⟩ 0 * 16384 ≤ t.val * 16384 + r.val at h0
        rw [hi0] at h0
        change n * 16384 ≤ _ at h0
        clear hi0 hi1 hX hXR hG₀ hmem ih
        omega

/-- What is known of the repacked table's contents `pc`, over the transposed table: column `n` of it, row `j`, sits at pair
    row `pairRow n`, column `halfOff n + j`. -/
def PairedT (tT : S64x1000000.Idx → Elt F .f32) (pc : S507904x128.Idx → Elt F .f32) : Prop :=
  ∀ (n : Fin 1000000) (j : Fin 64),
    pc (ix2 (⟨pairRow n.val, Cert.PairSplit.pair_lt n.val n.isLt⟩ : Fin 507904)
        (⟨halfOff n.val + j.val, Cert.PairSplit.half_col_lt n.val j.val j.isLt⟩ : Fin 128)) = tT (ix2 j n)

/-- After all 31 write-backs it holds. -/
theorem pairedT_of_arrAt (pc : S507904x128.Idx → Elt F .f32)
    (h : (rdat (U := U) d tT f1 O B (SlabOK tT)).ArrAt (1 : Fin 2) cfg0.N pc) : PairedT tT pc := by
  intro n j
  have hn := n.isLt
  have e : n.val / 32768 * 32768 + n.val / 16384 % 2 * 16384 + n.val % 16384 = n.val := by omega
  have key := arrAt_rows (U := U) d tT f1 O B cfg0.N le_rfl pc h (⟨n.val / 32768, by omega⟩ : Fin 31)
    (by show n.val / 32768 < grid0.N; rw [N_0]; omega) (⟨n.val % 16384, by omega⟩ : Fin 16384) (⟨n.val / 16384 % 2, by omega⟩ : Fin 2) j
    (by show n.val / 32768 * 32768 + n.val / 16384 % 2 * 16384 + n.val % 16384 < 1000000; omega)
  refine Eq.trans ?_ (key.trans (congrArg tT (congrArg (ix2 j) (Fin.ext e))))
  rfl

/-- The same over the table itself, its transpose the array the call reads: `PairedOK`. -/
theorem pairedOK_of_pairedT (table : S1000000x64.Idx → Elt F .f32) (pc : S507904x128.Idx → Elt F .f32)
    (h : PairedT (transpose S64x1000000 [1, 0] table transposes_S1000000x64_S64x1000000_1_0) pc) : PairedOK table pc := by
  intro n j
  rw [h n j]
  exact transpose_apply [1, 0] table transposes_S1000000x64_S64x1000000_1_0 (ix2 j n) (ix2 n j)
    (fun b => by match b with | ⟨0, _⟩ => rfl | ⟨1, _⟩ => rfl)

/-! ## The call, with the value -/

variable (tTs : (c : Dev nD) → Buf (Elt F) ((SparseCore.T (τ := τ) c).loc main_v0))
  (f1s : (c : Dev nD) → Buf (Elt F) ((SparseCore.T (τ := τ) c).loc main_v1))
  (Os : Dev nD → CellTallies nD τ sig (HIx 1))

/-- **The repack call, with what the repacked table ends holding.** As `repack_call`, the relation chosen. -/
theorem repack_call_paired [∀ e, Nonempty (Elt F e)] (ER : Emb (URounds (GSem nD τ sig) Unit) 𝕄) [ER.LandsIn (upEmb : UEmb _ 𝕄)]
    (d : Dev nD) (hO : ∀ g, Os d g none = 0) :
    iprop(levAts (K (F := F)).L (K (F := F)).lev
        ∗ Pipeline.cellsGhost cfgs ER (0 : Fin 1) d ∗ Pipeline.toksInit cfgs ER (0 : Fin 1) d
        ∗ (∃ W, ⌜↑W ⊆ B⌝ ∗ owes (SparseCore.T d) (Os d) W)
        ∗ scopedBufs (SparseCore.T d) ∗ scopedSems0 (SparseCore.T d)
        ∗ ((SparseCore.T d).loc main_v0 ↦{fullShare} tTs d) ∗ ((SparseCore.T d).loc main_v1 ↦{fullShare} f1s d))
      ⊢ wp frame (wpE ((K (F := F)).defs (D (F := F))) 𝒱 (SparseCore.T d) none) Set.univ
          (Prog.lift (.customCall (SparseCore.inner (Pipeline.entry (0 : Fin 1))) ())) fun _ =>
          (iprop((∃ W, ⌜↑W ⊆ B ∪ cfg0.waitPairs (none : HIx 1)⌝ ∗ owes (SparseCore.T d) (Os d) W) ∗ scopedBufs (SparseCore.T d) ∗ scopedSems0 (SparseCore.T d)
            ∗ ((SparseCore.T d).loc main_v0 ↦{fullShare} tTs d)
            ∗ ∃ pc : S507904x128.Idx → Elt F .f32, ⌜PairedT (tTs d) pc⌝ ∗ ((SparseCore.T d).loc main_v1 ↦{fullShare} pc)) : sProp 𝕄) := by
  refine (repack_call (U := U) B (SlabOK (tTs d)) tTs f1s Os ER d hO
    (fun t dd => slabOK_fetched (U := U) d (tTs d) (f1s d) (Os d) B (SlabOK (tTs d)) t dd)).trans (wp_mono frame _ Set.univ fun _ => ?_)
  iintro ⟨HO, Hsb, Hss, Hv0, ⟨%pc, %hpc, Hv1⟩⟩
  isplitl [HO]; · iexact HO
  isplitl [Hsb]; · iexact Hsb
  isplitl [Hss]; · iexact Hss
  isplitl [Hv0]; · iexact Hv0
  iexists pc; isplitr
  · ipureintro; exact pairedT_of_arrAt (U := U) d (tTs d) (f1s d) (Os d) B pc hpc
  iexact Hv1

/-- **The call in the shape @main's proof asks, with the value**: as `repack_callStmt`, the continuation also told what the
    repacked table holds. -/
theorem repack_callStmt_paired [∀ e, Nonempty (Elt F e)] (EH : Emb (URounds (GSem nD τ sig) ℕ) 𝕄)
    (P : (K (F := F)).Pay (nD := nD) (Val := Elt F) (Name := ℕ) (U := U))
    (ER : Emb (URounds (GSem nD τ sig) Unit) 𝕄) [ER.LandsIn (upEmb : UEmb _ 𝕄)]
    (κ : GSem nD τ sig → ℕ) (d : Dev nD) (tT : Buf (Elt F) ((SparseCore.T (τ := τ) d).loc main_v0))
    (f1 : Buf (Elt F) ((SparseCore.T (τ := τ) d).loc main_v1)) (Φ : PUnit → sProp 𝕄) :
    iprop((K (F := F)).ctx EH P κ ∗ (K (F := F)).tcSt EH d 0 ∗ G ER d ∗ boundary (SparseCore.T d) ∗ (K (F := F)).tcSems0 d
        ∗ ((SparseCore.T d).loc main_v0 ↦{fullShare} tT) ∗ ((SparseCore.T d).loc main_v1 ↦{fullShare} f1)
        ∗ (((K (F := F)).tcSt EH d 0 ∗ boundary (SparseCore.T d)
            ∗ ∃ pc : S507904x128.Idx → Elt F .f32, ⌜PairedT tT pc⌝ ∗ ((SparseCore.T d).loc main_v1 ↦{fullShare} pc)) -∗ Φ ⟨⟩))
      ⊢ wp frame (wpE ((K (F := F)).defs (D (F := F))) 𝒱 (SparseCore.T d) none) Set.univ
          (Prog.lift (.customCall (SparseCore.inner (Pipeline.entry (0 : Fin 1))) ())) Φ := by
  classical
  -- the contents on the other devices do not matter: any
  let tTs : (c : Dev nD) → Buf (Elt F) ((SparseCore.T (τ := τ) c).loc main_v0) :=
    Function.update (fun c => show Buf (Elt F) ((SparseCore.T (τ := τ) c).loc main_v0) from fun _ => Classical.arbitrary _) d tT
  let f1s : (c : Dev nD) → Buf (Elt F) ((SparseCore.T (τ := τ) c).loc main_v1) :=
    Function.update (fun c => show Buf (Elt F) ((SparseCore.T (τ := τ) c).loc main_v1) from fun _ => Classical.arbitrary _) d f1
  have etT : tTs d = tT := Function.update_self _ _ _
  have ef1 : f1s d = f1 := Function.update_self _ _ _
  have hcall := repack_call_paired (U := U) {p : SemLoc sig × HIx 1 | p.2 = none} tTs f1s (fun c => (K (F := F)).Otc c 0) ER d
    (fun g => Otc_none d 0 g)
  rw [etT, ef1] at hcall
  unfold SparseCore.Cfg.tcSt SparseCore.Cfg.ctx boundary
  iintro ⟨⟨#Hlev, -⟩, ⟨⟨%W, %hW, HO⟩, Hrest⟩, ⟨Hg, Ht⟩, ⟨Hsb, Hss, Hidl⟩, -, Hv0, Hv1, Hk⟩
  iapply (wp_wand_r frame _ Set.univ)
  isplitl [HO Hg Ht Hsb Hss Hv0 Hv1]
  · iapply hcall
    isplitr; · iexact Hlev
    isplitl [Hg]; · iexact Hg
    isplitl [Ht]; · iexact Ht
    isplitl [HO]
    · iexists W; isplitr
      · ipureintro; intro p hp
        have h := hW p (Finset.mem_coe.mp hp)
        cases hp2 : p.2 with
        | none => exact hp2
        | some q => rw [hp2] at h; have := (K (F := F)).lev_some_pos (SparseCore.T d, p.1) q; omega
      iexact HO
    isplitl [Hsb]; · iexact Hsb
    isplitl [Hss]; · iexact Hss
    isplitl [Hv0]; · iexact Hv0
    iexact Hv1
  iintro %_ ⟨⟨%W', %hW', HO'⟩, Hsb, Hss, -, ⟨%pc, %hpc, Hpc⟩⟩
  iapply Hk
  isplitl [HO' Hrest]
  · isplitl [HO']
    · iexists W'; isplitr
      · ipureintro; intro p hp
        rcases hW' (Finset.mem_coe.mpr hp) with h | ⟨w, s, h⟩
        · rw [show p.2 = none from h, SparseCore.Cfg.lev_none]
        · rw [h, SparseCore.Cfg.lev_none]
      iexact HO'
    iexact Hrest
  isplitl [Hsb Hss Hidl]
  · isplitl [Hsb]; · iexact Hsb
    isplitl [Hss]; · iexact Hss
    iexact Hidl
  iexists pc; isplitr; · ipureintro; exact hpc
  iexact Hpc

end Cert.KernelIdeal.MainRepack

end
-- ==== Proof.KVMain.lean ====
/-
  @main on the TensorCore and the program's run, with the contents. After the table's transpose on the host the
  repacking call leaves the repacked table holding every row of the table in its pair row's half (the call's own
  theorem, over the transpose; read back over the table). The fact goes out with the SparseCores' read tokens; the
  SparseCores' columns of the transposed result come back at the lookup's values and, covering the array, leave it
  whole at them: column p holds row idx p of the table. The last transpose on the host turns that into the lookup
  itself, row p of the result row idx p of the table. What @main leaves the claim: the result at the lookup of the two
  arguments, the arguments at their launch contents.
-/
import proofs.«202062_g26379689132623_cont_9to1_709_23_alg».proof.Proof.KVPay
import proofs.«202062_g26379689132623_cont_9to1_709_23_alg».proof.Proof.KVSplit
import proofs.«202062_g26379689132623_cont_9to1_709_23_alg».proof.Proof.KVObl
import proofs.«202062_g26379689132623_cont_9to1_709_23_alg».proof.Proof.KVWrap
import proofs.«202062_g26379689132623_cont_9to1_709_23_alg».proof.Proof.KIMain
import proofs.«202062_g26379689132623_cont_9to1_709_23_alg».proof.Proof.KIElem
import proofs.«202062_g26379689132623_cont_9to1_709_23_alg».proof.Proof.KIMainRepackValue

noncomputable section

namespace Cert.KernelIdeal.TileV

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The split among the SparseCores, with the contents -/

/-- What @main holds of the three arrays before the SparseCore call, -/
abbrev mainResV (d : Dev nD) : sProp 𝕄 :=
  iprop((∃ pc, ⌜PairedOK (m (tLoc d)) pc⌝ ∗ pLoc d ↦{fullShare} pc) ∗ (iLoc d ↦{fullShare} m (iLoc d)) ∗ ∃ f, oLoc d ↦{fullShare} f)
/-- and after it: the transposed result whole at the lookup's values. -/
abbrev mainDnV (d : Dev nD) : sProp 𝕄 :=
  iprop((∃ pc, pLoc d ↦{fullShare} pc) ∗ (iLoc d ↦{fullShare} m (iLoc d)) ∗ (oLoc d ↦{fullShare} RT m d))

theorem oCoresV_join (d : Dev nD) :
    (bigSep Finset.univ fun c : Fin 2 => iprop(∃ f, ⌜∀ y ∈ colsCore c, f y = rowsT (m (iLoc d)) (m (tLoc d)) y⌝ ∗ oLoc d ↦[colsCore c]{fullShare} f))
      ⊢ (oLoc d ↦{fullShare} RT m d : sProp 𝕄) := by
  refine (bigSep_mono fun c _ => factPts_elim (ℓ := oLoc d) (I := colsCore c) (q := fullShare) (RT m d)).trans ?_
  rw [← oCores_split d (RT m d)]
  exact BI.Entails.refl _

theorem split2V [∀ e, Nonempty (Elt F e)] (d : Dev nD) :
    mainResV m d ⊢ iprop((bigSep Finset.univ fun c : Fin 2 => stResV m d c)
      ∗ ((bigSep Finset.univ fun c : Fin 2 => dnResV m d c) -∗ mainDnV m d)) := by
  unfold mainResV mainDnV stResV dnResV
  rw [bigSep_sep', bigSep_sep', bigSep_sep', bigSep_sep']
  iintro ⟨⟨%pc, %hpc, Hp⟩, Hi, ⟨%f, Ho⟩⟩
  ihave Hp' := (Transfers.pointsTo_toks_split fullShare 2) $$ Hp
  icases Hp' with ⟨Hpd, Hpt⟩
  ihave Hi' := (Transfers.pointsTo_toks_split fullShare 2) $$ Hi
  icases Hi' with ⟨Hid, Hit⟩
  ihave Ho' := (Entails.of_eq (oCores_split d f)) $$ Ho
  isplitl [Hpt Hit Ho']
  · isplitl [Hpt]
    · iapply (toks_exists_fact (ℓ := pLoc d) Finset.univ (fun c : Fin 2 => qCore c) (fun g => PairedOK (m (tLoc d)) g) pc hpc)
      iexact Hpt
    isplitl [Hit]; · iexact Hit
    iapply (toks_exists (ℓ := oLoc d) Finset.univ (fun _ : Fin 2 => fullShare) (fun c => colsCore c) f)
    iexact Ho'
  iintro ⟨Htp, Hti, Hto⟩
  ihave Hp2 := (toks_agree (ℓ := pLoc d) pc Finset.univ (fun c : Fin 2 => qCore c)) $$ [Hpd Htp]
  · isplitl [Hpd]; · iexact Hpd
    iexact Htp
  isplitl [Hp2]
  · iexists pc
    iapply (Transfers.pointsTo_toks_join fullShare 2); iexact Hp2
  isplitl [Hid Hti]
  · iapply (Transfers.pointsTo_toks_join fullShare 2)
    isplitl [Hid]; · iexact Hid
    iexact Hti
  iapply (oCoresV_join m d); iexact Hto

theorem st0V_eq (d : Dev nD) : (bigSep Finset.univ fun c : Fin ((K (F := F)).nCore 0) => (PV m).st 0 d c) = bigSep Finset.univ fun c : Fin 2 => stResV m d c :=
  bigSep_cores (F := F) (fun c => stResV m d c)
theorem dn0V_eq (d : Dev nD) : (bigSep Finset.univ fun c : Fin ((K (F := F)).nCore 0) => (PV m).dn 0 d c) = bigSep Finset.univ fun c : Fin 2 => dnResV m d c :=
  bigSep_cores (F := F) (fun c => dnResV m d c)

variable [FloatOps F]

/-! ## What the two host transposes leave -/

/-- The table's transpose. -/
abbrev tblT (d : Dev nD) : Buf (Elt F) (ttLoc d) := transpose S64x1000000 [1, 0] (m (tLoc d)) transposes_S1000000x64_S64x1000000_1_0

theorem res1_a1 (d : Dev nD) : (opT1 (F := F)).result (V0 m d) a1' = m (tLoc d) :=
  (opT1 (F := F)).result_of_not_mem (V0 m d) (b := a1') (show a1' ∉ ({v0'} : Finset (DevRef τ sig)) by decide)
theorem res1_v0 (d : Dev nD) : (opT1 (F := F)).result (V0 m d) v0' = tblT m d :=
  StableHlo.unary_result main_arg1 main_v0 _ _ _ (V0 m d)

/-- The transposed result's transpose is the lookup: row `p` of it is column `p` of the transposed result. -/
theorem transpose_rowsT (idx : S16384.Idx → BitVec 32) (table : S1000000x64.Idx → Elt F .f32) :
    transpose S16384x64 [1, 0] (rowsT idx table) transposes_S64x16384_S16384x64_1_0 = Cert.Lookup.rows idx table := by
  funext i
  obtain ⟨b, j, rfl⟩ : ∃ (b : Fin 16384) (j : Fin 64), i = ix2 b j := ⟨i 0, i 1, eq_ix2 i⟩
  rw [transpose_apply [1, 0] (rowsT idx table) transposes_S64x16384_S16384x64_1_0 (ix2 b j) (ix2 j b)
    (fun a => by match a with | ⟨0, _⟩ => rfl | ⟨1, _⟩ => rfl)]
  rfl

theorem res2_v2 (d : Dev nD) : (opT2 (F := F)).result (V2 m d (RT m d)) v2' = RT m d :=
  ((opT2 (F := F)).result_of_not_mem (V2 m d (RT m d)) (b := v2') (show v2' ∉ ({v3'} : Finset (DevRef τ sig)) by decide)).trans (V2_v2 m d _)
theorem res2_v3 (d : Dev nD) : (opT2 (F := F)).result (V2 m d (RT m d)) v3' = Cert.Lookup.rows (m (iLoc d)) (m (tLoc d)) :=
  (StableHlo.unary_result main_v2 main_v3 _ _ _ (V2 m d (RT m d))).trans (by rw [V2_v2]; exact transpose_rowsT (m (iLoc d)) (m (tLoc d)))

/-! ## @main on the TensorCore -/

/-- What @main leaves the claim: the arguments at their launch contents, the result at their lookup. -/
abbrev FINV (d : Dev nD) : sProp 𝕄 :=
  iprop((iLoc d ↦{fullShare} m (iLoc d)) ∗ (tLoc d ↦{fullShare} m (tLoc d)) ∗ (rLoc d ↦{fullShare} Cert.Lookup.rows (m (iLoc d)) (m (tLoc d))))

/-- The repacking call, as @main needs it, with the contents: the continuation is also told that the repacked table
    holds, for every row of the array the call read (the table's transpose, by columns), that column in its pair row's half. -/
abbrev CallStmtV (G : Dev nD → sProp 𝕄) : Prop :=
  ∀ (κ : GSem nD τ sig → ℕ) (d : Dev nD) (tT : Buf (Elt F) (ttLoc d)) (f1 : Buf (Elt F) (pLoc d)) (Φ : PUnit → sProp 𝕄),
    iprop((K (F := F)).ctx EH (PV m) κ ∗ (K (F := F)).tcSt EH d 0 ∗ G d ∗ boundary (SparseCore.T d) ∗ (K (F := F)).tcSems0 d
        ∗ (ttLoc d ↦{fullShare} tT) ∗ (pLoc d ↦{fullShare} f1)
        ∗ (((K (F := F)).tcSt EH d 0 ∗ boundary (SparseCore.T d)
            ∗ ∃ pc : S507904x128.Idx → Elt F .f32, ⌜Cert.KernelIdeal.MainRepack.PairedT tT pc⌝ ∗ (pLoc d ↦{fullShare} pc)) -∗ Φ ⟨⟩))
      ⊢ wp frame (wpE ((K (F := F)).defs (D (F := F))) 𝒱 (SparseCore.T d) none) Set.univ
          (Prog.lift (.customCall (SparseCore.inner (Pipeline.entry 0)) ())) Φ

theorem hmainV [∀ e, Nonempty (Elt F e)] (G : Dev nD → sProp 𝕄) (hcall : CallStmtV (F := F) m G) (κ : GSem nD τ sig → ℕ) (d : Dev nD) :
    iprop((K (F := F)).ctx EH (PV m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FINV m d) := by
  unfold SparseCore.Cfg.tcRes
  rw [unscopedBufs_eq]
  simp only [main, wp_bind, wp_pure]
  iintro ⟨#Hctx, Hst, ⟨Hb, ⟨Ha0, Ha1, Hv0, Hv1, Hv2, Hv3⟩, Hsems, -⟩, HG⟩
  -- the table's transpose, on the host
  iapply (wp_hlo_within 𝒱 (SparseCore.T d) none Set.univ (op := opT1) (S := S1) hT1 (V := V0 m d)) $$ [Hb Ha1 Hv0]
  · isplitl [Hb]; · iexact Hb
    rw [held_S1]
    isplitl [Ha1]; · iexact Ha1
    iexact Hv0
  iintro ⟨Hb, Hheld⟩
  ihave Hh := (Entails.of_eq (held_S1 (F := F) d _)) $$ Hheld
  rw [res1_a1, res1_v0]
  icases Hh with ⟨Ha1, Hv0⟩
  rw [wp_ret]; imodintro
  -- the repacking call
  iapply (hcall κ d (tblT m d) _ _) $$ [Hst HG Hb Hsems Hv0 Hv1 Ha0 Hv2 Ha1 Hv3]
  isplitr; · iexact Hctx
  isplitl [Hst]; · iexact Hst
  isplitl [HG]; · iexact HG
  isplitl [Hb]; · iexact Hb
  isplitl [Hsems]; · iexact Hsems
  isplitl [Hv0]; · iexact Hv0
  isplitl [Hv1]; · iexact Hv1
  iintro ⟨Hst, Hb, ⟨%pc, %hpT, Hv1⟩⟩
  have hpc : PairedOK (m (tLoc d)) pc := Cert.KernelIdeal.MainRepack.pairedOK_of_pairedT (m (tLoc d)) pc hpT
  -- the SparseCore call: the three arrays out to the two SparseCores and back
  ihave Hsp := (split2V m d) $$ [Hv1 Ha0 Hv2]
  · isplitl [Hv1]
    · iexists pc; isplitr
      · ipureintro; exact hpc
      · iexact Hv1
    isplitl [Ha0]; · iexact Ha0
    iexists _; iexact Hv2
  icases Hsp with ⟨Hsts, Hjoin⟩
  iapply ((K (F := F)).wp_run (D (F := F)) 𝒱 (EH := EH) (P := PV m) κ d 0) $$ [Hst Hsts Hjoin Hb Ha1 Hv3]
  isplitr; · iexact Hctx
  isplitl [Hst]; · iexact Hst
  isplitl [Hsts]; · rw [st0V_eq]; iexact Hsts
  iintro ⟨Hst, Hdn⟩
  ihave Hdn' := (Entails.of_eq (dn0V_eq m d)) $$ Hdn
  ispecialize Hjoin $$ Hdn'
  icases Hjoin with ⟨-, Ha0, Hv2⟩
  -- the result's transpose, on the host
  iapply (wp_hlo_within 𝒱 (SparseCore.T d) none Set.univ (op := opT2) (S := S2) hT2 (V := V2 m d (RT m d))) $$ [Hb Hv2 Hv3]
  · isplitl [Hb]; · iexact Hb
    rw [held_S2, V2_v2, V2_v3]
    isplitl [Hv2]; · iexact Hv2
    iexact Hv3
  iintro ⟨Hb, Hheld⟩
  ihave Hh := (Entails.of_eq (held_S2 (F := F) d _)) $$ Hheld
  rw [res2_v2, res2_v3]
  icases Hh with ⟨-, Hv3⟩
  rw [wp_ret]; imodintro; imodintro
  isplitl [Hst]; · iexact Hst
  isplitl [Ha0]; · iexact Ha0
  isplitl [Ha1]; · iexact Ha1
  iexact Hv3

/-! ## The final memory -/

def fqV (d : Dev nD) (s' : Phys nD τ sig (Elt F)) : Prop :=
  s'.mem.mem (rLoc d) = Cert.Lookup.rows (m (iLoc d)) (m (tLoc d)) ∧ s'.mem.mem (iLoc d) = m (iLoc d) ∧ s'.mem.mem (tLoc d) = m (tLoc d)

omit [FloatOps F] in
theorem hfinV (d : Dev nD) (s' : Phys nD τ sig (Elt F)) : iprop(FINV m d ∗ SI s') ⊢ (⌜fqV m d s'⌝ : sProp 𝕄) := by
  iintro ⟨⟨Hi, Hx, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Hx]
  · isplitl [HSI] <;> iassumption
  icases H with ⟨%h2, HSI, -⟩
  ihave H := (SI_pointsTo_agree (st := s') (ℓ := rLoc d) (I := Finset.univ) (q := fullShare) (f := Cert.Lookup.rows (m (iLoc d)) (m (tLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run, with the contents -/

theorem run_value_of [∀ e, Nonempty (Elt F e)] (hbody : TileBodyV (F := F) m) (G : Dev nD → sProp 𝕄) (hcall : CallStmtV (F := F) m G) (u : UU)
    (hu : (ownU u : sProp 𝕄) ⊢ |={Set.univ}=> iprop(BI.own (EH (initOf (K (F := F)).hsCells (K (F := F)).hsToks)) ∗ (bigSep Finset.univ G)
        ∗ bigSep Finset.univ fun thr : Thread nD τ => bigSep Finset.univ fun q : Fin 1 => (PV m).x q thr)) :
    θ_run (defs (F := F)) (threads (F := F)) ⟨m, fun _ => 0, ρ⟩
      (fun r => ∀ c : Dev nD,
        r.2.mem ((c.tc : Thread nD τ).loc main_v3) = Cert.Lookup.rows (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  SparseCore.Cfg.θ_run_sc (K := K (F := F)) (D := D (F := F)) (𝒱 := 𝒱) (EH := EH) (P := PV m) facts v₀
    (fun q hq => match q with | 0 => nomatch hq)
    (fun q _ => match q with | 0 => tileOblV m hbody)
    (fun q _ => match q with | 0 => SparseCore.Cfg.VecSplit.of_plain (vecSplitV m))
    m ρ main G (FINV m) u (sep_elim_left.trans hu) (hmainV m ρ G hcall) (fqV m) (hfinV m) _ (fun _ h => h)

/-- The run with the contents, all in: from the kernel's body over the program's memrefs. -/
theorem run_value [∀ e, Nonempty (Elt F e)] (hcore : CoreStmtV (F := F) m) :
    θ_run (defs (F := F)) (threads (F := F)) ⟨m, fun _ => 0, ρ⟩
      (fun r => ∀ c : Dev nD,
        r.2.mem ((c.tc : Thread nD τ).loc main_v3) = Cert.Lookup.rows (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  run_value_of m ρ (tileBodyV_of_core m hcore) (Cert.KernelIdeal.MainRepack.G (F := F) (U := UU) ER)
    (fun κ d tT f1 Φ => Cert.KernelIdeal.MainRepack.repack_callStmt_paired EH (PV m) ER κ d tT f1 Φ) (u₀ (F := F)) (hu₀ m)

end Cert.KernelIdeal.TileV

end
-- ==== Proof.LibStoreIdx.lean ====
/-
  An indexed store (a scatter of lanes into a buffer) read under a function. The store takes its lanes in ascending
  order and writes each, unmasked and without adding, at the index the index vectors name for it. If every lane's value
  is G at the index it names, then wherever the buffer agreed with G before it agrees after, and it agrees at every
  index some lane names — whatever the order, and whether or not two lanes name one index (both write G's value there).
  So a buffer filled by many such stores agrees with G on everything they have written so far. The companion for the
  indexed load: lane x of the load is the buffer at the index named for x.
-/
import Idealize.ShloMosaic.PureOps.ShapeOps

namespace Cert.StoreIdx

open Idealize.ShloMosaic

variable {F : FTy → Type} [FloatOps F] {s t : Shape} {e : EltTy}

/-- Lane `x` of an indexed load is the buffer at the index the index vectors name for `x`. -/
theorem loadIdx_apply (f : Vec F s e) (idxs : Fin s.rank → IVec t 32) (h : ∀ a x, (idxs a x).toNat < s.size a) (x : t.Idx) :
    loadIdx f idxs h x = f (idxAt idxs h x) := rfl

/-- Two indices with equal coordinates are equal. -/
theorem idx_eq_of_vals {j i : s.Idx} (h : ∀ a, (j a).val = (i a).val) : j = i :=
  funext fun a => Fin.ext (h a)

/-- The fold over a list of lanes keeps agreement with `G` on `D` and adds the indices the lanes name. -/
theorem foldl_agree {d : Fin 1 → Nat} (G : s.Idx → Elt F e) (idxs : Fin s.rank → IVec ⟨1, d⟩ 32) (v : Vec F ⟨1, d⟩ e)
    (h : ∀ a x, (idxs a x).toNat < s.size a) (hv : ∀ x, v x = G (idxAt idxs h x)) :
    ∀ (l : List (Fin (d 0))) (g : Vec F s e) (D : s.Idx → Prop), (∀ j, D j → g j = G j) →
      ∀ j, (D j ∨ ∃ k ∈ l, j = idxAt idxs h (Shape.ofLane k)) →
        (l.foldl (fun g k =>
          let x := Shape.ofLane k
          if (fun _ => 1#1 : IVec ⟨1, d⟩ 1) x = 1 then
            let i := idxAt idxs h x
            let y := if false then Elt.idxAdd e (g i) (v x) else v x
            fun j => if (∀ a, (j a).val = (i a).val) then y else g j
          else g) g) j = G j
  | [], g, D, hg, j, hj => by
    rcases hj with hj | ⟨k, hk, _⟩
    · exact hg j hj
    · cases hk
  | k :: l, g, D, hg, j, hj => by
    rw [List.foldl_cons]
    refine foldl_agree G idxs v h hv l _ (fun j => D j ∨ j = idxAt idxs h (Shape.ofLane k)) ?_ j ?_
    · intro j' hj'
      have h1 : ((1#1 : BitVec 1) = 1) := by decide
      simp only [if_pos h1, Bool.false_eq_true, if_false]
      by_cases hji : j' = idxAt idxs h (Shape.ofLane k)
      · have hc : ∀ a, (j' a).val = (idxAt idxs h (Shape.ofLane k) a).val := fun a => by rw [hji]
        rw [if_pos hc, hji]; exact hv _
      · have hc : ¬ ∀ a, (j' a).val = (idxAt idxs h (Shape.ofLane k) a).val := fun hh => hji (idx_eq_of_vals hh)
        rw [if_neg hc]
        rcases hj' with hj' | hj'
        · exact hg j' hj'
        · exact absurd hj' hji
    · rcases hj with hj | ⟨k', hk', hjk⟩
      · exact .inl (.inl hj)
      · rcases List.mem_cons.mp hk' with rfl | hk'
        · exact .inl (.inr hjk)
        · exact .inr ⟨k', hk', hjk⟩

/-- An unmasked, non-adding indexed store whose every lane writes `G` at the index it names: the buffer agrees with
    `G` wherever it did before and at every index a lane names. -/
theorem storeIdx_agree {d : Fin 1 → Nat} (G : s.Idx → Elt F e) (f : Vec F s e) (idxs : Fin s.rank → IVec ⟨1, d⟩ 32)
    (v : Vec F ⟨1, d⟩ e) (h : ∀ a x, (idxs a x).toNat < s.size a) (hv : ∀ x, v x = G (idxAt idxs h x))
    (D : s.Idx → Prop) (hf : ∀ j, D j → f j = G j) (j : s.Idx)
    (hj : D j ∨ ∃ k : Fin (d 0), j = idxAt idxs h (Shape.ofLane k)) :
    storeIdx f idxs v (fun _ => 1#1) false h j = G j := by
  unfold storeIdx
  refine foldl_agree G idxs v h hv (List.finRange (d 0)) f D hf j ?_
  rcases hj with hj | ⟨k, hk⟩
  · exact .inl hj
  · exact .inr ⟨k, List.mem_finRange k, hk⟩

end Cert.StoreIdx
-- ==== Proof.KVIndex.lean ====
/-
  Pure facts about indices for a vector subcore's task. The indexed copy's payload at an index: row k of the staged
  block, column c, is the source's row (the k-th word of the index list), column c. The index equation: where every
  index word read signed is in [0, 999999], the word n = idx p read unsigned is that number, its pair-row word is
  (n / 32768)·16384 + n mod 16384 and its half word (n / 16384 mod 2)·64, and a repacked table that holds row n of the
  table, column j, at that pair row and that half's column j holds there what the lookup returns at position p, column j.
  A write of a whole buffer, made last, leaves its payload whatever was written before, and a load of the whole buffer
  then reads it.
-/
import proofs.«202062_g26379689132623_cont_9to1_709_23_alg».proof.Proof.KISetup
import proofs.«202062_g26379689132623_cont_9to1_709_23_alg».proof.Proof.LibPairSplit
import proofs.«202062_g26379689132623_cont_9to1_709_23_alg».proof.Proof.LibStoreIdx
import Idealize.ShloMosaic.Lib.SparseCore.Stream
import Idealize.ShloMosaic.Lib.Pipeline.Value

noncomputable section

namespace Cert.KernelIdeal.TileV

open Cert.KernelIdeal Cert.KernelIdeal.Gen Cert.KernelIdeal.Tile

open Idealize.ShloMosaic
open Idealize.ShloMosaic.ValueIdx

variable {F : FTy → Type} [FloatOps F]

/-! ## The indexed copy's payload at an index -/

/-- Row `k` of the staged block, column `c`: the source at the row the list names for `k`, column `c`. -/
theorem gatherPayload_apply (hg : S507904x128.Gathers 0 S512x128) (g : S507904x128.Idx → Elt F .f32)
    (r : Fin (S512x128.size hg.axis') → Fin (S507904x128.size hg.axis)) (k : Fin 512) (c : Fin 128) :
    SparseCore.gatherPayload hg g r (ix2 k c) = g (ix2 (r k : Fin 507904) c) := by
  unfold SparseCore.gatherPayload
  refine congrArg g (funext fun b => Fin.ext ?_)
  match b with
  | ⟨0, _⟩ => exact congrArg Fin.val (hg.idx_axis r (ix2 k c))
  | ⟨1, _⟩ => exact hg.idx_of_ne r (ix2 k c) ⟨1, by decide⟩ (by decide)

/-- The rows a list of 512 words names: entry `k` is the `k`-th word, read unsigned. -/
theorem rows_apply {z : ℕ} (idx : S512.Idx → Elt F .i32) (hn : S512.numel = 512) (h : ∀ x, (idx x).toNat < z) (k : Fin 512) :
    SparseCore.rows idx hn h k = ⟨(idx (ix1 k)).toNat, h _⟩ := by
  have e : S512.rowMajor.symm (k.cast hn.symm) = ix1 k := by
    rw [Equiv.symm_apply_eq]; apply Fin.ext; rw [Shape.rowMajor_val_one]; rfl
  unfold SparseCore.rows
  apply Fin.ext
  show (idx _).toNat = (idx _).toNat
  rw [e]

/-! ## The index equation -/

/-- In range, a word read signed is the word read unsigned, below the table's height. -/
theorem toNat_of_inRange (w : BitVec 32) (h0 : 0 ≤ w.toInt) (h9 : w.toInt ≤ 999999) :
    w.toInt.toNat = w.toNat ∧ w.toNat < 1000000 := by
  have hlt := w.isLt
  have hc := BitVec.toInt_eq_toNat_cond w
  by_cases hh : 2 * w.toNat < 2 ^ 32
  · rw [if_pos hh] at hc; omega
  · rw [if_neg hh] at hc; omega

/-- In range, the pair-row word names a pair row of the repacked table, -/
theorem pairWord_lt (u : ArithUnit) (w : BitVec 32) (h0 : 0 ≤ w.toInt) (h9 : w.toInt ≤ 999999) :
    (Cert.PairSplit.pairWord u w).toNat < 507904 := by
  obtain ⟨-, hn⟩ := toNat_of_inRange w h0 h9
  rw [Cert.PairSplit.pairWord_toNat u w (by omega)]
  exact Cert.PairSplit.pair_lt _ hn

/-- and the half word plus a column below 64 a column of it. -/
theorem halfWord_col_lt (u : ArithUnit) (w : BitVec 32) (j : Fin 64) :
    (Cert.PairSplit.halfWord u w).toNat + j.val < 128 := by
  rw [Cert.PairSplit.halfWord_toNat u w]
  exact Cert.PairSplit.half_col_lt _ _ j.isLt

/-- Where every index is in range, a repacked table that holds the table's rows in their pair rows' halves holds, at
    the pair-row word and half word of the index at position `p`, column `j`, the lookup's result at (`j`, `p`). -/
theorem paired_lookup (idx : S16384.Idx → BitVec 32)
    (hr : ∀ b : Fin 16384, 0 ≤ (idx (ix1 b)).toInt ∧ (idx (ix1 b)).toInt ≤ 999999)
    (table : S1000000x64.Idx → Elt F .f32) (pc : S507904x128.Idx → Elt F .f32) (hpc : PairedOK table pc)
    (u : ArithUnit) (p : Fin 16384) (j : Fin 64)
    (h1 : (Cert.PairSplit.pairWord u (idx (ix1 p))).toNat < 507904)
    (h2 : (Cert.PairSplit.halfWord u (idx (ix1 p))).toNat + j.val < 128) :
    pc (ix2 (⟨(Cert.PairSplit.pairWord u (idx (ix1 p))).toNat, h1⟩ : Fin 507904)
        (⟨(Cert.PairSplit.halfWord u (idx (ix1 p))).toNat + j.val, h2⟩ : Fin 128))
      = rowsT idx table (ix2 j p) := by
  obtain ⟨h0, h9⟩ := hr p
  obtain ⟨hnat, hn⟩ := toNat_of_inRange (idx (ix1 p)) h0 h9
  have hpw := Cert.PairSplit.pairWord_toNat u (idx (ix1 p)) (by omega)
  have hhw := Cert.PairSplit.halfWord_toNat u (idx (ix1 p))
  have key := hpc ⟨(idx (ix1 p)).toNat, hn⟩ j
  -- the lookup at (j, p) reads the table's row idx p, clamped: in range, that row
  have hrow : rowsT idx table (ix2 j p) = table (ix2 (⟨(idx (ix1 p)).toNat, hn⟩ : Fin 1000000) j) := by
    unfold rowsT Cert.Lookup.rows
    refine congrArg table (congrArg (fun n : Fin 1000000 => ix2 n j) (Fin.ext ?_))
    show min (idx (ix1 p)).toInt.toNat 999999 = (idx (ix1 p)).toNat
    omega
  rw [hrow, ← key]
  refine congrArg pc ?_
  funext a
  match a with
  | ⟨0, _⟩ => exact Fin.ext (by show (Cert.PairSplit.pairWord u (idx (ix1 p))).toNat = pairRow (idx (ix1 p)).toNat; rw [hpw]; rfl)
  | ⟨1, _⟩ => exact Fin.ext (by show (Cert.PairSplit.halfWord u (idx (ix1 p))).toNat + j.val = halfOff (idx (ix1 p)).toNat + j.val; rw [hhw]; rfl)

/-! ## A whole-buffer write made last -/

section Whole

variable {Val : EltTy → Type} [∀ e, Nonempty (Val e)] {S : Shape} {e : EltTy}

/-- The contents a list of writes leaves, the last of them a write of the whole shape: its payload. -/
theorem canon_cons_whole (w : S.Idx → Val e) (L : List (View.Piece Val S e)) :
    View.canon ((⟨Rect.whole S, w⟩ : View.Piece Val S e) :: L) = w := by
  funext y
  have e' := View.canon_cons_emb (Val := Val) (Rect.whole S) w L y
  rw [Rect.emb_whole_apply] at e'
  exact e'

/-- A load of the whole shape after them reads that payload, whatever the view. -/
theorem readCov_cons_whole {sig : RefSig} {κ : Kind} {sp : Space} (v : View sig κ sp S e) (w : S.Idx → Val e)
    (L : List (View.Piece Val S e)) :
    v.readCov ((⟨Rect.whole S, w⟩ : View.Piece Val S e) :: L) (LoadRect.whole S) = w := by
  show v.readCov _ (Rect.whole S).toLoadRect = w
  rw [View.readCov_eq_canon_ld v _ (Rect.whole S) (fun y => ⟨_, List.mem_cons_self, by
    show y ∈ (Rect.whole S).set; rw [Rect.set_whole]; exact Finset.mem_univ y⟩), canon_cons_whole]
  funext x
  show w ((Rect.whole S).emb x) = w x
  rw [Rect.emb_whole_apply]

end Whole

end Cert.KernelIdeal.TileV

end
-- ==== Proof.KVDone.lean ====
/-
  Which elements of a vector subcore's 64 × 512 block one trip of its loop has written so far. Trip k (k < 4) makes
  512 indexed stores, in order; store n writes column j = n mod 64 of the sixteen rows 128 k + 16 q + l (q = n / 64,
  l = 0 ‥ 15) — the block's index (j, 128 k + 16 q + l). Before store n everything of the trips before is written, the
  groups below q in full, and of group q the columns below j. Each store adds exactly its sixteen indices; so a block
  that agrees with a function G on what is written before a store whose lanes carry G's values agrees with G on what is
  written after it.
-/
import proofs.«202062_g26379689132623_cont_9to1_709_23_alg».proof.Proof.KVIndex
import proofs.«202062_g26379689132623_cont_9to1_709_23_alg».proof.Proof.LibStoreIdx

noncomputable section

namespace Cert.KernelIdeal.TileV

open Cert.KernelIdeal Cert.KernelIdeal.Gen Cert.KernelIdeal.Tile

open Idealize.ShloMosaic
open Idealize.ShloMosaic.ValueIdx

/-- Written before store `n` of trip `k`: the rows below the store's group, and of the group's rows the columns
    below the store's. -/
def Done (k n : Nat) (y : S64x512.Idx) : Prop :=
  (y 1).val < 128 * k + 16 * (n / 64) ∨ ((y 1).val < 128 * k + 16 * (n / 64) + 16 ∧ (y 0).val < n % 64)

/-- Before the trip's first store: the trips before. -/
theorem done_zero (k : Nat) (y : S64x512.Idx) : Done k 0 y ↔ (y 1).val < 128 * k := by
  unfold Done; omega

/-- After its last: the trips up to it. -/
theorem done_last (k : Nat) (y : S64x512.Idx) : Done k 512 y ↔ (y 1).val < 128 * (k + 1) := by
  unfold Done; omega

/-- What store `n` adds: the sixteen indices its lanes name. -/
theorem done_step (k n : Nat) (hn : n < 512) (rows : IVec S16 32)
    (hrows : ∀ x : S16.Idx, (rows x).toNat = 128 * k + 16 * (n / 64) + (x 0).val)
    (jw : BitVec 32) (hj : jw.toNat = n % 64)
    (h : ∀ a x, ((![broadcast S16 jw, rows] : Fin 2 → IVec S16 32) a x).toNat < S64x512.size a)
    (y : S64x512.Idx) :
    Done k (n + 1) y → Done k n y ∨ ∃ l : Fin 16, y = idxAt ![broadcast S16 jw, rows] h (Shape.ofLane l) := by
  intro hy
  have h0 : (y 0).val < 64 := (y 0).isLt
  -- either it was written before, or it is in the store's column and among the store's sixteen rows
  have hc : Done k n y ∨ ((y 0).val = n % 64 ∧ 128 * k + 16 * (n / 64) ≤ (y 1).val ∧ (y 1).val < 128 * k + 16 * (n / 64) + 16) := by
    unfold Done at hy ⊢; omega
  rcases hc with hc | ⟨e0, hlo, hhi⟩
  · exact .inl hc
  · refine .inr ⟨⟨(y 1).val - (128 * k + 16 * (n / 64)), by omega⟩, ?_⟩
    refine Cert.StoreIdx.idx_eq_of_vals fun a => ?_
    match a with
    | ⟨0, _⟩ =>
      show (y 0).val = jw.toNat
      rw [hj]; exact e0
    | ⟨1, _⟩ =>
      show (y 1).val = (rows _).toNat
      rw [hrows]
      show (y 1).val = 128 * k + 16 * (n / 64) + ((y 1).val - (128 * k + 16 * (n / 64)))
      omega

/-- A block that agrees with `G` on what is written before store `n`, after a store whose lanes carry `G`'s values at
    the indices they name: it agrees with `G` on what is written before store `n + 1`. -/
theorem agree_step {F : FTy → Type} [FloatOps F] (G f : S64x512.Idx → Elt F .f32) (k n : Nat) (hn : n < 512) (rows : IVec S16 32)
    (hrows : ∀ x : S16.Idx, (rows x).toNat = 128 * k + 16 * (n / 64) + (x 0).val)
    (jw : BitVec 32) (hj : jw.toNat = n % 64)
    (h : ∀ a x, ((![broadcast S16 jw, rows] : Fin 2 → IVec S16 32) a x).toNat < S64x512.size a)
    (v : Vec F S16 .f32) (hv : ∀ x, v x = G (idxAt ![broadcast S16 jw, rows] h x))
    (hf : ∀ y, Done k n y → f y = G y) :
    ∀ y, Done k (n + 1) y → storeIdx f ![broadcast S16 jw, rows] v (fun _ => 1#1) false h y = G y :=
  fun y hy => Cert.StoreIdx.storeIdx_agree G f ![broadcast S16 jw, rows] v h hv (Done k n) hf y
    (done_step k n hn rows hrows jw hj h y hy)

end Cert.KernelIdeal.TileV

end
-- ==== Proof.KVCore.lean ====
/-
  One vector subcore's task WITH what it writes. Beyond what the frame's task proves (Proof/KITile.lean), it says which
  contents the subcore's 512 columns of the transposed result end with: column base + r, row j, holds the table's
  element (idx (base + r), j). The pair-row and half scratch hold, for position r, the words pairRow n and halfOff n of
  n = idx (base + r) (thirty-two sixteen-lane stores each, read back as one function); the indexed copy stages pair row
  pairRow n of the repacked table at staged row r; each of a trip's 512 indexed stores writes, for sixteen rows r and
  one column j, the staged element (r, halfOff n + j) at (j, r) of the block — every lane the value of ONE function of
  (j, r), so the block agrees with that function on everything written so far (a counter of the stores done, the
  one-store step applied 512 times a trip), and after the fourth trip everywhere —; the repacked table holds the
  table's element (n, j) at (pairRow n, halfOff n + j); the block is copied to the subcore's columns.
-/
import proofs.«202062_g26379689132623_cont_9to1_709_23_alg».proof.Proof.KVWrap
import proofs.«202062_g26379689132623_cont_9to1_709_23_alg».proof.Proof.KITile
import proofs.«202062_g26379689132623_cont_9to1_709_23_alg».proof.Proof.KVIndex
import proofs.«202062_g26379689132623_cont_9to1_709_23_alg».proof.Proof.KVDone

noncomputable section

namespace Cert.KernelIdeal.TileV

open Cert.KernelIdeal Cert.KernelIdeal.Gen Cert.KernelIdeal.Tile
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "pW" => (Memref.whole Cert.KernelIdeal.main_v1_scv : Memref Cert.KernelIdeal.sig Kind.scVector Space.hbm Cert.KernelIdeal.S507904x128 EltTy.f32)
local notation "iW" => (Memref.whole Cert.KernelIdeal.main_arg0_scv : Memref Cert.KernelIdeal.sig Kind.scVector Space.hbm Cert.KernelIdeal.S16384 EltTy.i32)
local notation "oW" => (Memref.whole Cert.KernelIdeal.main_v2_scv : Memref Cert.KernelIdeal.sig Kind.scVector Space.hbm Cert.KernelIdeal.S64x16384 EltTy.f32)
local notation "sI" => (Memref.whole Cert.KernelIdeal.cc1_scratch0 : Memref Cert.KernelIdeal.sig Kind.scVector Space.vmem Cert.KernelIdeal.S512 EltTy.i32)
local notation "sP" => (Memref.whole Cert.KernelIdeal.cc1_scratch1 : Memref Cert.KernelIdeal.sig Kind.scVector Space.vmem Cert.KernelIdeal.S512 EltTy.i32)
local notation "sH" => (Memref.whole Cert.KernelIdeal.cc1_scratch2 : Memref Cert.KernelIdeal.sig Kind.scVector Space.vmem Cert.KernelIdeal.S512 EltTy.i32)
local notation "sG" => (Memref.whole Cert.KernelIdeal.cc1_scratch3 : Memref Cert.KernelIdeal.sig Kind.scVector Space.vmem Cert.KernelIdeal.S512x128 EltTy.f32)
local notation "sB" => (Memref.whole Cert.KernelIdeal.cc1_scratch4 : Memref Cert.KernelIdeal.sig Kind.scVector Space.vmem Cert.KernelIdeal.S64x512 EltTy.f32)

/-- What the transposed block is to hold: at its index `x` the lookup's value at the element of the transposed result the
    program's slice puts `x` at. -/
def Tgt (m : (ℓ : Loc nD τ sig) → Buf (Elt F) ℓ) (d : Dev nD) (L : grid1.Coords) : S64x512.Idx → Elt F .f32 :=
  fun x => rowsT (m (iLoc d)) (m (tLoc d)) ((oSlice L).view.emb x)

/-- What the loop needs of the halves and the staged rows: the staged row `r`'s element at its half plus `j` is what the block
    is to hold at (`j`, `r`). -/
def GHfact (m : (ℓ : Loc nD τ sig) → Buf (Elt F) ℓ) (d : Dev nD) (L : grid1.Coords)
    (hc : Buf (Elt F) ((sH).view.loc (thrOf d L))) (gc : Buf (Elt F) ((sG).view.loc (thrOf d L))) : Prop :=
  ∀ (r : Fin 512) (j : Fin 64) (h : ((sH).view.read (Elt F) hc (ix1 r)).toNat + j.val < 128),
    (sG).view.read (Elt F) gc (ix2 r (⟨((sH).view.read (Elt F) hc (ix1 r)).toNat + j.val, h⟩ : Fin 128)) = Tgt m d L (ix2 j r)

/-- The program's slice puts the block's (`j`, `r`) at column `off + r` of row `j`. -/
theorem emb_oSlice (L : grid1.Coords) (j : Fin 64) (r : Fin 512) (hp : k1_off10 L 1 + r.val < 16384) :
    (oSlice L).view.emb (ix2 j r) = (ix2 j (⟨k1_off10 L 1 + r.val, hp⟩ : Fin 16384) : S64x16384.Idx) := by
  funext a
  match a with
  | ⟨0, _⟩ => exact Fin.ext (by show k1_off10 L 0 + 1 * j.val = j.val; rw [k1_off10_eq]; show 0 + 1 * j.val = j.val; omega)
  | ⟨1, _⟩ => exact Fin.ext (by show k1_off10 L 1 + 1 * r.val = k1_off10 L 1 + r.val; omega)

/-- From what the three scratch buffers hold to what the loop needs: the index scratch holds the subcore's 512 indices,
    the halves their half words, the staged rows the repacked table's rows at their pair-row words; the repacked table
    holds the table's rows in their pair rows' halves; every index names a row of the table. -/
theorem gh_of (m : (ℓ : Loc nD τ sig) → Buf (Elt F) ℓ) (hpre : PreOK m) (d : Dev nD) (L : grid1.Coords)
    (pc : S507904x128.Idx → Elt F .f32) (hpc : PairedOK (m (tLoc d)) pc) (Iv : S512.Idx → BitVec 32)
    (hI : ∀ (r : Fin 512) (hp : k1_off1 L 0 + r.val < 16384), Iv (ix1 r) = m (iLoc d) (ix1 (⟨k1_off1 L 0 + r.val, hp⟩ : Fin 16384)))
    (hc : Buf (Elt F) ((sH).view.loc (thrOf d L))) (hH : ∀ y, (sH).view.read (Elt F) hc y = Cert.PairSplit.halfWord ArithUnit.vector (Iv y))
    (gc : Buf (Elt F) ((sG).view.loc (thrOf d L)))
    (hG : ∀ (r : Fin 512) (c : Fin 128) (h1 : (Cert.PairSplit.pairWord ArithUnit.vector (Iv (ix1 r))).toNat < 507904),
      (sG).view.read (Elt F) gc (ix2 r c) = pc (ix2 (⟨(Cert.PairSplit.pairWord ArithUnit.vector (Iv (ix1 r))).toNat, h1⟩ : Fin 507904) c)) :
    GHfact m d L hc gc := by
  intro r j h
  have hoff : k1_off1 L 0 = k1_off10 L 1 := by rw [k1_off1_eq, k1_off10_eq]; rfl
  have hpb : k1_off10 L 1 + r.val < 16384 := by
    have h1 := k1_off10_inb L 1
    have h2 : S64x512.size 1 = 512 := rfl
    have h3 : S64x16384.size 1 = 16384 := rfl
    have := r.isLt
    omega
  have hIp : Iv (ix1 r) = m (iLoc d) (ix1 (⟨k1_off10 L 1 + r.val, hpb⟩ : Fin 16384)) := by
    rw [hI r (by rw [hoff]; exact hpb)]
    exact congrArg (fun n : Fin 16384 => m (iLoc d) (ix1 n)) (Fin.ext (by show k1_off1 L 0 + r.val = k1_off10 L 1 + r.val; rw [hoff]))
  have hw := hH (ix1 r)
  have h1 : (Cert.PairSplit.pairWord ArithUnit.vector (m (iLoc d) (ix1 (⟨k1_off10 L 1 + r.val, hpb⟩ : Fin 16384)))).toNat < 507904 :=
    pairWord_lt ArithUnit.vector _ (hpre d _).1 (hpre d _).2
  have h2 : (Cert.PairSplit.halfWord ArithUnit.vector (m (iLoc d) (ix1 (⟨k1_off10 L 1 + r.val, hpb⟩ : Fin 16384)))).toNat + j.val < 128 :=
    halfWord_col_lt ArithUnit.vector _ j
  have key := paired_lookup (F := F) (m (iLoc d)) (hpre d) (m (tLoc d)) pc hpc ArithUnit.vector (⟨k1_off10 L 1 + r.val, hpb⟩ : Fin 16384) j h1 h2
  rw [hG r _ (by rw [hIp]; exact h1)]
  unfold Tgt
  rw [emb_oSlice L j r hpb, ← key]
  refine congrArg pc (funext fun a => ?_)
  match a with
  | ⟨0, _⟩ => exact Fin.ext (by show (Cert.PairSplit.pairWord ArithUnit.vector (Iv (ix1 r))).toNat = _; rw [hIp])
  | ⟨1, _⟩ => exact Fin.ext (by show ((sH).view.read (Elt F) hc (ix1 r)).toNat + j.val = _; rw [hw, hIp])

/-- The indexed copy's payload at (`r`, `c`): the source at the row the `r`-th word of the list names, column `c`. -/
theorem gather_read (g : S507904x128.Idx → Elt F .f32) (P : S512.Idx → Elt F .i32) (hn : S512.numel = 512)
    (hlt : ∀ x, (P x).toNat < S507904x128.size gathers_S507904x128_S512x128.axis) (r : Fin 512) (c : Fin 128) :
    SparseCore.gatherPayload gathers_S507904x128_S512x128 g (SparseCore.rows P hn hlt) (ix2 r c)
      = g (ix2 (⟨(P (ix1 r)).toNat, hlt _⟩ : Fin 507904) c) := by
  rw [gatherPayload_apply]
  exact congrArg (fun k : Fin 507904 => g (ix2 k c)) (rows_apply (F := F) P hn hlt r)

/-- Sixteen consecutive rows from `128·k + c`: lane `x`'s row. -/
theorem rows_toNat (v : IVec S16 32) (hv : ∀ x : S16.Idx, (v x).toNat = (x 0).val) (kw c : BitVec 32) (hk : kw.toNat < 4) (hc : c.toNat ≤ 112) :
    ∀ x : S16.Idx, (addi v (broadcast S16 (Scalar.addi (Scalar.muli kw 128#32) c)) x).toNat = 128 * kw.toNat + c.toNat + (x 0).val := by
  intro x
  show (v x + (kw * 128#32 + c)).toNat = _
  have h128 : (128#32 : BitVec 32).toNat = 128 := by decide
  have hx : (x 0).val < 16 := (x 0).isLt
  rw [BitVec.toNat_add, BitVec.toNat_add, BitVec.toNat_mul, h128, hv x]
  omega

/-- One lane of a pair: the staged row's element at its half plus the column is what the block is to hold where the lane
    stores it. -/
theorem lane_value (m : (ℓ : Loc nD τ sig) → Buf (Elt F) ℓ) (d : Dev nD) (L : grid1.Coords)
    (hc : Buf (Elt F) ((sH).view.loc (thrOf d L))) (gc : Buf (Elt F) ((sG).view.loc (thrOf d L))) (hgh : GHfact m d L hc gc)
    (hh : ∀ y, ((sH).view.read (Elt F) hc y).toNat ≤ 64)
    (rows : IVec S16 32) (jw : BitVec 32) (hj : jw.toNat < 64)
    (off : Fin S512.rank → Nat) (inb : ∀ a, off a + S16.size a ≤ S512.size a)
    (hro : ∀ x : S16.Idx, (rows x).toNat = off 0 + (x 0).val)
    (hl : ∀ a x, ((![rows, addi ((sH).view.readAt (Elt F) (Rect.unit (s := S512) off S16.size inb).toLoadRect hc) (broadcast S16 jw)] : Fin 2 → IVec S16 32) a x).toNat < S512x128.size a)
    (h : ∀ a x, ((![broadcast S16 jw, rows] : Fin 2 → IVec S16 32) a x).toNat < S64x512.size a) (x : S16.Idx) :
    loadIdx ((sG).view.readAt (Elt F) (LoadRect.whole S512x128) gc)
        ![rows, addi ((sH).view.readAt (Elt F) (Rect.unit (s := S512) off S16.size inb).toLoadRect hc) (broadcast S16 jw)] hl x
      = Tgt m d L (idxAt ![broadcast S16 jw, rows] h x) := by
  have hr : (rows x).toNat < 512 := h 1 x
  have hrd : (sH).view.readAt (Elt F) (Rect.unit (s := S512) off S16.size inb).toLoadRect hc x
      = (sH).view.read (Elt F) hc (ix1 (⟨(rows x).toNat, hr⟩ : Fin 512)) := by
    rw [View.readAt_apply]
    refine congrArg ((sH).view.read (Elt F) hc) (funext fun a => Fin.ext ?_)
    obtain ⟨av, hav⟩ := a
    have hav1 : av < 1 := hav
    obtain rfl : av = 0 := by omega
    show off 0 + 1 * (x 0).val = (rows x).toNat
    rw [hro x]; omega
  have hle := hh (ix1 (⟨(rows x).toNat, hr⟩ : Fin 512))
  obtain ⟨a, ha⟩ : ∃ a : BitVec 32, a = (sH).view.readAt (Elt F) (Rect.unit (s := S512) off S16.size inb).toLoadRect hc x := ⟨_, rfl⟩
  have hsum : (addi ((sH).view.readAt (Elt F) (Rect.unit (s := S512) off S16.size inb).toLoadRect hc) (broadcast S16 jw) x).toNat
      = ((sH).view.read (Elt F) hc (ix1 (⟨(rows x).toNat, hr⟩ : Fin 512))).toNat + jw.toNat := by
    have e : addi ((sH).view.readAt (Elt F) (Rect.unit (s := S512) off S16.size inb).toLoadRect hc) (broadcast S16 jw) x = a + jw := by rw [ha]; rfl
    have ea : a.toNat = ((sH).view.read (Elt F) hc (ix1 (⟨(rows x).toNat, hr⟩ : Fin 512))).toNat := by rw [ha, hrd]
    rw [e, BitVec.toNat_add, ea]; omega
  have key := hgh ⟨(rows x).toNat, hr⟩ ⟨jw.toNat, hj⟩ (by show _ + jw.toNat < 128; omega)
  refine Eq.trans ?_ (key.trans (congrArg (Tgt m d L) ?_))
  · show (sG).view.read (Elt F) gc ((LoadRect.whole S512x128).idx _) = _
    refine congrArg ((sG).view.read (Elt F) gc) ((Rect.emb_whole_apply S512x128 _).trans (funext fun a => Fin.ext ?_))
    match a with
    | ⟨0, _⟩ => rfl
    | ⟨1, _⟩ => exact hsum
  · refine (Cert.StoreIdx.idx_eq_of_vals fun a => ?_).symm
    match a with
    | ⟨0, _⟩ => rfl
    | ⟨1, _⟩ => rfl

/-- The rows of store `n` of trip `kn`, lane by lane. -/
theorem rows_eq (v : IVec S16 32) (hv : ∀ x : S16.Idx, (v x).toNat = (x 0).val) (kw c : BitVec 32) (kn n : Nat)
    (hk : kw.toNat = kn) (hk4 : kn < 4) (hc : c.toNat = 16 * (n / 64)) (hc' : c.toNat ≤ 112) :
    ∀ x : S16.Idx, (addi v (broadcast S16 (Scalar.addi (Scalar.muli kw 128#32) c)) x).toNat = 128 * kn + 16 * (n / 64) + (x 0).val := by
  intro x
  rw [rows_toNat v hv kw c (by omega) hc' x, hk, hc]

/-- The loop's induction word at trip `k` is `k`. -/
theorem iv_toNat (k : Fin k1_t1_loop.trips) : (Scf.iv (0#32 : BitVec 32) 1#32 k.val).toNat = k.val := by
  have hk : k.val < 4 := k.isLt
  show ((0#32 : BitVec 32) + BitVec.ofNat 32 k.val * 1#32).toNat = k.val
  simp only [BitVec.toNat_add, BitVec.toNat_mul, BitVec.toNat_ofNat]
  omega

/-- Lane `x` of the sixteen-lane iota holds `x`. -/
theorem iota_toNat (h : S16.Iotas Kind.scVector 32 [0]) : ∀ x : S16.Idx, ((iota Kind.scVector S16 32 [0] h) x).toNat = (x 0).val := by
  intro x
  show (BitVec.ofNat 32 (0 * S16.size 0 + (x 0).val)).toNat = (x 0).val
  have hx : (x 0).val < 16 := (x 0).isLt
  rw [BitVec.toNat_ofNat]
  show (0 * 16 + (x 0).val) % 2 ^ 32 = (x 0).val
  omega

/-- The contents a list of writes leaves, the last of them a write of the whole block that agrees with `G` where `P` holds:
    a load of the whole block reads values that agree with `G` where `P` holds. -/
theorem agree_next {sig' : RefSig} {κ : Kind} {sp : Space} (v : View sig' κ sp S64x512 .f32) (G w : S64x512.Idx → Elt F .f32)
    (Lw : List (View.Piece (Elt F) S64x512 .f32)) (P : S64x512.Idx → Prop) (h : ∀ y, P y → w y = G y) :
    ∀ y, P y → v.readCov ((⟨Rect.whole S64x512, w⟩ : View.Piece (Elt F) S64x512 .f32) :: Lw) (LoadRect.whole S64x512) y = G y :=
  fun y hy => (congrFun (readCov_cons_whole v w Lw) y).trans (h y hy)

/-- Before the trip's first store the block agrees with `G` on the rows of the trips done. -/
theorem agree_base {sig' : RefSig} {κ : Kind} {sp : Space} (v : View sig' κ sp S64x512 .f32) (G : S64x512.Idx → Elt F .f32)
    (fb : v.ty.Contents (Elt F)) (k : Nat) (hB : ∀ x : S64x512.Idx, (x 1).val < 128 * k → v.read (Elt F) fb x = G x) :
    ∀ y, Done k 0 y → v.readAt (Elt F) (LoadRect.whole S64x512) fb y = G y := by
  intro y hy
  rw [View.readAt_apply, show (LoadRect.whole S64x512).idx y = y from Rect.emb_whole_apply S64x512 y]
  exact hB y ((done_zero k y).mp hy)

/-- `agree_step` stated at the number of stores done AFTER the store (so that it is read off the goal). -/
theorem agree_step' (G f : S64x512.Idx → Elt F .f32) (k n' : Nat) (hpos : 0 < n') (hn : n' ≤ 512) (rows : IVec S16 32)
    (hrows : ∀ x : S16.Idx, (rows x).toNat = 128 * k + 16 * ((n' - 1) / 64) + (x 0).val)
    (jw : BitVec 32) (hj : jw.toNat = (n' - 1) % 64)
    (h : ∀ a x, ((![broadcast S16 jw, rows] : Fin 2 → IVec S16 32) a x).toNat < S64x512.size a)
    (v : Vec F S16 .f32) (hv : ∀ x, v x = G (idxAt ![broadcast S16 jw, rows] h x))
    (hf : ∀ y, Done k (n' - 1) y → f y = G y) :
    ∀ y, Done k n' y → storeIdx f ![broadcast S16 jw, rows] v (fun _ => 1#1) false h y = G y := by
  have e : n' - 1 + 1 = n' := by omega
  have key := agree_step G f k (n' - 1) (by omega) rows hrows jw hj h v hv hf
  rwa [e] at key

/-- What the loop keeps, with the contents: the halves and the staged rows as they are, with what is known of them, and the
    transposed block at the lookup's values on the rows of the trips done. -/
def loopInvV (m : (ℓ : Loc nD τ sig) → Buf (Elt F) ℓ) (d : Dev nD) (L : grid1.Coords) (k : Nat) (_ : PUnit) : sProp 𝕄 :=
  iprop(∃ (hc : Buf (Elt F) ((sH).view.loc (thrOf d L))) (gc : Buf (Elt F) ((sG).view.loc (thrOf d L))) (fb : Buf (Elt F) ((sB).view.loc (thrOf d L))),
    ((sH).view.loc (thrOf d L) ↦{fullShare} hc) ∗ ((sG).view.loc (thrOf d L) ↦{fullShare} gc)
    ∗ ((sB).view.loc (thrOf d L) ↦{fullShare} fb)
    ∗ ⌜(∀ y, ((sH).view.read (Elt F) hc y).toNat ≤ 64) ∧ GHfact m d L hc gc
        ∧ ∀ x : S64x512.Idx, (x 1).val < 128 * k → (sB).view.read (Elt F) fb x = Tgt m d L x⌝)

set_option maxHeartbeats 8000000 in
theorem core_v_tryR (m : (ℓ : Loc nD τ sig) → Buf (Elt F) ℓ) (hpre : PreOK m)
    (d : Dev nD) (L : grid1.Coords) (q : PosShare TreeShare) (O : CellTallies nD τ sig (HIx 1)) (W : Waits sig (HIx 1))
    (hO : ∀ g, O g none = 0)
    (pc : Buf (Elt F) ((pW).view.loc (thrOf d L))) (oc : Buf (Elt F) ((oW).view.loc (thrOf d L)))
    (f0 : Buf (Elt F) ((sI).view.loc (thrOf d L))) (f1 : Buf (Elt F) ((sP).view.loc (thrOf d L))) (f2 : Buf (Elt F) ((sH).view.loc (thrOf d L)))
    (f3 : Buf (Elt F) ((sG).view.loc (thrOf d L))) (f4 : Buf (Elt F) ((sB).view.loc (thrOf d L))) (Q : PUnit → sProp 𝕄)
    (hpc : PairedOK (m (tLoc d)) pc) :
    iprop(levAts (K (F := F)).L (K (F := F)).lev
        ∗ ((pW).view.loc (thrOf d L) ↦{q} pc) ∗ ((iW).view.loc (thrOf d L) ↦{q} m (iLoc d))
        ∗ ((oSlice L).view.loc (thrOf d L) ↦[(oSlice L).view.set]{fullShare} oc)
        ∗ ((sI).view.loc (thrOf d L) ↦{fullShare} f0) ∗ ((sP).view.loc (thrOf d L) ↦{fullShare} f1) ∗ ((sH).view.loc (thrOf d L) ↦{fullShare} f2)
        ∗ ((sG).view.loc (thrOf d L) ↦{fullShare} f3) ∗ ((sB).view.loc (thrOf d L) ↦{fullShare} f4)
        ∗ semVal (thrOf d L, SemLoc.dma cc1_scratch5.sem) 0 ∗ semVal (thrOf d L, SemLoc.dma cc1_scoped0.sem) 0 ∗ semVal (thrOf d L, SemLoc.dma cc1_scoped1.sem) 0
        ∗ owes (thrOf d L) O W
        ∗ (iprop(((pW).view.loc (thrOf d L) ↦{q} pc) ∗ ((iW).view.loc (thrOf d L) ↦{q} m (iLoc d))
              ∗ (∃ oc', ⌜∀ y ∈ (oSlice L).view.set, oc' y = rowsT (m (iLoc d)) (m (tLoc d)) y⌝ ∗ (oSlice L).view.loc (thrOf d L) ↦[(oSlice L).view.set]{fullShare} oc')
              ∗ (∃ f, (sI).view.loc (thrOf d L) ↦{fullShare} f) ∗ (∃ f, (sP).view.loc (thrOf d L) ↦{fullShare} f) ∗ (∃ f, (sH).view.loc (thrOf d L) ↦{fullShare} f)
              ∗ (∃ f, (sG).view.loc (thrOf d L) ↦{fullShare} f) ∗ (∃ f, (sB).view.loc (thrOf d L) ↦{fullShare} f)
              ∗ semVal (thrOf d L, SemLoc.dma cc1_scratch5.sem) 0 ∗ semVal (thrOf d L, SemLoc.dma cc1_scoped0.sem) 0 ∗ semVal (thrOf d L, SemLoc.dma cc1_scoped1.sem) 0
              ∗ ∃ W', ⌜∀ p ∈ W', p ∈ W ∨ p.2 = none⌝ ∗ owes (thrOf d L) O W') -∗ Q ⟨⟩))
      ⊢ wp frame (wpE (defs₀ (F := F)) 𝒱₀ (thrOf d L) none) Set.univ
          (cc1_lookup L pW (Memref.isWhole_whole _) iW (Memref.isWhole_whole _) oW (Memref.isWhole_whole _)
            sI (Memref.isWhole_whole _) sP (Memref.isWhole_whole _) sH (Memref.isWhole_whole _) sG (Memref.isWhole_whole _) sB (Memref.isWhole_whole _)
            cc1_scratch5 cc1_scoped0 cc1_scoped1) Q := by
  rw [cc1_lookup_eq_skeleton]; unfold cc1_lookup_skel
  iintro ⟨#Hlv, Hp, Hi, Ho, H0, H1, H2, H3, H4, Hs5, Hsa, Hsb, HO, HQ⟩
  ihave Hmw := ((K (F := F)).mayWaits_none (thr := thrOf d L) hO) $$ Hlv
  -- the indices in, and the thirty-two groups of pair rows and halves
  set_option sl_exec.maxSteps 205 in sl_exec_parts
  generalize hio : iota Kind.scVector S16 32 [0] iota_S16_d0_w32_scVector = vio
  have hvio : ∀ x, (vio x).toNat < 16 := by rw [← hio]; exact iota_lt _
  have hvioe : ∀ x : S16.Idx, (vio x).toNat = (x 0).val := by rw [← hio]; exact iota_toNat _
  -- every index word is a row number of the table; so is every lane the subcore loads from its copy of them
  have hic : ∀ y : S16384.Idx, (m (iLoc d) y).toNat < 1000000 := by
    intro y
    obtain ⟨b, rfl⟩ : ∃ b : Fin 16384, y = ix1 b := ⟨y 0, eq_ix1 y⟩
    exact toNat_lt_of_range _ (hpre d b).1 (hpre d b).2
  have hidx : ∀ (off : Fin S512.rank → ℕ) (inb : ∀ a, off a + S16.size a ≤ S512.size a) (x : S16.Idx),
      (View.readAt (Elt F) (sI).view (Rect.unit (s := S512) off S16.size inb).toLoadRect
        (View.write (Elt F) (sI).view f0 (core_v_tryR.sl.dma0 m d L) Finset.univ) x).toNat < 1000000 := by
    intro off inb x
    rw [View.readAt_apply]
    show ((View.whole cc1_scratch0).read (Elt F) ((View.whole cc1_scratch0).write (Elt F) f0 (core_v_tryR.sl.dma0 m d L) Finset.univ) _).toNat < 1000000
    rw [View.write_whole_univ, View.read_whole]
    sl_unfold_run_names
    first
      | exact hic _
      | (rw [View.read_apply]; exact hic _)
      | (show (View.read _ _ _ _).toNat < _; rw [View.read_apply]; exact hic _)
      | (show (View.read _ _ _ _).toNat < _; rw [View.read_apply, cast_eq]; exact hic _)
  -- the pair rows name rows of the repacked table
  have hin : ∀ x : S512.Idx, (View.read (Elt F) (sP).view ((sP).view.writes (Elt F) (sP).view.junk
      (⟨Rect.unit (s := S512) ![496] S16.size inb_S512_S16_496,
          k1_pay102 (View.readAt (Elt F) (sI).view (Rect.unit (s := S512) ![496] S16.size inb_S512_S16_496).toLoadRect
            (View.write (Elt F) (sI).view f0 (core_v_tryR.sl.dma0 m d L) Finset.univ))⟩ :: core_v_tryR.sl.H1_31 m d L f0)) x).toNat
        < S507904x128.size gathers_S507904x128_S512x128.axis := by
    intro x
    refine read_writes_all (Val := Elt F) (sP).view _ _ ?hc (fun w : Elt F .i32 => w.toNat < 507904) ?hL x
    case hc =>
      sl_unfold_run_names
      exact View.cover_of_tiledL _ S16.size (by sl_kernel_rfl)
    case hL =>
      sl_unfold_run_names
      simp only [List.forall_mem_cons]
      and_intros
      all_goals first
        | exact pair_lanes_lt _ (hidx _ _)
        | exact fun _ h => nomatch h
  -- the pair-row scratch holds the pair-row words of what the index scratch holds
  have hPW : ∀ y : S512.Idx, View.read (Elt F) (sP).view ((sP).view.writes (Elt F) (sP).view.junk
      (⟨Rect.unit (s := S512) ![496] S16.size inb_S512_S16_496,
          k1_pay102 (View.readAt (Elt F) (sI).view (Rect.unit (s := S512) ![496] S16.size inb_S512_S16_496).toLoadRect
            (View.write (Elt F) (sI).view f0 (core_v_tryR.sl.dma0 m d L) Finset.univ))⟩ :: core_v_tryR.sl.H1_31 m d L f0)) y
        = Cert.PairSplit.pairWord ArithUnit.vector ((fun y => (sI).view.read (Elt F) (View.write (Elt F) (sI).view f0 (core_v_tryR.sl.dma0 m d L) Finset.univ) y) y) := by
    intro y
    refine View.read_writes_apply_of_pieces (Val := Elt F) (sP).view _ (fun y => (Cert.PairSplit.pairWord ArithUnit.vector ((fun y => (sI).view.read (Elt F) (View.write (Elt F) (sI).view f0 (core_v_tryR.sl.dma0 m d L) Finset.univ) y) y) : Elt F .i32)) _ ?hL y ?hcv
    case hcv =>
      sl_unfold_run_names
      exact (View.cover_of_tiledL (s := S512) _ S16.size (by sl_kernel_rfl)) y
    case hL =>
      sl_unfold_run_names
      simp only [List.forall_mem_cons]
      and_intros
      all_goals first
        | (intro x; rfl)
        | exact fun _ h => nomatch h
  -- the indexed copy and its wait
  sl_exec
  -- the four trips
  sl_for (loopInvV (F := F) m d L) $$ [H2 H3 H4]
  case region =>
    intro k _
    unfold loopInvV
    iintro ⟨%hc, %gc, %fb, H2, H3, H4, %hinv⟩
    obtain ⟨hh, hgh, hB⟩ := hinv
    sl_exec_parts (disch := (sl_unfold_run_names; first
      | exact chk_scatter _ _ (by decide) (rrel_lt _ hvio _ _ (iv_lt _) (by decide))
      | exact chk_gather _ _ _ (by decide) (rrel_lt _ hvio _ _ (iv_lt _) (by decide)) (readAt_le _ _ _ _ hh)))
    sl_step
    iexists hc, gc, _
    isplitl [H2]; · iexact H2
    isplitl [H3]; · iexact H3
    isplitl [H4]; · iexact H4
    ipureintro
    refine ⟨hh, hgh, ?_⟩
    intro x hx
    have hD := (done_last k.val x).mpr hx
    rw [← Rect.emb_whole_apply S64x512 x, View.read_writes_cons_emb, Rect.emb_whole_apply]
    clear hx
    revert x
    iterate 511 (
      refine agree_step' (Tgt m d L) _ k.val _ (by decide) (by decide) _ ?_ _ ?_ _ _ ?_ ?_
      · (sl_unfold_run_names; exact rows_eq vio hvioe _ _ k.val _ (iv_toNat k) k.isLt (by decide) (by decide))
      · (first | decide | rfl | (sl_unfold_run_names; decide))
      · (sl_unfold_run_names; refine lane_value m d L hc gc hgh hh _ _ (by decide) _ _ (fun x => ?_) _ _; refine Eq.trans (rows_toNat vio hvioe (Scf.iv 0#32 1#32 k.val) _ (by rw [iv_toNat]; exact k.isLt) (by decide) x) ?_; rw [iv_toNat]; simp only [k1_off2_eq, k1_off3_eq, k1_off4_eq, k1_off5_eq, k1_off6_eq, k1_off7_eq, k1_off8_eq, k1_off9_eq, Matrix.cons_val_zero, Matrix.cons_val_fin_one, BitVec.toNat_ofNat, Nat.reducePow, Nat.reduceMod] <;> omega)
      refine agree_next _ _ _ _ _ ?_)
    refine agree_step' (Tgt m d L) _ k.val _ (by decide) (by decide) _ ?_ _ ?_ _ _ ?_ ?_
    · (sl_unfold_run_names; exact rows_eq vio hvioe _ _ k.val _ (iv_toNat k) k.isLt (by decide) (by decide))
    · (first | decide | rfl | (sl_unfold_run_names; decide))
    · (sl_unfold_run_names; refine lane_value m d L hc gc hgh hh _ _ (by decide) _ _ (fun x => ?_) _ _; refine Eq.trans (rows_toNat vio hvioe (Scf.iv 0#32 1#32 k.val) _ (by rw [iv_toNat]; exact k.isLt) (by decide) x) ?_; rw [iv_toNat]; simp only [k1_off2_eq, k1_off3_eq, k1_off4_eq, k1_off5_eq, k1_off6_eq, k1_off7_eq, k1_off8_eq, k1_off9_eq, Matrix.cons_val_zero, Matrix.cons_val_fin_one, BitVec.toNat_ofNat, Nat.reducePow, Nat.reduceMod] <;> omega)
    exact agree_base (F := F) (sB).view (Tgt m d L) fb k.val hB
  · unfold loopInvV
    iexists _, _, _
    isplitl [H2]; · iexact H2
    isplitl [H3]; · iexact H3
    isplitl [H4]; · iexact H4
    ipureintro
    refine ⟨?hh, ?gh, fun x hx => absurd hx (by omega)⟩
    case gh =>
      refine gh_of m hpre d L pc hpc (fun y => (sI).view.read (Elt F) (View.write (Elt F) (sI).view f0 (core_v_tryR.sl.dma0 m d L) Finset.univ) y) ?hI _ ?hH _ ?hG
      case hI =>
        intro r hp
        show (View.whole cc1_scratch0).read (Elt F) ((View.whole cc1_scratch0).write (Elt F) f0 (core_v_tryR.sl.dma0 m d L) Finset.univ) (ix1 r) = _
        rw [View.write_whole_univ, View.read_whole]
        sl_unfold_run_names
        show m (iLoc d) ((((Memref.whole main_arg0_scv).slice (Rect.unit (s := S16384) (k1_off1 L) S512.size (k1_off1_inb L)) (fun _ => rfl)).view).emb (ix1 r)) = _
        refine congrArg (m (iLoc d)) (funext fun a => Fin.ext ?_)
        obtain ⟨av, hav⟩ := a
        have hav1 : av < 1 := hav
        obtain rfl : av = 0 := by omega
        show k1_off1 L 0 + 1 * r.val = k1_off1 L 0 + r.val
        omega
      case hH =>
        intro y
        refine View.read_writes_apply_of_pieces (Val := Elt F) (sH).view _ (fun y => (Cert.PairSplit.halfWord ArithUnit.vector ((fun y => (sI).view.read (Elt F) (View.write (Elt F) (sI).view f0 (core_v_tryR.sl.dma0 m d L) Finset.univ) y) y) : Elt F .i32)) _ ?hL y ?hcv
        case hcv =>
          sl_unfold_run_names
          exact (View.cover_of_tiledL (s := S512) _ S16.size (by sl_kernel_rfl)) y
        case hL =>
          sl_unfold_run_names
          simp only [List.forall_mem_cons]
          and_intros
          all_goals first
            | (intro x; rfl)
            | exact fun _ h => nomatch h
      case hG =>
        intro r c h1
        have hz : (![0, 0] : Fin 2 → Nat) = fun _ => 0 := funext fun a => by fin_cases a <;> rfl
        sl_unfold_run_names
        rw [← Rect.emb_whole_apply cc1_scratch3.ty.shape (ix2 r c), View.read_writes_cons_emb]
        refine (gather_read _ _ _ _ r c).trans ?_
        refine (congrFun (Memref.read_access_unit_zero (Elt F) main_v1_scv hz _ pc) _).trans ?_
        exact congrArg pc (congrArg (fun k : Fin 507904 => (ix2 k c : S507904x128.Idx)) (Fin.ext (congrArg BitVec.toNat (hPW (ix1 r)))))
    intro y
    refine read_writes_all (Val := Elt F) (sH).view _ _ ?hc (fun w : Elt F .i32 => w.toNat ≤ 64) ?hL y
    case hc =>
      sl_unfold_run_names
      exact View.cover_of_tiledL _ S16.size (by sl_kernel_rfl)
    case hL =>
      sl_unfold_run_names
      simp only [List.forall_mem_cons]
      and_intros
      all_goals first
        | exact half_lanes_le _
        | exact fun _ h => nomatch h
  -- the block out, and its wait
  iintro %_ HI
  unfold loopInvV
  icases HI with ⟨%hc, %gc, %fb, H2, H3, H4, %hfin⟩
  sl_exec
  sl_step
  iapply HQ
  isplitl [Hp]; · iexact Hp
  isplitl [Hi]; · iexact Hi
  isplitl [Ho]
  · iexists _; isplitr
    rotate_left
    · iexact Ho
    · ipureintro
      have htr : Scf.trips k1_t1_loop.lb k1_t1_loop.ub k1_t1_loop.st = 4 := by decide +kernel
      intro y hy
      obtain ⟨x, rfl⟩ := View.exists_emb_of_mem_set (oSlice L).view hy
      have hB := hfin.2.2 x (by rw [htr]; exact (x 1).isLt)
      have e1 := View.read_writes_cons_emb (Val := Elt F) (oSlice L).view oc (Rect.whole _) (core_v_tryR.sl.dma0_1 d L fb) [] x
      rw [Rect.emb_whole_apply] at e1
      refine Eq.trans ?_ (e1.trans ?_)
      · rfl
      · sl_unfold_run_names
        exact hB
  isplitl [H0]; · iexists _; iexact H0
  isplitl [H1]; · iexists _; iexact H1
  isplitl [H2]; · iexists _; iexact H2
  isplitl [H3]; · iexists _; iexact H3
  isplitl [H4]; · iexists _; iexact H4
  isplitl [Hs5]; · iexact Hs5
  isplitl [Hsa]; · iexact Hsa
  isplitl [Hsb]; · iexact Hsb
  iexists _
  isplitr
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    exact .inl hp

/-- The task with its result's contents, for every vector subcore, in the form the launch's wrapper takes. -/
theorem core_v (m : (ℓ : Loc nD τ sig) → Buf (Elt F) ℓ) (hpre : PreOK m) : CoreStmtV (F := F) m :=
  fun d L q O W hO pc oc f0 f1 f2 f3 f4 Q hpc => core_v_tryR m hpre d L q O W hO pc oc f0 f1 f2 f3 f4 Q hpc

end Cert.KernelIdeal.TileV

end
-- ==== Proof.KernelIdealRun.lean ====
/-
  The kernel's run with its result named: under the stated input domain every weakly fair execution of the device's
  threads terminates, nothing faulting, with the result array at the lookup of the two arguments and both arguments
  unchanged. It is the launch of the program's threads (Proof/KVMain.lean) from one vector subcore's task with what it
  writes (Proof/KVCore.lean) and the repacking call with what the repacked table holds
  (Proof/KIMainRepackValue.lean).
-/
import proofs.«202062_g26379689132623_cont_9to1_709_23_alg».proof.Defs
import proofs.«202062_g26379689132623_cont_9to1_709_23_alg».proof.Proof.Lookup
import proofs.«202062_g26379689132623_cont_9to1_709_23_alg».proof.Proof.PreRange
import proofs.«202062_g26379689132623_cont_9to1_709_23_alg».proof.Proof.KVMain
import proofs.«202062_g26379689132623_cont_9to1_709_23_alg».proof.Proof.KVCore
import proofs.«202062_g26379689132623_cont_9to1_709_23_alg».proof.Proof.Gen.KernelIdeal
import proofs.«202062_g26379689132623_cont_9to1_709_23_alg».proof.Proof.Gen.Pre_input_domain

noncomputable section

namespace Cert.KernelIdeal.Run

open Cert.KernelIdeal Cert.KernelIdeal.Gen Idealize.ShloMosaic Idealize.SL.Sem

/-- The run of the whole program at the ideal instance: the strongest post the claims need. -/
theorem run (m : (ℓ : Loc nD τ sig) → Buf (Elt Ideal) ℓ) (g : Dev nD → PrngReg) (hpre : Cert.Pre_KernelIdeal m) :
    θ_run (defs (F := Ideal)) (threads (F := Ideal)) ⟨m, fun _ => 0, g⟩ (fun r => ∀ c : Dev nD,
      r.2.mem ((c.tc : Thread nD τ).loc main_v3)
        = Cert.Lookup.rows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Cert.KernelIdeal.TileV.run_value m g
    (Cert.KernelIdeal.TileV.core_v m (fun d b => Cert.Pre_input_domain.Range.index_range _ _ (hpre d) b))

end Cert.KernelIdeal.Run

end
-- ==== Proof.lean ====
/-
  The five claims, assembled. The reference's frame is its run with the result dropped. The idealization rewrote
  nothing, so there is nothing to preserve. Each kernel frame is the launch of the program's threads — @main on the
  TensorCore around the repacking pipeline and the SparseCore call, two sequencers, thirty-two vector subcores — from
  one subcore's task run once at a symbolic place (Proof/KITile.lean at the ideal instance, Proof/KBTile.lean at the
  word level), the repacking call (Proof/KIMainRepack.lean, Proof/KBMainRepack.lean) and @main around them
  (Proof/KIMain.lean, Proof/KBMain.lean); what they need of the memory is that every index names a row of the table,
  which the stated input domain gives (Proof/PreRange.lean). The equivalence pairs the kernel's run with the
  reference's — both results the lookup of the same two arguments, the reference's by Proof/RefValue.lean and
  Proof/Lookup.lean — through the kernel's run with its RESULT named (Proof/KernelIdealRun.lean), itself the launch
  (Proof/KVMain.lean) from the subcore's task with what it writes (Proof/KVCore.lean).
-/
import proofs.«202062_g26379689132623_cont_9to1_709_23_alg».proof.Defs
import proofs.«202062_g26379689132623_cont_9to1_709_23_alg».proof.Proof.Gen.Kernel
import proofs.«202062_g26379689132623_cont_9to1_709_23_alg».proof.Proof.Gen.KernelIdeal
import proofs.«202062_g26379689132623_cont_9to1_709_23_alg».proof.Proof.Gen.ReferenceIdeal
import proofs.«202062_g26379689132623_cont_9to1_709_23_alg».proof.Proof.Gen.Pre_input_domain
import proofs.«202062_g26379689132623_cont_9to1_709_23_alg».proof.Proof.RefRun
import proofs.«202062_g26379689132623_cont_9to1_709_23_alg».proof.Proof.RefValue
import proofs.«202062_g26379689132623_cont_9to1_709_23_alg».proof.Proof.PreRange
import proofs.«202062_g26379689132623_cont_9to1_709_23_alg».proof.Proof.Lookup
import proofs.«202062_g26379689132623_cont_9to1_709_23_alg».proof.Proof.KIMain
import proofs.«202062_g26379689132623_cont_9to1_709_23_alg».proof.Proof.KITile
import proofs.«202062_g26379689132623_cont_9to1_709_23_alg».proof.Proof.KBMain
import proofs.«202062_g26379689132623_cont_9to1_709_23_alg».proof.Proof.KBTile
import proofs.«202062_g26379689132623_cont_9to1_709_23_alg».proof.Proof.KernelIdealRun
import Idealize.ShloMosaic.Adequacy
import Idealize.ShloMosaic.Init

noncomputable section

namespace Cert.Proof

open Idealize.ShloMosaic Idealize.SL.Sem

/-- Under the stated input domain every index word, read signed, is a row number of the table. -/
theorem preOK_k (m : (ℓ : Loc Cert.Kernel.nD Cert.Kernel.τ Cert.Kernel.sig) → Buf (Elt Bits) ℓ) (hpre : Cert.Pre_Kernel m) :
    Cert.Kernel.Tile.PreOK m :=
  fun d b => Cert.Pre_input_domain.Range.index_range _ _ (hpre d) b

theorem preOK_ki (m : (ℓ : Loc Cert.KernelIdeal.nD Cert.KernelIdeal.τ Cert.KernelIdeal.sig) → Buf (Elt Ideal) ℓ)
    (hpre : Cert.Pre_KernelIdeal m) : Cert.KernelIdeal.Tile.PreOK m :=
  fun d b => Cert.Pre_input_domain.Range.index_range _ _ (hpre d) b

theorem frame_k : Cert.frame_Kernel := fun m g hpre =>
  Cert.Kernel.Tile.run_frame_all m g (Cert.Kernel.Tile.tile_body m (preOK_k m hpre))

theorem frame_ki : Cert.frame_KernelIdeal := fun m g hpre =>
  Cert.KernelIdeal.Tile.run_frame_all m g (Cert.KernelIdeal.Tile.tile_body m (preOK_ki m hpre))

theorem frame_ri : Cert.frame_ReferenceIdeal := fun m g _ =>
  (θ_run Cert.ReferenceIdeal.defs _ _).mono (fun _ h c => (h c).2) (Cert.ReferenceIdeal.RefRun.run (F := Ideal) m g)

theorem preserves : Cert.preserves_Kernel_KernelIdeal := trivial

/-- Both programs end at the lookup of the same arguments. -/
theorem algebraic : Cert.algebraic_KernelIdeal_ReferenceIdeal := by
  intro m g m' g' hpre hagree
  refine ⟨_, Cert.KernelIdeal.Run.run m g hpre, ?_⟩
  refine (θ_run Cert.ReferenceIdeal.defs _ _).mono (fun _ h c => ⟨(h c).1.trans ?_, (h c).2⟩)
    (Cert.ReferenceIdeal.RefRun.run (F := Ideal) m' g')
  rw [(hagree c).1, (hagree c).2]
  exact Cert.Lookup.takeRows_eq_rows _ _ (fun b => Cert.Pre_input_domain.Range.index_range _ _ (hpre c) b)

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
